-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096 : Shape := ⟨1, ![4096]⟩
abbrev S1000000x32 : Shape := ⟨2, ![1000000, 32]⟩
abbrev S1000000x1 : Shape := ⟨2, ![1000000, 1]⟩
abbrev S_ : Shape := ⟨0, ![]⟩

class Facts : Prop where
  bcast_S_S1000000x32 : S_.BroadcastsInDim S1000000x32 (![] : Fin 0 → Fin S1000000x32.rank)
  reducesTo_S1000000x32_S_d0_1 : S1000000x32.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg0 : IVec S4096 32) (main_arg1 : IVec S4096 32) (main_v13 : IVec S_ 1) (main_v16 : IVec S1000000x1 1) : IVec S_ 1 :=
  let main_c_5 : IVec S_ 1 := constantI S_ 1 1#1
  let main_v17 : IVec S_ 1 := (fun x v => Host.reduce IntOp.andi x v reducesTo_S1000000x1_S_d0_1 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg0 main_v19
  let main_c_7 : IVec S_ 32 := constantI S_ 32 999999#32
  let main_v21 : IVec S4096 32 := broadcastInDim S4096 ![] bcast_S_S4096 main_c_7
  let main_v22 : IVec S4096 1 := cmpi .sle main_arg0 main_v21
  let main_v23 : IVec S4096 1 := andi main_v20 main_v22
  let main_c_8 : IVec S_ 1 := constantI S_ 1 1#1
  let main_v24 : IVec S_ 1 := (fun x v => Host.reduce IntOp.andi x v reducesTo_S4096_S_d0 h_S_) main_v23 main_c_8
  let main_v25 : IVec S_ 1 := andi main_v18 main_v24
  let main_c_9 : IVec S_ 32 := constantI S_ 32 0#32
  let main_v26 : IVec S4096 32 := broadcastInDim S4096 ![] bcast_S_S4096 main_c_9
  let main_v27 : IVec S4096 1 := cmpi .sge main_arg1 main_v26
  let main_c_10 : IVec S_ 32 := constantI S_ 32 999999#32
  let main_v28 : IVec S4096 32 := broadcastInDim S4096 ![] bcast_S_S4096 main_c_10
  let main_v29 : IVec S4096 1 := cmpi .sle main_arg1 main_v28
  let main_v30 : IVec S4096 1 := andi main_v27 main_v29
  let main_c_11 : IVec S_ 1 := constantI S_ 1 1#1
  let main_v31 : IVec S_ 1 := (fun x v => Host.reduce IntOp.andi x v reducesTo_S4096_S_d0 h_S_) main_v30 main_c_11
  let main_v32 : IVec S_ 1 := andi main_v25 main_v31
  main_v32

def fn {F : FTy → Type} [FloatOps F] (main_arg0 : IVec S4096 32) (main_arg1 : IVec S4096 32) (main_arg2 : FVec F S1000000x32 .f32) (main_arg3 : FVec F S1000000x32 .f32) (main_arg4 : FVec F S1000000x1 .f32) (main_arg5 : FVec F S1000000x1 .f32) : IVec S_ 1 :=
  let main_v0 : FVec F S1000000x32 .f32 := Host.absf main_arg2
  let main_cst : FVec F S_ .f32 := constant S_ .f32 0x7F800000#32
  let main_v1 : FVec F S1000000x32 .f32 := broadcastInDim S1000000x32 ![] bcast_S_S1000000x32 main_cst
  let main_v2 : IVec S1000000x32 1 := cmpf .olt main_v0 main_v1
  let main_c : IVec S_ 1 := constantI S_ 1 1#1
  let main_v3 : IVec S_ 1 := (fun x v => Host.reduce IntOp.andi x v reducesTo_S1000000x32_S_d0_1 h_S_) main_v2 main_c
  let main_v4 : FVec F S1000000x32 .f32 := Host.absf main_arg3
  let main_cst_0 : FVec F S_ .f32 := constant S_ .f32 0x7F800000#32
  let main_v5 : FVec F S1000000x32 .f32 := broadcastInDim S1000000x32 ![] bcast_S_S1000000x32 main_cst_0
  let main_v6 : IVec S1000000x32 1 := cmpf .olt main_v4 main_v5
  let main_c_1 : IVec S_ 1 := constantI S_ 1 1#1
  let main_v7 : IVec S_ 1 := (fun x v => Host.reduce IntOp.andi x v reducesTo_S1000000x32_S_d0_1 h_S_) main_v6 main_c_1
  let main_v8 : IVec S_ 1 := andi main_v3 main_v7
  let main_v9 : FVec F S1000000x1 .f32 := Host.absf main_arg4
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S1000000x1 .f32 := Host.absf main_arg5
  let main_cst_4 : FVec F S_ .f32 := constant S_ .f32 0x7F800000#32
  let main_v15 : FVec F S1000000x1 .f32 := broadcastInDim S1000000x1 ![] bcast_S_S1000000x1 main_cst_4
  let main_v16 : IVec S1000000x1 1 := cmpf .olt main_v14 main_v15
  fn_part1 (F := F) main_arg0 main_arg1 main_v13 main_v16
-- ==== Kernel.lean ====
abbrev S4096 : Shape := ⟨1, ![4096]⟩
abbrev S1000000x32 : Shape := ⟨2, ![1000000, 32]⟩
abbrev S1000000x1 : Shape := ⟨2, ![1000000, 1]⟩
abbrev S32x1000000 : Shape := ⟨2, ![32, 1000000]⟩
abbrev S253952x128 : Shape := ⟨2, ![253952, 128]⟩
abbrev S32x16384 : Shape := ⟨2, ![32, 16384]⟩
abbrev S4096x128 : Shape := ⟨2, ![4096, 128]⟩
abbrev S32x4096 : Shape := ⟨2, ![32, 4096]⟩
abbrev S4096x32 : Shape := ⟨2, ![4096, 32]⟩
abbrev S1000000 : Shape := ⟨1, ![1000000]⟩
abbrev S128 : Shape := ⟨1, ![128]⟩
abbrev S128x128 : Shape := ⟨2, ![128, 128]⟩
abbrev S_ : Shape := ⟨0, ![]⟩
abbrev S16 : Shape := ⟨1, ![16]⟩
abbrev S4096x1 : Shape := ⟨2, ![4096, 1]⟩
abbrev S1x4096 : Shape := ⟨2, ![1, 4096]⟩
abbrev S4096x4096 : Shape := ⟨2, ![4096, 4096]⟩
abbrev S512x1 : Shape := ⟨2, ![512, 1]⟩
abbrev S512x4096 : Shape := ⟨2, ![512, 4096]⟩

abbrev nBuf : Table → Nat
  | .hbm => 21
  | .local .tc .vmem => 18
  | .local .scVector .vmem => 8
  | _ => 0

abbrev bufTy : (tb : Table) → Fin (nBuf tb) → BufTy
  | .hbm, ⟨0, _⟩ => ⟨S4096, .i32⟩
  | .hbm, ⟨1, _⟩ => ⟨S4096, .i32⟩
  | .hbm, ⟨2, _⟩ => ⟨S1000000x32, .f32⟩
  | .hbm, ⟨3, _⟩ => ⟨S1000000x32, .f32⟩
  | .hbm, ⟨4, _⟩ => ⟨S1000000x1, .f32⟩
  | .hbm, ⟨5, _⟩ => ⟨S1000000x1, .f32⟩
  | .hbm, ⟨6, _⟩ => ⟨S32x1000000, .f32⟩
  | .hbm, ⟨7, _⟩ => ⟨S253952x128, .f32⟩
  | .hbm, ⟨8, _⟩ => ⟨S32x1000000, .f32⟩
  | .hbm, ⟨9, _⟩ => ⟨S253952x128, .f32⟩
  | .hbm, ⟨10, _⟩ => ⟨S1000000, .f32⟩
  | .hbm, ⟨11, _⟩ => ⟨S1000000, .f32⟩
  | .hbm, ⟨12, _⟩ => ⟨S4096x128, .f32⟩
  | .hbm, ⟨13, _⟩ => ⟨S4096x128, .f32⟩
  | .hbm, ⟨14, _⟩ => ⟨S4096, .f32⟩
  | .hbm, ⟨15, _⟩ => ⟨S4096x1, .i32⟩
  | .hbm, ⟨16, _⟩ => ⟨S4096x1, .i32⟩
  | .hbm, ⟨17, _⟩ => ⟨S4096x1, .f32⟩
  | .hbm, ⟨18, _⟩ => ⟨S1x4096, .f32⟩
  | .hbm, ⟨19, _⟩ => ⟨S4096x1, .f32⟩
  | .hbm, ⟨20, _⟩ => ⟨S4096x4096, .f32⟩
  | .local .tc .vmem, ⟨0, _⟩ => ⟨S32x16384, .f32⟩
  | .local .tc .vmem, ⟨1, _⟩ => ⟨S32x16384, .f32⟩
  | .local .tc .vmem, ⟨2, _⟩ => ⟨S4096x128, .f32⟩
  | .local .tc .vmem, ⟨3, _⟩ => ⟨S4096x128, .f32⟩
  | .local .tc .vmem, ⟨4, _⟩ => ⟨S32x16384, .f32⟩
  | .local .tc .vmem, ⟨5, _⟩ => ⟨S32x16384, .f32⟩
  | .local .tc .vmem, ⟨6, _⟩ => ⟨S4096x128, .f32⟩
  | .local .tc .vmem, ⟨7, _⟩ => ⟨S4096x128, .f32⟩
  | .local .tc .vmem, ⟨8, _⟩ => ⟨S4096x128, .f32⟩
  | .local .tc .vmem, ⟨9, _⟩ => ⟨S4096x128, .f32⟩
  | .local .tc .vmem, ⟨10, _⟩ => ⟨S4096x1, .i32⟩
  | .local .tc .vmem, ⟨11, _⟩ => ⟨S4096x1, .i32⟩
  | .local .tc .vmem, ⟨12, _⟩ => ⟨S4096x1, .f32⟩
  | .local .tc .vmem, ⟨13, _⟩ => ⟨S1x4096, .f32⟩
  | .local .tc .vmem, ⟨14, _⟩ => ⟨S512x1, .f32⟩
  | .local .tc .vmem, ⟨15, _⟩ => ⟨S512x1, .f32⟩
  | .local .tc .vmem, ⟨16, _⟩ => ⟨S512x4096, .f32⟩
  | .local .tc .vmem, ⟨17, _⟩ => ⟨S512x4096, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128x128, .f32⟩
  | .local .scVector .vmem, ⟨5, _⟩ => ⟨S128x128, .f32⟩
  | .local .scVector .vmem, ⟨6, _⟩ => ⟨S128, .f32⟩
  | .local .scVector .vmem, ⟨7, _⟩ => ⟨S128, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v1_scv : Ref sig .scVector := ⟨.hbm, 7, rfl⟩
abbrev main_v3_scv : Ref sig .scVector := ⟨.hbm, 9, rfl⟩
abbrev main_arg0_scv : Ref sig .scVector := ⟨.hbm, 0, rfl⟩
abbrev main_arg1_scv : Ref sig .scVector := ⟨.hbm, 1, rfl⟩
abbrev main_v4_scv : Ref sig .scVector := ⟨.hbm, 10, rfl⟩
abbrev main_v5_scv : Ref sig .scVector := ⟨.hbm, 11, rfl⟩
abbrev main_v6_0_scv : Ref sig .scVector := ⟨.hbm, 12, rfl⟩
abbrev main_v6_1_scv : Ref sig .scVector := ⟨.hbm, 13, rfl⟩
abbrev main_v6_2_scv : Ref sig .scVector := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc3_stg0_0 : Ref sig .tc := ⟨.vmem, 8, rfl⟩
abbrev cc3_stg1_0 : Ref sig .tc := ⟨.vmem, 9, rfl⟩
abbrev cc3_stg2_0 : Ref sig .tc := ⟨.vmem, 10, rfl⟩
abbrev cc3_stg3_0 : Ref sig .tc := ⟨.vmem, 11, rfl⟩
abbrev cc3_stg4_0 : Ref sig .tc := ⟨.vmem, 12, rfl⟩
abbrev cc4_stg0_0 : Ref sig .tc := ⟨.vmem, 13, rfl⟩
abbrev cc4_stg1_0 : Ref sig .tc := ⟨.vmem, 14, rfl⟩
abbrev cc4_stg1_1 : Ref sig .tc := ⟨.vmem, 15, rfl⟩
abbrev cc4_stg2_0 : Ref sig .tc := ⟨.vmem, 16, rfl⟩
abbrev cc4_stg2_1 : Ref sig .tc := ⟨.vmem, 17, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc3_sem0_0 : DmaSem sig := 17
abbrev cc3_sem1_0 : DmaSem sig := 18
abbrev cc3_sem2_0 : DmaSem sig := 19
abbrev cc3_sem3_0 : DmaSem sig := 20
abbrev cc3_sem4_0 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![62], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_104_r2 : BitVec 32 := 0#32
  ![v2.toNat, 0]
abbrev grid3 : Pipeline.Grid := .none

abbrev stage3_0 : Fin 1 → Memref sig .tc .vmem S4096x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S4096x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S4096x1 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S4096x1 .i32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S4096x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S1x4096 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S512x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x4096 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x32_S32x1000000_1_0 : S1000000x32.Transposes [1, 0] S32x1000000
  inb_S32x16384_S32x4096_0_0 : ∀ a, (![0, 0] : Fin 2 → Nat) a + S32x4096.size a ≤ S32x16384.size a
  h_S32x4096 : 0 < S32x4096.numel
  shapeCasts_S32x4096_S32x4096 : S32x4096.ShapeCasts S32x4096
  transposes_S32x4096_p1_0_S4096x32 : S32x4096.Transposes [1, 0] S4096x32
  inb_S4096x128_S4096x32_0_0 : ∀ a, (![0, 0] : Fin 2 → Nat) a + S4096x32.size a ≤ S4096x128.size a
  h_S4096x32 : 0 < S4096x32.numel
  inb_S32x16384_S32x4096_0_4096 : ∀ a, (![0, 4096] : Fin 2 → Nat) a + S32x4096.size a ≤ S32x16384.size a
  inb_S4096x128_S4096x32_0_32 : ∀ a, (![0, 32] : Fin 2 → Nat) a + S4096x32.size a ≤ S4096x128.size a
  inb_S32x16384_S32x4096_0_8192 : ∀ a, (![0, 8192] : Fin 2 → Nat) a + S32x4096.size a ≤ S32x16384.size a
  inb_S4096x128_S4096x32_0_64 : ∀ a, (![0, 64] : Fin 2 → Nat) a + S4096x32.size a ≤ S4096x128.size a
  inb_S32x16384_S32x4096_0_12288 : ∀ a, (![0, 12288] : Fin 2 → Nat) a + S32x4096.size a ≤ S32x16384.size a
  inb_S4096x128_S4096x32_0_96 : ∀ a, (![0, 96] : Fin 2 → Nat) a + S4096x32.size a ≤ S4096x128.size a
  shapeCasts_S1000000x1_S1000000 : S1000000x1.ShapeCasts S1000000
  inb_S128_S16_0 : ∀ a, (![0] : Fin 1 → Nat) a + S16.size a ≤ S128.size a
  h_S16 : 0 < S16.numel
  shapeCasts_S16_S16 : S16.ShapeCasts S16
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S253952x128_S253952x128_0_0 : ∀ a, (![0, 0] : Fin 2 → Nat) a + S253952x128.size a ≤ S253952x128.size a
  gathers_S253952x128_S128x128 : S253952x128.Gathers 0 S128x128
  inb_S1000000_S1000000_0 : ∀ a, (![0] : Fin 1 → Nat) a + S1000000.size a ≤ S1000000.size a
  gathers_S1000000_S128 : S1000000.Gathers 0 S128
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  shapeCasts_S4096x32_S4096x32 : S4096x32.ShapeCasts S4096x32
  broadcasts_S4096x1_S4096x32 : S4096x1.Broadcasts S4096x32
  reduces_S4096x32_S4096 : S4096x32.Reduces [1] S4096
  shapeCasts_S4096x1_S1x4096 : S4096x1.ShapeCasts S1x4096
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S512x1_S512x4096 : S512x1.Broadcasts S512x4096
  broadcasts_S1x4096_S512x4096 : S1x4096.Broadcasts S512x4096
  inb_S512x4096_S512x4096_0_0 : ∀ a, (![0, 0] : Fin 2 → Nat) a + S512x4096.size a ≤ S512x4096.size a
  h_S512x4096 : 0 < S512x4096.numel
  hcc2_scratch8 : 8 + S_.numel ≤ 27
  hcc2_scratch9 : 9 + S_.numel ≤ 27
  hcc2_scratch10 : 10 + S_.numel ≤ 27
  hcc2_scratch11 : 11 + S_.numel ≤ 27
  hcc2_scoped0 : 12 + S_.numel ≤ 27
  hcc2_scoped1 : 13 + S_.numel ≤ 27
  hcc2_scoped2 : 14 + S_.numel ≤ 27
  hcc2_scoped3 : 15 + S_.numel ≤ 27
  hcc2_scoped4 : 16 + S_.numel ≤ 27
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x16384.size a < S32x1000000.size a
  hwx0_0 : ∀ i : grid0.Coords, EltTy.bits .f32 = 32 ∨ (Rect.unit (s := S32x1000000) (fun a => cc0_transform_0 i a * S32x16384.size a) (fun a => (Pipeline.Clip.of (cc0_transform_0 i a) (S32x16384.size a) (S32x1000000.size a)).extent (S32x16384.size a)) fun a => Pipeline.Clip.inb (Pipeline.Clip.ok_of (hstart0_0 i a))).WholeWords (EltTy.packing .f32)
  hwxs0_0 : ∀ i : grid0.Coords, EltTy.bits .f32 = 32 ∨ (Rect.unit (s := S32x16384) (fun _ => 0) (fun a => (Pipeline.Clip.of (cc0_transform_0 i a) (S32x16384.size a) (S32x1000000.size a)).extent (S32x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S253952x128.size a
  hwx0_1 : ∀ i : grid0.Coords, EltTy.bits .f32 = 32 ∨ (Rect.block (s := S253952x128) S4096x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S32x16384.size a < S32x1000000.size a
  hwx1_0 : ∀ i : grid1.Coords, EltTy.bits .f32 = 32 ∨ (Rect.unit (s := S32x1000000) (fun a => cc1_transform_0 i a * S32x16384.size a) (fun a => (Pipeline.Clip.of (cc1_transform_0 i a) (S32x16384.size a) (S32x1000000.size a)).extent (S32x16384.size a)) fun a => Pipeline.Clip.inb (Pipeline.Clip.ok_of (hstart1_0 i a))).WholeWords (EltTy.packing .f32)
  hwxs1_0 : ∀ i : grid1.Coords, EltTy.bits .f32 = 32 ∨ (Rect.unit (s := S32x16384) (fun _ => 0) (fun a => (Pipeline.Clip.of (cc1_transform_0 i a) (S32x16384.size a) (S32x1000000.size a)).extent (S32x16384.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S253952x128.size a
  hwx1_1 : ∀ i : grid1.Coords, EltTy.bits .f32 = 32 ∨ (Rect.block (s := S253952x128) S4096x128.size (cc1_transform_1 i) (hinb1_1 i)).WholeWords (EltTy.packing .f32)
  hcore2 : grid2.bound 0 ≤ τ.nSC
  hsub2 : grid2.bound 1 ≤ τ.nSub
  k2_off1_inb : ∀ i : grid2.Coords, ∀ a, (k2_off1 i) a + S128.size a ≤ S4096.size a
  k2_off2_inb : ∀ i : grid2.Coords, ∀ a, (k2_off2 i) a + S128x128.size a ≤ S4096x128.size a
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x4096.size a ≤ S1x4096.size a
  hwx4_0 : ∀ i : grid4.Coords, EltTy.bits .f32 = 32 ∨ (Rect.block (s := S1x4096) S1x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x1.size a ≤ S4096x1.size a
  hwx4_1 : ∀ i : grid4.Coords, EltTy.bits .f32 = 32 ∨ (Rect.block (s := S4096x1) S512x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x4096.size a ≤ S4096x4096.size a
  hwx4_2 : ∀ i : grid4.Coords, EltTy.bits .f32 = 32 ∨ (Rect.block (s := S4096x4096) S512x4096.size (cc4_transform_2 i) (hinb4_2 i)).WholeWords (EltTy.packing .f32)

variable [Facts₀]

abbrev cc2_scratch8 : DmaSems sig S_ := SemArray.consecutive 8 S_ hcc2_scratch8
abbrev cc2_scratch9 : DmaSems sig S_ := SemArray.consecutive 9 S_ hcc2_scratch9
abbrev cc2_scratch10 : DmaSems sig S_ := SemArray.consecutive 10 S_ hcc2_scratch10
abbrev cc2_scratch11 : DmaSems sig S_ := SemArray.consecutive 11 S_ hcc2_scratch11
abbrev cc2_scoped0 : DmaSems sig S_ := SemArray.consecutive 12 S_ hcc2_scoped0
abbrev cc2_scoped1 : DmaSems sig S_ := SemArray.consecutive 13 S_ hcc2_scoped1
abbrev cc2_scoped2 : DmaSems sig S_ := SemArray.consecutive 14 S_ hcc2_scoped2
abbrev cc2_scoped3 : DmaSems sig S_ := SemArray.consecutive 15 S_ hcc2_scoped3
abbrev cc2_scoped4 : DmaSems sig S_ := SemArray.consecutive 16 S_ hcc2_scoped4

abbrev win0_0 : Pipeline.Window sig grid0 :=
  Pipeline.Window.ofSpecClip (Memref.whole main_v0) S32x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpecClip (Memref.whole main_v2) S32x16384.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v3) S4096x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win3_0 : Pipeline.Window sig grid3 :=
  Pipeline.Window.whole (Memref.whole main_v6_0) false false (stage3_0 0) (sem3_0 0) (Memref.isWhole_whole _) (hstage3_0 0)

abbrev win3_1 : Pipeline.Window sig grid3 :=
  Pipeline.Window.whole (Memref.whole main_v6_1) false false (stage3_1 0) (sem3_1 0) (Memref.isWhole_whole _) (hstage3_1 0)

abbrev win3_2 : Pipeline.Window sig grid3 :=
  Pipeline.Window.whole (Memref.whole main_v7) false false (stage3_2 0) (sem3_2 0) (Memref.isWhole_whole _) (hstage3_2 0)

abbrev win3_3 : Pipeline.Window sig grid3 :=
  Pipeline.Window.whole (Memref.whole main_v8) false false (stage3_3 0) (sem3_3 0) (Memref.isWhole_whole _) (hstage3_3 0)

abbrev win3_4 : Pipeline.Window sig grid3 :=
  Pipeline.Window.whole (Memref.whole main_v9) true false (stage3_4 0) (sem3_4 0) (Memref.isWhole_whole _) (hstage3_4 0)

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v10) S1x4096.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v11) S512x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S512x4096.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S4096 : Shape := ⟨1, ![4096]⟩
abbrev S1000000x32 : Shape := ⟨2, ![1000000, 32]⟩
abbrev S1000000x1 : Shape := ⟨2, ![1000000, 1]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x32 : Shape := ⟨2, ![4096, 32]⟩
abbrev S1x4096 : Shape := ⟨2, ![1, 4096]⟩
abbrev S4096x4096 : Shape := ⟨2, ![4096, 4096]⟩

abbrev nBuf : Space → Nat
  | .hbm => 107
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S1000000x32, .f32⟩
  | .hbm, ⟨3, _⟩ => ⟨S1000000x32, .f32⟩
  | .hbm, ⟨4, _⟩ => ⟨S1000000x1, .f32⟩
  | .hbm, ⟨5, _⟩ => ⟨S1000000x1, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S1, .i32⟩
  | .hbm, ⟨15, _⟩ => ⟨S_, .i32⟩
  | .hbm, ⟨16, _⟩ => ⟨S4096x1, .i32⟩
  | .hbm, ⟨17, _⟩ => ⟨S4096x1, .i1⟩
  | .hbm, ⟨18, _⟩ => ⟨S1x1, .i32⟩
  | .hbm, ⟨19, _⟩ => ⟨S4096x1, .i32⟩
  | .hbm, ⟨20, _⟩ => ⟨S4096x1, .i1⟩
  | .hbm, ⟨21, _⟩ => ⟨S4096x1, .i1⟩
  | .hbm, ⟨22, _⟩ => ⟨S_, .i1⟩
  | .hbm, ⟨23, _⟩ => ⟨S4096, .i1⟩
  | .hbm, ⟨24, _⟩ => ⟨S4096x32, .f32⟩
  | .hbm, ⟨25, _⟩ => ⟨S4096x32, .i1⟩
  | .hbm, ⟨26, _⟩ => ⟨S_, .f32⟩
  | .hbm, ⟨27, _⟩ => ⟨S4096x32, .f32⟩
  | .hbm, ⟨28, _⟩ => ⟨S4096x32, .f32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S4096x1, .i32⟩
  | .hbm, ⟨37, _⟩ => ⟨S1, .i32⟩
  | .hbm, ⟨38, _⟩ => ⟨S_, .i32⟩
  | .hbm, ⟨39, _⟩ => ⟨S4096x1, .i32⟩
  | .hbm, ⟨40, _⟩ => ⟨S4096x1, .i1⟩
  | .hbm, ⟨41, _⟩ => ⟨S1x1, .i32⟩
  | .hbm, ⟨42, _⟩ => ⟨S4096x1, .i32⟩
  | .hbm, ⟨43, _⟩ => ⟨S4096x1, .i1⟩
  | .hbm, ⟨44, _⟩ => ⟨S4096x1, .i1⟩
  | .hbm, ⟨45, _⟩ => ⟨S_, .i1⟩
  | .hbm, ⟨46, _⟩ => ⟨S4096, .i1⟩
  | .hbm, ⟨47, _⟩ => ⟨S4096x32, .f32⟩
  | .hbm, ⟨48, _⟩ => ⟨S4096x32, .i1⟩
  | .hbm, ⟨49, _⟩ => ⟨S_, .f32⟩
  | .hbm, ⟨50, _⟩ => ⟨S4096x32, .f32⟩
  | .hbm, ⟨51, _⟩ => ⟨S4096x32, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S1, .i32⟩
  | .hbm, ⟨61, _⟩ => ⟨S_, .i32⟩
  | .hbm, ⟨62, _⟩ => ⟨S4096x1, .i32⟩
  | .hbm, ⟨63, _⟩ => ⟨S4096x1, .i1⟩
  | .hbm, ⟨64, _⟩ => ⟨S1x1, .i32⟩
  | .hbm, ⟨65, _⟩ => ⟨S4096x1, .i32⟩
  | .hbm, ⟨66, _⟩ => ⟨S4096x1, .i1⟩
  | .hbm, ⟨67, _⟩ => ⟨S4096x1, .i1⟩
  | .hbm, ⟨68, _⟩ => ⟨S_, .i1⟩
  | .hbm, ⟨69, _⟩ => ⟨S4096, .i1⟩
  | .hbm, ⟨70, _⟩ => ⟨S4096x1, .f32⟩
  | .hbm, ⟨71, _⟩ => ⟨S4096x1, .i1⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S_, .i32⟩
  | .hbm, ⟨79, _⟩ => ⟨S4096, .i32⟩
  | .hbm, ⟨80, _⟩ => ⟨S4096, .i32⟩
  | .hbm, ⟨81, _⟩ => ⟨S4096, .i32⟩
  | .hbm, ⟨82, _⟩ => ⟨S4096x1, .i32⟩
  | .hbm, ⟨83, _⟩ => ⟨S1, .i32⟩
  | .hbm, ⟨84, _⟩ => ⟨S_, .i32⟩
  | .hbm, ⟨85, _⟩ => ⟨S4096x1, .i32⟩
  | .hbm, ⟨86, _⟩ => ⟨S4096x1, .i1⟩
  | .hbm, ⟨87, _⟩ => ⟨S1x1, .i32⟩
  | .hbm, ⟨88, _⟩ => ⟨S4096x1, .i32⟩
  | .hbm, ⟨89, _⟩ => ⟨S4096x1, .i1⟩
  | .hbm, ⟨90, _⟩ => ⟨S4096x1, .i1⟩
  | .hbm, ⟨91, _⟩ => ⟨S_, .i1⟩
  | .hbm, ⟨92, _⟩ => ⟨S4096, .i1⟩
  | .hbm, ⟨93, _⟩ => ⟨S4096x1, .f32⟩
  | .hbm, ⟨94, _⟩ => ⟨S4096x1, .i1⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S4096x32, .f32⟩
  | .hbm, ⟨99, _⟩ => ⟨S_, .f32⟩
  | .hbm, ⟨100, _⟩ => ⟨S4096, .f32⟩
  | .hbm, ⟨101, _⟩ => ⟨S1x4096, .f32⟩
  | .hbm, ⟨102, _⟩ => ⟨S4096x4096, .f32⟩
  | .hbm, ⟨103, _⟩ => ⟨S4096x4096, .f32⟩
  | .hbm, ⟨104, _⟩ => ⟨S4096x4096, .f32⟩
  | .hbm, ⟨105, _⟩ => ⟨S4096x4096, .f32⟩
  | .hbm, ⟨106, _⟩ => ⟨S4096x4096, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v1 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v2 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_call3_cst : Ref sig .tc := ⟨.hbm, 95, rfl⟩
abbrev main_call3_v15 : Ref sig .tc := ⟨.hbm, 96, rfl⟩
abbrev main_v3 : Ref sig .tc := ⟨.hbm, 97, rfl⟩
abbrev main_v4 : Ref sig .tc := ⟨.hbm, 98, rfl⟩
abbrev main_cst : Ref sig .tc := ⟨.hbm, 99, rfl⟩
abbrev main_v5 : Ref sig .tc := ⟨.hbm, 100, rfl⟩
abbrev main_v6 : Ref sig .tc := ⟨.hbm, 101, rfl⟩
abbrev main_v7 : Ref sig .tc := ⟨.hbm, 102, rfl⟩
abbrev main_v8 : Ref sig .tc := ⟨.hbm, 103, rfl⟩
abbrev main_v9 : Ref sig .tc := ⟨.hbm, 104, rfl⟩
abbrev main_v10 : Ref sig .tc := ⟨.hbm, 105, rfl⟩
abbrev main_v11 : Ref sig .tc := ⟨.hbm, 106, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x32_0 : S4096.BroadcastsInDim S4096x32 (![0] : Fin 1 → Fin S4096x32.rank)
  bcast_S_S4096x32 : S_.BroadcastsInDim S4096x32 (![] : Fin 0 → Fin S4096x32.rank)
  reducesTo_S4096x32_S4096_d1 : S4096x32.ReducesTo [1] S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  gather_S1000000x32_S4096x1_S4096x32_1_0_n_n_0_1_132_wf : GatherDims.WF S1000000x32 S4096x1 S4096x32 [1] [0] [] [0] [] 1 ![1, 32]
  gather_S1000000x1_S4096x1_S4096x1_1_0_n_n_0_1_11_wf : GatherDims.WF S1000000x1 S4096x1 S4096x1 [1] [0] [] [0] [] 1 ![1, 1]

variable [Facts₀]

def gather_S1000000x32_S4096x1_S4096x32_1_0_n_n_0_1_132 : GatherDims S1000000x32 S4096x1 S4096x32 where
  offsetDims := [1]
  collapsedSliceDims := [0]
  operandBatchingDims := []
  startIndicesBatchingDims := []
  startIndexMap := [0]
  indexVectorDim := 1
  sliceSizes := ![1, 32]
  wf := gather_S1000000x32_S4096x1_S4096x32_1_0_n_n_0_1_132_wf
def gather_S1000000x1_S4096x1_S4096x1_1_0_n_n_0_1_11 : GatherDims S1000000x1 S4096x1 S4096x1 where
  offsetDims := [1]
  collapsedSliceDims := [0]
  operandBatchingDims := []
  startIndicesBatchingDims := []
  startIndexMap := [0]
  indexVectorDim := 1
  sliceSizes := ![1, 1]
  wf := gather_S1000000x1_S4096x1_S4096x1_1_0_n_n_0_1_11_wf

class Facts : Prop extends Facts₀ where

variable [Facts]
-- ==== Proof.LaunchSetupIdeal.lean ====
/-
  The idealized kernel program as the SparseCore launch theorem sees it: the one SparseCore call over the body table of
  the four TensorCore pipelines and the kernels' functions, the termination variants, the configuration's side
  conditions, and the ghost state the proof runs over — three independent parts: the rounds of the four launch
  handshakes, the counters of the vector subcores' own copies (each of their semaphores carries one copy at a time, so they
  need no schedule), and the rounds of the TensorCore pipelines' staging semaphores.
-/
import proofs.«203700_g68710886802180_cont_9to1c4b_800_29_alg».proof.KernelIdeal
import proofs.«203700_g68710886802180_cont_9to1c4b_800_29_alg».proof.Proof.Gen.KernelIdeal
import proofs.«203700_g68710886802180_cont_9to1c4b_800_29_alg».proof.Proof.Gen.KernelIdeal.Launch
import Idealize.ShloMosaic.Lib.SparseCore.Launch
import Idealize.ShloMosaic.Lib.Pipeline.Regions
import Idealize.ShloMosaic.Lib.Tactic

noncomputable section

namespace Cert.KernelIdeal.Setup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 4) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UK : Type := Counters
abbrev UP : Type := URounds (GSem nD τ sig) Unit
abbrev UU : Type := UH × UK × UP

instance : CountersIn UU := ⟨(UEmb.inl : UEmb Counters (Counters × UP)).trans (UEmb.inr : UEmb (UK × UP) UU)⟩

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × UP)).trans (Emb.inr : Emb (UK × UP) UU)).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UK × UP)).trans (Emb.inr : Emb (UK × UP) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance
instance EP_landsIn : (EP : Emb UP 𝕄).LandsIn (upEmb : UEmb _ 𝕄) := by unfold EP; infer_instance

end Cert.KernelIdeal.Setup

end
-- ==== Proof.MainSplitIdeal.lean ====
/-
  @main of the idealized kernel program, cut at its one SparseCore call: a first stretch on the TensorCore alone (the
  two table transposes, each followed by the pipeline that re-lays the transposed table into packed rows, then the two
  bias reshapes), the SparseCore call, and a second stretch on the TensorCore alone (the id reshapes, the inner-product
  pipeline, the row and column reshapes, the broadcasting pipeline). Each TensorCore stretch is a chain of host-operation
  lines and pipeline calls in the pipelines' own signature, lifted to the signature that also has the SparseCore call.
-/
import proofs.«203700_g68710886802180_cont_9to1c4b_800_29_alg».proof.Proof.LaunchSetupIdeal
import Idealize.ShloMosaic.Lib.StableHlo.Run

noncomputable section

namespace Cert.KernelIdeal.MainSplit

open Cert.KernelIdeal Cert.KernelIdeal.Gen Cert.KernelIdeal.Setup
open Idealize.ShloMosaic Idealize.SL.Sem

variable {F : FTy → Type} [FloatOps F]

/-- The transpose of the user table. -/
abbrev opsT0 : List (HloOp τ sig (Elt F)) :=
  [StableHlo.unary main_arg2 main_v0 ((transpose S32x1000000 [1, 0] · transposes_S1000000x32_S32x1000000_1_0) : (⟨S1000000x32, .f32⟩ : BufTy).Contents (Elt F) → (⟨S32x1000000, .f32⟩ : BufTy).Contents (Elt F))]
/-- The transpose of the item table. -/
abbrev opsT1 : List (HloOp τ sig (Elt F)) :=
  [StableHlo.unary main_arg3 main_v2 ((transpose S32x1000000 [1, 0] · transposes_S1000000x32_S32x1000000_1_0) : (⟨S1000000x32, .f32⟩ : BufTy).Contents (Elt F) → (⟨S32x1000000, .f32⟩ : BufTy).Contents (Elt F))]
/-- The two bias columns flattened. -/
abbrev opsFlat : List (HloOp τ sig (Elt F)) :=
  [StableHlo.reshape main_arg4 main_v4 rfl shapeCasts_S1000000x1_S1000000, StableHlo.reshape main_arg5 main_v5 rfl shapeCasts_S1000000x1_S1000000]
/-- The two id arrays as columns. -/
abbrev opsIds : List (HloOp τ sig (Elt F)) :=
  [StableHlo.reshape main_arg0 main_v7 rfl shapeCasts_S4096_S4096x1, StableHlo.reshape main_arg1 main_v8 rfl shapeCasts_S4096_S4096x1]
/-- The inner products as a row, the bias sums as a column. -/
abbrev opsRowCol : List (HloOp τ sig (Elt F)) :=
  [StableHlo.reshape main_v9 main_v10 rfl shapeCasts_S4096x1_S1x4096, StableHlo.reshape main_v6_2 main_v11 rfl shapeCasts_S4096_S4096x1]

/-- The stretch before the SparseCore call, in the pipelines' signature. -/
def before : Prog (TpuEff nD τ sig (Elt F) (ΛP (F := F)) .tc) PUnit :=
  Pipeline.chain [StableHlo.seq opsT0, Prog.lift (.customCall (Pipeline.entry 0) ()), StableHlo.seq opsT1,
    Prog.lift (.customCall (Pipeline.entry 1) ()), StableHlo.seq opsFlat]

/-- The stretch after it. -/
def after : Prog (TpuEff nD τ sig (Elt F) (ΛP (F := F)) .tc) PUnit :=
  Pipeline.chain [StableHlo.seq opsIds, Prog.lift (.customCall (Pipeline.entry 2) ()), StableHlo.seq opsRowCol,
    Prog.lift (.customCall (Pipeline.entry 3) ())]

/-- @main is the first stretch, the call, the second stretch. -/
theorem main_split (d : Dev nD) :
    main (F := F) d = (SparseCore.liftProg (before (F := F)) >>= fun _ => (K (F := F)).run d 0 >>= fun _ => SparseCore.liftProg (after (F := F))) := by
  chain_rfl

end Cert.KernelIdeal.MainSplit

end
-- ==== Proof.HmainIdeal.lean ====
/-
  @main on the TensorCore, reduced to its parts. @main is a first stretch of host lines and two pipelines, the SparseCore
  call, and a second stretch of host lines and two pipelines. Given the two stretches as lists of segments whose thread
  states chain (from `TA` to `TA'`, from `TB` to `TB'`), and four entailments that say how those thread states meet the
  SparseCore launch's account of the TensorCore — what it is dealt at the launch makes `TA`; `TA'` yields its handshake
  debt back with the call's operands; the debt after the call with the call's results makes `TB`; `TB'` yields the debt
  and what the certificate reads at the end —, @main runs: each stretch by the segment rule, lifted to the signature that
  has the SparseCore call, and the call by the launch's own rule between them.
-/
import proofs.«203700_g68710886802180_cont_9to1c4b_800_29_alg».proof.Proof.MainSplitIdeal

noncomputable section

namespace Cert.KernelIdeal.Hmain

open Cert.KernelIdeal Cert.KernelIdeal.Gen Cert.KernelIdeal.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-- No pipeline has a prefetched table. -/
abbrev adm : (p : Fin 4) → (pcfgs (F := F) p).Adm := fun p => (cfgs p).toPCfg_adm

/-- The TensorCore's handshake debt before call `n`, its recorded waits bounded: the first part of its launch state. -/
abbrev debt (d : Dev nD) (n : ℕ) : sProp 𝕄 :=
  iprop(∃ W, ⌜(K (F := F)).WBelow (SparseCore.T d) W (8 * n)⌝ ∗ owes (SparseCore.T d) ((K (F := F)).Otc d n) W)

section Reduce

variable (Pm : (K (F := F)).Pay (nD := nD) (Val := Elt F) (Name := ℕ) (U := UU))

/-- A family of relational proof data, one per pipeline and core. -/
abbrev RDats : Type _ := (p : Fin 4) → (c : Dev nD) → Pipeline.RDat τ (Elt F) (HIx 1) ℕ UU ℕ (Pipeline.pin (pcfgs (F := F)) adm p) c

/-- A segment of @main over relational proof data, at the launch's levels, the pipelines' waits at index `none`. -/
abbrev SegT (rdats : RDats (F := F)) : Type _ :=
  Pipeline.RDat.Seg (pcfgs (F := F)) adm rdats (none : HIx 1) (defs₀ (F := F)) 𝒱₀ (K (F := F)).L (K (F := F)).lev

/-- The reduction. The second stretch's proof data and segments may depend on data `x : X` that is only known when
    the SparseCore call has returned (the contents its results then hold): `hback` produces it. -/
theorem hmain_of (m : (ℓ : Loc nD τ sig) → Buf (Elt F) ℓ) (ρ : Dev nD → PrngReg) (G FIN RestA : Dev nD → sProp 𝕄)
    (rdatsA : RDats (F := F)) (segsA : List (SegT rdatsA))
    (hrunA : MainSplit.before (F := F) = Pipeline.RDat.Seg.run segsA)
    (SA SB : Finset (Fin 4))
    (hndA : (Pipeline.RDat.Seg.pipes segsA).Nodup) (hSA : ∀ p ∈ Pipeline.RDat.Seg.pipes segsA, p ∈ SA)
    (TA TA' : Dev nD → sProp 𝕄) (hchA : ∀ d, Pipeline.RDat.Seg.ChainsAt d TA segsA TA')
    {X : Type} (rdatsB : X → RDats (F := F)) (segsB : (x : X) → List (SegT (rdatsB x)))
    (hrunB : ∀ x, MainSplit.after (F := F) = Pipeline.RDat.Seg.run (segsB x))
    (hndB : ∀ x, (Pipeline.RDat.Seg.pipes (segsB x)).Nodup) (hSB : ∀ x, ∀ p ∈ Pipeline.RDat.Seg.pipes (segsB x), p ∈ SB)
    (TB TB' : X → Dev nD → sProp 𝕄) (hchB : ∀ x d, Pipeline.RDat.Seg.ChainsAt d (TB x) (segsB x) (TB' x))
    (hin : ∀ d, iprop(debt d 0 ∗ unscopedBufs d (fun b => m ((SparseCore.T d).loc b)) ∗ (K (F := F)).tcSems0 d ∗ prngReg d (ρ d) ∗ G d)
      ⊢ iprop(TA d ∗ Pipeline.ghostOn (pcfgs (F := F)) adm EP SA d ∗ Pipeline.ghostOn (pcfgs (F := F)) adm EP SB d))
    (hcall : ∀ d, TA' d ⊢ iprop(debt d 0 ∗ (bigSep Finset.univ fun c : Fin ((K (F := F)).nCore 0) => Pm.st 0 d c) ∗ RestA d))
    (hback : ∀ d, iprop(debt d 1 ∗ (bigSep Finset.univ fun c : Fin ((K (F := F)).nCore 0) => Pm.dn 0 d c) ∗ RestA d) ⊢ iprop(∃ x, TB x d))
    (hend : ∀ x d, TB' x d ⊢ iprop(debt d 1 ∗ FIN d))
    (κ : GSem nD τ sig → ℕ) (d : Dev nD) :
    iprop((K (F := F)).ctx EH Pm κ ∗ (K (F := F)).tcSt EH d 0 ∗ (K (F := F)).tcRes m ρ d ∗ G d)
      ⊢ wp frame (wpE ((K (F := F)).defs (D (F := F))) 𝒱 (SparseCore.T d) none) Set.univ (main (F := F) d)
          fun _ => iprop((K (F := F)).tcSt EH d 1 ∗ FIN d) := by
  rw [MainSplit.main_split, wp_bind]
  unfold SparseCore.Cfg.tcRes SparseCore.Cfg.tcSt
  iintro ⟨#Hctx, ⟨Hdebt, Hstand⟩, ⟨Hbd, Hub, Hsem, Hprng⟩, HG⟩
  ihave Hlev := ((K (F := F)).ctx_levAts κ) $$ Hctx
  ihave H := (hin d) $$ [Hdebt Hub Hsem Hprng HG]
  · isplitl [Hdebt]; · iexact Hdebt
    isplitl [Hub]; · iexact Hub
    isplitl [Hsem]; · iexact Hsem
    isplitl [Hprng]; · iexact Hprng
    iexact HG
  icases H with ⟨HTA, HgA, HgB⟩
  iapply ((K (F := F)).wp_liftProg (D (F := F)) 𝒱 (SparseCore.T d) Set.univ none (MainSplit.before (F := F)) _)
  rw [hrunA]
  iapply (Pipeline.RDat.wp_segs (pcfgs (F := F)) adm rdatsA (none : HIx 1) cellOf_inj EP (defs₀ (F := F)) 𝒱₀ (K (F := F)).L (K (F := F)).lev d
    segsA SA TA TA' hndA hSA (hchA d))
  isplitr [Hbd HTA HgA]
  swap
  · isplitl [Hbd]; · iexact Hbd
    isplitl [HTA]; · iexact HTA
    isplitr; · iexact Hlev
    iexact HgA
  iintro ⟨Hbd, HTA'⟩
  ihave H := (hcall d) $$ HTA'
  icases H with ⟨Hdebt, Hst, Hrest⟩
  rw [wp_bind]
  iapply ((K (F := F)).wp_run (D (F := F)) 𝒱 (EH := EH) (P := Pm) κ d 0)
  isplitr; · iexact Hctx
  isplitl [Hdebt Hstand]
  · unfold SparseCore.Cfg.tcSt
    isplitl [Hdebt]; · iexact Hdebt
    iexact Hstand
  isplitl [Hst]; · iexact Hst
  unfold SparseCore.Cfg.tcSt
  iintro ⟨⟨Hdebt, Hstand⟩, Hdn⟩
  ihave HTB := (hback d) $$ [Hdebt Hdn Hrest]
  · isplitl [Hdebt]; · iexact Hdebt
    isplitl [Hdn]; · iexact Hdn
    iexact Hrest
  icases HTB with ⟨%x, HTB⟩
  iapply ((K (F := F)).wp_liftProg (D (F := F)) 𝒱 (SparseCore.T d) Set.univ none (MainSplit.after (F := F)) _)
  rw [hrunB x]
  iapply (Pipeline.RDat.wp_segs (pcfgs (F := F)) adm (rdatsB x) (none : HIx 1) cellOf_inj EP (defs₀ (F := F)) 𝒱₀ (K (F := F)).L (K (F := F)).lev d
    (segsB x) SB (TB x) (TB' x) (hndB x) (hSB x) (hchB x d))
  isplitr [Hbd HTB HgB]
  swap
  · isplitl [Hbd]; · iexact Hbd
    isplitl [HTB]; · iexact HTB
    isplitr; · iexact Hlev
    iexact HgB
  iintro ⟨-, HTB'⟩
  ihave H := (hend x d) $$ HTB'
  icases H with ⟨Hdebt, Hfin⟩
  isplitl [Hdebt Hstand]
  · isplitl [Hdebt]; · iexact Hdebt
    iexact Hstand
  iexact Hfin

end Reduce

end Cert.KernelIdeal.Hmain

end
-- ==== Proof.ThreadStateIdeal.lean ====
/-
  What the TensorCore carries from one segment of @main to the next besides its buffers: its generator register, and its
  handshake debt. Before SparseCore call `n` the TensorCore owes a unit of `start` to every SparseCore of every call from
  `n` on (all at a call's index, never at index `none`), and every wait it has recorded sits at or below level `8·n`. The
  pipelines' own waits, on their staging semaphores, are recorded at index `none`, which is level 0: so a pipeline may
  wait under that debt, and its waits keep the recorded set within the same bound. This module states the bound as a set
  of (semaphore, index) pairs and converts between the launch's spelling of the debt and the pipelines' spelling of it.
-/
import proofs.«203700_g68710886802180_cont_9to1c4b_800_29_alg».proof.Proof.HmainIdeal

noncomputable section

namespace Cert.KernelIdeal.Hmain

open Cert.KernelIdeal Cert.KernelIdeal.Gen Cert.KernelIdeal.Setup

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The (semaphore, index) pairs at or below the level the launch allows the TensorCore's recorded waits before call `n`. -/
def Bnd (d : Dev nD) (n : ℕ) : Set (SemLoc sig × HIx 1) := {p | (K (F := F)).lev (SparseCore.T d, p.1) p.2 ≤ 8 * n}

/-- A pipeline's own wait pairs, at index `none`, are within the bound. -/
theorem waitPairs_sub (cfg : Pipeline.Cfg sig Λ₀) (d : Dev nD) (n : ℕ) : cfg.waitPairs (none : HIx 1) ⊆ Bnd (F := F) d n := by
  rintro p ⟨w, s, rfl⟩
  show (K (F := F)).lev _ none ≤ 8 * n
  rw [SparseCore.Cfg.lev_none]; exact Nat.zero_le _

/-- The launch's spelling of the debt is the pipelines'. -/
theorem debt_to (d : Dev nD) (n : ℕ) :
    (debt (F := F) d n : sProp 𝕄) ⊢ Pipeline.owesWithin d ((K (F := F)).Otc d n) (Bnd (F := F) d n) := by
  iintro ⟨%W, %hW, HO⟩
  iexists W; isplitr
  · ipureintro; exact fun p hp => hW p (Finset.mem_coe.mp hp)
  · iexact HO

theorem debt_of (d : Dev nD) (n : ℕ) :
    (Pipeline.owesWithin d ((K (F := F)).Otc d n) (Bnd (F := F) d n) : sProp 𝕄) ⊢ debt (F := F) d n := by
  iintro ⟨%W, %hW, HO⟩
  iexists W; isplitr
  · ipureintro; exact fun p hp => hW (Finset.mem_coe.mpr hp)
  · iexact HO

/-- What rides beside the buffers between two segments, before call `n`. -/
abbrev Ride (d : Dev nD) (n : ℕ) : sProp 𝕄 :=
  iprop((∃ r, prngReg d r) ∗ Pipeline.owesWithin d ((K (F := F)).Otc d n) (Bnd (F := F) d n))

end Cert.KernelIdeal.Hmain

end
-- ==== Proof.LaunchElemIdeal.lean ====
/-
  The launch element of the ghost state: the handshake cells' rounds for the launch theorem, nothing for the vector
  subcores' counters (they start at the unit), and the TensorCore pipelines' staging cells' rounds, which fund — for every
  device and every pipeline — the cells' launch ghost state and the duty tokens of the transfers the pipeline's loop will
  issue. That last part is what @main's proof starts from beside its buffers.
-/
import proofs.«203700_g68710886802180_cont_9to1c4b_800_29_alg».proof.Proof.ThreadStateIdeal
import Idealize.ShloMosaic.Lib.Pipeline.Kit

noncomputable section

namespace Cert.KernelIdeal.Hmain

open Cert.KernelIdeal Cert.KernelIdeal.Gen Cert.KernelIdeal.Setup

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element. -/
def u₀ : UU :=
  (initOf (K (F := F)).hsCells (K (F := F)).hsToks, 1,
    initOf (Pipeline.cells (Pipeline.pin (pcfgs (F := F)) adm) cellOf_inj) (Pipeline.launchToks (Pipeline.pin (pcfgs (F := F)) adm) cellOf_inj))

/-- What @main's proof on device `d` starts from beside what the launch deals it: every pipeline's ghost state. -/
abbrev G0 (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

theorem hu₀ (Pm : (K (F := F)).Pay (nD := nD) (Val := Elt F) (Name := ℕ) (U := UU)) (hx : ∀ q thr, Pm.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G0 (F := F) d)
        ∗ bigSep Finset.univ fun thr : Thread nD τ => bigSep Finset.univ fun q : Fin 1 => Pm.x q thr) := by
  unfold u₀
  iintro Hu
  ihave H := (ownU_pair _ _) $$ Hu
  icases H with ⟨HH, HR⟩
  ihave H2 := (own_pair_emb (embR : Emb (UK × UP) 𝕄) _ _) $$ HR
  icases H2 with ⟨-, HQ⟩
  ihave HP := (show (BI.own (((Emb.inr : Emb UP (UK × UP)).trans (embR : Emb (UK × UP) 𝕄)) (initOf (Pipeline.cells (Pipeline.pin (pcfgs (F := F)) adm) cellOf_inj) (Pipeline.launchToks (Pipeline.pin (pcfgs (F := F)) adm) cellOf_inj))) : sProp 𝕄)
      ⊢ BI.own ((EP : Emb UP 𝕄) (initOf (Pipeline.cells (Pipeline.pin (pcfgs (F := F)) adm) cellOf_inj) (Pipeline.launchToks (Pipeline.pin (pcfgs (F := F)) adm) cellOf_inj))) from .rfl) $$ HQ
  imod (Pipeline.fund_ghost (Pipeline.pin (pcfgs (F := F)) adm) (EP : Emb UP 𝕄) cellOf_inj) $$ HP with ⟨Hg, Ht⟩
  imodintro
  isplitl [HH]; · iexact HH
  isplitl [Hg Ht]
  · unfold G0 Pipeline.ghostOn Pipeline.PerCore.ghostOn
    simp only [bigSep_sep']
    isplitl [Hg]; · iexact Hg
    iexact Ht
  rw [show (bigSep Finset.univ fun thr : Thread nD τ => bigSep Finset.univ fun q : Fin 1 => Pm.x q thr) = (iprop(emp) : sProp 𝕄) from by
    simp only [hx]; rw [bigSep_congr fun _ _ => bigSep_emp' _, bigSep_emp']]
  iempintro

end Cert.KernelIdeal.Hmain

end
-- ==== Proof.SidesIdeal.lean ====
/-
  @main's two TensorCore stretches as records. `SideA` is everything the reduction of @main asks about the stretch before
  the SparseCore call (its proof data, its segments and that @main's text is their run, the chaining of the thread
  states, how the launch's deal makes the first thread state, how the last one yields the call's operands), `SideB` the
  same for the stretch after it (its data may depend on what the call returned). `hmain` puts the two around the call;
  the pipelines' ghost state, dealt whole at the launch, is split between the stretches by the pipelines each enters.
-/
import proofs.«203700_g68710886802180_cont_9to1c4b_800_29_alg».proof.Proof.LaunchElemIdeal

noncomputable section

namespace Cert.KernelIdeal.Hmain

open Cert.KernelIdeal Cert.KernelIdeal.Gen Cert.KernelIdeal.Setup

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-- The pipelines the first stretch enters, and the second. -/
abbrev pipesA : Finset (Fin 4) := {0, 1}
abbrev pipesB : Finset (Fin 4) := {2, 3}

/-- The stretch before the SparseCore call. -/
structure SideA (m : (ℓ : Loc nD τ sig) → Buf (Elt F) ℓ) (ρ : Dev nD → PrngReg)
    (Pm : (K (F := F)).Pay (nD := nD) (Val := Elt F) (Name := ℕ) (U := UU)) (RestA : Dev nD → sProp 𝕄) where
  rdats : RDats (F := F)
  segs : List (SegT rdats)
  hrun : MainSplit.before (F := F) = Pipeline.RDat.Seg.run segs
  hnd : (Pipeline.RDat.Seg.pipes segs).Nodup
  hS : ∀ p ∈ Pipeline.RDat.Seg.pipes segs, p ∈ pipesA
  T : Dev nD → sProp 𝕄
  T' : Dev nD → sProp 𝕄
  hch : ∀ d, Pipeline.RDat.Seg.ChainsAt d T segs T'
  /-- The launch's deal — the debt before call 0, every unscoped buffer at its launch contents, the TensorCore's own
      free semaphores at zero, the generator register — makes the first thread state. -/
  hin : ∀ d, iprop(debt d 0 ∗ unscopedBufs d (fun b => m ((SparseCore.T d).loc b)) ∗ (K (F := F)).tcSems0 d ∗ prngReg d (ρ d)) ⊢ T d
  /-- The last thread state yields the debt, the call's operands for every SparseCore of its grid, and the rest. -/
  hcall : ∀ d, T' d ⊢ iprop(debt d 0 ∗ (bigSep Finset.univ fun c : Fin ((K (F := F)).nCore 0) => Pm.st 0 d c) ∗ RestA d)

/-- The stretch after it. -/
structure SideB (Pm : (K (F := F)).Pay (nD := nD) (Val := Elt F) (Name := ℕ) (U := UU)) (RestA FIN : Dev nD → sProp 𝕄) where
  X : Type
  rdats : X → RDats (F := F)
  segs : (x : X) → List (SegT (rdats x))
  hrun : ∀ x, MainSplit.after (F := F) = Pipeline.RDat.Seg.run (segs x)
  hnd : ∀ x, (Pipeline.RDat.Seg.pipes (segs x)).Nodup
  hS : ∀ x, ∀ p ∈ Pipeline.RDat.Seg.pipes (segs x), p ∈ pipesB
  T : X → Dev nD → sProp 𝕄
  T' : X → Dev nD → sProp 𝕄
  hch : ∀ x d, Pipeline.RDat.Seg.ChainsAt d (T x) (segs x) (T' x)
  /-- The debt after the call, the call's results and the rest make the first thread state, for some returned data. -/
  hback : ∀ d, iprop(debt d 1 ∗ (bigSep Finset.univ fun c : Fin ((K (F := F)).nCore 0) => Pm.dn 0 d c) ∗ RestA d) ⊢ iprop(∃ x, T x d)
  /-- The last thread state yields the debt and what the certificate reads at the end. -/
  hend : ∀ x d, T' x d ⊢ iprop(debt d 1 ∗ FIN d)

/-- The pipelines' ghost state, dealt whole, is the first stretch's and the second's. -/
theorem ghost_split (d : Dev nD) :
    (G0 (F := F) d : sProp 𝕄) ⊢ iprop(Pipeline.ghostOn (pcfgs (F := F)) adm EP pipesA d ∗ Pipeline.ghostOn (pcfgs (F := F)) adm EP pipesB d) := by
  unfold G0 Pipeline.ghostOn Pipeline.PerCore.ghostOn
  rw [show (Finset.univ : Finset (Fin 4)) = pipesA ∪ pipesB from by decide, bigSep_union (by decide)]
  exact .rfl

/-- @main on the TensorCore of device `d`, from the two sides. -/
theorem hmain (m : (ℓ : Loc nD τ sig) → Buf (Elt F) ℓ) (ρ : Dev nD → PrngReg)
    (Pm : (K (F := F)).Pay (nD := nD) (Val := Elt F) (Name := ℕ) (U := UU)) (RestA FIN : Dev nD → sProp 𝕄)
    (sa : SideA m ρ Pm RestA) (sb : SideB Pm RestA FIN) (κ : GSem nD τ sig → ℕ) (d : Dev nD) :
    iprop((K (F := F)).ctx EH Pm κ ∗ (K (F := F)).tcSt EH d 0 ∗ (K (F := F)).tcRes m ρ d ∗ G0 (F := F) d)
      ⊢ wp frame (wpE ((K (F := F)).defs (D (F := F))) 𝒱 (SparseCore.T d) none) Set.univ (main (F := F) d)
          fun _ => iprop((K (F := F)).tcSt EH d 1 ∗ FIN d) :=
  hmain_of Pm m ρ (G0 (F := F)) FIN RestA sa.rdats sa.segs sa.hrun pipesA pipesB sa.hnd sa.hS sa.T sa.T' sa.hch
    sb.rdats sb.segs sb.hrun sb.hnd sb.hS sb.T sb.T' sb.hch
    (fun d => by
      iintro ⟨Hd, Hu, Hs, Hp, HG⟩
      ihave H := (ghost_split d) $$ HG
      icases H with ⟨HA, HB⟩
      isplitl [Hd Hu Hs Hp]
      · iapply (sa.hin d)
        isplitl [Hd]; · iexact Hd
        isplitl [Hu]; · iexact Hu
        isplitl [Hs]; · iexact Hs
        iexact Hp
      isplitl [HA]; · iexact HA
      iexact HB)
    sa.hcall sb.hback sb.hend κ d

end Cert.KernelIdeal.Hmain

end
-- ==== Proof.FinIdeal.lean ====
/-
  What the certificate reads off the final memory of a device: the six argument arrays at their launch contents, and the
  result array at contents of which a stated property holds (the property is a parameter: the frames take the trivial
  one, the value claim the kernel's own closed form). Holding those points-to assertions beside the state interpretation
  of a final state says that state's memory has those contents.
-/
import proofs.«203700_g68710886802180_cont_9to1c4b_800_29_alg».proof.Proof.LaunchSetupIdeal

noncomputable section

namespace Cert.KernelIdeal.Hmain

open Cert.KernelIdeal Cert.KernelIdeal.Gen Cert.KernelIdeal.Setup

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-- The location of @main's buffer `b` on device `d`. -/
abbrev tloc (d : Dev nD) (b : Ref sig .tc) : Loc nD τ sig := (SparseCore.T d).loc b

/-- An argument array, whole, at its launch contents. -/
abbrev argPts (d : Dev nD) (b : Ref sig .tc) : sProp 𝕄 := tloc d b ↦{fullShare} m (tloc d b)

/-- What is read at the end, for a property `Ok d` of the result array's contents. -/
def FIN (Ok : (d : Dev nD) → Buf (Elt F) (tloc d main_v12) → Prop) (d : Dev nD) : sProp 𝕄 :=
  iprop(argPts m d main_arg0 ∗ argPts m d main_arg1 ∗ argPts m d main_arg2 ∗ argPts m d main_arg3 ∗ argPts m d main_arg4 ∗ argPts m d main_arg5
    ∗ ∃ f, ⌜Ok d f⌝ ∗ tloc d main_v12 ↦{fullShare} f)

/-- The same of a final state's memory. -/
def fq (Ok : (d : Dev nD) → Buf (Elt F) (tloc d main_v12) → Prop) (d : Dev nD) (s' : Phys nD τ sig (Elt F)) : Prop :=
  Ok d (s'.mem.mem (tloc d main_v12))
    ∧ s'.mem.mem (tloc d main_arg0) = m (tloc d main_arg0) ∧ s'.mem.mem (tloc d main_arg1) = m (tloc d main_arg1)
    ∧ s'.mem.mem (tloc d main_arg2) = m (tloc d main_arg2) ∧ s'.mem.mem (tloc d main_arg3) = m (tloc d main_arg3)
    ∧ s'.mem.mem (tloc d main_arg4) = m (tloc d main_arg4) ∧ s'.mem.mem (tloc d main_arg5) = m (tloc d main_arg5)

/-- A whole buffer held at `f` beside the state interpretation: the state's memory holds `f` there. -/
theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (Ok : (d : Dev nD) → Buf (Elt F) (tloc d main_v12) → Prop) (d : Dev nD) (s' : Phys nD τ sig (Elt F)) :
    iprop(FIN m Ok d ∗ SI s') ⊢ (⌜fq m Ok d s'⌝ : sProp 𝕄) := by
  unfold FIN
  iintro ⟨⟨H0, H1, H2, H3, H4, H5, %f, %hf, Hv⟩, HSI⟩
  ihave H := (read_whole s' _ _) $$ [H0 HSI]
  · isplitl [H0] <;> iassumption
  icases H with ⟨%e0, HSI⟩
  ihave H := (read_whole s' _ _) $$ [H1 HSI]
  · isplitl [H1] <;> iassumption
  icases H with ⟨%e1, HSI⟩
  ihave H := (read_whole s' _ _) $$ [H2 HSI]
  · isplitl [H2] <;> iassumption
  icases H with ⟨%e2, HSI⟩
  ihave H := (read_whole s' _ _) $$ [H3 HSI]
  · isplitl [H3] <;> iassumption
  icases H with ⟨%e3, HSI⟩
  ihave H := (read_whole s' _ _) $$ [H4 HSI]
  · isplitl [H4] <;> iassumption
  icases H with ⟨%e4, HSI⟩
  ihave H := (read_whole s' _ _) $$ [H5 HSI]
  · isplitl [H5] <;> iassumption
  icases H with ⟨%e5, HSI⟩
  ihave H := (read_whole s' _ _) $$ [Hv HSI]
  · isplitl [Hv] <;> iassumption
  icases H with ⟨%ev, -⟩
  ipureintro
  exact ⟨ev ▸ hf, e0, e1, e2, e3, e4, e5⟩

end Cert.KernelIdeal.Hmain

end
-- ==== Proof.RunIdeal.lean ====
/-
  The idealized kernel program's run, from its parts: the SparseCore launch theorem applied to one vector subcore's
  task, the split of a SparseCore's operands among its tasks, the launch element, @main on the TensorCore (the two
  stretches around the call) and the reading of the final memory. Every weakly fair execution of the whole family of
  threads terminates without a fault, with the argument arrays as launched and the result array satisfying the stated
  property.
-/
import proofs.«203700_g68710886802180_cont_9to1c4b_800_29_alg».proof.Proof.SidesIdeal
import proofs.«203700_g68710886802180_cont_9to1c4b_800_29_alg».proof.Proof.FinIdeal

noncomputable section

namespace Cert.KernelIdeal.Hmain

open Cert.KernelIdeal Cert.KernelIdeal.Gen Cert.KernelIdeal.Setup

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The run's post: on every device the result array has the property and the arguments are as launched. -/
def QC (Ok : (d : Dev nD) → Buf (Elt F) (tloc d main_v12) → Prop) : PUnit × MemSt nD τ sig (Elt F) → Prop := fun r =>
  ∀ c : Dev nD, Ok c (r.2.mem (tloc c main_v12))
    ∧ r.2.mem (tloc c main_arg0) = m (tloc c main_arg0) ∧ r.2.mem (tloc c main_arg1) = m (tloc c main_arg1)
    ∧ r.2.mem (tloc c main_arg2) = m (tloc c main_arg2) ∧ r.2.mem (tloc c main_arg3) = m (tloc c main_arg3)
    ∧ r.2.mem (tloc c main_arg4) = m (tloc c main_arg4) ∧ r.2.mem (tloc c main_arg5) = m (tloc c main_arg5)

theorem run_main (Pm : (K (F := F)).Pay (nD := nD) (Val := Elt F) (Name := ℕ) (U := UU)) [Pm.IsStorable]
    (hx : ∀ q thr, Pm.x q thr = iprop(emp)) (hheld : Pm.held = ∅)
    (htile : (K (F := F)).TileObl (D (F := F)) 𝒱 Pm v₀ 0) (hvec : (K (F := F)).VecSplit' Pm 0)
    (Ok : (d : Dev nD) → Buf (Elt F) (tloc d main_v12) → Prop) (RestA : Dev nD → sProp 𝕄)
    (sa : SideA m ρ Pm RestA) (sb : SideB Pm RestA (FIN m Ok)) :
    θ_run (Cert.KernelIdeal.defs (F := F)) (Cert.KernelIdeal.threads (F := F)) ⟨m, fun _ => 0, ρ⟩ (QC m Ok) :=
  SparseCore.Cfg.θ_run_sc (K := K (F := F)) (D := D (F := F)) (𝒱 := 𝒱) (EH := EH) (P := Pm) facts v₀
    (fun q hq => match q with | 0 => nomatch hq)
    (fun q _ => match q with | 0 => htile)
    (fun q _ => match q with | 0 => SparseCore.Cfg.VecSplit.of_plain hvec)
    m ρ main (G0 (F := F)) (FIN m Ok) (u₀ (F := F)) (sep_elim_left.trans (hu₀ Pm hx)) (hmain m ρ Pm RestA (FIN m Ok) sa sb)
    (fq m Ok) (hfin m Ok) (QC m Ok) (fun _ h => h) (hheld := hheld)

end Cert.KernelIdeal.Hmain

end
-- ==== Proof.LaunchSetupIdealW.lean ====
/-
  The kernel program as printed as the SparseCore launch theorem sees it: the one SparseCore call over the body table of
  the four TensorCore pipelines and the kernels' functions, the termination variants, the configuration's side
  conditions, and the ghost state the proof runs over — three independent parts: the rounds of the four launch
  handshakes, the counters of the vector subcores' own copies (each of their semaphores carries one copy at a time, so they
  need no schedule), and the rounds of the TensorCore pipelines' staging semaphores.
-/
import proofs.«203700_g68710886802180_cont_9to1c4b_800_29_alg».proof.Kernel
import proofs.«203700_g68710886802180_cont_9to1c4b_800_29_alg».proof.Proof.Gen.Kernel
import proofs.«203700_g68710886802180_cont_9to1c4b_800_29_alg».proof.Proof.Gen.Kernel.Launch
import Idealize.ShloMosaic.Lib.SparseCore.Launch
import Idealize.ShloMosaic.Lib.Pipeline.Regions
import Idealize.ShloMosaic.Lib.Tactic

noncomputable section

namespace Cert.Kernel.Setup

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 4) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UK : Type := Counters
abbrev UP : Type := URounds (GSem nD τ sig) Unit
abbrev UU : Type := UH × UK × UP

instance : CountersIn UU := ⟨(UEmb.inl : UEmb Counters (Counters × UP)).trans (UEmb.inr : UEmb (UK × UP) UU)⟩

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × UP)).trans (Emb.inr : Emb (UK × UP) UU)).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UK × UP)).trans (Emb.inr : Emb (UK × UP) UU)).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EK_landsIn : (EK : Emb UK 𝕄).LandsIn (upEmb : UEmb _ 𝕄) := by unfold EK; infer_instance
instance EP_landsIn : (EP : Emb UP 𝕄).LandsIn (upEmb : UEmb _ 𝕄) := by unfold EP; infer_instance

end Cert.Kernel.Setup

end
-- ==== Proof.MainSplitIdealW.lean ====
/-
  @main of the kernel program as printed, cut at its one SparseCore call: a first stretch on the TensorCore alone (the
  two table transposes, each followed by the pipeline that re-lays the transposed table into packed rows, then the two
  bias reshapes), the SparseCore call, and a second stretch on the TensorCore alone (the id reshapes, the inner-product
  pipeline, the row and column reshapes, the broadcasting pipeline). Each TensorCore stretch is a chain of host-operation
  lines and pipeline calls in the pipelines' own signature, lifted to the signature that also has the SparseCore call.
-/
import proofs.«203700_g68710886802180_cont_9to1c4b_800_29_alg».proof.Proof.LaunchSetupIdealW
import Idealize.ShloMosaic.Lib.StableHlo.Run

noncomputable section

namespace Cert.Kernel.MainSplit

open Cert.Kernel Cert.Kernel.Gen Cert.Kernel.Setup
open Idealize.ShloMosaic Idealize.SL.Sem

variable {F : FTy → Type} [FloatOps F]

/-- The transpose of the user table. -/
abbrev opsT0 : List (HloOp τ sig (Elt F)) :=
  [StableHlo.unary main_arg2 main_v0 ((transpose S32x1000000 [1, 0] · transposes_S1000000x32_S32x1000000_1_0) : (⟨S1000000x32, .f32⟩ : BufTy).Contents (Elt F) → (⟨S32x1000000, .f32⟩ : BufTy).Contents (Elt F))]
/-- The transpose of the item table. -/
abbrev opsT1 : List (HloOp τ sig (Elt F)) :=
  [StableHlo.unary main_arg3 main_v2 ((transpose S32x1000000 [1, 0] · transposes_S1000000x32_S32x1000000_1_0) : (⟨S1000000x32, .f32⟩ : BufTy).Contents (Elt F) → (⟨S32x1000000, .f32⟩ : BufTy).Contents (Elt F))]
/-- The two bias columns flattened. -/
abbrev opsFlat : List (HloOp τ sig (Elt F)) :=
  [StableHlo.reshape main_arg4 main_v4 rfl shapeCasts_S1000000x1_S1000000, StableHlo.reshape main_arg5 main_v5 rfl shapeCasts_S1000000x1_S1000000]
/-- The two id arrays as columns. -/
abbrev opsIds : List (HloOp τ sig (Elt F)) :=
  [StableHlo.reshape main_arg0 main_v7 rfl shapeCasts_S4096_S4096x1, StableHlo.reshape main_arg1 main_v8 rfl shapeCasts_S4096_S4096x1]
/-- The inner products as a row, the bias sums as a column. -/
abbrev opsRowCol : List (HloOp τ sig (Elt F)) :=
  [StableHlo.reshape main_v9 main_v10 rfl shapeCasts_S4096x1_S1x4096, StableHlo.reshape main_v6_2 main_v11 rfl shapeCasts_S4096_S4096x1]

/-- The stretch before the SparseCore call, in the pipelines' signature. -/
def before : Prog (TpuEff nD τ sig (Elt F) (ΛP (F := F)) .tc) PUnit :=
  Pipeline.chain [StableHlo.seq opsT0, Prog.lift (.customCall (Pipeline.entry 0) ()), StableHlo.seq opsT1,
    Prog.lift (.customCall (Pipeline.entry 1) ()), StableHlo.seq opsFlat]

/-- The stretch after it. -/
def after : Prog (TpuEff nD τ sig (Elt F) (ΛP (F := F)) .tc) PUnit :=
  Pipeline.chain [StableHlo.seq opsIds, Prog.lift (.customCall (Pipeline.entry 2) ()), StableHlo.seq opsRowCol,
    Prog.lift (.customCall (Pipeline.entry 3) ())]

/-- @main is the first stretch, the call, the second stretch. -/
theorem main_split (d : Dev nD) :
    main (F := F) d = (SparseCore.liftProg (before (F := F)) >>= fun _ => (K (F := F)).run d 0 >>= fun _ => SparseCore.liftProg (after (F := F))) := by
  chain_rfl

end Cert.Kernel.MainSplit

end
-- ==== Proof.HmainIdealW.lean ====
/-
  @main on the TensorCore, reduced to its parts. @main is a first stretch of host lines and two pipelines, the SparseCore
  call, and a second stretch of host lines and two pipelines. Given the two stretches as lists of segments whose thread
  states chain (from `TA` to `TA'`, from `TB` to `TB'`), and four entailments that say how those thread states meet the
  SparseCore launch's account of the TensorCore — what it is dealt at the launch makes `TA`; `TA'` yields its handshake
  debt back with the call's operands; the debt after the call with the call's results makes `TB`; `TB'` yields the debt
  and what the certificate reads at the end —, @main runs: each stretch by the segment rule, lifted to the signature that
  has the SparseCore call, and the call by the launch's own rule between them.
-/
import proofs.«203700_g68710886802180_cont_9to1c4b_800_29_alg».proof.Proof.MainSplitIdealW

noncomputable section

namespace Cert.Kernel.Hmain

open Cert.Kernel Cert.Kernel.Gen Cert.Kernel.Setup

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-- No pipeline has a prefetched table. -/
abbrev adm : (p : Fin 4) → (pcfgs (F := F) p).Adm := fun p => (cfgs p).toPCfg_adm

/-- The TensorCore's handshake debt before call `n`, its recorded waits bounded: the first part of its launch state. -/
abbrev debt (d : Dev nD) (n : ℕ) : sProp 𝕄 :=
  iprop(∃ W, ⌜(K (F := F)).WBelow (SparseCore.T d) W (8 * n)⌝ ∗ owes (SparseCore.T d) ((K (F := F)).Otc d n) W)

section Reduce

variable (Pm : (K (F := F)).Pay (nD := nD) (Val := Elt F) (Name := ℕ) (U := UU))

/-- A family of relational proof data, one per pipeline and core. -/
abbrev RDats : Type _ := (p : Fin 4) → (c : Dev nD) → Pipeline.RDat τ (Elt F) (HIx 1) ℕ UU ℕ (Pipeline.pin (pcfgs (F := F)) adm p) c

/-- A segment of @main over relational proof data, at the launch's levels, the pipelines' waits at index `none`. -/
abbrev SegT (rdats : RDats (F := F)) : Type _ :=
  Pipeline.RDat.Seg (pcfgs (F := F)) adm rdats (none : HIx 1) (defs₀ (F := F)) 𝒱₀ (K (F := F)).L (K (F := F)).lev

/-- The reduction. The second stretch's proof data and segments may depend on data `x : X` that is only known when
    the SparseCore call has returned (the contents its results then hold): `hback` produces it. -/
theorem hmain_of (m : (ℓ : Loc nD τ sig) → Buf (Elt F) ℓ) (ρ : Dev nD → PrngReg) (G FIN RestA : Dev nD → sProp 𝕄)
    (rdatsA : RDats (F := F)) (segsA : List (SegT rdatsA))
    (hrunA : MainSplit.before (F := F) = Pipeline.RDat.Seg.run segsA)
    (SA SB : Finset (Fin 4))
    (hndA : (Pipeline.RDat.Seg.pipes segsA).Nodup) (hSA : ∀ p ∈ Pipeline.RDat.Seg.pipes segsA, p ∈ SA)
    (TA TA' : Dev nD → sProp 𝕄) (hchA : ∀ d, Pipeline.RDat.Seg.ChainsAt d TA segsA TA')
    {X : Type} (rdatsB : X → RDats (F := F)) (segsB : (x : X) → List (SegT (rdatsB x)))
    (hrunB : ∀ x, MainSplit.after (F := F) = Pipeline.RDat.Seg.run (segsB x))
    (hndB : ∀ x, (Pipeline.RDat.Seg.pipes (segsB x)).Nodup) (hSB : ∀ x, ∀ p ∈ Pipeline.RDat.Seg.pipes (segsB x), p ∈ SB)
    (TB TB' : X → Dev nD → sProp 𝕄) (hchB : ∀ x d, Pipeline.RDat.Seg.ChainsAt d (TB x) (segsB x) (TB' x))
    (hin : ∀ d, iprop(debt d 0 ∗ unscopedBufs d (fun b => m ((SparseCore.T d).loc b)) ∗ (K (F := F)).tcSems0 d ∗ prngReg d (ρ d) ∗ G d)
      ⊢ iprop(TA d ∗ Pipeline.ghostOn (pcfgs (F := F)) adm EP SA d ∗ Pipeline.ghostOn (pcfgs (F := F)) adm EP SB d))
    (hcall : ∀ d, TA' d ⊢ iprop(debt d 0 ∗ (bigSep Finset.univ fun c : Fin ((K (F := F)).nCore 0) => Pm.st 0 d c) ∗ RestA d))
    (hback : ∀ d, iprop(debt d 1 ∗ (bigSep Finset.univ fun c : Fin ((K (F := F)).nCore 0) => Pm.dn 0 d c) ∗ RestA d) ⊢ iprop(∃ x, TB x d))
    (hend : ∀ x d, TB' x d ⊢ iprop(debt d 1 ∗ FIN d))
    (κ : GSem nD τ sig → ℕ) (d : Dev nD) :
    iprop((K (F := F)).ctx EH Pm κ ∗ (K (F := F)).tcSt EH d 0 ∗ (K (F := F)).tcRes m ρ d ∗ G d)
      ⊢ wp frame (wpE ((K (F := F)).defs (D (F := F))) 𝒱 (SparseCore.T d) none) Set.univ (main (F := F) d)
          fun _ => iprop((K (F := F)).tcSt EH d 1 ∗ FIN d) := by
  rw [MainSplit.main_split, wp_bind]
  unfold SparseCore.Cfg.tcRes SparseCore.Cfg.tcSt
  iintro ⟨#Hctx, ⟨Hdebt, Hstand⟩, ⟨Hbd, Hub, Hsem, Hprng⟩, HG⟩
  ihave Hlev := ((K (F := F)).ctx_levAts κ) $$ Hctx
  ihave H := (hin d) $$ [Hdebt Hub Hsem Hprng HG]
  · isplitl [Hdebt]; · iexact Hdebt
    isplitl [Hub]; · iexact Hub
    isplitl [Hsem]; · iexact Hsem
    isplitl [Hprng]; · iexact Hprng
    iexact HG
  icases H with ⟨HTA, HgA, HgB⟩
  iapply ((K (F := F)).wp_liftProg (D (F := F)) 𝒱 (SparseCore.T d) Set.univ none (MainSplit.before (F := F)) _)
  rw [hrunA]
  iapply (Pipeline.RDat.wp_segs (pcfgs (F := F)) adm rdatsA (none : HIx 1) cellOf_inj EP (defs₀ (F := F)) 𝒱₀ (K (F := F)).L (K (F := F)).lev d
    segsA SA TA TA' hndA hSA (hchA d))
  isplitr [Hbd HTA HgA]
  swap
  · isplitl [Hbd]; · iexact Hbd
    isplitl [HTA]; · iexact HTA
    isplitr; · iexact Hlev
    iexact HgA
  iintro ⟨Hbd, HTA'⟩
  ihave H := (hcall d) $$ HTA'
  icases H with ⟨Hdebt, Hst, Hrest⟩
  rw [wp_bind]
  iapply ((K (F := F)).wp_run (D (F := F)) 𝒱 (EH := EH) (P := Pm) κ d 0)
  isplitr; · iexact Hctx
  isplitl [Hdebt Hstand]
  · unfold SparseCore.Cfg.tcSt
    isplitl [Hdebt]; · iexact Hdebt
    iexact Hstand
  isplitl [Hst]; · iexact Hst
  unfold SparseCore.Cfg.tcSt
  iintro ⟨⟨Hdebt, Hstand⟩, Hdn⟩
  ihave HTB := (hback d) $$ [Hdebt Hdn Hrest]
  · isplitl [Hdebt]; · iexact Hdebt
    isplitl [Hdn]; · iexact Hdn
    iexact Hrest
  icases HTB with ⟨%x, HTB⟩
  iapply ((K (F := F)).wp_liftProg (D (F := F)) 𝒱 (SparseCore.T d) Set.univ none (MainSplit.after (F := F)) _)
  rw [hrunB x]
  iapply (Pipeline.RDat.wp_segs (pcfgs (F := F)) adm (rdatsB x) (none : HIx 1) cellOf_inj EP (defs₀ (F := F)) 𝒱₀ (K (F := F)).L (K (F := F)).lev d
    (segsB x) SB (TB x) (TB' x) (hndB x) (hSB x) (hchB x d))
  isplitr [Hbd HTB HgB]
  swap
  · isplitl [Hbd]; · iexact Hbd
    isplitl [HTB]; · iexact HTB
    isplitr; · iexact Hlev
    iexact HgB
  iintro ⟨-, HTB'⟩
  ihave H := (hend x d) $$ HTB'
  icases H with ⟨Hdebt, Hfin⟩
  isplitl [Hdebt Hstand]
  · isplitl [Hdebt]; · iexact Hdebt
    iexact Hstand
  iexact Hfin

end Reduce

end Cert.Kernel.Hmain

end
-- ==== Proof.ThreadStateIdealW.lean ====
/-
  What the TensorCore carries from one segment of @main to the next besides its buffers: its generator register, and its
  handshake debt. Before SparseCore call `n` the TensorCore owes a unit of `start` to every SparseCore of every call from
  `n` on (all at a call's index, never at index `none`), and every wait it has recorded sits at or below level `8·n`. The
  pipelines' own waits, on their staging semaphores, are recorded at index `none`, which is level 0: so a pipeline may
  wait under that debt, and its waits keep the recorded set within the same bound. This module states the bound as a set
  of (semaphore, index) pairs and converts between the launch's spelling of the debt and the pipelines' spelling of it.
-/
import proofs.«203700_g68710886802180_cont_9to1c4b_800_29_alg».proof.Proof.HmainIdealW

noncomputable section

namespace Cert.Kernel.Hmain

open Cert.Kernel Cert.Kernel.Gen Cert.Kernel.Setup

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The (semaphore, index) pairs at or below the level the launch allows the TensorCore's recorded waits before call `n`. -/
def Bnd (d : Dev nD) (n : ℕ) : Set (SemLoc sig × HIx 1) := {p | (K (F := F)).lev (SparseCore.T d, p.1) p.2 ≤ 8 * n}

/-- A pipeline's own wait pairs, at index `none`, are within the bound. -/
theorem waitPairs_sub (cfg : Pipeline.Cfg sig Λ₀) (d : Dev nD) (n : ℕ) : cfg.waitPairs (none : HIx 1) ⊆ Bnd (F := F) d n := by
  rintro p ⟨w, s, rfl⟩
  show (K (F := F)).lev _ none ≤ 8 * n
  rw [SparseCore.Cfg.lev_none]; exact Nat.zero_le _

/-- The launch's spelling of the debt is the pipelines'. -/
theorem debt_to (d : Dev nD) (n : ℕ) :
    (debt (F := F) d n : sProp 𝕄) ⊢ Pipeline.owesWithin d ((K (F := F)).Otc d n) (Bnd (F := F) d n) := by
  iintro ⟨%W, %hW, HO⟩
  iexists W; isplitr
  · ipureintro; exact fun p hp => hW p (Finset.mem_coe.mp hp)
  · iexact HO

theorem debt_of (d : Dev nD) (n : ℕ) :
    (Pipeline.owesWithin d ((K (F := F)).Otc d n) (Bnd (F := F) d n) : sProp 𝕄) ⊢ debt (F := F) d n := by
  iintro ⟨%W, %hW, HO⟩
  iexists W; isplitr
  · ipureintro; exact fun p hp => hW (Finset.mem_coe.mpr hp)
  · iexact HO

/-- What rides beside the buffers between two segments, before call `n`. -/
abbrev Ride (d : Dev nD) (n : ℕ) : sProp 𝕄 :=
  iprop((∃ r, prngReg d r) ∗ Pipeline.owesWithin d ((K (F := F)).Otc d n) (Bnd (F := F) d n))

end Cert.Kernel.Hmain

end
-- ==== Proof.LaunchElemIdealW.lean ====
/-
  The launch element of the ghost state: the handshake cells' rounds for the launch theorem, nothing for the vector
  subcores' counters (they start at the unit), and the TensorCore pipelines' staging cells' rounds, which fund — for every
  device and every pipeline — the cells' launch ghost state and the duty tokens of the transfers the pipeline's loop will
  issue. That last part is what @main's proof starts from beside its buffers.
-/
import proofs.«203700_g68710886802180_cont_9to1c4b_800_29_alg».proof.Proof.ThreadStateIdealW
import Idealize.ShloMosaic.Lib.Pipeline.Kit

noncomputable section

namespace Cert.Kernel.Hmain

open Cert.Kernel Cert.Kernel.Gen Cert.Kernel.Setup

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The launch element. -/
def u₀ : UU :=
  (initOf (K (F := F)).hsCells (K (F := F)).hsToks, 1,
    initOf (Pipeline.cells (Pipeline.pin (pcfgs (F := F)) adm) cellOf_inj) (Pipeline.launchToks (Pipeline.pin (pcfgs (F := F)) adm) cellOf_inj))

/-- What @main's proof on device `d` starts from beside what the launch deals it: every pipeline's ghost state. -/
abbrev G0 (d : Dev nD) : sProp 𝕄 := Pipeline.ghostOn (pcfgs (F := F)) adm EP Finset.univ d

theorem bigSep_emp' {I : Type} (s : Finset I) : (bigSep s fun _ => iprop(emp)) = (iprop(emp) : sProp 𝕄) := bigSep_emp_const s

theorem hu₀ (Pm : (K (F := F)).Pay (nD := nD) (Val := Elt F) (Name := ℕ) (U := UU)) (hx : ∀ q thr, Pm.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G0 (F := F) d)
        ∗ bigSep Finset.univ fun thr : Thread nD τ => bigSep Finset.univ fun q : Fin 1 => Pm.x q thr) := by
  unfold u₀
  iintro Hu
  ihave H := (ownU_pair _ _) $$ Hu
  icases H with ⟨HH, HR⟩
  ihave H2 := (own_pair_emb (embR : Emb (UK × UP) 𝕄) _ _) $$ HR
  icases H2 with ⟨-, HQ⟩
  ihave HP := (show (BI.own (((Emb.inr : Emb UP (UK × UP)).trans (embR : Emb (UK × UP) 𝕄)) (initOf (Pipeline.cells (Pipeline.pin (pcfgs (F := F)) adm) cellOf_inj) (Pipeline.launchToks (Pipeline.pin (pcfgs (F := F)) adm) cellOf_inj))) : sProp 𝕄)
      ⊢ BI.own ((EP : Emb UP 𝕄) (initOf (Pipeline.cells (Pipeline.pin (pcfgs (F := F)) adm) cellOf_inj) (Pipeline.launchToks (Pipeline.pin (pcfgs (F := F)) adm) cellOf_inj))) from .rfl) $$ HQ
  imod (Pipeline.fund_ghost (Pipeline.pin (pcfgs (F := F)) adm) (EP : Emb UP 𝕄) cellOf_inj) $$ HP with ⟨Hg, Ht⟩
  imodintro
  isplitl [HH]; · iexact HH
  isplitl [Hg Ht]
  · unfold G0 Pipeline.ghostOn Pipeline.PerCore.ghostOn
    simp only [bigSep_sep']
    isplitl [Hg]; · iexact Hg
    iexact Ht
  rw [show (bigSep Finset.univ fun thr : Thread nD τ => bigSep Finset.univ fun q : Fin 1 => Pm.x q thr) = (iprop(emp) : sProp 𝕄) from by
    simp only [hx]; rw [bigSep_congr fun _ _ => bigSep_emp' _, bigSep_emp']]
  iempintro

end Cert.Kernel.Hmain

end
-- ==== Proof.SidesIdealW.lean ====
/-
  @main's two TensorCore stretches as records. `SideA` is everything the reduction of @main asks about the stretch before
  the SparseCore call (its proof data, its segments and that @main's text is their run, the chaining of the thread
  states, how the launch's deal makes the first thread state, how the last one yields the call's operands), `SideB` the
  same for the stretch after it (its data may depend on what the call returned). `hmain` puts the two around the call;
  the pipelines' ghost state, dealt whole at the launch, is split between the stretches by the pipelines each enters.
-/
import proofs.«203700_g68710886802180_cont_9to1c4b_800_29_alg».proof.Proof.LaunchElemIdealW

noncomputable section

namespace Cert.Kernel.Hmain

open Cert.Kernel Cert.Kernel.Gen Cert.Kernel.Setup

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

/-- The pipelines the first stretch enters, and the second. -/
abbrev pipesA : Finset (Fin 4) := {0, 1}
abbrev pipesB : Finset (Fin 4) := {2, 3}

/-- The stretch before the SparseCore call. -/
structure SideA (m : (ℓ : Loc nD τ sig) → Buf (Elt F) ℓ) (ρ : Dev nD → PrngReg)
    (Pm : (K (F := F)).Pay (nD := nD) (Val := Elt F) (Name := ℕ) (U := UU)) (RestA : Dev nD → sProp 𝕄) where
  rdats : RDats (F := F)
  segs : List (SegT rdats)
  hrun : MainSplit.before (F := F) = Pipeline.RDat.Seg.run segs
  hnd : (Pipeline.RDat.Seg.pipes segs).Nodup
  hS : ∀ p ∈ Pipeline.RDat.Seg.pipes segs, p ∈ pipesA
  T : Dev nD → sProp 𝕄
  T' : Dev nD → sProp 𝕄
  hch : ∀ d, Pipeline.RDat.Seg.ChainsAt d T segs T'
  /-- The launch's deal — the debt before call 0, every unscoped buffer at its launch contents, the TensorCore's own
      free semaphores at zero, the generator register — makes the first thread state. -/
  hin : ∀ d, iprop(debt d 0 ∗ unscopedBufs d (fun b => m ((SparseCore.T d).loc b)) ∗ (K (F := F)).tcSems0 d ∗ prngReg d (ρ d)) ⊢ T d
  /-- The last thread state yields the debt, the call's operands for every SparseCore of its grid, and the rest. -/
  hcall : ∀ d, T' d ⊢ iprop(debt d 0 ∗ (bigSep Finset.univ fun c : Fin ((K (F := F)).nCore 0) => Pm.st 0 d c) ∗ RestA d)

/-- The stretch after it. -/
structure SideB (Pm : (K (F := F)).Pay (nD := nD) (Val := Elt F) (Name := ℕ) (U := UU)) (RestA FIN : Dev nD → sProp 𝕄) where
  X : Type
  rdats : X → RDats (F := F)
  segs : (x : X) → List (SegT (rdats x))
  hrun : ∀ x, MainSplit.after (F := F) = Pipeline.RDat.Seg.run (segs x)
  hnd : ∀ x, (Pipeline.RDat.Seg.pipes (segs x)).Nodup
  hS : ∀ x, ∀ p ∈ Pipeline.RDat.Seg.pipes (segs x), p ∈ pipesB
  T : X → Dev nD → sProp 𝕄
  T' : X → Dev nD → sProp 𝕄
  hch : ∀ x d, Pipeline.RDat.Seg.ChainsAt d (T x) (segs x) (T' x)
  /-- The debt after the call, the call's results and the rest make the first thread state, for some returned data. -/
  hback : ∀ d, iprop(debt d 1 ∗ (bigSep Finset.univ fun c : Fin ((K (F := F)).nCore 0) => Pm.dn 0 d c) ∗ RestA d) ⊢ iprop(∃ x, T x d)
  /-- The last thread state yields the debt and what the certificate reads at the end. -/
  hend : ∀ x d, T' x d ⊢ iprop(debt d 1 ∗ FIN d)

/-- The pipelines' ghost state, dealt whole, is the first stretch's and the second's. -/
theorem ghost_split (d : Dev nD) :
    (G0 (F := F) d : sProp 𝕄) ⊢ iprop(Pipeline.ghostOn (pcfgs (F := F)) adm EP pipesA d ∗ Pipeline.ghostOn (pcfgs (F := F)) adm EP pipesB d) := by
  unfold G0 Pipeline.ghostOn Pipeline.PerCore.ghostOn
  rw [show (Finset.univ : Finset (Fin 4)) = pipesA ∪ pipesB from by decide, bigSep_union (by decide)]
  exact .rfl

/-- @main on the TensorCore of device `d`, from the two sides. -/
theorem hmain (m : (ℓ : Loc nD τ sig) → Buf (Elt F) ℓ) (ρ : Dev nD → PrngReg)
    (Pm : (K (F := F)).Pay (nD := nD) (Val := Elt F) (Name := ℕ) (U := UU)) (RestA FIN : Dev nD → sProp 𝕄)
    (sa : SideA m ρ Pm RestA) (sb : SideB Pm RestA FIN) (κ : GSem nD τ sig → ℕ) (d : Dev nD) :
    iprop((K (F := F)).ctx EH Pm κ ∗ (K (F := F)).tcSt EH d 0 ∗ (K (F := F)).tcRes m ρ d ∗ G0 (F := F) d)
      ⊢ wp frame (wpE ((K (F := F)).defs (D (F := F))) 𝒱 (SparseCore.T d) none) Set.univ (main (F := F) d)
          fun _ => iprop((K (F := F)).tcSt EH d 1 ∗ FIN d) :=
  hmain_of Pm m ρ (G0 (F := F)) FIN RestA sa.rdats sa.segs sa.hrun pipesA pipesB sa.hnd sa.hS sa.T sa.T' sa.hch
    sb.rdats sb.segs sb.hrun sb.hnd sb.hS sb.T sb.T' sb.hch
    (fun d => by
      iintro ⟨Hd, Hu, Hs, Hp, HG⟩
      ihave H := (ghost_split d) $$ HG
      icases H with ⟨HA, HB⟩
      isplitl [Hd Hu Hs Hp]
      · iapply (sa.hin d)
        isplitl [Hd]; · iexact Hd
        isplitl [Hu]; · iexact Hu
        isplitl [Hs]; · iexact Hs
        iexact Hp
      isplitl [HA]; · iexact HA
      iexact HB)
    sa.hcall sb.hback sb.hend κ d

end Cert.Kernel.Hmain

end
-- ==== Proof.FinIdealW.lean ====
/-
  What the certificate reads off the final memory of a device: the six argument arrays at their launch contents, and the
  result array at contents of which a stated property holds (the property is a parameter: the frames take the trivial
  one, the value claim the kernel's own closed form). Holding those points-to assertions beside the state interpretation
  of a final state says that state's memory has those contents.
-/
import proofs.«203700_g68710886802180_cont_9to1c4b_800_29_alg».proof.Proof.LaunchSetupIdealW

noncomputable section

namespace Cert.Kernel.Hmain

open Cert.Kernel Cert.Kernel.Gen Cert.Kernel.Setup

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-- The location of @main's buffer `b` on device `d`. -/
abbrev tloc (d : Dev nD) (b : Ref sig .tc) : Loc nD τ sig := (SparseCore.T d).loc b

/-- An argument array, whole, at its launch contents. -/
abbrev argPts (d : Dev nD) (b : Ref sig .tc) : sProp 𝕄 := tloc d b ↦{fullShare} m (tloc d b)

/-- What is read at the end, for a property `Ok d` of the result array's contents. -/
def FIN (Ok : (d : Dev nD) → Buf (Elt F) (tloc d main_v12) → Prop) (d : Dev nD) : sProp 𝕄 :=
  iprop(argPts m d main_arg0 ∗ argPts m d main_arg1 ∗ argPts m d main_arg2 ∗ argPts m d main_arg3 ∗ argPts m d main_arg4 ∗ argPts m d main_arg5
    ∗ ∃ f, ⌜Ok d f⌝ ∗ tloc d main_v12 ↦{fullShare} f)

/-- The same of a final state's memory. -/
def fq (Ok : (d : Dev nD) → Buf (Elt F) (tloc d main_v12) → Prop) (d : Dev nD) (s' : Phys nD τ sig (Elt F)) : Prop :=
  Ok d (s'.mem.mem (tloc d main_v12))
    ∧ s'.mem.mem (tloc d main_arg0) = m (tloc d main_arg0) ∧ s'.mem.mem (tloc d main_arg1) = m (tloc d main_arg1)
    ∧ s'.mem.mem (tloc d main_arg2) = m (tloc d main_arg2) ∧ s'.mem.mem (tloc d main_arg3) = m (tloc d main_arg3)
    ∧ s'.mem.mem (tloc d main_arg4) = m (tloc d main_arg4) ∧ s'.mem.mem (tloc d main_arg5) = m (tloc d main_arg5)

/-- A whole buffer held at `f` beside the state interpretation: the state's memory holds `f` there. -/
theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  · iexact HSI

theorem hfin (Ok : (d : Dev nD) → Buf (Elt F) (tloc d main_v12) → Prop) (d : Dev nD) (s' : Phys nD τ sig (Elt F)) :
    iprop(FIN m Ok d ∗ SI s') ⊢ (⌜fq m Ok d s'⌝ : sProp 𝕄) := by
  unfold FIN
  iintro ⟨⟨H0, H1, H2, H3, H4, H5, %f, %hf, Hv⟩, HSI⟩
  ihave H := (read_whole s' _ _) $$ [H0 HSI]
  · isplitl [H0] <;> iassumption
  icases H with ⟨%e0, HSI⟩
  ihave H := (read_whole s' _ _) $$ [H1 HSI]
  · isplitl [H1] <;> iassumption
  icases H with ⟨%e1, HSI⟩
  ihave H := (read_whole s' _ _) $$ [H2 HSI]
  · isplitl [H2] <;> iassumption
  icases H with ⟨%e2, HSI⟩
  ihave H := (read_whole s' _ _) $$ [H3 HSI]
  · isplitl [H3] <;> iassumption
  icases H with ⟨%e3, HSI⟩
  ihave H := (read_whole s' _ _) $$ [H4 HSI]
  · isplitl [H4] <;> iassumption
  icases H with ⟨%e4, HSI⟩
  ihave H := (read_whole s' _ _) $$ [H5 HSI]
  · isplitl [H5] <;> iassumption
  icases H with ⟨%e5, HSI⟩
  ihave H := (read_whole s' _ _) $$ [Hv HSI]
  · isplitl [Hv] <;> iassumption
  icases H with ⟨%ev, -⟩
  ipureintro
  exact ⟨ev ▸ hf, e0, e1, e2, e3, e4, e5⟩

end Cert.Kernel.Hmain

end
-- ==== Proof.RunIdealW.lean ====
/-
  The kernel program as printed's run, from its parts: the SparseCore launch theorem applied to one vector subcore's
  task, the split of a SparseCore's operands among its tasks, the launch element, @main on the TensorCore (the two
  stretches around the call) and the reading of the final memory. Every weakly fair execution of the whole family of
  threads terminates without a fault, with the argument arrays as launched and the result array satisfying the stated
  property.
-/
import proofs.«203700_g68710886802180_cont_9to1c4b_800_29_alg».proof.Proof.SidesIdealW
import proofs.«203700_g68710886802180_cont_9to1c4b_800_29_alg».proof.Proof.FinIdealW

noncomputable section

namespace Cert.Kernel.Hmain

open Cert.Kernel Cert.Kernel.Gen Cert.Kernel.Setup

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The run's post: on every device the result array has the property and the arguments are as launched. -/
def QC (Ok : (d : Dev nD) → Buf (Elt F) (tloc d main_v12) → Prop) : PUnit × MemSt nD τ sig (Elt F) → Prop := fun r =>
  ∀ c : Dev nD, Ok c (r.2.mem (tloc c main_v12))
    ∧ r.2.mem (tloc c main_arg0) = m (tloc c main_arg0) ∧ r.2.mem (tloc c main_arg1) = m (tloc c main_arg1)
    ∧ r.2.mem (tloc c main_arg2) = m (tloc c main_arg2) ∧ r.2.mem (tloc c main_arg3) = m (tloc c main_arg3)
    ∧ r.2.mem (tloc c main_arg4) = m (tloc c main_arg4) ∧ r.2.mem (tloc c main_arg5) = m (tloc c main_arg5)

theorem run_main (Pm : (K (F := F)).Pay (nD := nD) (Val := Elt F) (Name := ℕ) (U := UU)) [Pm.IsStorable]
    (hx : ∀ q thr, Pm.x q thr = iprop(emp)) (hheld : Pm.held = ∅)
    (htile : (K (F := F)).TileObl (D (F := F)) 𝒱 Pm v₀ 0) (hvec : (K (F := F)).VecSplit' Pm 0)
    (Ok : (d : Dev nD) → Buf (Elt F) (tloc d main_v12) → Prop) (RestA : Dev nD → sProp 𝕄)
    (sa : SideA m ρ Pm RestA) (sb : SideB Pm RestA (FIN m Ok)) :
    θ_run (Cert.Kernel.defs (F := F)) (Cert.Kernel.threads (F := F)) ⟨m, fun _ => 0, ρ⟩ (QC m Ok) :=
  SparseCore.Cfg.θ_run_sc (K := K (F := F)) (D := D (F := F)) (𝒱 := 𝒱) (EH := EH) (P := Pm) facts v₀
    (fun q hq => match q with | 0 => nomatch hq)
    (fun q _ => match q with | 0 => htile)
    (fun q _ => match q with | 0 => SparseCore.Cfg.VecSplit.of_plain hvec)
    m ρ main (G0 (F := F)) (FIN m Ok) (u₀ (F := F)) (sep_elim_left.trans (hu₀ Pm hx)) (hmain m ρ Pm RestA (FIN m Ok) sa sb)
    (fq m Ok) (hfin m Ok) (QC m Ok) (fun _ h => h) (hheld := hheld)

end Cert.Kernel.Hmain

end
-- ==== Proof.TcDotBase.lean ====
/-
  What the two plain TensorCore regions of the program share: the invariant a region's body runs under. The body of
  such a region uses none of the core's scoped buffers that its windows do not stage, and never touches the generator
  register; the invariant holds exactly those, each at some contents, and hands them back unchanged.
-/
import proofs.«203700_g68710886802180_cont_9to1c4b_800_29_alg».proof.Proof.Gen.KernelIdeal.Launch
import proofs.«203700_g68710886802180_cont_9to1c4b_800_29_alg».proof.Proof.LaunchSetupIdeal
import Idealize.ShloMosaic.Lib.Pipeline.FrameBody

noncomputable section

namespace Cert.KernelIdeal.TcSide

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MT nD τ sig (HIx 1) (Elt F) ℕ Cert.KernelIdeal.Setup.UU ℕ

/-- The region invariant on core `c` for the windows `win`: the core's scoped buffers that are no staging buffer of
    the region, each whole at some contents, and the generator register at some state. -/
def ΦR {gr : Nat} {W : Nat} (win : Fin W → Pipeline.WinSpec sig gr) (c : Dev nD) : sProp 𝕄 :=
  iprop(Pipeline.scopedRest (Ix := HIx 1) (Name := ℕ) (U := Cert.KernelIdeal.Setup.UU) (Lvl := ℕ) (Val := Elt F) win c ∗ ∃ r, prngReg c r)

end Cert.KernelIdeal.TcSide

end
-- ==== Proof.TcDot.lean ====
/-
  The inner-product region (the third TensorCore call of the program) as a pipeline on one core: one grid point, five
  windows, each the whole of its array — the two [4096, 128] tables of copied-out packed rows (windows 0 and 1), the two
  [4096, 1] id columns (windows 2 and 3) and the [4096, 1] result (window 4). The body picks, row by row, the quarter of
  each packed row that the row's id selects, multiplies the two picked 32-wide rows lane by lane and sums the lanes.
  Everything is stated at the contents `V` the TensorCore's buffers hold when the region is entered, at the tallies `O`
  the core owes throughout the region and at a bound `B` on the wait pairs it has recorded (the body waits on nothing,
  so both pass through unread).
-/
import proofs.«203700_g68710886802180_cont_9to1c4b_800_29_alg».proof.Proof.Gen.KernelIdeal.Launch
import proofs.«203700_g68710886802180_cont_9to1c4b_800_29_alg».proof.Proof.Gen.KernelIdeal.Skeleton
import proofs.«203700_g68710886802180_cont_9to1c4b_800_29_alg».proof.Proof.Gen.KernelIdeal.Points
import proofs.«203700_g68710886802180_cont_9to1c4b_800_29_alg».proof.Proof.LaunchSetupIdeal
import proofs.«203700_g68710886802180_cont_9to1c4b_800_29_alg».proof.Proof.TcDotBase
import Idealize.ShloMosaic.Lib.Pipeline.FrameBody
import Idealize.ShloMosaic.Lib.Ring
import Idealize.ShloMosaic.Lib.Tactic

set_option maxRecDepth 16384

noncomputable section

namespace Cert.KernelIdeal.TcSide

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ Cert.KernelIdeal.Setup.UU ℕ

variable (V : (c : Dev nD) → (b : Ref sig .tc) → Buf (Elt F) ((c : Thread nD τ).loc b))
variable (O : CellTallies nD τ sig (HIx 1)) (B : Set (SemLoc sig × HIx 1))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before3_0_of {c : Dev nD} (dat : Dat τ (Elt F) (HIx 1) ℕ Cert.KernelIdeal.Setup.UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof data
    whose array is `V`'s and whose body leaves the block in place. -/
theorem before3_1_of {c : Dev nD} (dat : Dat τ (Elt F) (HIx 1) ℕ Cert.KernelIdeal.Setup.UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof data
    whose array is `V`'s and whose body leaves the block in place. -/
theorem before3_2_of {c : Dev nD} (dat : Dat τ (Elt F) (HIx 1) ℕ Cert.KernelIdeal.Setup.UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof data
    whose array is `V`'s and whose body leaves the block in place. -/
theorem before3_3_of {c : Dev nD} (dat : Dat τ (Elt F) (HIx 1) ℕ Cert.KernelIdeal.Setup.UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of a [4096, 1] column. -/
abbrev r3_col : Rect S4096x1 := Rect.unit (s := S4096x1) ![0, 0] S4096x1.size inb_S4096x1_S4096x1_0_0
/-- The four 32-lane quarters of a [4096, 128] table. -/
abbrev r3_q0 : Rect S4096x128 := Rect.unit (s := S4096x128) ![0, 0] S4096x32.size inb_S4096x128_S4096x32_0_0
abbrev r3_q1 : Rect S4096x128 := Rect.unit (s := S4096x128) ![0, 32] S4096x32.size inb_S4096x128_S4096x32_0_32
abbrev r3_q2 : Rect S4096x128 := Rect.unit (s := S4096x128) ![0, 64] S4096x32.size inb_S4096x128_S4096x32_0_64
abbrev r3_q3 : Rect S4096x128 := Rect.unit (s := S4096x128) ![0, 96] S4096x32.size inb_S4096x128_S4096x32_0_96

/-! ## What the body leaves in the output window's buffer -/

/-- The value the body stores, from the input windows' blocks: the lane sums of the products of the two picked rows. -/
def pay3 (x0 : Vec F S4096x128 .f32) (x1 : Vec F S4096x128 .f32) (x2 : Vec F S4096x1 .i32) (x3 : Vec F S4096x1 .i32) : FVec F S4096x1 .f32 :=
  k3_pay1
    (k3_pay8 (k3_pay3 (View.ld x3 r3_col)) (k3_pay5 (View.ld x3 r3_col) (View.ld x1 r3_q0)) (View.ld x1 r3_q1) (View.ld x1 r3_q2))
    (k3_pay9 (k3_pay2 (View.ld x2 r3_col)) (k3_pay4 (View.ld x2 r3_col) (View.ld x0 r3_q0)) (k3_pay6 (View.ld x0 r3_q1))
      (Scalar.ofBits .f32 0x00000000#32) (k3_pay7 (View.ld x2 r3_col)) (View.ld x0 r3_q2) (View.ld x0 r3_q3))
    (k3_pay10 (k3_pay3 (View.ld x3 r3_col)))
    (View.ld x1 r3_q3)

/-- Window 4's staging buffer after the body, from the input windows' blocks: its one store, of the whole buffer. -/
def out3_4 (x0 : Vec F S4096x128 .f32) (x1 : Vec F S4096x128 .f32) (x2 : Vec F S4096x1 .i32) (x3 : Vec F S4096x1 .i32) : Vec F S4096x1 .f32 :=
  View.canon [⟨r3_col, pay3 x0 x1 x2 x3⟩]

/-- The store is of the whole buffer, so it covers it. -/
theorem cover3_4 (p0 : Vec F S4096x1 .f32) (y : S4096x1.Idx) :
    ∃ pc ∈ ([⟨r3_col, p0⟩] : List (View.Piece (Elt F) S4096x1 .f32)), y ∈ pc.1.set :=
  View.cover_of_tiled [⟨r3_col, p0⟩] S4096x1.size (by rfl) y

/-! ## The body's triple -/

set_option maxHeartbeats 2000000 in
/-- The body on whole staging memrefs, the inputs' at read contents `x0 … x3` and the output's at anything, runs to the
    continuation holding the inputs' as they were and the output's at `out3_4 x0 x1 x2 x3`. -/
theorem sound_kernel3 (c : Dev nD) (E : Set ℕ) (arg0 : Memref sig .tc .vmem S4096x128 .f32) (harg0 : arg0.IsWhole) (arg1 : Memref sig .tc .vmem S4096x128 .f32) (harg1 : arg1.IsWhole) (arg2 : Memref sig .tc .vmem S4096x1 .i32) (harg2 : arg2.IsWhole) (arg3 : Memref sig .tc .vmem S4096x1 .i32) (harg3 : arg3.IsWhole) (arg4 : Memref sig .tc .vmem S4096x1 .f32) (harg4 : arg4.IsWhole)
    (x0 : Vec F S4096x128 .f32) (x1 : Vec F S4096x128 .f32) (x2 : Vec F S4096x1 .i32) (x3 : Vec F S4096x1 .i32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__dot_body arg0 harg0 arg1 harg1 arg2 harg2 arg3 harg3 arg4 harg4) K := by
  simp only [cc3__dot_body_eq_skeleton]; unfold cc3__dot_body_skel
  simp only [k3_part1_eq_skeleton]; unfold k3_part1_skel
  simp only [k3_part2_eq_skeleton]; unfold k3_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover3_4 _)

/-! ## The pipeline's proof data -/

/-- The proof data of the region on core `c`: the arrays as the region finds them (`V`); after the body each input's
    buffer at its block and the output's at `out3_4` of the input blocks; the invariant `ΦR`; the tallies `O` owed at
    every point, the recorded wait pairs within `B`; full shares. -/
def dat3 (c : Dev nD) : Dat τ (Elt F) (HIx 1) ℕ Cert.KernelIdeal.Setup.UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := ΦR spec3 c
  q _ := fullShare
  owed _ := O
  recorded _ := B

/-- The proof data's arrays are the region-entry contents. -/
theorem A_eq3 (c : Dev nD) (w : Fin cfg3.W) : (dat3 V O B c).A w = V c (Pipeline.arrRef spec3 w) := by
  dsimp only [dat3]

/-- What the body leaves, window by window. -/
theorem after3_0 (c : Dev nD) (t : Fin cfg3.N) : (dat3 V O B c).after 0 t = iblk3 V c 0 t := by dsimp only [dat3]
theorem after3_1 (c : Dev nD) (t : Fin cfg3.N) : (dat3 V O B c).after 1 t = iblk3 V c 1 t := by dsimp only [dat3]
theorem after3_2 (c : Dev nD) (t : Fin cfg3.N) : (dat3 V O B c).after 2 t = iblk3 V c 2 t := by dsimp only [dat3]
theorem after3_3 (c : Dev nD) (t : Fin cfg3.N) : (dat3 V O B c).after 3 t = iblk3 V c 3 t := by dsimp only [dat3]
theorem after3_4 (c : Dev nD) (t : Fin cfg3.N) : (dat3 V O B c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V O B c).before 0 t d = iblk3 V c 0 t :=
  before3_0_of V (dat3 V O B c) (A_eq3 V O B c 0) (after3_0 V O B c) t d
theorem before3_1 (c : Dev nD) (t : Fin cfg3.N) (d) : (dat3 V O B c).before 1 t d = iblk3 V c 1 t :=
  before3_1_of V (dat3 V O B c) (A_eq3 V O B c 1) (after3_1 V O B c) t d
theorem before3_2 (c : Dev nD) (t : Fin cfg3.N) (d) : (dat3 V O B c).before 2 t d = iblk3 V c 2 t :=
  before3_2_of V (dat3 V O B c) (A_eq3 V O B c 2) (after3_2 V O B c) t d
theorem before3_3 (c : Dev nD) (t : Fin cfg3.N) (d) : (dat3 V O B c).before 3 t d = iblk3 V c 3 t :=
  before3_3_of V (dat3 V O B c) (A_eq3 V O B c 3) (after3_3 V O B c) t d

/-! ## The body obligation, at a generic point -/

/-- What the body is called with at point `t`, the windows one by one, -/
def bodyPre3 (c : Dev nD) (t : Fin cfg3.N) : sProp 𝕄 :=
  iprop((dat3 V O B c).Φ t.castSucc ∗ (dat3 V O B c).owesAt none t.castSucc
    ∗ (∃ d, owns (c : Thread nD τ) (st3_0 t) fullShare ((dat3 V O B c).before 0 t d))
    ∗ (∃ d, owns (c : Thread nD τ) (st3_1 t) fullShare ((dat3 V O B c).before 1 t d))
    ∗ (∃ d, owns (c : Thread nD τ) (st3_2 t) fullShare ((dat3 V O B c).before 2 t d))
    ∗ (∃ d, owns (c : Thread nD τ) (st3_3 t) fullShare ((dat3 V O B c).before 3 t d))
    ∗ (∃ d, owns (c : Thread nD τ) (st3_4 t) fullShare ((dat3 V O B c).before 4 t d)))

/-- and what it returns. -/
def bodyPost3 (c : Dev nD) (t : Fin cfg3.N) : sProp 𝕄 :=
  iprop((dat3 V O B c).Φ t.succ ∗ (dat3 V O B c).owesAt none t.succ
    ∗ owns (c : Thread nD τ) (st3_0 t) fullShare ((dat3 V O B c).after 0 t)
    ∗ owns (c : Thread nD τ) (st3_1 t) fullShare ((dat3 V O B c).after 1 t)
    ∗ owns (c : Thread nD τ) (st3_2 t) fullShare ((dat3 V O B c).after 2 t)
    ∗ owns (c : Thread nD τ) (st3_3 t) fullShare ((dat3 V O B c).after 3 t)
    ∗ owns (c : Thread nD τ) (st3_4 t) fullShare ((dat3 V O B c).after 4 t))

/-- The body at the point: the inputs' memrefs hold their blocks, so `sound_kernel3` applies; the invariant and the
    core's `owes` pass through unread. -/
theorem sound_body3 (c : Dev nD) (t : Fin cfg3.N) :
    bodyPre3 V O B c t ⊢ wp frame (wpE (defs₀ (F := F)) Variants.none c none) Set.univ (bodyAt3 t) (fun _ => bodyPost3 V O B c t) := by
  unfold bodyPre3 bodyPost3 bodyAt3
  simp only [before3_0, before3_1, before3_2, before3_3]
  rw [show (dat3 V O B c).Φ t.succ = (dat3 V O B c).Φ t.castSucc from rfl,
    show (dat3 V O B c).owesAt none t.succ = (dat3 V O B c).owesAt none t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V O B c) (defs₀ (F := F)) Variants.none none Set.univ := fun t => by
  rw [bigSep_W3, bigSep_W3]
  exact sound_body3 V O B c t

end Cert.KernelIdeal.TcSide

end
-- ==== Proof.Packed.lean ====
/-
  The packed layout the kernel moves embedding rows through, as predicates on arrays (for every float instance).

  The kernel re-lays each [1000000, 32] embedding table as a [253952, 128] table of PACKED rows: table row
  `n = 16384·i + 4096·q + r` (`q < 4`, `r < 4096`) sits in packed row `4096·i + r`, lanes `32·q … 32·q + 31`. The re-laying
  runs block by block and its last block reaches past the table's million rows, so a packed table is determined only on
  the lanes that come from real rows: `WideOK` says exactly that much of it. The vector subcores then copy, for each
  batch entry, the packed row its id names (row `4096·(id / 16384) + id % 4096`); of that 128-wide row only the 32 lanes
  of quarter `(id / 4096) % 4` matter, and `PackedOK` says those lanes hold the id's embedding row. The bias side is
  plain: entry `b` of the bias row is the sum of the two biases its ids name (`biasRow`).
-/
import Idealize.ShloMosaic.PureOps
import Idealize.ShloMosaic.Lib.ValueIdx

noncomputable section

namespace Cert.Packed

open Idealize.ShloMosaic Idealize.ShloMosaic.ValueIdx

abbrev SIds : Shape := ⟨1, ![4096]⟩
abbrev SEmb : Shape := ⟨2, ![1000000, 32]⟩
abbrev SBias : Shape := ⟨2, ![1000000, 1]⟩
abbrev SFlat : Shape := ⟨1, ![1000000]⟩
abbrev SWide : Shape := ⟨2, ![253952, 128]⟩
abbrev SRows : Shape := ⟨2, ![4096, 128]⟩

/-- The table row an id word names (the id itself below a million, which is all the precondition admits). -/
def rowOf (x : BitVec 32) : Fin 1000000 := ⟨min x.toNat 999999, by omega⟩

theorem rowOf_val {x : BitVec 32} (h : x.toNat ≤ 999999) : (rowOf x).val = x.toNat := by
  simp only [rowOf]; omega

/-- The packed row that holds table row `n`. -/
def wideRow (n : Nat) (h : n < 1000000) : Fin 253952 := ⟨4096 * (n / 16384) + n % 4096, by omega⟩
/-- The lane of that packed row that holds element `d` of table row `n`. -/
def wideLane (n : Nat) (d : Fin 32) : Fin 128 := ⟨32 * ((n / 4096) % 4) + d.val, by omega⟩

/-- A packed table carries the embedding table `e` on every lane that comes from a real row. -/
def WideOK {F : FTy → Type} (e : FVec F SEmb .f32) (w : FVec F SWide .f32) : Prop :=
  ∀ (n : Fin 1000000) (d : Fin 32), w (ix2 (wideRow n.val n.isLt) (wideLane n.val d)) = e (ix2 n d)

/-- Row `b` of the copied-out packed rows carries, on the quarter its id selects, the embedding row its id names. -/
def PackedOK {F : FTy → Type} (ids : IVec SIds 32) (e : FVec F SEmb .f32) (g : FVec F SRows .f32) : Prop :=
  ∀ (b : Fin 4096) (d : Fin 32), g (ix2 b (wideLane (ids (ix1 b)).toNat d)) = e (ix2 (rowOf (ids (ix1 b))) d)

/-- A flat bias table is the [1000000, 1] column read along its one axis. -/
def FlatOf {F : FTy → Type} (col : FVec F SBias .f32) (flat : FVec F SFlat .f32) : Prop :=
  ∀ n : Fin 1000000, flat (ix1 n) = col (ix2 n 0)

/-- The bias row: entry `b` is the user bias plus the item bias that batch entry `b`'s ids name. -/
def biasRow {F : FTy → Type} [FloatOps F] (uid iid : IVec SIds 32) (ub ib : FVec F SBias .f32) : FVec F SIds .f32 :=
  fun j => FloatOps.addf (ub (ix2 (rowOf (uid j)) 0)) (ib (ix2 (rowOf (iid j)) 0))

/-- Copying packed row `wideRow id` for every batch entry out of a table that is `WideOK` gives rows that are `PackedOK`. -/
theorem packedOK_of_rows {F : FTy → Type} {ids : IVec SIds 32} {e : FVec F SEmb .f32} {w : FVec F SWide .f32} {g : FVec F SRows .f32}
    (hids : ∀ j, (ids j).toNat ≤ 999999) (hw : WideOK e w)
    (hg : ∀ (b : Fin 4096) (l : Fin 128), g (ix2 b l) = w (ix2 (wideRow (ids (ix1 b)).toNat (by have := hids (ix1 b); omega)) l)) :
    PackedOK ids e g := by
  intro b d
  have hb := hids (ix1 b)
  rw [hg b]
  have := hw ⟨(ids (ix1 b)).toNat, by omega⟩ d
  rw [this]
  congr 1
  exact congrArg (fun r => ix2 r d) (Fin.ext (by simp only [rowOf]; omega))

end Cert.Packed

end
-- ==== Proof.Scores.lean ====
/-
  The score table both programs compute, as ONE function of the six argument arrays, and the two laws that join the
  kernel's arrangement of it to the reference's.

  Row `r`, column `c` of the result is
      (dot c + userBias (user of r)) + itemBias (item of r),
  where `dot c = ∑ d, userEmb (user of c, d) * itemEmb (item of c, d)` is the inner product of the two 32-wide embedding
  rows that batch entry `c` names. (The biases are [B,1] columns added to a [B] row, so the row index picks the bias and
  the column index picks the inner product.)

  The kernel forms `(userBias + itemBias) + dot` instead; on the extended reals addition is commutative and associative
  with no side condition, so the two arrangements agree everywhere (`arrange`). The kernel also reads each embedding
  row out of a 128-wide packed row by adding four candidates of which three are masked to zero: a sum whose other terms
  are zero is its one live term (`pick_one`).
-/
import Idealize.ShloMosaic.PureOps.Ideal
import Idealize.ShloMosaic.Lib.ValueIdx

noncomputable section

open scoped BigOperators

namespace Cert.Scores

open Idealize.ShloMosaic Idealize.ShloMosaic.ValueIdx

abbrev SIds : Shape := ⟨1, ![4096]⟩
abbrev SEmb : Shape := ⟨2, ![1000000, 32]⟩
abbrev SBias : Shape := ⟨2, ![1000000, 1]⟩
abbrev SOut : Shape := ⟨2, ![4096, 4096]⟩

/-- The table row an id word names: the id itself when it is below the tables' million rows (every id the precondition
    admits); the last row otherwise, so that the function is total. -/
def rowOf (x : BitVec 32) : Fin 1000000 := ⟨min x.toNat 999999, by omega⟩

theorem rowOf_val {x : BitVec 32} (h : x.toNat ≤ 999999) : (rowOf x).val = x.toNat := by
  simp only [rowOf]; omega

/-- The inner product of the user and item embedding rows that batch entry `c` names. -/
def dot (uid iid : IVec SIds 32) (ue ie : FVec Ideal SEmb .f32) (c : Fin 4096) : EReal :=
  ∑ d : Fin 32, ue (ix2 (rowOf (uid (ix1 c))) d) * ie (ix2 (rowOf (iid (ix1 c))) d)

/-- The score table. -/
def scores (uid iid : IVec SIds 32) (ue ie : FVec Ideal SEmb .f32) (ub ib : FVec Ideal SBias .f32) : FVec Ideal SOut .f32 :=
  fun j => (dot uid iid ue ie (j 1) + ub (ix2 (rowOf (uid (ix1 (j 0)))) 0)) + ib (ix2 (rowOf (iid (ix1 (j 0)))) 0)

/-- Bias first or inner product first: one sum on the extended reals. -/
theorem arrange (a b d : EReal) : (a + b) + d = (d + a) + b := by
  rw [add_comm (a + b) d, add_assoc]

/-- Four candidates added to zero, all but the `q`-th masked to zero, leave the `q`-th. -/
theorem pick_one (x : Fin 4 → EReal) (q : Fin 4) :
    ((((0 : EReal) + (if q = 0 then x 0 else 0)) + (if q = 1 then x 1 else 0)) + (if q = 2 then x 2 else 0)) + (if q = 3 then x 3 else 0) = x q := by
  fin_cases q <;> simp

end Cert.Scores

end
-- ==== Proof.TcDotValue.lean ====
/-
  The inner-product region's result. For every float instance, after the region the [4096, 1] result array holds what
  the body stores when its five windows are the whole arrays: `out3_4` of the two tables of packed rows and the two id
  columns as the region found them. On the extended reals that value is read entry by entry: the id column's word `w`
  at row `b` selects quarter `(w / 4096) % 4` of the packed row — the body adds four candidates to zero, all but that
  one masked to zero —, so the two picked 32-wide rows are lanes `32·q … 32·q + 31` of the two packed rows, and the
  entry is the sum over the 32 lanes of their products. Where the packed rows carry the embedding rows the ids name on
  exactly those lanes, the entry is the inner product of the two embedding rows.
-/
import proofs.«203700_g68710886802180_cont_9to1c4b_800_29_alg».proof.Proof.TcDot
import proofs.«203700_g68710886802180_cont_9to1c4b_800_29_alg».proof.Proof.Packed
import proofs.«203700_g68710886802180_cont_9to1c4b_800_29_alg».proof.Proof.Scores
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.KernelIdeal.TcSide

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

/-! ## The array after the region, for every float instance -/

section Final

variable {F : FTy → Type} [FloatOps F]
variable (V : (c : Dev nD) → (b : Ref sig .tc) → Buf (Elt F) ((c : Thread nD τ).loc b))
variable (O : CellTallies nD τ sig (HIx 1)) (B : Set (SemLoc sig × HIx 1))

/-- Each window is the whole of its array: its block at the one point, read off the array, is the array. -/
theorem iblk3_0 (c : Dev nD) (t : Fin cfg3.N) : iblk3 V c 0 t = (V c main_v6_0 : S4096x128.Idx → Elt F .f32) := by
  funext j
  show V c main_v6_0 (((cfg3.win 0).blk t).view.emb j) = V c main_v6_0 j
  congr 1
  funext a; apply Fin.ext
  match a with
  | ⟨0, _⟩ => show win3_0.index t (0 : Fin 2) * 4096 + 1 * (j 0).val = (j 0).val; have h : win3_0.index t (0 : Fin 2) = 0 := rfl; omega
  | ⟨1, _⟩ => show win3_0.index t (1 : Fin 2) * 128 + 1 * (j 1).val = (j 1).val; have h : win3_0.index t (1 : Fin 2) = 0 := rfl; omega
theorem iblk3_1 (c : Dev nD) (t : Fin cfg3.N) : iblk3 V c 1 t = (V c main_v6_1 : S4096x128.Idx → Elt F .f32) := by
  funext j
  show V c main_v6_1 (((cfg3.win 1).blk t).view.emb j) = V c main_v6_1 j
  congr 1
  funext a; apply Fin.ext
  match a with
  | ⟨0, _⟩ => show win3_1.index t (0 : Fin 2) * 4096 + 1 * (j 0).val = (j 0).val; have h : win3_1.index t (0 : Fin 2) = 0 := rfl; omega
  | ⟨1, _⟩ => show win3_1.index t (1 : Fin 2) * 128 + 1 * (j 1).val = (j 1).val; have h : win3_1.index t (1 : Fin 2) = 0 := rfl; omega
theorem iblk3_2 (c : Dev nD) (t : Fin cfg3.N) : iblk3 V c 2 t = (V c main_v7 : S4096x1.Idx → Elt F .i32) := by
  funext j
  show V c main_v7 (((cfg3.win 2).blk t).view.emb j) = V c main_v7 j
  congr 1
  funext a; apply Fin.ext
  match a with
  | ⟨0, _⟩ => show win3_2.index t (0 : Fin 2) * 4096 + 1 * (j 0).val = (j 0).val; have h : win3_2.index t (0 : Fin 2) = 0 := rfl; omega
  | ⟨1, _⟩ => show win3_2.index t (1 : Fin 2) * 1 + 1 * (j 1).val = (j 1).val; have h : win3_2.index t (1 : Fin 2) = 0 := rfl; omega
theorem iblk3_3 (c : Dev nD) (t : Fin cfg3.N) : iblk3 V c 3 t = (V c main_v8 : S4096x1.Idx → Elt F .i32) := by
  funext j
  show V c main_v8 (((cfg3.win 3).blk t).view.emb j) = V c main_v8 j
  congr 1
  funext a; apply Fin.ext
  match a with
  | ⟨0, _⟩ => show win3_3.index t (0 : Fin 2) * 4096 + 1 * (j 0).val = (j 0).val; have h : win3_3.index t (0 : Fin 2) = 0 := rfl; omega
  | ⟨1, _⟩ => show win3_3.index t (1 : Fin 2) * 1 + 1 * (j 1).val = (j 1).val; have h : win3_3.index t (1 : Fin 2) = 0 := rfl; omega

/-- The output window is the whole of its array: a read of any contents through its block is those contents, -/
theorem read_blk3_4 (t : Fin cfg3.N) (G : S4096x1.Idx → Elt F .f32) : ((cfg3.win 4).blk t).view.read (Elt F) G = G := by
  funext j
  show G (((cfg3.win 4).blk t).view.emb j) = G j
  congr 1
  funext a; apply Fin.ext
  match a with
  | ⟨0, _⟩ => show win3_4.index t (0 : Fin 2) * 4096 + 1 * (j 0).val = (j 0).val; have h : win3_4.index t (0 : Fin 2) = 0 := rfl; omega
  | ⟨1, _⟩ => show win3_4.index t (1 : Fin 2) * 1 + 1 * (j 1).val = (j 1).val; have h : win3_4.index t (1 : Fin 2) = 0 := rfl; omega

/-- and the part of its staging buffer the write-back moves is all of it. -/
theorem cut3_4 (t : Fin cfg3.N) (X : S4096x1.Idx → Elt F .f32) : (cfg3.win 4).cut (grid3.coords t) X = X := by
  funext j; rfl

/-- What the one point writes back is the whole of `out3_4` of the four input arrays. -/
theorem flushed3_eq (c : Dev nD) (t : Fin cfg3.N) :
    (dat3 V O B c).flushed 4 t = ((cfg3.win 4).blk t).view.read (Elt F) (out3_4 (V c main_v6_0) (V c main_v6_1) (V c main_v7) (V c main_v8)) := by
  show (cfg3.win 4).cut (grid3.coords t) ((dat3 V O B c).after 4 t) = _
  rw [after3_4, iblk3_0, iblk3_1, iblk3_2, iblk3_3, read_blk3_4, cut3_4]

/-- An index of the array is in the point's block iff each coordinate is in the block's range on its axis. -/
theorem mem_blk3 (t : Fin cfg3.N) (i : S4096x1.Idx) :
    i ∈ ((cfg3.win 4).blk t).view.set ↔ ∀ a : Fin 2, win3_4.index t a * S4096x1.size a ≤ (i a).val ∧ (i a).val < win3_4.index t a * S4096x1.size a + S4096x1.size a := by
  show i ∈ ((View.whole main_v9).slice (win3_4.rect t)).set ↔ _
  rw [View.set_slice_whole, Rect.mem_set_unit]
  exact Iff.rfl

/-- The one point's block is the whole array. -/
theorem cover3 (i : S4096x1.Idx) : ∃ t : Fin cfg3.N, (cfg3.win 4).flush t = true ∧ i ∈ ((cfg3.win 4).blk t).view.set := by
  have hi0 : (i 0).val < 4096 := (i 0).isLt
  have hi1 : (i 1).val < 1 := (i 1).isLt
  refine ⟨t3_0, flush3_4 t3_0, ?_⟩
  rw [mem_blk3]
  intro a
  match a with
  | ⟨0, _⟩ => show win3_4.index t3_0 (0 : Fin 2) * 4096 ≤ (i 0).val ∧ (i 0).val < win3_4.index t3_0 (0 : Fin 2) * 4096 + 4096; have h : win3_4.index t3_0 (0 : Fin 2) = 0 := rfl; omega
  | ⟨1, _⟩ => show win3_4.index t3_0 (1 : Fin 2) * 1 ≤ (i 1).val ∧ (i 1).val < win3_4.index t3_0 (1 : Fin 2) * 1 + 1; have h : win3_4.index t3_0 (1 : Fin 2) = 0 := rfl; omega

/-- THE ARRAY after the region, for every float instance: `out3_4` of the four input arrays. -/
theorem final3 (c : Dev nD) :
    (dat3 V O B c).arrAt 4 cfg3.N = out3_4 (V c main_v6_0) (V c main_v6_1) (V c main_v7) (V c main_v8) :=
  (dat3 V O B c).arrAt_eq_of_cover 4 _ (fun t _ => flushed3_eq V O B c t) cover3

end Final

/-! ## The words: which quarter of its packed row an id selects -/

/-- The quarter of its packed row that an id word selects, as the body computes it: bits 12 and 13. -/
def quarter (w : BitVec 32) : BitVec 32 := IntOp.andi (IntOp.shrui .vector w 12#32) 3#32

/-- Bits 12 and 13 of a word, read as a number, are its quotient by 4096 modulo 4. -/
theorem quarter_toNat (w : BitVec 32) : (quarter w).toNat = (w.toNat / 4096) % 4 := by
  unfold quarter IntOp.andi IntOp.shrui
  rw [if_pos (by decide)]
  rw [BitVec.toNat_and, BitVec.ushiftRight_eq', BitVec.toNat_ushiftRight, Nat.shiftRight_eq_div_pow]
  show w.toNat / 2 ^ 12 &&& 2 ^ 2 - 1 = w.toNat / 4096 % 4
  rw [Nat.and_two_pow_sub_one_eq_mod]
  norm_num

/-- A select on an equality test of two words is the `if` on their equality. -/
theorem select_cmpi_eq {α : Type} (x y : BitVec 32) (A B : α) : Scalar.select (IntOp.cmpi .eq x y) A B = if x = y then A else B := by
  unfold Scalar.select IntOp.cmpi
  by_cases h : x = y
  · subst h; simp
  · have hb : (x == y) = false := by simpa using h
    simp [hb, h]

/-- Four candidates added to zero, each masked by "the word's quarter is `k`", leave the candidate of the word's quarter. -/
theorem pick_quarter (w : BitVec 32) (a : Fin 4 → EReal) :
    ((((0 : EReal) + Scalar.select (IntOp.cmpi .eq (quarter w) 0#32) (a 0) 0) + Scalar.select (IntOp.cmpi .eq (quarter w) 1#32) (a 1) 0) + Scalar.select (IntOp.cmpi .eq (quarter w) 2#32) (a 2) 0) + Scalar.select (IntOp.cmpi .eq (quarter w) 3#32) (a 3) 0
    = a ⟨(w.toNat / 4096) % 4, Nat.mod_lt _ (by decide)⟩ := by
  simp only [select_cmpi_eq]
  have hq := quarter_toNat w
  have key : ∀ k : Fin 4, (quarter w = BitVec.ofNat 32 k.val) ↔ (⟨(w.toNat / 4096) % 4, Nat.mod_lt _ (by decide)⟩ : Fin 4) = k := by
    intro k
    rw [← BitVec.toNat_inj, hq, Fin.ext_iff]
    have : (BitVec.ofNat 32 k.val).toNat = k.val := by
      rw [BitVec.toNat_ofNat]; have := k.isLt; omega
    rw [this]
  have k0 : (quarter w = 0#32) ↔ _ := key 0
  have k1 : (quarter w = 1#32) ↔ _ := key 1
  have k2 : (quarter w = 2#32) ↔ _ := key 2
  have k3 : (quarter w = 3#32) ↔ _ := key 3
  simp only [k0, k1, k2, k3]
  exact Cert.Scores.pick_one a _

/-! ## The loads and the broadcasts at an index -/

theorem col_off_zero : (![0, 0] : Fin 2 → Nat) = fun _ => 0 := funext fun a => by fin_cases a <;> rfl

/-- A load of the whole of a [4096, 1] column reads the column. -/
theorem ld_col {F : FTy → Type} {e : EltTy} (x : S4096x1.Idx → Elt F e) : View.ld x r3_col = x :=
  View.ld_unit_zero (S := S4096x1) col_off_zero _ x

/-- A load of quarter `k` of a [4096, 128] table reads, at row `b` and lane `d`, the table at row `b` and lane `32·k + d`. -/
theorem ld_q0 {F : FTy → Type} {e : EltTy} (x : S4096x128.Idx → Elt F e) (b : Fin 4096) (d : Fin 32) :
    View.ld x r3_q0 (ix2 b d) = x (ix2 b ⟨32 * 0 + d.val, by omega⟩) := by
  show x _ = x _
  congr 1
  funext a; apply Fin.ext
  match a with
  | ⟨0, _⟩ => show 0 + 1 * b.val = b.val; omega
  | ⟨1, _⟩ => show 0 + 1 * d.val = 32 * 0 + d.val; omega
theorem ld_q1 {F : FTy → Type} {e : EltTy} (x : S4096x128.Idx → Elt F e) (b : Fin 4096) (d : Fin 32) :
    View.ld x r3_q1 (ix2 b d) = x (ix2 b ⟨32 * 1 + d.val, by omega⟩) := by
  show x _ = x _
  congr 1
  funext a; apply Fin.ext
  match a with
  | ⟨0, _⟩ => show 0 + 1 * b.val = b.val; omega
  | ⟨1, _⟩ => show 32 + 1 * d.val = 32 * 1 + d.val; omega
theorem ld_q2 {F : FTy → Type} {e : EltTy} (x : S4096x128.Idx → Elt F e) (b : Fin 4096) (d : Fin 32) :
    View.ld x r3_q2 (ix2 b d) = x (ix2 b ⟨32 * 2 + d.val, by omega⟩) := by
  show x _ = x _
  congr 1
  funext a; apply Fin.ext
  match a with
  | ⟨0, _⟩ => show 0 + 1 * b.val = b.val; omega
  | ⟨1, _⟩ => show 64 + 1 * d.val = 32 * 2 + d.val; omega
theorem ld_q3 {F : FTy → Type} {e : EltTy} (x : S4096x128.Idx → Elt F e) (b : Fin 4096) (d : Fin 32) :
    View.ld x r3_q3 (ix2 b d) = x (ix2 b ⟨32 * 3 + d.val, by omega⟩) := by
  show x _ = x _
  congr 1
  funext a; apply Fin.ext
  match a with
  | ⟨0, _⟩ => show 0 + 1 * b.val = b.val; omega
  | ⟨1, _⟩ => show 96 + 1 * d.val = 32 * 3 + d.val; omega

/-- A [4096, 1] column broadcast along the lanes reads, at row `b` and any lane, the column at row `b`. -/
theorem bcast_col_apply {α : Type} (v : S4096x1.Idx → α) (b : Fin 4096) (d : Fin 32) :
    broadcastTo S4096x32 v broadcasts_S4096x1_S4096x32 (ix2 b d) = v (ix2 b 0) :=
  broadcastTo_apply v _ (ix2 b d) (ix2 b 0) fun a => match a with | ⟨0, _⟩ => rfl | ⟨1, _⟩ => rfl

/-- The zero constant of the body is the extended reals' zero. -/
theorem zero_f32 : (Scalar.ofBits .f32 0x00000000#32 : Ideal .f32) = (0 : EReal) := Ideal.ofBits_zero_f32

/-! ## The body's values at an index, on the extended reals -/

/-- The first operand of the product (the row picked through the FIRST id column), at row `b` and lane `d`: four
    candidates added to zero, masked by the quarter of the id word at row `b`. -/
theorem first_picked_apply (v0 : Vec Ideal S4096x1 .i32) (v16 v34 v52 v70 : Vec Ideal S4096x32 .f32) (b : Fin 4096) (d : Fin 32) :
    k3_pay9 (k3_pay2 v0) (k3_pay4 v0 v16) (k3_pay6 v34) (Scalar.ofBits .f32 0x00000000#32) (k3_pay7 v0) v52 v70 (ix2 b d)
      = ((((0 : EReal) + Scalar.select (IntOp.cmpi .eq (quarter (v0 (ix2 b 0))) 0#32) (v16 (ix2 b d)) 0) + Scalar.select (IntOp.cmpi .eq (quarter (v0 (ix2 b 0))) 1#32) (v34 (ix2 b d)) 0) + Scalar.select (IntOp.cmpi .eq (quarter (v0 (ix2 b 0))) 2#32) (v52 (ix2 b d)) 0) + Scalar.select (IntOp.cmpi .eq (quarter (v0 (ix2 b 0))) 3#32) (v70 (ix2 b d)) 0 := by
  unfold k3_pay9 k3_pay4 k3_pay6 k3_pay7 k3_pay2
  simp only [addf_apply, select_apply, broadcast_apply, shapeCast_self, bcast_col_apply, zero_f32]
  rfl

/-- The second operand (the row picked through the SECOND id column), its last candidate added where the product is
    formed. -/
theorem second_picked_apply (v6 : Vec Ideal S4096x1 .i32) (v25 v43 v61 v79 : Vec Ideal S4096x32 .f32) (b : Fin 4096) (d : Fin 32) :
    k3_pay8 (k3_pay3 v6) (k3_pay5 v6 v25) v43 v61 (ix2 b d) + Scalar.select (k3_pay10 (k3_pay3 v6) (ix2 b 0)) (v79 (ix2 b d)) 0
      = ((((0 : EReal) + Scalar.select (IntOp.cmpi .eq (quarter (v6 (ix2 b 0))) 0#32) (v25 (ix2 b d)) 0) + Scalar.select (IntOp.cmpi .eq (quarter (v6 (ix2 b 0))) 1#32) (v43 (ix2 b d)) 0) + Scalar.select (IntOp.cmpi .eq (quarter (v6 (ix2 b 0))) 2#32) (v61 (ix2 b d)) 0) + Scalar.select (IntOp.cmpi .eq (quarter (v6 (ix2 b 0))) 3#32) (v79 (ix2 b d)) 0 := by
  unfold k3_pay8 k3_pay5 k3_pay10 k3_pay3
  simp only [addf_apply, select_apply, broadcast_apply, shapeCast_self, bcast_col_apply, zero_f32]
  rfl

/-- A lane sum cast to a column reads, at row `b`, the sum of the source over row `b`'s 32 lanes. -/
theorem lane_sum_apply (src : FVec Ideal S4096x32 .f32) (b : Fin 4096) :
    shapeCast S4096x1 (multiReduction .add [1] S4096 src 0x00000000#32 reduces_S4096x32_S4096 (.inl rfl) rfl) shapeCasts_S4096_S4096x1 (ix2 b 0)
      = ∑ d : Fin 32, src (ix2 b d) := by
  rw [shapeCast_apply _ shapeCasts_S4096_S4096x1 (ix2 b 0) (ix1 b)
    (by rw [Shape.rowMajor_val_one, Shape.rowMajor_val_two]; show b.val = b.val * 1 + 0; omega)]
  have h1 : multiReduction .add [1] S4096 src 0x00000000#32 reduces_S4096x32_S4096 (.inl rfl) rfl (ix1 b)
      = ∑ k : Fin 32, src (reduces_S4096x32_S4096.lift (ix1 b) k) := Ideal.multiReduction_add_single src _ _ _ _ _
  refine h1.trans (Finset.sum_congr rfl fun d _ => ?_)
  congr 1
  funext a; apply Fin.ext
  match a with
  | ⟨0, _⟩ => rfl
  | ⟨1, _⟩ => rfl

/-- The stored value at row `b`: the sum over the 32 lanes of first operand times completed second operand. -/
theorem k3_pay1_apply (v67 v76 : FVec Ideal S4096x32 .f32) (v78 : IVec S4096x1 1) (v79 : Vec Ideal S4096x32 .f32) (b : Fin 4096) :
    k3_pay1 v67 v76 v78 v79 (ix2 b 0)
      = ∑ d : Fin 32, v76 (ix2 b d) * (v67 (ix2 b d) + Scalar.select (v78 (ix2 b 0)) (v79 (ix2 b d)) 0) := by
  unfold k3_pay1
  dsimp only
  refine (lane_sum_apply _ b).trans (Finset.sum_congr rfl fun d _ => ?_)
  simp only [mulf_apply, addf_apply, select_apply, broadcast_apply, shapeCast_self, bcast_col_apply, zero_f32]

/-- Four quarter loads of a table, masked by a word's quarter and added to zero, read the table at the lane the word's
    quarter and the lane `d` name. -/
theorem picked_lane (x : Vec Ideal S4096x128 .f32) (w : BitVec 32) (b : Fin 4096) (d : Fin 32) :
    ((((0 : EReal) + Scalar.select (IntOp.cmpi .eq (quarter w) 0#32) (View.ld x r3_q0 (ix2 b d)) 0) + Scalar.select (IntOp.cmpi .eq (quarter w) 1#32) (View.ld x r3_q1 (ix2 b d)) 0) + Scalar.select (IntOp.cmpi .eq (quarter w) 2#32) (View.ld x r3_q2 (ix2 b d)) 0) + Scalar.select (IntOp.cmpi .eq (quarter w) 3#32) (View.ld x r3_q3 (ix2 b d)) 0
    = x (ix2 b (Cert.Packed.wideLane w.toNat d)) := by
  rw [ld_q0, ld_q1, ld_q2, ld_q3]
  exact pick_quarter w (fun k => x (ix2 b ⟨32 * k.val + d.val, by have := k.isLt; omega⟩))

/-! ## The result, entry by entry -/

/-- Entry `b` of what the body stores, whatever the tables hold: the sum over the lanes of the products of the two
    packed rows' lanes that the two id words at row `b` select. -/
theorem out3_4_apply (x0 x1 : Vec Ideal S4096x128 .f32) (x2 x3 : Vec Ideal S4096x1 .i32) (b : Fin 4096) :
    out3_4 x0 x1 x2 x3 (ix2 b 0)
      = ∑ d : Fin 32, x0 (ix2 b (Cert.Packed.wideLane (x2 (ix2 b 0)).toNat d)) * x1 (ix2 b (Cert.Packed.wideLane (x3 (ix2 b 0)).toNat d)) := by
  unfold out3_4
  rw [View.canon_unit_zero col_off_zero]
  unfold pay3
  rw [k3_pay1_apply]
  refine Finset.sum_congr rfl fun d _ => ?_
  rw [first_picked_apply, second_picked_apply, ld_col, ld_col, picked_lane, picked_lane]

/-- THE INNER PRODUCTS: where the two tables carry, on the lanes the ids select, the embedding rows the ids name, and
    the two id columns are the id arrays read as columns, entry `b` of what the body stores is the inner product of the
    two embedding rows that batch entry `b` names. -/
theorem out3_4_dot (uid iid : IVec Cert.Packed.SIds 32) (e_u e_i : FVec Ideal Cert.Packed.SEmb .f32)
    (x0 x1 : Vec Ideal S4096x128 .f32) (x2 x3 : Vec Ideal S4096x1 .i32)
    (hu : Cert.Packed.PackedOK uid e_u x0) (hi : Cert.Packed.PackedOK iid e_i x1)
    (h2 : ∀ b : Fin 4096, x2 (ix2 b 0) = uid (ix1 b)) (h3 : ∀ b : Fin 4096, x3 (ix2 b 0) = iid (ix1 b)) (b : Fin 4096) :
    out3_4 x0 x1 x2 x3 (ix2 b 0)
      = ∑ d : Fin 32, e_u (ix2 (Cert.Packed.rowOf (uid (ix1 b))) d) * e_i (ix2 (Cert.Packed.rowOf (iid (ix1 b))) d) := by
  rw [out3_4_apply]
  refine Finset.sum_congr rfl fun d _ => ?_
  rw [h2 b, h3 b, hu b d, hi b d]

/-- The same as the score table's inner product (the two modules' `rowOf` are one function). -/
theorem out3_4_eq_dot (uid iid : IVec Cert.Packed.SIds 32) (e_u e_i : FVec Ideal Cert.Packed.SEmb .f32)
    (x0 x1 : Vec Ideal S4096x128 .f32) (x2 x3 : Vec Ideal S4096x1 .i32)
    (hu : Cert.Packed.PackedOK uid e_u x0) (hi : Cert.Packed.PackedOK iid e_i x1)
    (h2 : ∀ b : Fin 4096, x2 (ix2 b 0) = uid (ix1 b)) (h3 : ∀ b : Fin 4096, x3 (ix2 b 0) = iid (ix1 b)) (b : Fin 4096) :
    out3_4 x0 x1 x2 x3 (ix2 b 0) = Cert.Scores.dot uid iid e_u e_i b :=
  out3_4_dot uid iid e_u e_i x0 x1 x2 x3 hu hi h2 h3 b

/-- THE ARRAY after the region on the extended reals, entry by entry, under the same hypotheses on the region-entry
    contents. -/
theorem final3_dot (V : (c : Dev nD) → (b : Ref sig .tc) → Buf (Elt Ideal) ((c : Thread nD τ).loc b))
    (O : CellTallies nD τ sig (HIx 1)) (B : Set (SemLoc sig × HIx 1)) (c : Dev nD)
    (uid iid : IVec Cert.Packed.SIds 32) (e_u e_i : FVec Ideal Cert.Packed.SEmb .f32)
    (hu : Cert.Packed.PackedOK uid e_u (V c main_v6_0)) (hi : Cert.Packed.PackedOK iid e_i (V c main_v6_1))
    (h2 : ∀ b : Fin 4096, (V c main_v7 : S4096x1.Idx → BitVec 32) (ix2 b 0) = uid (ix1 b))
    (h3 : ∀ b : Fin 4096, (V c main_v8 : S4096x1.Idx → BitVec 32) (ix2 b 0) = iid (ix1 b)) (b : Fin 4096) :
    ((dat3 (F := Ideal) V O B c).arrAt 4 cfg3.N : S4096x1.Idx → EReal) (ix2 b 0)
      = ∑ d : Fin 32, e_u (ix2 (Cert.Packed.rowOf (uid (ix1 b))) d) * e_i (ix2 (Cert.Packed.rowOf (iid (ix1 b))) d) := by
  rw [final3 V O B c]
  exact out3_4_dot uid iid e_u e_i _ _ _ _ hu hi h2 h3 b

end Cert.KernelIdeal.TcSide

end
-- ==== Proof.TcBcast.lean ====
/-
  The broadcast-add region (the last TensorCore call of the program) as a pipeline on one core: eight grid points; at
  point `t` the body reads the whole [1, 4096] row (window 0), rows `512·t … 512·t + 511` of the [4096, 1] column
  (window 1), and fills rows `512·t … 512·t + 511` of the [4096, 4096] result (window 2) with column entry plus row
  entry. Everything is stated at the contents `V` the TensorCore's buffers hold when the region is entered, and at the
  tallies `O` the core owes throughout the region (the body waits on nothing, so they pass through unread).
-/
import proofs.«203700_g68710886802180_cont_9to1c4b_800_29_alg».proof.Proof.Gen.KernelIdeal.Launch
import proofs.«203700_g68710886802180_cont_9to1c4b_800_29_alg».proof.Proof.Gen.KernelIdeal.Skeleton
import proofs.«203700_g68710886802180_cont_9to1c4b_800_29_alg».proof.Proof.Gen.KernelIdeal.Points
import proofs.«203700_g68710886802180_cont_9to1c4b_800_29_alg».proof.Proof.LaunchSetupIdeal
import proofs.«203700_g68710886802180_cont_9to1c4b_800_29_alg».proof.Proof.TcDotBase
import Idealize.ShloMosaic.Lib.Pipeline.FrameBody
import Idealize.ShloMosaic.Lib.Ring
import Idealize.ShloMosaic.Lib.Tactic

set_option maxRecDepth 16384

noncomputable section

namespace Cert.KernelIdeal.TcSide

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ Cert.KernelIdeal.Setup.UU ℕ

variable (V : (c : Dev nD) → (b : Ref sig .tc) → Buf (Elt F) ((c : Thread nD τ).loc b))
variable (O : CellTallies nD τ sig (HIx 1)) (B : Set (SemLoc sig × HIx 1))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place. -/
theorem before4_0_of {c : Dev nD} (dat : Dat τ (Elt F) (HIx 1) ℕ Cert.KernelIdeal.Setup.UU ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's likewise. -/
theorem before4_1_of {c : Dev nD} (dat : Dat τ (Elt F) (HIx 1) ℕ Cert.KernelIdeal.Setup.UU ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S512x1 := Rect.unit (s := S512x1) ![0, 0] S512x1.size inb_S512x1_S512x1_0_0
abbrev r4_1 : Rect S1x4096 := Rect.unit (s := S1x4096) ![0, 0] S1x4096.size inb_S1x4096_S1x4096_0_0
abbrev r4_2 : Rect S512x4096 := Rect.unit (s := S512x4096) ![0, 0] S512x4096.size inb_S512x4096_S512x4096_0_0

/-! ## What the body leaves in the output window's buffer -/

/-- Window 2's staging buffer after the body, from the input windows' blocks: its one store, of the whole buffer. -/
def out4_2 (x0 : Vec F S1x4096 .f32) (x1 : Vec F S512x1 .f32) : Vec F S512x4096 .f32 :=
  View.canon [⟨r4_2, k4_pay1 (View.ld x1 r4_0) (View.ld x0 r4_1)⟩]

/-- The store is of the whole buffer, so it covers it. -/
theorem cover4_2 (p0 : Vec F S512x4096 .f32) (y : S512x4096.Idx) :
    ∃ pc ∈ ([⟨r4_2, p0⟩] : List (View.Piece (Elt F) S512x4096 .f32)), y ∈ pc.1.set :=
  View.cover_of_tiled [⟨r4_2, p0⟩] S512x4096.size (by rfl) y

/-! ## The body's triple -/

set_option maxHeartbeats 1000000 in
/-- The body on whole staging memrefs, the inputs' at read contents `x0`, `x1` and the output's at anything, runs to the
    continuation holding the inputs' as they were and the output's at `out4_2 x0 x1`. -/
theorem sound_kernel4 (c : Dev nD) (E : Set ℕ) (i : grid4.Coords) (arg1 : Memref sig .tc .vmem S1x4096 .f32) (harg1 : arg1.IsWhole) (arg2 : Memref sig .tc .vmem S512x1 .f32) (harg2 : arg2.IsWhole) (arg3 : Memref sig .tc .vmem S512x4096 .f32) (harg3 : arg3.IsWhole)
    (x0 : Vec F S1x4096 .f32) (x1 : Vec F S512x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__bcast_body i arg1 harg1 arg2 harg2 arg3 harg3) K := by
  simp only [cc4__bcast_body_eq_skeleton]; unfold cc4__bcast_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region on core `c`: the arrays as the region finds them (`V`); after the body at point `t`
    each input's buffer at its block and the output's at `out4_2` of the input blocks; the invariant `ΦR`; the tallies
    `O` owed at every point; full shares. -/
def dat4 (c : Dev nD) : Dat τ (Elt F) (HIx 1) ℕ Cert.KernelIdeal.Setup.UU ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := ΦR spec4 c
  q _ := fullShare
  owed _ := O
  recorded _ := B

/-- The proof data's arrays are the region-entry contents. -/
theorem A_eq4 (c : Dev nD) (w : Fin cfg4.W) : (dat4 V O B c).A w = V c (Pipeline.arrRef spec4 w) := by
  dsimp only [dat4]

/-- What the body leaves, window by window. -/
theorem after4_0 (c : Dev nD) (t : Fin cfg4.N) : (dat4 V O B c).after 0 t = iblk4 V c 0 t := by dsimp only [dat4]
theorem after4_1 (c : Dev nD) (t : Fin cfg4.N) : (dat4 V O B c).after 1 t = iblk4 V c 1 t := by dsimp only [dat4]
theorem after4_2 (c : Dev nD) (t : Fin cfg4.N) : (dat4 V O B c).after 2 t = out4_2 (iblk4 V c 0 t) (iblk4 V c 1 t) := by dsimp only [dat4]

/-- Each input's current staging buffer holds its block at every point, fetched there or not. -/
theorem before4_0 (c : Dev nD) (t : Fin cfg4.N) (d) : (dat4 V O B c).before 0 t d = iblk4 V c 0 t :=
  before4_0_of V (dat4 V O B c) (A_eq4 V O B c 0) (after4_0 V O B c) t d
theorem before4_1 (c : Dev nD) (t : Fin cfg4.N) (d) : (dat4 V O B c).before 1 t d = iblk4 V c 1 t :=
  before4_1_of V (dat4 V O B c) (A_eq4 V O B c 1) (after4_1 V O B c) t d

/-! ## The body obligation, at a generic point -/

/-- What the body is called with at point `t`, the windows one by one, -/
def bodyPre4 (c : Dev nD) (t : Fin cfg4.N) : sProp 𝕄 :=
  iprop((dat4 V O B c).Φ t.castSucc ∗ (dat4 V O B c).owesAt none t.castSucc
    ∗ (∃ d, owns (c : Thread nD τ) (st4_0 t) fullShare ((dat4 V O B c).before 0 t d))
    ∗ (∃ d, owns (c : Thread nD τ) (st4_1 t) fullShare ((dat4 V O B c).before 1 t d))
    ∗ (∃ d, owns (c : Thread nD τ) (st4_2 t) fullShare ((dat4 V O B c).before 2 t d)))

/-- and what it returns. -/
def bodyPost4 (c : Dev nD) (t : Fin cfg4.N) : sProp 𝕄 :=
  iprop((dat4 V O B c).Φ t.succ ∗ (dat4 V O B c).owesAt none t.succ
    ∗ owns (c : Thread nD τ) (st4_0 t) fullShare ((dat4 V O B c).after 0 t)
    ∗ owns (c : Thread nD τ) (st4_1 t) fullShare ((dat4 V O B c).after 1 t)
    ∗ owns (c : Thread nD τ) (st4_2 t) fullShare ((dat4 V O B c).after 2 t))

/-- The body at any point: the inputs' memrefs hold their blocks, so `sound_kernel4` applies; the invariant and the
    core's `owes` pass through unread. -/
theorem sound_body4 (c : Dev nD) (t : Fin cfg4.N) :
    bodyPre4 V O B c t ⊢ wp frame (wpE (defs₀ (F := F)) Variants.none c none) Set.univ (bodyAt4 t) (fun _ => bodyPost4 V O B c t) := by
  unfold bodyPre4 bodyPost4 bodyAt4
  simp only [before4_0, before4_1]
  rw [show (dat4 V O B c).Φ t.succ = (dat4 V O B c).Φ t.castSucc from rfl,
    show (dat4 V O B c).owesAt none t.succ = (dat4 V O B c).owesAt none t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V O B c) (defs₀ (F := F)) Variants.none none Set.univ := fun t => by
  rw [bigSep_W4, bigSep_W4]
  exact sound_body4 V O B c t

end Cert.KernelIdeal.TcSide

end
-- ==== Proof.TcBcastValue.lean ====
/-
  The broadcast-add region's result in closed form: after the region, the [4096, 4096] array holds, at row `r` and
  column `k`, entry `r` of the [4096, 1] column plus entry `k` of the [1, 4096] row, both as the region found them.
  Point `t` of the grid writes rows `512·t … 512·t + 511`; the eight points' blocks tile the array, the point covering
  row `r` being `r / 512`.
-/
import proofs.«203700_g68710886802180_cont_9to1c4b_800_29_alg».proof.Proof.TcBcast
import Idealize.ShloMosaic.Lib.Pipeline.Value
import Idealize.ShloMosaic.Lib.ValueIdx
import Idealize.ShloMosaic.Lib.ValueLayout

set_option maxRecDepth 16384

noncomputable section

open scoped BigOperators

namespace Cert.KernelIdeal.TcSide

open Cert.KernelIdeal Cert.KernelIdeal.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]
variable (V : (c : Dev nD) → (b : Ref sig .tc) → Buf (Elt F) ((c : Thread nD τ).loc b))
variable (O : CellTallies nD τ sig (HIx 1)) (B : Set (SemLoc sig × HIx 1))

theorem zero_off2 : (![0, 0] : Fin 2 → Nat) = fun _ => 0 := funext fun a => by fin_cases a <;> rfl

/-- Column entry plus row entry, index by index. -/
abbrev colPlusRow (col : S4096x1.Idx → Elt F .f32) (row : S1x4096.Idx → Elt F .f32) : S4096x4096.Idx → Elt F .f32 :=
  fun j => FloatOps.addf (col (ix2 (j 0) 0)) (row (ix2 0 (j 1)))

/-- The body's stored value at an index of the block: the block of the column at the row, plus the row at the column. -/
theorem k4_pay1_apply (v0 : Vec F S512x1 .f32) (v2 : Vec F S1x4096 .f32) (j : S512x4096.Idx) :
    k4_pay1 v0 v2 j = FloatOps.addf (v0 (ix2 (j 0) 0)) (v2 (ix2 0 (j 1))) := by
  unfold k4_pay1
  show FloatOps.addf (broadcastTo S512x4096 (shapeCast S512x1 v0 shapeCasts_S512x1_S512x1) broadcasts_S512x1_S512x4096 j)
      (broadcastTo S512x4096 (shapeCast S1x4096 v2 shapeCasts_S1x4096_S1x4096) broadcasts_S1x4096_S512x4096 j) = _
  rw [shapeCast_self, shapeCast_self]
  congr 1
  · refine broadcastTo_apply v0 _ j (ix2 (j 0) 0) fun a => ?_
    match a with
    | ⟨0, _⟩ => rfl
    | ⟨1, _⟩ => rfl
  · refine broadcastTo_apply v2 _ j (ix2 0 (j 1)) fun a => ?_
    match a with
    | ⟨0, _⟩ => rfl
    | ⟨1, _⟩ => rfl

/-- The printed index maps, decided over the grid: the row window sits at block (0, 0) at every point; the column
    window moves with the output window along the rows; the output's block index is (t, 0). -/
theorem idx_facts4 : ∀ t : Fin cfg4.N, win4_0.index t (0 : Fin 2) = 0 ∧ win4_0.index t (1 : Fin 2) = 0
    ∧ win4_1.index t (0 : Fin 2) = win4_2.index t (0 : Fin 2) ∧ win4_1.index t (1 : Fin 2) = 0
    ∧ win4_2.index t (1 : Fin 2) = 0 ∧ win4_2.index t (0 : Fin 2) ≤ 7 :=
  (by decide +kernel : ∀ t : Fin grid4.N, _)

/-- Every block of rows is some point's. -/
theorem idx_onto4 : ∀ q0 : Fin 8, ∃ t : Fin cfg4.N, win4_2.index t = ![q0.val, 0] :=
  (by decide +kernel : ∀ q0 : Fin 8, ∃ t : Fin grid4.N, win4_2.index t = ![q0.val, 0])

/-- What point `t` writes back is block `t` of `colPlusRow` of the column and the row as the region finds them. -/
theorem flushed4_eq (c : Dev nD) (t : Fin cfg4.N) :
    (dat4 V O B c).flushed 2 t = ((cfg4.win 2).blk t).view.read (Elt F) (colPlusRow (V c main_v11) (V c main_v10)) := by
  show (cfg4.win 2).cut (grid4.coords t) ((dat4 V O B c).after 2 t) = _
  rw [after4_2]
  unfold out4_2
  rw [View.canon_unit_zero zero_off2]
  simp only [View.ld_unit_zero (S := S512x1) zero_off2, View.ld_unit_zero (S := S1x4096) zero_off2]
  obtain ⟨e0, e1, e2, e3, e4, e5⟩ := idx_facts4 t
  funext j
  show k4_pay1 (iblk4 V c 1 t) (iblk4 V c 0 t) j = colPlusRow (V c main_v11) (V c main_v10) (((cfg4.win 2).blk t).view.emb j)
  rw [k4_pay1_apply]
  show FloatOps.addf (V c main_v11 (((cfg4.win 1).blk t).view.emb (ix2 (j 0) 0))) (V c main_v10 (((cfg4.win 0).blk t).view.emb (ix2 0 (j 1))))
    = FloatOps.addf (V c main_v11 (ix2 ((((cfg4.win 2).blk t).view.emb j) 0) 0)) (V c main_v10 (ix2 0 ((((cfg4.win 2).blk t).view.emb j) 1)))
  have h1 : ((cfg4.win 1).blk t).view.emb (ix2 (j 0) 0) = ix2 ((((cfg4.win 2).blk t).view.emb j) 0) 0 := by
    funext a; apply Fin.ext
    match a with
    | ⟨0, _⟩ => show win4_1.index t (0 : Fin 2) * 512 + 1 * (j 0).val = win4_2.index t (0 : Fin 2) * 512 + 1 * (j 0).val; omega
    | ⟨1, _⟩ => show win4_1.index t (1 : Fin 2) * 1 + 1 * 0 = 0; omega
  have h0 : ((cfg4.win 0).blk t).view.emb (ix2 0 (j 1)) = ix2 0 ((((cfg4.win 2).blk t).view.emb j) 1) := by
    funext a; apply Fin.ext
    match a with
    | ⟨0, _⟩ => show win4_0.index t (0 : Fin 2) * 1 + 1 * 0 = 0; omega
    | ⟨1, _⟩ => show win4_0.index t (1 : Fin 2) * 4096 + 1 * (j 1).val = win4_2.index t (1 : Fin 2) * 4096 + 1 * (j 1).val; omega
  rw [h0, h1]
  rfl

/-- An index of the array is in point `t`'s block iff each coordinate is in the block's range on its axis. -/
theorem mem_blk4 (t : Fin cfg4.N) (i : S4096x4096.Idx) :
    i ∈ ((cfg4.win 2).blk t).view.set ↔ ∀ a : Fin 2, win4_2.index t a * S512x4096.size a ≤ (i a).val ∧ (i a).val < win4_2.index t a * S512x4096.size a + S512x4096.size a := by
  show i ∈ ((View.whole main_v12).slice (win4_2.rect t)).set ↔ _
  rw [View.set_slice_whole, Rect.mem_set_unit]
  exact Iff.rfl

/-- Every index of the array is in some point's block: row `r` is in the block of point `r / 512`. -/
theorem cover4 (i : S4096x4096.Idx) : ∃ t : Fin cfg4.N, (cfg4.win 2).flush t = true ∧ i ∈ ((cfg4.win 2).blk t).view.set := by
  have hi0 : (i 0).val < 4096 := (i 0).isLt
  have hi1 : (i 1).val < 4096 := (i 1).isLt
  obtain ⟨t, ht⟩ := idx_onto4 ⟨(i 0).val / 512, by omega⟩
  have q0 : win4_2.index t (0 : Fin 2) = (i 0).val / 512 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 512 ≤ (i 0).val ∧ (i 0).val < win4_2.index t (0 : Fin 2) * 512 + 512; omega
  | ⟨1, _⟩ => show win4_2.index t (1 : Fin 2) * 4096 ≤ (i 1).val ∧ (i 1).val < win4_2.index t (1 : Fin 2) * 4096 + 4096; omega

/-- THE ARRAY after the region, for every float instance: column entry plus row entry. -/
theorem final4 (c : Dev nD) : (dat4 V O B c).arrAt 2 cfg4.N = colPlusRow (V c main_v11) (V c main_v10) :=
  (dat4 V O B c).arrAt_eq_of_cover 2 _ (fun t _ => flushed4_eq V O B c t) cover4

/-- On the extended reals `colPlusRow` is the sum of the two entries. -/
theorem colPlusRow_ideal (col : S4096x1.Idx → EReal) (row : S1x4096.Idx → EReal) (j : S4096x4096.Idx) :
    colPlusRow (F := Ideal) col row j = col (ix2 (j 0) 0) + row (ix2 0 (j 1)) := rfl

/-- THE ARRAY after the region on the extended reals, the column and the row named: entry `(r, k)` is `col r + row k`. -/
theorem final4_ideal (V : (c : Dev nD) → (b : Ref sig .tc) → Buf (Elt Ideal) ((c : Thread nD τ).loc b)) (c : Dev nD)
    (col : S4096x1.Idx → EReal) (row : S1x4096.Idx → EReal)
    (hcol : (V c main_v11 : S4096x1.Idx → EReal) = col) (hrow : (V c main_v10 : S1x4096.Idx → EReal) = row) :
    ((dat4 (F := Ideal) V O B c).arrAt 2 cfg4.N : S4096x4096.Idx → EReal) = fun j => col (ix2 (j 0) 0) + row (ix2 0 (j 1)) := by
  subst hcol hrow
  exact final4 V O B c

end Cert.KernelIdeal.TcSide

end
-- ==== Proof.StretchBDefs.lean ====
/-
  The stretch of @main after the SparseCore call, its vocabulary. When the call returns the TensorCore holds seventeen of
  its arrays: the two id arrays and the call's three results, handed back by the call, and twelve it kept aside. The
  stretch reshapes the ids to columns, runs the inner-product pipeline, reshapes its result to a row and the bias sums to
  a column, and runs the broadcasting pipeline. The contents of the held arrays at each of the five boundaries are a fold
  through those four steps from the contents at the call's return; the last one has the result array at the kernel's own
  closed form and the six argument arrays as launched.
-/
import proofs.«203700_g68710886802180_cont_9to1c4b_800_29_alg».proof.Proof.ThreadStateIdeal
import proofs.«203700_g68710886802180_cont_9to1c4b_800_29_alg».proof.Proof.FinIdeal
import proofs.«203700_g68710886802180_cont_9to1c4b_800_29_alg».proof.Proof.TcDotValue
import proofs.«203700_g68710886802180_cont_9to1c4b_800_29_alg».proof.Proof.TcBcastValue
import Idealize.ShloMosaic.Lib.Pipeline.FrameSuffix

set_option maxRecDepth 16384

noncomputable section

namespace Cert.KernelIdeal.StretchB

open Cert.KernelIdeal Cert.KernelIdeal.Gen Cert.KernelIdeal.Setup Cert.KernelIdeal.Hmain Cert.KernelIdeal.TcSide
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Packed (PackedOK biasRow)

variable {F : FTy → Type} [FloatOps F] [∀ e, Nonempty (Elt F e)]

local notation "𝕄" => MT nD τ sig (HIx 1) (Elt F) ℕ UU ℕ

/-! ## The arrays held -/

/-- A reference of @main as a buffer of the device. -/
abbrev dv (b : Ref sig .tc) : DevRef τ sig := Proc.devRef .tc b
def devEmb : Ref sig .tc ↪ DevRef τ sig := ⟨Proc.devRef (sig := sig) (.tc : Proc τ), Proc.devRef_injective _⟩

/-- The arrays the call hands back: the two id arrays and its three results. -/
def backRefs : Finset (Ref sig .tc) := {main_arg0, main_arg1, main_v6_0, main_v6_1, main_v6_2}
/-- The arrays kept aside during the call. -/
def asideRefs : Finset (Ref sig .tc) :=
  {main_arg2, main_arg3, main_arg4, main_arg5, main_v0, main_v2, main_v7, main_v8, main_v9, main_v10, main_v11, main_v12}
/-- All seventeen. -/
def heldRefs : Finset (Ref sig .tc) := backRefs ∪ asideRefs

def SR : Finset (DevRef τ sig) := asideRefs.map devEmb
def SBk : Finset (DevRef τ sig) := backRefs.map devEmb
def SH : Finset (DevRef τ sig) := heldRefs.map devEmb

theorem back_aside_disjoint : Disjoint backRefs asideRefs := by decide

/-! ## What the call returned, and the contents at the five boundaries -/

/-- The two tables of packed rows the call returned. -/
abbrev Ret (F : FTy → Type) : Type := FVec F Cert.Packed.SRows .f32 × FVec F Cert.Packed.SRows .f32

variable (m : (ℓ : Loc nD τ sig) → Buf (Elt F) ℓ) (WR : Dev nD → Valuation τ sig (Elt F))

/-- The bias sums, as the call leaves them. -/
abbrev biasSums (d : Dev nD) : FVec F Cert.Packed.SIds .f32 :=
  biasRow (m (tloc d main_arg0)) (m (tloc d main_arg1)) (m (tloc d main_arg4)) (m (tloc d main_arg5))

/-- At the call's return: the arrays kept aside as they were (`WR`), the id arrays as launched, the call's results. -/
def W0 (x : Ret F) (d : Dev nD) : Valuation τ sig (Elt F) :=
  Function.update (Function.update (Function.update (Function.update (Function.update (WR d)
    (dv main_arg0) (m (tloc d main_arg0))) (dv main_arg1) (m (tloc d main_arg1))) (dv main_v6_0) x.1) (dv main_v6_1) x.2)
    (dv main_v6_2) (biasSums m d)

/-- A valuation read at @main's references. -/
abbrev Vof (W : Dev nD → Valuation τ sig (Elt F)) : (c : Dev nD) → (b : Ref sig .tc) → Buf (Elt F) ((c : Thread nD τ).loc b) :=
  fun c b => W c (dv b)

/-- After the id reshapes. -/
def W1 (x : Ret F) (d : Dev nD) : Valuation τ sig (Elt F) := StableHlo.after MainSplit.opsIds (W0 m WR x d)
/-- After the inner-product pipeline. -/
def W2 (x : Ret F) (d : Dev nD) : Valuation τ sig (Elt F) :=
  Pipeline.withArrays spec3 d (W1 m WR x d) fun w => (dat3 (Vof (W1 m WR x)) ((K (F := F)).Otc d 1) (Bnd (F := F) d 1) d).arrAt w cfg3.N
/-- After the row and column reshapes. -/
def W3 (x : Ret F) (d : Dev nD) : Valuation τ sig (Elt F) := StableHlo.after MainSplit.opsRowCol (W2 m WR x d)
/-- After the broadcasting pipeline. -/
def W4 (x : Ret F) (d : Dev nD) : Valuation τ sig (Elt F) :=
  Pipeline.withArrays spec4 d (W3 m WR x d) fun w => (dat4 (Vof (W3 m WR x)) ((K (F := F)).Otc d 1) (Bnd (F := F) d 1) d).arrAt w cfg4.N

/-! ## The proof data -/

/-- Proof data for a pipeline the stretch never enters: nothing is said of it. -/
def idleDat (cfg : Pipeline.Cfg sig Λ₀) (c : Dev nD) : Dat τ (Elt F) (HIx 1) ℕ UU ℕ cfg c where
  A _ := fun _ => Classical.arbitrary _
  after _ _ := fun _ => Classical.arbitrary _
  Φ _ := iprop(emp)
  q _ := fullShare
  owed _ := (K (F := F)).Otc c 1

/-- The proof data of the four pipelines, the two this stretch enters at their regions' entry contents. -/
def pdatsB (x : Ret F) : (p : Fin 4) → (c : Dev nD) → Dat τ (Elt F) (HIx 1) ℕ UU ℕ (Pipeline.pin (pcfgs (F := F)) adm p) c
  | ⟨0, _⟩ => fun c => idleDat cfg0 c
  | ⟨1, _⟩ => fun c => idleDat cfg1 c
  | ⟨2, _⟩ => fun c => dat3 (Vof (W1 m WR x)) ((K (F := F)).Otc c 1) (Bnd (F := F) c 1) c
  | ⟨3, _⟩ => fun c => dat4 (Vof (W3 m WR x)) ((K (F := F)).Otc c 1) (Bnd (F := F) c 1) c

/-! ## The thread states -/

/-- What the returned tables are known to hold. -/
def RetOK (x : Ret F) (d : Dev nD) : Prop :=
  PackedOK (m (tloc d main_arg0)) (m (tloc d main_arg2)) x.1 ∧ PackedOK (m (tloc d main_arg1)) (m (tloc d main_arg3)) x.2

/-- What rides beside the held arrays through the stretch: the knowledge of the returned tables, the generator register,
    the handshake debt. -/
def Rd (x : Ret F) (d : Dev nD) : sProp 𝕄 := iprop(⌜RetOK m x d⌝ ∗ Ride (F := F) d 1)

/-- The thread state at a boundary whose contents are `W`. -/
def TS (x : Ret F) (W : Dev nD → Valuation τ sig (Elt F)) (d : Dev nD) : sProp 𝕄 :=
  iprop(StableHlo.held (d.tc : Thread nD τ) SH (W d) ∗ Rd m x d)

/-- What the stretch before the call keeps aside and hands over: the twelve arrays at `WR`, the generator register. -/
def RestA (d : Dev nD) : sProp 𝕄 := iprop(StableHlo.held (d.tc : Thread nD τ) SR (WR d) ∗ ∃ r, prngReg d r)

/-! ## The result -/

/-- The kernel's own closed form of the result from the launch contents and the returned tables: entry `(r, k)` is bias
    sum `r` plus inner product `k`. -/
def finTerm (d : Dev nD) (g0 g1 : FVec F Cert.Packed.SRows .f32) : S4096x4096.Idx → Elt F .f32 :=
  colPlusRow (shapeCast S4096x1 (biasSums m d) shapeCasts_S4096_S4096x1)
    (shapeCast S1x4096 (out3_4 g0 g1 (shapeCast S4096x1 (m (tloc d main_arg0)) shapeCasts_S4096_S4096x1)
      (shapeCast S4096x1 (m (tloc d main_arg1)) shapeCasts_S4096_S4096x1)) shapeCasts_S4096x1_S1x4096)

/-- What is known of the result array at the end. -/
def FinOK (d : Dev nD) (f : Buf (Elt F) (tloc d main_v12)) : Prop :=
  ∃ g0 g1 : FVec F Cert.Packed.SRows .f32, PackedOK (m (tloc d main_arg0)) (m (tloc d main_arg2)) g0
    ∧ PackedOK (m (tloc d main_arg1)) (m (tloc d main_arg3)) g1 ∧ f = finTerm m d g0 g1

end Cert.KernelIdeal.StretchB

end
-- ==== Proof.StretchBValue.lean ====
/-
  The result the kernel leaves, on the extended reals, is the score table. At the end of @main the result array holds,
  at row `r` and column `k`, bias sum `r` plus inner product `k` of the rows the returned tables carry; the bias sum is
  the user bias plus the item bias that batch entry `r` names, the inner product that of the two embedding rows batch
  entry `k` names (the returned tables carry them on the lanes the ids select). The score table adds the same three terms
  the other way round, and addition on the extended reals is commutative and associative.
-/
import proofs.«203700_g68710886802180_cont_9to1c4b_800_29_alg».proof.Proof.StretchBDefs
import proofs.«203700_g68710886802180_cont_9to1c4b_800_29_alg».proof.Proof.Scores

set_option maxRecDepth 16384

noncomputable section

namespace Cert.KernelIdeal.StretchB

open Cert.KernelIdeal Cert.KernelIdeal.Gen Cert.KernelIdeal.Setup Cert.KernelIdeal.Hmain Cert.KernelIdeal.TcSide
open Idealize.ShloMosaic Idealize.ShloMosaic.TcCoe Idealize.ShloMosaic.ValueIdx
open Cert.Packed (PackedOK biasRow)

/-- An id array read as a column has, at row `b`, entry `b`. -/
theorem idsCol_apply (ids : IVec S4096 32) (b : Fin 4096) :
    shapeCast S4096x1 ids shapeCasts_S4096_S4096x1 (ix2 b 0) = ids (ix1 b) :=
  shapeCast_apply _ shapeCasts_S4096_S4096x1 (ix2 b 0) (ix1 b)
    (by rw [Shape.rowMajor_val_one, Shape.rowMajor_val_two]; show b.val = b.val * 1 + 0; omega)

/-- THE SCORES: what is known of the result array at the end says it is the score table of the six argument arrays. -/
theorem FinOK_scores (m : (ℓ : Loc nD τ sig) → Buf (Elt Ideal) ℓ) (d : Dev nD) (f : Buf (Elt Ideal) (tloc d main_v12))
    (h : FinOK m d f)
    (hu : ∀ j, ((m (tloc d main_arg0) : IVec Cert.Scores.SIds 32) j).toNat ≤ 999999)
    (hi : ∀ j, ((m (tloc d main_arg1) : IVec Cert.Scores.SIds 32) j).toNat ≤ 999999) :
    (f : S4096x4096.Idx → EReal)
      = Cert.Scores.scores (m (tloc d main_arg0)) (m (tloc d main_arg1)) (m (tloc d main_arg2)) (m (tloc d main_arg3))
          (m (tloc d main_arg4)) (m (tloc d main_arg5)) := by
  obtain ⟨g0, g1, h0, h1, rfl⟩ := h
  funext j
  unfold finTerm Cert.Scores.scores
  rw [colPlusRow_ideal]
  rw [shapeCast_apply _ shapeCasts_S4096_S4096x1 (ix2 (j 0) 0) (ix1 (j 0))
    (by rw [Shape.rowMajor_val_one, Shape.rowMajor_val_two]; show (j 0).val = (j 0).val * 1 + 0; omega)]
  rw [shapeCast_apply _ shapeCasts_S4096x1_S1x4096 (ix2 0 (j 1)) (ix2 (j 1) 0)
    (by rw [Shape.rowMajor_val_two, Shape.rowMajor_val_two]; show (j 1).val * 1 + 0 = 0 * 4096 + (j 1).val; omega)]
  rw [out3_4_eq_dot (m (tloc d main_arg0)) (m (tloc d main_arg1)) (m (tloc d main_arg2)) (m (tloc d main_arg3)) g0 g1 _ _ h0 h1
    (fun b => idsCol_apply _ b) (fun b => idsCol_apply _ b) (j 1)]
  exact Cert.Scores.arrange _ _ _

end Cert.KernelIdeal.StretchB

end
-- ==== Proof.Domain.lean ====
import proofs.«203700_g68710886802180_cont_9to1c4b_800_29_alg».proof.Pre_input_domain
import proofs.«203700_g68710886802180_cont_9to1c4b_800_29_alg».proof.Proof.Gen.Pre_input_domain
import Idealize.ShloMosaic.Lib.ReduceAll
import Idealize.ShloMosaic.Lib.ValueIdx

/-!
# The precondition, decoded

The stated precondition is a conjunction of six tests, each reduced over its whole array by
`and`: four say that a float table is finite, two say that an id array lies, read as signed
words, between 0 and 999999. Only the two integer tests are read here: a word in that signed
range is the same number read unsigned, so every id is a natural number at most 999999 — a row of
the million-row tables.
-/

namespace Cert.Domain

open Idealize.ShloMosaic

/-- The rank-0 shape has one index. -/
instance : Subsingleton Cert.Pre_input_domain.S_.Idx := ⟨fun a b => funext fun d => d.elim0⟩

/-- A 32-bit word that reads, signed, between 0 and 999999 reads the same unsigned. -/
theorem toNat_le_of_signed (x : BitVec 32) (h0 : (0#32 : BitVec 32).toInt ≤ x.toInt)
    (h1 : x.toInt ≤ (999999#32 : BitVec 32).toInt) : x.toNat ≤ 999999 := by
  have e0 : (0#32 : BitVec 32).toInt = 0 := by decide
  have e1 : (999999#32 : BitVec 32).toInt = 999999 := by decide
  rw [e0] at h0; rw [e1] at h1
  have hx := BitVec.toInt_eq_toNat_cond x
  have hlt := x.isLt
  by_cases hc : 2 * x.toNat < 2 ^ 32
  · rw [if_pos hc] at hx; omega
  · rw [if_neg hc] at hx; omega

/-- Under the precondition both id arrays hold row numbers of the tables: every entry, as a
    natural number, is at most 999999. Stated at any float instance: the float tests are never
    interpreted. -/
theorem ids_in_range {F : FTy → Type} [FloatOps F]
    (a0 a1 : IVec Cert.Pre_input_domain.S4096 32)
    (a2 a3 : FVec F Cert.Pre_input_domain.S1000000x32 .f32)
    (a4 a5 : FVec F Cert.Pre_input_domain.S1000000x1 .f32)
    (h : Cert.Pre_input_domain.fn (F := F) a0 a1 a2 a3 a4 a5 = fun _ => 1#1) :
    (∀ j, (a0 j).toNat ≤ 999999) ∧ (∀ j, (a1 j).toNat ≤ 999999) := by
  have h0 := congrFun h ValueIdx.ix0
  dsimp only [Cert.Pre_input_domain.fn, Cert.Pre_input_domain.fn_part1] at h0
  obtain ⟨h1, hb⟩ := IntOp.andi_eq_one.1 h0
  obtain ⟨_, ha⟩ := IntOp.andi_eq_one.1 h1
  constructor
  · intro j
    have e := Host.reduce_andi_all _ _ _ _ _ ha j
    obtain ⟨e0, e1⟩ := IntOp.andi_eq_one.1 e
    exact toNat_le_of_signed _ (IntOp.cmpi_sge.1 e0) (IntOp.cmpi_sle.1 e1)
  · intro j
    have e := Host.reduce_andi_all _ _ _ _ _ hb j
    obtain ⟨e0, e1⟩ := IntOp.andi_eq_one.1 e
    exact toNat_le_of_signed _ (IntOp.cmpi_sge.1 e0) (IntOp.cmpi_sle.1 e1)

end Cert.Domain
-- ==== Proof.RefOps.lean ====
import proofs.«203700_g68710886802180_cont_9to1c4b_800_29_alg».proof.Proof.Gen.ReferenceIdeal
import Idealize.ShloMosaic.Lib.StableHlo.Run

/-!
# The reference as one straight line of host operations

The reference gathers four times — the two embedding tables and the two bias tables, each at
one of the two id arrays — multiplies the two gathered embedding arrays, sums each row, and adds
the row of inner products to the two bias columns. Each gather is an outlined function (which
itself calls an outlined three-way select); with every call replaced by its body the program is
101 host operations in a row, listed here in order.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, every call replaced by its body: each gather is
    twenty-three operations (wrap a negative id by adding the table's length, test the wrapped
    id against the table's bounds, gather, and put the not-a-number word where the test fails),
    then the product, the zero, the row sum, three broadcasts and two sums. -/
abbrev ops : List (HloOp τ sig (Elt F)) :=
  [
    TRef.nullary main_call0.c (constantI S_ 32 0#32),
    TRef.unary main_call0.c main_call0.v0 (broadcastInDim S4096 ![] bcast_S_S4096),
    TRef.binary (.of main_arg0 : TRef sig ⟨S4096, .i32⟩) main_call0.v0 main_call0.v1 (cmpi .slt),
    TRef.nullary main_call0.c_0 (constantI S_ 32 1000000#32),
    TRef.unary main_call0.c_0 main_call0.v2 (broadcastInDim S4096 ![] bcast_S_S4096),
    TRef.binary (.of main_arg0 : TRef sig ⟨S4096, .i32⟩) main_call0.v2 main_call0.v3 addi,
    TRef.ternary main_call0.v1 main_call0.v3 (.of main_arg0 : TRef sig ⟨S4096, .i32⟩) main_call0.call0.v0 select,
    TRef.unary main_call0.call0.v0 main_call0.v5 (broadcastInDim S4096x1 ![0] bcast_S4096_S4096x1_0),
    TRef.nullary main_call0.c_1 (constantI S1 32 999999#32),
    TRef.nullary main_call0.c_2 (constantI S_ 32 0#32),
    TRef.unary main_call0.c_2 main_call0.v6 (broadcastInDim S4096x1 ![] bcast_S_S4096x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4096x1 ![0, 1] bcast_S1x1_S4096x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x1_S4096_d1 h_S_),
    TRef.binary (.of main_arg2 : TRef sig ⟨S1000000x32, .f32⟩) main_call0.v5 main_call0.v13 (fun x i => Host.gather gather_S1000000x32_S4096x1_S4096x32_1_0_n_n_0_1_132 x i),
    TRef.unary main_call0.v12 main_call0.v14 (broadcastInDim S4096x32 ![0] bcast_S4096_S4096x32_0),
    TRef.nullary main_call0.cst (constant S_ .f32 0x7FC00000#32),
    TRef.unary main_call0.cst main_call0.v15 (broadcastInDim S4096x32 ![] bcast_S_S4096x32),
    TRef.ternary main_call0.v14 main_call0.v13 main_call0.v15 main_call0.v16 select,
    TRef.nullary main_call1.c (constantI S_ 32 0#32),
    TRef.unary main_call1.c main_call1.v0 (broadcastInDim S4096 ![] bcast_S_S4096),
    TRef.binary (.of main_arg1 : TRef sig ⟨S4096, .i32⟩) main_call1.v0 main_call1.v1 (cmpi .slt),
    TRef.nullary main_call1.c_0 (constantI S_ 32 1000000#32),
    TRef.unary main_call1.c_0 main_call1.v2 (broadcastInDim S4096 ![] bcast_S_S4096),
    TRef.binary (.of main_arg1 : TRef sig ⟨S4096, .i32⟩) main_call1.v2 main_call1.v3 addi,
    TRef.ternary main_call1.v1 main_call1.v3 (.of main_arg1 : TRef sig ⟨S4096, .i32⟩) main_call1.call0.v0 select,
    TRef.unary main_call1.call0.v0 main_call1.v5 (broadcastInDim S4096x1 ![0] bcast_S4096_S4096x1_0),
    TRef.nullary main_call1.c_1 (constantI S1 32 999999#32),
    TRef.nullary main_call1.c_2 (constantI S_ 32 0#32),
    TRef.unary main_call1.c_2 main_call1.v6 (broadcastInDim S4096x1 ![] bcast_S_S4096x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4096x1 ![0, 1] bcast_S1x1_S4096x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4096x1_S4096_d1 h_S_),
    TRef.binary (.of main_arg3 : TRef sig ⟨S1000000x32, .f32⟩) main_call1.v5 main_call1.v13 (fun x i => Host.gather gather_S1000000x32_S4096x1_S4096x32_1_0_n_n_0_1_132 x i),
    TRef.unary main_call1.v12 main_call1.v14 (broadcastInDim S4096x32 ![0] bcast_S4096_S4096x32_0),
    TRef.nullary main_call1.cst (constant S_ .f32 0x7FC00000#32),
    TRef.unary main_call1.cst main_call1.v15 (broadcastInDim S4096x32 ![] bcast_S_S4096x32),
    TRef.ternary main_call1.v14 main_call1.v13 main_call1.v15 main_call1.v16 select,
    TRef.nullary main_call2.c (constantI S_ 32 0#32),
    TRef.unary main_call2.c main_call2.v0 (broadcastInDim S4096 ![] bcast_S_S4096),
    TRef.binary (.of main_arg0 : TRef sig ⟨S4096, .i32⟩) main_call2.v0 main_call2.v1 (cmpi .slt),
    TRef.nullary main_call2.c_0 (constantI S_ 32 1000000#32),
    TRef.unary main_call2.c_0 main_call2.v2 (broadcastInDim S4096 ![] bcast_S_S4096),
    TRef.binary (.of main_arg0 : TRef sig ⟨S4096, .i32⟩) main_call2.v2 main_call2.v3 addi,
    TRef.ternary main_call2.v1 main_call2.v3 (.of main_arg0 : TRef sig ⟨S4096, .i32⟩) main_call2.call0.v0 select,
    TRef.unary main_call2.call0.v0 main_call2.v5 (broadcastInDim S4096x1 ![0] bcast_S4096_S4096x1_0),
    TRef.nullary main_call2.c_1 (constantI S1 32 999999#32),
    TRef.nullary main_call2.c_2 (constantI S_ 32 0#32),
    TRef.unary main_call2.c_2 main_call2.v6 (broadcastInDim S4096x1 ![] bcast_S_S4096x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S4096x1 ![0, 1] bcast_S1x1_S4096x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S4096x1_S4096_d1 h_S_),
    TRef.binary (.of main_arg4 : TRef sig ⟨S1000000x1, .f32⟩) main_call2.v5 main_call2.v13 (fun x i => Host.gather gather_S1000000x1_S4096x1_S4096x1_1_0_n_n_0_1_11 x i),
    TRef.unary main_call2.v12 main_call2.v14 (broadcastInDim S4096x1 ![0] bcast_S4096_S4096x1_0),
    TRef.nullary main_call2.cst (constant S_ .f32 0x7FC00000#32),
    TRef.unary main_call2.cst main_call2.v15 (broadcastInDim S4096x1 ![] bcast_S_S4096x1),
    TRef.ternary main_call2.v14 main_call2.v13 main_call2.v15 main_call2.v16 select,
    TRef.nullary main_call3.c (constantI S_ 32 0#32),
    TRef.unary main_call3.c main_call3.v0 (broadcastInDim S4096 ![] bcast_S_S4096),
    TRef.binary (.of main_arg1 : TRef sig ⟨S4096, .i32⟩) main_call3.v0 main_call3.v1 (cmpi .slt),
    TRef.nullary main_call3.c_0 (constantI S_ 32 1000000#32),
    TRef.unary main_call3.c_0 main_call3.v2 (broadcastInDim S4096 ![] bcast_S_S4096),
    TRef.binary (.of main_arg1 : TRef sig ⟨S4096, .i32⟩) main_call3.v2 main_call3.v3 addi,
    TRef.ternary main_call3.v1 main_call3.v3 (.of main_arg1 : TRef sig ⟨S4096, .i32⟩) main_call3.call0.v0 select,
    TRef.unary main_call3.call0.v0 main_call3.v5 (broadcastInDim S4096x1 ![0] bcast_S4096_S4096x1_0),
    TRef.nullary main_call3.c_1 (constantI S1 32 999999#32),
    TRef.nullary main_call3.c_2 (constantI S_ 32 0#32),
    TRef.unary main_call3.c_2 main_call3.v6 (broadcastInDim S4096x1 ![] bcast_S_S4096x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S4096x1 ![0, 1] bcast_S1x1_S4096x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4096x1_S4096_d1 h_S_),
    TRef.binary (.of main_arg5 : TRef sig ⟨S1000000x1, .f32⟩) main_call3.v5 main_call3.v13 (fun x i => Host.gather gather_S1000000x1_S4096x1_S4096x1_1_0_n_n_0_1_11 x i),
    TRef.unary main_call3.v12 main_call3.v14 (broadcastInDim S4096x1 ![0] bcast_S4096_S4096x1_0),
    TRef.nullary main_call3.cst (constant S_ .f32 0x7FC00000#32),
    TRef.unary main_call3.cst main_call3.v15 (broadcastInDim S4096x1 ![] bcast_S_S4096x1),
    TRef.ternary main_call3.v14 main_call3.v13 main_call3.v15 main_call3.v16 select,
    binary main_v0 main_v1 main_v4 (mulf : (⟨S4096x32, .f32⟩ : BufTy).Contents (Elt F) → (⟨S4096x32, .f32⟩ : BufTy).Contents (Elt F) → (⟨S4096x32, .f32⟩ : BufTy).Contents (Elt F)),
    nullary main_cst (constant S_ .f32 0x00000000#32),
    binary main_v4 main_cst main_v5 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    unary main_v5 main_v6 (broadcastInDim S1x4096 ![1] bcast_S4096_S1x4096_1 : (⟨S4096, .f32⟩ : BufTy).Contents (Elt F) → (⟨S1x4096, .f32⟩ : BufTy).Contents (Elt F)),
    unary main_v6 main_v7 (broadcastInDim S4096x4096 ![0, 1] bcast_S1x4096_S4096x4096_0_1 : (⟨S1x4096, .f32⟩ : BufTy).Contents (Elt F) → (⟨S4096x4096, .f32⟩ : BufTy).Contents (Elt F)),
    unary main_v2 main_v8 (broadcastInDim S4096x4096 ![0, 1] bcast_S4096x1_S4096x4096_0_1 : (⟨S4096x1, .f32⟩ : BufTy).Contents (Elt F) → (⟨S4096x4096, .f32⟩ : BufTy).Contents (Elt F)),
    binary main_v7 main_v8 main_v9 (addf : (⟨S4096x4096, .f32⟩ : BufTy).Contents (Elt F) → (⟨S4096x4096, .f32⟩ : BufTy).Contents (Elt F) → (⟨S4096x4096, .f32⟩ : BufTy).Contents (Elt F)),
    unary main_v3 main_v10 (broadcastInDim S4096x4096 ![0, 1] bcast_S4096x1_S4096x4096_0_1 : (⟨S4096x1, .f32⟩ : BufTy).Contents (Elt F) → (⟨S4096x4096, .f32⟩ : BufTy).Contents (Elt F)),
    binary main_v9 main_v10 main_v11 (addf : (⟨S4096x4096, .f32⟩ : BufTy).Contents (Elt F) → (⟨S4096x4096, .f32⟩ : BufTy).Contents (Elt F) → (⟨S4096x4096, .f32⟩ : BufTy).Contents (Elt F)) ]

set_option maxRecDepth 65536 in
set_option maxHeartbeats 2000000 in
/-- The program is that straight line: with the outlined functions' bodies put at their calls
    both sides are the same chain of operations, by computation (sequencing computes on a
    chain of operations, so no reassociation is needed). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., unary_bufs_sub .., unary_bufs_sub .., unary_bufs_sub .., binary_bufs_sub .., unary_bufs_sub .., binary_bufs_sub ..⟩

end Cert.ReferenceIdeal.HandRun

end
-- ==== Proof.RefTerm.lean ====
import proofs.«203700_g68710886802180_cont_9to1c4b_800_29_alg».proof.Proof.Gen.ReferenceIdeal

/-!
# The reference's result as one term of its six arguments

`jnp.take` along axis 0 prints as: add the table's length to a negative id, test the wrapped
id against the table's bounds, gather the rows (the gather clamps its start index), and put the
not-a-number word wherever the test failed. The reference takes rows of the two embedding
tables and of the two bias tables, multiplies the embedding rows, sums each product row, and
adds the row of sums to the two bias columns, which spreads to a square table.
-/

noncomputable section

namespace Cert.ReferenceIdeal.HandRun

open Cert.ReferenceIdeal Cert.ReferenceIdeal.Gen Idealize.ShloMosaic

variable {F : FTy → Type} [FloatOps F]

/-- An id with the table's length added when it is negative. -/
def wrap (ids : IVec S4096 32) : IVec S4096 32 :=
  select (cmpi .slt ids (broadcastInDim S4096 ![] bcast_S_S4096 (constantI S_ 32 0#32)))
    (addi ids (broadcastInDim S4096 ![] bcast_S_S4096 (constantI S_ 32 1000000#32))) ids

/-- The wrapped ids as a column of one-component start indices. -/
def col (ids : IVec S4096 32) : IVec S4096x1 32 :=
  broadcastInDim S4096x1 ![0] bcast_S4096_S4096x1_0 (wrap ids)

/-- The test that a wrapped id names a row of the table: between 0 and 999999, signed. -/
def inRange (ids : IVec S4096 32) : IVec S4096 1 :=
  Host.reduce IntOp.andi
    (andi (cmpi .sge (col ids) (broadcastInDim S4096x1 ![] bcast_S_S4096x1 (constantI S_ 32 0#32)))
      (cmpi .sle (col ids) (broadcastInDim S4096x1 ![0, 1] bcast_S1x1_S4096x1_0_1
        (broadcastInDim S1x1 ![1] bcast_S1_S1x1_1 (constantI S1 32 999999#32)))))
    (constantI S_ 1 1#1) reducesTo_S4096x1_S4096_d1 h_S_

/-- Rows of a 32-wide table at the ids. -/
def take32 (tbl : FVec F S1000000x32 .f32) (ids : IVec S4096 32) : FVec F S4096x32 .f32 :=
  select (broadcastInDim S4096x32 ![0] bcast_S4096_S4096x32_0 (inRange ids))
    (Host.gather gather_S1000000x32_S4096x1_S4096x32_1_0_n_n_0_1_132 tbl (col ids))
    (broadcastInDim S4096x32 ![] bcast_S_S4096x32 (constant S_ .f32 0x7FC00000#32))

/-- Rows of a one-wide table at the ids. -/
def take1 (tbl : FVec F S1000000x1 .f32) (ids : IVec S4096 32) : FVec F S4096x1 .f32 :=
  select (broadcastInDim S4096x1 ![0] bcast_S4096_S4096x1_0 (inRange ids))
    (Host.gather gather_S1000000x1_S4096x1_S4096x1_1_0_n_n_0_1_11 tbl (col ids))
    (broadcastInDim S4096x1 ![] bcast_S_S4096x1 (constant S_ .f32 0x7FC00000#32))

/-- The row of inner products: each product row summed from zero. -/
def rowSums (a0 a1 : IVec S4096 32) (a2 a3 : FVec F S1000000x32 .f32) : FVec F S4096 .f32 :=
  Host.reduceAdd (mulf (take32 a2 a0) (take32 a3 a1)) (constant S_ .f32 0x00000000#32)
    reducesTo_S4096x32_S4096_d1 h_S_

/-- The reference's result: the row of inner products spread down the rows, plus each bias
    column spread along the columns. -/
def refTerm (a0 a1 : IVec S4096 32) (a2 a3 : FVec F S1000000x32 .f32) (a4 a5 : FVec F S1000000x1 .f32) :
    FVec F S4096x4096 .f32 :=
  addf
    (addf
      (broadcastInDim S4096x4096 ![0, 1] bcast_S1x4096_S4096x4096_0_1
        (broadcastInDim S1x4096 ![1] bcast_S4096_S1x4096_1 (rowSums a0 a1 a2 a3)))
      (broadcastInDim S4096x4096 ![0, 1] bcast_S4096x1_S4096x4096_0_1 (take1 a4 a0)))
    (broadcastInDim S4096x4096 ![0, 1] bcast_S4096x1_S4096x4096_0_1 (take1 a5 a1))

end Cert.ReferenceIdeal.HandRun

end
-- ==== Proof.RefRun.lean ====
import proofs.«203700_g68710886802180_cont_9to1c4b_800_29_alg».proof.Proof.RefOps
import proofs.«203700_g68710886802180_cont_9to1c4b_800_29_alg».proof.Proof.RefTerm

/-!
# The reference's run

Every weakly fair execution of the reference terminates, leaves the six arguments as they
were and leaves its result buffer at the one term `refTerm` of the arguments: the fold of the
straight line's operations over the launch contents, read at the result buffer.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 4000000 in
/-- The fold of the operations at the result buffer is `refTerm` of the contents of the six
    argument buffers. -/
theorem res_eq (V : Valuation τ sig (Elt F)) :
    after ops V (main_v11 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

set_option maxRecDepth 65536 in
set_option maxHeartbeats 4000000 in
/-- No operation writes argument 0. -/
theorem arg0_eq (V : Valuation τ sig (Elt F)) :
    after ops V (main_arg0 : DevRef τ sig) = V (main_arg0 : DevRef τ sig) := by
  after_results_simp

set_option maxRecDepth 65536 in
set_option maxHeartbeats 4000000 in
/-- No operation writes argument 1. -/
theorem arg1_eq (V : Valuation τ sig (Elt F)) :
    after ops V (main_arg1 : DevRef τ sig) = V (main_arg1 : DevRef τ sig) := by
  after_results_simp

set_option maxRecDepth 65536 in
set_option maxHeartbeats 4000000 in
/-- No operation writes argument 2. -/
theorem arg2_eq (V : Valuation τ sig (Elt F)) :
    after ops V (main_arg2 : DevRef τ sig) = V (main_arg2 : DevRef τ sig) := by
  after_results_simp

set_option maxRecDepth 65536 in
set_option maxHeartbeats 4000000 in
/-- No operation writes argument 3. -/
theorem arg3_eq (V : Valuation τ sig (Elt F)) :
    after ops V (main_arg3 : DevRef τ sig) = V (main_arg3 : DevRef τ sig) := by
  after_results_simp

set_option maxRecDepth 65536 in
set_option maxHeartbeats 4000000 in
/-- No operation writes argument 4. -/
theorem arg4_eq (V : Valuation τ sig (Elt F)) :
    after ops V (main_arg4 : DevRef τ sig) = V (main_arg4 : DevRef τ sig) := by
  after_results_simp

set_option maxRecDepth 65536 in
set_option maxHeartbeats 4000000 in
/-- No operation writes argument 5. -/
theorem arg5_eq (V : Valuation τ sig (Elt F)) :
    after ops V (main_arg5 : DevRef τ sig) = V (main_arg5 : DevRef τ sig) := by
  after_results_simp

set_option maxRecDepth 65536 in
set_option maxHeartbeats 4000000 in
/-- On every device, at any float instance, from any memory with zero counters: every weakly
    fair execution of the reference terminates with its result at `refTerm` of the arguments
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v11).trans (res_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.HandRun

end
-- ==== Proof.RefValue.lean ====
import proofs.«203700_g68710886802180_cont_9to1c4b_800_29_alg».proof.Proof.RefTerm
import proofs.«203700_g68710886802180_cont_9to1c4b_800_29_alg».proof.Proof.Scores
import Idealize.ShloMosaic.Lib.Affine
import Idealize.ShloMosaic.Lib.IdealHost
import Idealize.ShloMosaic.Lib.Pipeline.Value
import Idealize.ShloMosaic.Lib.ValueIdx
import Idealize.ShloMosaic.PureOps.Ideal.Laws

/-!
# The reference's term is the score table

Under the range hypothesis (every id, as a natural number, at most 999999) each stage of the
reference's term is read at an index: a nonnegative id is not wrapped, the bounds test is all
ones, so the select keeps the gathered row; the gather's clamped start index is the id itself;
the row sum from zero is the 32-term sum; the three broadcasts read the row of sums at the column
index and the bias columns at the row index. What is left is the score table, entry by entry.
-/

noncomputable section

open scoped BigOperators

namespace Cert.ReferenceIdeal.HandRun

open Cert.ReferenceIdeal Cert.ReferenceIdeal.Gen Idealize.ShloMosaic Idealize.ShloMosaic.ValueIdx

/-! ## Words -/

/-- A word at most 999999 unsigned reads the same signed. -/
theorem toInt_of_le {x : BitVec 32} (h : x.toNat ≤ 999999) : x.toInt = (x.toNat : Int) :=
  BitVec.toInt_eq_toNat_of_lt (by omega)

/-- A left fold by `and` from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l fun n hn => h n (List.mem_cons_of_mem _ hn)

/-- A reduce by `and` from the constant 1 over an array of ones is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_ones x _ fun n _ => hx n

/-! ## The ids -/

section Ids
variable (ids : IVec S4096 32) (h : ∀ j, (ids j).toNat ≤ 999999)
include h

/-- A nonnegative id is not wrapped. -/
theorem wrap_eq : wrap ids = ids := by
  funext j
  unfold wrap
  rw [select_apply]
  have hc : cmpi .slt ids (broadcastInDim S4096 ![] bcast_S_S4096 (constantI S_ 32 0#32)) j = 0#1 := by
    apply eq_zero_of_ne_one
    intro e
    have lt : (ids j).toInt < (0#32 : BitVec 32).toInt := IntOp.cmpi_slt.1 e
    rw [toInt_of_le (h j), show (0#32 : BitVec 32).toInt = 0 from by decide] at lt
    omega
  rw [hc, select_zero]

omit h in
/-- The column of start indices at a row is the wrapped id of that row. -/
theorem col_apply (r : Fin 4096) (z : Fin 1) : col ids (ix2 r z) = wrap ids (ix1 r) := by
  unfold col
  exact broadcastInDim_apply _ _ _ (ix2 r z) (ix1 r) fun a => by match a with | ⟨0, _⟩ => rfl

/-- Every id passes the bounds test. -/
theorem inRange_eq (j : S4096.Idx) : inRange ids j = 1#1 := by
  unfold inRange
  refine reduce_andi_ones _ _ _ _ rfl (fun i => ?_) j
  obtain ⟨r, z, rfl⟩ : ∃ (r : Fin 4096) (z : Fin 1), i = ix2 r z := ⟨_, _, eq_ix2 i⟩
  have hi : col ids (ix2 r z) = ids (ix1 r) := by rw [col_apply, wrap_eq ids h]
  refine IntOp.andi_eq_one.2 ⟨IntOp.cmpi_sge.2 ?_, IntOp.cmpi_sle.2 ?_⟩
  · show (0#32 : BitVec 32).toInt ≤ (col ids (ix2 r z)).toInt
    rw [hi, toInt_of_le (h _), show (0#32 : BitVec 32).toInt = 0 from by decide]
    omega
  · show (col ids (ix2 r z)).toInt ≤ (999999#32 : BitVec 32).toInt
    rw [hi, toInt_of_le (h _), show (999999#32 : BitVec 32).toInt = 999999 from by decide]
    have := h (ix1 r)
    omega

end Ids

/-! ## The gathers -/

section Gather32
variable {α : Type}

/-- The start-indices index a result index of the 32-wide gather reads: its row, component 0. -/
theorem siIdx32 (r : Fin 4096) (d : Fin 32) (k : Fin gather_S1000000x32_S4096x1_S4096x32_1_0_n_n_0_1_132.startIndexMap.length) :
    gather_S1000000x32_S4096x1_S4096x32_1_0_n_n_0_1_132.siIdx (ix2 r d) k = ix2 r (0 : Fin 1) := by
  funext b; refine Fin.ext ?_
  match b with
  | ⟨0, _⟩ => rfl
  | ⟨1, _⟩ =>
    show k.val = 0
    have := k.isLt
    have e : gather_S1000000x32_S4096x1_S4096x32_1_0_n_n_0_1_132.startIndexMap.length = 1 := rfl
    omega

/-- The 32-wide gather read at an index: the table's row at the start index of the result's row
    (read signed and clamped to the table), same column. -/
theorem gather32_apply (tbl : S1000000x32.Idx → α) (idx : IVec S4096x1 32) (r : Fin 4096) (d : Fin 32) :
    Host.gather gather_S1000000x32_S4096x1_S4096x32_1_0_n_n_0_1_132 tbl idx (ix2 r d)
      = tbl (ix2 (⟨min (idx (ix2 r (0 : Fin 1))).toInt.toNat 999999, by omega⟩ : Fin 1000000) d) := by
  unfold Host.gather
  congr 1
  funext a
  refine Fin.ext ?_
  match a with
  | ⟨0, _⟩ =>
    show gather_S1000000x32_S4096x1_S4096x32_1_0_n_n_0_1_132.start (ix2 r d) idx 0 + gather_S1000000x32_S4096x1_S4096x32_1_0_n_n_0_1_132.batchCoord (ix2 r d) 0 + gather_S1000000x32_S4096x1_S4096x32_1_0_n_n_0_1_132.offCoord (ix2 r d) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S1000000x32_S4096x1_S4096x32_1_0_n_n_0_1_132.startIndexMap from List.mem_singleton.mpr rfl), siIdx32]
    rfl
  | ⟨1, _⟩ =>
    show gather_S1000000x32_S4096x1_S4096x32_1_0_n_n_0_1_132.start (ix2 r d) idx 1 + gather_S1000000x32_S4096x1_S4096x32_1_0_n_n_0_1_132.batchCoord (ix2 r d) 1 + gather_S1000000x32_S4096x1_S4096x32_1_0_n_n_0_1_132.offCoord (ix2 r d) 1 = _
    rw [GatherDims.batchCoord_eq_zero _ _ _ List.not_mem_nil]
    unfold GatherDims.start
    rw [dif_neg (show ¬ (1 : Fin 2) ∈ gather_S1000000x32_S4096x1_S4096x32_1_0_n_n_0_1_132.startIndexMap from by decide)]
    simp only [Nat.zero_add]
    unfold GatherDims.offCoord
    rw [dif_pos (show (1 : Fin 2) ∈ gather_S1000000x32_S4096x1_S4096x32_1_0_n_n_0_1_132.sKept from by decide)]
    rfl

end Gather32

section Gather1
variable {α : Type}

/-- The start-indices index a result index of the one-wide gather reads: its row, component 0. -/
theorem siIdx1 (r : Fin 4096) (d : Fin 1) (k : Fin gather_S1000000x1_S4096x1_S4096x1_1_0_n_n_0_1_11.startIndexMap.length) :
    gather_S1000000x1_S4096x1_S4096x1_1_0_n_n_0_1_11.siIdx (ix2 r d) k = ix2 r (0 : Fin 1) := by
  funext b; refine Fin.ext ?_
  match b with
  | ⟨0, _⟩ => rfl
  | ⟨1, _⟩ =>
    show k.val = 0
    have := k.isLt
    have e : gather_S1000000x1_S4096x1_S4096x1_1_0_n_n_0_1_11.startIndexMap.length = 1 := rfl
    omega

/-- The one-wide gather read at an index: the table's row at the start index of the result's row
    (read signed and clamped to the table), same column. -/
theorem gather1_apply (tbl : S1000000x1.Idx → α) (idx : IVec S4096x1 32) (r : Fin 4096) (d : Fin 1) :
    Host.gather gather_S1000000x1_S4096x1_S4096x1_1_0_n_n_0_1_11 tbl idx (ix2 r d)
      = tbl (ix2 (⟨min (idx (ix2 r (0 : Fin 1))).toInt.toNat 999999, by omega⟩ : Fin 1000000) d) := by
  unfold Host.gather
  congr 1
  funext a
  refine Fin.ext ?_
  match a with
  | ⟨0, _⟩ =>
    show gather_S1000000x1_S4096x1_S4096x1_1_0_n_n_0_1_11.start (ix2 r d) idx 0 + gather_S1000000x1_S4096x1_S4096x1_1_0_n_n_0_1_11.batchCoord (ix2 r d) 0 + gather_S1000000x1_S4096x1_S4096x1_1_0_n_n_0_1_11.offCoord (ix2 r d) 0 = _
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ gather_S1000000x1_S4096x1_S4096x1_1_0_n_n_0_1_11.startIndexMap from List.mem_singleton.mpr rfl), siIdx1]
    rfl
  | ⟨1, _⟩ =>
    show gather_S1000000x1_S4096x1_S4096x1_1_0_n_n_0_1_11.start (ix2 r d) idx 1 + gather_S1000000x1_S4096x1_S4096x1_1_0_n_n_0_1_11.batchCoord (ix2 r d) 1 + gather_S1000000x1_S4096x1_S4096x1_1_0_n_n_0_1_11.offCoord (ix2 r d) 1 = _
    rw [GatherDims.batchCoord_eq_zero _ _ _ List.not_mem_nil]
    unfold GatherDims.start
    rw [dif_neg (show ¬ (1 : Fin 2) ∈ gather_S1000000x1_S4096x1_S4096x1_1_0_n_n_0_1_11.startIndexMap from by decide)]
    simp only [Nat.zero_add]
    unfold GatherDims.offCoord
    rw [dif_pos (show (1 : Fin 2) ∈ gather_S1000000x1_S4096x1_S4096x1_1_0_n_n_0_1_11.sKept from by decide)]
    rfl

end Gather1

/-! ## The takes -/

section Takes
variable (ids : IVec S4096 32) (h : ∀ j, (ids j).toNat ≤ 999999)
include h

/-- The clamped start index of a row is the row the id names. -/
theorem start_eq (r : Fin 4096) :
    (⟨min ((col ids) (ix2 r (0 : Fin 1))).toInt.toNat 999999, by omega⟩ : Fin 1000000) = Cert.Scores.rowOf (ids (ix1 r)) := by
  refine Fin.ext ?_
  show min ((col ids) (ix2 r (0 : Fin 1))).toInt.toNat 999999 = min (ids (ix1 r)).toNat 999999
  rw [col_apply, wrap_eq ids h, toInt_of_le (h _), Int.toNat_natCast]

/-- Rows of a 32-wide table at the ids, read at an index: the row the id names, same column. -/
theorem take32_apply {F : FTy → Type} [FloatOps F] (tbl : FVec F S1000000x32 .f32) (r : Fin 4096) (d : Fin 32) :
    take32 tbl ids (ix2 r d) = tbl (ix2 (Cert.Scores.rowOf (ids (ix1 r))) d) := by
  unfold take32
  rw [select_apply]
  have hc : broadcastInDim S4096x32 ![0] bcast_S4096_S4096x32_0 (inRange ids) (ix2 r d) = 1#1 := by
    refine (broadcastInDim_apply _ _ _ (ix2 r d) (ix1 r) fun a => by match a with | ⟨0, _⟩ => rfl).trans ?_
    exact inRange_eq ids h _
  rw [hc, select_one, gather32_apply, start_eq ids h]

/-- Rows of a one-wide table at the ids, read at an index: the row the id names, same column. -/
theorem take1_apply {F : FTy → Type} [FloatOps F] (tbl : FVec F S1000000x1 .f32) (r : Fin 4096) (d : Fin 1) :
    take1 tbl ids (ix2 r d) = tbl (ix2 (Cert.Scores.rowOf (ids (ix1 r))) d) := by
  unfold take1
  rw [select_apply]
  have hc : broadcastInDim S4096x1 ![0] bcast_S4096_S4096x1_0 (inRange ids) (ix2 r d) = 1#1 := by
    refine (broadcastInDim_apply _ _ _ (ix2 r d) (ix1 r) fun a => by match a with | ⟨0, _⟩ => rfl).trans ?_
    exact inRange_eq ids h _
  rw [hc, select_one, gather1_apply, start_eq ids h]

end Takes

/-! ## The row sums and the table -/

/-- The product rows' axis-1 reduction, as the library's one-axis reduction fact. -/
theorem reduces_rows : S4096x32.Reduces [1] S4096 := by decide

/-- The source index over row `c` with column `k`. -/
theorem lift_rows (c : Fin 4096) (k : Fin 32) : reduces_rows.lift (ix1 c) k = ix2 c k := by
  funext a; refine Fin.ext ?_
  match a with
  | ⟨0, _⟩ => rfl
  | ⟨1, _⟩ => rfl

/-- The row of inner products at a column: the 32-term sum of products of the two taken rows. -/
theorem rowSums_apply (a0 a1 : IVec S4096 32) (a2 a3 : FVec Ideal S1000000x32 .f32) (c : Fin 4096) :
    rowSums a0 a1 a2 a3 (ix1 c) = ∑ d : Fin 32, take32 a2 a0 (ix2 c d) * take32 a3 a1 (ix2 c d) := by
  unfold rowSums
  rw [hostReduceAdd_apply, Ideal.hostReduceAdd_single _ reduces_rows, constant_apply, Ideal.ofBits_zero_f32, zero_add]
  refine Finset.sum_congr rfl fun (k : Fin 32) _ => ?_
  show mulf (take32 a2 a0) (take32 a3 a1) (reduces_rows.lift (ix1 c) k) = _
  rw [lift_rows c k, mulf_apply]

/-- A row spread down the rows of the square table reads, at row `r` and column `c`, its entry `c`. -/
theorem spread_row_apply {α : Type} (x : S4096.Idx → α) (r c : Fin 4096) :
    broadcastInDim S4096x4096 ![0, 1] bcast_S1x4096_S4096x4096_0_1
      (broadcastInDim S1x4096 ![1] bcast_S4096_S1x4096_1 x) (ix2 r c) = x (ix1 c) := by
  refine (broadcastInDim_apply _ _ _ (ix2 r c) (ix2 (0 : Fin 1) c) fun a => by
    match a with | ⟨0, _⟩ => rfl | ⟨1, _⟩ => rfl).trans ?_
  exact broadcastInDim_apply _ _ _ (ix2 (0 : Fin 1) c) (ix1 c) fun a => by match a with | ⟨0, _⟩ => rfl

/-- A column spread along the columns of the square table reads, at row `r` and column `c`, its entry `r`. -/
theorem spread_col_apply {α : Type} (x : S4096x1.Idx → α) (r c : Fin 4096) :
    broadcastInDim S4096x4096 ![0, 1] bcast_S4096x1_S4096x4096_0_1 x (ix2 r c) = x (ix2 r (0 : Fin 1)) :=
  broadcastInDim_apply _ _ _ (ix2 r c) (ix2 r (0 : Fin 1)) fun a => by
    match a with | ⟨0, _⟩ => rfl | ⟨1, _⟩ => rfl

/-- THE REFERENCE IS THE SCORE TABLE: under the range hypothesis the reference's term of the six
    arguments is the score table, entry by entry. -/
theorem refTerm_eq_scores (a0 a1 : IVec S4096 32) (a2 a3 : FVec Ideal S1000000x32 .f32) (a4 a5 : FVec Ideal S1000000x1 .f32)
    (h0 : ∀ j, (a0 j).toNat ≤ 999999) (h1 : ∀ j, (a1 j).toNat ≤ 999999) :
    refTerm a0 a1 a2 a3 a4 a5 = Cert.Scores.scores a0 a1 a2 a3 a4 a5 := by
  funext j
  obtain ⟨r, c, rfl⟩ : ∃ (r c : Fin 4096), j = ix2 r c := ⟨_, _, eq_ix2 j⟩
  show refTerm a0 a1 a2 a3 a4 a5 (ix2 r c)
    = (Cert.Scores.dot a0 a1 a2 a3 c + a4 (ix2 (Cert.Scores.rowOf (a0 (ix1 r))) 0)) + a5 (ix2 (Cert.Scores.rowOf (a1 (ix1 r))) 0)
  unfold refTerm
  rw [addf_apply, addf_apply, spread_row_apply, spread_col_apply, spread_col_apply, rowSums_apply,
    take1_apply a0 h0, take1_apply a1 h1]
  unfold Cert.Scores.dot
  refine congrArg₂ (· + ·) (congrArg₂ (· + ·) (Finset.sum_congr rfl fun d _ => ?_) rfl) rfl
  rw [take32_apply a0 h0, take32_apply a1 h1]

end Cert.ReferenceIdeal.HandRun

end
-- ==== Proof.RefSide.lean ====
import proofs.«203700_g68710886802180_cont_9to1c4b_800_29_alg».proof.Defs
import proofs.«203700_g68710886802180_cont_9to1c4b_800_29_alg».proof.Proof.Gen.ReferenceIdeal
import proofs.«203700_g68710886802180_cont_9to1c4b_800_29_alg».proof.Proof.Gen.Pre_input_domain
import proofs.«203700_g68710886802180_cont_9to1c4b_800_29_alg».proof.Proof.Domain
import proofs.«203700_g68710886802180_cont_9to1c4b_800_29_alg».proof.Proof.RefRun
import proofs.«203700_g68710886802180_cont_9to1c4b_800_29_alg».proof.Proof.RefValue

/-!
# The reference side of the claim

Two statements about the reference: it runs to the end leaving its arguments unchanged, and
under the precondition its result is the score table of its arguments. The first is its run with
the value dropped; the second is the run with the reference's term rewritten to the score table,
which the precondition's id ranges allow.
-/

noncomputable section

namespace Cert.RefSide

open Idealize.ShloMosaic Idealize.SL.Sem

/-- The reference terminates, faults nowhere and leaves its six arguments unchanged. -/
theorem frame : Cert.frame_ReferenceIdeal := fun m g _ =>
  (θ_run (Cert.ReferenceIdeal.defs (F := Ideal)) _ _).mono (fun _ h c => (h c).2)
    (Cert.ReferenceIdeal.HandRun.run (F := Ideal) m g)

/-- Under the precondition the reference terminates with its result at the score table of its
    arguments, the arguments unchanged. -/
theorem run_scores (m' : (ℓ : Loc Cert.ReferenceIdeal.nD Cert.ReferenceIdeal.τ Cert.ReferenceIdeal.sig) → Buf (Elt Ideal) ℓ)
    (g' : Dev Cert.ReferenceIdeal.nD → PrngReg) (hpre : Cert.Pre_ReferenceIdeal m') :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v11)
          = Cert.Scores.scores (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run (Cert.ReferenceIdeal.defs (F := Ideal)) _ _).mono
    (fun _ h c =>
      have hr := Cert.Domain.ids_in_range (F := Ideal) _ _ _ _ _ _ (hpre c)
      ⟨(h c).1.trans (Cert.ReferenceIdeal.HandRun.refTerm_eq_scores _ _ _ _ _ _ hr.1 hr.2), (h c).2⟩)
    (Cert.ReferenceIdeal.HandRun.run (F := Ideal) m' g')

end Cert.RefSide

end
-- ==== Proof.ClaimsOf.lean ====
/-
  The certificate's kernel-side claims from the kernel programs' runs. If the idealized kernel program, from any memory
  satisfying the precondition, runs to a final memory whose result array is the kernel's own closed form of two packed-row
  arrays that carry the embedding rows the ids name (and whose arguments are as launched), then: its frame holds (drop the
  result); and the value claim holds, because that closed form is the score table — bias sums first, inner product second,
  which on the extended reals is the reference's inner product first, biases second — and the reference's own run ends at
  the score table of the same arguments. The word-level program's frame is its run with the result dropped.
-/
import proofs.«203700_g68710886802180_cont_9to1c4b_800_29_alg».proof.Defs
import proofs.«203700_g68710886802180_cont_9to1c4b_800_29_alg».proof.Proof.RunIdeal
import proofs.«203700_g68710886802180_cont_9to1c4b_800_29_alg».proof.Proof.RunIdealW
import proofs.«203700_g68710886802180_cont_9to1c4b_800_29_alg».proof.Proof.StretchBValue
import proofs.«203700_g68710886802180_cont_9to1c4b_800_29_alg».proof.Proof.RefSide
import proofs.«203700_g68710886802180_cont_9to1c4b_800_29_alg».proof.Proof.Domain

noncomputable section

namespace Cert.Proof.Claims

open Idealize.ShloMosaic Idealize.SL.Sem

/-- The ids of a memory satisfying the precondition are below a million (idealized program's memory). -/
theorem ids_ok (m : (ℓ : Loc Cert.KernelIdeal.nD Cert.KernelIdeal.τ Cert.KernelIdeal.sig) → Buf (Elt Ideal) ℓ) (h : Cert.Pre_KernelIdeal m)
    (d : Dev Cert.KernelIdeal.nD) :
    (∀ j, (m (Cert.KernelIdeal.Hmain.tloc d Cert.KernelIdeal.main_arg0) j).toNat ≤ 999999)
      ∧ (∀ j, (m (Cert.KernelIdeal.Hmain.tloc d Cert.KernelIdeal.main_arg1) j).toNat ≤ 999999) :=
  Cert.Domain.ids_in_range (F := Ideal) _ _ _ _ _ _ (h d)

/-- The same for the word-level program's memory. -/
theorem ids_okW (m : (ℓ : Loc Cert.Kernel.nD Cert.Kernel.τ Cert.Kernel.sig) → Buf (Elt Bits) ℓ) (h : Cert.Pre_Kernel m)
    (d : Dev Cert.Kernel.nD) :
    (∀ j, (m (Cert.Kernel.Hmain.tloc d Cert.Kernel.main_arg0) j).toNat ≤ 999999)
      ∧ (∀ j, (m (Cert.Kernel.Hmain.tloc d Cert.Kernel.main_arg1) j).toNat ≤ 999999) :=
  Cert.Domain.ids_in_range (F := Bits) _ _ _ _ _ _ (h d)

theorem frame_ki_of
    (hrun : ∀ (m : (ℓ : Loc Cert.KernelIdeal.nD Cert.KernelIdeal.τ Cert.KernelIdeal.sig) → Buf (Elt Ideal) ℓ) (g : Dev Cert.KernelIdeal.nD → PrngReg),
      Cert.Pre_KernelIdeal m → θ_run (Cert.KernelIdeal.defs (F := Ideal)) (Cert.KernelIdeal.threads (F := Ideal)) ⟨m, fun _ => 0, g⟩
        (Cert.KernelIdeal.Hmain.QC m (Cert.KernelIdeal.StretchB.FinOK m))) :
    Cert.frame_KernelIdeal := fun m g hpre =>
  (θ_run (Cert.KernelIdeal.defs (F := Ideal)) _ _).mono (fun _ h c => (h c).2) (hrun m g hpre)

theorem frame_k_of (Ok : (m : (ℓ : Loc Cert.Kernel.nD Cert.Kernel.τ Cert.Kernel.sig) → Buf (Elt Bits) ℓ) → (d : Dev Cert.Kernel.nD) → Buf (Elt Bits) (Cert.Kernel.Hmain.tloc d Cert.Kernel.main_v12) → Prop)
    (hrun : ∀ (m : (ℓ : Loc Cert.Kernel.nD Cert.Kernel.τ Cert.Kernel.sig) → Buf (Elt Bits) ℓ) (g : Dev Cert.Kernel.nD → PrngReg),
      Cert.Pre_Kernel m → θ_run (Cert.Kernel.defs (F := Bits)) (Cert.Kernel.threads (F := Bits)) ⟨m, fun _ => 0, g⟩
        (Cert.Kernel.Hmain.QC m (Ok m))) :
    Cert.frame_Kernel := fun m g hpre =>
  (θ_run (Cert.Kernel.defs (F := Bits)) _ _).mono (fun _ h c => (h c).2) (hrun m g hpre)

theorem algebraic_of
    (hrun : ∀ (m : (ℓ : Loc Cert.KernelIdeal.nD Cert.KernelIdeal.τ Cert.KernelIdeal.sig) → Buf (Elt Ideal) ℓ) (g : Dev Cert.KernelIdeal.nD → PrngReg),
      Cert.Pre_KernelIdeal m → θ_run (Cert.KernelIdeal.defs (F := Ideal)) (Cert.KernelIdeal.threads (F := Ideal)) ⟨m, fun _ => 0, g⟩
        (Cert.KernelIdeal.Hmain.QC m (Cert.KernelIdeal.StretchB.FinOK m))) :
    Cert.algebraic_KernelIdeal_ReferenceIdeal := by
  intro m g m' g' hpre hagree
  have hpre' : Cert.Pre_ReferenceIdeal m' := fun c => by
    have := hpre c
    rw [← (hagree c).1, ← (hagree c).2.1, ← (hagree c).2.2.1, ← (hagree c).2.2.2.1, ← (hagree c).2.2.2.2.1, ← (hagree c).2.2.2.2.2] at this
    exact this
  refine ⟨fun c => Cert.Scores.scores (m (Cert.KernelIdeal.Hmain.tloc c Cert.KernelIdeal.main_arg0)) (m (Cert.KernelIdeal.Hmain.tloc c Cert.KernelIdeal.main_arg1))
      (m (Cert.KernelIdeal.Hmain.tloc c Cert.KernelIdeal.main_arg2)) (m (Cert.KernelIdeal.Hmain.tloc c Cert.KernelIdeal.main_arg3))
      (m (Cert.KernelIdeal.Hmain.tloc c Cert.KernelIdeal.main_arg4)) (m (Cert.KernelIdeal.Hmain.tloc c Cert.KernelIdeal.main_arg5)), ?_, ?_⟩
  · exact (θ_run (Cert.KernelIdeal.defs (F := Ideal)) _ _).mono (fun _ h c =>
      ⟨Cert.KernelIdeal.StretchB.FinOK_scores m c _ (h c).1 (ids_ok m hpre c).1 (ids_ok m hpre c).2, (h c).2⟩) (hrun m g hpre)
  · refine (θ_run (Cert.ReferenceIdeal.defs (F := Ideal)) _ _).mono (fun _ h c => ⟨?_, (h c).2⟩) (Cert.RefSide.run_scores m' g' hpre')
    rw [(h c).1, (hagree c).1, (hagree c).2.1, (hagree c).2.2.1, (hagree c).2.2.2.1, (hagree c).2.2.2.2.1, (hagree c).2.2.2.2.2]

end Cert.Proof.Claims

end
-- ==== Proof.TcWideBase.lean ====
/-
  What the two transposing regions share: where a store through a 32-lane rectangle of the [4096, 128] buffer puts its
  payload, what a load through a 4096-column rectangle of the [32, 16384] buffer reads, and a write through a rectangle
  of a whole buffer read back at an index inside or outside the rectangle.
-/
import proofs.«203700_g68710886802180_cont_9to1c4b_800_29_alg».proof.Proof.Gen.KernelIdeal.Launch
import proofs.«203700_g68710886802180_cont_9to1c4b_800_29_alg».proof.Proof.Gen.KernelIdeal.Skeleton
import proofs.«203700_g68710886802180_cont_9to1c4b_800_29_alg».proof.Proof.Gen.KernelIdeal.Points
import proofs.«203700_g68710886802180_cont_9to1c4b_800_29_alg».proof.Proof.LaunchSetupIdeal
import proofs.«203700_g68710886802180_cont_9to1c4b_800_29_alg».proof.Proof.TcDotBase
import proofs.«203700_g68710886802180_cont_9to1c4b_800_29_alg».proof.Proof.Packed
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.TcSide

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ Cert.KernelIdeal.Setup.UU ℕ

/-- Where a store's rectangle puts its payload's index `(r, e)`: row `r`, lane `off + e`. -/
theorem store_emb (off : Nat) (inb) (r : Fin 4096) (e : Fin 32) (h : off + e.val < 128) :
    (Rect.unit (s := S4096x128) ![0, off] S4096x32.size inb).emb (ix2 r e) = ix2 r (⟨off + e.val, h⟩ : Fin 128) := by
  funext a; refine Fin.ext ?_
  match a with
  | ⟨0, _⟩ => show 0 + 1 * r.val = r.val; omega
  | ⟨1, _⟩ => show off + 1 * e.val = off + e.val; omega

/-- Where a load's rectangle reads its index `(e, r)`: row `e`, column `off + r`. -/
theorem load_idx (off : Nat) (inb) (e : Fin 32) (r : Fin 4096) (h : off + r.val < 16384) (x0 : Vec F S32x16384 .f32) :
    View.ld x0 (Rect.unit (s := S32x16384) ![0, off] S32x4096.size inb) (ix2 e r) = x0 (ix2 e (⟨off + r.val, h⟩ : Fin 16384)) := by
  show x0 _ = x0 _
  congr 1
  funext a; refine Fin.ext ?_
  match a with
  | ⟨0, _⟩ => show 0 + 1 * e.val = e.val; omega
  | ⟨1, _⟩ => show off + 1 * r.val = off + r.val; omega

/-- A lane outside a store's 32 lanes is not in its rectangle. -/
theorem not_mem_store (off : Nat) (inb) (r : Fin 4096) (l : Fin 128) (h : l.val < off ∨ off + 32 ≤ l.val) :
    ix2 r l ∉ (Rect.unit (s := S4096x128) ![0, off] S4096x32.size inb).set := by
  intro hm
  have := (Rect.mem_set_unit.mp hm) 1
  have h1 : ((![0, off] : Fin 2 → Nat) 1) = off := rfl
  have h2 : (S4096x32.size 1) = 32 := rfl
  have h3 : ((ix2 r l : S4096x128.Idx) 1).val = l.val := rfl
  rw [h1, h2, h3] at this
  omega

/-- A write through a rectangle of a whole buffer, read inside the rectangle: the payload. -/
theorem write_slice_whole_emb {Val : EltTy → Type} {b : Ref sig .tc} (r : Rect b.ty.shape) (G : b.ty.Contents Val)
    (Z : r.shape.Idx → Val b.ty.elt) (x : r.shape.Idx) :
    ((View.whole b).slice r).write Val G Z Finset.univ (r.emb x) = Z x :=
  View.read_slice_write_emb (v := View.whole b) r G Z (Finset.mem_univ x)

/-- and read outside it: what was there. -/
theorem write_slice_whole_of_not_mem {Val : EltTy → Type} {b : Ref sig .tc} (r : Rect b.ty.shape) (G : b.ty.Contents Val)
    (Z : r.shape.Idx → Val b.ty.elt) (y : b.ty.shape.Idx) (h : y ∉ r.set) :
    ((View.whole b).slice r).write Val G Z Finset.univ y = G y :=
  View.read_slice_write_of_not_mem (v := View.whole b) r G Z Finset.univ (by rwa [Rect.map_emb_univ])

end Cert.KernelIdeal.TcSide

end
-- ==== Proof.TcWide0.lean ====
/-
  Transposing region 0 as a pipeline on one core: 62 grid points. At point `t` the body reads columns
  `16384·t … 16384·t + 16383` of the transposed embedding table `main_v0` ([32, 1000000]; window 0) and writes rows
  `4096·t … 4096·t + 4095` of the packed table `main_v1` ([253952, 128]; window 1): for each quarter `q < 4`, lanes
  `32·q … 32·q + 31` of the block's row `r` hold column `4096·q + r` of the input block, that is, the 32 entries of
  table row `16384·t + 4096·q + r`.

  The last input block reaches past the table's millionth column. Its fetch first overwrites the staging buffer with
  words nothing names and then lands the columns that exist, so what the body computes from the rest is not a function
  of anything: the proof data therefore CONSTRAIN what the body leaves in the output's buffer — on every lane that comes
  from a column of the table it is that column's entry — instead of naming it, and the packed table after the region
  is known exactly on those lanes (`Cert.Packed.WideOK`), which is all the program reads of it.

  Everything is stated at the contents `V` the TensorCore's buffers hold when the region is entered, and at the tallies
  `O` the core owes throughout the region (the body waits on nothing, so they pass through unread).
-/
import proofs.«203700_g68710886802180_cont_9to1c4b_800_29_alg».proof.Proof.Gen.KernelIdeal.Launch
import proofs.«203700_g68710886802180_cont_9to1c4b_800_29_alg».proof.Proof.Gen.KernelIdeal.Skeleton
import proofs.«203700_g68710886802180_cont_9to1c4b_800_29_alg».proof.Proof.Gen.KernelIdeal.Points
import proofs.«203700_g68710886802180_cont_9to1c4b_800_29_alg».proof.Proof.LaunchSetupIdeal
import proofs.«203700_g68710886802180_cont_9to1c4b_800_29_alg».proof.Proof.TcDotBase
import proofs.«203700_g68710886802180_cont_9to1c4b_800_29_alg».proof.Proof.Packed
import proofs.«203700_g68710886802180_cont_9to1c4b_800_29_alg».proof.Proof.TcWideBase
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.TcSide

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ Cert.KernelIdeal.Setup.UU ℕ

variable (V : (c : Dev nD) → (b : Ref sig .tc) → Buf (Elt F) ((c : Thread nD τ).loc b))
variable (O : CellTallies nD τ sig (HIx 1)) (B : Set (SemLoc sig × HIx 1))

/-! ## The body's accesses -/

abbrev l0_0 : Rect S32x16384 := Rect.unit (s := S32x16384) ![0, 0] S32x4096.size inb_S32x16384_S32x4096_0_0
abbrev l0_1 : Rect S32x16384 := Rect.unit (s := S32x16384) ![0, 4096] S32x4096.size inb_S32x16384_S32x4096_0_4096
abbrev l0_2 : Rect S32x16384 := Rect.unit (s := S32x16384) ![0, 8192] S32x4096.size inb_S32x16384_S32x4096_0_8192
abbrev l0_3 : Rect S32x16384 := Rect.unit (s := S32x16384) ![0, 12288] S32x4096.size inb_S32x16384_S32x4096_0_12288
abbrev s0_0 : Rect S4096x128 := Rect.unit (s := S4096x128) ![0, 0] S4096x32.size inb_S4096x128_S4096x32_0_0
abbrev s0_1 : Rect S4096x128 := Rect.unit (s := S4096x128) ![0, 32] S4096x32.size inb_S4096x128_S4096x32_0_32
abbrev s0_2 : Rect S4096x128 := Rect.unit (s := S4096x128) ![0, 64] S4096x32.size inb_S4096x128_S4096x32_0_64
abbrev s0_3 : Rect S4096x128 := Rect.unit (s := S4096x128) ![0, 96] S4096x32.size inb_S4096x128_S4096x32_0_96

/-- The output buffer after the body, from the input buffer's contents: its four stores, last first. Each quarter
    of the lanes holds the transpose of one quarter of the input's columns. -/
def out0 (x0 : Vec F S32x16384 .f32) : Vec F S4096x128 .f32 :=
  View.canon [⟨s0_3, k0_pay4 (View.ld x0 l0_3)⟩, ⟨s0_2, k0_pay3 (View.ld x0 l0_2)⟩,
    ⟨s0_1, k0_pay2 (View.ld x0 l0_1)⟩, ⟨s0_0, k0_pay1 (View.ld x0 l0_0)⟩]

/-- The four stores tile the output buffer. -/
theorem cover0 (p3 p2 p1 p0 : Vec F S4096x32 .f32) (y : S4096x128.Idx) :
    ∃ pc ∈ ([⟨s0_3, p3⟩, ⟨s0_2, p2⟩, ⟨s0_1, p1⟩, ⟨s0_0, p0⟩] : List (View.Piece (Elt F) S4096x128 .f32)), y ∈ pc.1.set :=
  View.cover_of_tiled [⟨s0_3, p3⟩, ⟨s0_2, p2⟩, ⟨s0_1, p1⟩, ⟨s0_0, p0⟩] S4096x32.size (by rfl) y

/-! ## The body's triple -/

set_option maxHeartbeats 2000000 in
/-- The body on whole staging memrefs, the input's at read contents `x0` and the output's at anything, runs to the
    continuation holding the input's as it was and the output's at `out0 x0`. -/
theorem sound_kernel0 (c : Dev nD) (E : Set ℕ) (i : grid0.Coords) (arg1 : Memref sig .tc .vmem S32x16384 .f32) (harg1 : arg1.IsWhole)
    (arg2 : Memref sig .tc .vmem S4096x128 .f32) (harg2 : arg2.IsWhole) (x0 : Vec F S32x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__tr_body i arg1 harg1 arg2 harg2) K := by
  simp only [cc0__tr_body_eq_skeleton]; unfold cc0__tr_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover0 _ _ _ _)

/-! ## The output buffer read at an index -/

/-- A transposing payload at row `r`, lane `e` is the loaded quarter at row `e`, column `r`. -/
theorem k0_pay1_apply (v : Vec F S32x4096 .f32) (r : Fin 4096) (e : Fin 32) : k0_pay1 v (ix2 r e) = v (ix2 e r) := by
  show transpose S4096x32 [1, 0] (shapeCast S32x4096 v shapeCasts_S32x4096_S32x4096) transposes_S32x4096_p1_0_S4096x32 (ix2 r e) = _
  rw [shapeCast_self]
  exact transpose_apply _ _ _ (ix2 r e) (ix2 e r) fun b => by match b with | ⟨0, _⟩ => rfl | ⟨1, _⟩ => rfl
theorem k0_pay2_apply (v : Vec F S32x4096 .f32) (r : Fin 4096) (e : Fin 32) : k0_pay2 v (ix2 r e) = v (ix2 e r) := k0_pay1_apply v r e
theorem k0_pay3_apply (v : Vec F S32x4096 .f32) (r : Fin 4096) (e : Fin 32) : k0_pay3 v (ix2 r e) = v (ix2 e r) := k0_pay1_apply v r e
theorem k0_pay4_apply (v : Vec F S32x4096 .f32) (r : Fin 4096) (e : Fin 32) : k0_pay4 v (ix2 r e) = v (ix2 e r) := k0_pay1_apply v r e

/-- The output buffer at row `r`, lane `32q + e`: the input buffer at row `e`, column `4096q + r`. -/
theorem out0_apply (x0 : Vec F S32x16384 .f32) (r : Fin 4096) (q : Fin 4) (e : Fin 32) (l : Fin 128) (k : Fin 16384)
    (hl : l.val = 32 * q.val + e.val) (hk : k.val = 4096 * q.val + r.val) :
    out0 x0 (ix2 r l) = x0 (ix2 e k) := by
  unfold out0
  have hq : q.val = 0 ∨ q.val = 1 ∨ q.val = 2 ∨ q.val = 3 := by omega
  rcases hq with hq | hq | hq | hq
  · have hl' : ix2 r l = s0_0.emb (ix2 r e) :=
      (congrArg (fun x => ix2 r x) (Fin.ext (by show l.val = 0 + e.val; omega))).trans (store_emb 0 _ r e (by omega)).symm
    have hn96 : ix2 r l ∉ s0_3.set := not_mem_store 96 _ r l (Or.inl (by omega))
    have hn64 : ix2 r l ∉ s0_2.set := not_mem_store 64 _ r l (Or.inl (by omega))
    have hn32 : ix2 r l ∉ s0_1.set := not_mem_store 32 _ r l (Or.inl (by omega))
    rw [View.canon_cons_of_not_mem (⟨s0_3, k0_pay4 (View.ld x0 l0_3)⟩ : View.Piece (Elt F) S4096x128 .f32) _ hn96,
      View.canon_cons_of_not_mem (⟨s0_2, k0_pay3 (View.ld x0 l0_2)⟩ : View.Piece (Elt F) S4096x128 .f32) _ hn64,
      View.canon_cons_of_not_mem (⟨s0_1, k0_pay2 (View.ld x0 l0_1)⟩ : View.Piece (Elt F) S4096x128 .f32) _ hn32,
      hl',
      View.canon_cons_emb,
      k0_pay1_apply]
    exact (load_idx 0 _ e r (by omega) x0).trans
      (congrArg (fun x => x0 (ix2 e x)) (Fin.ext (by show 0 + r.val = k.val; omega)))
  · have hl' : ix2 r l = s0_1.emb (ix2 r e) :=
      (congrArg (fun x => ix2 r x) (Fin.ext (by show l.val = 32 + e.val; omega))).trans (store_emb 32 _ r e (by omega)).symm
    have hn96 : ix2 r l ∉ s0_3.set := not_mem_store 96 _ r l (Or.inl (by omega))
    have hn64 : ix2 r l ∉ s0_2.set := not_mem_store 64 _ r l (Or.inl (by omega))
    rw [View.canon_cons_of_not_mem (⟨s0_3, k0_pay4 (View.ld x0 l0_3)⟩ : View.Piece (Elt F) S4096x128 .f32) _ hn96,
      View.canon_cons_of_not_mem (⟨s0_2, k0_pay3 (View.ld x0 l0_2)⟩ : View.Piece (Elt F) S4096x128 .f32) _ hn64,
      hl',
      View.canon_cons_emb,
      k0_pay2_apply]
    exact (load_idx 4096 _ e r (by omega) x0).trans
      (congrArg (fun x => x0 (ix2 e x)) (Fin.ext (by show 4096 + r.val = k.val; omega)))
  · have hl' : ix2 r l = s0_2.emb (ix2 r e) :=
      (congrArg (fun x => ix2 r x) (Fin.ext (by show l.val = 64 + e.val; omega))).trans (store_emb 64 _ r e (by omega)).symm
    have hn96 : ix2 r l ∉ s0_3.set := not_mem_store 96 _ r l (Or.inl (by omega))
    rw [View.canon_cons_of_not_mem (⟨s0_3, k0_pay4 (View.ld x0 l0_3)⟩ : View.Piece (Elt F) S4096x128 .f32) _ hn96,
      hl',
      View.canon_cons_emb,
      k0_pay3_apply]
    exact (load_idx 8192 _ e r (by omega) x0).trans
      (congrArg (fun x => x0 (ix2 e x)) (Fin.ext (by show 8192 + r.val = k.val; omega)))
  · have hl' : ix2 r l = s0_3.emb (ix2 r e) :=
      (congrArg (fun x => ix2 r x) (Fin.ext (by show l.val = 96 + e.val; omega))).trans (store_emb 96 _ r e (by omega)).symm
    rw [hl',
      View.canon_cons_emb,
      k0_pay4_apply]
    exact (load_idx 12288 _ e r (by omega) x0).trans
      (congrArg (fun x => x0 (ix2 e x)) (Fin.ext (by show 12288 + r.val = k.val; omega)))

/-! ## The pipeline's proof data -/

/-- What the body leaves in window 1's buffer at point `t`: on every lane that comes from a column of the table
    (the last block reaches past the table's end), the transposed table's entry. -/
def wideRel0 (c : Dev nD) (t : Fin cfg0.N) (X : S4096x128.Idx → Elt F .f32) : Prop :=
  ∀ (r : Fin 4096) (q : Fin 4) (e : Fin 32) (hn : 16384 * t.val + 4096 * q.val + r.val < 1000000),
    X (ix2 r (⟨32 * q.val + e.val, by omega⟩ : Fin 128))
      = V c main_v0 (ix2 e (⟨16384 * t.val + 4096 * q.val + r.val, hn⟩ : Fin 1000000))

/-- The proof data of the region on core `c`: the arrays as the region finds them (`V`); the body leaves the input's
    buffer as it found it and the output's in the relation `wideRel0`; the invariant `ΦR`; the tallies `O` owed at
    every point; full shares. -/
def rdat0 (c : Dev nD) : RDat τ (Elt F) (HIx 1) ℕ Cert.KernelIdeal.Setup.UU ℕ cfg0 c where
  A w := V c (Pipeline.arrRef spec0 w)
  after w t := match w with
    | ⟨0, _⟩ => fun Y X => X = Y
    | ⟨1, _⟩ => fun _ X => wideRel0 V c t X
  Φ _ := ΦR spec0 c
  q _ := fullShare
  owed _ := O
  recorded _ := B

/-- The windows' block indices and the input block's cut, point by point. -/
theorem idx_facts0 : ∀ t : Fin cfg0.N, win0_0.index t 0 = 0 ∧ win0_0.index t 1 = t.val
    ∧ win0_0.xsize (grid0.coords t) 0 = 32 ∧ win0_0.xsize (grid0.coords t) 1 = min 16384 (1000000 - 16384 * t.val)
    ∧ win0_1.index t 0 = t.val ∧ win0_1.index t 1 = 0 :=
  (by decide +kernel : ∀ t : Fin grid0.N, win0_0.index t 0 = 0 ∧ win0_0.index t 1 = t.val
    ∧ win0_0.xsize (grid0.coords t) 0 = 32 ∧ win0_0.xsize (grid0.coords t) 1 = min 16384 (1000000 - 16384 * t.val)
    ∧ win0_1.index t 0 = t.val ∧ win0_1.index t 1 = 0)

/-- The input's buffer just fetched at point `t`, read at a column that lies inside the table: the table's entry. -/
theorem fetched0_apply (c : Dev nD) (t : Fin cfg0.N) (d : S32x16384.Idx → Elt F .f32) (e : Fin 32) (k : Fin 16384)
    (hk : 16384 * t.val + k.val < 1000000) :
    (rdat0 (F := F) V O B c).fetched 0 t d (ix2 e k) = V c main_v0 (ix2 e (⟨16384 * t.val + k.val, hk⟩ : Fin 1000000)) := by
  obtain ⟨i0, i1, x0, x1, -, -⟩ := idx_facts0 t
  have hm : ∀ a, ((ix2 e k : S32x16384.Idx) a).val < win0_0.xsize (grid0.coords t) a := fun a => by
    match a with
    | ⟨0, _⟩ => show e.val < win0_0.xsize (grid0.coords t) 0; rw [x0]; exact e.isLt
    | ⟨1, _⟩ => show k.val < win0_0.xsize (grid0.coords t) 1; rw [x1]; have := k.isLt; omega
  unfold RDat.fetched Window.fill
  rw [dif_pos ((win0_0.moved_iff _ _).mpr hm)]
  show V c main_v0 _ = V c main_v0 _
  congr 1
  funext a; refine Fin.ext ?_
  match a with
  | ⟨0, _⟩ =>
    show win0_0.index t 0 * 32 + 1 * e.val = e.val
    rw [i0]; omega
  | ⟨1, _⟩ =>
    show win0_0.index t 1 * 16384 + 1 * k.val = 16384 * t.val + k.val
    rw [i1]; omega

/-- A buffer just fetched at point `t` goes, through the body's four transposes, to contents in the relation. -/
theorem wideRel0_out (c : Dev nD) (t : Fin cfg0.N) (d : S32x16384.Idx → Elt F .f32) :
    wideRel0 V c t (out0 ((rdat0 (F := F) V O B c).fetched 0 t d)) := by
  intro r q e hn
  rw [out0_apply _ r q e _ (⟨4096 * q.val + r.val, by omega⟩ : Fin 16384) rfl rfl,
    fetched0_apply V O B c t d e _ (by show 16384 * t.val + (4096 * q.val + r.val) < 1000000; omega)]
  congr 1
  exact congrArg (fun x => ix2 e x) (Fin.ext (by show 16384 * t.val + (4096 * q.val + r.val) = 16384 * t.val + 4096 * q.val + r.val; omega))

/-! ## The body obligation -/

/-- The body at any point, for any contents the input's buffer may then hold (it was just fetched) and any contents of
    the output's: `sound_kernel0` applies; the invariant and the core's tallies pass through unread. -/
theorem sound_body0 (c : Dev nD) (t : Fin cfg0.N) (Y0 : S32x16384.Idx → Elt F .f32) (Y1 : S4096x128.Idx → Elt F .f32)
    (h0 : (rdat0 (F := F) V O B c).Finds 0 t Y0) :
    iprop((rdat0 (F := F) V O B c).Φ t.castSucc ∗ (rdat0 (F := F) V O B c).owesAt none t.castSucc
        ∗ owns (c : Thread nD τ) (st0_0 t) fullShare Y0 ∗ owns (c : Thread nD τ) (st0_1 t) fullShare Y1)
      ⊢ wp frame (wpE (defs₀ (F := F)) Variants.none c none) Set.univ (bodyAt0 t) (fun _ =>
          iprop((rdat0 (F := F) V O B c).Φ t.succ ∗ (rdat0 (F := F) V O B c).owesAt none t.succ
            ∗ (∃ X, ⌜(rdat0 (F := F) V O B c).after 0 t Y0 X⌝ ∗ owns (c : Thread nD τ) (st0_0 t) fullShare X)
            ∗ (∃ X, ⌜(rdat0 (F := F) V O B c).after 1 t Y1 X⌝ ∗ owns (c : Thread nD τ) (st0_1 t) fullShare X))) := by
  rw [(rdat0 (F := F) V O B c).finds_of_fetch (fetch0_0 t)] at h0
  obtain ⟨d, rfl⟩ := h0
  rw [show (rdat0 (F := F) V O B c).Φ t.succ = (rdat0 (F := F) V O B c).Φ t.castSucc from rfl,
    show (rdat0 (F := F) V O B c).owesAt none t.succ = (rdat0 (F := F) V O B c).owesAt none t.castSucc from rfl]
  unfold bodyAt0
  iintro ⟨HΦ, Ho, H0, H1⟩
  iapply (sound_kernel0 c Set.univ (grid0.coords t) _ _ _ _ ((rdat0 (F := F) V O B c).fetched 0 t d) _)
  isplitl [H0]; · iexact H0
  isplitl [H1]; · iexists _; iexact H1
  iintro ⟨H0, H1⟩
  isplitl [HΦ]; · iexact HΦ
  isplitl [Ho]; · iexact Ho
  isplitl [H0]
  · iexists _; isplitr; · ipureintro; exact (rfl : (rdat0 (F := F) V O B c).fetched 0 t d = _)
    iexact H0
  · iexists _; isplitr
    swap; · iexact H1
    ipureintro
    exact wideRel0_out V O B c t d

/-- The library's body obligation, at every point and for all contents the buffers may then hold. -/
theorem body_obligation0 (c : Dev nD) :
    (rdat0 (F := F) V O B c).BodyObligation (defs₀ (F := F)) Variants.none (none : HIx 1) Set.univ := fun t Y hY => by
  rw [bigSep_W0, bigSep_W0]
  exact sound_body0 V O B c t (Y 0) (Y 1) (hY 0)

/-! ## The packed table after the write-backs -/

/-- Window 1's block at point `t` is rows `4096·t … 4096·t + 4095` of the packed table, every lane. -/
theorem mem_rect0_1 (t : Fin cfg0.N) (i : S253952x128.Idx) :
    i ∈ (win0_1.rect t).set ↔ 4096 * t.val ≤ (i 0).val ∧ (i 0).val < 4096 * t.val + 4096 := by
  obtain ⟨-, -, -, -, j0, j1⟩ := idx_facts0 t
  rw [Rect.mem_set_unit]
  constructor
  · intro h
    have h0 : win0_1.index t 0 * 4096 ≤ (i 0).val ∧ (i 0).val < win0_1.index t 0 * 4096 + 4096 := h 0
    rw [j0] at h0; omega
  · intro h a
    match a with
    | ⟨0, _⟩ =>
      show win0_1.index t 0 * 4096 ≤ (i 0).val ∧ (i 0).val < win0_1.index t 0 * 4096 + 4096
      rw [j0]; omega
    | ⟨1, _⟩ =>
      show win0_1.index t 1 * 128 ≤ (i 1).val ∧ (i 1).val < win0_1.index t 1 * 128 + 128
      rw [j1]; have : (i 1).val < 128 := (i 1).isLt; omega

/-- Where window 1's block at point `t` puts its index `(r, l)`: row `4096·t + r`, lane `l`. -/
theorem rect0_1_emb (t : Fin cfg0.N) (r : Fin 4096) (l : Fin 128) (h : 4096 * t.val + r.val < 253952) :
    (win0_1.rect t).emb (ix2 r l : S4096x128.Idx) = ix2 (⟨4096 * t.val + r.val, h⟩ : Fin 253952) l := by
  obtain ⟨-, -, -, -, j0, j1⟩ := idx_facts0 t
  funext a; refine Fin.ext ?_
  match a with
  | ⟨0, _⟩ => show win0_1.index t 0 * 4096 + 1 * r.val = 4096 * t.val + r.val; rw [j0]; omega
  | ⟨1, _⟩ => show win0_1.index t 1 * 128 + 1 * l.val = l.val; rw [j1]; omega

/-- The packed table carries the transposed table on the lanes of every table row below `16384·m`. -/
def WideUpTo0 (c : Dev nD) (m : Nat) (f : S253952x128.Idx → Elt F .f32) : Prop :=
  ∀ (n : Fin 1000000) (e : Fin 32), n.val < 16384 * m →
    f (ix2 (Cert.Packed.wideRow n.val n.isLt) (Cert.Packed.wideLane n.val e)) = V c main_v0 (ix2 e n)

/-- One write-back: the block written at point `m` holds table rows `16384·m …`, in the relation the body leaves, and
    lies past the packed rows of every earlier table row, which it therefore keeps. -/
theorem step_wide0 (c : Dev nD) (m : Nat) (hlt : m < cfg0.N) (G₀ : S253952x128.Idx → Elt F .f32) (X : S4096x128.Idx → Elt F .f32)
    (ih : WideUpTo0 V c m G₀) (hrel : wideRel0 V c ⟨m, hlt⟩ X) :
    WideUpTo0 V c (m + 1) (((View.whole main_v1).slice (win0_1.rect ⟨m, hlt⟩)).write (Elt F) G₀
      (fun j => X (win0_1.xinj (grid0.coords ⟨m, hlt⟩) j)) Finset.univ) := by
  have h62 : m < 62 := by rw [show cfg0.N = 62 from N_0] at hlt; exact hlt
  intro n e hn
  have hn' := n.isLt
  by_cases hb : 16384 * m ≤ n.val
  · -- the table row is in the block written at point `m`
    have hr : 4096 * m + n.val % 4096 < 253952 := by omega
    have hI : (ix2 (Cert.Packed.wideRow n.val n.isLt) (Cert.Packed.wideLane n.val e) : S253952x128.Idx)
        = (win0_1.rect ⟨m, hlt⟩).emb (ix2 (⟨n.val % 4096, by omega⟩ : Fin 4096) (Cert.Packed.wideLane n.val e) : S4096x128.Idx) :=
      (congrArg (fun x => ix2 x (Cert.Packed.wideLane n.val e))
        (Fin.ext (by show 4096 * (n.val / 16384) + n.val % 4096 = 4096 * m + n.val % 4096; omega))).trans
        (rect0_1_emb ⟨m, hlt⟩ ⟨n.val % 4096, by omega⟩ (Cert.Packed.wideLane n.val e) hr).symm
    have hq : 16384 * m + 4096 * ((n.val / 4096) % 4) + n.val % 4096 < 1000000 := by omega
    rw [hI, write_slice_whole_emb]
    refine (hrel ⟨n.val % 4096, by omega⟩ ⟨(n.val / 4096) % 4, by omega⟩ e hq).trans ?_
    congr 1
    exact congrArg (fun x => ix2 e x) (Fin.ext (by show 16384 * m + 4096 * ((n.val / 4096) % 4) + n.val % 4096 = n.val; omega))
  · -- the table row was written at an earlier point, and this block lies past its packed row
    have hnot : (ix2 (Cert.Packed.wideRow n.val n.isLt) (Cert.Packed.wideLane n.val e) : S253952x128.Idx)
        ∉ (win0_1.rect ⟨m, hlt⟩).set := by
      rw [mem_rect0_1]
      show ¬ (4096 * m ≤ 4096 * (n.val / 16384) + n.val % 4096 ∧ 4096 * (n.val / 16384) + n.val % 4096 < 4096 * m + 4096)
      omega
    rw [write_slice_whole_of_not_mem (b := main_v1) (win0_1.rect ⟨m, hlt⟩) _ _ _ hnot]
    exact ih n e (by omega)

/-- After the write-backs of the points below `m` the packed table carries table rows `0 … 16384·m − 1`. -/
theorem arrAt_wide0 (c : Dev nD) : ∀ (m : Nat), m ≤ 62 → ∀ f, (rdat0 (F := F) V O B c).ArrAt 1 m f → WideUpTo0 V c m f
  | 0, _, f, _ => fun n e hn => absurd hn (by omega)
  | m + 1, hm, f, h => by
    have hlt : m < cfg0.N := by rw [show cfg0.N = 62 from N_0]; omega
    have hstep : (rdat0 (F := F) V O B c).ArrStep 1 ⟨m, hlt⟩ ((rdat0 (F := F) V O B c).ArrAt 1 m) f := by
      have h' := h
      unfold RDat.ArrAt at h'
      simp only [dif_pos hlt, if_pos (flush0_1 ⟨m, hlt⟩)] at h'
      exact h'
    obtain ⟨G₀, X, hG₀, ⟨Y, -, hrel⟩, hf⟩ := hstep
    subst hf
    exact step_wide0 V c m hlt G₀ X (arrAt_wide0 c m (by omega) G₀ hG₀) hrel

/-- After the region, the packed table carries every table row. -/
theorem wide_of_arrAt0 (c : Dev nD) (f : Buf (Elt F) ((cfg0.win 1).arr.view.loc (c.tc : Thread nD τ)))
    (h : (rdat0 (F := F) V O B c).ArrAt 1 cfg0.N f) :
    ∀ (n : Fin 1000000) (e : Fin 32),
      f (ix2 (Cert.Packed.wideRow n.val n.isLt) (Cert.Packed.wideLane n.val e)) = V c main_v0 (ix2 e n) := by
  rw [show cfg0.N = 62 from N_0] at h
  exact fun n e => arrAt_wide0 V O B c 62 le_rfl f h n e (by have := n.isLt; omega)

/-- So, the region's input being the embedding table transposed, the packed table it leaves carries the table. -/
theorem wideOK_of_arrAt0 (c : Dev nD) (f : Buf (Elt F) ((cfg0.win 1).arr.view.loc (c.tc : Thread nD τ)))
    (h : (rdat0 (F := F) V O B c).ArrAt 1 cfg0.N f)
    (hT : V c main_v0 = transpose S32x1000000 [1, 0] (V c main_arg2) transposes_S1000000x32_S32x1000000_1_0) :
    Cert.Packed.WideOK (V c main_arg2) f := by
  intro n d
  rw [wide_of_arrAt0 V O B c f h n d, hT]
  exact transpose_apply _ _ _ (ix2 d n) (ix2 n d) fun b => by match b with | ⟨0, _⟩ => rfl | ⟨1, _⟩ => rfl

end Cert.KernelIdeal.TcSide

end
-- ==== Proof.TcWide1.lean ====
/-
  Transposing region 1 as a pipeline on one core: 62 grid points. At point `t` the body reads columns
  `16384·t … 16384·t + 16383` of the transposed embedding table `main_v2` ([32, 1000000]; window 0) and writes rows
  `4096·t … 4096·t + 4095` of the packed table `main_v3` ([253952, 128]; window 1): for each quarter `q < 4`, lanes
  `32·q … 32·q + 31` of the block's row `r` hold column `4096·q + r` of the input block, that is, the 32 entries of
  table row `16384·t + 4096·q + r`.

  The last input block reaches past the table's millionth column. Its fetch first overwrites the staging buffer with
  words nothing names and then lands the columns that exist, so what the body computes from the rest is not a function
  of anything: the proof data therefore CONSTRAIN what the body leaves in the output's buffer — on every lane that comes
  from a column of the table it is that column's entry — instead of naming it, and the packed table after the region
  is known exactly on those lanes (`Cert.Packed.WideOK`), which is all the program reads of it.

  Everything is stated at the contents `V` the TensorCore's buffers hold when the region is entered, and at the tallies
  `O` the core owes throughout the region (the body waits on nothing, so they pass through unread).
-/
import proofs.«203700_g68710886802180_cont_9to1c4b_800_29_alg».proof.Proof.Gen.KernelIdeal.Launch
import proofs.«203700_g68710886802180_cont_9to1c4b_800_29_alg».proof.Proof.Gen.KernelIdeal.Skeleton
import proofs.«203700_g68710886802180_cont_9to1c4b_800_29_alg».proof.Proof.Gen.KernelIdeal.Points
import proofs.«203700_g68710886802180_cont_9to1c4b_800_29_alg».proof.Proof.LaunchSetupIdeal
import proofs.«203700_g68710886802180_cont_9to1c4b_800_29_alg».proof.Proof.TcDotBase
import proofs.«203700_g68710886802180_cont_9to1c4b_800_29_alg».proof.Proof.Packed
import proofs.«203700_g68710886802180_cont_9to1c4b_800_29_alg».proof.Proof.TcWideBase
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.TcSide

open Cert.KernelIdeal Cert.KernelIdeal.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ Cert.KernelIdeal.Setup.UU ℕ

variable (V : (c : Dev nD) → (b : Ref sig .tc) → Buf (Elt F) ((c : Thread nD τ).loc b))
variable (O : CellTallies nD τ sig (HIx 1)) (B : Set (SemLoc sig × HIx 1))

/-! ## The body's accesses -/

abbrev l1_0 : Rect S32x16384 := Rect.unit (s := S32x16384) ![0, 0] S32x4096.size inb_S32x16384_S32x4096_0_0
abbrev l1_1 : Rect S32x16384 := Rect.unit (s := S32x16384) ![0, 4096] S32x4096.size inb_S32x16384_S32x4096_0_4096
abbrev l1_2 : Rect S32x16384 := Rect.unit (s := S32x16384) ![0, 8192] S32x4096.size inb_S32x16384_S32x4096_0_8192
abbrev l1_3 : Rect S32x16384 := Rect.unit (s := S32x16384) ![0, 12288] S32x4096.size inb_S32x16384_S32x4096_0_12288
abbrev s1_0 : Rect S4096x128 := Rect.unit (s := S4096x128) ![0, 0] S4096x32.size inb_S4096x128_S4096x32_0_0
abbrev s1_1 : Rect S4096x128 := Rect.unit (s := S4096x128) ![0, 32] S4096x32.size inb_S4096x128_S4096x32_0_32
abbrev s1_2 : Rect S4096x128 := Rect.unit (s := S4096x128) ![0, 64] S4096x32.size inb_S4096x128_S4096x32_0_64
abbrev s1_3 : Rect S4096x128 := Rect.unit (s := S4096x128) ![0, 96] S4096x32.size inb_S4096x128_S4096x32_0_96

/-- The output buffer after the body, from the input buffer's contents: its four stores, last first. Each quarter
    of the lanes holds the transpose of one quarter of the input's columns. -/
def out1 (x0 : Vec F S32x16384 .f32) : Vec F S4096x128 .f32 :=
  View.canon [⟨s1_3, k1_pay4 (View.ld x0 l1_3)⟩, ⟨s1_2, k1_pay3 (View.ld x0 l1_2)⟩,
    ⟨s1_1, k1_pay2 (View.ld x0 l1_1)⟩, ⟨s1_0, k1_pay1 (View.ld x0 l1_0)⟩]

/-- The four stores tile the output buffer. -/
theorem cover1 (p3 p2 p1 p0 : Vec F S4096x32 .f32) (y : S4096x128.Idx) :
    ∃ pc ∈ ([⟨s1_3, p3⟩, ⟨s1_2, p2⟩, ⟨s1_1, p1⟩, ⟨s1_0, p0⟩] : List (View.Piece (Elt F) S4096x128 .f32)), y ∈ pc.1.set :=
  View.cover_of_tiled [⟨s1_3, p3⟩, ⟨s1_2, p2⟩, ⟨s1_1, p1⟩, ⟨s1_0, p0⟩] S4096x32.size (by rfl) y

/-! ## The body's triple -/

set_option maxHeartbeats 2000000 in
/-- The body on whole staging memrefs, the input's at read contents `x0` and the output's at anything, runs to the
    continuation holding the input's as it was and the output's at `out1 x0`. -/
theorem sound_kernel1 (c : Dev nD) (E : Set ℕ) (i : grid1.Coords) (arg1 : Memref sig .tc .vmem S32x16384 .f32) (harg1 : arg1.IsWhole)
    (arg2 : Memref sig .tc .vmem S4096x128 .f32) (harg2 : arg2.IsWhole) (x0 : Vec F S32x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ K ⟨⟩))
      ⊢ wp frame (wpE (defs₀ (F := F)) Variants.none c none) E (cc1__tr_body i arg1 harg1 arg2 harg2) K := by
  simp only [cc1__tr_body_eq_skeleton]; unfold cc1__tr_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover1 _ _ _ _)

/-! ## The output buffer read at an index -/

/-- A transposing payload at row `r`, lane `e` is the loaded quarter at row `e`, column `r`. -/
theorem k1_pay1_apply (v : Vec F S32x4096 .f32) (r : Fin 4096) (e : Fin 32) : k1_pay1 v (ix2 r e) = v (ix2 e r) := by
  show transpose S4096x32 [1, 0] (shapeCast S32x4096 v shapeCasts_S32x4096_S32x4096) transposes_S32x4096_p1_0_S4096x32 (ix2 r e) = _
  rw [shapeCast_self]
  exact transpose_apply _ _ _ (ix2 r e) (ix2 e r) fun b => by match b with | ⟨0, _⟩ => rfl | ⟨1, _⟩ => rfl
theorem k1_pay2_apply (v : Vec F S32x4096 .f32) (r : Fin 4096) (e : Fin 32) : k1_pay2 v (ix2 r e) = v (ix2 e r) := k1_pay1_apply v r e
theorem k1_pay3_apply (v : Vec F S32x4096 .f32) (r : Fin 4096) (e : Fin 32) : k1_pay3 v (ix2 r e) = v (ix2 e r) := k1_pay1_apply v r e
theorem k1_pay4_apply (v : Vec F S32x4096 .f32) (r : Fin 4096) (e : Fin 32) : k1_pay4 v (ix2 r e) = v (ix2 e r) := k1_pay1_apply v r e

/-- The output buffer at row `r`, lane `32q + e`: the input buffer at row `e`, column `4096q + r`. -/
theorem out1_apply (x0 : Vec F S32x16384 .f32) (r : Fin 4096) (q : Fin 4) (e : Fin 32) (l : Fin 128) (k : Fin 16384)
    (hl : l.val = 32 * q.val + e.val) (hk : k.val = 4096 * q.val + r.val) :
    out1 x0 (ix2 r l) = x0 (ix2 e k) := by
  unfold out1
  have hq : q.val = 0 ∨ q.val = 1 ∨ q.val = 2 ∨ q.val = 3 := by omega
  rcases hq with hq | hq | hq | hq
  · have hl' : ix2 r l = s1_0.emb (ix2 r e) :=
      (congrArg (fun x => ix2 r x) (Fin.ext (by show l.val = 0 + e.val; omega))).trans (store_emb 0 _ r e (by omega)).symm
    have hn96 : ix2 r l ∉ s1_3.set := not_mem_store 96 _ r l (Or.inl (by omega))
    have hn64 : ix2 r l ∉ s1_2.set := not_mem_store 64 _ r l (Or.inl (by omega))
    have hn32 : ix2 r l ∉ s1_1.set := not_mem_store 32 _ r l (Or.inl (by omega))
    rw [View.canon_cons_of_not_mem (⟨s1_3, k1_pay4 (View.ld x0 l1_3)⟩ : View.Piece (Elt F) S4096x128 .f32) _ hn96,
      View.canon_cons_of_not_mem (⟨s1_2, k1_pay3 (View.ld x0 l1_2)⟩ : View.Piece (Elt F) S4096x128 .f32) _ hn64,
      View.canon_cons_of_not_mem (⟨s1_1, k1_pay2 (View.ld x0 l1_1)⟩ : View.Piece (Elt F) S4096x128 .f32) _ hn32,
      hl',
      View.canon_cons_emb,
      k1_pay1_apply]
    exact (load_idx 0 _ e r (by omega) x0).trans
      (congrArg (fun x => x0 (ix2 e x)) (Fin.ext (by show 0 + r.val = k.val; omega)))
  · have hl' : ix2 r l = s1_1.emb (ix2 r e) :=
      (congrArg (fun x => ix2 r x) (Fin.ext (by show l.val = 32 + e.val; omega))).trans (store_emb 32 _ r e (by omega)).symm
    have hn96 : ix2 r l ∉ s1_3.set := not_mem_store 96 _ r l (Or.inl (by omega))
    have hn64 : ix2 r l ∉ s1_2.set := not_mem_store 64 _ r l (Or.inl (by omega))
    rw [View.canon_cons_of_not_mem (⟨s1_3, k1_pay4 (View.ld x0 l1_3)⟩ : View.Piece (Elt F) S4096x128 .f32) _ hn96,
      View.canon_cons_of_not_mem (⟨s1_2, k1_pay3 (View.ld x0 l1_2)⟩ : View.Piece (Elt F) S4096x128 .f32) _ hn64,
      hl',
      View.canon_cons_emb,
      k1_pay2_apply]
    exact (load_idx 4096 _ e r (by omega) x0).trans
      (congrArg (fun x => x0 (ix2 e x)) (Fin.ext (by show 4096 + r.val = k.val; omega)))
  · have hl' : ix2 r l = s1_2.emb (ix2 r e) :=
      (congrArg (fun x => ix2 r x) (Fin.ext (by show l.val = 64 + e.val; omega))).trans (store_emb 64 _ r e (by omega)).symm
    have hn96 : ix2 r l ∉ s1_3.set := not_mem_store 96 _ r l (Or.inl (by omega))
    rw [View.canon_cons_of_not_mem (⟨s1_3, k1_pay4 (View.ld x0 l1_3)⟩ : View.Piece (Elt F) S4096x128 .f32) _ hn96,
      hl',
      View.canon_cons_emb,
      k1_pay3_apply]
    exact (load_idx 8192 _ e r (by omega) x0).trans
      (congrArg (fun x => x0 (ix2 e x)) (Fin.ext (by show 8192 + r.val = k.val; omega)))
  · have hl' : ix2 r l = s1_3.emb (ix2 r e) :=
      (congrArg (fun x => ix2 r x) (Fin.ext (by show l.val = 96 + e.val; omega))).trans (store_emb 96 _ r e (by omega)).symm
    rw [hl',
      View.canon_cons_emb,
      k1_pay4_apply]
    exact (load_idx 12288 _ e r (by omega) x0).trans
      (congrArg (fun x => x0 (ix2 e x)) (Fin.ext (by show 12288 + r.val = k.val; omega)))

/-! ## The pipeline's proof data -/

/-- What the body leaves in window 1's buffer at point `t`: on every lane that comes from a column of the table
    (the last block reaches past the table's end), the transposed table's entry. -/
def wideRel1 (c : Dev nD) (t : Fin cfg1.N) (X : S4096x128.Idx → Elt F .f32) : Prop :=
  ∀ (r : Fin 4096) (q : Fin 4) (e : Fin 32) (hn : 16384 * t.val + 4096 * q.val + r.val < 1000000),
    X (ix2 r (⟨32 * q.val + e.val, by omega⟩ : Fin 128))
      = V c main_v2 (ix2 e (⟨16384 * t.val + 4096 * q.val + r.val, hn⟩ : Fin 1000000))

/-- The proof data of the region on core `c`: the arrays as the region finds them (`V`); the body leaves the input's
    buffer as it found it and the output's in the relation `wideRel1`; the invariant `ΦR`; the tallies `O` owed at
    every point; full shares. -/
def rdat1 (c : Dev nD) : RDat τ (Elt F) (HIx 1) ℕ Cert.KernelIdeal.Setup.UU ℕ cfg1 c where
  A w := V c (Pipeline.arrRef spec1 w)
  after w t := match w with
    | ⟨0, _⟩ => fun Y X => X = Y
    | ⟨1, _⟩ => fun _ X => wideRel1 V c t X
  Φ _ := ΦR spec1 c
  q _ := fullShare
  owed _ := O
  recorded _ := B

/-- The windows' block indices and the input block's cut, point by point. -/
theorem idx_facts1 : ∀ t : Fin cfg1.N, win1_0.index t 0 = 0 ∧ win1_0.index t 1 = t.val
    ∧ win1_0.xsize (grid1.coords t) 0 = 32 ∧ win1_0.xsize (grid1.coords t) 1 = min 16384 (1000000 - 16384 * t.val)
    ∧ win1_1.index t 0 = t.val ∧ win1_1.index t 1 = 0 :=
  (by decide +kernel : ∀ t : Fin grid1.N, win1_0.index t 0 = 0 ∧ win1_0.index t 1 = t.val
    ∧ win1_0.xsize (grid1.coords t) 0 = 32 ∧ win1_0.xsize (grid1.coords t) 1 = min 16384 (1000000 - 16384 * t.val)
    ∧ win1_1.index t 0 = t.val ∧ win1_1.index t 1 = 0)

/-- The input's buffer just fetched at point `t`, read at a column that lies inside the table: the table's entry. -/
theorem fetched1_apply (c : Dev nD) (t : Fin cfg1.N) (d : S32x16384.Idx → Elt F .f32) (e : Fin 32) (k : Fin 16384)
    (hk : 16384 * t.val + k.val < 1000000) :
    (rdat1 (F := F) V O B c).fetched 0 t d (ix2 e k) = V c main_v2 (ix2 e (⟨16384 * t.val + k.val, hk⟩ : Fin 1000000)) := by
  obtain ⟨i0, i1, x0, x1, -, -⟩ := idx_facts1 t
  have hm : ∀ a, ((ix2 e k : S32x16384.Idx) a).val < win1_0.xsize (grid1.coords t) a := fun a => by
    match a with
    | ⟨0, _⟩ => show e.val < win1_0.xsize (grid1.coords t) 0; rw [x0]; exact e.isLt
    | ⟨1, _⟩ => show k.val < win1_0.xsize (grid1.coords t) 1; rw [x1]; have := k.isLt; omega
  unfold RDat.fetched Window.fill
  rw [dif_pos ((win1_0.moved_iff _ _).mpr hm)]
  show V c main_v2 _ = V c main_v2 _
  congr 1
  funext a; refine Fin.ext ?_
  match a with
  | ⟨0, _⟩ =>
    show win1_0.index t 0 * 32 + 1 * e.val = e.val
    rw [i0]; omega
  | ⟨1, _⟩ =>
    show win1_0.index t 1 * 16384 + 1 * k.val = 16384 * t.val + k.val
    rw [i1]; omega

/-- A buffer just fetched at point `t` goes, through the body's four transposes, to contents in the relation. -/
theorem wideRel1_out (c : Dev nD) (t : Fin cfg1.N) (d : S32x16384.Idx → Elt F .f32) :
    wideRel1 V c t (out1 ((rdat1 (F := F) V O B c).fetched 0 t d)) := by
  intro r q e hn
  rw [out1_apply _ r q e _ (⟨4096 * q.val + r.val, by omega⟩ : Fin 16384) rfl rfl,
    fetched1_apply V O B c t d e _ (by show 16384 * t.val + (4096 * q.val + r.val) < 1000000; omega)]
  congr 1
  exact congrArg (fun x => ix2 e x) (Fin.ext (by show 16384 * t.val + (4096 * q.val + r.val) = 16384 * t.val + 4096 * q.val + r.val; omega))

/-! ## The body obligation -/

/-- The body at any point, for any contents the input's buffer may then hold (it was just fetched) and any contents of
    the output's: `sound_kernel1` applies; the invariant and the core's tallies pass through unread. -/
theorem sound_body1 (c : Dev nD) (t : Fin cfg1.N) (Y0 : S32x16384.Idx → Elt F .f32) (Y1 : S4096x128.Idx → Elt F .f32)
    (h0 : (rdat1 (F := F) V O B c).Finds 0 t Y0) :
    iprop((rdat1 (F := F) V O B c).Φ t.castSucc ∗ (rdat1 (F := F) V O B c).owesAt none t.castSucc
        ∗ owns (c : Thread nD τ) (st1_0 t) fullShare Y0 ∗ owns (c : Thread nD τ) (st1_1 t) fullShare Y1)
      ⊢ wp frame (wpE (defs₀ (F := F)) Variants.none c none) Set.univ (bodyAt1 t) (fun _ =>
          iprop((rdat1 (F := F) V O B c).Φ t.succ ∗ (rdat1 (F := F) V O B c).owesAt none t.succ
            ∗ (∃ X, ⌜(rdat1 (F := F) V O B c).after 0 t Y0 X⌝ ∗ owns (c : Thread nD τ) (st1_0 t) fullShare X)
            ∗ (∃ X, ⌜(rdat1 (F := F) V O B c).after 1 t Y1 X⌝ ∗ owns (c : Thread nD τ) (st1_1 t) fullShare X))) := by
  rw [(rdat1 (F := F) V O B c).finds_of_fetch (fetch1_0 t)] at h0
  obtain ⟨d, rfl⟩ := h0
  rw [show (rdat1 (F := F) V O B c).Φ t.succ = (rdat1 (F := F) V O B c).Φ t.castSucc from rfl,
    show (rdat1 (F := F) V O B c).owesAt none t.succ = (rdat1 (F := F) V O B c).owesAt none t.castSucc from rfl]
  unfold bodyAt1
  iintro ⟨HΦ, Ho, H0, H1⟩
  iapply (sound_kernel1 c Set.univ (grid1.coords t) _ _ _ _ ((rdat1 (F := F) V O B c).fetched 0 t d) _)
  isplitl [H0]; · iexact H0
  isplitl [H1]; · iexists _; iexact H1
  iintro ⟨H0, H1⟩
  isplitl [HΦ]; · iexact HΦ
  isplitl [Ho]; · iexact Ho
  isplitl [H0]
  · iexists _; isplitr; · ipureintro; exact (rfl : (rdat1 (F := F) V O B c).fetched 0 t d = _)
    iexact H0
  · iexists _; isplitr
    swap; · iexact H1
    ipureintro
    exact wideRel1_out V O B c t d

/-- The library's body obligation, at every point and for all contents the buffers may then hold. -/
theorem body_obligation1 (c : Dev nD) :
    (rdat1 (F := F) V O B c).BodyObligation (defs₀ (F := F)) Variants.none (none : HIx 1) Set.univ := fun t Y hY => by
  rw [bigSep_W1, bigSep_W1]
  exact sound_body1 V O B c t (Y 0) (Y 1) (hY 0)

/-! ## The packed table after the write-backs -/

/-- Window 1's block at point `t` is rows `4096·t … 4096·t + 4095` of the packed table, every lane. -/
theorem mem_rect1_1 (t : Fin cfg1.N) (i : S253952x128.Idx) :
    i ∈ (win1_1.rect t).set ↔ 4096 * t.val ≤ (i 0).val ∧ (i 0).val < 4096 * t.val + 4096 := by
  obtain ⟨-, -, -, -, j0, j1⟩ := idx_facts1 t
  rw [Rect.mem_set_unit]
  constructor
  · intro h
    have h0 : win1_1.index t 0 * 4096 ≤ (i 0).val ∧ (i 0).val < win1_1.index t 0 * 4096 + 4096 := h 0
    rw [j0] at h0; omega
  · intro h a
    match a with
    | ⟨0, _⟩ =>
      show win1_1.index t 0 * 4096 ≤ (i 0).val ∧ (i 0).val < win1_1.index t 0 * 4096 + 4096
      rw [j0]; omega
    | ⟨1, _⟩ =>
      show win1_1.index t 1 * 128 ≤ (i 1).val ∧ (i 1).val < win1_1.index t 1 * 128 + 128
      rw [j1]; have : (i 1).val < 128 := (i 1).isLt; omega

/-- Where window 1's block at point `t` puts its index `(r, l)`: row `4096·t + r`, lane `l`. -/
theorem rect1_1_emb (t : Fin cfg1.N) (r : Fin 4096) (l : Fin 128) (h : 4096 * t.val + r.val < 253952) :
    (win1_1.rect t).emb (ix2 r l : S4096x128.Idx) = ix2 (⟨4096 * t.val + r.val, h⟩ : Fin 253952) l := by
  obtain ⟨-, -, -, -, j0, j1⟩ := idx_facts1 t
  funext a; refine Fin.ext ?_
  match a with
  | ⟨0, _⟩ => show win1_1.index t 0 * 4096 + 1 * r.val = 4096 * t.val + r.val; rw [j0]; omega
  | ⟨1, _⟩ => show win1_1.index t 1 * 128 + 1 * l.val = l.val; rw [j1]; omega

/-- The packed table carries the transposed table on the lanes of every table row below `16384·m`. -/
def WideUpTo1 (c : Dev nD) (m : Nat) (f : S253952x128.Idx → Elt F .f32) : Prop :=
  ∀ (n : Fin 1000000) (e : Fin 32), n.val < 16384 * m →
    f (ix2 (Cert.Packed.wideRow n.val n.isLt) (Cert.Packed.wideLane n.val e)) = V c main_v2 (ix2 e n)

/-- One write-back: the block written at point `m` holds table rows `16384·m …`, in the relation the body leaves, and
    lies past the packed rows of every earlier table row, which it therefore keeps. -/
theorem step_wide1 (c : Dev nD) (m : Nat) (hlt : m < cfg1.N) (G₀ : S253952x128.Idx → Elt F .f32) (X : S4096x128.Idx → Elt F .f32)
    (ih : WideUpTo1 V c m G₀) (hrel : wideRel1 V c ⟨m, hlt⟩ X) :
    WideUpTo1 V c (m + 1) (((View.whole main_v3).slice (win1_1.rect ⟨m, hlt⟩)).write (Elt F) G₀
      (fun j => X (win1_1.xinj (grid1.coords ⟨m, hlt⟩) j)) Finset.univ) := by
  have h62 : m < 62 := by rw [show cfg1.N = 62 from N_1] at hlt; exact hlt
  intro n e hn
  have hn' := n.isLt
  by_cases hb : 16384 * m ≤ n.val
  · -- the table row is in the block written at point `m`
    have hr : 4096 * m + n.val % 4096 < 253952 := by omega
    have hI : (ix2 (Cert.Packed.wideRow n.val n.isLt) (Cert.Packed.wideLane n.val e) : S253952x128.Idx)
        = (win1_1.rect ⟨m, hlt⟩).emb (ix2 (⟨n.val % 4096, by omega⟩ : Fin 4096) (Cert.Packed.wideLane n.val e) : S4096x128.Idx) :=
      (congrArg (fun x => ix2 x (Cert.Packed.wideLane n.val e))
        (Fin.ext (by show 4096 * (n.val / 16384) + n.val % 4096 = 4096 * m + n.val % 4096; omega))).trans
        (rect1_1_emb ⟨m, hlt⟩ ⟨n.val % 4096, by omega⟩ (Cert.Packed.wideLane n.val e) hr).symm
    have hq : 16384 * m + 4096 * ((n.val / 4096) % 4) + n.val % 4096 < 1000000 := by omega
    rw [hI, write_slice_whole_emb]
    refine (hrel ⟨n.val % 4096, by omega⟩ ⟨(n.val / 4096) % 4, by omega⟩ e hq).trans ?_
    congr 1
    exact congrArg (fun x => ix2 e x) (Fin.ext (by show 16384 * m + 4096 * ((n.val / 4096) % 4) + n.val % 4096 = n.val; omega))
  · -- the table row was written at an earlier point, and this block lies past its packed row
    have hnot : (ix2 (Cert.Packed.wideRow n.val n.isLt) (Cert.Packed.wideLane n.val e) : S253952x128.Idx)
        ∉ (win1_1.rect ⟨m, hlt⟩).set := by
      rw [mem_rect1_1]
      show ¬ (4096 * m ≤ 4096 * (n.val / 16384) + n.val % 4096 ∧ 4096 * (n.val / 16384) + n.val % 4096 < 4096 * m + 4096)
      omega
    rw [write_slice_whole_of_not_mem (b := main_v3) (win1_1.rect ⟨m, hlt⟩) _ _ _ hnot]
    exact ih n e (by omega)

/-- After the write-backs of the points below `m` the packed table carries table rows `0 … 16384·m − 1`. -/
theorem arrAt_wide1 (c : Dev nD) : ∀ (m : Nat), m ≤ 62 → ∀ f, (rdat1 (F := F) V O B c).ArrAt 1 m f → WideUpTo1 V c m f
  | 0, _, f, _ => fun n e hn => absurd hn (by omega)
  | m + 1, hm, f, h => by
    have hlt : m < cfg1.N := by rw [show cfg1.N = 62 from N_1]; omega
    have hstep : (rdat1 (F := F) V O B c).ArrStep 1 ⟨m, hlt⟩ ((rdat1 (F := F) V O B c).ArrAt 1 m) f := by
      have h' := h
      unfold RDat.ArrAt at h'
      simp only [dif_pos hlt, if_pos (flush1_1 ⟨m, hlt⟩)] at h'
      exact h'
    obtain ⟨G₀, X, hG₀, ⟨Y, -, hrel⟩, hf⟩ := hstep
    subst hf
    exact step_wide1 V c m hlt G₀ X (arrAt_wide1 c m (by omega) G₀ hG₀) hrel

/-- After the region, the packed table carries every table row. -/
theorem wide_of_arrAt1 (c : Dev nD) (f : Buf (Elt F) ((cfg1.win 1).arr.view.loc (c.tc : Thread nD τ)))
    (h : (rdat1 (F := F) V O B c).ArrAt 1 cfg1.N f) :
    ∀ (n : Fin 1000000) (e : Fin 32),
      f (ix2 (Cert.Packed.wideRow n.val n.isLt) (Cert.Packed.wideLane n.val e)) = V c main_v2 (ix2 e n) := by
  rw [show cfg1.N = 62 from N_1] at h
  exact fun n e => arrAt_wide1 V O B c 62 le_rfl f h n e (by have := n.isLt; omega)

/-- So, the region's input being the embedding table transposed, the packed table it leaves carries the table. -/
theorem wideOK_of_arrAt1 (c : Dev nD) (f : Buf (Elt F) ((cfg1.win 1).arr.view.loc (c.tc : Thread nD τ)))
    (h : (rdat1 (F := F) V O B c).ArrAt 1 cfg1.N f)
    (hT : V c main_v2 = transpose S32x1000000 [1, 0] (V c main_arg3) transposes_S1000000x32_S32x1000000_1_0) :
    Cert.Packed.WideOK (V c main_arg3) f := by
  intro n d
  rw [wide_of_arrAt1 V O B c f h n d, hT]
  exact transpose_apply _ _ _ (ix2 d n) (ix2 n d) fun b => by match b with | ⟨0, _⟩ => rfl | ⟨1, _⟩ => rfl

end Cert.KernelIdeal.TcSide

end
-- ==== Proof.ScSideDefs.lean ====
/-
  The one SparseCore call as the launch theorem's hand-over record sees it.

  Tile (c, s) — SparseCore c, vector subcore s — works on the 128 batch entries [256·s + 128·c, +128). It is handed a
  read share of each of the four tables (the two packed embedding tables, known only up to the lanes that come from real
  rows, and the two flat bias tables), its own 128 entries of the two id arrays, and its own rows of the three results
  at whatever they hold. It hands back its entries of the id arrays unchanged and its rows of the results at their
  values: the packed rows its ids name (said through the embedding tables themselves, on the lanes that matter) and the
  bias sums. A SparseCore's hand-over is the sixteen tiles' side by side, so the split among the tiles is the identity.
-/
import proofs.«203700_g68710886802180_cont_9to1c4b_800_29_alg».proof.Proof.LaunchSetupIdeal
import proofs.«203700_g68710886802180_cont_9to1c4b_800_29_alg».proof.Proof.Packed
import Idealize.ShloMosaic.Lib.SparseCore.Launch
import Idealize.ShloMosaic.Lib.Transfers
import Idealize.ShloMosaic.Lib.Tactic

noncomputable section

namespace Cert.KernelIdeal.ScSide

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

variable {F : FTy → Type}

local notation "𝕄" => MT nD τ sig (HIx 1) (Elt F) ℕ UU ℕ

/-! ## Places, arrays, and a tile's part of each -/

/-- A tile's grid coordinates from its SparseCore and its vector subcore. -/
def coordsV (c : Fin (grid2.bound 0)) (s : Fin (grid2.bound 1)) : grid2.Coords :=
  fun | 0 => c | 1 => s | ⟨_ + 2, h⟩ => absurd h (Nat.not_lt.2 (Nat.le_add_left _ _))

/-- An array of @main, as a location of device `d`. -/
abbrev tcLoc (d : Dev nD) (b : Ref sig .tc) : Loc nD τ sig := (SparseCore.T d).loc b

/-- The first batch entry of the tile at `L`. -/
def tbase (L : grid2.Coords) : Nat := 256 * (L 1).val + 128 * (L 0).val

/-- The tile's 128 entries of a [4096] array, and its 128 rows of a [4096, 128] array. -/
abbrev idRect (L : grid2.Coords) : Rect S4096 := Rect.unit (s := S4096) (k2_off1 L) S128.size (k2_off1_inb L)
abbrev rowRect (L : grid2.Coords) : Rect S4096x128 := Rect.unit (s := S4096x128) (k2_off2 L) S128x128.size (k2_off2_inb L)

/-- The read share of a table that goes to tile (c, s): the full share dealt to the two SparseCores, each part to
    its sixteen tiles. -/
def rsh (c : Fin 2) (s : Fin 16) : PosShare TreeShare := Transfers.shareTok (Transfers.shareTok fullShare 2 c) 16 s

variable (m : (ℓ : Loc nD τ sig) → Buf (Elt F) ℓ)

/-- Rows [tbase, tbase + 128) of a result hold, on the quarter each id selects, the embedding row the id names. -/
def RowsOK (ids : IVec Cert.Packed.SIds 32) (e : FVec F Cert.Packed.SEmb .f32) (L : grid2.Coords) (g : FVec F Cert.Packed.SRows .f32) : Prop :=
  ∀ (b : Fin 4096), tbase L ≤ b.val → b.val < tbase L + 128 →
    ∀ d : Fin 32, g (ix2 b (wideLane (ids (ix1 b)).toNat d)) = e (ix2 (rowOf (ids (ix1 b))) d)

/-- What a tile is handed. -/
def tileIn (d : Dev nD) (L : grid2.Coords) (q : PosShare TreeShare) : sProp 𝕄 :=
  iprop((∃ w, ⌜WideOK (m (tcLoc d main_arg2)) w⌝ ∗ tcLoc d main_v1 ↦{q} w)
    ∗ (∃ w, ⌜WideOK (m (tcLoc d main_arg3)) w⌝ ∗ tcLoc d main_v3 ↦{q} w)
    ∗ (tcLoc d main_arg0 ↦[(idRect L).set]{fullShare} m (tcLoc d main_arg0))
    ∗ (tcLoc d main_arg1 ↦[(idRect L).set]{fullShare} m (tcLoc d main_arg1))
    ∗ (∃ b, ⌜FlatOf (m (tcLoc d main_arg4)) b⌝ ∗ tcLoc d main_v4 ↦{q} b)
    ∗ (∃ b, ⌜FlatOf (m (tcLoc d main_arg5)) b⌝ ∗ tcLoc d main_v5 ↦{q} b)
    ∗ (∃ f, tcLoc d main_v6_0 ↦[(rowRect L).set]{fullShare} f)
    ∗ (∃ f, tcLoc d main_v6_1 ↦[(rowRect L).set]{fullShare} f)
    ∗ (∃ f, tcLoc d main_v6_2 ↦[(idRect L).set]{fullShare} f))

/-- What a tile hands back. -/
def tileOut [FloatOps F] (d : Dev nD) (L : grid2.Coords) : sProp 𝕄 :=
  iprop((tcLoc d main_arg0 ↦[(idRect L).set]{fullShare} m (tcLoc d main_arg0))
    ∗ (tcLoc d main_arg1 ↦[(idRect L).set]{fullShare} m (tcLoc d main_arg1))
    ∗ (∃ g, ⌜RowsOK (m (tcLoc d main_arg0)) (m (tcLoc d main_arg2)) L g⌝ ∗ tcLoc d main_v6_0 ↦[(rowRect L).set]{fullShare} g)
    ∗ (∃ g, ⌜RowsOK (m (tcLoc d main_arg1)) (m (tcLoc d main_arg3)) L g⌝ ∗ tcLoc d main_v6_1 ↦[(rowRect L).set]{fullShare} g)
    ∗ (tcLoc d main_v6_2 ↦[(idRect L).set]{fullShare}
        biasRow (m (tcLoc d main_arg0)) (m (tcLoc d main_arg1)) (m (tcLoc d main_arg4)) (m (tcLoc d main_arg5))))

instance tileIn_storable (d : Dev nD) (L : grid2.Coords) (q : PosShare TreeShare) : BI.Storable (upEmb : UEmb _ 𝕄) (tileIn m d L q) := by
  unfold tileIn; infer_instance
instance tileOut_storable [FloatOps F] (d : Dev nD) (L : grid2.Coords) : BI.Storable (upEmb : UEmb _ 𝕄) (tileOut m d L) := by
  unfold tileOut; infer_instance

/-! ## The hand-over record -/

/-- The coordinates of tile `(c, s)` of the call's grid. -/
abbrev tL (c : Fin ((K (F := F)).nCore 0)) (s : Fin ((K (F := F)).nSub 0)) : grid2.Coords :=
  coordsV (Fin.cast nCore_zero c) (Fin.cast nSub_zero s)
abbrev tQ (c : Fin ((K (F := F)).nCore 0)) (s : Fin ((K (F := F)).nSub 0)) : PosShare TreeShare :=
  rsh (Fin.cast nCore_zero c) (Fin.cast nSub_zero s)

variable [FloatOps F]

/-- The one call: a SparseCore takes its sixteen tiles' parts and brings their results back; the kernel's proof
    consumes nothing of the launch's. -/
def P : (K (F := F)).Pay (nD := nD) (Val := Elt F) (Name := ℕ) (U := UU) where
  st := fun q d c => match q with | 0 => bigSep Finset.univ fun s : Fin ((K (F := F)).nSub 0) => tileIn m d (tL c s) (tQ c s)
  dn := fun q d c => match q with | 0 => bigSep Finset.univ fun s : Fin ((K (F := F)).nSub 0) => tileOut m d (tL c s)
  go := fun q d c s => match q with | 0 => tileIn m d (tL c s) (tQ c s)
  td := fun q d c s => match q with | 0 => tileOut m d (tL c s)
  x := fun _ _ => iprop(emp)

theorem P_st (d : Dev nD) (c : Fin ((K (F := F)).nCore 0)) :
    (P m).st 0 d c = bigSep Finset.univ fun s : Fin ((K (F := F)).nSub 0) => tileIn m d (tL c s) (tQ c s) := rfl
theorem P_dn (d : Dev nD) (c : Fin ((K (F := F)).nCore 0)) :
    (P m).dn 0 d c = bigSep Finset.univ fun s : Fin ((K (F := F)).nSub 0) => tileOut m d (tL c s) := rfl
theorem P_go (d : Dev nD) (c : Fin ((K (F := F)).nCore 0)) (s : Fin ((K (F := F)).nSub 0)) :
    (P m).go 0 d c s = tileIn m d (tL c s) (tQ c s) := rfl
theorem P_td (d : Dev nD) (c : Fin ((K (F := F)).nCore 0)) (s : Fin ((K (F := F)).nSub 0)) :
    (P m).td 0 d c s = tileOut m d (tL c s) := rfl
theorem P_x (q : Fin 1) (thr : Thread nD τ) : (P m).x q thr = iprop(emp) := rfl

instance P_storable : (P (F := F) m).IsStorable where
  st q d c := match q with | 0 => by rw [P_st]; infer_instance
  dn q d c := match q with | 0 => by rw [P_dn]; infer_instance
  go q d c s := match q with | 0 => by rw [P_go]; infer_instance
  td q d c s := match q with | 0 => by rw [P_td]; infer_instance

/-- A SparseCore's operands are its tiles' side by side, and its results theirs. -/
theorem vecSplit : (K (F := F)).VecSplit' (P m) 0 := by
  intro d c
  rw [P_st, P_dn]
  iintro H
  imodintro
  isplitl [H]
  · iexact H
  · iintro H; iexact H

end Cert.KernelIdeal.ScSide

end
-- ==== Proof.ScSideHand.lean ====
/-
  Handing the SparseCore call its operands and taking its results back.

  The thirty-two tiles — SparseCore `c < 2`, vector subcore `s < 16` — cut the batch [0, 4096) into the thirty-two
  intervals [256·s + 128·c, +128): pairwise disjoint, and together everything. So an id array, or a result, held whole
  is the tiles' parts side by side, and the parts brought back make the whole again; a table every tile only reads is
  dealt out as read shares, first to the two SparseCores, then to each one's sixteen tiles.
-/
import proofs.«203700_g68710886802180_cont_9to1c4b_800_29_alg».proof.Proof.ScSideDefs
import Idealize.ShloMosaic.Rules.PointsTo

noncomputable section

namespace Cert.KernelIdeal.ScSide

open Cert.KernelIdeal Cert.KernelIdeal.Gen Cert.KernelIdeal.Setup

open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Packed (WideOK PackedOK FlatOf biasRow rowOf wideRow wideLane)

variable {F : FTy → Type}

local notation "𝕄" => MT nD τ sig (HIx 1) (Elt F) ℕ UU ℕ

/-! ## Which tile owns which batch entries -/

/-- A tile, by its SparseCore and its vector subcore. -/
abbrev Tile : Type := Fin 2 × Fin 16

/-- Its coordinates. -/
abbrev tco (t : Tile) : grid2.Coords := coordsV t.1 t.2

theorem tbase_tco (t : Tile) : tbase (tco t) = 256 * t.2.val + 128 * t.1.val := rfl

theorem mem_idRect (L : grid2.Coords) (x : S4096.Idx) :
    x ∈ (idRect L).set ↔ tbase L ≤ (x 0).val ∧ (x 0).val < tbase L + 128 := by
  unfold idRect
  rw [Rect.mem_set_unit]
  constructor
  · intro h; have h0 := h 0; rw [k2_off1_eq] at h0; exact h0
  · intro h a
    match a with
    | ⟨0, _⟩ => rw [k2_off1_eq]; exact h

theorem mem_rowRect (L : grid2.Coords) (x : S4096x128.Idx) :
    x ∈ (rowRect L).set ↔ tbase L ≤ (x 0).val ∧ (x 0).val < tbase L + 128 := by
  unfold rowRect
  rw [Rect.mem_set_unit]
  constructor
  · intro h; have h0 := h 0; rw [k2_off2_eq] at h0; exact h0
  · intro h a
    match a with
    | ⟨0, _⟩ => rw [k2_off2_eq]; exact h
    | ⟨1, _⟩ => rw [k2_off2_eq]; exact ⟨Nat.zero_le _, by have := (x 1).isLt; simpa using this⟩

/-- The tile that owns batch entry `v`. -/
def owner (v : Nat) (h : v < 4096) : Tile := (⟨(v % 256) / 128, by omega⟩, ⟨v / 256, by omega⟩)

theorem owner_spec (v : Nat) (h : v < 4096) : tbase (tco (owner v h)) ≤ v ∧ v < tbase (tco (owner v h)) + 128 := by
  rw [tbase_tco]; simp only [owner]; omega

theorem tiles_sep {t t' : Tile} (h : t ≠ t') :
    tbase (tco t) + 128 ≤ tbase (tco t') ∨ tbase (tco t') + 128 ≤ tbase (tco t) := by
  rw [tbase_tco, tbase_tco]
  obtain ⟨c, s⟩ := t; obtain ⟨c', s'⟩ := t'
  have : c.val ≠ c'.val ∨ s.val ≠ s'.val := by
    by_contra hn; push Not at hn
    exact h (Prod.ext (Fin.ext hn.1) (Fin.ext hn.2))
  have := c.isLt; have := c'.isLt
  simp only; omega

theorem ids_disjoint : ∀ t ∈ (Finset.univ : Finset Tile), ∀ t' ∈ (Finset.univ : Finset Tile), t ≠ t' →
    Disjoint (idRect (tco t)).set (idRect (tco t')).set := by
  intro t _ t' _ h
  rw [Finset.disjoint_left]; intro x hx hx'
  rw [mem_idRect] at hx hx'
  rcases tiles_sep h with h1 | h1 <;> omega

theorem rows_disjoint : ∀ t ∈ (Finset.univ : Finset Tile), ∀ t' ∈ (Finset.univ : Finset Tile), t ≠ t' →
    Disjoint (rowRect (tco t)).set (rowRect (tco t')).set := by
  intro t _ t' _ h
  rw [Finset.disjoint_left]; intro x hx hx'
  rw [mem_rowRect] at hx hx'
  rcases tiles_sep h with h1 | h1 <;> omega

theorem ids_cover : (Finset.univ : Finset Tile).biUnion (fun t => (idRect (tco t)).set) = Finset.univ := by
  ext x; simp only [Finset.mem_biUnion, Finset.mem_univ, true_and, iff_true]
  exact ⟨owner (x 0).val (x 0).isLt, (mem_idRect _ _).2 (owner_spec _ _)⟩

theorem rows_cover : (Finset.univ : Finset Tile).biUnion (fun t => (rowRect (tco t)).set) = Finset.univ := by
  ext x; simp only [Finset.mem_biUnion, Finset.mem_univ, true_and, iff_true]
  exact ⟨owner (x 0).val (x 0).isLt, (mem_rowRect _ _).2 (owner_spec _ _)⟩

/-! ## Whole buffers as the tiles' parts; tables as the tiles' read shares -/

theorem arg0_parts (d : Dev nD) (f : Buf (Elt F) (tcLoc d main_arg0)) :
    (tcLoc d main_arg0 ↦{fullShare} f : sProp 𝕄) = bigSep Finset.univ fun t : Tile => tcLoc d main_arg0 ↦[(idRect (tco t)).set]{fullShare} f := by
  rw [← pointsTo_biUnion Finset.univ (ℓ := tcLoc d main_arg0) (fun t : Tile => (idRect (tco t)).set) ids_disjoint, ids_cover]; try rfl
theorem arg1_parts (d : Dev nD) (f : Buf (Elt F) (tcLoc d main_arg1)) :
    (tcLoc d main_arg1 ↦{fullShare} f : sProp 𝕄) = bigSep Finset.univ fun t : Tile => tcLoc d main_arg1 ↦[(idRect (tco t)).set]{fullShare} f := by
  rw [← pointsTo_biUnion Finset.univ (ℓ := tcLoc d main_arg1) (fun t : Tile => (idRect (tco t)).set) ids_disjoint, ids_cover]; try rfl
theorem bias_parts (d : Dev nD) (f : Buf (Elt F) (tcLoc d main_v6_2)) :
    (tcLoc d main_v6_2 ↦{fullShare} f : sProp 𝕄) = bigSep Finset.univ fun t : Tile => tcLoc d main_v6_2 ↦[(idRect (tco t)).set]{fullShare} f := by
  rw [← pointsTo_biUnion Finset.univ (ℓ := tcLoc d main_v6_2) (fun t : Tile => (idRect (tco t)).set) ids_disjoint, ids_cover]; try rfl
theorem out0_parts (d : Dev nD) (f : Buf (Elt F) (tcLoc d main_v6_0)) :
    (tcLoc d main_v6_0 ↦{fullShare} f : sProp 𝕄) = bigSep Finset.univ fun t : Tile => tcLoc d main_v6_0 ↦[(rowRect (tco t)).set]{fullShare} f := by
  rw [← pointsTo_biUnion Finset.univ (ℓ := tcLoc d main_v6_0) (fun t : Tile => (rowRect (tco t)).set) rows_disjoint, rows_cover]; try rfl
theorem out1_parts (d : Dev nD) (f : Buf (Elt F) (tcLoc d main_v6_1)) :
    (tcLoc d main_v6_1 ↦{fullShare} f : sProp 𝕄) = bigSep Finset.univ fun t : Tile => tcLoc d main_v6_1 ↦[(rowRect (tco t)).set]{fullShare} f := by
  rw [← pointsTo_biUnion Finset.univ (ℓ := tcLoc d main_v6_1) (fun t : Tile => (rowRect (tco t)).set) rows_disjoint, rows_cover]; try rfl

/-- A table held whole, dealt out as the thirty-two tiles' read shares (what is left over is dropped). -/
theorem table_shares {ℓ : Loc nD τ sig} (f : Buf (Elt F) ℓ) :
    (ℓ ↦{fullShare} f : sProp 𝕄) ⊢ bigSep (Finset.univ : Finset Tile) fun t => ℓ ↦{rsh t.1 t.2} f := by
  rw [bigSep_univ_prod (fun t : Tile => (ℓ ↦{rsh t.1 t.2} f : sProp 𝕄))]
  refine (Transfers.pointsTo_toks_split fullShare 2).trans (sep_elim_right.trans ?_)
  exact bigSep_mono fun c _ => (Transfers.pointsTo_toks_split _ 16).trans sep_elim_right

/-- The hand-over record's sum over the call's grid is a sum over tiles. -/
theorem bigSep_tiles (Φ : grid2.Coords → PosShare TreeShare → sProp 𝕄) :
    (bigSep Finset.univ fun c : Fin ((K (F := F)).nCore 0) => bigSep Finset.univ fun s : Fin ((K (F := F)).nSub 0) => Φ (tL c s) (tQ c s))
      = bigSep (Finset.univ : Finset Tile) fun t => Φ (tco t) (rsh t.1 t.2) := by
  rw [bigSep_univ_prod (fun t : Tile => Φ (tco t) (rsh t.1 t.2))]; rfl

/-- A witness and its property. -/
theorem ex_pure_intro {α : Type} (φ : α → Prop) (Ψ : α → sProp 𝕄) (a : α) (h : φ a) : Ψ a ⊢ iprop(∃ x, ⌜φ x⌝ ∗ Ψ x) := by
  iintro H; iexists a; isplitr
  · ipureintro; exact h
  · iexact H
theorem ex_intro' {α : Type} (Ψ : α → sProp 𝕄) (a : α) : Ψ a ⊢ iprop(∃ x, Ψ x) := by
  iintro H; iexists a; iexact H

variable [FloatOps F] (m : (ℓ : Loc nD τ sig) → Buf (Elt F) ℓ)

/-! ## The operands in -/

theorem st_intro (d : Dev nD)
    (w1 : Buf (Elt F) (tcLoc d main_v1)) (w3 : Buf (Elt F) (tcLoc d main_v3))
    (b4 : Buf (Elt F) (tcLoc d main_v4)) (b5 : Buf (Elt F) (tcLoc d main_v5))
    (hw1 : WideOK (m (tcLoc d main_arg2)) w1) (hw3 : WideOK (m (tcLoc d main_arg3)) w3)
    (h4 : FlatOf (m (tcLoc d main_arg4)) b4) (h5 : FlatOf (m (tcLoc d main_arg5)) b5) :
    (iprop((tcLoc d main_v1 ↦{fullShare} w1) ∗ (tcLoc d main_v3 ↦{fullShare} w3)
        ∗ (tcLoc d main_arg0 ↦{fullShare} m (tcLoc d main_arg0)) ∗ (tcLoc d main_arg1 ↦{fullShare} m (tcLoc d main_arg1))
        ∗ (tcLoc d main_v4 ↦{fullShare} b4) ∗ (tcLoc d main_v5 ↦{fullShare} b5)
        ∗ (∃ f, tcLoc d main_v6_0 ↦{fullShare} f) ∗ (∃ f, tcLoc d main_v6_1 ↦{fullShare} f) ∗ (∃ f, tcLoc d main_v6_2 ↦{fullShare} f)) : sProp 𝕄)
      ⊢ bigSep Finset.univ fun c : Fin ((K (F := F)).nCore 0) => (P m).st 0 d c := by
  simp only [P_st]
  rw [bigSep_tiles (F := F) (fun L q => tileIn m d L q)]
  unfold tileIn
  simp only [bigSep_sep']
  iintro ⟨H1, H3, Ha0, Ha1, H4, H5, ⟨%f0, Hf0⟩, ⟨%f1, Hf1⟩, ⟨%f2, Hf2⟩⟩
  isplitl [H1]
  · iapply ((table_shares w1).trans (bigSep_mono fun t _ => ex_pure_intro (fun w => WideOK (m (tcLoc d main_arg2)) w) (fun w => (tcLoc d main_v1 ↦{rsh t.1 t.2} w : sProp 𝕄)) w1 hw1))
    iexact H1
  isplitl [H3]
  · iapply ((table_shares w3).trans (bigSep_mono fun t _ => ex_pure_intro (fun w => WideOK (m (tcLoc d main_arg3)) w) (fun w => (tcLoc d main_v3 ↦{rsh t.1 t.2} w : sProp 𝕄)) w3 hw3))
    iexact H3
  isplitl [Ha0]; · rw [← arg0_parts]; iexact Ha0
  isplitl [Ha1]; · rw [← arg1_parts]; iexact Ha1
  isplitl [H4]
  · iapply ((table_shares b4).trans (bigSep_mono fun t _ => ex_pure_intro (fun b => FlatOf (m (tcLoc d main_arg4)) b) (fun b => (tcLoc d main_v4 ↦{rsh t.1 t.2} b : sProp 𝕄)) b4 h4))
    iexact H4
  isplitl [H5]
  · iapply ((table_shares b5).trans (bigSep_mono fun t _ => ex_pure_intro (fun b => FlatOf (m (tcLoc d main_arg5)) b) (fun b => (tcLoc d main_v5 ↦{rsh t.1 t.2} b : sProp 𝕄)) b5 h5))
    iexact H5
  isplitl [Hf0]
  · iapply ((Entails.of_eq (out0_parts d f0)).trans (bigSep_mono fun t _ => ex_intro' (fun f => (tcLoc d main_v6_0 ↦[(rowRect (tco t)).set]{fullShare} f : sProp 𝕄)) f0))
    iexact Hf0
  isplitl [Hf1]
  · iapply ((Entails.of_eq (out1_parts d f1)).trans (bigSep_mono fun t _ => ex_intro' (fun f => (tcLoc d main_v6_1 ↦[(rowRect (tco t)).set]{fullShare} f : sProp 𝕄)) f1))
    iexact Hf1
  · iapply ((Entails.of_eq (bias_parts d f2)).trans (bigSep_mono fun t _ => ex_intro' (fun f => (tcLoc d main_v6_2 ↦[(idRect (tco t)).set]{fullShare} f : sProp 𝕄)) f2))
    iexact Hf2

/-! ## The results back -/

/-- Rows brought back tile by tile, each right on its own tile's rows, are right on every row. -/
theorem packed_of_tiles {ids : IVec Cert.Packed.SIds 32} {e : FVec F Cert.Packed.SEmb .f32}
    (gs : Tile → FVec F Cert.Packed.SRows .f32) (g : FVec F Cert.Packed.SRows .f32)
    (hR : ∀ t ∈ (Finset.univ : Finset Tile), RowsOK ids e (tco t) (gs t))
    (hg : ∀ t ∈ (Finset.univ : Finset Tile), ∀ i ∈ (rowRect (tco t)).set, g i = gs t i) : PackedOK ids e g := by
  intro b dd
  have hs := owner_spec b.val b.isLt
  have hi : ix2 b (wideLane (ids (ix1 b)).toNat dd) ∈ (rowRect (tco (owner b.val b.isLt))).set := (mem_rowRect _ _).2 hs
  rw [hg _ (Finset.mem_univ _) _ hi]
  exact hR _ (Finset.mem_univ _) b hs.1 hs.2 dd

theorem rows_join0 [∀ e, Nonempty (Elt F e)] (d : Dev nD) (ids : IVec Cert.Packed.SIds 32) (e : FVec F Cert.Packed.SEmb .f32) :
    (bigSep Finset.univ fun t : Tile => iprop(∃ g, ⌜RowsOK ids e (tco t) g⌝ ∗ tcLoc d main_v6_0 ↦[(rowRect (tco t)).set]{fullShare} g))
      ⊢ (iprop(∃ g0, ⌜PackedOK ids e g0⌝ ∗ tcLoc d main_v6_0 ↦{fullShare} g0) : sProp 𝕄) := by
  refine (bigSep_exists_pi Finset.univ (fun (t : Tile) (g : Buf (Elt F) (tcLoc d main_v6_0)) =>
    iprop(⌜RowsOK ids e (tco t) g⌝ ∗ tcLoc d main_v6_0 ↦[(rowRect (tco t)).set]{fullShare} g))).trans ?_
  iintro ⟨%gs, H⟩
  ihave H1 := (bigSep_pure_sep Finset.univ (fun t : Tile => RowsOK ids e (tco t) (gs t))
    (fun t : Tile => (tcLoc d main_v6_0 ↦[(rowRect (tco t)).set]{fullShare} gs t : sProp 𝕄))) $$ H
  icases H1 with ⟨%hR, H⟩
  ihave H2 := (pointsTo_biUnion_join Finset.univ (fun t : Tile => (rowRect (tco t)).set) gs (gs (0, 0)) rows_disjoint) $$ H
  icases H2 with ⟨%g, %hg, Hg⟩
  rw [rows_cover]
  iexists g; isplitr
  · ipureintro; exact packed_of_tiles gs g hR hg
  · iexact Hg

theorem rows_join1 [∀ e, Nonempty (Elt F e)] (d : Dev nD) (ids : IVec Cert.Packed.SIds 32) (e : FVec F Cert.Packed.SEmb .f32) :
    (bigSep Finset.univ fun t : Tile => iprop(∃ g, ⌜RowsOK ids e (tco t) g⌝ ∗ tcLoc d main_v6_1 ↦[(rowRect (tco t)).set]{fullShare} g))
      ⊢ (iprop(∃ g1, ⌜PackedOK ids e g1⌝ ∗ tcLoc d main_v6_1 ↦{fullShare} g1) : sProp 𝕄) := by
  refine (bigSep_exists_pi Finset.univ (fun (t : Tile) (g : Buf (Elt F) (tcLoc d main_v6_1)) =>
    iprop(⌜RowsOK ids e (tco t) g⌝ ∗ tcLoc d main_v6_1 ↦[(rowRect (tco t)).set]{fullShare} g))).trans ?_
  iintro ⟨%gs, H⟩
  ihave H1 := (bigSep_pure_sep Finset.univ (fun t : Tile => RowsOK ids e (tco t) (gs t))
    (fun t : Tile => (tcLoc d main_v6_1 ↦[(rowRect (tco t)).set]{fullShare} gs t : sProp 𝕄))) $$ H
  icases H1 with ⟨%hR, H⟩
  ihave H2 := (pointsTo_biUnion_join Finset.univ (fun t : Tile => (rowRect (tco t)).set) gs (gs (0, 0)) rows_disjoint) $$ H
  icases H2 with ⟨%g, %hg, Hg⟩
  rw [rows_cover]
  iexists g; isplitr
  · ipureintro; exact packed_of_tiles gs g hR hg
  · iexact Hg

theorem dn_elim [∀ e, Nonempty (Elt F e)] (d : Dev nD)
    (hu : ∀ j, (m (tcLoc d main_arg0) j).toNat ≤ 999999) (hi : ∀ j, (m (tcLoc d main_arg1) j).toNat ≤ 999999) :
    (bigSep Finset.univ fun c : Fin ((K (F := F)).nCore 0) => (P m).dn 0 d c)
      ⊢ (iprop((tcLoc d main_arg0 ↦{fullShare} m (tcLoc d main_arg0)) ∗ (tcLoc d main_arg1 ↦{fullShare} m (tcLoc d main_arg1))
        ∗ (∃ g0, ⌜PackedOK (m (tcLoc d main_arg0)) (m (tcLoc d main_arg2)) g0⌝ ∗ tcLoc d main_v6_0 ↦{fullShare} g0)
        ∗ (∃ g1, ⌜PackedOK (m (tcLoc d main_arg1)) (m (tcLoc d main_arg3)) g1⌝ ∗ tcLoc d main_v6_1 ↦{fullShare} g1)
        ∗ (tcLoc d main_v6_2 ↦{fullShare}
            biasRow (m (tcLoc d main_arg0)) (m (tcLoc d main_arg1)) (m (tcLoc d main_arg4)) (m (tcLoc d main_arg5)))) : sProp 𝕄) := by
  simp only [P_dn]
  rw [bigSep_tiles (F := F) (fun L _ => tileOut m d L)]
  unfold tileOut
  simp only [bigSep_sep']
  iintro ⟨Ha0, Ha1, Hg0, Hg1, Hb⟩
  isplitl [Ha0]; · rw [arg0_parts]; iexact Ha0
  isplitl [Ha1]; · rw [arg1_parts]; iexact Ha1
  isplitl [Hg0]; · iapply (rows_join0 d _ _); iexact Hg0
  isplitl [Hg1]; · iapply (rows_join1 d _ _); iexact Hg1
  rw [bias_parts]; iexact Hb

end Cert.KernelIdeal.ScSide

end
-- ==== Proof.StretchADefs.lean ====
/-
  The stretch of @main before the SparseCore call, its vocabulary. The TensorCore starts holding all twenty-one of its
  arrays as launched. The stretch transposes the user table, runs the pipeline that re-lays the transposed table into
  packed rows, does the same for the item table, and flattens the two bias columns. The contents of the held arrays at
  the boundaries are a fold through the three host lines from the launch contents. A packed table is written by its
  pipeline block by block, the last block reaching past the table's end, so what it holds afterwards is known only on
  the lanes that come from rows of the table: from its pipeline on it is carried beside the held arrays, at some contents
  that carry the table, and is no longer read through the fold.
-/
import proofs.«203700_g68710886802180_cont_9to1c4b_800_29_alg».proof.Proof.ThreadStateIdeal
import proofs.«203700_g68710886802180_cont_9to1c4b_800_29_alg».proof.Proof.SidesIdeal
import proofs.«203700_g68710886802180_cont_9to1c4b_800_29_alg».proof.Proof.TcWide0
import proofs.«203700_g68710886802180_cont_9to1c4b_800_29_alg».proof.Proof.TcWide1
import proofs.«203700_g68710886802180_cont_9to1c4b_800_29_alg».proof.Proof.StretchBDefs
import proofs.«203700_g68710886802180_cont_9to1c4b_800_29_alg».proof.Proof.ScSideHand
import Idealize.ShloMosaic.Lib.Pipeline.FrameSuffix
import Idealize.ShloMosaic.Lib.Pipeline.Regions
import Idealize.ShloMosaic.Lib.Pipeline.Value
import Idealize.ShloMosaic.Lib.SparseCore.Threads

set_option maxRecDepth 16384

noncomputable section

namespace Cert.KernelIdeal.StretchA

open Cert.KernelIdeal Cert.KernelIdeal.Gen Cert.KernelIdeal.Setup Cert.KernelIdeal.Hmain Cert.KernelIdeal.TcSide
open Cert.KernelIdeal.StretchB (dv devEmb SR asideRefs RestA Vof)
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.Packed (WideOK FlatOf)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The contents at the four boundaries -/

/-- At the launch. -/
def W0 (d : Dev nD) : Valuation τ sig (Elt F) := fun b => m (d, b)
/-- After the user table's transpose. -/
def W1 (d : Dev nD) : Valuation τ sig (Elt F) := StableHlo.after MainSplit.opsT0 (W0 m d)
/-- After the item table's transpose (the first packed table, which region 0 has written meanwhile, is not read
    through this fold: it is carried beside the held arrays from there on). -/
def W2 (d : Dev nD) : Valuation τ sig (Elt F) := StableHlo.after MainSplit.opsT1 (W1 m d)
/-- After the two bias columns are flattened: what the stretch keeps aside for the stretch after the call. -/
def W3 (d : Dev nD) : Valuation τ sig (Elt F) := StableHlo.after MainSplit.opsFlat (W2 m d)

/-! ## The arrays held -/

/-- Every array of @main. -/
def refs0 : Finset (Ref sig .tc) :=
  {main_arg0, main_arg1, main_arg2, main_arg3, main_arg4, main_arg5, main_v0, main_v1, main_v2, main_v3, main_v4, main_v5,
    main_v6_0, main_v6_1, main_v6_2, main_v7, main_v8, main_v9, main_v10, main_v11, main_v12}
/-- All but the first packed table. -/
def refs1 : Finset (Ref sig .tc) :=
  {main_arg0, main_arg1, main_arg2, main_arg3, main_arg4, main_arg5, main_v0, main_v2, main_v3, main_v4, main_v5,
    main_v6_0, main_v6_1, main_v6_2, main_v7, main_v8, main_v9, main_v10, main_v11, main_v12}
/-- All but the two packed tables. -/
def refs2 : Finset (Ref sig .tc) :=
  {main_arg0, main_arg1, main_arg2, main_arg3, main_arg4, main_arg5, main_v0, main_v2, main_v4, main_v5,
    main_v6_0, main_v6_1, main_v6_2, main_v7, main_v8, main_v9, main_v10, main_v11, main_v12}

def S0 : Finset (DevRef τ sig) := refs0.map devEmb
def S1 : Finset (DevRef τ sig) := refs1.map devEmb
def S2 : Finset (DevRef τ sig) := refs2.map devEmb

/-! ## The proof data -/

/-- Relational proof data for a pipeline the stretch never enters: nothing is said of it. -/
def idleR (cfg : Pipeline.Cfg sig Λ₀) (c : Dev nD) : RDat τ (Elt F) (HIx 1) ℕ UU ℕ cfg c where
  A _ := fun _ => Classical.arbitrary _
  after _ _ := fun _ _ => True
  Φ _ := iprop(emp)
  q _ := fullShare
  owed _ := (K (F := F)).Otc c 0

/-- The proof data of the four pipelines, the two this stretch enters at their regions' entry contents. -/
def rdatsA : RDats (F := F)
  | ⟨0, _⟩ => fun c => rdat0 (Vof (W1 m)) ((K (F := F)).Otc c 0) (Bnd (F := F) c 0) c
  | ⟨1, _⟩ => fun c => rdat1 (Vof (W2 m)) ((K (F := F)).Otc c 0) (Bnd (F := F) c 0) c
  | ⟨2, _⟩ => fun c => idleR cfg3 c
  | ⟨3, _⟩ => fun c => idleR cfg4 c

/-! ## The thread states -/

/-- The first packed table once region 0 has written it: at some contents that carry the user table. -/
def Wide1 (d : Dev nD) : sProp 𝕄 := iprop(∃ w, ⌜WideOK (m (tloc d main_arg2)) w⌝ ∗ tloc d main_v1 ↦{fullShare} w)
/-- The second packed table once region 1 has written it: at some contents that carry the item table. -/
def Wide3 (d : Dev nD) : sProp 𝕄 := iprop(∃ w, ⌜WideOK (m (tloc d main_arg3)) w⌝ ∗ tloc d main_v3 ↦{fullShare} w)

def TA0 (d : Dev nD) : sProp 𝕄 := iprop(StableHlo.held (d.tc : Thread nD τ) S0 (W0 m d) ∗ Ride (F := F) d 0)
def TA1 (d : Dev nD) : sProp 𝕄 := iprop(StableHlo.held (d.tc : Thread nD τ) S0 (W1 m d) ∗ Ride (F := F) d 0)
def RA2 (d : Dev nD) : sProp 𝕄 := iprop(Wide1 m d ∗ Ride (F := F) d 0)
def TA2 (d : Dev nD) : sProp 𝕄 := iprop(StableHlo.held (d.tc : Thread nD τ) S1 (W1 m d) ∗ RA2 m d)
def TA3 (d : Dev nD) : sProp 𝕄 := iprop(StableHlo.held (d.tc : Thread nD τ) S1 (W2 m d) ∗ RA2 m d)
def RA4 (d : Dev nD) : sProp 𝕄 := iprop(Wide3 m d ∗ Wide1 m d ∗ Ride (F := F) d 0)
def TA4 (d : Dev nD) : sProp 𝕄 := iprop(StableHlo.held (d.tc : Thread nD τ) S2 (W2 m d) ∗ RA4 m d)
def TA5 (d : Dev nD) : sProp 𝕄 := iprop(StableHlo.held (d.tc : Thread nD τ) S2 (W3 m d) ∗ RA4 m d)

/-! ## The fold, read at the arrays that matter -/

theorem W0_apply (d : Dev nD) (r : Ref sig .tc) : W0 m d (dv r) = m (tloc d r) := rfl

/-- The transposed user table, and the tables the transpose does not write. -/
theorem W1_main_v0 (d : Dev nD) :
    (W1 m d (dv main_v0) : S32x1000000.Idx → Elt F .f32)
      = transpose S32x1000000 [1, 0] (m (tloc d main_arg2)) transposes_S1000000x32_S32x1000000_1_0 := by
  unfold W1 MainSplit.opsT0; after_results; rfl
theorem W1_main_arg2 (d : Dev nD) : W1 m d (dv main_arg2) = m (tloc d main_arg2) := by
  unfold W1 MainSplit.opsT0; after_results; rfl
theorem W1_main_arg3 (d : Dev nD) : W1 m d (dv main_arg3) = m (tloc d main_arg3) := by
  unfold W1 MainSplit.opsT0; after_results; rfl

/-- The transposed item table. -/
theorem W2_main_v2 (d : Dev nD) :
    (W2 m d (dv main_v2) : S32x1000000.Idx → Elt F .f32)
      = transpose S32x1000000 [1, 0] (m (tloc d main_arg3)) transposes_S1000000x32_S32x1000000_1_0 := by
  unfold W2 MainSplit.opsT1; after_results; rw [W1_main_arg3]
theorem W2_main_arg3 (d : Dev nD) : W2 m d (dv main_arg3) = m (tloc d main_arg3) := by
  unfold W2 W1 MainSplit.opsT1 MainSplit.opsT0; after_results; rfl

/-- No line of the stretch writes an argument array. -/
theorem W3_main_arg0 (d : Dev nD) : W3 m d (dv main_arg0) = m (tloc d main_arg0) := by
  unfold W3 W2 W1 MainSplit.opsFlat MainSplit.opsT1 MainSplit.opsT0; after_results; rfl
theorem W3_main_arg1 (d : Dev nD) : W3 m d (dv main_arg1) = m (tloc d main_arg1) := by
  unfold W3 W2 W1 MainSplit.opsFlat MainSplit.opsT1 MainSplit.opsT0; after_results; rfl
theorem W3_main_arg2 (d : Dev nD) : W3 m d (dv main_arg2) = m (tloc d main_arg2) := by
  unfold W3 W2 W1 MainSplit.opsFlat MainSplit.opsT1 MainSplit.opsT0; after_results; rfl
theorem W3_main_arg3 (d : Dev nD) : W3 m d (dv main_arg3) = m (tloc d main_arg3) := by
  unfold W3 W2 W1 MainSplit.opsFlat MainSplit.opsT1 MainSplit.opsT0; after_results; rfl
theorem W3_main_arg4 (d : Dev nD) : W3 m d (dv main_arg4) = m (tloc d main_arg4) := by
  unfold W3 W2 W1 MainSplit.opsFlat MainSplit.opsT1 MainSplit.opsT0; after_results; rfl
theorem W3_main_arg5 (d : Dev nD) : W3 m d (dv main_arg5) = m (tloc d main_arg5) := by
  unfold W3 W2 W1 MainSplit.opsFlat MainSplit.opsT1 MainSplit.opsT0; after_results; rfl

/-- A [1000000, 1] column flattened is the column read along its one axis. -/
theorem flatOf_shapeCast (col : FVec F S1000000x1 .f32) :
    FlatOf col (shapeCast S1000000 col shapeCasts_S1000000x1_S1000000) := by
  intro n
  refine shapeCast_apply _ _ (ix1 n) (ix2 n (0 : Fin 1)) ?_
  rw [Shape.rowMajor_val_two, Shape.rowMajor_val_one]
  show n.val * 1 + 0 = n.val
  omega

/-- The flattened bias columns. -/
theorem W3_main_v4 (d : Dev nD) : FlatOf (m (tloc d main_arg4)) (W3 m d (dv main_v4)) := by
  have e : (W3 m d (dv main_v4) : S1000000.Idx → Elt F .f32) = shapeCast S1000000 (m (tloc d main_arg4)) shapeCasts_S1000000x1_S1000000 := by
    unfold W3 W2 W1 MainSplit.opsFlat MainSplit.opsT1 MainSplit.opsT0; after_results; rfl
  rw [e]; exact flatOf_shapeCast _
theorem W3_main_v5 (d : Dev nD) : FlatOf (m (tloc d main_arg5)) (W3 m d (dv main_v5)) := by
  have e : (W3 m d (dv main_v5) : S1000000.Idx → Elt F .f32) = shapeCast S1000000 (m (tloc d main_arg5)) shapeCasts_S1000000x1_S1000000 := by
    unfold W3 W2 W1 MainSplit.opsFlat MainSplit.opsT1 MainSplit.opsT0; after_results; rfl
  rw [e]; exact flatOf_shapeCast _

/-! ## The held sets, unpacked -/

/-- A set of @main's arrays held at a valuation, array by array. -/
theorem held_map (d : Dev nD) (R : Finset (Ref sig .tc)) (V : Valuation τ sig (Elt F)) :
    (StableHlo.held (d.tc : Thread nD τ) (R.map devEmb) V : sProp 𝕄)
      = bigSep R fun r => (tloc d r ↦{fullShare} V (dv r) : sProp 𝕄) := by
  unfold StableHlo.held
  rw [bigSep_map]
  rfl

/-- The arrays neither region 0 reads nor writes. -/
abbrev rest0 : Finset (Ref sig .tc) := refs0 \ {main_v0, main_v1}
/-- The arrays, of those left, that region 1 neither reads nor writes. -/
abbrev rest1 : Finset (Ref sig .tc) := refs1 \ {main_v2, main_v3}
/-- The call's operands and results. -/
def callRefs : Finset (Ref sig .tc) := {main_arg0, main_arg1, main_v4, main_v5, main_v6_0, main_v6_1, main_v6_2}

theorem refs0_eq : refs0 = insert main_v0 (insert main_v1 rest0) := by decide
theorem refs1_eq0 : refs1 = insert main_v0 rest0 := by decide
theorem refs1_eq : refs1 = insert main_v2 (insert main_v3 rest1) := by decide
theorem refs2_eq1 : refs2 = insert main_v2 rest1 := by decide
theorem refs2_eq : refs2 = callRefs ∪ asideRefs := by decide
theorem call_aside_disjoint : Disjoint callRefs asideRefs := by decide

/-- Every array, with region 0's two arrays first. -/
theorem held_S0 (d : Dev nD) (V : Valuation τ sig (Elt F)) :
    (StableHlo.held (d.tc : Thread nD τ) S0 V : sProp 𝕄)
      = iprop((tloc d main_v0 ↦{fullShare} V (dv main_v0)) ∗ (tloc d main_v1 ↦{fullShare} V (dv main_v1))
          ∗ bigSep rest0 fun r => (tloc d r ↦{fullShare} V (dv r) : sProp 𝕄)) := by
  rw [show S0 = refs0.map devEmb from rfl, held_map, refs0_eq, bigSep_insert (by decide), bigSep_insert (by decide)]
  rfl
/-- All but the first packed table, with region 0's input array first; -/
theorem held_S1_0 (d : Dev nD) (V : Valuation τ sig (Elt F)) :
    (StableHlo.held (d.tc : Thread nD τ) S1 V : sProp 𝕄)
      = iprop((tloc d main_v0 ↦{fullShare} V (dv main_v0)) ∗ bigSep rest0 fun r => (tloc d r ↦{fullShare} V (dv r) : sProp 𝕄)) := by
  rw [show S1 = refs1.map devEmb from rfl, held_map, refs1_eq0, bigSep_insert (by decide)]
  rfl
/-- the same, with region 1's two arrays first. -/
theorem held_S1 (d : Dev nD) (V : Valuation τ sig (Elt F)) :
    (StableHlo.held (d.tc : Thread nD τ) S1 V : sProp 𝕄)
      = iprop((tloc d main_v2 ↦{fullShare} V (dv main_v2)) ∗ (tloc d main_v3 ↦{fullShare} V (dv main_v3))
          ∗ bigSep rest1 fun r => (tloc d r ↦{fullShare} V (dv r) : sProp 𝕄)) := by
  rw [show S1 = refs1.map devEmb from rfl, held_map, refs1_eq, bigSep_insert (by decide), bigSep_insert (by decide)]
  rfl
/-- All but the two packed tables, with region 1's input array first. -/
theorem held_S2_1 (d : Dev nD) (V : Valuation τ sig (Elt F)) :
    (StableHlo.held (d.tc : Thread nD τ) S2 V : sProp 𝕄)
      = iprop((tloc d main_v2 ↦{fullShare} V (dv main_v2)) ∗ bigSep rest1 fun r => (tloc d r ↦{fullShare} V (dv r) : sProp 𝕄)) := by
  rw [show S2 = refs2.map devEmb from rfl, held_map, refs2_eq1, bigSep_insert (by decide)]
  rfl

end Cert.KernelIdeal.StretchA

end
-- ==== Proof.StretchA.lean ====
/-
  The stretch of @main before the SparseCore call as five segments: the user table's transpose, the first re-laying
  pipeline, the item table's transpose, the second re-laying pipeline, the flattening of the bias columns. Between
  segments the TensorCore holds its arrays at the boundary's contents and, beside them, the packed tables already
  written, the generator register and the handshake debt. A pipeline's two arrays are split out of the held set where its
  region is entered; at the exit the input array goes back as it was and the packed table stays beside the set. The
  pipelines wait on their own staging semaphores at index `none`, level 0, which is below every unit of the debt, so
  the waits are licensed under it. At the end the held arrays are the call's operands and the twelve arrays kept aside.
-/
import proofs.«203700_g68710886802180_cont_9to1c4b_800_29_alg».proof.Proof.StretchADefs
import Idealize.ShloMosaic.Lib.Pipeline.FrameSuffix
import Idealize.ShloMosaic.Lib.Pipeline.Regions
import Idealize.ShloMosaic.Lib.Pipeline.Value
import Idealize.ShloMosaic.Lib.SparseCore.Threads

set_option maxRecDepth 16384

noncomputable section

namespace Cert.KernelIdeal.StretchA

open Cert.KernelIdeal Cert.KernelIdeal.Gen Cert.KernelIdeal.Setup Cert.KernelIdeal.Hmain Cert.KernelIdeal.TcSide
open Cert.KernelIdeal.StretchB (dv devEmb SR asideRefs RestA Vof)
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.Packed (WideOK FlatOf)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The waits under the debt -/

/-- No unit of the handshake debt sits at index `none`. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- So a pipeline may wait on each of its staging semaphores at every point. -/
theorem hwaitsA (p : Fin 4) (c : Dev nD) (howed : ∀ t, (rdatsA m p c).owed t = (K (F := F)).Otc c 0) :
    (levAts (K (F := F)).L (K (F := F)).lev : sProp 𝕄)
      ⊢ Pipeline.RDat.cellsWaits (Pipeline.pin (pcfgs (F := F)) adm) (rdatsA m) (none : HIx 1) p c :=
  Pipeline.RDat.cellsWaits_intro (Pipeline.pin (pcfgs (F := F)) adm) (rdatsA m) (none : HIx 1) p c fun w s t => by
    rw [howed t]
    exact (K (F := F)).mayWait_none _ (Otc_none c 0)

/-! ## The pipelines as segments -/

/-- Region 0's two arrays at the region's entry, as the pipeline holds them. -/
theorem arrays0_in (c : Dev nD) :
    (iprop((tloc c main_v0 ↦{fullShare} W1 m c (dv main_v0)) ∗ (tloc c main_v1 ↦{fullShare} W1 m c (dv main_v1)) : sProp 𝕄))
      ⊢ (rdatsA m 0 c).arrays (rdatsA m 0 c).A := by
  rw [Pipeline.RDat.arrays_eq (pcfgs (F := F)) adm (rdatsA m) 0 c launch0.arr_whole (fun w => by
    match w with | ⟨0, _⟩ => rfl | ⟨1, _⟩ => rfl), bigSep_W0]
  exact .rfl

/-- What region 0 leaves in its output array carries the table. -/
theorem wide0_of_exit (c : Dev nD) (f : Buf (Elt F) (tloc c main_v1)) (h : (rdatsA m 0 c).ArrAt 1 cfg0.N f) :
    WideOK (m (tloc c main_arg2)) f := by
  have := wideOK_of_arrAt0 (Vof (W1 m)) ((K (F := F)).Otc c 0) (Bnd (F := F) c 0) c f h
    (by show W1 m c (dv main_v0) = transpose S32x1000000 [1, 0] (W1 m c (dv main_arg2)) transposes_S1000000x32_S32x1000000_1_0
        rw [W1_main_v0, W1_main_arg2])
  rwa [show Vof (W1 m) c main_arg2 = m (tloc c main_arg2) from W1_main_arg2 m c] at this

/-- Region 0's two arrays at the region's exit: the input as it was, the packed table at contents that carry the table. -/
theorem arrays0_out (c : Dev nD) :
    ((rdatsA m 0 c).arraysAt (Pipeline.pin (pcfgs (F := F)) adm 0).N : sProp 𝕄)
      ⊢ iprop((tloc c main_v0 ↦{fullShare} W1 m c (dv main_v0)) ∗ Wide1 m c) := by
  unfold RDat.arraysAt Wide1
  rw [bigSep_W0]
  iintro ⟨⟨%f0, %h0, H0⟩, ⟨%f1, %h1, H1⟩⟩
  rw [(rdatsA m 0 c).ArrAt_in 0 rfl] at h0
  subst h0
  have e0 : ∀ f, ((tloc c main_v0 ↦[(spec0 0).arr.view.set]{fullShare} f : sProp 𝕄)) = (tloc c main_v0 ↦{fullShare} f) := fun f => by
    rw [(arr_whole0 0).set_eq_univ]
  have e1 : ∀ f, ((tloc c main_v1 ↦[(spec0 1).arr.view.set]{fullShare} f : sProp 𝕄)) = (tloc c main_v1 ↦{fullShare} f) := fun f => by
    rw [(arr_whole0 1).set_eq_univ]
  isplitl [H0]
  · iapply (Entails.of_eq (e0 _)); iexact H0
  iexists f1; isplitr; · ipureintro; exact wide0_of_exit m c f1 h1
  iapply (Entails.of_eq (e1 _)); iexact H1

set_option backward.isDefEq.respectTransparency.types false in
/-- The pipeline of custom call 0 as a segment: entered from the held arrays, left with the input array back among
    them and the packed table beside them at contents that carry the table. The generator register goes into the region
    invariant and comes out; the handshake debt passes through, the pipeline's own waits recorded at level 0. -/
def reg0 : Pipeline.RDat.RegionSeg (pcfgs (F := F)) adm (rdatsA m) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation0 (Vof (W1 m)) ((K (F := F)).Otc c 0) (Bnd (F := F) c 0) c
  hwaits c := hwaitsA m 0 c (fun _ => rfl)
  pre c := TA1 m c
  post c := TA2 m c
  X c := iprop(∃ r, prngReg c r)
  Y c := iprop(∃ r, prngReg c r)
  Z c := iprop((bigSep rest0 fun r => (tloc c r ↦{fullShare} W1 m c (dv r) : sProp 𝕄)))
  hentry c := by
    rw [Pipeline.ownSems0_none]
    unfold TA1 Ride
    rw [held_S0]
    iintro ⟨⟨⟨Hi, Ho, Hrest⟩, Hp, HO⟩, -, -⟩
    imodintro
    isplitl [Hi Ho]
    · iapply (arrays0_in m c)
      isplitl [Hi]; · iexact Hi
      iexact Ho
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitl [Hp]; · iexact Hp
    iexact Hrest
  hin c := by
    rw [show (rdatsA m 0 c).Φ 0 = ΦR spec0 c from rfl]; unfold ΦR
    iintro ⟨Hp, -, Hr⟩
    isplitl [Hr]; · iexact Hr
    iexact Hp
  hout c := by
    rw [Pipeline.ownSems0_none, show (rdatsA m 0 c).Φ (Fin.last _) = ΦR spec0 c from rfl]; unfold ΦR
    iintro ⟨Hr, Hp⟩
    isplitl [Hp]; · iexact Hp
    isplitr; · iempintro
    iexact Hr
  hexit c := by
    unfold TA2 RA2 Ride
    rw [held_S1_0]
    iintro ⟨Harr, HO, HY, Hrest⟩
    ihave H := (arrays0_out m c) $$ Harr
    icases H with ⟨H0, H1⟩
    imodintro
    isplitl [H0 Hrest]
    · isplitl [H0]; · iexact H0
      iexact Hrest
    isplitl [H1]; · iexact H1
    isplitl [HY]; · iexact HY
    iapply (Pipeline.owesWithin_mono c _ (Set.union_subset (Set.Subset.refl _) (waitPairs_sub cfg0 c 0)))
    iexact HO

/-- Region 1's two arrays at the region's entry, as the pipeline holds them. -/
theorem arrays1_in (c : Dev nD) :
    (iprop((tloc c main_v2 ↦{fullShare} W2 m c (dv main_v2)) ∗ (tloc c main_v3 ↦{fullShare} W2 m c (dv main_v3)) : sProp 𝕄))
      ⊢ (rdatsA m 1 c).arrays (rdatsA m 1 c).A := by
  rw [Pipeline.RDat.arrays_eq (pcfgs (F := F)) adm (rdatsA m) 1 c launch1.arr_whole (fun w => by
    match w with | ⟨0, _⟩ => rfl | ⟨1, _⟩ => rfl), bigSep_W1]
  exact .rfl

/-- What region 1 leaves in its output array carries the table. -/
theorem wide1_of_exit (c : Dev nD) (f : Buf (Elt F) (tloc c main_v3)) (h : (rdatsA m 1 c).ArrAt 1 cfg1.N f) :
    WideOK (m (tloc c main_arg3)) f := by
  have := wideOK_of_arrAt1 (Vof (W2 m)) ((K (F := F)).Otc c 0) (Bnd (F := F) c 0) c f h
    (by show W2 m c (dv main_v2) = transpose S32x1000000 [1, 0] (W2 m c (dv main_arg3)) transposes_S1000000x32_S32x1000000_1_0
        rw [W2_main_v2, W2_main_arg3])
  rwa [show Vof (W2 m) c main_arg3 = m (tloc c main_arg3) from W2_main_arg3 m c] at this

/-- Region 1's two arrays at the region's exit: the input as it was, the packed table at contents that carry the table. -/
theorem arrays1_out (c : Dev nD) :
    ((rdatsA m 1 c).arraysAt (Pipeline.pin (pcfgs (F := F)) adm 1).N : sProp 𝕄)
      ⊢ iprop((tloc c main_v2 ↦{fullShare} W2 m c (dv main_v2)) ∗ Wide3 m c) := by
  unfold RDat.arraysAt Wide3
  rw [bigSep_W1]
  iintro ⟨⟨%f0, %h0, H0⟩, ⟨%f1, %h1, H1⟩⟩
  rw [(rdatsA m 1 c).ArrAt_in 0 rfl] at h0
  subst h0
  have e0 : ∀ f, ((tloc c main_v2 ↦[(spec1 0).arr.view.set]{fullShare} f : sProp 𝕄)) = (tloc c main_v2 ↦{fullShare} f) := fun f => by
    rw [(arr_whole1 0).set_eq_univ]
  have e1 : ∀ f, ((tloc c main_v3 ↦[(spec1 1).arr.view.set]{fullShare} f : sProp 𝕄)) = (tloc c main_v3 ↦{fullShare} f) := fun f => by
    rw [(arr_whole1 1).set_eq_univ]
  isplitl [H0]
  · iapply (Entails.of_eq (e0 _)); iexact H0
  iexists f1; isplitr; · ipureintro; exact wide1_of_exit m c f1 h1
  iapply (Entails.of_eq (e1 _)); iexact H1

set_option backward.isDefEq.respectTransparency.types false in
/-- The pipeline of custom call 1 as a segment: entered from the held arrays, left with the input array back among
    them and the packed table beside them at contents that carry the table. The generator register goes into the region
    invariant and comes out; the handshake debt passes through, the pipeline's own waits recorded at level 0. -/
def reg1 : Pipeline.RDat.RegionSeg (pcfgs (F := F)) adm (rdatsA m) (none : HIx 1) (defs₀ (F := F)) 𝒱₀ (K (F := F)).L (K (F := F)).lev 1 where
  win := launch1.win.to₀
  block_pos := launch1.block_pos
  stage_whole := launch1.stage_whole
  K := PEmpty
  osem k := k.elim
  ho := Pipeline.OwnSemFacts.none _
  hbody c := body_obligation1 (Vof (W2 m)) ((K (F := F)).Otc c 0) (Bnd (F := F) c 0) c
  hwaits c := hwaitsA m 1 c (fun _ => rfl)
  pre c := TA3 m c
  post c := TA4 m c
  X c := iprop(∃ r, prngReg c r)
  Y c := iprop(∃ r, prngReg c r)
  Z c := iprop((bigSep rest1 fun r => (tloc c r ↦{fullShare} W2 m c (dv r) : sProp 𝕄)) ∗ Wide1 m c)
  hentry c := by
    rw [Pipeline.ownSems0_none]
    unfold TA3 RA2 Ride
    rw [held_S1]
    iintro ⟨⟨⟨Hi, Ho, Hrest⟩, Hw, Hp, HO⟩, -, -⟩
    imodintro
    isplitl [Hi Ho]
    · iapply (arrays1_in m c)
      isplitl [Hi]; · iexact Hi
      iexact Ho
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitl [Hp]; · iexact Hp
    isplitl [Hrest]; · iexact Hrest
    iexact Hw
  hin c := by
    rw [show (rdatsA m 1 c).Φ 0 = ΦR spec1 c from rfl]; unfold ΦR
    iintro ⟨Hp, -, Hr⟩
    isplitl [Hr]; · iexact Hr
    iexact Hp
  hout c := by
    rw [Pipeline.ownSems0_none, show (rdatsA m 1 c).Φ (Fin.last _) = ΦR spec1 c from rfl]; unfold ΦR
    iintro ⟨Hr, Hp⟩
    isplitl [Hp]; · iexact Hp
    isplitr; · iempintro
    iexact Hr
  hexit c := by
    unfold TA4 RA4 Ride
    rw [held_S2_1]
    iintro ⟨Harr, HO, HY, Hrest, Hw⟩
    ihave H := (arrays1_out m c) $$ Harr
    icases H with ⟨H0, H1⟩
    imodintro
    isplitl [H0 Hrest]
    · isplitl [H0]; · iexact H0
      iexact Hrest
    isplitl [H1]; · iexact H1
    isplitl [Hw]; · iexact Hw
    isplitl [HY]; · iexact HY
    iapply (Pipeline.owesWithin_mono c _ (Set.union_subset (Set.Subset.refl _) (waitPairs_sub cfg1 c 0)))
    iexact HO

/-! ## The host lines -/

theorem pair_sub {R : Finset (Ref sig .tc)} {a b : Ref sig .tc} (ha : a ∈ R) (hb : b ∈ R) :
    ({dv a, dv b} : Finset (DevRef τ sig)) ⊆ R.map devEmb := by
  intro r hr
  rcases Finset.mem_insert.mp hr with rfl | hr
  · exact Finset.mem_map_of_mem _ ha
  · rw [Finset.mem_singleton] at hr; subst hr; exact Finset.mem_map_of_mem _ hb

theorem opsT0_sub : ∀ op ∈ (MainSplit.opsT0 : List (HloOp τ sig (Elt F))), op.bufs ⊆ S0 := by
  intro op hop
  simp only [MainSplit.opsT0, List.mem_cons, List.not_mem_nil, or_false] at hop
  subst hop
  rw [StableHlo.unary_bufs]; exact pair_sub (R := refs0) (by decide) (by decide)
theorem opsT0_fresh : ∀ op ∈ (MainSplit.opsT0 : List (HloOp τ sig (Elt F))), op.fresh = ∅ := by
  intro op hop
  simp only [MainSplit.opsT0, List.mem_cons, List.not_mem_nil, or_false] at hop
  subst hop; rfl
theorem opsT1_sub : ∀ op ∈ (MainSplit.opsT1 : List (HloOp τ sig (Elt F))), op.bufs ⊆ S1 := by
  intro op hop
  simp only [MainSplit.opsT1, List.mem_cons, List.not_mem_nil, or_false] at hop
  subst hop
  rw [StableHlo.unary_bufs]; exact pair_sub (R := refs1) (by decide) (by decide)
theorem opsT1_fresh : ∀ op ∈ (MainSplit.opsT1 : List (HloOp τ sig (Elt F))), op.fresh = ∅ := by
  intro op hop
  simp only [MainSplit.opsT1, List.mem_cons, List.not_mem_nil, or_false] at hop
  subst hop; rfl
theorem opsFlat_sub : ∀ op ∈ (MainSplit.opsFlat : List (HloOp τ sig (Elt F))), op.bufs ⊆ S2 := by
  intro op hop
  simp only [MainSplit.opsFlat, List.mem_cons, List.not_mem_nil, or_false] at hop
  rcases hop with rfl | rfl
  · rw [StableHlo.reshape_bufs]; exact pair_sub (R := refs2) (by decide) (by decide)
  · rw [StableHlo.reshape_bufs]; exact pair_sub (R := refs2) (by decide) (by decide)
theorem opsFlat_fresh : ∀ op ∈ (MainSplit.opsFlat : List (HloOp τ sig (Elt F))), op.fresh = ∅ := by
  intro op hop
  simp only [MainSplit.opsFlat, List.mem_cons, List.not_mem_nil, or_false] at hop
  rcases hop with rfl | rfl <;> rfl

/-- The user table's transpose as a segment, from the launch contents. -/
def hostT0 : Pipeline.HostSeg (Name := ℕ) (U := UU) (pcfgs (F := F)) (defs₀ (F := F)) 𝒱₀ (K (F := F)).L (K (F := F)).lev :=
  Pipeline.HostSeg.ofOps _ _ _ _ _ S0 MainSplit.opsT0 opsT0_sub opsT0_fresh (W0 m) (fun d => Ride (F := F) d 0)
/-- The item table's transpose as a segment. -/
def hostT1 : Pipeline.HostSeg (Name := ℕ) (U := UU) (pcfgs (F := F)) (defs₀ (F := F)) 𝒱₀ (K (F := F)).L (K (F := F)).lev :=
  Pipeline.HostSeg.ofOps _ _ _ _ _ S1 MainSplit.opsT1 opsT1_sub opsT1_fresh (W1 m) (RA2 m)
/-- The flattening of the two bias columns as a segment. -/
def hostFlat : Pipeline.HostSeg (Name := ℕ) (U := UU) (pcfgs (F := F)) (defs₀ (F := F)) 𝒱₀ (K (F := F)).L (K (F := F)).lev :=
  Pipeline.HostSeg.ofOps _ _ _ _ _ S2 MainSplit.opsFlat opsFlat_sub opsFlat_fresh (W2 m) (RA4 m)

/-! ## The stretch as its five segments -/

def segsA : List (SegT (rdatsA m)) :=
  [.host (hostT0 m), .region (reg0 m), .host (hostT1 m), .region (reg1 m), .host (hostFlat m)]

/-- The stretch's text is the run of the segments. -/
theorem hrunA : MainSplit.before (F := F) = Pipeline.RDat.Seg.run (segsA m) := by
  unfold segsA
  rw [Pipeline.RDat.Seg.run_eq_chain]
  rfl

theorem pipesA_eq : Pipeline.RDat.Seg.pipes (segsA m) = [0, 1] := rfl

/-- The thread states chain: each segment is entered from what the one before it left. -/
theorem hchA (d : Dev nD) : Pipeline.RDat.Seg.ChainsAt d (TA0 m) (segsA m) (TA5 m) :=
  ⟨.rfl, .rfl, .rfl, .rfl, .rfl, .rfl⟩

/-! ## The two ends -/

theorem S0_sub : S0 ⊆ Pipeline.ucRefs τ sig := by
  intro b hb
  obtain ⟨r, hr, rfl⟩ := Finset.mem_map.mp hb
  refine Finset.mem_filter.mpr ⟨StableHlo.devRef_mem_tcRefs r, ?_⟩
  revert r; decide

theorem held_S2 (d : Dev nD) (V : Valuation τ sig (Elt F)) :
    (StableHlo.held (d.tc : Thread nD τ) S2 V : sProp 𝕄)
      = iprop(StableHlo.held (d.tc : Thread nD τ) (callRefs.map devEmb) V ∗ StableHlo.held (d.tc : Thread nD τ) SR V) := by
  unfold StableHlo.held S2 SR
  rw [refs2_eq, Finset.map_union, bigSep_union ((Finset.disjoint_map devEmb).mpr call_aside_disjoint)]
  rfl

theorem held_call (d : Dev nD) (V : Valuation τ sig (Elt F)) :
    (StableHlo.held (d.tc : Thread nD τ) (callRefs.map devEmb) V : sProp 𝕄)
      = iprop((tloc d main_arg0 ↦{fullShare} V (dv main_arg0)) ∗ (tloc d main_arg1 ↦{fullShare} V (dv main_arg1))
          ∗ (tloc d main_v4 ↦{fullShare} V (dv main_v4)) ∗ (tloc d main_v5 ↦{fullShare} V (dv main_v5))
          ∗ (tloc d main_v6_0 ↦{fullShare} V (dv main_v6_0)) ∗ (tloc d main_v6_1 ↦{fullShare} V (dv main_v6_1))
          ∗ (tloc d main_v6_2 ↦{fullShare} V (dv main_v6_2))) := by
  rw [held_map]
  unfold callRefs
  rw [bigSep_insert (by decide), bigSep_insert (by decide), bigSep_insert (by decide), bigSep_insert (by decide),
    bigSep_insert (by decide), bigSep_insert (by decide), bigSep_singleton]
  rfl

/-- The last thread state yields the debt, the call's operands and what is kept aside. -/
theorem hcallA (d : Dev nD) :
    TA5 m d ⊢ (iprop(debt (F := F) d 0 ∗ (bigSep Finset.univ fun c : Fin ((K (F := F)).nCore 0) => (Cert.KernelIdeal.ScSide.P m).st 0 d c)
      ∗ RestA (W3 m) d) : sProp 𝕄) := by
  unfold TA5 RA4 Wide3 Wide1 Ride RestA
  rw [held_S2, held_call, W3_main_arg0, W3_main_arg1]
  iintro ⟨⟨⟨H0, H1, H4, H5, H60, H61, H62⟩, Hr⟩, ⟨%w3, %hw3, Hw3⟩, ⟨%w1, %hw1, Hw1⟩, Hp, HO⟩
  isplitl [HO]
  · iapply (debt_of d 0); iexact HO
  isplitr [Hr Hp]
  · iapply (Cert.KernelIdeal.ScSide.st_intro m d w1 w3 (W3 m d (dv main_v4)) (W3 m d (dv main_v5)) hw1 hw3 (W3_main_v4 m d) (W3_main_v5 m d))
    isplitl [Hw1]; · iexact Hw1
    isplitl [Hw3]; · iexact Hw3
    isplitl [H0]; · iexact H0
    isplitl [H1]; · iexact H1
    isplitl [H4]; · iexact H4
    isplitl [H5]; · iexact H5
    isplitl [H60]; · iexists _; iexact H60
    isplitl [H61]; · iexists _; iexact H61
    iexists _; iexact H62
  · isplitl [Hr]; · iexact Hr
    iexact Hp

/-! ## The record -/

/-- THE STRETCH BEFORE THE CALL. -/
def sideA (ρ : Dev nD → PrngReg) : SideA m ρ (Cert.KernelIdeal.ScSide.P m) (RestA (W3 m)) where
  rdats := rdatsA m
  segs := segsA m
  hrun := hrunA m
  hnd := by rw [pipesA_eq]; decide
  hS := by rw [pipesA_eq]; decide
  T := TA0 m
  T' := TA5 m
  hch := hchA m
  hin d := by
    have hu : (unscopedBufs d (fun b => m ((SparseCore.T d).loc b)) : sProp 𝕄)
        = iprop(StableHlo.held (d.tc : Thread nD τ) S0 (W0 m d) ∗ StableHlo.held (d.tc : Thread nD τ) (Pipeline.ucRefs τ sig \ S0) (W0 m d)) :=
      (Pipeline.unscopedBufs_held (Ix := HIx 1) (Name := ℕ) (U := UU) (Lvl := ℕ) d (W0 m d)).trans
        (StableHlo.held_sub_split (d.tc : Thread nD τ) S0_sub (W0 m d))
    rw [hu]
    unfold TA0 Ride
    iintro ⟨Hd, ⟨Hh, -⟩, -, Hp⟩
    isplitl [Hh]; · iexact Hh
    isplitl [Hp]; · iexists _; iexact Hp
    iapply (debt_to d 0); iexact Hd
  hcall := hcallA m

end Cert.KernelIdeal.StretchA

end
-- ==== Proof.TcDotBaseW.lean ====
/-
  What the two plain TensorCore regions of the program share: the invariant a region's body runs under. The body of
  such a region uses none of the core's scoped buffers that its windows do not stage, and never touches the generator
  register; the invariant holds exactly those, each at some contents, and hands them back unchanged.
-/
import proofs.«203700_g68710886802180_cont_9to1c4b_800_29_alg».proof.Proof.Gen.Kernel.Launch
import proofs.«203700_g68710886802180_cont_9to1c4b_800_29_alg».proof.Proof.LaunchSetupIdealW
import Idealize.ShloMosaic.Lib.Pipeline.FrameBody

noncomputable section

namespace Cert.Kernel.TcSide

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.Sem

variable {F : FTy → Type}

local notation "𝕄" => MT nD τ sig (HIx 1) (Elt F) ℕ Cert.Kernel.Setup.UU ℕ

/-- The region invariant on core `c` for the windows `win`: the core's scoped buffers that are no staging buffer of
    the region, each whole at some contents, and the generator register at some state. -/
def ΦR {gr : Nat} {W : Nat} (win : Fin W → Pipeline.WinSpec sig gr) (c : Dev nD) : sProp 𝕄 :=
  iprop(Pipeline.scopedRest (Ix := HIx 1) (Name := ℕ) (U := Cert.Kernel.Setup.UU) (Lvl := ℕ) (Val := Elt F) win c ∗ ∃ r, prngReg c r)

end Cert.Kernel.TcSide

end
-- ==== Proof.TcWideBaseW.lean ====
/-
  What the two transposing regions share: where a store through a 32-lane rectangle of the [4096, 128] buffer puts its
  payload, what a load through a 4096-column rectangle of the [32, 16384] buffer reads, and a write through a rectangle
  of a whole buffer read back at an index inside or outside the rectangle.
-/
import proofs.«203700_g68710886802180_cont_9to1c4b_800_29_alg».proof.Proof.Gen.Kernel.Launch
import proofs.«203700_g68710886802180_cont_9to1c4b_800_29_alg».proof.Proof.Gen.Kernel.Skeleton
import proofs.«203700_g68710886802180_cont_9to1c4b_800_29_alg».proof.Proof.Gen.Kernel.Points
import proofs.«203700_g68710886802180_cont_9to1c4b_800_29_alg».proof.Proof.LaunchSetupIdealW
import proofs.«203700_g68710886802180_cont_9to1c4b_800_29_alg».proof.Proof.TcDotBaseW
import proofs.«203700_g68710886802180_cont_9to1c4b_800_29_alg».proof.Proof.Packed
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Kernel.TcSide

open Cert.Kernel Cert.Kernel.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ Cert.Kernel.Setup.UU ℕ

/-- Where a store's rectangle puts its payload's index `(r, e)`: row `r`, lane `off + e`. -/
theorem store_emb (off : Nat) (inb) (r : Fin 4096) (e : Fin 32) (h : off + e.val < 128) :
    (Rect.unit (s := S4096x128) ![0, off] S4096x32.size inb).emb (ix2 r e) = ix2 r (⟨off + e.val, h⟩ : Fin 128) := by
  funext a; refine Fin.ext ?_
  match a with
  | ⟨0, _⟩ => show 0 + 1 * r.val = r.val; omega
  | ⟨1, _⟩ => show off + 1 * e.val = off + e.val; omega

/-- Where a load's rectangle reads its index `(e, r)`: row `e`, column `off + r`. -/
theorem load_idx (off : Nat) (inb) (e : Fin 32) (r : Fin 4096) (h : off + r.val < 16384) (x0 : Vec F S32x16384 .f32) :
    View.ld x0 (Rect.unit (s := S32x16384) ![0, off] S32x4096.size inb) (ix2 e r) = x0 (ix2 e (⟨off + r.val, h⟩ : Fin 16384)) := by
  show x0 _ = x0 _
  congr 1
  funext a; refine Fin.ext ?_
  match a with
  | ⟨0, _⟩ => show 0 + 1 * e.val = e.val; omega
  | ⟨1, _⟩ => show off + 1 * r.val = off + r.val; omega

/-- A lane outside a store's 32 lanes is not in its rectangle. -/
theorem not_mem_store (off : Nat) (inb) (r : Fin 4096) (l : Fin 128) (h : l.val < off ∨ off + 32 ≤ l.val) :
    ix2 r l ∉ (Rect.unit (s := S4096x128) ![0, off] S4096x32.size inb).set := by
  intro hm
  have := (Rect.mem_set_unit.mp hm) 1
  have h1 : ((![0, off] : Fin 2 → Nat) 1) = off := rfl
  have h2 : (S4096x32.size 1) = 32 := rfl
  have h3 : ((ix2 r l : S4096x128.Idx) 1).val = l.val := rfl
  rw [h1, h2, h3] at this
  omega

/-- A write through a rectangle of a whole buffer, read inside the rectangle: the payload. -/
theorem write_slice_whole_emb {Val : EltTy → Type} {b : Ref sig .tc} (r : Rect b.ty.shape) (G : b.ty.Contents Val)
    (Z : r.shape.Idx → Val b.ty.elt) (x : r.shape.Idx) :
    ((View.whole b).slice r).write Val G Z Finset.univ (r.emb x) = Z x :=
  View.read_slice_write_emb (v := View.whole b) r G Z (Finset.mem_univ x)

/-- and read outside it: what was there. -/
theorem write_slice_whole_of_not_mem {Val : EltTy → Type} {b : Ref sig .tc} (r : Rect b.ty.shape) (G : b.ty.Contents Val)
    (Z : r.shape.Idx → Val b.ty.elt) (y : b.ty.shape.Idx) (h : y ∉ r.set) :
    ((View.whole b).slice r).write Val G Z Finset.univ y = G y :=
  View.read_slice_write_of_not_mem (v := View.whole b) r G Z Finset.univ (by rwa [Rect.map_emb_univ])

end Cert.Kernel.TcSide

end
-- ==== Proof.TcWide0W.lean ====
/-
  Transposing region 0 as a pipeline on one core: 62 grid points. At point `t` the body reads columns
  `16384·t … 16384·t + 16383` of the transposed embedding table `main_v0` ([32, 1000000]; window 0) and writes rows
  `4096·t … 4096·t + 4095` of the packed table `main_v1` ([253952, 128]; window 1): for each quarter `q < 4`, lanes
  `32·q … 32·q + 31` of the block's row `r` hold column `4096·q + r` of the input block, that is, the 32 entries of
  table row `16384·t + 4096·q + r`.

  The last input block reaches past the table's millionth column. Its fetch first overwrites the staging buffer with
  words nothing names and then lands the columns that exist, so what the body computes from the rest is not a function
  of anything: the proof data therefore CONSTRAIN what the body leaves in the output's buffer — on every lane that comes
  from a column of the table it is that column's entry — instead of naming it, and the packed table after the region
  is known exactly on those lanes (`Cert.Packed.WideOK`), which is all the program reads of it.

  Everything is stated at the contents `V` the TensorCore's buffers hold when the region is entered, and at the tallies
  `O` the core owes throughout the region (the body waits on nothing, so they pass through unread).
-/
import proofs.«203700_g68710886802180_cont_9to1c4b_800_29_alg».proof.Proof.Gen.Kernel.Launch
import proofs.«203700_g68710886802180_cont_9to1c4b_800_29_alg».proof.Proof.Gen.Kernel.Skeleton
import proofs.«203700_g68710886802180_cont_9to1c4b_800_29_alg».proof.Proof.Gen.Kernel.Points
import proofs.«203700_g68710886802180_cont_9to1c4b_800_29_alg».proof.Proof.LaunchSetupIdealW
import proofs.«203700_g68710886802180_cont_9to1c4b_800_29_alg».proof.Proof.TcDotBaseW
import proofs.«203700_g68710886802180_cont_9to1c4b_800_29_alg».proof.Proof.Packed
import proofs.«203700_g68710886802180_cont_9to1c4b_800_29_alg».proof.Proof.TcWideBaseW
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Kernel.TcSide

open Cert.Kernel Cert.Kernel.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ Cert.Kernel.Setup.UU ℕ

variable (V : (c : Dev nD) → (b : Ref sig .tc) → Buf (Elt F) ((c : Thread nD τ).loc b))
variable (O : CellTallies nD τ sig (HIx 1)) (B : Set (SemLoc sig × HIx 1))

/-! ## The body's accesses -/

abbrev l0_0 : Rect S32x16384 := Rect.unit (s := S32x16384) ![0, 0] S32x4096.size inb_S32x16384_S32x4096_0_0
abbrev l0_1 : Rect S32x16384 := Rect.unit (s := S32x16384) ![0, 4096] S32x4096.size inb_S32x16384_S32x4096_0_4096
abbrev l0_2 : Rect S32x16384 := Rect.unit (s := S32x16384) ![0, 8192] S32x4096.size inb_S32x16384_S32x4096_0_8192
abbrev l0_3 : Rect S32x16384 := Rect.unit (s := S32x16384) ![0, 12288] S32x4096.size inb_S32x16384_S32x4096_0_12288
abbrev s0_0 : Rect S4096x128 := Rect.unit (s := S4096x128) ![0, 0] S4096x32.size inb_S4096x128_S4096x32_0_0
abbrev s0_1 : Rect S4096x128 := Rect.unit (s := S4096x128) ![0, 32] S4096x32.size inb_S4096x128_S4096x32_0_32
abbrev s0_2 : Rect S4096x128 := Rect.unit (s := S4096x128) ![0, 64] S4096x32.size inb_S4096x128_S4096x32_0_64
abbrev s0_3 : Rect S4096x128 := Rect.unit (s := S4096x128) ![0, 96] S4096x32.size inb_S4096x128_S4096x32_0_96

/-- The output buffer after the body, from the input buffer's contents: its four stores, last first. Each quarter
    of the lanes holds the transpose of one quarter of the input's columns. -/
def out0 (x0 : Vec F S32x16384 .f32) : Vec F S4096x128 .f32 :=
  View.canon [⟨s0_3, k0_pay4 (View.ld x0 l0_3)⟩, ⟨s0_2, k0_pay3 (View.ld x0 l0_2)⟩,
    ⟨s0_1, k0_pay2 (View.ld x0 l0_1)⟩, ⟨s0_0, k0_pay1 (View.ld x0 l0_0)⟩]

/-- The four stores tile the output buffer. -/
theorem cover0 (p3 p2 p1 p0 : Vec F S4096x32 .f32) (y : S4096x128.Idx) :
    ∃ pc ∈ ([⟨s0_3, p3⟩, ⟨s0_2, p2⟩, ⟨s0_1, p1⟩, ⟨s0_0, p0⟩] : List (View.Piece (Elt F) S4096x128 .f32)), y ∈ pc.1.set :=
  View.cover_of_tiled [⟨s0_3, p3⟩, ⟨s0_2, p2⟩, ⟨s0_1, p1⟩, ⟨s0_0, p0⟩] S4096x32.size (by rfl) y

/-! ## The body's triple -/

set_option maxHeartbeats 2000000 in
/-- The body on whole staging memrefs, the input's at read contents `x0` and the output's at anything, runs to the
    continuation holding the input's as it was and the output's at `out0 x0`. -/
theorem sound_kernel0 (c : Dev nD) (E : Set ℕ) (i : grid0.Coords) (arg1 : Memref sig .tc .vmem S32x16384 .f32) (harg1 : arg1.IsWhole)
    (arg2 : Memref sig .tc .vmem S4096x128 .f32) (harg2 : arg2.IsWhole) (x0 : Vec F S32x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__tr_body i arg1 harg1 arg2 harg2) K := by
  simp only [cc0__tr_body_eq_skeleton]; unfold cc0__tr_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover0 _ _ _ _)

/-! ## The output buffer read at an index -/

/-- A transposing payload at row `r`, lane `e` is the loaded quarter at row `e`, column `r`. -/
theorem k0_pay1_apply (v : Vec F S32x4096 .f32) (r : Fin 4096) (e : Fin 32) : k0_pay1 v (ix2 r e) = v (ix2 e r) := by
  show transpose S4096x32 [1, 0] (shapeCast S32x4096 v shapeCasts_S32x4096_S32x4096) transposes_S32x4096_p1_0_S4096x32 (ix2 r e) = _
  rw [shapeCast_self]
  exact transpose_apply _ _ _ (ix2 r e) (ix2 e r) fun b => by match b with | ⟨0, _⟩ => rfl | ⟨1, _⟩ => rfl
theorem k0_pay2_apply (v : Vec F S32x4096 .f32) (r : Fin 4096) (e : Fin 32) : k0_pay2 v (ix2 r e) = v (ix2 e r) := k0_pay1_apply v r e
theorem k0_pay3_apply (v : Vec F S32x4096 .f32) (r : Fin 4096) (e : Fin 32) : k0_pay3 v (ix2 r e) = v (ix2 e r) := k0_pay1_apply v r e
theorem k0_pay4_apply (v : Vec F S32x4096 .f32) (r : Fin 4096) (e : Fin 32) : k0_pay4 v (ix2 r e) = v (ix2 e r) := k0_pay1_apply v r e

/-- The output buffer at row `r`, lane `32q + e`: the input buffer at row `e`, column `4096q + r`. -/
theorem out0_apply (x0 : Vec F S32x16384 .f32) (r : Fin 4096) (q : Fin 4) (e : Fin 32) (l : Fin 128) (k : Fin 16384)
    (hl : l.val = 32 * q.val + e.val) (hk : k.val = 4096 * q.val + r.val) :
    out0 x0 (ix2 r l) = x0 (ix2 e k) := by
  unfold out0
  have hq : q.val = 0 ∨ q.val = 1 ∨ q.val = 2 ∨ q.val = 3 := by omega
  rcases hq with hq | hq | hq | hq
  · have hl' : ix2 r l = s0_0.emb (ix2 r e) :=
      (congrArg (fun x => ix2 r x) (Fin.ext (by show l.val = 0 + e.val; omega))).trans (store_emb 0 _ r e (by omega)).symm
    have hn96 : ix2 r l ∉ s0_3.set := not_mem_store 96 _ r l (Or.inl (by omega))
    have hn64 : ix2 r l ∉ s0_2.set := not_mem_store 64 _ r l (Or.inl (by omega))
    have hn32 : ix2 r l ∉ s0_1.set := not_mem_store 32 _ r l (Or.inl (by omega))
    rw [View.canon_cons_of_not_mem (⟨s0_3, k0_pay4 (View.ld x0 l0_3)⟩ : View.Piece (Elt F) S4096x128 .f32) _ hn96,
      View.canon_cons_of_not_mem (⟨s0_2, k0_pay3 (View.ld x0 l0_2)⟩ : View.Piece (Elt F) S4096x128 .f32) _ hn64,
      View.canon_cons_of_not_mem (⟨s0_1, k0_pay2 (View.ld x0 l0_1)⟩ : View.Piece (Elt F) S4096x128 .f32) _ hn32,
      hl',
      View.canon_cons_emb,
      k0_pay1_apply]
    exact (load_idx 0 _ e r (by omega) x0).trans
      (congrArg (fun x => x0 (ix2 e x)) (Fin.ext (by show 0 + r.val = k.val; omega)))
  · have hl' : ix2 r l = s0_1.emb (ix2 r e) :=
      (congrArg (fun x => ix2 r x) (Fin.ext (by show l.val = 32 + e.val; omega))).trans (store_emb 32 _ r e (by omega)).symm
    have hn96 : ix2 r l ∉ s0_3.set := not_mem_store 96 _ r l (Or.inl (by omega))
    have hn64 : ix2 r l ∉ s0_2.set := not_mem_store 64 _ r l (Or.inl (by omega))
    rw [View.canon_cons_of_not_mem (⟨s0_3, k0_pay4 (View.ld x0 l0_3)⟩ : View.Piece (Elt F) S4096x128 .f32) _ hn96,
      View.canon_cons_of_not_mem (⟨s0_2, k0_pay3 (View.ld x0 l0_2)⟩ : View.Piece (Elt F) S4096x128 .f32) _ hn64,
      hl',
      View.canon_cons_emb,
      k0_pay2_apply]
    exact (load_idx 4096 _ e r (by omega) x0).trans
      (congrArg (fun x => x0 (ix2 e x)) (Fin.ext (by show 4096 + r.val = k.val; omega)))
  · have hl' : ix2 r l = s0_2.emb (ix2 r e) :=
      (congrArg (fun x => ix2 r x) (Fin.ext (by show l.val = 64 + e.val; omega))).trans (store_emb 64 _ r e (by omega)).symm
    have hn96 : ix2 r l ∉ s0_3.set := not_mem_store 96 _ r l (Or.inl (by omega))
    rw [View.canon_cons_of_not_mem (⟨s0_3, k0_pay4 (View.ld x0 l0_3)⟩ : View.Piece (Elt F) S4096x128 .f32) _ hn96,
      hl',
      View.canon_cons_emb,
      k0_pay3_apply]
    exact (load_idx 8192 _ e r (by omega) x0).trans
      (congrArg (fun x => x0 (ix2 e x)) (Fin.ext (by show 8192 + r.val = k.val; omega)))
  · have hl' : ix2 r l = s0_3.emb (ix2 r e) :=
      (congrArg (fun x => ix2 r x) (Fin.ext (by show l.val = 96 + e.val; omega))).trans (store_emb 96 _ r e (by omega)).symm
    rw [hl',
      View.canon_cons_emb,
      k0_pay4_apply]
    exact (load_idx 12288 _ e r (by omega) x0).trans
      (congrArg (fun x => x0 (ix2 e x)) (Fin.ext (by show 12288 + r.val = k.val; omega)))

/-! ## The pipeline's proof data -/

/-- What the body leaves in window 1's buffer at point `t`: on every lane that comes from a column of the table
    (the last block reaches past the table's end), the transposed table's entry. -/
def wideRel0 (c : Dev nD) (t : Fin cfg0.N) (X : S4096x128.Idx → Elt F .f32) : Prop :=
  ∀ (r : Fin 4096) (q : Fin 4) (e : Fin 32) (hn : 16384 * t.val + 4096 * q.val + r.val < 1000000),
    X (ix2 r (⟨32 * q.val + e.val, by omega⟩ : Fin 128))
      = V c main_v0 (ix2 e (⟨16384 * t.val + 4096 * q.val + r.val, hn⟩ : Fin 1000000))

/-- The proof data of the region on core `c`: the arrays as the region finds them (`V`); the body leaves the input's
    buffer as it found it and the output's in the relation `wideRel0`; the invariant `ΦR`; the tallies `O` owed at
    every point; full shares. -/
def rdat0 (c : Dev nD) : RDat τ (Elt F) (HIx 1) ℕ Cert.Kernel.Setup.UU ℕ cfg0 c where
  A w := V c (Pipeline.arrRef spec0 w)
  after w t := match w with
    | ⟨0, _⟩ => fun Y X => X = Y
    | ⟨1, _⟩ => fun _ X => wideRel0 V c t X
  Φ _ := ΦR spec0 c
  q _ := fullShare
  owed _ := O
  recorded _ := B

/-- The windows' block indices and the input block's cut, point by point. -/
theorem idx_facts0 : ∀ t : Fin cfg0.N, win0_0.index t 0 = 0 ∧ win0_0.index t 1 = t.val
    ∧ win0_0.xsize (grid0.coords t) 0 = 32 ∧ win0_0.xsize (grid0.coords t) 1 = min 16384 (1000000 - 16384 * t.val)
    ∧ win0_1.index t 0 = t.val ∧ win0_1.index t 1 = 0 :=
  (by decide +kernel : ∀ t : Fin grid0.N, win0_0.index t 0 = 0 ∧ win0_0.index t 1 = t.val
    ∧ win0_0.xsize (grid0.coords t) 0 = 32 ∧ win0_0.xsize (grid0.coords t) 1 = min 16384 (1000000 - 16384 * t.val)
    ∧ win0_1.index t 0 = t.val ∧ win0_1.index t 1 = 0)

/-- The input's buffer just fetched at point `t`, read at a column that lies inside the table: the table's entry. -/
theorem fetched0_apply (c : Dev nD) (t : Fin cfg0.N) (d : S32x16384.Idx → Elt F .f32) (e : Fin 32) (k : Fin 16384)
    (hk : 16384 * t.val + k.val < 1000000) :
    (rdat0 (F := F) V O B c).fetched 0 t d (ix2 e k) = V c main_v0 (ix2 e (⟨16384 * t.val + k.val, hk⟩ : Fin 1000000)) := by
  obtain ⟨i0, i1, x0, x1, -, -⟩ := idx_facts0 t
  have hm : ∀ a, ((ix2 e k : S32x16384.Idx) a).val < win0_0.xsize (grid0.coords t) a := fun a => by
    match a with
    | ⟨0, _⟩ => show e.val < win0_0.xsize (grid0.coords t) 0; rw [x0]; exact e.isLt
    | ⟨1, _⟩ => show k.val < win0_0.xsize (grid0.coords t) 1; rw [x1]; have := k.isLt; omega
  unfold RDat.fetched Window.fill
  rw [dif_pos ((win0_0.moved_iff _ _).mpr hm)]
  show V c main_v0 _ = V c main_v0 _
  congr 1
  funext a; refine Fin.ext ?_
  match a with
  | ⟨0, _⟩ =>
    show win0_0.index t 0 * 32 + 1 * e.val = e.val
    rw [i0]; omega
  | ⟨1, _⟩ =>
    show win0_0.index t 1 * 16384 + 1 * k.val = 16384 * t.val + k.val
    rw [i1]; omega

/-- A buffer just fetched at point `t` goes, through the body's four transposes, to contents in the relation. -/
theorem wideRel0_out (c : Dev nD) (t : Fin cfg0.N) (d : S32x16384.Idx → Elt F .f32) :
    wideRel0 V c t (out0 ((rdat0 (F := F) V O B c).fetched 0 t d)) := by
  intro r q e hn
  rw [out0_apply _ r q e _ (⟨4096 * q.val + r.val, by omega⟩ : Fin 16384) rfl rfl,
    fetched0_apply V O B c t d e _ (by show 16384 * t.val + (4096 * q.val + r.val) < 1000000; omega)]
  congr 1
  exact congrArg (fun x => ix2 e x) (Fin.ext (by show 16384 * t.val + (4096 * q.val + r.val) = 16384 * t.val + 4096 * q.val + r.val; omega))

/-! ## The body obligation -/

/-- The body at any point, for any contents the input's buffer may then hold (it was just fetched) and any contents of
    the output's: `sound_kernel0` applies; the invariant and the core's tallies pass through unread. -/
theorem sound_body0 (c : Dev nD) (t : Fin cfg0.N) (Y0 : S32x16384.Idx → Elt F .f32) (Y1 : S4096x128.Idx → Elt F .f32)
    (h0 : (rdat0 (F := F) V O B c).Finds 0 t Y0) :
    iprop((rdat0 (F := F) V O B c).Φ t.castSucc ∗ (rdat0 (F := F) V O B c).owesAt none t.castSucc
        ∗ owns (c : Thread nD τ) (st0_0 t) fullShare Y0 ∗ owns (c : Thread nD τ) (st0_1 t) fullShare Y1)
      ⊢ wp frame (wpE (defs₀ (F := F)) Variants.none c none) Set.univ (bodyAt0 t) (fun _ =>
          iprop((rdat0 (F := F) V O B c).Φ t.succ ∗ (rdat0 (F := F) V O B c).owesAt none t.succ
            ∗ (∃ X, ⌜(rdat0 (F := F) V O B c).after 0 t Y0 X⌝ ∗ owns (c : Thread nD τ) (st0_0 t) fullShare X)
            ∗ (∃ X, ⌜(rdat0 (F := F) V O B c).after 1 t Y1 X⌝ ∗ owns (c : Thread nD τ) (st0_1 t) fullShare X))) := by
  rw [(rdat0 (F := F) V O B c).finds_of_fetch (fetch0_0 t)] at h0
  obtain ⟨d, rfl⟩ := h0
  rw [show (rdat0 (F := F) V O B c).Φ t.succ = (rdat0 (F := F) V O B c).Φ t.castSucc from rfl,
    show (rdat0 (F := F) V O B c).owesAt none t.succ = (rdat0 (F := F) V O B c).owesAt none t.castSucc from rfl]
  unfold bodyAt0
  iintro ⟨HΦ, Ho, H0, H1⟩
  iapply (sound_kernel0 c Set.univ (grid0.coords t) _ _ _ _ ((rdat0 (F := F) V O B c).fetched 0 t d) _)
  isplitl [H0]; · iexact H0
  isplitl [H1]; · iexists _; iexact H1
  iintro ⟨H0, H1⟩
  isplitl [HΦ]; · iexact HΦ
  isplitl [Ho]; · iexact Ho
  isplitl [H0]
  · iexists _; isplitr; · ipureintro; exact (rfl : (rdat0 (F := F) V O B c).fetched 0 t d = _)
    iexact H0
  · iexists _; isplitr
    swap; · iexact H1
    ipureintro
    exact wideRel0_out V O B c t d

/-- The library's body obligation, at every point and for all contents the buffers may then hold. -/
theorem body_obligation0 (c : Dev nD) :
    (rdat0 (F := F) V O B c).BodyObligation (defs₀ (F := F)) Variants.none (none : HIx 1) Set.univ := fun t Y hY => by
  rw [bigSep_W0, bigSep_W0]
  exact sound_body0 V O B c t (Y 0) (Y 1) (hY 0)

/-! ## The packed table after the write-backs -/

/-- Window 1's block at point `t` is rows `4096·t … 4096·t + 4095` of the packed table, every lane. -/
theorem mem_rect0_1 (t : Fin cfg0.N) (i : S253952x128.Idx) :
    i ∈ (win0_1.rect t).set ↔ 4096 * t.val ≤ (i 0).val ∧ (i 0).val < 4096 * t.val + 4096 := by
  obtain ⟨-, -, -, -, j0, j1⟩ := idx_facts0 t
  rw [Rect.mem_set_unit]
  constructor
  · intro h
    have h0 : win0_1.index t 0 * 4096 ≤ (i 0).val ∧ (i 0).val < win0_1.index t 0 * 4096 + 4096 := h 0
    rw [j0] at h0; omega
  · intro h a
    match a with
    | ⟨0, _⟩ =>
      show win0_1.index t 0 * 4096 ≤ (i 0).val ∧ (i 0).val < win0_1.index t 0 * 4096 + 4096
      rw [j0]; omega
    | ⟨1, _⟩ =>
      show win0_1.index t 1 * 128 ≤ (i 1).val ∧ (i 1).val < win0_1.index t 1 * 128 + 128
      rw [j1]; have : (i 1).val < 128 := (i 1).isLt; omega

/-- Where window 1's block at point `t` puts its index `(r, l)`: row `4096·t + r`, lane `l`. -/
theorem rect0_1_emb (t : Fin cfg0.N) (r : Fin 4096) (l : Fin 128) (h : 4096 * t.val + r.val < 253952) :
    (win0_1.rect t).emb (ix2 r l : S4096x128.Idx) = ix2 (⟨4096 * t.val + r.val, h⟩ : Fin 253952) l := by
  obtain ⟨-, -, -, -, j0, j1⟩ := idx_facts0 t
  funext a; refine Fin.ext ?_
  match a with
  | ⟨0, _⟩ => show win0_1.index t 0 * 4096 + 1 * r.val = 4096 * t.val + r.val; rw [j0]; omega
  | ⟨1, _⟩ => show win0_1.index t 1 * 128 + 1 * l.val = l.val; rw [j1]; omega

/-- The packed table carries the transposed table on the lanes of every table row below `16384·m`. -/
def WideUpTo0 (c : Dev nD) (m : Nat) (f : S253952x128.Idx → Elt F .f32) : Prop :=
  ∀ (n : Fin 1000000) (e : Fin 32), n.val < 16384 * m →
    f (ix2 (Cert.Packed.wideRow n.val n.isLt) (Cert.Packed.wideLane n.val e)) = V c main_v0 (ix2 e n)

/-- One write-back: the block written at point `m` holds table rows `16384·m …`, in the relation the body leaves, and
    lies past the packed rows of every earlier table row, which it therefore keeps. -/
theorem step_wide0 (c : Dev nD) (m : Nat) (hlt : m < cfg0.N) (G₀ : S253952x128.Idx → Elt F .f32) (X : S4096x128.Idx → Elt F .f32)
    (ih : WideUpTo0 V c m G₀) (hrel : wideRel0 V c ⟨m, hlt⟩ X) :
    WideUpTo0 V c (m + 1) (((View.whole main_v1).slice (win0_1.rect ⟨m, hlt⟩)).write (Elt F) G₀
      (fun j => X (win0_1.xinj (grid0.coords ⟨m, hlt⟩) j)) Finset.univ) := by
  have h62 : m < 62 := by rw [show cfg0.N = 62 from N_0] at hlt; exact hlt
  intro n e hn
  have hn' := n.isLt
  by_cases hb : 16384 * m ≤ n.val
  · -- the table row is in the block written at point `m`
    have hr : 4096 * m + n.val % 4096 < 253952 := by omega
    have hI : (ix2 (Cert.Packed.wideRow n.val n.isLt) (Cert.Packed.wideLane n.val e) : S253952x128.Idx)
        = (win0_1.rect ⟨m, hlt⟩).emb (ix2 (⟨n.val % 4096, by omega⟩ : Fin 4096) (Cert.Packed.wideLane n.val e) : S4096x128.Idx) :=
      (congrArg (fun x => ix2 x (Cert.Packed.wideLane n.val e))
        (Fin.ext (by show 4096 * (n.val / 16384) + n.val % 4096 = 4096 * m + n.val % 4096; omega))).trans
        (rect0_1_emb ⟨m, hlt⟩ ⟨n.val % 4096, by omega⟩ (Cert.Packed.wideLane n.val e) hr).symm
    have hq : 16384 * m + 4096 * ((n.val / 4096) % 4) + n.val % 4096 < 1000000 := by omega
    rw [hI, write_slice_whole_emb]
    refine (hrel ⟨n.val % 4096, by omega⟩ ⟨(n.val / 4096) % 4, by omega⟩ e hq).trans ?_
    congr 1
    exact congrArg (fun x => ix2 e x) (Fin.ext (by show 16384 * m + 4096 * ((n.val / 4096) % 4) + n.val % 4096 = n.val; omega))
  · -- the table row was written at an earlier point, and this block lies past its packed row
    have hnot : (ix2 (Cert.Packed.wideRow n.val n.isLt) (Cert.Packed.wideLane n.val e) : S253952x128.Idx)
        ∉ (win0_1.rect ⟨m, hlt⟩).set := by
      rw [mem_rect0_1]
      show ¬ (4096 * m ≤ 4096 * (n.val / 16384) + n.val % 4096 ∧ 4096 * (n.val / 16384) + n.val % 4096 < 4096 * m + 4096)
      omega
    rw [write_slice_whole_of_not_mem (b := main_v1) (win0_1.rect ⟨m, hlt⟩) _ _ _ hnot]
    exact ih n e (by omega)

/-- After the write-backs of the points below `m` the packed table carries table rows `0 … 16384·m − 1`. -/
theorem arrAt_wide0 (c : Dev nD) : ∀ (m : Nat), m ≤ 62 → ∀ f, (rdat0 (F := F) V O B c).ArrAt 1 m f → WideUpTo0 V c m f
  | 0, _, f, _ => fun n e hn => absurd hn (by omega)
  | m + 1, hm, f, h => by
    have hlt : m < cfg0.N := by rw [show cfg0.N = 62 from N_0]; omega
    have hstep : (rdat0 (F := F) V O B c).ArrStep 1 ⟨m, hlt⟩ ((rdat0 (F := F) V O B c).ArrAt 1 m) f := by
      have h' := h
      unfold RDat.ArrAt at h'
      simp only [dif_pos hlt, if_pos (flush0_1 ⟨m, hlt⟩)] at h'
      exact h'
    obtain ⟨G₀, X, hG₀, ⟨Y, -, hrel⟩, hf⟩ := hstep
    subst hf
    exact step_wide0 V c m hlt G₀ X (arrAt_wide0 c m (by omega) G₀ hG₀) hrel

/-- After the region, the packed table carries every table row. -/
theorem wide_of_arrAt0 (c : Dev nD) (f : Buf (Elt F) ((cfg0.win 1).arr.view.loc (c.tc : Thread nD τ)))
    (h : (rdat0 (F := F) V O B c).ArrAt 1 cfg0.N f) :
    ∀ (n : Fin 1000000) (e : Fin 32),
      f (ix2 (Cert.Packed.wideRow n.val n.isLt) (Cert.Packed.wideLane n.val e)) = V c main_v0 (ix2 e n) := by
  rw [show cfg0.N = 62 from N_0] at h
  exact fun n e => arrAt_wide0 V O B c 62 le_rfl f h n e (by have := n.isLt; omega)

/-- So, the region's input being the embedding table transposed, the packed table it leaves carries the table. -/
theorem wideOK_of_arrAt0 (c : Dev nD) (f : Buf (Elt F) ((cfg0.win 1).arr.view.loc (c.tc : Thread nD τ)))
    (h : (rdat0 (F := F) V O B c).ArrAt 1 cfg0.N f)
    (hT : V c main_v0 = transpose S32x1000000 [1, 0] (V c main_arg2) transposes_S1000000x32_S32x1000000_1_0) :
    Cert.Packed.WideOK (V c main_arg2) f := by
  intro n d
  rw [wide_of_arrAt0 V O B c f h n d, hT]
  exact transpose_apply _ _ _ (ix2 d n) (ix2 n d) fun b => by match b with | ⟨0, _⟩ => rfl | ⟨1, _⟩ => rfl

end Cert.Kernel.TcSide

end
-- ==== Proof.TcWide1W.lean ====
/-
  Transposing region 1 as a pipeline on one core: 62 grid points. At point `t` the body reads columns
  `16384·t … 16384·t + 16383` of the transposed embedding table `main_v2` ([32, 1000000]; window 0) and writes rows
  `4096·t … 4096·t + 4095` of the packed table `main_v3` ([253952, 128]; window 1): for each quarter `q < 4`, lanes
  `32·q … 32·q + 31` of the block's row `r` hold column `4096·q + r` of the input block, that is, the 32 entries of
  table row `16384·t + 4096·q + r`.

  The last input block reaches past the table's millionth column. Its fetch first overwrites the staging buffer with
  words nothing names and then lands the columns that exist, so what the body computes from the rest is not a function
  of anything: the proof data therefore CONSTRAIN what the body leaves in the output's buffer — on every lane that comes
  from a column of the table it is that column's entry — instead of naming it, and the packed table after the region
  is known exactly on those lanes (`Cert.Packed.WideOK`), which is all the program reads of it.

  Everything is stated at the contents `V` the TensorCore's buffers hold when the region is entered, and at the tallies
  `O` the core owes throughout the region (the body waits on nothing, so they pass through unread).
-/
import proofs.«203700_g68710886802180_cont_9to1c4b_800_29_alg».proof.Proof.Gen.Kernel.Launch
import proofs.«203700_g68710886802180_cont_9to1c4b_800_29_alg».proof.Proof.Gen.Kernel.Skeleton
import proofs.«203700_g68710886802180_cont_9to1c4b_800_29_alg».proof.Proof.Gen.Kernel.Points
import proofs.«203700_g68710886802180_cont_9to1c4b_800_29_alg».proof.Proof.LaunchSetupIdealW
import proofs.«203700_g68710886802180_cont_9to1c4b_800_29_alg».proof.Proof.TcDotBaseW
import proofs.«203700_g68710886802180_cont_9to1c4b_800_29_alg».proof.Proof.Packed
import proofs.«203700_g68710886802180_cont_9to1c4b_800_29_alg».proof.Proof.TcWideBaseW
import Idealize.ShloMosaic.Lib.Pipeline.FrameBody
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.Kernel.TcSide

open Cert.Kernel Cert.Kernel.Gen
open Idealize.ShloMosaic Idealize.ShloMosaic.TcCoe Idealize.ShloMosaic.Tactic Idealize.ShloMosaic.ValueIdx
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig (HIx 1) (Elt F) ℕ Cert.Kernel.Setup.UU ℕ

variable (V : (c : Dev nD) → (b : Ref sig .tc) → Buf (Elt F) ((c : Thread nD τ).loc b))
variable (O : CellTallies nD τ sig (HIx 1)) (B : Set (SemLoc sig × HIx 1))

/-! ## The body's accesses -/

abbrev l1_0 : Rect S32x16384 := Rect.unit (s := S32x16384) ![0, 0] S32x4096.size inb_S32x16384_S32x4096_0_0
abbrev l1_1 : Rect S32x16384 := Rect.unit (s := S32x16384) ![0, 4096] S32x4096.size inb_S32x16384_S32x4096_0_4096
abbrev l1_2 : Rect S32x16384 := Rect.unit (s := S32x16384) ![0, 8192] S32x4096.size inb_S32x16384_S32x4096_0_8192
abbrev l1_3 : Rect S32x16384 := Rect.unit (s := S32x16384) ![0, 12288] S32x4096.size inb_S32x16384_S32x4096_0_12288
abbrev s1_0 : Rect S4096x128 := Rect.unit (s := S4096x128) ![0, 0] S4096x32.size inb_S4096x128_S4096x32_0_0
abbrev s1_1 : Rect S4096x128 := Rect.unit (s := S4096x128) ![0, 32] S4096x32.size inb_S4096x128_S4096x32_0_32
abbrev s1_2 : Rect S4096x128 := Rect.unit (s := S4096x128) ![0, 64] S4096x32.size inb_S4096x128_S4096x32_0_64
abbrev s1_3 : Rect S4096x128 := Rect.unit (s := S4096x128) ![0, 96] S4096x32.size inb_S4096x128_S4096x32_0_96

/-- The output buffer after the body, from the input buffer's contents: its four stores, last first. Each quarter
    of the lanes holds the transpose of one quarter of the input's columns. -/
def out1 (x0 : Vec F S32x16384 .f32) : Vec F S4096x128 .f32 :=
  View.canon [⟨s1_3, k1_pay4 (View.ld x0 l1_3)⟩, ⟨s1_2, k1_pay3 (View.ld x0 l1_2)⟩,
    ⟨s1_1, k1_pay2 (View.ld x0 l1_1)⟩, ⟨s1_0, k1_pay1 (View.ld x0 l1_0)⟩]

/-- The four stores tile the output buffer. -/
theorem cover1 (p3 p2 p1 p0 : Vec F S4096x32 .f32) (y : S4096x128.Idx) :
    ∃ pc ∈ ([⟨s1_3, p3⟩, ⟨s1_2, p2⟩, ⟨s1_1, p1⟩, ⟨s1_0, p0⟩] : List (View.Piece (Elt F) S4096x128 .f32)), y ∈ pc.1.set :=
  View.cover_of_tiled [⟨s1_3, p3⟩, ⟨s1_2, p2⟩, ⟨s1_1, p1⟩, ⟨s1_0, p0⟩] S4096x32.size (by rfl) y

/-! ## The body's triple -/

set_option maxHeartbeats 2000000 in
/-- The body on whole staging memrefs, the input's at read contents `x0` and the output's at anything, runs to the
    continuation holding the input's as it was and the output's at `out1 x0`. -/
theorem sound_kernel1 (c : Dev nD) (E : Set ℕ) (i : grid1.Coords) (arg1 : Memref sig .tc .vmem S32x16384 .f32) (harg1 : arg1.IsWhole)
    (arg2 : Memref sig .tc .vmem S4096x128 .f32) (harg2 : arg2.IsWhole) (x0 : Vec F S32x16384 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ K ⟨⟩))
      ⊢ wp frame (wpE (defs₀ (F := F)) Variants.none c none) E (cc1__tr_body i arg1 harg1 arg2 harg2) K := by
  simp only [cc1__tr_body_eq_skeleton]; unfold cc1__tr_body_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (cover1 _ _ _ _)

/-! ## The output buffer read at an index -/

/-- A transposing payload at row `r`, lane `e` is the loaded quarter at row `e`, column `r`. -/
theorem k1_pay1_apply (v : Vec F S32x4096 .f32) (r : Fin 4096) (e : Fin 32) : k1_pay1 v (ix2 r e) = v (ix2 e r) := by
  show transpose S4096x32 [1, 0] (shapeCast S32x4096 v shapeCasts_S32x4096_S32x4096) transposes_S32x4096_p1_0_S4096x32 (ix2 r e) = _
  rw [shapeCast_self]
  exact transpose_apply _ _ _ (ix2 r e) (ix2 e r) fun b => by match b with | ⟨0, _⟩ => rfl | ⟨1, _⟩ => rfl
theorem k1_pay2_apply (v : Vec F S32x4096 .f32) (r : Fin 4096) (e : Fin 32) : k1_pay2 v (ix2 r e) = v (ix2 e r) := k1_pay1_apply v r e
theorem k1_pay3_apply (v : Vec F S32x4096 .f32) (r : Fin 4096) (e : Fin 32) : k1_pay3 v (ix2 r e) = v (ix2 e r) := k1_pay1_apply v r e
theorem k1_pay4_apply (v : Vec F S32x4096 .f32) (r : Fin 4096) (e : Fin 32) : k1_pay4 v (ix2 r e) = v (ix2 e r) := k1_pay1_apply v r e

/-- The output buffer at row `r`, lane `32q + e`: the input buffer at row `e`, column `4096q + r`. -/
theorem out1_apply (x0 : Vec F S32x16384 .f32) (r : Fin 4096) (q : Fin 4) (e : Fin 32) (l : Fin 128) (k : Fin 16384)
    (hl : l.val = 32 * q.val + e.val) (hk : k.val = 4096 * q.val + r.val) :
    out1 x0 (ix2 r l) = x0 (ix2 e k) := by
  unfold out1
  have hq : q.val = 0 ∨ q.val = 1 ∨ q.val = 2 ∨ q.val = 3 := by omega
  rcases hq with hq | hq | hq | hq
  · have hl' : ix2 r l = s1_0.emb (ix2 r e) :=
      (congrArg (fun x => ix2 r x) (Fin.ext (by show l.val = 0 + e.val; omega))).trans (store_emb 0 _ r e (by omega)).symm
    have hn96 : ix2 r l ∉ s1_3.set := not_mem_store 96 _ r l (Or.inl (by omega))
    have hn64 : ix2 r l ∉ s1_2.set := not_mem_store 64 _ r l (Or.inl (by omega))
    have hn32 : ix2 r l ∉ s1_1.set := not_mem_store 32 _ r l (Or.inl (by omega))
    rw [View.canon_cons_of_not_mem (⟨s1_3, k1_pay4 (View.ld x0 l1_3)⟩ : View.Piece (Elt F) S4096x128 .f32) _ hn96,
      View.canon_cons_of_not_mem (⟨s1_2, k1_pay3 (View.ld x0 l1_2)⟩ : View.Piece (Elt F) S4096x128 .f32) _ hn64,
      View.canon_cons_of_not_mem (⟨s1_1, k1_pay2 (View.ld x0 l1_1)⟩ : View.Piece (Elt F) S4096x128 .f32) _ hn32,
      hl',
      View.canon_cons_emb,
      k1_pay1_apply]
    exact (load_idx 0 _ e r (by omega) x0).trans
      (congrArg (fun x => x0 (ix2 e x)) (Fin.ext (by show 0 + r.val = k.val; omega)))
  · have hl' : ix2 r l = s1_1.emb (ix2 r e) :=
      (congrArg (fun x => ix2 r x) (Fin.ext (by show l.val = 32 + e.val; omega))).trans (store_emb 32 _ r e (by omega)).symm
    have hn96 : ix2 r l ∉ s1_3.set := not_mem_store 96 _ r l (Or.inl (by omega))
    have hn64 : ix2 r l ∉ s1_2.set := not_mem_store 64 _ r l (Or.inl (by omega))
    rw [View.canon_cons_of_not_mem (⟨s1_3, k1_pay4 (View.ld x0 l1_3)⟩ : View.Piece (Elt F) S4096x128 .f32) _ hn96,
      View.canon_cons_of_not_mem (⟨s1_2, k1_pay3 (View.ld x0 l1_2)⟩ : View.Piece (Elt F) S4096x128 .f32) _ hn64,
      hl',
      View.canon_cons_emb,
      k1_pay2_apply]
    exact (load_idx 4096 _ e r (by omega) x0).trans
      (congrArg (fun x => x0 (ix2 e x)) (Fin.ext (by show 4096 + r.val = k.val; omega)))
  · have hl' : ix2 r l = s1_2.emb (ix2 r e) :=
      (congrArg (fun x => ix2 r x) (Fin.ext (by show l.val = 64 + e.val; omega))).trans (store_emb 64 _ r e (by omega)).symm
    have hn96 : ix2 r l ∉ s1_3.set := not_mem_store 96 _ r l (Or.inl (by omega))
    rw [View.canon_cons_of_not_mem (⟨s1_3, k1_pay4 (View.ld x0 l1_3)⟩ : View.Piece (Elt F) S4096x128 .f32) _ hn96,
      hl',
      View.canon_cons_emb,
      k1_pay3_apply]
    exact (load_idx 8192 _ e r (by omega) x0).trans
      (congrArg (fun x => x0 (ix2 e x)) (Fin.ext (by show 8192 + r.val = k.val; omega)))
  · have hl' : ix2 r l = s1_3.emb (ix2 r e) :=
      (congrArg (fun x => ix2 r x) (Fin.ext (by show l.val = 96 + e.val; omega))).trans (store_emb 96 _ r e (by omega)).symm
    rw [hl',
      View.canon_cons_emb,
      k1_pay4_apply]
    exact (load_idx 12288 _ e r (by omega) x0).trans
      (congrArg (fun x => x0 (ix2 e x)) (Fin.ext (by show 12288 + r.val = k.val; omega)))

/-! ## The pipeline's proof data -/

/-- What the body leaves in window 1's buffer at point `t`: on every lane that comes from a column of the table
    (the last block reaches past the table's end), the transposed table's entry. -/
def wideRel1 (c : Dev nD) (t : Fin cfg1.N) (X : S4096x128.Idx → Elt F .f32) : Prop :=
  ∀ (r : Fin 4096) (q : Fin 4) (e : Fin 32) (hn : 16384 * t.val + 4096 * q.val + r.val < 1000000),
    X (ix2 r (⟨32 * q.val + e.val, by omega⟩ : Fin 128))
      = V c main_v2 (ix2 e (⟨16384 * t.val + 4096 * q.val + r.val, hn⟩ : Fin 1000000))

/-- The proof data of the region on core `c`: the arrays as the region finds them (`V`); the body leaves the input's
    buffer as it found it and the output's in the relation `wideRel1`; the invariant `ΦR`; the tallies `O` owed at
    every point; full shares. -/
def rdat1 (c : Dev nD) : RDat τ (Elt F) (HIx 1) ℕ Cert.Kernel.Setup.UU ℕ cfg1 c where
  A w := V c (Pipeline.arrRef spec1 w)
  after w t := match w with
    | ⟨0, _⟩ => fun Y X => X = Y
    | ⟨1, _⟩ => fun _ X => wideRel1 V c t X
  Φ _ := ΦR spec1 c
  q _ := fullShare
  owed _ := O
  recorded _ := B

/-- The windows' block indices and the input block's cut, point by point. -/
theorem idx_facts1 : ∀ t : Fin cfg1.N, win1_0.index t 0 = 0 ∧ win1_0.index t 1 = t.val
    ∧ win1_0.xsize (grid1.coords t) 0 = 32 ∧ win1_0.xsize (grid1.coords t) 1 = min 16384 (1000000 - 16384 * t.val)
    ∧ win1_1.index t 0 = t.val ∧ win1_1.index t 1 = 0 :=
  (by decide +kernel : ∀ t : Fin grid1.N, win1_0.index t 0 = 0 ∧ win1_0.index t 1 = t.val
    ∧ win1_0.xsize (grid1.coords t) 0 = 32 ∧ win1_0.xsize (grid1.coords t) 1 = min 16384 (1000000 - 16384 * t.val)
    ∧ win1_1.index t 0 = t.val ∧ win1_1.index t 1 = 0)

/-- The input's buffer just fetched at point `t`, read at a column that lies inside the table: the table's entry. -/
theorem fetched1_apply (c : Dev nD) (t : Fin cfg1.N) (d : S32x16384.Idx → Elt F .f32) (e : Fin 32) (k : Fin 16384)
    (hk : 16384 * t.val + k.val < 1000000) :
    (rdat1 (F := F) V O B c).fetched 0 t d (ix2 e k) = V c main_v2 (ix2 e (⟨16384 * t.val + k.val, hk⟩ : Fin 1000000)) := by
  obtain ⟨i0, i1, x0, x1, -, -⟩ := idx_facts1 t
  have hm : ∀ a, ((ix2 e k : S32x16384.Idx) a).val < win1_0.xsize (grid1.coords t) a := fun a => by
    match a with
    | ⟨0, _⟩ => show e.val < win1_0.xsize (grid1.coords t) 0; rw [x0]; exact e.isLt
    | ⟨1, _⟩ => show k.val < win1_0.xsize (grid1.coords t) 1; rw [x1]; have := k.isLt; omega
  unfold RDat.fetched Window.fill
  rw [dif_pos ((win1_0.moved_iff _ _).mpr hm)]
  show V c main_v2 _ = V c main_v2 _
  congr 1
  funext a; refine Fin.ext ?_
  match a with
  | ⟨0, _⟩ =>
    show win1_0.index t 0 * 32 + 1 * e.val = e.val
    rw [i0]; omega
  | ⟨1, _⟩ =>
    show win1_0.index t 1 * 16384 + 1 * k.val = 16384 * t.val + k.val
    rw [i1]; omega

/-- A buffer just fetched at point `t` goes, through the body's four transposes, to contents in the relation. -/
theorem wideRel1_out (c : Dev nD) (t : Fin cfg1.N) (d : S32x16384.Idx → Elt F .f32) :
    wideRel1 V c t (out1 ((rdat1 (F := F) V O B c).fetched 0 t d)) := by
  intro r q e hn
  rw [out1_apply _ r q e _ (⟨4096 * q.val + r.val, by omega⟩ : Fin 16384) rfl rfl,
    fetched1_apply V O B c t d e _ (by show 16384 * t.val + (4096 * q.val + r.val) < 1000000; omega)]
  congr 1
  exact congrArg (fun x => ix2 e x) (Fin.ext (by show 16384 * t.val + (4096 * q.val + r.val) = 16384 * t.val + 4096 * q.val + r.val; omega))

/-! ## The body obligation -/

/-- The body at any point, for any contents the input's buffer may then hold (it was just fetched) and any contents of
    the output's: `sound_kernel1` applies; the invariant and the core's tallies pass through unread. -/
theorem sound_body1 (c : Dev nD) (t : Fin cfg1.N) (Y0 : S32x16384.Idx → Elt F .f32) (Y1 : S4096x128.Idx → Elt F .f32)
    (h0 : (rdat1 (F := F) V O B c).Finds 0 t Y0) :
    iprop((rdat1 (F := F) V O B c).Φ t.castSucc ∗ (rdat1 (F := F) V O B c).owesAt none t.castSucc
        ∗ owns (c : Thread nD τ) (st1_0 t) fullShare Y0 ∗ owns (c : Thread nD τ) (st1_1 t) fullShare Y1)
      ⊢ wp frame (wpE (defs₀ (F := F)) Variants.none c none) Set.univ (bodyAt1 t) (fun _ =>
          iprop((rdat1 (F := F) V O B c).Φ t.succ ∗ (rdat1 (F := F) V O B c).owesAt none t.succ
            ∗ (∃ X, ⌜(rdat1 (F := F) V O B c).after 0 t Y0 X⌝ ∗ owns (c : Thread nD τ) (st1_0 t) fullShare X)
            ∗ (∃ X, ⌜(rdat1 (F := F) V O B c).after 1 t Y1 X⌝ ∗ owns (c : Thread nD τ) (st1_1 t) fullShare X))) := by
  rw [(rdat1 (F := F) V O B c).finds_of_fetch (fetch1_0 t)] at h0
  obtain ⟨d, rfl⟩ := h0
  rw [show (rdat1 (F := F) V O B c).Φ t.succ = (rdat1 (F := F) V O B c).Φ t.castSucc from rfl,
    show (rdat1 (F := F) V O B c).owesAt none t.succ = (rdat1 (F := F) V O B c).owesAt none t.castSucc from rfl]
  unfold bodyAt1
  iintro ⟨HΦ, Ho, H0, H1⟩
  iapply (sound_kernel1 c Set.univ (grid1.coords t) _ _ _ _ ((rdat1 (F := F) V O B c).fetched 0 t d) _)
  isplitl [H0]; · iexact H0
  isplitl [H1]; · iexists _; iexact H1
  iintro ⟨H0, H1⟩
  isplitl [HΦ]; · iexact HΦ
  isplitl [Ho]; · iexact Ho
  isplitl [H0]
  · iexists _; isplitr; · ipureintro; exact (rfl : (rdat1 (F := F) V O B c).fetched 0 t d = _)
    iexact H0
  · iexists _; isplitr
    swap; · iexact H1
    ipureintro
    exact wideRel1_out V O B c t d

/-- The library's body obligation, at every point and for all contents the buffers may then hold. -/
theorem body_obligation1 (c : Dev nD) :
    (rdat1 (F := F) V O B c).BodyObligation (defs₀ (F := F)) Variants.none (none : HIx 1) Set.univ := fun t Y hY => by
  rw [bigSep_W1, bigSep_W1]
  exact sound_body1 V O B c t (Y 0) (Y 1) (hY 0)

/-! ## The packed table after the write-backs -/

/-- Window 1's block at point `t` is rows `4096·t … 4096·t + 4095` of the packed table, every lane. -/
theorem mem_rect1_1 (t : Fin cfg1.N) (i : S253952x128.Idx) :
    i ∈ (win1_1.rect t).set ↔ 4096 * t.val ≤ (i 0).val ∧ (i 0).val < 4096 * t.val + 4096 := by
  obtain ⟨-, -, -, -, j0, j1⟩ := idx_facts1 t
  rw [Rect.mem_set_unit]
  constructor
  · intro h
    have h0 : win1_1.index t 0 * 4096 ≤ (i 0).val ∧ (i 0).val < win1_1.index t 0 * 4096 + 4096 := h 0
    rw [j0] at h0; omega
  · intro h a
    match a with
    | ⟨0, _⟩ =>
      show win1_1.index t 0 * 4096 ≤ (i 0).val ∧ (i 0).val < win1_1.index t 0 * 4096 + 4096
      rw [j0]; omega
    | ⟨1, _⟩ =>
      show win1_1.index t 1 * 128 ≤ (i 1).val ∧ (i 1).val < win1_1.index t 1 * 128 + 128
      rw [j1]; have : (i 1).val < 128 := (i 1).isLt; omega

/-- Where window 1's block at point `t` puts its index `(r, l)`: row `4096·t + r`, lane `l`. -/
theorem rect1_1_emb (t : Fin cfg1.N) (r : Fin 4096) (l : Fin 128) (h : 4096 * t.val + r.val < 253952) :
    (win1_1.rect t).emb (ix2 r l : S4096x128.Idx) = ix2 (⟨4096 * t.val + r.val, h⟩ : Fin 253952) l := by
  obtain ⟨-, -, -, -, j0, j1⟩ := idx_facts1 t
  funext a; refine Fin.ext ?_
  match a with
  | ⟨0, _⟩ => show win1_1.index t 0 * 4096 + 1 * r.val = 4096 * t.val + r.val; rw [j0]; omega
  | ⟨1, _⟩ => show win1_1.index t 1 * 128 + 1 * l.val = l.val; rw [j1]; omega

/-- The packed table carries the transposed table on the lanes of every table row below `16384·m`. -/
def WideUpTo1 (c : Dev nD) (m : Nat) (f : S253952x128.Idx → Elt F .f32) : Prop :=
  ∀ (n : Fin 1000000) (e : Fin 32), n.val < 16384 * m →
    f (ix2 (Cert.Packed.wideRow n.val n.isLt) (Cert.Packed.wideLane n.val e)) = V c main_v2 (ix2 e n)

/-- One write-back: the block written at point `m` holds table rows `16384·m …`, in the relation the body leaves, and
    lies past the packed rows of every earlier table row, which it therefore keeps. -/
theorem step_wide1 (c : Dev nD) (m : Nat) (hlt : m < cfg1.N) (G₀ : S253952x128.Idx → Elt F .f32) (X : S4096x128.Idx → Elt F .f32)
    (ih : WideUpTo1 V c m G₀) (hrel : wideRel1 V c ⟨m, hlt⟩ X) :
    WideUpTo1 V c (m + 1) (((View.whole main_v3).slice (win1_1.rect ⟨m, hlt⟩)).write (Elt F) G₀
      (fun j => X (win1_1.xinj (grid1.coords ⟨m, hlt⟩) j)) Finset.univ) := by
  have h62 : m < 62 := by rw [show cfg1.N = 62 from N_1] at hlt; exact hlt
  intro n e hn
  have hn' := n.isLt
  by_cases hb : 16384 * m ≤ n.val
  · -- the table row is in the block written at point `m`
    have hr : 4096 * m + n.val % 4096 < 253952 := by omega
    have hI : (ix2 (Cert.Packed.wideRow n.val n.isLt) (Cert.Packed.wideLane n.val e) : S253952x128.Idx)
        = (win1_1.rect ⟨m, hlt⟩).emb (ix2 (⟨n.val % 4096, by omega⟩ : Fin 4096) (Cert.Packed.wideLane n.val e) : S4096x128.Idx) :=
      (congrArg (fun x => ix2 x (Cert.Packed.wideLane n.val e))
        (Fin.ext (by show 4096 * (n.val / 16384) + n.val % 4096 = 4096 * m + n.val % 4096; omega))).trans
        (rect1_1_emb ⟨m, hlt⟩ ⟨n.val % 4096, by omega⟩ (Cert.Packed.wideLane n.val e) hr).symm
    have hq : 16384 * m + 4096 * ((n.val / 4096) % 4) + n.val % 4096 < 1000000 := by omega
    rw [hI, write_slice_whole_emb]
    refine (hrel ⟨n.val % 4096, by omega⟩ ⟨(n.val / 4096) % 4, by omega⟩ e hq).trans ?_
    congr 1
    exact congrArg (fun x => ix2 e x) (Fin.ext (by show 16384 * m + 4096 * ((n.val / 4096) % 4) + n.val % 4096 = n.val; omega))
  · -- the table row was written at an earlier point, and this block lies past its packed row
    have hnot : (ix2 (Cert.Packed.wideRow n.val n.isLt) (Cert.Packed.wideLane n.val e) : S253952x128.Idx)
        ∉ (win1_1.rect ⟨m, hlt⟩).set := by
      rw [mem_rect1_1]
      show ¬ (4096 * m ≤ 4096 * (n.val / 16384) + n.val % 4096 ∧ 4096 * (n.val / 16384) + n.val % 4096 < 4096 * m + 4096)
      omega
    rw [write_slice_whole_of_not_mem (b := main_v3) (win1_1.rect ⟨m, hlt⟩) _ _ _ hnot]
    exact ih n e (by omega)

/-- After the write-backs of the points below `m` the packed table carries table rows `0 … 16384·m − 1`. -/
theorem arrAt_wide1 (c : Dev nD) : ∀ (m : Nat), m ≤ 62 → ∀ f, (rdat1 (F := F) V O B c).ArrAt 1 m f → WideUpTo1 V c m f
  | 0, _, f, _ => fun n e hn => absurd hn (by omega)
  | m + 1, hm, f, h => by
    have hlt : m < cfg1.N := by rw [show cfg1.N = 62 from N_1]; omega
    have hstep : (rdat1 (F := F) V O B c).ArrStep 1 ⟨m, hlt⟩ ((rdat1 (F := F) V O B c).ArrAt 1 m) f := by
      have h' := h
      unfold RDat.ArrAt at h'
      simp only [dif_pos hlt, if_pos (flush1_1 ⟨m, hlt⟩)] at h'
      exact h'
    obtain ⟨G₀, X, hG₀, ⟨Y, -, hrel⟩, hf⟩ := hstep
    subst hf
    exact step_wide1 V c m hlt G₀ X (arrAt_wide1 c m (by omega) G₀ hG₀) hrel

/-- After the region, the packed table carries every table row. -/
theorem wide_of_arrAt1 (c : Dev nD) (f : Buf (Elt F) ((cfg1.win 1).arr.view.loc (c.tc : Thread nD τ)))
    (h : (rdat1 (F := F) V O B c).ArrAt 1 cfg1.N f) :
    ∀ (n : Fin 1000000) (e : Fin 32),
      f (ix2 (Cert.Packed.wideRow n.val n.isLt) (Cert.Packed.wideLane n.val e)) = V c main_v2 (ix2 e n) := by
  rw [show cfg1.N = 62 from N_1] at h
  exact fun n e => arrAt_wide1 V O B c 62 le_rfl f h n e (by have := n.isLt; omega)

/-- So, the region's input being the embedding table transposed, the packed table it leaves carries the table. -/
theorem wideOK_of_arrAt1 (c : Dev nD) (f : Buf (Elt F) ((cfg1.win 1).arr.view.loc (c.tc : Thread nD τ)))
    (h : (rdat1 (F := F) V O B c).ArrAt 1 cfg1.N f)
    (hT : V c main_v2 = transpose S32x1000000 [1, 0] (V c main_arg3) transposes_S1000000x32_S32x1000000_1_0) :
    Cert.Packed.WideOK (V c main_arg3) f := by
  intro n d
  rw [wide_of_arrAt1 V O B c f h n d, hT]
  exact transpose_apply _ _ _ (ix2 d n) (ix2 n d) fun b => by match b with | ⟨0, _⟩ => rfl | ⟨1, _⟩ => rfl

end Cert.Kernel.TcSide

end
-- ==== Proof.TcDotW.lean ====
/-
  The inner-product region (the third TensorCore call of the program) as a pipeline on one core: one grid point, five
  windows, each the whole of its array — the two [4096, 128] tables of copied-out packed rows (windows 0 and 1), the two
  [4096, 1] id columns (windows 2 and 3) and the [4096, 1] result (window 4). The body picks, row by row, the quarter of
  each packed row that the row's id selects, multiplies the two picked 32-wide rows lane by lane and sums the lanes.
  Everything is stated at the contents `V` the TensorCore's buffers hold when the region is entered, at the tallies `O`
  the core owes throughout the region and at a bound `B` on the wait pairs it has recorded (the body waits on nothing,
  so both pass through unread).
-/
import proofs.«203700_g68710886802180_cont_9to1c4b_800_29_alg».proof.Proof.Gen.Kernel.Launch
import proofs.«203700_g68710886802180_cont_9to1c4b_800_29_alg».proof.Proof.Gen.Kernel.Skeleton
import proofs.«203700_g68710886802180_cont_9to1c4b_800_29_alg».proof.Proof.Gen.Kernel.Points
import proofs.«203700_g68710886802180_cont_9to1c4b_800_29_alg».proof.Proof.LaunchSetupIdealW
import proofs.«203700_g68710886802180_cont_9to1c4b_800_29_alg».proof.Proof.TcDotBaseW
import Idealize.ShloMosaic.Lib.Pipeline.FrameBody
import Idealize.ShloMosaic.Lib.Ring
import Idealize.ShloMosaic.Lib.Tactic

set_option maxRecDepth 16384

noncomputable section

namespace Cert.Kernel.TcSide

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ Cert.Kernel.Setup.UU ℕ

variable (V : (c : Dev nD) → (b : Ref sig .tc) → Buf (Elt F) ((c : Thread nD τ).loc b))
variable (O : CellTallies nD τ sig (HIx 1)) (B : Set (SemLoc sig × HIx 1))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data
    whose array is `V`'s and whose body leaves the block in place. -/
theorem before3_0_of {c : Dev nD} (dat : Dat τ (Elt F) (HIx 1) ℕ Cert.Kernel.Setup.UU ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof data
    whose array is `V`'s and whose body leaves the block in place. -/
theorem before3_1_of {c : Dev nD} (dat : Dat τ (Elt F) (HIx 1) ℕ Cert.Kernel.Setup.UU ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof data
    whose array is `V`'s and whose body leaves the block in place. -/
theorem before3_2_of {c : Dev nD} (dat : Dat τ (Elt F) (HIx 1) ℕ Cert.Kernel.Setup.UU ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof data
    whose array is `V`'s and whose body leaves the block in place. -/
theorem before3_3_of {c : Dev nD} (dat : Dat τ (Elt F) (HIx 1) ℕ Cert.Kernel.Setup.UU ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

/-- The whole of a [4096, 1] column. -/
abbrev r3_col : Rect S4096x1 := Rect.unit (s := S4096x1) ![0, 0] S4096x1.size inb_S4096x1_S4096x1_0_0
/-- The four 32-lane quarters of a [4096, 128] table. -/
abbrev r3_q0 : Rect S4096x128 := Rect.unit (s := S4096x128) ![0, 0] S4096x32.size inb_S4096x128_S4096x32_0_0
abbrev r3_q1 : Rect S4096x128 := Rect.unit (s := S4096x128) ![0, 32] S4096x32.size inb_S4096x128_S4096x32_0_32
abbrev r3_q2 : Rect S4096x128 := Rect.unit (s := S4096x128) ![0, 64] S4096x32.size inb_S4096x128_S4096x32_0_64
abbrev r3_q3 : Rect S4096x128 := Rect.unit (s := S4096x128) ![0, 96] S4096x32.size inb_S4096x128_S4096x32_0_96

/-! ## What the body leaves in the output window's buffer -/

/-- The value the body stores, from the input windows' blocks: the lane sums of the products of the two picked rows. -/
def pay3 (x0 : Vec F S4096x128 .f32) (x1 : Vec F S4096x128 .f32) (x2 : Vec F S4096x1 .i32) (x3 : Vec F S4096x1 .i32) : FVec F S4096x1 .f32 :=
  k3_pay1
    (k3_pay8 (k3_pay3 (View.ld x3 r3_col)) (k3_pay5 (View.ld x3 r3_col) (View.ld x1 r3_q0)) (View.ld x1 r3_q1) (View.ld x1 r3_q2))
    (k3_pay9 (k3_pay2 (View.ld x2 r3_col)) (k3_pay4 (View.ld x2 r3_col) (View.ld x0 r3_q0)) (k3_pay6 (View.ld x0 r3_q1))
      (Scalar.ofBits .f32 0x00000000#32) (k3_pay7 (View.ld x2 r3_col)) (View.ld x0 r3_q2) (View.ld x0 r3_q3))
    (k3_pay10 (k3_pay3 (View.ld x3 r3_col)))
    (View.ld x1 r3_q3)

/-- Window 4's staging buffer after the body, from the input windows' blocks: its one store, of the whole buffer. -/
def out3_4 (x0 : Vec F S4096x128 .f32) (x1 : Vec F S4096x128 .f32) (x2 : Vec F S4096x1 .i32) (x3 : Vec F S4096x1 .i32) : Vec F S4096x1 .f32 :=
  View.canon [⟨r3_col, pay3 x0 x1 x2 x3⟩]

/-- The store is of the whole buffer, so it covers it. -/
theorem cover3_4 (p0 : Vec F S4096x1 .f32) (y : S4096x1.Idx) :
    ∃ pc ∈ ([⟨r3_col, p0⟩] : List (View.Piece (Elt F) S4096x1 .f32)), y ∈ pc.1.set :=
  View.cover_of_tiled [⟨r3_col, p0⟩] S4096x1.size (by rfl) y

/-! ## The body's triple -/

set_option maxHeartbeats 2000000 in
/-- The body on whole staging memrefs, the inputs' at read contents `x0 … x3` and the output's at anything, runs to the
    continuation holding the inputs' as they were and the output's at `out3_4 x0 x1 x2 x3`. -/
theorem sound_kernel3 (c : Dev nD) (E : Set ℕ) (arg0 : Memref sig .tc .vmem S4096x128 .f32) (harg0 : arg0.IsWhole) (arg1 : Memref sig .tc .vmem S4096x128 .f32) (harg1 : arg1.IsWhole) (arg2 : Memref sig .tc .vmem S4096x1 .i32) (harg2 : arg2.IsWhole) (arg3 : Memref sig .tc .vmem S4096x1 .i32) (harg3 : arg3.IsWhole) (arg4 : Memref sig .tc .vmem S4096x1 .f32) (harg4 : arg4.IsWhole)
    (x0 : Vec F S4096x128 .f32) (x1 : Vec F S4096x128 .f32) (x2 : Vec F S4096x1 .i32) (x3 : Vec F S4096x1 .i32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out3_4 x0 x1 x2 x3)) -∗ K ⟨⟩))
      ⊢ wp frame (wpE (defs₀ (F := F)) Variants.none c none) E (cc3__dot_body arg0 harg0 arg1 harg1 arg2 harg2 arg3 harg3 arg4 harg4) K := by
  simp only [cc3__dot_body_eq_skeleton]; unfold cc3__dot_body_skel
  simp only [k3_part1_eq_skeleton]; unfold k3_part1_skel
  simp only [k3_part2_eq_skeleton]; unfold k3_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover3_4 _)

/-! ## The pipeline's proof data -/

/-- The proof data of the region on core `c`: the arrays as the region finds them (`V`); after the body each input's
    buffer at its block and the output's at `out3_4` of the input blocks; the invariant `ΦR`; the tallies `O` owed at
    every point, the recorded wait pairs within `B`; full shares. -/
def dat3 (c : Dev nD) : Dat τ (Elt F) (HIx 1) ℕ Cert.Kernel.Setup.UU ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := ΦR spec3 c
  q _ := fullShare
  owed _ := O
  recorded _ := B

/-- The proof data's arrays are the region-entry contents. -/
theorem A_eq3 (c : Dev nD) (w : Fin cfg3.W) : (dat3 V O B c).A w = V c (Pipeline.arrRef spec3 w) := by
  dsimp only [dat3]

/-- What the body leaves, window by window. -/
theorem after3_0 (c : Dev nD) (t : Fin cfg3.N) : (dat3 V O B c).after 0 t = iblk3 V c 0 t := by dsimp only [dat3]
theorem after3_1 (c : Dev nD) (t : Fin cfg3.N) : (dat3 V O B c).after 1 t = iblk3 V c 1 t := by dsimp only [dat3]
theorem after3_2 (c : Dev nD) (t : Fin cfg3.N) : (dat3 V O B c).after 2 t = iblk3 V c 2 t := by dsimp only [dat3]
theorem after3_3 (c : Dev nD) (t : Fin cfg3.N) : (dat3 V O B c).after 3 t = iblk3 V c 3 t := by dsimp only [dat3]
theorem after3_4 (c : Dev nD) (t : Fin cfg3.N) : (dat3 V O B c).after 4 t = out3_4 (iblk3 V c 0 t) (iblk3 V c 1 t) (iblk3 V c 2 t) (iblk3 V c 3 t) := by dsimp only [dat3]

/-- Each input's current staging buffer holds its block at every point, fetched there or not. -/
theorem before3_0 (c : Dev nD) (t : Fin cfg3.N) (d) : (dat3 V O B c).before 0 t d = iblk3 V c 0 t :=
  before3_0_of V (dat3 V O B c) (A_eq3 V O B c 0) (after3_0 V O B c) t d
theorem before3_1 (c : Dev nD) (t : Fin cfg3.N) (d) : (dat3 V O B c).before 1 t d = iblk3 V c 1 t :=
  before3_1_of V (dat3 V O B c) (A_eq3 V O B c 1) (after3_1 V O B c) t d
theorem before3_2 (c : Dev nD) (t : Fin cfg3.N) (d) : (dat3 V O B c).before 2 t d = iblk3 V c 2 t :=
  before3_2_of V (dat3 V O B c) (A_eq3 V O B c 2) (after3_2 V O B c) t d
theorem before3_3 (c : Dev nD) (t : Fin cfg3.N) (d) : (dat3 V O B c).before 3 t d = iblk3 V c 3 t :=
  before3_3_of V (dat3 V O B c) (A_eq3 V O B c 3) (after3_3 V O B c) t d

/-! ## The body obligation, at a generic point -/

/-- What the body is called with at point `t`, the windows one by one, -/
def bodyPre3 (c : Dev nD) (t : Fin cfg3.N) : sProp 𝕄 :=
  iprop((dat3 V O B c).Φ t.castSucc ∗ (dat3 V O B c).owesAt none t.castSucc
    ∗ (∃ d, owns (c : Thread nD τ) (st3_0 t) fullShare ((dat3 V O B c).before 0 t d))
    ∗ (∃ d, owns (c : Thread nD τ) (st3_1 t) fullShare ((dat3 V O B c).before 1 t d))
    ∗ (∃ d, owns (c : Thread nD τ) (st3_2 t) fullShare ((dat3 V O B c).before 2 t d))
    ∗ (∃ d, owns (c : Thread nD τ) (st3_3 t) fullShare ((dat3 V O B c).before 3 t d))
    ∗ (∃ d, owns (c : Thread nD τ) (st3_4 t) fullShare ((dat3 V O B c).before 4 t d)))

/-- and what it returns. -/
def bodyPost3 (c : Dev nD) (t : Fin cfg3.N) : sProp 𝕄 :=
  iprop((dat3 V O B c).Φ t.succ ∗ (dat3 V O B c).owesAt none t.succ
    ∗ owns (c : Thread nD τ) (st3_0 t) fullShare ((dat3 V O B c).after 0 t)
    ∗ owns (c : Thread nD τ) (st3_1 t) fullShare ((dat3 V O B c).after 1 t)
    ∗ owns (c : Thread nD τ) (st3_2 t) fullShare ((dat3 V O B c).after 2 t)
    ∗ owns (c : Thread nD τ) (st3_3 t) fullShare ((dat3 V O B c).after 3 t)
    ∗ owns (c : Thread nD τ) (st3_4 t) fullShare ((dat3 V O B c).after 4 t))

/-- The body at the point: the inputs' memrefs hold their blocks, so `sound_kernel3` applies; the invariant and the
    core's `owes` pass through unread. -/
theorem sound_body3 (c : Dev nD) (t : Fin cfg3.N) :
    bodyPre3 V O B c t ⊢ wp frame (wpE (defs₀ (F := F)) Variants.none c none) Set.univ (bodyAt3 t) (fun _ => bodyPost3 V O B c t) := by
  unfold bodyPre3 bodyPost3 bodyAt3
  simp only [before3_0, before3_1, before3_2, before3_3]
  rw [show (dat3 V O B c).Φ t.succ = (dat3 V O B c).Φ t.castSucc from rfl,
    show (dat3 V O B c).owesAt none t.succ = (dat3 V O B c).owesAt none t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation3 (c : Dev nD) : BodyObligation (dat3 (F := F) V O B c) (defs₀ (F := F)) Variants.none none Set.univ := fun t => by
  rw [bigSep_W3, bigSep_W3]
  exact sound_body3 V O B c t

end Cert.Kernel.TcSide

end
-- ==== Proof.TcDotValueW.lean ====
/-
  The inner-product region's result. For every float instance, after the region the [4096, 1] result array holds what
  the body stores when its five windows are the whole arrays: `out3_4` of the two tables of packed rows and the two id
  columns as the region found them. On the extended reals that value is read entry by entry: the id column's word `w`
  at row `b` selects quarter `(w / 4096) % 4` of the packed row — the body adds four candidates to zero, all but that
  one masked to zero —, so the two picked 32-wide rows are lanes `32·q … 32·q + 31` of the two packed rows, and the
  entry is the sum over the 32 lanes of their products. Where the packed rows carry the embedding rows the ids name on
  exactly those lanes, the entry is the inner product of the two embedding rows.
-/
import proofs.«203700_g68710886802180_cont_9to1c4b_800_29_alg».proof.Proof.TcDotW
import proofs.«203700_g68710886802180_cont_9to1c4b_800_29_alg».proof.Proof.Packed
import proofs.«203700_g68710886802180_cont_9to1c4b_800_29_alg».proof.Proof.Scores
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators

namespace Cert.Kernel.TcSide

open Cert.Kernel Cert.Kernel.Gen
open Idealize.ShloMosaic Idealize.ShloMosaic.TcCoe Idealize.ShloMosaic.ValueIdx
open Idealize.ShloMosaic.SparseCore.Cfg (HIx)
open Idealize.SL.Sem
open Idealize.ShloMosaic.Pipeline (Dat)

/-! ## The array after the region, for every float instance -/

section Final

variable {F : FTy → Type} [FloatOps F]
variable (V : (c : Dev nD) → (b : Ref sig .tc) → Buf (Elt F) ((c : Thread nD τ).loc b))
variable (O : CellTallies nD τ sig (HIx 1)) (B : Set (SemLoc sig × HIx 1))

/-- Each window is the whole of its array: its block at the one point, read off the array, is the array. -/
theorem iblk3_0 (c : Dev nD) (t : Fin cfg3.N) : iblk3 V c 0 t = (V c main_v6_0 : S4096x128.Idx → Elt F .f32) := by
  funext j
  show V c main_v6_0 (((cfg3.win 0).blk t).view.emb j) = V c main_v6_0 j
  congr 1
  funext a; apply Fin.ext
  match a with
  | ⟨0, _⟩ => show win3_0.index t (0 : Fin 2) * 4096 + 1 * (j 0).val = (j 0).val; have h : win3_0.index t (0 : Fin 2) = 0 := rfl; omega
  | ⟨1, _⟩ => show win3_0.index t (1 : Fin 2) * 128 + 1 * (j 1).val = (j 1).val; have h : win3_0.index t (1 : Fin 2) = 0 := rfl; omega
theorem iblk3_1 (c : Dev nD) (t : Fin cfg3.N) : iblk3 V c 1 t = (V c main_v6_1 : S4096x128.Idx → Elt F .f32) := by
  funext j
  show V c main_v6_1 (((cfg3.win 1).blk t).view.emb j) = V c main_v6_1 j
  congr 1
  funext a; apply Fin.ext
  match a with
  | ⟨0, _⟩ => show win3_1.index t (0 : Fin 2) * 4096 + 1 * (j 0).val = (j 0).val; have h : win3_1.index t (0 : Fin 2) = 0 := rfl; omega
  | ⟨1, _⟩ => show win3_1.index t (1 : Fin 2) * 128 + 1 * (j 1).val = (j 1).val; have h : win3_1.index t (1 : Fin 2) = 0 := rfl; omega
theorem iblk3_2 (c : Dev nD) (t : Fin cfg3.N) : iblk3 V c 2 t = (V c main_v7 : S4096x1.Idx → Elt F .i32) := by
  funext j
  show V c main_v7 (((cfg3.win 2).blk t).view.emb j) = V c main_v7 j
  congr 1
  funext a; apply Fin.ext
  match a with
  | ⟨0, _⟩ => show win3_2.index t (0 : Fin 2) * 4096 + 1 * (j 0).val = (j 0).val; have h : win3_2.index t (0 : Fin 2) = 0 := rfl; omega
  | ⟨1, _⟩ => show win3_2.index t (1 : Fin 2) * 1 + 1 * (j 1).val = (j 1).val; have h : win3_2.index t (1 : Fin 2) = 0 := rfl; omega
theorem iblk3_3 (c : Dev nD) (t : Fin cfg3.N) : iblk3 V c 3 t = (V c main_v8 : S4096x1.Idx → Elt F .i32) := by
  funext j
  show V c main_v8 (((cfg3.win 3).blk t).view.emb j) = V c main_v8 j
  congr 1
  funext a; apply Fin.ext
  match a with
  | ⟨0, _⟩ => show win3_3.index t (0 : Fin 2) * 4096 + 1 * (j 0).val = (j 0).val; have h : win3_3.index t (0 : Fin 2) = 0 := rfl; omega
  | ⟨1, _⟩ => show win3_3.index t (1 : Fin 2) * 1 + 1 * (j 1).val = (j 1).val; have h : win3_3.index t (1 : Fin 2) = 0 := rfl; omega

/-- The output window is the whole of its array: a read of any contents through its block is those contents, -/
theorem read_blk3_4 (t : Fin cfg3.N) (G : S4096x1.Idx → Elt F .f32) : ((cfg3.win 4).blk t).view.read (Elt F) G = G := by
  funext j
  show G (((cfg3.win 4).blk t).view.emb j) = G j
  congr 1
  funext a; apply Fin.ext
  match a with
  | ⟨0, _⟩ => show win3_4.index t (0 : Fin 2) * 4096 + 1 * (j 0).val = (j 0).val; have h : win3_4.index t (0 : Fin 2) = 0 := rfl; omega
  | ⟨1, _⟩ => show win3_4.index t (1 : Fin 2) * 1 + 1 * (j 1).val = (j 1).val; have h : win3_4.index t (1 : Fin 2) = 0 := rfl; omega

/-- and the part of its staging buffer the write-back moves is all of it. -/
theorem cut3_4 (t : Fin cfg3.N) (X : S4096x1.Idx → Elt F .f32) : (cfg3.win 4).cut (grid3.coords t) X = X := by
  funext j; rfl

/-- What the one point writes back is the whole of `out3_4` of the four input arrays. -/
theorem flushed3_eq (c : Dev nD) (t : Fin cfg3.N) :
    (dat3 V O B c).flushed 4 t = ((cfg3.win 4).blk t).view.read (Elt F) (out3_4 (V c main_v6_0) (V c main_v6_1) (V c main_v7) (V c main_v8)) := by
  show (cfg3.win 4).cut (grid3.coords t) ((dat3 V O B c).after 4 t) = _
  rw [after3_4, iblk3_0, iblk3_1, iblk3_2, iblk3_3, read_blk3_4, cut3_4]

/-- An index of the array is in the point's block iff each coordinate is in the block's range on its axis. -/
theorem mem_blk3 (t : Fin cfg3.N) (i : S4096x1.Idx) :
    i ∈ ((cfg3.win 4).blk t).view.set ↔ ∀ a : Fin 2, win3_4.index t a * S4096x1.size a ≤ (i a).val ∧ (i a).val < win3_4.index t a * S4096x1.size a + S4096x1.size a := by
  show i ∈ ((View.whole main_v9).slice (win3_4.rect t)).set ↔ _
  rw [View.set_slice_whole, Rect.mem_set_unit]
  exact Iff.rfl

/-- The one point's block is the whole array. -/
theorem cover3 (i : S4096x1.Idx) : ∃ t : Fin cfg3.N, (cfg3.win 4).flush t = true ∧ i ∈ ((cfg3.win 4).blk t).view.set := by
  have hi0 : (i 0).val < 4096 := (i 0).isLt
  have hi1 : (i 1).val < 1 := (i 1).isLt
  refine ⟨t3_0, flush3_4 t3_0, ?_⟩
  rw [mem_blk3]
  intro a
  match a with
  | ⟨0, _⟩ => show win3_4.index t3_0 (0 : Fin 2) * 4096 ≤ (i 0).val ∧ (i 0).val < win3_4.index t3_0 (0 : Fin 2) * 4096 + 4096; have h : win3_4.index t3_0 (0 : Fin 2) = 0 := rfl; omega
  | ⟨1, _⟩ => show win3_4.index t3_0 (1 : Fin 2) * 1 ≤ (i 1).val ∧ (i 1).val < win3_4.index t3_0 (1 : Fin 2) * 1 + 1; have h : win3_4.index t3_0 (1 : Fin 2) = 0 := rfl; omega

/-- THE ARRAY after the region, for every float instance: `out3_4` of the four input arrays. -/
theorem final3 (c : Dev nD) :
    (dat3 V O B c).arrAt 4 cfg3.N = out3_4 (V c main_v6_0) (V c main_v6_1) (V c main_v7) (V c main_v8) :=
  (dat3 V O B c).arrAt_eq_of_cover 4 _ (fun t _ => flushed3_eq V O B c t) cover3

end Final

/-! ## The words: which quarter of its packed row an id selects -/

/-- The quarter of its packed row that an id word selects, as the body computes it: bits 12 and 13. -/
def quarter (w : BitVec 32) : BitVec 32 := IntOp.andi (IntOp.shrui .vector w 12#32) 3#32

/-- Bits 12 and 13 of a word, read as a number, are its quotient by 4096 modulo 4. -/
theorem quarter_toNat (w : BitVec 32) : (quarter w).toNat = (w.toNat / 4096) % 4 := by
  unfold quarter IntOp.andi IntOp.shrui
  rw [if_pos (by decide)]
  rw [BitVec.toNat_and, BitVec.ushiftRight_eq', BitVec.toNat_ushiftRight, Nat.shiftRight_eq_div_pow]
  show w.toNat / 2 ^ 12 &&& 2 ^ 2 - 1 = w.toNat / 4096 % 4
  rw [Nat.and_two_pow_sub_one_eq_mod]
  norm_num

/-- A select on an equality test of two words is the `if` on their equality. -/
theorem select_cmpi_eq {α : Type} (x y : BitVec 32) (A B : α) : Scalar.select (IntOp.cmpi .eq x y) A B = if x = y then A else B := by
  unfold Scalar.select IntOp.cmpi
  by_cases h : x = y
  · subst h; simp
  · have hb : (x == y) = false := by simpa using h
    simp [hb, h]

/-- Four candidates added to zero, each masked by "the word's quarter is `k`", leave the candidate of the word's quarter. -/
theorem pick_quarter (w : BitVec 32) (a : Fin 4 → EReal) :
    ((((0 : EReal) + Scalar.select (IntOp.cmpi .eq (quarter w) 0#32) (a 0) 0) + Scalar.select (IntOp.cmpi .eq (quarter w) 1#32) (a 1) 0) + Scalar.select (IntOp.cmpi .eq (quarter w) 2#32) (a 2) 0) + Scalar.select (IntOp.cmpi .eq (quarter w) 3#32) (a 3) 0
    = a ⟨(w.toNat / 4096) % 4, Nat.mod_lt _ (by decide)⟩ := by
  simp only [select_cmpi_eq]
  have hq := quarter_toNat w
  have key : ∀ k : Fin 4, (quarter w = BitVec.ofNat 32 k.val) ↔ (⟨(w.toNat / 4096) % 4, Nat.mod_lt _ (by decide)⟩ : Fin 4) = k := by
    intro k
    rw [← BitVec.toNat_inj, hq, Fin.ext_iff]
    have : (BitVec.ofNat 32 k.val).toNat = k.val := by
      rw [BitVec.toNat_ofNat]; have := k.isLt; omega
    rw [this]
  have k0 : (quarter w = 0#32) ↔ _ := key 0
  have k1 : (quarter w = 1#32) ↔ _ := key 1
  have k2 : (quarter w = 2#32) ↔ _ := key 2
  have k3 : (quarter w = 3#32) ↔ _ := key 3
  simp only [k0, k1, k2, k3]
  exact Cert.Scores.pick_one a _

/-! ## The loads and the broadcasts at an index -/

theorem col_off_zero : (![0, 0] : Fin 2 → Nat) = fun _ => 0 := funext fun a => by fin_cases a <;> rfl

/-- A load of the whole of a [4096, 1] column reads the column. -/
theorem ld_col {F : FTy → Type} {e : EltTy} (x : S4096x1.Idx → Elt F e) : View.ld x r3_col = x :=
  View.ld_unit_zero (S := S4096x1) col_off_zero _ x

/-- A load of quarter `k` of a [4096, 128] table reads, at row `b` and lane `d`, the table at row `b` and lane `32·k + d`. -/
theorem ld_q0 {F : FTy → Type} {e : EltTy} (x : S4096x128.Idx → Elt F e) (b : Fin 4096) (d : Fin 32) :
    View.ld x r3_q0 (ix2 b d) = x (ix2 b ⟨32 * 0 + d.val, by omega⟩) := by
  show x _ = x _
  congr 1
  funext a; apply Fin.ext
  match a with
  | ⟨0, _⟩ => show 0 + 1 * b.val = b.val; omega
  | ⟨1, _⟩ => show 0 + 1 * d.val = 32 * 0 + d.val; omega
theorem ld_q1 {F : FTy → Type} {e : EltTy} (x : S4096x128.Idx → Elt F e) (b : Fin 4096) (d : Fin 32) :
    View.ld x r3_q1 (ix2 b d) = x (ix2 b ⟨32 * 1 + d.val, by omega⟩) := by
  show x _ = x _
  congr 1
  funext a; apply Fin.ext
  match a with
  | ⟨0, _⟩ => show 0 + 1 * b.val = b.val; omega
  | ⟨1, _⟩ => show 32 + 1 * d.val = 32 * 1 + d.val; omega
theorem ld_q2 {F : FTy → Type} {e : EltTy} (x : S4096x128.Idx → Elt F e) (b : Fin 4096) (d : Fin 32) :
    View.ld x r3_q2 (ix2 b d) = x (ix2 b ⟨32 * 2 + d.val, by omega⟩) := by
  show x _ = x _
  congr 1
  funext a; apply Fin.ext
  match a with
  | ⟨0, _⟩ => show 0 + 1 * b.val = b.val; omega
  | ⟨1, _⟩ => show 64 + 1 * d.val = 32 * 2 + d.val; omega
theorem ld_q3 {F : FTy → Type} {e : EltTy} (x : S4096x128.Idx → Elt F e) (b : Fin 4096) (d : Fin 32) :
    View.ld x r3_q3 (ix2 b d) = x (ix2 b ⟨32 * 3 + d.val, by omega⟩) := by
  show x _ = x _
  congr 1
  funext a; apply Fin.ext
  match a with
  | ⟨0, _⟩ => show 0 + 1 * b.val = b.val; omega
  | ⟨1, _⟩ => show 96 + 1 * d.val = 32 * 3 + d.val; omega

/-- A [4096, 1] column broadcast along the lanes reads, at row `b` and any lane, the column at row `b`. -/
theorem bcast_col_apply {α : Type} (v : S4096x1.Idx → α) (b : Fin 4096) (d : Fin 32) :
    broadcastTo S4096x32 v broadcasts_S4096x1_S4096x32 (ix2 b d) = v (ix2 b 0) :=
  broadcastTo_apply v _ (ix2 b d) (ix2 b 0) fun a => match a with | ⟨0, _⟩ => rfl | ⟨1, _⟩ => rfl

/-- The zero constant of the body is the extended reals' zero. -/
theorem zero_f32 : (Scalar.ofBits .f32 0x00000000#32 : Ideal .f32) = (0 : EReal) := Ideal.ofBits_zero_f32

/-! ## The body's values at an index, on the extended reals -/

/-- The first operand of the product (the row picked through the FIRST id column), at row `b` and lane `d`: four
    candidates added to zero, masked by the quarter of the id word at row `b`. -/
theorem first_picked_apply (v0 : Vec Ideal S4096x1 .i32) (v16 v34 v52 v70 : Vec Ideal S4096x32 .f32) (b : Fin 4096) (d : Fin 32) :
    k3_pay9 (k3_pay2 v0) (k3_pay4 v0 v16) (k3_pay6 v34) (Scalar.ofBits .f32 0x00000000#32) (k3_pay7 v0) v52 v70 (ix2 b d)
      = ((((0 : EReal) + Scalar.select (IntOp.cmpi .eq (quarter (v0 (ix2 b 0))) 0#32) (v16 (ix2 b d)) 0) + Scalar.select (IntOp.cmpi .eq (quarter (v0 (ix2 b 0))) 1#32) (v34 (ix2 b d)) 0) + Scalar.select (IntOp.cmpi .eq (quarter (v0 (ix2 b 0))) 2#32) (v52 (ix2 b d)) 0) + Scalar.select (IntOp.cmpi .eq (quarter (v0 (ix2 b 0))) 3#32) (v70 (ix2 b d)) 0 := by
  unfold k3_pay9 k3_pay4 k3_pay6 k3_pay7 k3_pay2
  simp only [addf_apply, select_apply, broadcast_apply, shapeCast_self, bcast_col_apply, zero_f32]
  rfl

/-- The second operand (the row picked through the SECOND id column), its last candidate added where the product is
    formed. -/
theorem second_picked_apply (v6 : Vec Ideal S4096x1 .i32) (v25 v43 v61 v79 : Vec Ideal S4096x32 .f32) (b : Fin 4096) (d : Fin 32) :
    k3_pay8 (k3_pay3 v6) (k3_pay5 v6 v25) v43 v61 (ix2 b d) + Scalar.select (k3_pay10 (k3_pay3 v6) (ix2 b 0)) (v79 (ix2 b d)) 0
      = ((((0 : EReal) + Scalar.select (IntOp.cmpi .eq (quarter (v6 (ix2 b 0))) 0#32) (v25 (ix2 b d)) 0) + Scalar.select (IntOp.cmpi .eq (quarter (v6 (ix2 b 0))) 1#32) (v43 (ix2 b d)) 0) + Scalar.select (IntOp.cmpi .eq (quarter (v6 (ix2 b 0))) 2#32) (v61 (ix2 b d)) 0) + Scalar.select (IntOp.cmpi .eq (quarter (v6 (ix2 b 0))) 3#32) (v79 (ix2 b d)) 0 := by
  unfold k3_pay8 k3_pay5 k3_pay10 k3_pay3
  simp only [addf_apply, select_apply, broadcast_apply, shapeCast_self, bcast_col_apply, zero_f32]
  rfl

/-- A lane sum cast to a column reads, at row `b`, the sum of the source over row `b`'s 32 lanes. -/
theorem lane_sum_apply (src : FVec Ideal S4096x32 .f32) (b : Fin 4096) :
    shapeCast S4096x1 (multiReduction .add [1] S4096 src 0x00000000#32 reduces_S4096x32_S4096 (.inl rfl) rfl) shapeCasts_S4096_S4096x1 (ix2 b 0)
      = ∑ d : Fin 32, src (ix2 b d) := by
  rw [shapeCast_apply _ shapeCasts_S4096_S4096x1 (ix2 b 0) (ix1 b)
    (by rw [Shape.rowMajor_val_one, Shape.rowMajor_val_two]; show b.val = b.val * 1 + 0; omega)]
  have h1 : multiReduction .add [1] S4096 src 0x00000000#32 reduces_S4096x32_S4096 (.inl rfl) rfl (ix1 b)
      = ∑ k : Fin 32, src (reduces_S4096x32_S4096.lift (ix1 b) k) := Ideal.multiReduction_add_single src _ _ _ _ _
  refine h1.trans (Finset.sum_congr rfl fun d _ => ?_)
  congr 1
  funext a; apply Fin.ext
  match a with
  | ⟨0, _⟩ => rfl
  | ⟨1, _⟩ => rfl

/-- The stored value at row `b`: the sum over the 32 lanes of first operand times completed second operand. -/
theorem k3_pay1_apply (v67 v76 : FVec Ideal S4096x32 .f32) (v78 : IVec S4096x1 1) (v79 : Vec Ideal S4096x32 .f32) (b : Fin 4096) :
    k3_pay1 v67 v76 v78 v79 (ix2 b 0)
      = ∑ d : Fin 32, v76 (ix2 b d) * (v67 (ix2 b d) + Scalar.select (v78 (ix2 b 0)) (v79 (ix2 b d)) 0) := by
  unfold k3_pay1
  dsimp only
  refine (lane_sum_apply _ b).trans (Finset.sum_congr rfl fun d _ => ?_)
  simp only [mulf_apply, addf_apply, select_apply, broadcast_apply, shapeCast_self, bcast_col_apply, zero_f32]

/-- Four quarter loads of a table, masked by a word's quarter and added to zero, read the table at the lane the word's
    quarter and the lane `d` name. -/
theorem picked_lane (x : Vec Ideal S4096x128 .f32) (w : BitVec 32) (b : Fin 4096) (d : Fin 32) :
    ((((0 : EReal) + Scalar.select (IntOp.cmpi .eq (quarter w) 0#32) (View.ld x r3_q0 (ix2 b d)) 0) + Scalar.select (IntOp.cmpi .eq (quarter w) 1#32) (View.ld x r3_q1 (ix2 b d)) 0) + Scalar.select (IntOp.cmpi .eq (quarter w) 2#32) (View.ld x r3_q2 (ix2 b d)) 0) + Scalar.select (IntOp.cmpi .eq (quarter w) 3#32) (View.ld x r3_q3 (ix2 b d)) 0
    = x (ix2 b (Cert.Packed.wideLane w.toNat d)) := by
  rw [ld_q0, ld_q1, ld_q2, ld_q3]
  exact pick_quarter w (fun k => x (ix2 b ⟨32 * k.val + d.val, by have := k.isLt; omega⟩))

/-! ## The result, entry by entry -/

/-- Entry `b` of what the body stores, whatever the tables hold: the sum over the lanes of the products of the two
    packed rows' lanes that the two id words at row `b` select. -/
theorem out3_4_apply (x0 x1 : Vec Ideal S4096x128 .f32) (x2 x3 : Vec Ideal S4096x1 .i32) (b : Fin 4096) :
    out3_4 x0 x1 x2 x3 (ix2 b 0)
      = ∑ d : Fin 32, x0 (ix2 b (Cert.Packed.wideLane (x2 (ix2 b 0)).toNat d)) * x1 (ix2 b (Cert.Packed.wideLane (x3 (ix2 b 0)).toNat d)) := by
  unfold out3_4
  rw [View.canon_unit_zero col_off_zero]
  unfold pay3
  rw [k3_pay1_apply]
  refine Finset.sum_congr rfl fun d _ => ?_
  rw [first_picked_apply, second_picked_apply, ld_col, ld_col, picked_lane, picked_lane]

/-- THE INNER PRODUCTS: where the two tables carry, on the lanes the ids select, the embedding rows the ids name, and
    the two id columns are the id arrays read as columns, entry `b` of what the body stores is the inner product of the
    two embedding rows that batch entry `b` names. -/
theorem out3_4_dot (uid iid : IVec Cert.Packed.SIds 32) (e_u e_i : FVec Ideal Cert.Packed.SEmb .f32)
    (x0 x1 : Vec Ideal S4096x128 .f32) (x2 x3 : Vec Ideal S4096x1 .i32)
    (hu : Cert.Packed.PackedOK uid e_u x0) (hi : Cert.Packed.PackedOK iid e_i x1)
    (h2 : ∀ b : Fin 4096, x2 (ix2 b 0) = uid (ix1 b)) (h3 : ∀ b : Fin 4096, x3 (ix2 b 0) = iid (ix1 b)) (b : Fin 4096) :
    out3_4 x0 x1 x2 x3 (ix2 b 0)
      = ∑ d : Fin 32, e_u (ix2 (Cert.Packed.rowOf (uid (ix1 b))) d) * e_i (ix2 (Cert.Packed.rowOf (iid (ix1 b))) d) := by
  rw [out3_4_apply]
  refine Finset.sum_congr rfl fun d _ => ?_
  rw [h2 b, h3 b, hu b d, hi b d]

/-- The same as the score table's inner product (the two modules' `rowOf` are one function). -/
theorem out3_4_eq_dot (uid iid : IVec Cert.Packed.SIds 32) (e_u e_i : FVec Ideal Cert.Packed.SEmb .f32)
    (x0 x1 : Vec Ideal S4096x128 .f32) (x2 x3 : Vec Ideal S4096x1 .i32)
    (hu : Cert.Packed.PackedOK uid e_u x0) (hi : Cert.Packed.PackedOK iid e_i x1)
    (h2 : ∀ b : Fin 4096, x2 (ix2 b 0) = uid (ix1 b)) (h3 : ∀ b : Fin 4096, x3 (ix2 b 0) = iid (ix1 b)) (b : Fin 4096) :
    out3_4 x0 x1 x2 x3 (ix2 b 0) = Cert.Scores.dot uid iid e_u e_i b :=
  out3_4_dot uid iid e_u e_i x0 x1 x2 x3 hu hi h2 h3 b

/-- THE ARRAY after the region on the extended reals, entry by entry, under the same hypotheses on the region-entry
    contents. -/
theorem final3_dot (V : (c : Dev nD) → (b : Ref sig .tc) → Buf (Elt Ideal) ((c : Thread nD τ).loc b))
    (O : CellTallies nD τ sig (HIx 1)) (B : Set (SemLoc sig × HIx 1)) (c : Dev nD)
    (uid iid : IVec Cert.Packed.SIds 32) (e_u e_i : FVec Ideal Cert.Packed.SEmb .f32)
    (hu : Cert.Packed.PackedOK uid e_u (V c main_v6_0)) (hi : Cert.Packed.PackedOK iid e_i (V c main_v6_1))
    (h2 : ∀ b : Fin 4096, (V c main_v7 : S4096x1.Idx → BitVec 32) (ix2 b 0) = uid (ix1 b))
    (h3 : ∀ b : Fin 4096, (V c main_v8 : S4096x1.Idx → BitVec 32) (ix2 b 0) = iid (ix1 b)) (b : Fin 4096) :
    ((dat3 (F := Ideal) V O B c).arrAt 4 cfg3.N : S4096x1.Idx → EReal) (ix2 b 0)
      = ∑ d : Fin 32, e_u (ix2 (Cert.Packed.rowOf (uid (ix1 b))) d) * e_i (ix2 (Cert.Packed.rowOf (iid (ix1 b))) d) := by
  rw [final3 V O B c]
  exact out3_4_dot uid iid e_u e_i _ _ _ _ hu hi h2 h3 b

end Cert.Kernel.TcSide

end
-- ==== Proof.TcBcastW.lean ====
/-
  The broadcast-add region (the last TensorCore call of the program) as a pipeline on one core: eight grid points; at
  point `t` the body reads the whole [1, 4096] row (window 0), rows `512·t … 512·t + 511` of the [4096, 1] column
  (window 1), and fills rows `512·t … 512·t + 511` of the [4096, 4096] result (window 2) with column entry plus row
  entry. Everything is stated at the contents `V` the TensorCore's buffers hold when the region is entered, and at the
  tallies `O` the core owes throughout the region (the body waits on nothing, so they pass through unread).
-/
import proofs.«203700_g68710886802180_cont_9to1c4b_800_29_alg».proof.Proof.Gen.Kernel.Launch
import proofs.«203700_g68710886802180_cont_9to1c4b_800_29_alg».proof.Proof.Gen.Kernel.Skeleton
import proofs.«203700_g68710886802180_cont_9to1c4b_800_29_alg».proof.Proof.Gen.Kernel.Points
import proofs.«203700_g68710886802180_cont_9to1c4b_800_29_alg».proof.Proof.LaunchSetupIdealW
import proofs.«203700_g68710886802180_cont_9to1c4b_800_29_alg».proof.Proof.TcDotBaseW
import Idealize.ShloMosaic.Lib.Pipeline.FrameBody
import Idealize.ShloMosaic.Lib.Ring
import Idealize.ShloMosaic.Lib.Tactic

set_option maxRecDepth 16384

noncomputable section

namespace Cert.Kernel.TcSide

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ Cert.Kernel.Setup.UU ℕ

variable (V : (c : Dev nD) → (b : Ref sig .tc) → Buf (Elt F) ((c : Thread nD τ).loc b))
variable (O : CellTallies nD τ sig (HIx 1)) (B : Set (SemLoc sig × HIx 1))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place. -/
theorem before4_0_of {c : Dev nD} (dat : Dat τ (Elt F) (HIx 1) ℕ Cert.Kernel.Setup.UU ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- Input window 1's likewise. -/
theorem before4_1_of {c : Dev nD} (dat : Dat τ (Elt F) (HIx 1) ℕ Cert.Kernel.Setup.UU ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses -/

abbrev r4_0 : Rect S512x1 := Rect.unit (s := S512x1) ![0, 0] S512x1.size inb_S512x1_S512x1_0_0
abbrev r4_1 : Rect S1x4096 := Rect.unit (s := S1x4096) ![0, 0] S1x4096.size inb_S1x4096_S1x4096_0_0
abbrev r4_2 : Rect S512x4096 := Rect.unit (s := S512x4096) ![0, 0] S512x4096.size inb_S512x4096_S512x4096_0_0

/-! ## What the body leaves in the output window's buffer -/

/-- Window 2's staging buffer after the body, from the input windows' blocks: its one store, of the whole buffer. -/
def out4_2 (x0 : Vec F S1x4096 .f32) (x1 : Vec F S512x1 .f32) : Vec F S512x4096 .f32 :=
  View.canon [⟨r4_2, k4_pay1 (View.ld x1 r4_0) (View.ld x0 r4_1)⟩]

/-- The store is of the whole buffer, so it covers it. -/
theorem cover4_2 (p0 : Vec F S512x4096 .f32) (y : S512x4096.Idx) :
    ∃ pc ∈ ([⟨r4_2, p0⟩] : List (View.Piece (Elt F) S512x4096 .f32)), y ∈ pc.1.set :=
  View.cover_of_tiled [⟨r4_2, p0⟩] S512x4096.size (by rfl) y

/-! ## The body's triple -/

set_option maxHeartbeats 1000000 in
/-- The body on whole staging memrefs, the inputs' at read contents `x0`, `x1` and the output's at anything, runs to the
    continuation holding the inputs' as they were and the output's at `out4_2 x0 x1`. -/
theorem sound_kernel4 (c : Dev nD) (E : Set ℕ) (i : grid4.Coords) (arg1 : Memref sig .tc .vmem S1x4096 .f32) (harg1 : arg1.IsWhole) (arg2 : Memref sig .tc .vmem S512x1 .f32) (harg2 : arg2.IsWhole) (arg3 : Memref sig .tc .vmem S512x4096 .f32) (harg3 : arg3.IsWhole)
    (x0 : Vec F S1x4096 .f32) (x1 : Vec F S512x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__bcast_body i arg1 harg1 arg2 harg2 arg3 harg3) K := by
  simp only [cc4__bcast_body_eq_skeleton]; unfold cc4__bcast_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of the region on core `c`: the arrays as the region finds them (`V`); after the body at point `t`
    each input's buffer at its block and the output's at `out4_2` of the input blocks; the invariant `ΦR`; the tallies
    `O` owed at every point; full shares. -/
def dat4 (c : Dev nD) : Dat τ (Elt F) (HIx 1) ℕ Cert.Kernel.Setup.UU ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := ΦR spec4 c
  q _ := fullShare
  owed _ := O
  recorded _ := B

/-- The proof data's arrays are the region-entry contents. -/
theorem A_eq4 (c : Dev nD) (w : Fin cfg4.W) : (dat4 V O B c).A w = V c (Pipeline.arrRef spec4 w) := by
  dsimp only [dat4]

/-- What the body leaves, window by window. -/
theorem after4_0 (c : Dev nD) (t : Fin cfg4.N) : (dat4 V O B c).after 0 t = iblk4 V c 0 t := by dsimp only [dat4]
theorem after4_1 (c : Dev nD) (t : Fin cfg4.N) : (dat4 V O B c).after 1 t = iblk4 V c 1 t := by dsimp only [dat4]
theorem after4_2 (c : Dev nD) (t : Fin cfg4.N) : (dat4 V O B c).after 2 t = out4_2 (iblk4 V c 0 t) (iblk4 V c 1 t) := by dsimp only [dat4]

/-- Each input's current staging buffer holds its block at every point, fetched there or not. -/
theorem before4_0 (c : Dev nD) (t : Fin cfg4.N) (d) : (dat4 V O B c).before 0 t d = iblk4 V c 0 t :=
  before4_0_of V (dat4 V O B c) (A_eq4 V O B c 0) (after4_0 V O B c) t d
theorem before4_1 (c : Dev nD) (t : Fin cfg4.N) (d) : (dat4 V O B c).before 1 t d = iblk4 V c 1 t :=
  before4_1_of V (dat4 V O B c) (A_eq4 V O B c 1) (after4_1 V O B c) t d

/-! ## The body obligation, at a generic point -/

/-- What the body is called with at point `t`, the windows one by one, -/
def bodyPre4 (c : Dev nD) (t : Fin cfg4.N) : sProp 𝕄 :=
  iprop((dat4 V O B c).Φ t.castSucc ∗ (dat4 V O B c).owesAt none t.castSucc
    ∗ (∃ d, owns (c : Thread nD τ) (st4_0 t) fullShare ((dat4 V O B c).before 0 t d))
    ∗ (∃ d, owns (c : Thread nD τ) (st4_1 t) fullShare ((dat4 V O B c).before 1 t d))
    ∗ (∃ d, owns (c : Thread nD τ) (st4_2 t) fullShare ((dat4 V O B c).before 2 t d)))

/-- and what it returns. -/
def bodyPost4 (c : Dev nD) (t : Fin cfg4.N) : sProp 𝕄 :=
  iprop((dat4 V O B c).Φ t.succ ∗ (dat4 V O B c).owesAt none t.succ
    ∗ owns (c : Thread nD τ) (st4_0 t) fullShare ((dat4 V O B c).after 0 t)
    ∗ owns (c : Thread nD τ) (st4_1 t) fullShare ((dat4 V O B c).after 1 t)
    ∗ owns (c : Thread nD τ) (st4_2 t) fullShare ((dat4 V O B c).after 2 t))

/-- The body at any point: the inputs' memrefs hold their blocks, so `sound_kernel4` applies; the invariant and the
    core's `owes` pass through unread. -/
theorem sound_body4 (c : Dev nD) (t : Fin cfg4.N) :
    bodyPre4 V O B c t ⊢ wp frame (wpE (defs₀ (F := F)) Variants.none c none) Set.univ (bodyAt4 t) (fun _ => bodyPost4 V O B c t) := by
  unfold bodyPre4 bodyPost4 bodyAt4
  simp only [before4_0, before4_1]
  rw [show (dat4 V O B c).Φ t.succ = (dat4 V O B c).Φ t.castSucc from rfl,
    show (dat4 V O B c).owesAt none t.succ = (dat4 V O B c).owesAt none t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V O B c) (defs₀ (F := F)) Variants.none none Set.univ := fun t => by
  rw [bigSep_W4, bigSep_W4]
  exact sound_body4 V O B c t

end Cert.Kernel.TcSide

end
-- ==== Proof.TcBcastValueW.lean ====
/-
  The broadcast-add region's result in closed form: after the region, the [4096, 4096] array holds, at row `r` and
  column `k`, entry `r` of the [4096, 1] column plus entry `k` of the [1, 4096] row, both as the region found them.
  Point `t` of the grid writes rows `512·t … 512·t + 511`; the eight points' blocks tile the array, the point covering
  row `r` being `r / 512`.
-/
import proofs.«203700_g68710886802180_cont_9to1c4b_800_29_alg».proof.Proof.TcBcastW
import Idealize.ShloMosaic.Lib.Pipeline.Value
import Idealize.ShloMosaic.Lib.ValueIdx
import Idealize.ShloMosaic.Lib.ValueLayout

set_option maxRecDepth 16384

noncomputable section

open scoped BigOperators

namespace Cert.Kernel.TcSide

open Cert.Kernel Cert.Kernel.Gen
open Idealize.ShloMosaic Idealize.ShloMosaic.TcCoe Idealize.ShloMosaic.ValueIdx
open Idealize.ShloMosaic.SparseCore.Cfg (HIx)
open Idealize.SL.Sem
open Idealize.ShloMosaic.Pipeline (Dat)

variable {F : FTy → Type} [FloatOps F]
variable (V : (c : Dev nD) → (b : Ref sig .tc) → Buf (Elt F) ((c : Thread nD τ).loc b))
variable (O : CellTallies nD τ sig (HIx 1)) (B : Set (SemLoc sig × HIx 1))

theorem zero_off2 : (![0, 0] : Fin 2 → Nat) = fun _ => 0 := funext fun a => by fin_cases a <;> rfl

/-- Column entry plus row entry, index by index. -/
abbrev colPlusRow (col : S4096x1.Idx → Elt F .f32) (row : S1x4096.Idx → Elt F .f32) : S4096x4096.Idx → Elt F .f32 :=
  fun j => FloatOps.addf (col (ix2 (j 0) 0)) (row (ix2 0 (j 1)))

/-- The body's stored value at an index of the block: the block of the column at the row, plus the row at the column. -/
theorem k4_pay1_apply (v0 : Vec F S512x1 .f32) (v2 : Vec F S1x4096 .f32) (j : S512x4096.Idx) :
    k4_pay1 v0 v2 j = FloatOps.addf (v0 (ix2 (j 0) 0)) (v2 (ix2 0 (j 1))) := by
  unfold k4_pay1
  show FloatOps.addf (broadcastTo S512x4096 (shapeCast S512x1 v0 shapeCasts_S512x1_S512x1) broadcasts_S512x1_S512x4096 j)
      (broadcastTo S512x4096 (shapeCast S1x4096 v2 shapeCasts_S1x4096_S1x4096) broadcasts_S1x4096_S512x4096 j) = _
  rw [shapeCast_self, shapeCast_self]
  congr 1
  · refine broadcastTo_apply v0 _ j (ix2 (j 0) 0) fun a => ?_
    match a with
    | ⟨0, _⟩ => rfl
    | ⟨1, _⟩ => rfl
  · refine broadcastTo_apply v2 _ j (ix2 0 (j 1)) fun a => ?_
    match a with
    | ⟨0, _⟩ => rfl
    | ⟨1, _⟩ => rfl

/-- The printed index maps, decided over the grid: the row window sits at block (0, 0) at every point; the column
    window moves with the output window along the rows; the output's block index is (t, 0). -/
theorem idx_facts4 : ∀ t : Fin cfg4.N, win4_0.index t (0 : Fin 2) = 0 ∧ win4_0.index t (1 : Fin 2) = 0
    ∧ win4_1.index t (0 : Fin 2) = win4_2.index t (0 : Fin 2) ∧ win4_1.index t (1 : Fin 2) = 0
    ∧ win4_2.index t (1 : Fin 2) = 0 ∧ win4_2.index t (0 : Fin 2) ≤ 7 :=
  (by decide +kernel : ∀ t : Fin grid4.N, _)

/-- Every block of rows is some point's. -/
theorem idx_onto4 : ∀ q0 : Fin 8, ∃ t : Fin cfg4.N, win4_2.index t = ![q0.val, 0] :=
  (by decide +kernel : ∀ q0 : Fin 8, ∃ t : Fin grid4.N, win4_2.index t = ![q0.val, 0])

/-- What point `t` writes back is block `t` of `colPlusRow` of the column and the row as the region finds them. -/
theorem flushed4_eq (c : Dev nD) (t : Fin cfg4.N) :
    (dat4 V O B c).flushed 2 t = ((cfg4.win 2).blk t).view.read (Elt F) (colPlusRow (V c main_v11) (V c main_v10)) := by
  show (cfg4.win 2).cut (grid4.coords t) ((dat4 V O B c).after 2 t) = _
  rw [after4_2]
  unfold out4_2
  rw [View.canon_unit_zero zero_off2]
  simp only [View.ld_unit_zero (S := S512x1) zero_off2, View.ld_unit_zero (S := S1x4096) zero_off2]
  obtain ⟨e0, e1, e2, e3, e4, e5⟩ := idx_facts4 t
  funext j
  show k4_pay1 (iblk4 V c 1 t) (iblk4 V c 0 t) j = colPlusRow (V c main_v11) (V c main_v10) (((cfg4.win 2).blk t).view.emb j)
  rw [k4_pay1_apply]
  show FloatOps.addf (V c main_v11 (((cfg4.win 1).blk t).view.emb (ix2 (j 0) 0))) (V c main_v10 (((cfg4.win 0).blk t).view.emb (ix2 0 (j 1))))
    = FloatOps.addf (V c main_v11 (ix2 ((((cfg4.win 2).blk t).view.emb j) 0) 0)) (V c main_v10 (ix2 0 ((((cfg4.win 2).blk t).view.emb j) 1)))
  have h1 : ((cfg4.win 1).blk t).view.emb (ix2 (j 0) 0) = ix2 ((((cfg4.win 2).blk t).view.emb j) 0) 0 := by
    funext a; apply Fin.ext
    match a with
    | ⟨0, _⟩ => show win4_1.index t (0 : Fin 2) * 512 + 1 * (j 0).val = win4_2.index t (0 : Fin 2) * 512 + 1 * (j 0).val; omega
    | ⟨1, _⟩ => show win4_1.index t (1 : Fin 2) * 1 + 1 * 0 = 0; omega
  have h0 : ((cfg4.win 0).blk t).view.emb (ix2 0 (j 1)) = ix2 0 ((((cfg4.win 2).blk t).view.emb j) 1) := by
    funext a; apply Fin.ext
    match a with
    | ⟨0, _⟩ => show win4_0.index t (0 : Fin 2) * 1 + 1 * 0 = 0; omega
    | ⟨1, _⟩ => show win4_0.index t (1 : Fin 2) * 4096 + 1 * (j 1).val = win4_2.index t (1 : Fin 2) * 4096 + 1 * (j 1).val; omega
  rw [h0, h1]
  rfl

/-- An index of the array is in point `t`'s block iff each coordinate is in the block's range on its axis. -/
theorem mem_blk4 (t : Fin cfg4.N) (i : S4096x4096.Idx) :
    i ∈ ((cfg4.win 2).blk t).view.set ↔ ∀ a : Fin 2, win4_2.index t a * S512x4096.size a ≤ (i a).val ∧ (i a).val < win4_2.index t a * S512x4096.size a + S512x4096.size a := by
  show i ∈ ((View.whole main_v12).slice (win4_2.rect t)).set ↔ _
  rw [View.set_slice_whole, Rect.mem_set_unit]
  exact Iff.rfl

/-- Every index of the array is in some point's block: row `r` is in the block of point `r / 512`. -/
theorem cover4 (i : S4096x4096.Idx) : ∃ t : Fin cfg4.N, (cfg4.win 2).flush t = true ∧ i ∈ ((cfg4.win 2).blk t).view.set := by
  have hi0 : (i 0).val < 4096 := (i 0).isLt
  have hi1 : (i 1).val < 4096 := (i 1).isLt
  obtain ⟨t, ht⟩ := idx_onto4 ⟨(i 0).val / 512, by omega⟩
  have q0 : win4_2.index t (0 : Fin 2) = (i 0).val / 512 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 512 ≤ (i 0).val ∧ (i 0).val < win4_2.index t (0 : Fin 2) * 512 + 512; omega
  | ⟨1, _⟩ => show win4_2.index t (1 : Fin 2) * 4096 ≤ (i 1).val ∧ (i 1).val < win4_2.index t (1 : Fin 2) * 4096 + 4096; omega

/-- THE ARRAY after the region, for every float instance: column entry plus row entry. -/
theorem final4 (c : Dev nD) : (dat4 V O B c).arrAt 2 cfg4.N = colPlusRow (V c main_v11) (V c main_v10) :=
  (dat4 V O B c).arrAt_eq_of_cover 2 _ (fun t _ => flushed4_eq V O B c t) cover4

/-- On the extended reals `colPlusRow` is the sum of the two entries. -/
theorem colPlusRow_ideal (col : S4096x1.Idx → EReal) (row : S1x4096.Idx → EReal) (j : S4096x4096.Idx) :
    colPlusRow (F := Ideal) col row j = col (ix2 (j 0) 0) + row (ix2 0 (j 1)) := rfl

/-- THE ARRAY after the region on the extended reals, the column and the row named: entry `(r, k)` is `col r + row k`. -/
theorem final4_ideal (V : (c : Dev nD) → (b : Ref sig .tc) → Buf (Elt Ideal) ((c : Thread nD τ).loc b)) (c : Dev nD)
    (col : S4096x1.Idx → EReal) (row : S1x4096.Idx → EReal)
    (hcol : (V c main_v11 : S4096x1.Idx → EReal) = col) (hrow : (V c main_v10 : S1x4096.Idx → EReal) = row) :
    ((dat4 (F := Ideal) V O B c).arrAt 2 cfg4.N : S4096x4096.Idx → EReal) = fun j => col (ix2 (j 0) 0) + row (ix2 0 (j 1)) := by
  subst hcol hrow
  exact final4 V O B c

end Cert.Kernel.TcSide

end
-- ==== Proof.StretchBDefsW.lean ====
/-
  The stretch of @main after the SparseCore call, its vocabulary. When the call returns the TensorCore holds seventeen of
  its arrays: the two id arrays and the call's three results, handed back by the call, and twelve it kept aside. The
  stretch reshapes the ids to columns, runs the inner-product pipeline, reshapes its result to a row and the bias sums to
  a column, and runs the broadcasting pipeline. The contents of the held arrays at each of the five boundaries are a fold
  through those four steps from the contents at the call's return; the last one has the result array at the kernel's own
  closed form and the six argument arrays as launched.
-/
import proofs.«203700_g68710886802180_cont_9to1c4b_800_29_alg».proof.Proof.ThreadStateIdealW
import proofs.«203700_g68710886802180_cont_9to1c4b_800_29_alg».proof.Proof.FinIdealW
import proofs.«203700_g68710886802180_cont_9to1c4b_800_29_alg».proof.Proof.TcDotValueW
import proofs.«203700_g68710886802180_cont_9to1c4b_800_29_alg».proof.Proof.TcBcastValueW
import Idealize.ShloMosaic.Lib.Pipeline.FrameSuffix

set_option maxRecDepth 16384

noncomputable section

namespace Cert.Kernel.StretchB

open Cert.Kernel Cert.Kernel.Gen Cert.Kernel.Setup Cert.Kernel.Hmain Cert.Kernel.TcSide
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Packed (PackedOK biasRow)

variable {F : FTy → Type} [FloatOps F] [∀ e, Nonempty (Elt F e)]

local notation "𝕄" => MT nD τ sig (HIx 1) (Elt F) ℕ UU ℕ

/-! ## The arrays held -/

/-- A reference of @main as a buffer of the device. -/
abbrev dv (b : Ref sig .tc) : DevRef τ sig := Proc.devRef .tc b
def devEmb : Ref sig .tc ↪ DevRef τ sig := ⟨Proc.devRef (sig := sig) (.tc : Proc τ), Proc.devRef_injective _⟩

/-- The arrays the call hands back: the two id arrays and its three results. -/
def backRefs : Finset (Ref sig .tc) := {main_arg0, main_arg1, main_v6_0, main_v6_1, main_v6_2}
/-- The arrays kept aside during the call. -/
def asideRefs : Finset (Ref sig .tc) :=
  {main_arg2, main_arg3, main_arg4, main_arg5, main_v0, main_v2, main_v7, main_v8, main_v9, main_v10, main_v11, main_v12}
/-- All seventeen. -/
def heldRefs : Finset (Ref sig .tc) := backRefs ∪ asideRefs

def SR : Finset (DevRef τ sig) := asideRefs.map devEmb
def SBk : Finset (DevRef τ sig) := backRefs.map devEmb
def SH : Finset (DevRef τ sig) := heldRefs.map devEmb

theorem back_aside_disjoint : Disjoint backRefs asideRefs := by decide

/-! ## What the call returned, and the contents at the five boundaries -/

/-- The two tables of packed rows the call returned. -/
abbrev Ret (F : FTy → Type) : Type := FVec F Cert.Packed.SRows .f32 × FVec F Cert.Packed.SRows .f32

variable (m : (ℓ : Loc nD τ sig) → Buf (Elt F) ℓ) (WR : Dev nD → Valuation τ sig (Elt F))

/-- The bias sums, as the call leaves them. -/
abbrev biasSums (d : Dev nD) : FVec F Cert.Packed.SIds .f32 :=
  biasRow (m (tloc d main_arg0)) (m (tloc d main_arg1)) (m (tloc d main_arg4)) (m (tloc d main_arg5))

/-- At the call's return: the arrays kept aside as they were (`WR`), the id arrays as launched, the call's results. -/
def W0 (x : Ret F) (d : Dev nD) : Valuation τ sig (Elt F) :=
  Function.update (Function.update (Function.update (Function.update (Function.update (WR d)
    (dv main_arg0) (m (tloc d main_arg0))) (dv main_arg1) (m (tloc d main_arg1))) (dv main_v6_0) x.1) (dv main_v6_1) x.2)
    (dv main_v6_2) (biasSums m d)

/-- A valuation read at @main's references. -/
abbrev Vof (W : Dev nD → Valuation τ sig (Elt F)) : (c : Dev nD) → (b : Ref sig .tc) → Buf (Elt F) ((c : Thread nD τ).loc b) :=
  fun c b => W c (dv b)

/-- After the id reshapes. -/
def W1 (x : Ret F) (d : Dev nD) : Valuation τ sig (Elt F) := StableHlo.after MainSplit.opsIds (W0 m WR x d)
/-- After the inner-product pipeline. -/
def W2 (x : Ret F) (d : Dev nD) : Valuation τ sig (Elt F) :=
  Pipeline.withArrays spec3 d (W1 m WR x d) fun w => (dat3 (Vof (W1 m WR x)) ((K (F := F)).Otc d 1) (Bnd (F := F) d 1) d).arrAt w cfg3.N
/-- After the row and column reshapes. -/
def W3 (x : Ret F) (d : Dev nD) : Valuation τ sig (Elt F) := StableHlo.after MainSplit.opsRowCol (W2 m WR x d)
/-- After the broadcasting pipeline. -/
def W4 (x : Ret F) (d : Dev nD) : Valuation τ sig (Elt F) :=
  Pipeline.withArrays spec4 d (W3 m WR x d) fun w => (dat4 (Vof (W3 m WR x)) ((K (F := F)).Otc d 1) (Bnd (F := F) d 1) d).arrAt w cfg4.N

/-! ## The proof data -/

/-- Proof data for a pipeline the stretch never enters: nothing is said of it. -/
def idleDat (cfg : Pipeline.Cfg sig Λ₀) (c : Dev nD) : Dat τ (Elt F) (HIx 1) ℕ UU ℕ cfg c where
  A _ := fun _ => Classical.arbitrary _
  after _ _ := fun _ => Classical.arbitrary _
  Φ _ := iprop(emp)
  q _ := fullShare
  owed _ := (K (F := F)).Otc c 1

/-- The proof data of the four pipelines, the two this stretch enters at their regions' entry contents. -/
def pdatsB (x : Ret F) : (p : Fin 4) → (c : Dev nD) → Dat τ (Elt F) (HIx 1) ℕ UU ℕ (Pipeline.pin (pcfgs (F := F)) adm p) c
  | ⟨0, _⟩ => fun c => idleDat cfg0 c
  | ⟨1, _⟩ => fun c => idleDat cfg1 c
  | ⟨2, _⟩ => fun c => dat3 (Vof (W1 m WR x)) ((K (F := F)).Otc c 1) (Bnd (F := F) c 1) c
  | ⟨3, _⟩ => fun c => dat4 (Vof (W3 m WR x)) ((K (F := F)).Otc c 1) (Bnd (F := F) c 1) c

/-! ## The thread states -/

/-- What the returned tables are known to hold. -/
def RetOK (x : Ret F) (d : Dev nD) : Prop :=
  PackedOK (m (tloc d main_arg0)) (m (tloc d main_arg2)) x.1 ∧ PackedOK (m (tloc d main_arg1)) (m (tloc d main_arg3)) x.2

/-- What rides beside the held arrays through the stretch: the knowledge of the returned tables, the generator register,
    the handshake debt. -/
def Rd (x : Ret F) (d : Dev nD) : sProp 𝕄 := iprop(⌜RetOK m x d⌝ ∗ Ride (F := F) d 1)

/-- The thread state at a boundary whose contents are `W`. -/
def TS (x : Ret F) (W : Dev nD → Valuation τ sig (Elt F)) (d : Dev nD) : sProp 𝕄 :=
  iprop(StableHlo.held (d.tc : Thread nD τ) SH (W d) ∗ Rd m x d)

/-- What the stretch before the call keeps aside and hands over: the twelve arrays at `WR`, the generator register. -/
def RestA (d : Dev nD) : sProp 𝕄 := iprop(StableHlo.held (d.tc : Thread nD τ) SR (WR d) ∗ ∃ r, prngReg d r)

/-! ## The result -/

/-- The kernel's own closed form of the result from the launch contents and the returned tables: entry `(r, k)` is bias
    sum `r` plus inner product `k`. -/
def finTerm (d : Dev nD) (g0 g1 : FVec F Cert.Packed.SRows .f32) : S4096x4096.Idx → Elt F .f32 :=
  colPlusRow (shapeCast S4096x1 (biasSums m d) shapeCasts_S4096_S4096x1)
    (shapeCast S1x4096 (out3_4 g0 g1 (shapeCast S4096x1 (m (tloc d main_arg0)) shapeCasts_S4096_S4096x1)
      (shapeCast S4096x1 (m (tloc d main_arg1)) shapeCasts_S4096_S4096x1)) shapeCasts_S4096x1_S1x4096)

/-- What is known of the result array at the end. -/
def FinOK (d : Dev nD) (f : Buf (Elt F) (tloc d main_v12)) : Prop :=
  ∃ g0 g1 : FVec F Cert.Packed.SRows .f32, PackedOK (m (tloc d main_arg0)) (m (tloc d main_arg2)) g0
    ∧ PackedOK (m (tloc d main_arg1)) (m (tloc d main_arg3)) g1 ∧ f = finTerm m d g0 g1

end Cert.Kernel.StretchB

end
-- ==== Proof.ScSideDefsW.lean ====
/-
  The one SparseCore call as the launch theorem's hand-over record sees it.

  Tile (c, s) — SparseCore c, vector subcore s — works on the 128 batch entries [256·s + 128·c, +128). It is handed a
  read share of each of the four tables (the two packed embedding tables, known only up to the lanes that come from real
  rows, and the two flat bias tables), its own 128 entries of the two id arrays, and its own rows of the three results
  at whatever they hold. It hands back its entries of the id arrays unchanged and its rows of the results at their
  values: the packed rows its ids name (said through the embedding tables themselves, on the lanes that matter) and the
  bias sums. A SparseCore's hand-over is the sixteen tiles' side by side, so the split among the tiles is the identity.
-/
import proofs.«203700_g68710886802180_cont_9to1c4b_800_29_alg».proof.Proof.LaunchSetupIdealW
import proofs.«203700_g68710886802180_cont_9to1c4b_800_29_alg».proof.Proof.Packed
import Idealize.ShloMosaic.Lib.SparseCore.Launch
import Idealize.ShloMosaic.Lib.Transfers
import Idealize.ShloMosaic.Lib.Tactic

noncomputable section

namespace Cert.Kernel.ScSide

open Cert.Kernel Cert.Kernel.Gen Cert.Kernel.Setup

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

variable {F : FTy → Type}

local notation "𝕄" => MT nD τ sig (HIx 1) (Elt F) ℕ UU ℕ

/-! ## Places, arrays, and a tile's part of each -/

/-- A tile's grid coordinates from its SparseCore and its vector subcore. -/
def coordsV (c : Fin (grid2.bound 0)) (s : Fin (grid2.bound 1)) : grid2.Coords :=
  fun | 0 => c | 1 => s | ⟨_ + 2, h⟩ => absurd h (Nat.not_lt.2 (Nat.le_add_left _ _))

/-- An array of @main, as a location of device `d`. -/
abbrev tcLoc (d : Dev nD) (b : Ref sig .tc) : Loc nD τ sig := (SparseCore.T d).loc b

/-- The first batch entry of the tile at `L`. -/
def tbase (L : grid2.Coords) : Nat := 256 * (L 1).val + 128 * (L 0).val

/-- The tile's 128 entries of a [4096] array, and its 128 rows of a [4096, 128] array. -/
abbrev idRect (L : grid2.Coords) : Rect S4096 := Rect.unit (s := S4096) (k2_off1 L) S128.size (k2_off1_inb L)
abbrev rowRect (L : grid2.Coords) : Rect S4096x128 := Rect.unit (s := S4096x128) (k2_off2 L) S128x128.size (k2_off2_inb L)

/-- The read share of a table that goes to tile (c, s): the full share dealt to the two SparseCores, each part to
    its sixteen tiles. -/
def rsh (c : Fin 2) (s : Fin 16) : PosShare TreeShare := Transfers.shareTok (Transfers.shareTok fullShare 2 c) 16 s

variable (m : (ℓ : Loc nD τ sig) → Buf (Elt F) ℓ)

/-- Rows [tbase, tbase + 128) of a result hold, on the quarter each id selects, the embedding row the id names. -/
def RowsOK (ids : IVec Cert.Packed.SIds 32) (e : FVec F Cert.Packed.SEmb .f32) (L : grid2.Coords) (g : FVec F Cert.Packed.SRows .f32) : Prop :=
  ∀ (b : Fin 4096), tbase L ≤ b.val → b.val < tbase L + 128 →
    ∀ d : Fin 32, g (ix2 b (wideLane (ids (ix1 b)).toNat d)) = e (ix2 (rowOf (ids (ix1 b))) d)

/-- What a tile is handed. -/
def tileIn (d : Dev nD) (L : grid2.Coords) (q : PosShare TreeShare) : sProp 𝕄 :=
  iprop((∃ w, ⌜WideOK (m (tcLoc d main_arg2)) w⌝ ∗ tcLoc d main_v1 ↦{q} w)
    ∗ (∃ w, ⌜WideOK (m (tcLoc d main_arg3)) w⌝ ∗ tcLoc d main_v3 ↦{q} w)
    ∗ (tcLoc d main_arg0 ↦[(idRect L).set]{fullShare} m (tcLoc d main_arg0))
    ∗ (tcLoc d main_arg1 ↦[(idRect L).set]{fullShare} m (tcLoc d main_arg1))
    ∗ (∃ b, ⌜FlatOf (m (tcLoc d main_arg4)) b⌝ ∗ tcLoc d main_v4 ↦{q} b)
    ∗ (∃ b, ⌜FlatOf (m (tcLoc d main_arg5)) b⌝ ∗ tcLoc d main_v5 ↦{q} b)
    ∗ (∃ f, tcLoc d main_v6_0 ↦[(rowRect L).set]{fullShare} f)
    ∗ (∃ f, tcLoc d main_v6_1 ↦[(rowRect L).set]{fullShare} f)
    ∗ (∃ f, tcLoc d main_v6_2 ↦[(idRect L).set]{fullShare} f))

/-- What a tile hands back. -/
def tileOut [FloatOps F] (d : Dev nD) (L : grid2.Coords) : sProp 𝕄 :=
  iprop((tcLoc d main_arg0 ↦[(idRect L).set]{fullShare} m (tcLoc d main_arg0))
    ∗ (tcLoc d main_arg1 ↦[(idRect L).set]{fullShare} m (tcLoc d main_arg1))
    ∗ (∃ g, ⌜RowsOK (m (tcLoc d main_arg0)) (m (tcLoc d main_arg2)) L g⌝ ∗ tcLoc d main_v6_0 ↦[(rowRect L).set]{fullShare} g)
    ∗ (∃ g, ⌜RowsOK (m (tcLoc d main_arg1)) (m (tcLoc d main_arg3)) L g⌝ ∗ tcLoc d main_v6_1 ↦[(rowRect L).set]{fullShare} g)
    ∗ (tcLoc d main_v6_2 ↦[(idRect L).set]{fullShare}
        biasRow (m (tcLoc d main_arg0)) (m (tcLoc d main_arg1)) (m (tcLoc d main_arg4)) (m (tcLoc d main_arg5))))

instance tileIn_storable (d : Dev nD) (L : grid2.Coords) (q : PosShare TreeShare) : BI.Storable (upEmb : UEmb _ 𝕄) (tileIn m d L q) := by
  unfold tileIn; infer_instance
instance tileOut_storable [FloatOps F] (d : Dev nD) (L : grid2.Coords) : BI.Storable (upEmb : UEmb _ 𝕄) (tileOut m d L) := by
  unfold tileOut; infer_instance

/-! ## The hand-over record -/

/-- The coordinates of tile `(c, s)` of the call's grid. -/
abbrev tL (c : Fin ((K (F := F)).nCore 0)) (s : Fin ((K (F := F)).nSub 0)) : grid2.Coords :=
  coordsV (Fin.cast nCore_zero c) (Fin.cast nSub_zero s)
abbrev tQ (c : Fin ((K (F := F)).nCore 0)) (s : Fin ((K (F := F)).nSub 0)) : PosShare TreeShare :=
  rsh (Fin.cast nCore_zero c) (Fin.cast nSub_zero s)

variable [FloatOps F]

/-- The one call: a SparseCore takes its sixteen tiles' parts and brings their results back; the kernel's proof
    consumes nothing of the launch's. -/
def P : (K (F := F)).Pay (nD := nD) (Val := Elt F) (Name := ℕ) (U := UU) where
  st := fun q d c => match q with | 0 => bigSep Finset.univ fun s : Fin ((K (F := F)).nSub 0) => tileIn m d (tL c s) (tQ c s)
  dn := fun q d c => match q with | 0 => bigSep Finset.univ fun s : Fin ((K (F := F)).nSub 0) => tileOut m d (tL c s)
  go := fun q d c s => match q with | 0 => tileIn m d (tL c s) (tQ c s)
  td := fun q d c s => match q with | 0 => tileOut m d (tL c s)
  x := fun _ _ => iprop(emp)

theorem P_st (d : Dev nD) (c : Fin ((K (F := F)).nCore 0)) :
    (P m).st 0 d c = bigSep Finset.univ fun s : Fin ((K (F := F)).nSub 0) => tileIn m d (tL c s) (tQ c s) := rfl
theorem P_dn (d : Dev nD) (c : Fin ((K (F := F)).nCore 0)) :
    (P m).dn 0 d c = bigSep Finset.univ fun s : Fin ((K (F := F)).nSub 0) => tileOut m d (tL c s) := rfl
theorem P_go (d : Dev nD) (c : Fin ((K (F := F)).nCore 0)) (s : Fin ((K (F := F)).nSub 0)) :
    (P m).go 0 d c s = tileIn m d (tL c s) (tQ c s) := rfl
theorem P_td (d : Dev nD) (c : Fin ((K (F := F)).nCore 0)) (s : Fin ((K (F := F)).nSub 0)) :
    (P m).td 0 d c s = tileOut m d (tL c s) := rfl
theorem P_x (q : Fin 1) (thr : Thread nD τ) : (P m).x q thr = iprop(emp) := rfl

instance P_storable : (P (F := F) m).IsStorable where
  st q d c := match q with | 0 => by rw [P_st]; infer_instance
  dn q d c := match q with | 0 => by rw [P_dn]; infer_instance
  go q d c s := match q with | 0 => by rw [P_go]; infer_instance
  td q d c s := match q with | 0 => by rw [P_td]; infer_instance

/-- A SparseCore's operands are its tiles' side by side, and its results theirs. -/
theorem vecSplit : (K (F := F)).VecSplit' (P m) 0 := by
  intro d c
  rw [P_st, P_dn]
  iintro H
  imodintro
  isplitl [H]
  · iexact H
  · iintro H; iexact H

end Cert.Kernel.ScSide

end
-- ==== Proof.ScSideHandW.lean ====
/-
  Handing the SparseCore call its operands and taking its results back.

  The thirty-two tiles — SparseCore `c < 2`, vector subcore `s < 16` — cut the batch [0, 4096) into the thirty-two
  intervals [256·s + 128·c, +128): pairwise disjoint, and together everything. So an id array, or a result, held whole
  is the tiles' parts side by side, and the parts brought back make the whole again; a table every tile only reads is
  dealt out as read shares, first to the two SparseCores, then to each one's sixteen tiles.
-/
import proofs.«203700_g68710886802180_cont_9to1c4b_800_29_alg».proof.Proof.ScSideDefsW
import Idealize.ShloMosaic.Rules.PointsTo

noncomputable section

namespace Cert.Kernel.ScSide

open Cert.Kernel Cert.Kernel.Gen Cert.Kernel.Setup

open Idealize.ShloMosaic Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.Packed (WideOK PackedOK FlatOf biasRow rowOf wideRow wideLane)

variable {F : FTy → Type}

local notation "𝕄" => MT nD τ sig (HIx 1) (Elt F) ℕ UU ℕ

/-! ## Which tile owns which batch entries -/

/-- A tile, by its SparseCore and its vector subcore. -/
abbrev Tile : Type := Fin 2 × Fin 16

/-- Its coordinates. -/
abbrev tco (t : Tile) : grid2.Coords := coordsV t.1 t.2

theorem tbase_tco (t : Tile) : tbase (tco t) = 256 * t.2.val + 128 * t.1.val := rfl

theorem mem_idRect (L : grid2.Coords) (x : S4096.Idx) :
    x ∈ (idRect L).set ↔ tbase L ≤ (x 0).val ∧ (x 0).val < tbase L + 128 := by
  unfold idRect
  rw [Rect.mem_set_unit]
  constructor
  · intro h; have h0 := h 0; rw [k2_off1_eq] at h0; exact h0
  · intro h a
    match a with
    | ⟨0, _⟩ => rw [k2_off1_eq]; exact h

theorem mem_rowRect (L : grid2.Coords) (x : S4096x128.Idx) :
    x ∈ (rowRect L).set ↔ tbase L ≤ (x 0).val ∧ (x 0).val < tbase L + 128 := by
  unfold rowRect
  rw [Rect.mem_set_unit]
  constructor
  · intro h; have h0 := h 0; rw [k2_off2_eq] at h0; exact h0
  · intro h a
    match a with
    | ⟨0, _⟩ => rw [k2_off2_eq]; exact h
    | ⟨1, _⟩ => rw [k2_off2_eq]; exact ⟨Nat.zero_le _, by have := (x 1).isLt; simpa using this⟩

/-- The tile that owns batch entry `v`. -/
def owner (v : Nat) (h : v < 4096) : Tile := (⟨(v % 256) / 128, by omega⟩, ⟨v / 256, by omega⟩)

theorem owner_spec (v : Nat) (h : v < 4096) : tbase (tco (owner v h)) ≤ v ∧ v < tbase (tco (owner v h)) + 128 := by
  rw [tbase_tco]; simp only [owner]; omega

theorem tiles_sep {t t' : Tile} (h : t ≠ t') :
    tbase (tco t) + 128 ≤ tbase (tco t') ∨ tbase (tco t') + 128 ≤ tbase (tco t) := by
  rw [tbase_tco, tbase_tco]
  obtain ⟨c, s⟩ := t; obtain ⟨c', s'⟩ := t'
  have : c.val ≠ c'.val ∨ s.val ≠ s'.val := by
    by_contra hn; push Not at hn
    exact h (Prod.ext (Fin.ext hn.1) (Fin.ext hn.2))
  have := c.isLt; have := c'.isLt
  simp only; omega

theorem ids_disjoint : ∀ t ∈ (Finset.univ : Finset Tile), ∀ t' ∈ (Finset.univ : Finset Tile), t ≠ t' →
    Disjoint (idRect (tco t)).set (idRect (tco t')).set := by
  intro t _ t' _ h
  rw [Finset.disjoint_left]; intro x hx hx'
  rw [mem_idRect] at hx hx'
  rcases tiles_sep h with h1 | h1 <;> omega

theorem rows_disjoint : ∀ t ∈ (Finset.univ : Finset Tile), ∀ t' ∈ (Finset.univ : Finset Tile), t ≠ t' →
    Disjoint (rowRect (tco t)).set (rowRect (tco t')).set := by
  intro t _ t' _ h
  rw [Finset.disjoint_left]; intro x hx hx'
  rw [mem_rowRect] at hx hx'
  rcases tiles_sep h with h1 | h1 <;> omega

theorem ids_cover : (Finset.univ : Finset Tile).biUnion (fun t => (idRect (tco t)).set) = Finset.univ := by
  ext x; simp only [Finset.mem_biUnion, Finset.mem_univ, true_and, iff_true]
  exact ⟨owner (x 0).val (x 0).isLt, (mem_idRect _ _).2 (owner_spec _ _)⟩

theorem rows_cover : (Finset.univ : Finset Tile).biUnion (fun t => (rowRect (tco t)).set) = Finset.univ := by
  ext x; simp only [Finset.mem_biUnion, Finset.mem_univ, true_and, iff_true]
  exact ⟨owner (x 0).val (x 0).isLt, (mem_rowRect _ _).2 (owner_spec _ _)⟩

/-! ## Whole buffers as the tiles' parts; tables as the tiles' read shares -/

theorem arg0_parts (d : Dev nD) (f : Buf (Elt F) (tcLoc d main_arg0)) :
    (tcLoc d main_arg0 ↦{fullShare} f : sProp 𝕄) = bigSep Finset.univ fun t : Tile => tcLoc d main_arg0 ↦[(idRect (tco t)).set]{fullShare} f := by
  rw [← pointsTo_biUnion Finset.univ (ℓ := tcLoc d main_arg0) (fun t : Tile => (idRect (tco t)).set) ids_disjoint, ids_cover]; try rfl
theorem arg1_parts (d : Dev nD) (f : Buf (Elt F) (tcLoc d main_arg1)) :
    (tcLoc d main_arg1 ↦{fullShare} f : sProp 𝕄) = bigSep Finset.univ fun t : Tile => tcLoc d main_arg1 ↦[(idRect (tco t)).set]{fullShare} f := by
  rw [← pointsTo_biUnion Finset.univ (ℓ := tcLoc d main_arg1) (fun t : Tile => (idRect (tco t)).set) ids_disjoint, ids_cover]; try rfl
theorem bias_parts (d : Dev nD) (f : Buf (Elt F) (tcLoc d main_v6_2)) :
    (tcLoc d main_v6_2 ↦{fullShare} f : sProp 𝕄) = bigSep Finset.univ fun t : Tile => tcLoc d main_v6_2 ↦[(idRect (tco t)).set]{fullShare} f := by
  rw [← pointsTo_biUnion Finset.univ (ℓ := tcLoc d main_v6_2) (fun t : Tile => (idRect (tco t)).set) ids_disjoint, ids_cover]; try rfl
theorem out0_parts (d : Dev nD) (f : Buf (Elt F) (tcLoc d main_v6_0)) :
    (tcLoc d main_v6_0 ↦{fullShare} f : sProp 𝕄) = bigSep Finset.univ fun t : Tile => tcLoc d main_v6_0 ↦[(rowRect (tco t)).set]{fullShare} f := by
  rw [← pointsTo_biUnion Finset.univ (ℓ := tcLoc d main_v6_0) (fun t : Tile => (rowRect (tco t)).set) rows_disjoint, rows_cover]; try rfl
theorem out1_parts (d : Dev nD) (f : Buf (Elt F) (tcLoc d main_v6_1)) :
    (tcLoc d main_v6_1 ↦{fullShare} f : sProp 𝕄) = bigSep Finset.univ fun t : Tile => tcLoc d main_v6_1 ↦[(rowRect (tco t)).set]{fullShare} f := by
  rw [← pointsTo_biUnion Finset.univ (ℓ := tcLoc d main_v6_1) (fun t : Tile => (rowRect (tco t)).set) rows_disjoint, rows_cover]; try rfl

/-- A table held whole, dealt out as the thirty-two tiles' read shares (what is left over is dropped). -/
theorem table_shares {ℓ : Loc nD τ sig} (f : Buf (Elt F) ℓ) :
    (ℓ ↦{fullShare} f : sProp 𝕄) ⊢ bigSep (Finset.univ : Finset Tile) fun t => ℓ ↦{rsh t.1 t.2} f := by
  rw [bigSep_univ_prod (fun t : Tile => (ℓ ↦{rsh t.1 t.2} f : sProp 𝕄))]
  refine (Transfers.pointsTo_toks_split fullShare 2).trans (sep_elim_right.trans ?_)
  exact bigSep_mono fun c _ => (Transfers.pointsTo_toks_split _ 16).trans sep_elim_right

/-- The hand-over record's sum over the call's grid is a sum over tiles. -/
theorem bigSep_tiles (Φ : grid2.Coords → PosShare TreeShare → sProp 𝕄) :
    (bigSep Finset.univ fun c : Fin ((K (F := F)).nCore 0) => bigSep Finset.univ fun s : Fin ((K (F := F)).nSub 0) => Φ (tL c s) (tQ c s))
      = bigSep (Finset.univ : Finset Tile) fun t => Φ (tco t) (rsh t.1 t.2) := by
  rw [bigSep_univ_prod (fun t : Tile => Φ (tco t) (rsh t.1 t.2))]; rfl

/-- A witness and its property. -/
theorem ex_pure_intro {α : Type} (φ : α → Prop) (Ψ : α → sProp 𝕄) (a : α) (h : φ a) : Ψ a ⊢ iprop(∃ x, ⌜φ x⌝ ∗ Ψ x) := by
  iintro H; iexists a; isplitr
  · ipureintro; exact h
  · iexact H
theorem ex_intro' {α : Type} (Ψ : α → sProp 𝕄) (a : α) : Ψ a ⊢ iprop(∃ x, Ψ x) := by
  iintro H; iexists a; iexact H

variable [FloatOps F] (m : (ℓ : Loc nD τ sig) → Buf (Elt F) ℓ)

/-! ## The operands in -/

theorem st_intro (d : Dev nD)
    (w1 : Buf (Elt F) (tcLoc d main_v1)) (w3 : Buf (Elt F) (tcLoc d main_v3))
    (b4 : Buf (Elt F) (tcLoc d main_v4)) (b5 : Buf (Elt F) (tcLoc d main_v5))
    (hw1 : WideOK (m (tcLoc d main_arg2)) w1) (hw3 : WideOK (m (tcLoc d main_arg3)) w3)
    (h4 : FlatOf (m (tcLoc d main_arg4)) b4) (h5 : FlatOf (m (tcLoc d main_arg5)) b5) :
    (iprop((tcLoc d main_v1 ↦{fullShare} w1) ∗ (tcLoc d main_v3 ↦{fullShare} w3)
        ∗ (tcLoc d main_arg0 ↦{fullShare} m (tcLoc d main_arg0)) ∗ (tcLoc d main_arg1 ↦{fullShare} m (tcLoc d main_arg1))
        ∗ (tcLoc d main_v4 ↦{fullShare} b4) ∗ (tcLoc d main_v5 ↦{fullShare} b5)
        ∗ (∃ f, tcLoc d main_v6_0 ↦{fullShare} f) ∗ (∃ f, tcLoc d main_v6_1 ↦{fullShare} f) ∗ (∃ f, tcLoc d main_v6_2 ↦{fullShare} f)) : sProp 𝕄)
      ⊢ bigSep Finset.univ fun c : Fin ((K (F := F)).nCore 0) => (P m).st 0 d c := by
  simp only [P_st]
  rw [bigSep_tiles (F := F) (fun L q => tileIn m d L q)]
  unfold tileIn
  simp only [bigSep_sep']
  iintro ⟨H1, H3, Ha0, Ha1, H4, H5, ⟨%f0, Hf0⟩, ⟨%f1, Hf1⟩, ⟨%f2, Hf2⟩⟩
  isplitl [H1]
  · iapply ((table_shares w1).trans (bigSep_mono fun t _ => ex_pure_intro (fun w => WideOK (m (tcLoc d main_arg2)) w) (fun w => (tcLoc d main_v1 ↦{rsh t.1 t.2} w : sProp 𝕄)) w1 hw1))
    iexact H1
  isplitl [H3]
  · iapply ((table_shares w3).trans (bigSep_mono fun t _ => ex_pure_intro (fun w => WideOK (m (tcLoc d main_arg3)) w) (fun w => (tcLoc d main_v3 ↦{rsh t.1 t.2} w : sProp 𝕄)) w3 hw3))
    iexact H3
  isplitl [Ha0]; · rw [← arg0_parts]; iexact Ha0
  isplitl [Ha1]; · rw [← arg1_parts]; iexact Ha1
  isplitl [H4]
  · iapply ((table_shares b4).trans (bigSep_mono fun t _ => ex_pure_intro (fun b => FlatOf (m (tcLoc d main_arg4)) b) (fun b => (tcLoc d main_v4 ↦{rsh t.1 t.2} b : sProp 𝕄)) b4 h4))
    iexact H4
  isplitl [H5]
  · iapply ((table_shares b5).trans (bigSep_mono fun t _ => ex_pure_intro (fun b => FlatOf (m (tcLoc d main_arg5)) b) (fun b => (tcLoc d main_v5 ↦{rsh t.1 t.2} b : sProp 𝕄)) b5 h5))
    iexact H5
  isplitl [Hf0]
  · iapply ((Entails.of_eq (out0_parts d f0)).trans (bigSep_mono fun t _ => ex_intro' (fun f => (tcLoc d main_v6_0 ↦[(rowRect (tco t)).set]{fullShare} f : sProp 𝕄)) f0))
    iexact Hf0
  isplitl [Hf1]
  · iapply ((Entails.of_eq (out1_parts d f1)).trans (bigSep_mono fun t _ => ex_intro' (fun f => (tcLoc d main_v6_1 ↦[(rowRect (tco t)).set]{fullShare} f : sProp 𝕄)) f1))
    iexact Hf1
  · iapply ((Entails.of_eq (bias_parts d f2)).trans (bigSep_mono fun t _ => ex_intro' (fun f => (tcLoc d main_v6_2 ↦[(idRect (tco t)).set]{fullShare} f : sProp 𝕄)) f2))
    iexact Hf2

/-! ## The results back -/

/-- Rows brought back tile by tile, each right on its own tile's rows, are right on every row. -/
theorem packed_of_tiles {ids : IVec Cert.Packed.SIds 32} {e : FVec F Cert.Packed.SEmb .f32}
    (gs : Tile → FVec F Cert.Packed.SRows .f32) (g : FVec F Cert.Packed.SRows .f32)
    (hR : ∀ t ∈ (Finset.univ : Finset Tile), RowsOK ids e (tco t) (gs t))
    (hg : ∀ t ∈ (Finset.univ : Finset Tile), ∀ i ∈ (rowRect (tco t)).set, g i = gs t i) : PackedOK ids e g := by
  intro b dd
  have hs := owner_spec b.val b.isLt
  have hi : ix2 b (wideLane (ids (ix1 b)).toNat dd) ∈ (rowRect (tco (owner b.val b.isLt))).set := (mem_rowRect _ _).2 hs
  rw [hg _ (Finset.mem_univ _) _ hi]
  exact hR _ (Finset.mem_univ _) b hs.1 hs.2 dd

theorem rows_join0 [∀ e, Nonempty (Elt F e)] (d : Dev nD) (ids : IVec Cert.Packed.SIds 32) (e : FVec F Cert.Packed.SEmb .f32) :
    (bigSep Finset.univ fun t : Tile => iprop(∃ g, ⌜RowsOK ids e (tco t) g⌝ ∗ tcLoc d main_v6_0 ↦[(rowRect (tco t)).set]{fullShare} g))
      ⊢ (iprop(∃ g0, ⌜PackedOK ids e g0⌝ ∗ tcLoc d main_v6_0 ↦{fullShare} g0) : sProp 𝕄) := by
  refine (bigSep_exists_pi Finset.univ (fun (t : Tile) (g : Buf (Elt F) (tcLoc d main_v6_0)) =>
    iprop(⌜RowsOK ids e (tco t) g⌝ ∗ tcLoc d main_v6_0 ↦[(rowRect (tco t)).set]{fullShare} g))).trans ?_
  iintro ⟨%gs, H⟩
  ihave H1 := (bigSep_pure_sep Finset.univ (fun t : Tile => RowsOK ids e (tco t) (gs t))
    (fun t : Tile => (tcLoc d main_v6_0 ↦[(rowRect (tco t)).set]{fullShare} gs t : sProp 𝕄))) $$ H
  icases H1 with ⟨%hR, H⟩
  ihave H2 := (pointsTo_biUnion_join Finset.univ (fun t : Tile => (rowRect (tco t)).set) gs (gs (0, 0)) rows_disjoint) $$ H
  icases H2 with ⟨%g, %hg, Hg⟩
  rw [rows_cover]
  iexists g; isplitr
  · ipureintro; exact packed_of_tiles gs g hR hg
  · iexact Hg

theorem rows_join1 [∀ e, Nonempty (Elt F e)] (d : Dev nD) (ids : IVec Cert.Packed.SIds 32) (e : FVec F Cert.Packed.SEmb .f32) :
    (bigSep Finset.univ fun t : Tile => iprop(∃ g, ⌜RowsOK ids e (tco t) g⌝ ∗ tcLoc d main_v6_1 ↦[(rowRect (tco t)).set]{fullShare} g))
      ⊢ (iprop(∃ g1, ⌜PackedOK ids e g1⌝ ∗ tcLoc d main_v6_1 ↦{fullShare} g1) : sProp 𝕄) := by
  refine (bigSep_exists_pi Finset.univ (fun (t : Tile) (g : Buf (Elt F) (tcLoc d main_v6_1)) =>
    iprop(⌜RowsOK ids e (tco t) g⌝ ∗ tcLoc d main_v6_1 ↦[(rowRect (tco t)).set]{fullShare} g))).trans ?_
  iintro ⟨%gs, H⟩
  ihave H1 := (bigSep_pure_sep Finset.univ (fun t : Tile => RowsOK ids e (tco t) (gs t))
    (fun t : Tile => (tcLoc d main_v6_1 ↦[(rowRect (tco t)).set]{fullShare} gs t : sProp 𝕄))) $$ H
  icases H1 with ⟨%hR, H⟩
  ihave H2 := (pointsTo_biUnion_join Finset.univ (fun t : Tile => (rowRect (tco t)).set) gs (gs (0, 0)) rows_disjoint) $$ H
  icases H2 with ⟨%g, %hg, Hg⟩
  rw [rows_cover]
  iexists g; isplitr
  · ipureintro; exact packed_of_tiles gs g hR hg
  · iexact Hg

theorem dn_elim [∀ e, Nonempty (Elt F e)] (d : Dev nD)
    (hu : ∀ j, (m (tcLoc d main_arg0) j).toNat ≤ 999999) (hi : ∀ j, (m (tcLoc d main_arg1) j).toNat ≤ 999999) :
    (bigSep Finset.univ fun c : Fin ((K (F := F)).nCore 0) => (P m).dn 0 d c)
      ⊢ (iprop((tcLoc d main_arg0 ↦{fullShare} m (tcLoc d main_arg0)) ∗ (tcLoc d main_arg1 ↦{fullShare} m (tcLoc d main_arg1))
        ∗ (∃ g0, ⌜PackedOK (m (tcLoc d main_arg0)) (m (tcLoc d main_arg2)) g0⌝ ∗ tcLoc d main_v6_0 ↦{fullShare} g0)
        ∗ (∃ g1, ⌜PackedOK (m (tcLoc d main_arg1)) (m (tcLoc d main_arg3)) g1⌝ ∗ tcLoc d main_v6_1 ↦{fullShare} g1)
        ∗ (tcLoc d main_v6_2 ↦{fullShare}
            biasRow (m (tcLoc d main_arg0)) (m (tcLoc d main_arg1)) (m (tcLoc d main_arg4)) (m (tcLoc d main_arg5)))) : sProp 𝕄) := by
  simp only [P_dn]
  rw [bigSep_tiles (F := F) (fun L _ => tileOut m d L)]
  unfold tileOut
  simp only [bigSep_sep']
  iintro ⟨Ha0, Ha1, Hg0, Hg1, Hb⟩
  isplitl [Ha0]; · rw [arg0_parts]; iexact Ha0
  isplitl [Ha1]; · rw [arg1_parts]; iexact Ha1
  isplitl [Hg0]; · iapply (rows_join0 d _ _); iexact Hg0
  isplitl [Hg1]; · iapply (rows_join1 d _ _); iexact Hg1
  rw [bias_parts]; iexact Hb

end Cert.Kernel.ScSide

end
-- ==== Proof.StretchADefsW.lean ====
/-
  The stretch of @main before the SparseCore call, its vocabulary. The TensorCore starts holding all twenty-one of its
  arrays as launched. The stretch transposes the user table, runs the pipeline that re-lays the transposed table into
  packed rows, does the same for the item table, and flattens the two bias columns. The contents of the held arrays at
  the boundaries are a fold through the three host lines from the launch contents. A packed table is written by its
  pipeline block by block, the last block reaching past the table's end, so what it holds afterwards is known only on
  the lanes that come from rows of the table: from its pipeline on it is carried beside the held arrays, at some contents
  that carry the table, and is no longer read through the fold.
-/
import proofs.«203700_g68710886802180_cont_9to1c4b_800_29_alg».proof.Proof.ThreadStateIdealW
import proofs.«203700_g68710886802180_cont_9to1c4b_800_29_alg».proof.Proof.SidesIdealW
import proofs.«203700_g68710886802180_cont_9to1c4b_800_29_alg».proof.Proof.TcWide0W
import proofs.«203700_g68710886802180_cont_9to1c4b_800_29_alg».proof.Proof.TcWide1W
import proofs.«203700_g68710886802180_cont_9to1c4b_800_29_alg».proof.Proof.StretchBDefsW
import proofs.«203700_g68710886802180_cont_9to1c4b_800_29_alg».proof.Proof.ScSideHandW
import Idealize.ShloMosaic.Lib.Pipeline.FrameSuffix
import Idealize.ShloMosaic.Lib.Pipeline.Regions
import Idealize.ShloMosaic.Lib.Pipeline.Value
import Idealize.ShloMosaic.Lib.SparseCore.Threads

set_option maxRecDepth 16384

noncomputable section

namespace Cert.Kernel.StretchA

open Cert.Kernel Cert.Kernel.Gen Cert.Kernel.Setup Cert.Kernel.Hmain Cert.Kernel.TcSide
open Cert.Kernel.StretchB (dv devEmb SR asideRefs RestA Vof)
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.Packed (WideOK FlatOf)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The contents at the four boundaries -/

/-- At the launch. -/
def W0 (d : Dev nD) : Valuation τ sig (Elt F) := fun b => m (d, b)
/-- After the user table's transpose. -/
def W1 (d : Dev nD) : Valuation τ sig (Elt F) := StableHlo.after MainSplit.opsT0 (W0 m d)
/-- After the item table's transpose (the first packed table, which region 0 has written meanwhile, is not read
    through this fold: it is carried beside the held arrays from there on). -/
def W2 (d : Dev nD) : Valuation τ sig (Elt F) := StableHlo.after MainSplit.opsT1 (W1 m d)
/-- After the two bias columns are flattened: what the stretch keeps aside for the stretch after the call. -/
def W3 (d : Dev nD) : Valuation τ sig (Elt F) := StableHlo.after MainSplit.opsFlat (W2 m d)

/-! ## The arrays held -/

/-- Every array of @main. -/
def refs0 : Finset (Ref sig .tc) :=
  {main_arg0, main_arg1, main_arg2, main_arg3, main_arg4, main_arg5, main_v0, main_v1, main_v2, main_v3, main_v4, main_v5,
    main_v6_0, main_v6_1, main_v6_2, main_v7, main_v8, main_v9, main_v10, main_v11, main_v12}
/-- All but the first packed table. -/
def refs1 : Finset (Ref sig .tc) :=
  {main_arg0, main_arg1, main_arg2, main_arg3, main_arg4, main_arg5, main_v0, main_v2, main_v3, main_v4, main_v5,
    main_v6_0, main_v6_1, main_v6_2, main_v7, main_v8, main_v9, main_v10, main_v11, main_v12}
/-- All but the two packed tables. -/
def refs2 : Finset (Ref sig .tc) :=
  {main_arg0, main_arg1, main_arg2, main_arg3, main_arg4, main_arg5, main_v0, main_v2, main_v4, main_v5,
    main_v6_0, main_v6_1, main_v6_2, main_v7, main_v8, main_v9, main_v10, main_v11, main_v12}

def S0 : Finset (DevRef τ sig) := refs0.map devEmb
def S1 : Finset (DevRef τ sig) := refs1.map devEmb
def S2 : Finset (DevRef τ sig) := refs2.map devEmb

/-! ## The proof data -/

/-- Relational proof data for a pipeline the stretch never enters: nothing is said of it. -/
def idleR (cfg : Pipeline.Cfg sig Λ₀) (c : Dev nD) : RDat τ (Elt F) (HIx 1) ℕ UU ℕ cfg c where
  A _ := fun _ => Classical.arbitrary _
  after _ _ := fun _ _ => True
  Φ _ := iprop(emp)
  q _ := fullShare
  owed _ := (K (F := F)).Otc c 0

/-- The proof data of the four pipelines, the two this stretch enters at their regions' entry contents. -/
def rdatsA : RDats (F := F)
  | ⟨0, _⟩ => fun c => rdat0 (Vof (W1 m)) ((K (F := F)).Otc c 0) (Bnd (F := F) c 0) c
  | ⟨1, _⟩ => fun c => rdat1 (Vof (W2 m)) ((K (F := F)).Otc c 0) (Bnd (F := F) c 0) c
  | ⟨2, _⟩ => fun c => idleR cfg3 c
  | ⟨3, _⟩ => fun c => idleR cfg4 c

/-! ## The thread states -/

/-- The first packed table once region 0 has written it: at some contents that carry the user table. -/
def Wide1 (d : Dev nD) : sProp 𝕄 := iprop(∃ w, ⌜WideOK (m (tloc d main_arg2)) w⌝ ∗ tloc d main_v1 ↦{fullShare} w)
/-- The second packed table once region 1 has written it: at some contents that carry the item table. -/
def Wide3 (d : Dev nD) : sProp 𝕄 := iprop(∃ w, ⌜WideOK (m (tloc d main_arg3)) w⌝ ∗ tloc d main_v3 ↦{fullShare} w)

def TA0 (d : Dev nD) : sProp 𝕄 := iprop(StableHlo.held (d.tc : Thread nD τ) S0 (W0 m d) ∗ Ride (F := F) d 0)
def TA1 (d : Dev nD) : sProp 𝕄 := iprop(StableHlo.held (d.tc : Thread nD τ) S0 (W1 m d) ∗ Ride (F := F) d 0)
def RA2 (d : Dev nD) : sProp 𝕄 := iprop(Wide1 m d ∗ Ride (F := F) d 0)
def TA2 (d : Dev nD) : sProp 𝕄 := iprop(StableHlo.held (d.tc : Thread nD τ) S1 (W1 m d) ∗ RA2 m d)
def TA3 (d : Dev nD) : sProp 𝕄 := iprop(StableHlo.held (d.tc : Thread nD τ) S1 (W2 m d) ∗ RA2 m d)
def RA4 (d : Dev nD) : sProp 𝕄 := iprop(Wide3 m d ∗ Wide1 m d ∗ Ride (F := F) d 0)
def TA4 (d : Dev nD) : sProp 𝕄 := iprop(StableHlo.held (d.tc : Thread nD τ) S2 (W2 m d) ∗ RA4 m d)
def TA5 (d : Dev nD) : sProp 𝕄 := iprop(StableHlo.held (d.tc : Thread nD τ) S2 (W3 m d) ∗ RA4 m d)

/-! ## The fold, read at the arrays that matter -/

theorem W0_apply (d : Dev nD) (r : Ref sig .tc) : W0 m d (dv r) = m (tloc d r) := rfl

/-- The transposed user table, and the tables the transpose does not write. -/
theorem W1_main_v0 (d : Dev nD) :
    (W1 m d (dv main_v0) : S32x1000000.Idx → Elt F .f32)
      = transpose S32x1000000 [1, 0] (m (tloc d main_arg2)) transposes_S1000000x32_S32x1000000_1_0 := by
  unfold W1 MainSplit.opsT0; after_results; rfl
theorem W1_main_arg2 (d : Dev nD) : W1 m d (dv main_arg2) = m (tloc d main_arg2) := by
  unfold W1 MainSplit.opsT0; after_results; rfl
theorem W1_main_arg3 (d : Dev nD) : W1 m d (dv main_arg3) = m (tloc d main_arg3) := by
  unfold W1 MainSplit.opsT0; after_results; rfl

/-- The transposed item table. -/
theorem W2_main_v2 (d : Dev nD) :
    (W2 m d (dv main_v2) : S32x1000000.Idx → Elt F .f32)
      = transpose S32x1000000 [1, 0] (m (tloc d main_arg3)) transposes_S1000000x32_S32x1000000_1_0 := by
  unfold W2 MainSplit.opsT1; after_results; rw [W1_main_arg3]
theorem W2_main_arg3 (d : Dev nD) : W2 m d (dv main_arg3) = m (tloc d main_arg3) := by
  unfold W2 W1 MainSplit.opsT1 MainSplit.opsT0; after_results; rfl

/-- No line of the stretch writes an argument array. -/
theorem W3_main_arg0 (d : Dev nD) : W3 m d (dv main_arg0) = m (tloc d main_arg0) := by
  unfold W3 W2 W1 MainSplit.opsFlat MainSplit.opsT1 MainSplit.opsT0; after_results; rfl
theorem W3_main_arg1 (d : Dev nD) : W3 m d (dv main_arg1) = m (tloc d main_arg1) := by
  unfold W3 W2 W1 MainSplit.opsFlat MainSplit.opsT1 MainSplit.opsT0; after_results; rfl
theorem W3_main_arg2 (d : Dev nD) : W3 m d (dv main_arg2) = m (tloc d main_arg2) := by
  unfold W3 W2 W1 MainSplit.opsFlat MainSplit.opsT1 MainSplit.opsT0; after_results; rfl
theorem W3_main_arg3 (d : Dev nD) : W3 m d (dv main_arg3) = m (tloc d main_arg3) := by
  unfold W3 W2 W1 MainSplit.opsFlat MainSplit.opsT1 MainSplit.opsT0; after_results; rfl
theorem W3_main_arg4 (d : Dev nD) : W3 m d (dv main_arg4) = m (tloc d main_arg4) := by
  unfold W3 W2 W1 MainSplit.opsFlat MainSplit.opsT1 MainSplit.opsT0; after_results; rfl
theorem W3_main_arg5 (d : Dev nD) : W3 m d (dv main_arg5) = m (tloc d main_arg5) := by
  unfold W3 W2 W1 MainSplit.opsFlat MainSplit.opsT1 MainSplit.opsT0; after_results; rfl

/-- A [1000000, 1] column flattened is the column read along its one axis. -/
theorem flatOf_shapeCast (col : FVec F S1000000x1 .f32) :
    FlatOf col (shapeCast S1000000 col shapeCasts_S1000000x1_S1000000) := by
  intro n
  refine shapeCast_apply _ _ (ix1 n) (ix2 n (0 : Fin 1)) ?_
  rw [Shape.rowMajor_val_two, Shape.rowMajor_val_one]
  show n.val * 1 + 0 = n.val
  omega

/-- The flattened bias columns. -/
theorem W3_main_v4 (d : Dev nD) : FlatOf (m (tloc d main_arg4)) (W3 m d (dv main_v4)) := by
  have e : (W3 m d (dv main_v4) : S1000000.Idx → Elt F .f32) = shapeCast S1000000 (m (tloc d main_arg4)) shapeCasts_S1000000x1_S1000000 := by
    unfold W3 W2 W1 MainSplit.opsFlat MainSplit.opsT1 MainSplit.opsT0; after_results; rfl
  rw [e]; exact flatOf_shapeCast _
theorem W3_main_v5 (d : Dev nD) : FlatOf (m (tloc d main_arg5)) (W3 m d (dv main_v5)) := by
  have e : (W3 m d (dv main_v5) : S1000000.Idx → Elt F .f32) = shapeCast S1000000 (m (tloc d main_arg5)) shapeCasts_S1000000x1_S1000000 := by
    unfold W3 W2 W1 MainSplit.opsFlat MainSplit.opsT1 MainSplit.opsT0; after_results; rfl
  rw [e]; exact flatOf_shapeCast _

/-! ## The held sets, unpacked -/

/-- A set of @main's arrays held at a valuation, array by array. -/
theorem held_map (d : Dev nD) (R : Finset (Ref sig .tc)) (V : Valuation τ sig (Elt F)) :
    (StableHlo.held (d.tc : Thread nD τ) (R.map devEmb) V : sProp 𝕄)
      = bigSep R fun r => (tloc d r ↦{fullShare} V (dv r) : sProp 𝕄) := by
  unfold StableHlo.held
  rw [bigSep_map]
  rfl

/-- The arrays neither region 0 reads nor writes. -/
abbrev rest0 : Finset (Ref sig .tc) := refs0 \ {main_v0, main_v1}
/-- The arrays, of those left, that region 1 neither reads nor writes. -/
abbrev rest1 : Finset (Ref sig .tc) := refs1 \ {main_v2, main_v3}
/-- The call's operands and results. -/
def callRefs : Finset (Ref sig .tc) := {main_arg0, main_arg1, main_v4, main_v5, main_v6_0, main_v6_1, main_v6_2}

theorem refs0_eq : refs0 = insert main_v0 (insert main_v1 rest0) := by decide
theorem refs1_eq0 : refs1 = insert main_v0 rest0 := by decide
theorem refs1_eq : refs1 = insert main_v2 (insert main_v3 rest1) := by decide
theorem refs2_eq1 : refs2 = insert main_v2 rest1 := by decide
theorem refs2_eq : refs2 = callRefs ∪ asideRefs := by decide
theorem call_aside_disjoint : Disjoint callRefs asideRefs := by decide

/-- Every array, with region 0's two arrays first. -/
theorem held_S0 (d : Dev nD) (V : Valuation τ sig (Elt F)) :
    (StableHlo.held (d.tc : Thread nD τ) S0 V : sProp 𝕄)
      = iprop((tloc d main_v0 ↦{fullShare} V (dv main_v0)) ∗ (tloc d main_v1 ↦{fullShare} V (dv main_v1))
          ∗ bigSep rest0 fun r => (tloc d r ↦{fullShare} V (dv r) : sProp 𝕄)) := by
  rw [show S0 = refs0.map devEmb from rfl, held_map, refs0_eq, bigSep_insert (by decide), bigSep_insert (by decide)]
  rfl
/-- All but the first packed table, with region 0's input array first; -/
theorem held_S1_0 (d : Dev nD) (V : Valuation τ sig (Elt F)) :
    (StableHlo.held (d.tc : Thread nD τ) S1 V : sProp 𝕄)
      = iprop((tloc d main_v0 ↦{fullShare} V (dv main_v0)) ∗ bigSep rest0 fun r => (tloc d r ↦{fullShare} V (dv r) : sProp 𝕄)) := by
  rw [show S1 = refs1.map devEmb from rfl, held_map, refs1_eq0, bigSep_insert (by decide)]
  rfl
/-- the same, with region 1's two arrays first. -/
theorem held_S1 (d : Dev nD) (V : Valuation τ sig (Elt F)) :
    (StableHlo.held (d.tc : Thread nD τ) S1 V : sProp 𝕄)
      = iprop((tloc d main_v2 ↦{fullShare} V (dv main_v2)) ∗ (tloc d main_v3 ↦{fullShare} V (dv main_v3))
          ∗ bigSep rest1 fun r => (tloc d r ↦{fullShare} V (dv r) : sProp 𝕄)) := by
  rw [show S1 = refs1.map devEmb from rfl, held_map, refs1_eq, bigSep_insert (by decide), bigSep_insert (by decide)]
  rfl
/-- All but the two packed tables, with region 1's input array first. -/
theorem held_S2_1 (d : Dev nD) (V : Valuation τ sig (Elt F)) :
    (StableHlo.held (d.tc : Thread nD τ) S2 V : sProp 𝕄)
      = iprop((tloc d main_v2 ↦{fullShare} V (dv main_v2)) ∗ bigSep rest1 fun r => (tloc d r ↦{fullShare} V (dv r) : sProp 𝕄)) := by
  rw [show S2 = refs2.map devEmb from rfl, held_map, refs2_eq1, bigSep_insert (by decide)]
  rfl

end Cert.Kernel.StretchA

end
-- ==== Proof.StretchAW.lean ====
/-
  The stretch of @main before the SparseCore call as five segments: the user table's transpose, the first re-laying
  pipeline, the item table's transpose, the second re-laying pipeline, the flattening of the bias columns. Between
  segments the TensorCore holds its arrays at the boundary's contents and, beside them, the packed tables already
  written, the generator register and the handshake debt. A pipeline's two arrays are split out of the held set where its
  region is entered; at the exit the input array goes back as it was and the packed table stays beside the set. The
  pipelines wait on their own staging semaphores at index `none`, level 0, which is below every unit of the debt, so
  the waits are licensed under it. At the end the held arrays are the call's operands and the twelve arrays kept aside.
-/
import proofs.«203700_g68710886802180_cont_9to1c4b_800_29_alg».proof.Proof.StretchADefsW
import Idealize.ShloMosaic.Lib.Pipeline.FrameSuffix
import Idealize.ShloMosaic.Lib.Pipeline.Regions
import Idealize.ShloMosaic.Lib.Pipeline.Value
import Idealize.ShloMosaic.Lib.SparseCore.Threads

set_option maxRecDepth 16384

noncomputable section

namespace Cert.Kernel.StretchA

open Cert.Kernel Cert.Kernel.Gen Cert.Kernel.Setup Cert.Kernel.Hmain Cert.Kernel.TcSide
open Cert.Kernel.StretchB (dv devEmb SR asideRefs RestA Vof)
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.Packed (WideOK FlatOf)

variable {F : FTy → Type} [FloatOps F] [∀ e, Nonempty (Elt F e)]

local notation "𝕄" => MT nD τ sig (HIx 1) (Elt F) ℕ UU ℕ

variable (m : (ℓ : Loc nD τ sig) → Buf (Elt F) ℓ)

/-! ## The waits under the debt -/

/-- No unit of the handshake debt sits at index `none`. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- So a pipeline may wait on each of its staging semaphores at every point. -/
theorem hwaitsA (p : Fin 4) (c : Dev nD) (howed : ∀ t, (rdatsA m p c).owed t = (K (F := F)).Otc c 0) :
    (levAts (K (F := F)).L (K (F := F)).lev : sProp 𝕄)
      ⊢ Pipeline.RDat.cellsWaits (Pipeline.pin (pcfgs (F := F)) adm) (rdatsA m) (none : HIx 1) p c :=
  Pipeline.RDat.cellsWaits_intro (Pipeline.pin (pcfgs (F := F)) adm) (rdatsA m) (none : HIx 1) p c fun w s t => by
    rw [howed t]
    exact (K (F := F)).mayWait_none _ (Otc_none c 0)

/-! ## The pipelines as segments -/

/-- Region 0's two arrays at the region's entry, as the pipeline holds them. -/
theorem arrays0_in (c : Dev nD) :
    (iprop((tloc c main_v0 ↦{fullShare} W1 m c (dv main_v0)) ∗ (tloc c main_v1 ↦{fullShare} W1 m c (dv main_v1)) : sProp 𝕄))
      ⊢ (rdatsA m 0 c).arrays (rdatsA m 0 c).A := by
  rw [Pipeline.RDat.arrays_eq (pcfgs (F := F)) adm (rdatsA m) 0 c launch0.arr_whole (fun w => by
    match w with | ⟨0, _⟩ => rfl | ⟨1, _⟩ => rfl), bigSep_W0]
  exact .rfl

/-- What region 0 leaves in its output array carries the table. -/
theorem wide0_of_exit (c : Dev nD) (f : Buf (Elt F) (tloc c main_v1)) (h : (rdatsA m 0 c).ArrAt 1 cfg0.N f) :
    WideOK (m (tloc c main_arg2)) f := by
  have := wideOK_of_arrAt0 (Vof (W1 m)) ((K (F := F)).Otc c 0) (Bnd (F := F) c 0) c f h
    (by show W1 m c (dv main_v0) = transpose S32x1000000 [1, 0] (W1 m c (dv main_arg2)) transposes_S1000000x32_S32x1000000_1_0
        rw [W1_main_v0, W1_main_arg2])
  rwa [show Vof (W1 m) c main_arg2 = m (tloc c main_arg2) from W1_main_arg2 m c] at this

/-- Region 0's two arrays at the region's exit: the input as it was, the packed table at contents that carry the table. -/
theorem arrays0_out (c : Dev nD) :
    ((rdatsA m 0 c).arraysAt (Pipeline.pin (pcfgs (F := F)) adm 0).N : sProp 𝕄)
      ⊢ iprop((tloc c main_v0 ↦{fullShare} W1 m c (dv main_v0)) ∗ Wide1 m c) := by
  unfold RDat.arraysAt Wide1
  rw [bigSep_W0]
  iintro ⟨⟨%f0, %h0, H0⟩, ⟨%f1, %h1, H1⟩⟩
  rw [(rdatsA m 0 c).ArrAt_in 0 rfl] at h0
  subst h0
  have e0 : ∀ f, ((tloc c main_v0 ↦[(spec0 0).arr.view.set]{fullShare} f : sProp 𝕄)) = (tloc c main_v0 ↦{fullShare} f) := fun f => by
    rw [(arr_whole0 0).set_eq_univ]
  have e1 : ∀ f, ((tloc c main_v1 ↦[(spec0 1).arr.view.set]{fullShare} f : sProp 𝕄)) = (tloc c main_v1 ↦{fullShare} f) := fun f => by
    rw [(arr_whole0 1).set_eq_univ]
  isplitl [H0]
  · iapply (Entails.of_eq (e0 _)); iexact H0
  iexists f1; isplitr; · ipureintro; exact wide0_of_exit m c f1 h1
  iapply (Entails.of_eq (e1 _)); iexact H1

set_option backward.isDefEq.respectTransparency.types false in
/-- The pipeline of custom call 0 as a segment: entered from the held arrays, left with the input array back among
    them and the packed table beside them at contents that carry the table. The generator register goes into the region
    invariant and comes out; the handshake debt passes through, the pipeline's own waits recorded at level 0. -/
def reg0 : Pipeline.RDat.RegionSeg (pcfgs (F := F)) adm (rdatsA m) (none : HIx 1) (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation0 (Vof (W1 m)) ((K (F := F)).Otc c 0) (Bnd (F := F) c 0) c
  hwaits c := hwaitsA m 0 c (fun _ => rfl)
  pre c := TA1 m c
  post c := TA2 m c
  X c := iprop(∃ r, prngReg c r)
  Y c := iprop(∃ r, prngReg c r)
  Z c := iprop((bigSep rest0 fun r => (tloc c r ↦{fullShare} W1 m c (dv r) : sProp 𝕄)))
  hentry c := by
    rw [Pipeline.ownSems0_none]
    unfold TA1 Ride
    rw [held_S0]
    iintro ⟨⟨⟨Hi, Ho, Hrest⟩, Hp, HO⟩, -, -⟩
    imodintro
    isplitl [Hi Ho]
    · iapply (arrays0_in m c)
      isplitl [Hi]; · iexact Hi
      iexact Ho
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitl [Hp]; · iexact Hp
    iexact Hrest
  hin c := by
    rw [show (rdatsA m 0 c).Φ 0 = ΦR spec0 c from rfl]; unfold ΦR
    iintro ⟨Hp, -, Hr⟩
    isplitl [Hr]; · iexact Hr
    iexact Hp
  hout c := by
    rw [Pipeline.ownSems0_none, show (rdatsA m 0 c).Φ (Fin.last _) = ΦR spec0 c from rfl]; unfold ΦR
    iintro ⟨Hr, Hp⟩
    isplitl [Hp]; · iexact Hp
    isplitr; · iempintro
    iexact Hr
  hexit c := by
    unfold TA2 RA2 Ride
    rw [held_S1_0]
    iintro ⟨Harr, HO, HY, Hrest⟩
    ihave H := (arrays0_out m c) $$ Harr
    icases H with ⟨H0, H1⟩
    imodintro
    isplitl [H0 Hrest]
    · isplitl [H0]; · iexact H0
      iexact Hrest
    isplitl [H1]; · iexact H1
    isplitl [HY]; · iexact HY
    iapply (Pipeline.owesWithin_mono c _ (Set.union_subset (Set.Subset.refl _) (waitPairs_sub cfg0 c 0)))
    iexact HO

/-- Region 1's two arrays at the region's entry, as the pipeline holds them. -/
theorem arrays1_in (c : Dev nD) :
    (iprop((tloc c main_v2 ↦{fullShare} W2 m c (dv main_v2)) ∗ (tloc c main_v3 ↦{fullShare} W2 m c (dv main_v3)) : sProp 𝕄))
      ⊢ (rdatsA m 1 c).arrays (rdatsA m 1 c).A := by
  rw [Pipeline.RDat.arrays_eq (pcfgs (F := F)) adm (rdatsA m) 1 c launch1.arr_whole (fun w => by
    match w with | ⟨0, _⟩ => rfl | ⟨1, _⟩ => rfl), bigSep_W1]
  exact .rfl

/-- What region 1 leaves in its output array carries the table. -/
theorem wide1_of_exit (c : Dev nD) (f : Buf (Elt F) (tloc c main_v3)) (h : (rdatsA m 1 c).ArrAt 1 cfg1.N f) :
    WideOK (m (tloc c main_arg3)) f := by
  have := wideOK_of_arrAt1 (Vof (W2 m)) ((K (F := F)).Otc c 0) (Bnd (F := F) c 0) c f h
    (by show W2 m c (dv main_v2) = transpose S32x1000000 [1, 0] (W2 m c (dv main_arg3)) transposes_S1000000x32_S32x1000000_1_0
        rw [W2_main_v2, W2_main_arg3])
  rwa [show Vof (W2 m) c main_arg3 = m (tloc c main_arg3) from W2_main_arg3 m c] at this

/-- Region 1's two arrays at the region's exit: the input as it was, the packed table at contents that carry the table. -/
theorem arrays1_out (c : Dev nD) :
    ((rdatsA m 1 c).arraysAt (Pipeline.pin (pcfgs (F := F)) adm 1).N : sProp 𝕄)
      ⊢ iprop((tloc c main_v2 ↦{fullShare} W2 m c (dv main_v2)) ∗ Wide3 m c) := by
  unfold RDat.arraysAt Wide3
  rw [bigSep_W1]
  iintro ⟨⟨%f0, %h0, H0⟩, ⟨%f1, %h1, H1⟩⟩
  rw [(rdatsA m 1 c).ArrAt_in 0 rfl] at h0
  subst h0
  have e0 : ∀ f, ((tloc c main_v2 ↦[(spec1 0).arr.view.set]{fullShare} f : sProp 𝕄)) = (tloc c main_v2 ↦{fullShare} f) := fun f => by
    rw [(arr_whole1 0).set_eq_univ]
  have e1 : ∀ f, ((tloc c main_v3 ↦[(spec1 1).arr.view.set]{fullShare} f : sProp 𝕄)) = (tloc c main_v3 ↦{fullShare} f) := fun f => by
    rw [(arr_whole1 1).set_eq_univ]
  isplitl [H0]
  · iapply (Entails.of_eq (e0 _)); iexact H0
  iexists f1; isplitr; · ipureintro; exact wide1_of_exit m c f1 h1
  iapply (Entails.of_eq (e1 _)); iexact H1

set_option backward.isDefEq.respectTransparency.types false in
/-- The pipeline of custom call 1 as a segment: entered from the held arrays, left with the input array back among
    them and the packed table beside them at contents that carry the table. The generator register goes into the region
    invariant and comes out; the handshake debt passes through, the pipeline's own waits recorded at level 0. -/
def reg1 : Pipeline.RDat.RegionSeg (pcfgs (F := F)) adm (rdatsA m) (none : HIx 1) (defs₀ (F := F)) 𝒱₀ (K (F := F)).L (K (F := F)).lev 1 where
  win := launch1.win.to₀
  block_pos := launch1.block_pos
  stage_whole := launch1.stage_whole
  K := PEmpty
  osem k := k.elim
  ho := Pipeline.OwnSemFacts.none _
  hbody c := body_obligation1 (Vof (W2 m)) ((K (F := F)).Otc c 0) (Bnd (F := F) c 0) c
  hwaits c := hwaitsA m 1 c (fun _ => rfl)
  pre c := TA3 m c
  post c := TA4 m c
  X c := iprop(∃ r, prngReg c r)
  Y c := iprop(∃ r, prngReg c r)
  Z c := iprop((bigSep rest1 fun r => (tloc c r ↦{fullShare} W2 m c (dv r) : sProp 𝕄)) ∗ Wide1 m c)
  hentry c := by
    rw [Pipeline.ownSems0_none]
    unfold TA3 RA2 Ride
    rw [held_S1]
    iintro ⟨⟨⟨Hi, Ho, Hrest⟩, Hw, Hp, HO⟩, -, -⟩
    imodintro
    isplitl [Hi Ho]
    · iapply (arrays1_in m c)
      isplitl [Hi]; · iexact Hi
      iexact Ho
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitl [Hp]; · iexact Hp
    isplitl [Hrest]; · iexact Hrest
    iexact Hw
  hin c := by
    rw [show (rdatsA m 1 c).Φ 0 = ΦR spec1 c from rfl]; unfold ΦR
    iintro ⟨Hp, -, Hr⟩
    isplitl [Hr]; · iexact Hr
    iexact Hp
  hout c := by
    rw [Pipeline.ownSems0_none, show (rdatsA m 1 c).Φ (Fin.last _) = ΦR spec1 c from rfl]; unfold ΦR
    iintro ⟨Hr, Hp⟩
    isplitl [Hp]; · iexact Hp
    isplitr; · iempintro
    iexact Hr
  hexit c := by
    unfold TA4 RA4 Ride
    rw [held_S2_1]
    iintro ⟨Harr, HO, HY, Hrest, Hw⟩
    ihave H := (arrays1_out m c) $$ Harr
    icases H with ⟨H0, H1⟩
    imodintro
    isplitl [H0 Hrest]
    · isplitl [H0]; · iexact H0
      iexact Hrest
    isplitl [H1]; · iexact H1
    isplitl [Hw]; · iexact Hw
    isplitl [HY]; · iexact HY
    iapply (Pipeline.owesWithin_mono c _ (Set.union_subset (Set.Subset.refl _) (waitPairs_sub cfg1 c 0)))
    iexact HO

/-! ## The host lines -/

theorem pair_sub {R : Finset (Ref sig .tc)} {a b : Ref sig .tc} (ha : a ∈ R) (hb : b ∈ R) :
    ({dv a, dv b} : Finset (DevRef τ sig)) ⊆ R.map devEmb := by
  intro r hr
  rcases Finset.mem_insert.mp hr with rfl | hr
  · exact Finset.mem_map_of_mem _ ha
  · rw [Finset.mem_singleton] at hr; subst hr; exact Finset.mem_map_of_mem _ hb

theorem opsT0_sub : ∀ op ∈ (MainSplit.opsT0 : List (HloOp τ sig (Elt F))), op.bufs ⊆ S0 := by
  intro op hop
  simp only [MainSplit.opsT0, List.mem_cons, List.not_mem_nil, or_false] at hop
  subst hop
  rw [StableHlo.unary_bufs]; exact pair_sub (R := refs0) (by decide) (by decide)
theorem opsT0_fresh : ∀ op ∈ (MainSplit.opsT0 : List (HloOp τ sig (Elt F))), op.fresh = ∅ := by
  intro op hop
  simp only [MainSplit.opsT0, List.mem_cons, List.not_mem_nil, or_false] at hop
  subst hop; rfl
theorem opsT1_sub : ∀ op ∈ (MainSplit.opsT1 : List (HloOp τ sig (Elt F))), op.bufs ⊆ S1 := by
  intro op hop
  simp only [MainSplit.opsT1, List.mem_cons, List.not_mem_nil, or_false] at hop
  subst hop
  rw [StableHlo.unary_bufs]; exact pair_sub (R := refs1) (by decide) (by decide)
theorem opsT1_fresh : ∀ op ∈ (MainSplit.opsT1 : List (HloOp τ sig (Elt F))), op.fresh = ∅ := by
  intro op hop
  simp only [MainSplit.opsT1, List.mem_cons, List.not_mem_nil, or_false] at hop
  subst hop; rfl
theorem opsFlat_sub : ∀ op ∈ (MainSplit.opsFlat : List (HloOp τ sig (Elt F))), op.bufs ⊆ S2 := by
  intro op hop
  simp only [MainSplit.opsFlat, List.mem_cons, List.not_mem_nil, or_false] at hop
  rcases hop with rfl | rfl
  · rw [StableHlo.reshape_bufs]; exact pair_sub (R := refs2) (by decide) (by decide)
  · rw [StableHlo.reshape_bufs]; exact pair_sub (R := refs2) (by decide) (by decide)
theorem opsFlat_fresh : ∀ op ∈ (MainSplit.opsFlat : List (HloOp τ sig (Elt F))), op.fresh = ∅ := by
  intro op hop
  simp only [MainSplit.opsFlat, List.mem_cons, List.not_mem_nil, or_false] at hop
  rcases hop with rfl | rfl <;> rfl

/-- The user table's transpose as a segment, from the launch contents. -/
def hostT0 : Pipeline.HostSeg (Name := ℕ) (U := UU) (pcfgs (F := F)) (defs₀ (F := F)) 𝒱₀ (K (F := F)).L (K (F := F)).lev :=
  Pipeline.HostSeg.ofOps _ _ _ _ _ S0 MainSplit.opsT0 opsT0_sub opsT0_fresh (W0 m) (fun d => Ride (F := F) d 0)
/-- The item table's transpose as a segment. -/
def hostT1 : Pipeline.HostSeg (Name := ℕ) (U := UU) (pcfgs (F := F)) (defs₀ (F := F)) 𝒱₀ (K (F := F)).L (K (F := F)).lev :=
  Pipeline.HostSeg.ofOps _ _ _ _ _ S1 MainSplit.opsT1 opsT1_sub opsT1_fresh (W1 m) (RA2 m)
/-- The flattening of the two bias columns as a segment. -/
def hostFlat : Pipeline.HostSeg (Name := ℕ) (U := UU) (pcfgs (F := F)) (defs₀ (F := F)) 𝒱₀ (K (F := F)).L (K (F := F)).lev :=
  Pipeline.HostSeg.ofOps _ _ _ _ _ S2 MainSplit.opsFlat opsFlat_sub opsFlat_fresh (W2 m) (RA4 m)

/-! ## The stretch as its five segments -/

def segsA : List (SegT (rdatsA m)) :=
  [.host (hostT0 m), .region (reg0 m), .host (hostT1 m), .region (reg1 m), .host (hostFlat m)]

/-- The stretch's text is the run of the segments. -/
theorem hrunA : MainSplit.before (F := F) = Pipeline.RDat.Seg.run (segsA m) := by
  unfold segsA
  rw [Pipeline.RDat.Seg.run_eq_chain]
  rfl

theorem pipesA_eq : Pipeline.RDat.Seg.pipes (segsA m) = [0, 1] := rfl

/-- The thread states chain: each segment is entered from what the one before it left. -/
theorem hchA (d : Dev nD) : Pipeline.RDat.Seg.ChainsAt d (TA0 m) (segsA m) (TA5 m) :=
  ⟨.rfl, .rfl, .rfl, .rfl, .rfl, .rfl⟩

/-! ## The two ends -/

theorem S0_sub : S0 ⊆ Pipeline.ucRefs τ sig := by
  intro b hb
  obtain ⟨r, hr, rfl⟩ := Finset.mem_map.mp hb
  refine Finset.mem_filter.mpr ⟨StableHlo.devRef_mem_tcRefs r, ?_⟩
  revert r; decide

theorem held_S2 (d : Dev nD) (V : Valuation τ sig (Elt F)) :
    (StableHlo.held (d.tc : Thread nD τ) S2 V : sProp 𝕄)
      = iprop(StableHlo.held (d.tc : Thread nD τ) (callRefs.map devEmb) V ∗ StableHlo.held (d.tc : Thread nD τ) SR V) := by
  unfold StableHlo.held S2 SR
  rw [refs2_eq, Finset.map_union, bigSep_union ((Finset.disjoint_map devEmb).mpr call_aside_disjoint)]
  rfl

theorem held_call (d : Dev nD) (V : Valuation τ sig (Elt F)) :
    (StableHlo.held (d.tc : Thread nD τ) (callRefs.map devEmb) V : sProp 𝕄)
      = iprop((tloc d main_arg0 ↦{fullShare} V (dv main_arg0)) ∗ (tloc d main_arg1 ↦{fullShare} V (dv main_arg1))
          ∗ (tloc d main_v4 ↦{fullShare} V (dv main_v4)) ∗ (tloc d main_v5 ↦{fullShare} V (dv main_v5))
          ∗ (tloc d main_v6_0 ↦{fullShare} V (dv main_v6_0)) ∗ (tloc d main_v6_1 ↦{fullShare} V (dv main_v6_1))
          ∗ (tloc d main_v6_2 ↦{fullShare} V (dv main_v6_2))) := by
  rw [held_map]
  unfold callRefs
  rw [bigSep_insert (by decide), bigSep_insert (by decide), bigSep_insert (by decide), bigSep_insert (by decide),
    bigSep_insert (by decide), bigSep_insert (by decide), bigSep_singleton]
  rfl

/-- The last thread state yields the debt, the call's operands and what is kept aside. -/
theorem hcallA (d : Dev nD) :
    TA5 m d ⊢ (iprop(debt (F := F) d 0 ∗ (bigSep Finset.univ fun c : Fin ((K (F := F)).nCore 0) => (Cert.Kernel.ScSide.P m).st 0 d c)
      ∗ RestA (W3 m) d) : sProp 𝕄) := by
  unfold TA5 RA4 Wide3 Wide1 Ride RestA
  rw [held_S2, held_call, W3_main_arg0, W3_main_arg1]
  iintro ⟨⟨⟨H0, H1, H4, H5, H60, H61, H62⟩, Hr⟩, ⟨%w3, %hw3, Hw3⟩, ⟨%w1, %hw1, Hw1⟩, Hp, HO⟩
  isplitl [HO]
  · iapply (debt_of d 0); iexact HO
  isplitr [Hr Hp]
  · iapply (Cert.Kernel.ScSide.st_intro m d w1 w3 (W3 m d (dv main_v4)) (W3 m d (dv main_v5)) hw1 hw3 (W3_main_v4 m d) (W3_main_v5 m d))
    isplitl [Hw1]; · iexact Hw1
    isplitl [Hw3]; · iexact Hw3
    isplitl [H0]; · iexact H0
    isplitl [H1]; · iexact H1
    isplitl [H4]; · iexact H4
    isplitl [H5]; · iexact H5
    isplitl [H60]; · iexists _; iexact H60
    isplitl [H61]; · iexists _; iexact H61
    iexists _; iexact H62
  · isplitl [Hr]; · iexact Hr
    iexact Hp

/-! ## The record -/

/-- THE STRETCH BEFORE THE CALL. -/
def sideA (ρ : Dev nD → PrngReg) : SideA m ρ (Cert.Kernel.ScSide.P m) (RestA (W3 m)) where
  rdats := rdatsA m
  segs := segsA m
  hrun := hrunA m
  hnd := by rw [pipesA_eq]; decide
  hS := by rw [pipesA_eq]; decide
  T := TA0 m
  T' := TA5 m
  hch := hchA m
  hin d := by
    have hu : (unscopedBufs d (fun b => m ((SparseCore.T d).loc b)) : sProp 𝕄)
        = iprop(StableHlo.held (d.tc : Thread nD τ) S0 (W0 m d) ∗ StableHlo.held (d.tc : Thread nD τ) (Pipeline.ucRefs τ sig \ S0) (W0 m d)) :=
      (Pipeline.unscopedBufs_held (Ix := HIx 1) (Name := ℕ) (U := UU) (Lvl := ℕ) d (W0 m d)).trans
        (StableHlo.held_sub_split (d.tc : Thread nD τ) S0_sub (W0 m d))
    rw [hu]
    unfold TA0 Ride
    iintro ⟨Hd, ⟨Hh, -⟩, -, Hp⟩
    isplitl [Hh]; · iexact Hh
    isplitl [Hp]; · iexists _; iexact Hp
    iapply (debt_to d 0); iexact Hd
  hcall := hcallA m

end Cert.Kernel.StretchA

end
-- ==== Proof.StretchBFold.lean ====
/-
  The contents at the boundaries of the stretch after the SparseCore call, read at the arrays that matter: the result
  array ends at the kernel's own closed form of the launch contents and the returned tables, the six argument arrays
  end as launched. Each step of the fold leaves an array it does not write where it was.
-/
import proofs.«203700_g68710886802180_cont_9to1c4b_800_29_alg».proof.Proof.StretchBDefs

set_option maxRecDepth 16384

noncomputable section

namespace Cert.KernelIdeal.StretchB

open Cert.KernelIdeal Cert.KernelIdeal.Gen Cert.KernelIdeal.Setup Cert.KernelIdeal.Hmain Cert.KernelIdeal.TcSide
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Packed (PackedOK biasRow)

variable {F : FTy → Type} [FloatOps F] [∀ e, Nonempty (Elt F e)]

local notation "𝕄" => MT nD τ sig (HIx 1) (Elt F) ℕ UU ℕ

variable (m : (ℓ : Loc nD τ sig) → Buf (Elt F) ℓ) (WR : Dev nD → Valuation τ sig (Elt F))

theorem dv_ne {a b : Ref sig .tc} (h : a ≠ b) : dv a ≠ dv b := StableHlo.devRef_ne_of_ne h

/-! ## At the call's return -/

theorem W0_main_arg0 (x : Ret F) (d : Dev nD) : W0 m WR x d (dv main_arg0) = m (tloc d main_arg0) := by
  unfold W0; rw [Function.update_of_ne (dv_ne (by decide)), Function.update_of_ne (dv_ne (by decide)), Function.update_of_ne (dv_ne (by decide)), Function.update_of_ne (dv_ne (by decide)), Function.update_self]
theorem W0_main_arg1 (x : Ret F) (d : Dev nD) : W0 m WR x d (dv main_arg1) = m (tloc d main_arg1) := by
  unfold W0; rw [Function.update_of_ne (dv_ne (by decide)), Function.update_of_ne (dv_ne (by decide)), Function.update_of_ne (dv_ne (by decide)), Function.update_self]
theorem W0_main_v6_0 (x : Ret F) (d : Dev nD) : W0 m WR x d (dv main_v6_0) = x.1 := by
  unfold W0; rw [Function.update_of_ne (dv_ne (by decide)), Function.update_of_ne (dv_ne (by decide)), Function.update_self]
theorem W0_main_v6_1 (x : Ret F) (d : Dev nD) : W0 m WR x d (dv main_v6_1) = x.2 := by
  unfold W0; rw [Function.update_of_ne (dv_ne (by decide)), Function.update_self]
theorem W0_main_v6_2 (x : Ret F) (d : Dev nD) : W0 m WR x d (dv main_v6_2) = biasSums m d := by
  unfold W0; rw [Function.update_self]
theorem W0_main_arg2 (x : Ret F) (d : Dev nD) : W0 m WR x d (dv main_arg2) = WR d (dv main_arg2) := by
  unfold W0; rw [Function.update_of_ne (dv_ne (by decide)), Function.update_of_ne (dv_ne (by decide)), Function.update_of_ne (dv_ne (by decide)), Function.update_of_ne (dv_ne (by decide)), Function.update_of_ne (dv_ne (by decide))]
theorem W0_main_arg3 (x : Ret F) (d : Dev nD) : W0 m WR x d (dv main_arg3) = WR d (dv main_arg3) := by
  unfold W0; rw [Function.update_of_ne (dv_ne (by decide)), Function.update_of_ne (dv_ne (by decide)), Function.update_of_ne (dv_ne (by decide)), Function.update_of_ne (dv_ne (by decide)), Function.update_of_ne (dv_ne (by decide))]
theorem W0_main_arg4 (x : Ret F) (d : Dev nD) : W0 m WR x d (dv main_arg4) = WR d (dv main_arg4) := by
  unfold W0; rw [Function.update_of_ne (dv_ne (by decide)), Function.update_of_ne (dv_ne (by decide)), Function.update_of_ne (dv_ne (by decide)), Function.update_of_ne (dv_ne (by decide)), Function.update_of_ne (dv_ne (by decide))]
theorem W0_main_arg5 (x : Ret F) (d : Dev nD) : W0 m WR x d (dv main_arg5) = WR d (dv main_arg5) := by
  unfold W0; rw [Function.update_of_ne (dv_ne (by decide)), Function.update_of_ne (dv_ne (by decide)), Function.update_of_ne (dv_ne (by decide)), Function.update_of_ne (dv_ne (by decide)), Function.update_of_ne (dv_ne (by decide))]

/-! ## After the id reshapes -/

theorem W1_main_arg0 (x : Ret F) (d : Dev nD) : W1 m WR x d (dv main_arg0) = W0 m WR x d (dv main_arg0) := by
  unfold W1 MainSplit.opsIds; after_results
theorem W1_main_arg1 (x : Ret F) (d : Dev nD) : W1 m WR x d (dv main_arg1) = W0 m WR x d (dv main_arg1) := by
  unfold W1 MainSplit.opsIds; after_results
theorem W1_main_arg2 (x : Ret F) (d : Dev nD) : W1 m WR x d (dv main_arg2) = W0 m WR x d (dv main_arg2) := by
  unfold W1 MainSplit.opsIds; after_results
theorem W1_main_arg3 (x : Ret F) (d : Dev nD) : W1 m WR x d (dv main_arg3) = W0 m WR x d (dv main_arg3) := by
  unfold W1 MainSplit.opsIds; after_results
theorem W1_main_arg4 (x : Ret F) (d : Dev nD) : W1 m WR x d (dv main_arg4) = W0 m WR x d (dv main_arg4) := by
  unfold W1 MainSplit.opsIds; after_results
theorem W1_main_arg5 (x : Ret F) (d : Dev nD) : W1 m WR x d (dv main_arg5) = W0 m WR x d (dv main_arg5) := by
  unfold W1 MainSplit.opsIds; after_results
theorem W1_main_v6_0 (x : Ret F) (d : Dev nD) : W1 m WR x d (dv main_v6_0) = W0 m WR x d (dv main_v6_0) := by
  unfold W1 MainSplit.opsIds; after_results
theorem W1_main_v6_1 (x : Ret F) (d : Dev nD) : W1 m WR x d (dv main_v6_1) = W0 m WR x d (dv main_v6_1) := by
  unfold W1 MainSplit.opsIds; after_results
theorem W1_main_v6_2 (x : Ret F) (d : Dev nD) : W1 m WR x d (dv main_v6_2) = W0 m WR x d (dv main_v6_2) := by
  unfold W1 MainSplit.opsIds; after_results
theorem W1_main_v7 (x : Ret F) (d : Dev nD) :
    (W1 m WR x d (dv main_v7) : S4096x1.Idx → BitVec 32) = shapeCast S4096x1 (m (tloc d main_arg0)) shapeCasts_S4096_S4096x1 := by
  unfold W1 MainSplit.opsIds; after_results; rw [W0_main_arg0]; rfl
theorem W1_main_v8 (x : Ret F) (d : Dev nD) :
    (W1 m WR x d (dv main_v8) : S4096x1.Idx → BitVec 32) = shapeCast S4096x1 (m (tloc d main_arg1)) shapeCasts_S4096_S4096x1 := by
  unfold W1 MainSplit.opsIds; after_results; rw [W0_main_arg1]; rfl

/-! ## After the inner-product pipeline -/

theorem W2_main_arg0 (x : Ret F) (d : Dev nD) : W2 m WR x d (dv main_arg0) = W1 m WR x d (dv main_arg0) := by
  unfold W2; exact Pipeline.withArrays_of_ne spec3 d _ _ main_arg0 (by decide)
theorem W2_main_arg1 (x : Ret F) (d : Dev nD) : W2 m WR x d (dv main_arg1) = W1 m WR x d (dv main_arg1) := by
  unfold W2; exact Pipeline.withArrays_of_ne spec3 d _ _ main_arg1 (by decide)
theorem W2_main_arg2 (x : Ret F) (d : Dev nD) : W2 m WR x d (dv main_arg2) = W1 m WR x d (dv main_arg2) := by
  unfold W2; exact Pipeline.withArrays_of_ne spec3 d _ _ main_arg2 (by decide)
theorem W2_main_arg3 (x : Ret F) (d : Dev nD) : W2 m WR x d (dv main_arg3) = W1 m WR x d (dv main_arg3) := by
  unfold W2; exact Pipeline.withArrays_of_ne spec3 d _ _ main_arg3 (by decide)
theorem W2_main_arg4 (x : Ret F) (d : Dev nD) : W2 m WR x d (dv main_arg4) = W1 m WR x d (dv main_arg4) := by
  unfold W2; exact Pipeline.withArrays_of_ne spec3 d _ _ main_arg4 (by decide)
theorem W2_main_arg5 (x : Ret F) (d : Dev nD) : W2 m WR x d (dv main_arg5) = W1 m WR x d (dv main_arg5) := by
  unfold W2; exact Pipeline.withArrays_of_ne spec3 d _ _ main_arg5 (by decide)
theorem W2_main_v6_2 (x : Ret F) (d : Dev nD) : W2 m WR x d (dv main_v6_2) = W1 m WR x d (dv main_v6_2) := by
  unfold W2; exact Pipeline.withArrays_of_ne spec3 d _ _ main_v6_2 (by decide)
theorem W2_main_v9 (x : Ret F) (d : Dev nD) :
    (W2 m WR x d (dv main_v9) : S4096x1.Idx → Elt F .f32)
      = out3_4 x.1 x.2 (shapeCast S4096x1 (m (tloc d main_arg0)) shapeCasts_S4096_S4096x1) (shapeCast S4096x1 (m (tloc d main_arg1)) shapeCasts_S4096_S4096x1) := by
  unfold W2
  refine Eq.trans (Pipeline.withArrays_arr spec3 launch3.win.arr_inj d _ _ 4) ?_
  show (dat3 (Vof (W1 m WR x)) ((K (F := F)).Otc d 1) (Bnd (F := F) d 1) d).arrAt 4 cfg3.N = _
  rw [final3]
  show out3_4 (W1 m WR x d (dv main_v6_0)) (W1 m WR x d (dv main_v6_1)) (W1 m WR x d (dv main_v7)) (W1 m WR x d (dv main_v8)) = _
  rw [W1_main_v6_0, W1_main_v6_1, W0_main_v6_0, W0_main_v6_1, W1_main_v7, W1_main_v8]

/-! ## After the row and column reshapes -/

theorem W3_main_arg0 (x : Ret F) (d : Dev nD) : W3 m WR x d (dv main_arg0) = W2 m WR x d (dv main_arg0) := by
  unfold W3 MainSplit.opsRowCol; after_results
theorem W3_main_arg1 (x : Ret F) (d : Dev nD) : W3 m WR x d (dv main_arg1) = W2 m WR x d (dv main_arg1) := by
  unfold W3 MainSplit.opsRowCol; after_results
theorem W3_main_arg2 (x : Ret F) (d : Dev nD) : W3 m WR x d (dv main_arg2) = W2 m WR x d (dv main_arg2) := by
  unfold W3 MainSplit.opsRowCol; after_results
theorem W3_main_arg3 (x : Ret F) (d : Dev nD) : W3 m WR x d (dv main_arg3) = W2 m WR x d (dv main_arg3) := by
  unfold W3 MainSplit.opsRowCol; after_results
theorem W3_main_arg4 (x : Ret F) (d : Dev nD) : W3 m WR x d (dv main_arg4) = W2 m WR x d (dv main_arg4) := by
  unfold W3 MainSplit.opsRowCol; after_results
theorem W3_main_arg5 (x : Ret F) (d : Dev nD) : W3 m WR x d (dv main_arg5) = W2 m WR x d (dv main_arg5) := by
  unfold W3 MainSplit.opsRowCol; after_results
theorem W3_main_v10 (x : Ret F) (d : Dev nD) :
    (W3 m WR x d (dv main_v10) : S1x4096.Idx → Elt F .f32)
      = shapeCast S1x4096 (out3_4 x.1 x.2 (shapeCast S4096x1 (m (tloc d main_arg0)) shapeCasts_S4096_S4096x1) (shapeCast S4096x1 (m (tloc d main_arg1)) shapeCasts_S4096_S4096x1)) shapeCasts_S4096x1_S1x4096 := by
  unfold W3 MainSplit.opsRowCol; after_results; rw [W2_main_v9]; rfl
theorem W3_main_v11 (x : Ret F) (d : Dev nD) :
    (W3 m WR x d (dv main_v11) : S4096x1.Idx → Elt F .f32) = shapeCast S4096x1 (biasSums m d) shapeCasts_S4096_S4096x1 := by
  unfold W3 MainSplit.opsRowCol; after_results; rw [W2_main_v6_2, W1_main_v6_2, W0_main_v6_2]; rfl

/-! ## After the broadcasting pipeline -/

theorem W4_main_arg0' (x : Ret F) (d : Dev nD) : W4 m WR x d (dv main_arg0) = W3 m WR x d (dv main_arg0) := by
  unfold W4; exact Pipeline.withArrays_of_ne spec4 d _ _ main_arg0 (by decide)
theorem W4_main_arg1' (x : Ret F) (d : Dev nD) : W4 m WR x d (dv main_arg1) = W3 m WR x d (dv main_arg1) := by
  unfold W4; exact Pipeline.withArrays_of_ne spec4 d _ _ main_arg1 (by decide)
theorem W4_main_arg2' (x : Ret F) (d : Dev nD) : W4 m WR x d (dv main_arg2) = W3 m WR x d (dv main_arg2) := by
  unfold W4; exact Pipeline.withArrays_of_ne spec4 d _ _ main_arg2 (by decide)
theorem W4_main_arg3' (x : Ret F) (d : Dev nD) : W4 m WR x d (dv main_arg3) = W3 m WR x d (dv main_arg3) := by
  unfold W4; exact Pipeline.withArrays_of_ne spec4 d _ _ main_arg3 (by decide)
theorem W4_main_arg4' (x : Ret F) (d : Dev nD) : W4 m WR x d (dv main_arg4) = W3 m WR x d (dv main_arg4) := by
  unfold W4; exact Pipeline.withArrays_of_ne spec4 d _ _ main_arg4 (by decide)
theorem W4_main_arg5' (x : Ret F) (d : Dev nD) : W4 m WR x d (dv main_arg5) = W3 m WR x d (dv main_arg5) := by
  unfold W4; exact Pipeline.withArrays_of_ne spec4 d _ _ main_arg5 (by decide)

/-- THE RESULT ARRAY at the end: the kernel's own closed form. -/
theorem W4_main_v12 (x : Ret F) (d : Dev nD) : (W4 m WR x d (dv main_v12) : S4096x4096.Idx → Elt F .f32) = finTerm m d x.1 x.2 := by
  unfold W4
  refine Eq.trans (Pipeline.withArrays_arr spec4 launch4.win.arr_inj d _ _ 2) ?_
  show (dat4 (Vof (W3 m WR x)) ((K (F := F)).Otc d 1) (Bnd (F := F) d 1) d).arrAt 2 cfg4.N = _
  rw [final4]
  show colPlusRow (W3 m WR x d (dv main_v11)) (W3 m WR x d (dv main_v10)) = _
  rw [W3_main_v11, W3_main_v10]
  rfl

/-- The two id arrays end as launched, -/
theorem W4_main_arg0 (x : Ret F) (d : Dev nD) : W4 m WR x d (dv main_arg0) = m (tloc d main_arg0) := by
  rw [W4_main_arg0', W3_main_arg0, W2_main_arg0, W1_main_arg0, W0_main_arg0]
theorem W4_main_arg1 (x : Ret F) (d : Dev nD) : W4 m WR x d (dv main_arg1) = m (tloc d main_arg1) := by
  rw [W4_main_arg1', W3_main_arg1, W2_main_arg1, W1_main_arg1, W0_main_arg1]
/-- and so do the four tables, which the stretch never writes, where the arrays kept aside had them as launched. -/
theorem W4_main_arg2 (x : Ret F) (d : Dev nD) (h : WR d (dv main_arg2) = m (tloc d main_arg2)) : W4 m WR x d (dv main_arg2) = m (tloc d main_arg2) := by
  rw [W4_main_arg2', W3_main_arg2, W2_main_arg2, W1_main_arg2, W0_main_arg2, h]
theorem W4_main_arg3 (x : Ret F) (d : Dev nD) (h : WR d (dv main_arg3) = m (tloc d main_arg3)) : W4 m WR x d (dv main_arg3) = m (tloc d main_arg3) := by
  rw [W4_main_arg3', W3_main_arg3, W2_main_arg3, W1_main_arg3, W0_main_arg3, h]
theorem W4_main_arg4 (x : Ret F) (d : Dev nD) (h : WR d (dv main_arg4) = m (tloc d main_arg4)) : W4 m WR x d (dv main_arg4) = m (tloc d main_arg4) := by
  rw [W4_main_arg4', W3_main_arg4, W2_main_arg4, W1_main_arg4, W0_main_arg4, h]
theorem W4_main_arg5 (x : Ret F) (d : Dev nD) (h : WR d (dv main_arg5) = m (tloc d main_arg5)) : W4 m WR x d (dv main_arg5) = m (tloc d main_arg5) := by
  rw [W4_main_arg5', W3_main_arg5, W2_main_arg5, W1_main_arg5, W0_main_arg5, h]

end Cert.KernelIdeal.StretchB

end
-- ==== Proof.StretchBRegions.lean ====
/-
  The stretch of @main after the SparseCore call as four segments: the id reshapes, the inner-product pipeline, the row
  and column reshapes, the broadcasting pipeline. Between segments the TensorCore holds its seventeen arrays at the
  boundary's contents, and beside them the knowledge of the returned tables, the generator register and the handshake
  debt. A pipeline's arrays are split out of the held set where its region is entered and put back, at what the
  pipeline leaves, where it is left. The pipelines wait on their own staging semaphores at index `none`, level 0, which
  is below every unit of the debt (all at a call's index), so the waits are licensed under it.
-/
import proofs.«203700_g68710886802180_cont_9to1c4b_800_29_alg».proof.Proof.StretchBFold
import Idealize.ShloMosaic.Lib.Pipeline.Regions
import Idealize.ShloMosaic.Lib.SparseCore.Threads

set_option maxRecDepth 16384

noncomputable section

namespace Cert.KernelIdeal.StretchB

open Cert.KernelIdeal Cert.KernelIdeal.Gen Cert.KernelIdeal.Setup Cert.KernelIdeal.Hmain Cert.KernelIdeal.TcSide
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Packed (PackedOK biasRow)

variable {F : FTy → Type} [FloatOps F] [∀ e, Nonempty (Elt F e)]

local notation "𝕄" => MT nD τ sig (HIx 1) (Elt F) ℕ UU ℕ

open Idealize.ShloMosaic.Pipeline (BodyObligation)

variable (m : (ℓ : Loc nD τ sig) → Buf (Elt F) ℓ) (WR : Dev nD → Valuation τ sig (Elt F))

/-! ## A pipeline's arrays in and out of a held set -/

/-- The arrays of a family of windows, as buffers of the device. -/
def arrSet {gr W : Nat} (win : Fin W → Pipeline.WinSpec sig gr) : Finset (DevRef τ sig) :=
  Finset.univ.image fun w => dv (Pipeline.arrRef win w)

/-- A held set that contains a pipeline's (distinct) arrays is those arrays and the rest. -/
theorem held_arrays {gr W : Nat} (win : Fin W → Pipeline.WinSpec sig gr) (hinj : Function.Injective (Pipeline.arrRef win))
    (S : Finset (DevRef τ sig)) (hsub : arrSet win ⊆ S) (c : Dev nD) (V : Valuation τ sig (Elt F)) :
    (StableHlo.held (c.tc : Thread nD τ) S V : sProp 𝕄)
      = iprop((bigSep Finset.univ fun w => ((((c.tc : Thread nD τ).loc (Pipeline.arrRef win w)) ↦{fullShare} V (dv (Pipeline.arrRef win w))) : sProp 𝕄))
          ∗ StableHlo.held (c.tc : Thread nD τ) (S \ arrSet win) V) := by
  rw [StableHlo.held_sub_split (c.tc : Thread nD τ) hsub V]
  congr 1
  unfold StableHlo.held arrSet
  rw [Idealize.SL.BI.bigSep_image_of_injOn (fun a _ b _ e => hinj (Proc.devRef_injective _ e))]

/-- Off the arrays, the contents with the arrays replaced are the contents. -/
theorem withArrays_notMem {gr W : Nat} (win : Fin W → Pipeline.WinSpec sig gr) (c : Dev nD) (V : Valuation τ sig (Elt F))
    (A : (w : Fin W) → Buf (Elt F) ((win w).arr.view.loc (c.tc : Thread nD τ))) (b : DevRef τ sig) (hb : b ∉ arrSet win) :
    Pipeline.withArrays win c V A b = V b := by
  unfold Pipeline.withArrays
  rw [dif_neg]
  rintro ⟨w, e⟩
  exact hb (Finset.mem_image.mpr ⟨w, Finset.mem_univ _, e⟩)

/-! ## The waits under the debt -/

/-- No unit of the handshake debt sits at index `none`. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- So a pipeline may wait on each of its staging semaphores at every point. -/
theorem hwaitsB (x : Ret F) (p : Fin 4) (c : Dev nD) (howed : ∀ t, (pdatsB m WR x p c).owed t = (K (F := F)).Otc c 1) :
    (levAts (K (F := F)).L (K (F := F)).lev : sProp 𝕄)
      ⊢ Pipeline.cellsWaits (Pipeline.pin (pcfgs (F := F)) adm) (pdatsB m WR x) (none : HIx 1) p c :=
  Pipeline.cellsWaits_intro (Pipeline.pin (pcfgs (F := F)) adm) (pdatsB m WR x) (none : HIx 1) p c fun w s t => by
    rw [howed t]
    exact (K (F := F)).mayWait_none _ (Otc_none c 1)

/-! ## The host lines -/

theorem pair_sub {a b : Ref sig .tc} (ha : a ∈ heldRefs) (hb : b ∈ heldRefs) : ({dv a, dv b} : Finset (DevRef τ sig)) ⊆ SH := by
  intro r hr
  rcases Finset.mem_insert.mp hr with rfl | hr
  · exact Finset.mem_map_of_mem _ ha
  · rw [Finset.mem_singleton] at hr; subst hr; exact Finset.mem_map_of_mem _ hb

theorem opsIds_sub : ∀ op ∈ (MainSplit.opsIds : List (HloOp τ sig (Elt F))), op.bufs ⊆ SH := by
  intro op hop
  simp only [MainSplit.opsIds, List.mem_cons, List.not_mem_nil, or_false] at hop
  rcases hop with rfl | rfl
  · rw [StableHlo.reshape_bufs]; exact pair_sub (by decide) (by decide)
  · rw [StableHlo.reshape_bufs]; exact pair_sub (by decide) (by decide)
theorem opsIds_fresh : ∀ op ∈ (MainSplit.opsIds : List (HloOp τ sig (Elt F))), op.fresh = ∅ := by
  intro op hop
  simp only [MainSplit.opsIds, List.mem_cons, List.not_mem_nil, or_false] at hop
  rcases hop with rfl | rfl <;> rfl
theorem opsRowCol_sub : ∀ op ∈ (MainSplit.opsRowCol : List (HloOp τ sig (Elt F))), op.bufs ⊆ SH := by
  intro op hop
  simp only [MainSplit.opsRowCol, List.mem_cons, List.not_mem_nil, or_false] at hop
  rcases hop with rfl | rfl
  · rw [StableHlo.reshape_bufs]; exact pair_sub (by decide) (by decide)
  · rw [StableHlo.reshape_bufs]; exact pair_sub (by decide) (by decide)
theorem opsRowCol_fresh : ∀ op ∈ (MainSplit.opsRowCol : List (HloOp τ sig (Elt F))), op.fresh = ∅ := by
  intro op hop
  simp only [MainSplit.opsRowCol, List.mem_cons, List.not_mem_nil, or_false] at hop
  rcases hop with rfl | rfl <;> rfl

/-- The id reshapes as a segment, from the contents at the call's return. -/
def hostIds (x : Ret F) : Pipeline.HostSeg (Name := ℕ) (U := UU) (pcfgs (F := F)) (defs₀ (F := F)) 𝒱₀ (K (F := F)).L (K (F := F)).lev :=
  Pipeline.HostSeg.ofOps _ _ _ _ _ SH MainSplit.opsIds opsIds_sub opsIds_fresh (W0 m WR x) (Rd m x)
/-- The row and column reshapes as a segment, from the contents the inner-product pipeline leaves. -/
def hostRowCol (x : Ret F) : Pipeline.HostSeg (Name := ℕ) (U := UU) (pcfgs (F := F)) (defs₀ (F := F)) 𝒱₀ (K (F := F)).L (K (F := F)).lev :=
  Pipeline.HostSeg.ofOps _ _ _ _ _ SH MainSplit.opsRowCol opsRowCol_sub opsRowCol_fresh (W2 m WR x) (Rd m x)

/-! ## The pipelines as segments -/

theorem arr3_sub : arrSet spec3 ⊆ SH := by
  intro b hb
  obtain ⟨w, -, rfl⟩ := Finset.mem_image.mp hb
  refine Finset.mem_map_of_mem _ ?_
  revert w; decide

/-- At the region's exit each of its arrays holds what the pipeline leaves. -/
theorem W2_arr (x : Ret F) (c : Dev nD) (w : Fin cfg3.W) :
    W2 m WR x c (dv (Pipeline.arrRef spec3 w)) = (pdatsB m WR x 2 c).arrAt w cfg3.N := by
  unfold W2; exact Pipeline.withArrays_arr spec3 launch3.win.arr_inj c _ _ w

set_option backward.isDefEq.respectTransparency.types false in
/-- The pipeline of custom call 3 as a segment: entered from the held arrays at `W1`, left at `W2`. Its arrays are
    split out of the held set at the entry and put back at the exit contents; the generator register goes into the region
    invariant and comes out; the handshake debt passes through, the pipeline's own waits recorded at level 0. -/
def reg3 (x : Ret F) : Pipeline.RegionSeg (pcfgs (F := F)) adm (pdatsB m WR x) (none : HIx 1) (defs₀ (F := F)) 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 (Vof (W1 m WR x)) ((K (F := F)).Otc c 1) (Bnd (F := F) c 1) c).loose
  hwaits c := hwaitsB m WR x 2 c (fun _ => rfl)
  pre c := TS m x (W1 m WR x) c
  post c := TS m x (W2 m WR x) c
  X c := iprop(∃ r, prngReg c r)
  Y c := iprop(∃ r, prngReg c r)
  Z c := iprop(StableHlo.held (c.tc : Thread nD τ) (SH \ arrSet spec3) (W1 m WR x c) ∗ ⌜RetOK m x c⌝)
  hentry c := by
    rw [Pipeline.ownSems0_none]
    unfold TS Rd Ride
    rw [held_arrays spec3 launch3.win.arr_inj SH arr3_sub c (W1 m WR x c),
      Pipeline.arrays_eq (Pipeline.pin (pcfgs (F := F)) adm) (pdatsB m WR x) 2 c launch3.arr_whole ((pdatsB m WR x 2 c).share_full fun _ => rfl)]
    iintro ⟨⟨⟨Ha, Hrest⟩, %hok, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitl [Hp]; · iexact Hp
    isplitl [Hrest]; · iexact Hrest
    ipureintro; exact hok
  hin c := by
    rw [show (pdatsB m WR x 2 c).Φ 0 = ΦR spec3 c from rfl]; unfold ΦR
    iintro ⟨Hp, -, Hr⟩
    isplitl [Hr]; · iexact Hr
    iexact Hp
  hout c := by
    rw [Pipeline.ownSems0_none, show (pdatsB m WR x 2 c).Φ (Fin.last _) = ΦR spec3 c from rfl]; unfold ΦR
    iintro ⟨Hr, Hp⟩
    isplitl [Hp]; · iexact Hp
    isplitr; · iempintro
    iexact Hr
  hexit c := by
    have ha : (bigSep Finset.univ fun w => ((((c.tc : Thread nD τ).loc (Pipeline.arrRef spec3 w)) ↦{fullShare} W2 m WR x c (dv (Pipeline.arrRef spec3 w))) : sProp 𝕄))
        = bigSep Finset.univ fun w => ((((c.tc : Thread nD τ).loc (Pipeline.arrRef spec3 w)) ↦{fullShare} (pdatsB m WR x 2 c).arrAt w cfg3.N) : sProp 𝕄) :=
      bigSep_congr fun w _ => by rw [W2_arr]
    have hr : (StableHlo.held (c.tc : Thread nD τ) (SH \ arrSet spec3) (W2 m WR x c) : sProp 𝕄)
        = StableHlo.held (c.tc : Thread nD τ) (SH \ arrSet spec3) (W1 m WR x c) :=
      StableHlo.held_congr _ fun b hb => by unfold W2; exact withArrays_notMem spec3 c _ _ b (Finset.mem_sdiff.mp hb).2
    unfold TS Rd Ride
    rw [held_arrays spec3 launch3.win.arr_inj SH arr3_sub c (W2 m WR x c), ha, hr,
      Pipeline.arrays_eq (Pipeline.pin (pcfgs (F := F)) adm) (pdatsB m WR x) 2 c launch3.arr_whole ((pdatsB m WR x 2 c).share_full fun _ => rfl)]
    iintro ⟨Ha, HO, HY, ⟨Hrest, %hok⟩⟩
    imodintro
    isplitl [Ha Hrest]
    · isplitl [Ha]; · iexact Ha
      iexact Hrest
    isplitr; · ipureintro; exact hok
    isplitl [HY]; · iexact HY
    iapply (Pipeline.owesWithin_mono c _ (Set.union_subset (Set.Subset.refl _) (waitPairs_sub cfg3 c 1)))
    iexact HO

theorem arr4_sub : arrSet spec4 ⊆ SH := by
  intro b hb
  obtain ⟨w, -, rfl⟩ := Finset.mem_image.mp hb
  refine Finset.mem_map_of_mem _ ?_
  revert w; decide

/-- At the region's exit each of its arrays holds what the pipeline leaves. -/
theorem W4_arr (x : Ret F) (c : Dev nD) (w : Fin cfg4.W) :
    W4 m WR x c (dv (Pipeline.arrRef spec4 w)) = (pdatsB m WR x 3 c).arrAt w cfg4.N := by
  unfold W4; exact Pipeline.withArrays_arr spec4 launch4.win.arr_inj c _ _ w

set_option backward.isDefEq.respectTransparency.types false in
/-- The pipeline of custom call 4 as a segment: entered from the held arrays at `W3`, left at `W4`. Its arrays are
    split out of the held set at the entry and put back at the exit contents; the generator register goes into the region
    invariant and comes out; the handshake debt passes through, the pipeline's own waits recorded at level 0. -/
def reg4 (x : Ret F) : Pipeline.RegionSeg (pcfgs (F := F)) adm (pdatsB m WR x) (none : HIx 1) (defs₀ (F := F)) 𝒱₀ (K (F := F)).L (K (F := F)).lev 3 where
  win := launch4.win.to₀
  block_pos := launch4.block_pos
  stage_whole := launch4.stage_whole
  K := PEmpty
  osem k := k.elim
  ho := Pipeline.OwnSemFacts.none _
  hbody c := (body_obligation4 (Vof (W3 m WR x)) ((K (F := F)).Otc c 1) (Bnd (F := F) c 1) c).loose
  hwaits c := hwaitsB m WR x 3 c (fun _ => rfl)
  pre c := TS m x (W3 m WR x) c
  post c := TS m x (W4 m WR x) c
  X c := iprop(∃ r, prngReg c r)
  Y c := iprop(∃ r, prngReg c r)
  Z c := iprop(StableHlo.held (c.tc : Thread nD τ) (SH \ arrSet spec4) (W3 m WR x c) ∗ ⌜RetOK m x c⌝)
  hentry c := by
    rw [Pipeline.ownSems0_none]
    unfold TS Rd Ride
    rw [held_arrays spec4 launch4.win.arr_inj SH arr4_sub c (W3 m WR x c),
      Pipeline.arrays_eq (Pipeline.pin (pcfgs (F := F)) adm) (pdatsB m WR x) 3 c launch4.arr_whole ((pdatsB m WR x 3 c).share_full fun _ => rfl)]
    iintro ⟨⟨⟨Ha, Hrest⟩, %hok, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitl [Hp]; · iexact Hp
    isplitl [Hrest]; · iexact Hrest
    ipureintro; exact hok
  hin c := by
    rw [show (pdatsB m WR x 3 c).Φ 0 = ΦR spec4 c from rfl]; unfold ΦR
    iintro ⟨Hp, -, Hr⟩
    isplitl [Hr]; · iexact Hr
    iexact Hp
  hout c := by
    rw [Pipeline.ownSems0_none, show (pdatsB m WR x 3 c).Φ (Fin.last _) = ΦR spec4 c from rfl]; unfold ΦR
    iintro ⟨Hr, Hp⟩
    isplitl [Hp]; · iexact Hp
    isplitr; · iempintro
    iexact Hr
  hexit c := by
    have ha : (bigSep Finset.univ fun w => ((((c.tc : Thread nD τ).loc (Pipeline.arrRef spec4 w)) ↦{fullShare} W4 m WR x c (dv (Pipeline.arrRef spec4 w))) : sProp 𝕄))
        = bigSep Finset.univ fun w => ((((c.tc : Thread nD τ).loc (Pipeline.arrRef spec4 w)) ↦{fullShare} (pdatsB m WR x 3 c).arrAt w cfg4.N) : sProp 𝕄) :=
      bigSep_congr fun w _ => by rw [W4_arr]
    have hr : (StableHlo.held (c.tc : Thread nD τ) (SH \ arrSet spec4) (W4 m WR x c) : sProp 𝕄)
        = StableHlo.held (c.tc : Thread nD τ) (SH \ arrSet spec4) (W3 m WR x c) :=
      StableHlo.held_congr _ fun b hb => by unfold W4; exact withArrays_notMem spec4 c _ _ b (Finset.mem_sdiff.mp hb).2
    unfold TS Rd Ride
    rw [held_arrays spec4 launch4.win.arr_inj SH arr4_sub c (W4 m WR x c), ha, hr,
      Pipeline.arrays_eq (Pipeline.pin (pcfgs (F := F)) adm) (pdatsB m WR x) 3 c launch4.arr_whole ((pdatsB m WR x 3 c).share_full fun _ => rfl)]
    iintro ⟨Ha, HO, HY, ⟨Hrest, %hok⟩⟩
    imodintro
    isplitl [Ha Hrest]
    · isplitl [Ha]; · iexact Ha
      iexact Hrest
    isplitr; · ipureintro; exact hok
    isplitl [HY]; · iexact HY
    iapply (Pipeline.owesWithin_mono c _ (Set.union_subset (Set.Subset.refl _) (waitPairs_sub cfg4 c 1)))
    iexact HO

/-! ## The stretch as its four segments -/

/-- The segments over the exact proof data. -/
def segsE (x : Ret F) : List (Pipeline.Seg (pcfgs (F := F)) adm (pdatsB m WR x) (none : HIx 1) (defs₀ (F := F)) 𝒱₀ (K (F := F)).L (K (F := F)).lev) :=
  [.host (hostIds m WR x), .region (reg3 m WR x), .host (hostRowCol m WR x), .region (reg4 m WR x)]

/-- The same over the relational reading of that data: what the reduction of @main takes. -/
def segsB (x : Ret F) : List (SegT (Pipeline.Dat.toRs (pdatsB m WR x))) :=
  (segsE m WR x).map (Pipeline.Seg.toR (pcfgs (F := F)) adm (pdatsB m WR x) (none : HIx 1) (defs₀ (F := F)) 𝒱₀ (K (F := F)).L (K (F := F)).lev)

/-- The stretch's text is the run of the segments. -/
theorem hrunB (x : Ret F) : MainSplit.after (F := F) = Pipeline.RDat.Seg.run (segsB m WR x) := by
  unfold segsB
  rw [Pipeline.Seg.run_toR, Pipeline.Seg.run_eq_chain]
  rfl

theorem pipesB_eq (x : Ret F) : Pipeline.RDat.Seg.pipes (segsB m WR x) = [2, 3] := by
  unfold segsB
  rw [Pipeline.Seg.pipes_toR]
  rfl

/-- The thread states chain: each segment is entered from what the one before it left. -/
theorem hchB (x : Ret F) (d : Dev nD) :
    Pipeline.RDat.Seg.ChainsAt d (TS m x (W0 m WR x)) (segsB m WR x) (TS m x (W4 m WR x)) :=
  Pipeline.Seg.ChainsAt.toR (pcfgs (F := F)) adm (pdatsB m WR x) (none : HIx 1) (defs₀ (F := F)) 𝒱₀ (K (F := F)).L (K (F := F)).lev
    (show Pipeline.Seg.ChainsAt d (TS m x (W0 m WR x)) (segsE m WR x) (TS m x (W4 m WR x)) from
      ⟨.rfl, .rfl, .rfl, .rfl, .rfl⟩)

end Cert.KernelIdeal.StretchB

end
-- ==== Proof.StretchB.lean ====
/-
  The stretch of @main after the SparseCore call, delivered whole: its proof data and segments, that its text is their
  run, the chaining of its thread states, how the call's return makes the first of them — the arrays the call hands back
  joined to those kept aside — and how the last yields the handshake debt and what is read at the end: the six argument
  arrays as launched and the result array at the kernel's closed form.
-/
import proofs.«203700_g68710886802180_cont_9to1c4b_800_29_alg».proof.Proof.StretchBRegions
import proofs.«203700_g68710886802180_cont_9to1c4b_800_29_alg».proof.Proof.ScSideDefs
import proofs.«203700_g68710886802180_cont_9to1c4b_800_29_alg».proof.Proof.SidesIdeal

set_option maxRecDepth 16384

noncomputable section

namespace Cert.KernelIdeal.StretchB

open Cert.KernelIdeal Cert.KernelIdeal.Gen Cert.KernelIdeal.Setup Cert.KernelIdeal.Hmain Cert.KernelIdeal.TcSide
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Packed (PackedOK biasRow)

variable {F : FTy → Type} [FloatOps F] [∀ e, Nonempty (Elt F e)]

local notation "𝕄" => MT nD τ sig (HIx 1) (Elt F) ℕ UU ℕ

variable (m : (ℓ : Loc nD τ sig) → Buf (Elt F) ℓ) (WR : Dev nD → Valuation τ sig (Elt F))

/-! ## The held set, unpacked -/

/-- The arrays read at the end. -/
def finRefs : Finset (Ref sig .tc) := {main_arg0, main_arg1, main_arg2, main_arg3, main_arg4, main_arg5, main_v12}
theorem finRefs_sub : finRefs.map devEmb ⊆ SH := Finset.map_subset_map.mpr (by decide)

/-- The arrays the call hands back, one by one. -/
theorem held_back (d : Dev nD) (V : Valuation τ sig (Elt F)) :
    (StableHlo.held (d.tc : Thread nD τ) SBk V : sProp 𝕄)
      = iprop((((d.tc : Thread nD τ).1, dv main_arg0) ↦{fullShare} V (dv main_arg0)) ∗ (((d.tc : Thread nD τ).1, dv main_arg1) ↦{fullShare} V (dv main_arg1)) ∗ (((d.tc : Thread nD τ).1, dv main_v6_0) ↦{fullShare} V (dv main_v6_0)) ∗ (((d.tc : Thread nD τ).1, dv main_v6_1) ↦{fullShare} V (dv main_v6_1)) ∗ (((d.tc : Thread nD τ).1, dv main_v6_2) ↦{fullShare} V (dv main_v6_2))) := by
  unfold StableHlo.held SBk
  rw [bigSep_map]
  unfold backRefs
  rw [bigSep_insert (by decide), bigSep_insert (by decide), bigSep_insert (by decide), bigSep_insert (by decide), bigSep_singleton]
  rfl

/-- The arrays read at the end, one by one. -/
theorem held_fin (d : Dev nD) (V : Valuation τ sig (Elt F)) :
    (StableHlo.held (d.tc : Thread nD τ) (finRefs.map devEmb) V : sProp 𝕄)
      = iprop((((d.tc : Thread nD τ).1, dv main_arg0) ↦{fullShare} V (dv main_arg0)) ∗ (((d.tc : Thread nD τ).1, dv main_arg1) ↦{fullShare} V (dv main_arg1)) ∗ (((d.tc : Thread nD τ).1, dv main_arg2) ↦{fullShare} V (dv main_arg2)) ∗ (((d.tc : Thread nD τ).1, dv main_arg3) ↦{fullShare} V (dv main_arg3)) ∗ (((d.tc : Thread nD τ).1, dv main_arg4) ↦{fullShare} V (dv main_arg4)) ∗ (((d.tc : Thread nD τ).1, dv main_arg5) ↦{fullShare} V (dv main_arg5)) ∗ (((d.tc : Thread nD τ).1, dv main_v12) ↦{fullShare} V (dv main_v12))) := by
  unfold StableHlo.held
  rw [bigSep_map]
  unfold finRefs
  rw [bigSep_insert (by decide), bigSep_insert (by decide), bigSep_insert (by decide), bigSep_insert (by decide), bigSep_insert (by decide), bigSep_insert (by decide), bigSep_singleton]
  rfl

/-- The seventeen held arrays are the five handed back and the twelve kept aside. -/
theorem held_SH (d : Dev nD) (V : Valuation τ sig (Elt F)) :
    (StableHlo.held (d.tc : Thread nD τ) SH V : sProp 𝕄)
      = iprop(StableHlo.held (d.tc : Thread nD τ) SBk V ∗ StableHlo.held (d.tc : Thread nD τ) SR V) := by
  unfold StableHlo.held SH SBk SR heldRefs
  rw [Finset.map_union, bigSep_union ((Finset.disjoint_map devEmb).mpr back_aside_disjoint)]
  rfl

/-- At the call's return the arrays kept aside hold what they held. -/
theorem held_SR_W0 (x : Ret F) (d : Dev nD) :
    (StableHlo.held (d.tc : Thread nD τ) SR (W0 m WR x d) : sProp 𝕄) = StableHlo.held (d.tc : Thread nD τ) SR (WR d) :=
  StableHlo.held_congr _ fun b hb => by
    obtain ⟨r, hr, rfl⟩ := Finset.mem_map.mp hb
    have hne : ∀ s ∈ backRefs, devEmb r ≠ dv s := fun s hs e =>
      Finset.disjoint_left.mp back_aside_disjoint hs ((devEmb.injective e) ▸ hr)
    unfold W0
    rw [Function.update_of_ne (hne _ (by decide)), Function.update_of_ne (hne _ (by decide)), Function.update_of_ne (hne _ (by decide)),
      Function.update_of_ne (hne _ (by decide)), Function.update_of_ne (hne _ (by decide))]

/-! ## The call's return, and the end -/

/-- What the call hands back, as the launch's hand-over is read for this stretch. -/
def HandBack (d : Dev nD) : sProp 𝕄 :=
  iprop((tloc d main_arg0 ↦{fullShare} m (tloc d main_arg0)) ∗ (tloc d main_arg1 ↦{fullShare} m (tloc d main_arg1))
    ∗ (∃ g0 : FVec F Cert.Packed.SRows .f32, ⌜PackedOK (m (tloc d main_arg0)) (m (tloc d main_arg2)) g0⌝ ∗ tloc d main_v6_0 ↦{fullShare} g0)
    ∗ (∃ g1 : FVec F Cert.Packed.SRows .f32, ⌜PackedOK (m (tloc d main_arg1)) (m (tloc d main_arg3)) g1⌝ ∗ tloc d main_v6_1 ↦{fullShare} g1)
    ∗ (tloc d main_v6_2 ↦{fullShare} biasSums m d))

/-- The debt after the call, what the call hands back and what was kept aside make the first thread state. -/
theorem hbackB (d : Dev nD) :
    iprop(debt (F := F) d 1 ∗ HandBack m d ∗ RestA WR d) ⊢ (iprop(∃ x : Ret F, TS m x (W0 m WR x) d) : sProp 𝕄) := by
  unfold HandBack RestA
  iintro ⟨Hd, ⟨H0, H1, ⟨%g0, %hg0, Hg0⟩, ⟨%g1, %hg1, Hg1⟩, Hb⟩, ⟨Hr, Hp⟩⟩
  iexists ((g0, g1) : Ret F)
  unfold TS Rd Ride
  rw [held_SH, held_SR_W0, held_back, W0_main_arg0, W0_main_arg1, W0_main_v6_0, W0_main_v6_1, W0_main_v6_2]
  isplitl [H0 H1 Hg0 Hg1 Hb Hr]
  · isplitl [H0 H1 Hg0 Hg1 Hb]
    · isplitl [H0]; · iexact H0
      isplitl [H1]; · iexact H1
      isplitl [Hg0]; · iexact Hg0
      isplitl [Hg1]; · iexact Hg1
      iexact Hb
    iexact Hr
  isplitr; · ipureintro; exact ⟨hg0, hg1⟩
  isplitl [Hp]; · iexact Hp
  iapply (debt_to d 1)
  iexact Hd

/-- The last thread state yields the debt and what is read at the end. -/
theorem hendB (hWR2 : ∀ d, WR d (dv main_arg2) = m (tloc d main_arg2)) (hWR3 : ∀ d, WR d (dv main_arg3) = m (tloc d main_arg3))
    (hWR4 : ∀ d, WR d (dv main_arg4) = m (tloc d main_arg4)) (hWR5 : ∀ d, WR d (dv main_arg5) = m (tloc d main_arg5))
    (x : Ret F) (d : Dev nD) :
    TS m x (W4 m WR x) d ⊢ (iprop(debt (F := F) d 1 ∗ FIN m (FinOK m) d) : sProp 𝕄) := by
  unfold TS Rd Ride FIN
  rw [StableHlo.held_sub_split (d.tc : Thread nD τ) finRefs_sub (W4 m WR x d), held_fin,
    W4_main_arg0, W4_main_arg1, W4_main_arg2 m WR x d (hWR2 d), W4_main_arg3 m WR x d (hWR3 d), W4_main_arg4 m WR x d (hWR4 d),
    W4_main_arg5 m WR x d (hWR5 d)]
  iintro ⟨⟨⟨H0, H1, H2, H3, H4, H5, H12⟩, -⟩, %hok, -, HO⟩
  isplitl [HO]
  · iapply (debt_of d 1); iexact HO
  isplitl [H0]; · iexact H0
  isplitl [H1]; · iexact H1
  isplitl [H2]; · iexact H2
  isplitl [H3]; · iexact H3
  isplitl [H4]; · iexact H4
  isplitl [H5]; · iexact H5
  iexists (W4 m WR x d (dv main_v12))
  isplitr
  · ipureintro; exact ⟨x.1, x.2, hok.1, hok.2, W4_main_v12 m WR x d⟩
  iexact H12

/-! ## The record -/

/-- THE STRETCH AFTER THE CALL. `hdn`: the call's results, as the launch hands them over, are what this stretch is
    entered from (the hand-over's own reading, proved beside the SparseCore kernel); `hWR`: the four tables were kept
    aside as launched. -/
def sideB (hWR2 : ∀ d, WR d (dv main_arg2) = m (tloc d main_arg2)) (hWR3 : ∀ d, WR d (dv main_arg3) = m (tloc d main_arg3))
    (hWR4 : ∀ d, WR d (dv main_arg4) = m (tloc d main_arg4)) (hWR5 : ∀ d, WR d (dv main_arg5) = m (tloc d main_arg5))
    (hdn : ∀ d, (bigSep Finset.univ fun c : Fin ((K (F := F)).nCore 0) => (Cert.KernelIdeal.ScSide.P m).dn 0 d c : sProp 𝕄) ⊢ HandBack m d) :
    SideB (Cert.KernelIdeal.ScSide.P m) (RestA WR) (FIN m (FinOK m)) where
  X := Ret F
  rdats x := Pipeline.Dat.toRs (pdatsB m WR x)
  segs x := segsB m WR x
  hrun x := hrunB m WR x
  hnd x := by rw [pipesB_eq]; decide
  hS x := by rw [pipesB_eq]; decide
  T x := TS m x (W0 m WR x)
  T' x := TS m x (W4 m WR x)
  hch x d := hchB m WR x d
  hback d := by
    iintro ⟨Hd, Hdn, Hrest⟩
    ihave H := (hdn d) $$ Hdn
    iapply (hbackB m WR d)
    isplitl [Hd]; · iexact Hd
    isplitl [H]; · iexact H
    iexact Hrest
  hend x d := hendB m WR hWR2 hWR3 hWR4 hWR5 x d

end Cert.KernelIdeal.StretchB

end
-- ==== Proof.StretchBFoldW.lean ====
/-
  The contents at the boundaries of the stretch after the SparseCore call, read at the arrays that matter: the result
  array ends at the kernel's own closed form of the launch contents and the returned tables, the six argument arrays
  end as launched. Each step of the fold leaves an array it does not write where it was.
-/
import proofs.«203700_g68710886802180_cont_9to1c4b_800_29_alg».proof.Proof.StretchBDefsW

set_option maxRecDepth 16384

noncomputable section

namespace Cert.Kernel.StretchB

open Cert.Kernel Cert.Kernel.Gen Cert.Kernel.Setup Cert.Kernel.Hmain Cert.Kernel.TcSide
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Packed (PackedOK biasRow)

variable {F : FTy → Type} [FloatOps F] [∀ e, Nonempty (Elt F e)]

local notation "𝕄" => MT nD τ sig (HIx 1) (Elt F) ℕ UU ℕ

variable (m : (ℓ : Loc nD τ sig) → Buf (Elt F) ℓ) (WR : Dev nD → Valuation τ sig (Elt F))

theorem dv_ne {a b : Ref sig .tc} (h : a ≠ b) : dv a ≠ dv b := StableHlo.devRef_ne_of_ne h

/-! ## At the call's return -/

theorem W0_main_arg0 (x : Ret F) (d : Dev nD) : W0 m WR x d (dv main_arg0) = m (tloc d main_arg0) := by
  unfold W0; rw [Function.update_of_ne (dv_ne (by decide)), Function.update_of_ne (dv_ne (by decide)), Function.update_of_ne (dv_ne (by decide)), Function.update_of_ne (dv_ne (by decide)), Function.update_self]
theorem W0_main_arg1 (x : Ret F) (d : Dev nD) : W0 m WR x d (dv main_arg1) = m (tloc d main_arg1) := by
  unfold W0; rw [Function.update_of_ne (dv_ne (by decide)), Function.update_of_ne (dv_ne (by decide)), Function.update_of_ne (dv_ne (by decide)), Function.update_self]
theorem W0_main_v6_0 (x : Ret F) (d : Dev nD) : W0 m WR x d (dv main_v6_0) = x.1 := by
  unfold W0; rw [Function.update_of_ne (dv_ne (by decide)), Function.update_of_ne (dv_ne (by decide)), Function.update_self]
theorem W0_main_v6_1 (x : Ret F) (d : Dev nD) : W0 m WR x d (dv main_v6_1) = x.2 := by
  unfold W0; rw [Function.update_of_ne (dv_ne (by decide)), Function.update_self]
theorem W0_main_v6_2 (x : Ret F) (d : Dev nD) : W0 m WR x d (dv main_v6_2) = biasSums m d := by
  unfold W0; rw [Function.update_self]
theorem W0_main_arg2 (x : Ret F) (d : Dev nD) : W0 m WR x d (dv main_arg2) = WR d (dv main_arg2) := by
  unfold W0; rw [Function.update_of_ne (dv_ne (by decide)), Function.update_of_ne (dv_ne (by decide)), Function.update_of_ne (dv_ne (by decide)), Function.update_of_ne (dv_ne (by decide)), Function.update_of_ne (dv_ne (by decide))]
theorem W0_main_arg3 (x : Ret F) (d : Dev nD) : W0 m WR x d (dv main_arg3) = WR d (dv main_arg3) := by
  unfold W0; rw [Function.update_of_ne (dv_ne (by decide)), Function.update_of_ne (dv_ne (by decide)), Function.update_of_ne (dv_ne (by decide)), Function.update_of_ne (dv_ne (by decide)), Function.update_of_ne (dv_ne (by decide))]
theorem W0_main_arg4 (x : Ret F) (d : Dev nD) : W0 m WR x d (dv main_arg4) = WR d (dv main_arg4) := by
  unfold W0; rw [Function.update_of_ne (dv_ne (by decide)), Function.update_of_ne (dv_ne (by decide)), Function.update_of_ne (dv_ne (by decide)), Function.update_of_ne (dv_ne (by decide)), Function.update_of_ne (dv_ne (by decide))]
theorem W0_main_arg5 (x : Ret F) (d : Dev nD) : W0 m WR x d (dv main_arg5) = WR d (dv main_arg5) := by
  unfold W0; rw [Function.update_of_ne (dv_ne (by decide)), Function.update_of_ne (dv_ne (by decide)), Function.update_of_ne (dv_ne (by decide)), Function.update_of_ne (dv_ne (by decide)), Function.update_of_ne (dv_ne (by decide))]

/-! ## After the id reshapes -/

theorem W1_main_arg0 (x : Ret F) (d : Dev nD) : W1 m WR x d (dv main_arg0) = W0 m WR x d (dv main_arg0) := by
  unfold W1 MainSplit.opsIds; after_results
theorem W1_main_arg1 (x : Ret F) (d : Dev nD) : W1 m WR x d (dv main_arg1) = W0 m WR x d (dv main_arg1) := by
  unfold W1 MainSplit.opsIds; after_results
theorem W1_main_arg2 (x : Ret F) (d : Dev nD) : W1 m WR x d (dv main_arg2) = W0 m WR x d (dv main_arg2) := by
  unfold W1 MainSplit.opsIds; after_results
theorem W1_main_arg3 (x : Ret F) (d : Dev nD) : W1 m WR x d (dv main_arg3) = W0 m WR x d (dv main_arg3) := by
  unfold W1 MainSplit.opsIds; after_results
theorem W1_main_arg4 (x : Ret F) (d : Dev nD) : W1 m WR x d (dv main_arg4) = W0 m WR x d (dv main_arg4) := by
  unfold W1 MainSplit.opsIds; after_results
theorem W1_main_arg5 (x : Ret F) (d : Dev nD) : W1 m WR x d (dv main_arg5) = W0 m WR x d (dv main_arg5) := by
  unfold W1 MainSplit.opsIds; after_results
theorem W1_main_v6_0 (x : Ret F) (d : Dev nD) : W1 m WR x d (dv main_v6_0) = W0 m WR x d (dv main_v6_0) := by
  unfold W1 MainSplit.opsIds; after_results
theorem W1_main_v6_1 (x : Ret F) (d : Dev nD) : W1 m WR x d (dv main_v6_1) = W0 m WR x d (dv main_v6_1) := by
  unfold W1 MainSplit.opsIds; after_results
theorem W1_main_v6_2 (x : Ret F) (d : Dev nD) : W1 m WR x d (dv main_v6_2) = W0 m WR x d (dv main_v6_2) := by
  unfold W1 MainSplit.opsIds; after_results
theorem W1_main_v7 (x : Ret F) (d : Dev nD) :
    (W1 m WR x d (dv main_v7) : S4096x1.Idx → BitVec 32) = shapeCast S4096x1 (m (tloc d main_arg0)) shapeCasts_S4096_S4096x1 := by
  unfold W1 MainSplit.opsIds; after_results; rw [W0_main_arg0]; rfl
theorem W1_main_v8 (x : Ret F) (d : Dev nD) :
    (W1 m WR x d (dv main_v8) : S4096x1.Idx → BitVec 32) = shapeCast S4096x1 (m (tloc d main_arg1)) shapeCasts_S4096_S4096x1 := by
  unfold W1 MainSplit.opsIds; after_results; rw [W0_main_arg1]; rfl

/-! ## After the inner-product pipeline -/

theorem W2_main_arg0 (x : Ret F) (d : Dev nD) : W2 m WR x d (dv main_arg0) = W1 m WR x d (dv main_arg0) := by
  unfold W2; exact Pipeline.withArrays_of_ne spec3 d _ _ main_arg0 (by decide)
theorem W2_main_arg1 (x : Ret F) (d : Dev nD) : W2 m WR x d (dv main_arg1) = W1 m WR x d (dv main_arg1) := by
  unfold W2; exact Pipeline.withArrays_of_ne spec3 d _ _ main_arg1 (by decide)
theorem W2_main_arg2 (x : Ret F) (d : Dev nD) : W2 m WR x d (dv main_arg2) = W1 m WR x d (dv main_arg2) := by
  unfold W2; exact Pipeline.withArrays_of_ne spec3 d _ _ main_arg2 (by decide)
theorem W2_main_arg3 (x : Ret F) (d : Dev nD) : W2 m WR x d (dv main_arg3) = W1 m WR x d (dv main_arg3) := by
  unfold W2; exact Pipeline.withArrays_of_ne spec3 d _ _ main_arg3 (by decide)
theorem W2_main_arg4 (x : Ret F) (d : Dev nD) : W2 m WR x d (dv main_arg4) = W1 m WR x d (dv main_arg4) := by
  unfold W2; exact Pipeline.withArrays_of_ne spec3 d _ _ main_arg4 (by decide)
theorem W2_main_arg5 (x : Ret F) (d : Dev nD) : W2 m WR x d (dv main_arg5) = W1 m WR x d (dv main_arg5) := by
  unfold W2; exact Pipeline.withArrays_of_ne spec3 d _ _ main_arg5 (by decide)
theorem W2_main_v6_2 (x : Ret F) (d : Dev nD) : W2 m WR x d (dv main_v6_2) = W1 m WR x d (dv main_v6_2) := by
  unfold W2; exact Pipeline.withArrays_of_ne spec3 d _ _ main_v6_2 (by decide)
theorem W2_main_v9 (x : Ret F) (d : Dev nD) :
    (W2 m WR x d (dv main_v9) : S4096x1.Idx → Elt F .f32)
      = out3_4 x.1 x.2 (shapeCast S4096x1 (m (tloc d main_arg0)) shapeCasts_S4096_S4096x1) (shapeCast S4096x1 (m (tloc d main_arg1)) shapeCasts_S4096_S4096x1) := by
  unfold W2
  refine Eq.trans (Pipeline.withArrays_arr spec3 launch3.win.arr_inj d _ _ 4) ?_
  show (dat3 (Vof (W1 m WR x)) ((K (F := F)).Otc d 1) (Bnd (F := F) d 1) d).arrAt 4 cfg3.N = _
  rw [final3]
  show out3_4 (W1 m WR x d (dv main_v6_0)) (W1 m WR x d (dv main_v6_1)) (W1 m WR x d (dv main_v7)) (W1 m WR x d (dv main_v8)) = _
  rw [W1_main_v6_0, W1_main_v6_1, W0_main_v6_0, W0_main_v6_1, W1_main_v7, W1_main_v8]

/-! ## After the row and column reshapes -/

theorem W3_main_arg0 (x : Ret F) (d : Dev nD) : W3 m WR x d (dv main_arg0) = W2 m WR x d (dv main_arg0) := by
  unfold W3 MainSplit.opsRowCol; after_results
theorem W3_main_arg1 (x : Ret F) (d : Dev nD) : W3 m WR x d (dv main_arg1) = W2 m WR x d (dv main_arg1) := by
  unfold W3 MainSplit.opsRowCol; after_results
theorem W3_main_arg2 (x : Ret F) (d : Dev nD) : W3 m WR x d (dv main_arg2) = W2 m WR x d (dv main_arg2) := by
  unfold W3 MainSplit.opsRowCol; after_results
theorem W3_main_arg3 (x : Ret F) (d : Dev nD) : W3 m WR x d (dv main_arg3) = W2 m WR x d (dv main_arg3) := by
  unfold W3 MainSplit.opsRowCol; after_results
theorem W3_main_arg4 (x : Ret F) (d : Dev nD) : W3 m WR x d (dv main_arg4) = W2 m WR x d (dv main_arg4) := by
  unfold W3 MainSplit.opsRowCol; after_results
theorem W3_main_arg5 (x : Ret F) (d : Dev nD) : W3 m WR x d (dv main_arg5) = W2 m WR x d (dv main_arg5) := by
  unfold W3 MainSplit.opsRowCol; after_results
theorem W3_main_v10 (x : Ret F) (d : Dev nD) :
    (W3 m WR x d (dv main_v10) : S1x4096.Idx → Elt F .f32)
      = shapeCast S1x4096 (out3_4 x.1 x.2 (shapeCast S4096x1 (m (tloc d main_arg0)) shapeCasts_S4096_S4096x1) (shapeCast S4096x1 (m (tloc d main_arg1)) shapeCasts_S4096_S4096x1)) shapeCasts_S4096x1_S1x4096 := by
  unfold W3 MainSplit.opsRowCol; after_results; rw [W2_main_v9]; rfl
theorem W3_main_v11 (x : Ret F) (d : Dev nD) :
    (W3 m WR x d (dv main_v11) : S4096x1.Idx → Elt F .f32) = shapeCast S4096x1 (biasSums m d) shapeCasts_S4096_S4096x1 := by
  unfold W3 MainSplit.opsRowCol; after_results; rw [W2_main_v6_2, W1_main_v6_2, W0_main_v6_2]; rfl

/-! ## After the broadcasting pipeline -/

theorem W4_main_arg0' (x : Ret F) (d : Dev nD) : W4 m WR x d (dv main_arg0) = W3 m WR x d (dv main_arg0) := by
  unfold W4; exact Pipeline.withArrays_of_ne spec4 d _ _ main_arg0 (by decide)
theorem W4_main_arg1' (x : Ret F) (d : Dev nD) : W4 m WR x d (dv main_arg1) = W3 m WR x d (dv main_arg1) := by
  unfold W4; exact Pipeline.withArrays_of_ne spec4 d _ _ main_arg1 (by decide)
theorem W4_main_arg2' (x : Ret F) (d : Dev nD) : W4 m WR x d (dv main_arg2) = W3 m WR x d (dv main_arg2) := by
  unfold W4; exact Pipeline.withArrays_of_ne spec4 d _ _ main_arg2 (by decide)
theorem W4_main_arg3' (x : Ret F) (d : Dev nD) : W4 m WR x d (dv main_arg3) = W3 m WR x d (dv main_arg3) := by
  unfold W4; exact Pipeline.withArrays_of_ne spec4 d _ _ main_arg3 (by decide)
theorem W4_main_arg4' (x : Ret F) (d : Dev nD) : W4 m WR x d (dv main_arg4) = W3 m WR x d (dv main_arg4) := by
  unfold W4; exact Pipeline.withArrays_of_ne spec4 d _ _ main_arg4 (by decide)
theorem W4_main_arg5' (x : Ret F) (d : Dev nD) : W4 m WR x d (dv main_arg5) = W3 m WR x d (dv main_arg5) := by
  unfold W4; exact Pipeline.withArrays_of_ne spec4 d _ _ main_arg5 (by decide)

/-- THE RESULT ARRAY at the end: the kernel's own closed form. -/
theorem W4_main_v12 (x : Ret F) (d : Dev nD) : (W4 m WR x d (dv main_v12) : S4096x4096.Idx → Elt F .f32) = finTerm m d x.1 x.2 := by
  unfold W4
  refine Eq.trans (Pipeline.withArrays_arr spec4 launch4.win.arr_inj d _ _ 2) ?_
  show (dat4 (Vof (W3 m WR x)) ((K (F := F)).Otc d 1) (Bnd (F := F) d 1) d).arrAt 2 cfg4.N = _
  rw [final4]
  show colPlusRow (W3 m WR x d (dv main_v11)) (W3 m WR x d (dv main_v10)) = _
  rw [W3_main_v11, W3_main_v10]
  rfl

/-- The two id arrays end as launched, -/
theorem W4_main_arg0 (x : Ret F) (d : Dev nD) : W4 m WR x d (dv main_arg0) = m (tloc d main_arg0) := by
  rw [W4_main_arg0', W3_main_arg0, W2_main_arg0, W1_main_arg0, W0_main_arg0]
theorem W4_main_arg1 (x : Ret F) (d : Dev nD) : W4 m WR x d (dv main_arg1) = m (tloc d main_arg1) := by
  rw [W4_main_arg1', W3_main_arg1, W2_main_arg1, W1_main_arg1, W0_main_arg1]
/-- and so do the four tables, which the stretch never writes, where the arrays kept aside had them as launched. -/
theorem W4_main_arg2 (x : Ret F) (d : Dev nD) (h : WR d (dv main_arg2) = m (tloc d main_arg2)) : W4 m WR x d (dv main_arg2) = m (tloc d main_arg2) := by
  rw [W4_main_arg2', W3_main_arg2, W2_main_arg2, W1_main_arg2, W0_main_arg2, h]
theorem W4_main_arg3 (x : Ret F) (d : Dev nD) (h : WR d (dv main_arg3) = m (tloc d main_arg3)) : W4 m WR x d (dv main_arg3) = m (tloc d main_arg3) := by
  rw [W4_main_arg3', W3_main_arg3, W2_main_arg3, W1_main_arg3, W0_main_arg3, h]
theorem W4_main_arg4 (x : Ret F) (d : Dev nD) (h : WR d (dv main_arg4) = m (tloc d main_arg4)) : W4 m WR x d (dv main_arg4) = m (tloc d main_arg4) := by
  rw [W4_main_arg4', W3_main_arg4, W2_main_arg4, W1_main_arg4, W0_main_arg4, h]
theorem W4_main_arg5 (x : Ret F) (d : Dev nD) (h : WR d (dv main_arg5) = m (tloc d main_arg5)) : W4 m WR x d (dv main_arg5) = m (tloc d main_arg5) := by
  rw [W4_main_arg5', W3_main_arg5, W2_main_arg5, W1_main_arg5, W0_main_arg5, h]

end Cert.Kernel.StretchB

end
-- ==== Proof.StretchBRegionsW.lean ====
/-
  The stretch of @main after the SparseCore call as four segments: the id reshapes, the inner-product pipeline, the row
  and column reshapes, the broadcasting pipeline. Between segments the TensorCore holds its seventeen arrays at the
  boundary's contents, and beside them the knowledge of the returned tables, the generator register and the handshake
  debt. A pipeline's arrays are split out of the held set where its region is entered and put back, at what the
  pipeline leaves, where it is left. The pipelines wait on their own staging semaphores at index `none`, level 0, which
  is below every unit of the debt (all at a call's index), so the waits are licensed under it.
-/
import proofs.«203700_g68710886802180_cont_9to1c4b_800_29_alg».proof.Proof.StretchBFoldW
import Idealize.ShloMosaic.Lib.Pipeline.Regions
import Idealize.ShloMosaic.Lib.SparseCore.Threads

set_option maxRecDepth 16384

noncomputable section

namespace Cert.Kernel.StretchB

open Cert.Kernel Cert.Kernel.Gen Cert.Kernel.Setup Cert.Kernel.Hmain Cert.Kernel.TcSide
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Packed (PackedOK biasRow)

variable {F : FTy → Type} [FloatOps F] [∀ e, Nonempty (Elt F e)]

local notation "𝕄" => MT nD τ sig (HIx 1) (Elt F) ℕ UU ℕ

open Idealize.ShloMosaic.Pipeline (BodyObligation)

variable (m : (ℓ : Loc nD τ sig) → Buf (Elt F) ℓ) (WR : Dev nD → Valuation τ sig (Elt F))

/-! ## A pipeline's arrays in and out of a held set -/

/-- The arrays of a family of windows, as buffers of the device. -/
def arrSet {gr W : Nat} (win : Fin W → Pipeline.WinSpec sig gr) : Finset (DevRef τ sig) :=
  Finset.univ.image fun w => dv (Pipeline.arrRef win w)

/-- A held set that contains a pipeline's (distinct) arrays is those arrays and the rest. -/
theorem held_arrays {gr W : Nat} (win : Fin W → Pipeline.WinSpec sig gr) (hinj : Function.Injective (Pipeline.arrRef win))
    (S : Finset (DevRef τ sig)) (hsub : arrSet win ⊆ S) (c : Dev nD) (V : Valuation τ sig (Elt F)) :
    (StableHlo.held (c.tc : Thread nD τ) S V : sProp 𝕄)
      = iprop((bigSep Finset.univ fun w => ((((c.tc : Thread nD τ).loc (Pipeline.arrRef win w)) ↦{fullShare} V (dv (Pipeline.arrRef win w))) : sProp 𝕄))
          ∗ StableHlo.held (c.tc : Thread nD τ) (S \ arrSet win) V) := by
  rw [StableHlo.held_sub_split (c.tc : Thread nD τ) hsub V]
  congr 1
  unfold StableHlo.held arrSet
  rw [Idealize.SL.BI.bigSep_image_of_injOn (fun a _ b _ e => hinj (Proc.devRef_injective _ e))]

/-- Off the arrays, the contents with the arrays replaced are the contents. -/
theorem withArrays_notMem {gr W : Nat} (win : Fin W → Pipeline.WinSpec sig gr) (c : Dev nD) (V : Valuation τ sig (Elt F))
    (A : (w : Fin W) → Buf (Elt F) ((win w).arr.view.loc (c.tc : Thread nD τ))) (b : DevRef τ sig) (hb : b ∉ arrSet win) :
    Pipeline.withArrays win c V A b = V b := by
  unfold Pipeline.withArrays
  rw [dif_neg]
  rintro ⟨w, e⟩
  exact hb (Finset.mem_image.mpr ⟨w, Finset.mem_univ _, e⟩)

/-! ## The waits under the debt -/

/-- No unit of the handshake debt sits at index `none`. -/
theorem Otc_none (d : Dev nD) (n : ℕ) (g : GSem nD τ sig) : (K (F := F)).Otc d n g none = 0 := by
  by_contra h
  have := SparseCore.Cfg.lev_of_Otc_pos (K := K (F := F)) (Nat.pos_of_ne_zero h)
  rw [SparseCore.Cfg.lev_none] at this; omega

/-- So a pipeline may wait on each of its staging semaphores at every point. -/
theorem hwaitsB (x : Ret F) (p : Fin 4) (c : Dev nD) (howed : ∀ t, (pdatsB m WR x p c).owed t = (K (F := F)).Otc c 1) :
    (levAts (K (F := F)).L (K (F := F)).lev : sProp 𝕄)
      ⊢ Pipeline.cellsWaits (Pipeline.pin (pcfgs (F := F)) adm) (pdatsB m WR x) (none : HIx 1) p c :=
  Pipeline.cellsWaits_intro (Pipeline.pin (pcfgs (F := F)) adm) (pdatsB m WR x) (none : HIx 1) p c fun w s t => by
    rw [howed t]
    exact (K (F := F)).mayWait_none _ (Otc_none c 1)

/-! ## The host lines -/

theorem pair_sub {a b : Ref sig .tc} (ha : a ∈ heldRefs) (hb : b ∈ heldRefs) : ({dv a, dv b} : Finset (DevRef τ sig)) ⊆ SH := by
  intro r hr
  rcases Finset.mem_insert.mp hr with rfl | hr
  · exact Finset.mem_map_of_mem _ ha
  · rw [Finset.mem_singleton] at hr; subst hr; exact Finset.mem_map_of_mem _ hb

theorem opsIds_sub : ∀ op ∈ (MainSplit.opsIds : List (HloOp τ sig (Elt F))), op.bufs ⊆ SH := by
  intro op hop
  simp only [MainSplit.opsIds, List.mem_cons, List.not_mem_nil, or_false] at hop
  rcases hop with rfl | rfl
  · rw [StableHlo.reshape_bufs]; exact pair_sub (by decide) (by decide)
  · rw [StableHlo.reshape_bufs]; exact pair_sub (by decide) (by decide)
theorem opsIds_fresh : ∀ op ∈ (MainSplit.opsIds : List (HloOp τ sig (Elt F))), op.fresh = ∅ := by
  intro op hop
  simp only [MainSplit.opsIds, List.mem_cons, List.not_mem_nil, or_false] at hop
  rcases hop with rfl | rfl <;> rfl
theorem opsRowCol_sub : ∀ op ∈ (MainSplit.opsRowCol : List (HloOp τ sig (Elt F))), op.bufs ⊆ SH := by
  intro op hop
  simp only [MainSplit.opsRowCol, List.mem_cons, List.not_mem_nil, or_false] at hop
  rcases hop with rfl | rfl
  · rw [StableHlo.reshape_bufs]; exact pair_sub (by decide) (by decide)
  · rw [StableHlo.reshape_bufs]; exact pair_sub (by decide) (by decide)
theorem opsRowCol_fresh : ∀ op ∈ (MainSplit.opsRowCol : List (HloOp τ sig (Elt F))), op.fresh = ∅ := by
  intro op hop
  simp only [MainSplit.opsRowCol, List.mem_cons, List.not_mem_nil, or_false] at hop
  rcases hop with rfl | rfl <;> rfl

/-- The id reshapes as a segment, from the contents at the call's return. -/
def hostIds (x : Ret F) : Pipeline.HostSeg (Name := ℕ) (U := UU) (pcfgs (F := F)) (defs₀ (F := F)) 𝒱₀ (K (F := F)).L (K (F := F)).lev :=
  Pipeline.HostSeg.ofOps _ _ _ _ _ SH MainSplit.opsIds opsIds_sub opsIds_fresh (W0 m WR x) (Rd m x)
/-- The row and column reshapes as a segment, from the contents the inner-product pipeline leaves. -/
def hostRowCol (x : Ret F) : Pipeline.HostSeg (Name := ℕ) (U := UU) (pcfgs (F := F)) (defs₀ (F := F)) 𝒱₀ (K (F := F)).L (K (F := F)).lev :=
  Pipeline.HostSeg.ofOps _ _ _ _ _ SH MainSplit.opsRowCol opsRowCol_sub opsRowCol_fresh (W2 m WR x) (Rd m x)

/-! ## The pipelines as segments -/

theorem arr3_sub : arrSet spec3 ⊆ SH := by
  intro b hb
  obtain ⟨w, -, rfl⟩ := Finset.mem_image.mp hb
  refine Finset.mem_map_of_mem _ ?_
  revert w; decide

/-- At the region's exit each of its arrays holds what the pipeline leaves. -/
theorem W2_arr (x : Ret F) (c : Dev nD) (w : Fin cfg3.W) :
    W2 m WR x c (dv (Pipeline.arrRef spec3 w)) = (pdatsB m WR x 2 c).arrAt w cfg3.N := by
  unfold W2; exact Pipeline.withArrays_arr spec3 launch3.win.arr_inj c _ _ w

set_option backward.isDefEq.respectTransparency.types false in
/-- The pipeline of custom call 3 as a segment: entered from the held arrays at `W1`, left at `W2`. Its arrays are
    split out of the held set at the entry and put back at the exit contents; the generator register goes into the region
    invariant and comes out; the handshake debt passes through, the pipeline's own waits recorded at level 0. -/
def reg3 (x : Ret F) : Pipeline.RegionSeg (pcfgs (F := F)) adm (pdatsB m WR x) (none : HIx 1) (defs₀ (F := F)) 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation3 (Vof (W1 m WR x)) ((K (F := F)).Otc c 1) (Bnd (F := F) c 1) c).loose
  hwaits c := hwaitsB m WR x 2 c (fun _ => rfl)
  pre c := TS m x (W1 m WR x) c
  post c := TS m x (W2 m WR x) c
  X c := iprop(∃ r, prngReg c r)
  Y c := iprop(∃ r, prngReg c r)
  Z c := iprop(StableHlo.held (c.tc : Thread nD τ) (SH \ arrSet spec3) (W1 m WR x c) ∗ ⌜RetOK m x c⌝)
  hentry c := by
    rw [Pipeline.ownSems0_none]
    unfold TS Rd Ride
    rw [held_arrays spec3 launch3.win.arr_inj SH arr3_sub c (W1 m WR x c),
      Pipeline.arrays_eq (Pipeline.pin (pcfgs (F := F)) adm) (pdatsB m WR x) 2 c launch3.arr_whole ((pdatsB m WR x 2 c).share_full fun _ => rfl)]
    iintro ⟨⟨⟨Ha, Hrest⟩, %hok, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitl [Hp]; · iexact Hp
    isplitl [Hrest]; · iexact Hrest
    ipureintro; exact hok
  hin c := by
    rw [show (pdatsB m WR x 2 c).Φ 0 = ΦR spec3 c from rfl]; unfold ΦR
    iintro ⟨Hp, -, Hr⟩
    isplitl [Hr]; · iexact Hr
    iexact Hp
  hout c := by
    rw [Pipeline.ownSems0_none, show (pdatsB m WR x 2 c).Φ (Fin.last _) = ΦR spec3 c from rfl]; unfold ΦR
    iintro ⟨Hr, Hp⟩
    isplitl [Hp]; · iexact Hp
    isplitr; · iempintro
    iexact Hr
  hexit c := by
    have ha : (bigSep Finset.univ fun w => ((((c.tc : Thread nD τ).loc (Pipeline.arrRef spec3 w)) ↦{fullShare} W2 m WR x c (dv (Pipeline.arrRef spec3 w))) : sProp 𝕄))
        = bigSep Finset.univ fun w => ((((c.tc : Thread nD τ).loc (Pipeline.arrRef spec3 w)) ↦{fullShare} (pdatsB m WR x 2 c).arrAt w cfg3.N) : sProp 𝕄) :=
      bigSep_congr fun w _ => by rw [W2_arr]
    have hr : (StableHlo.held (c.tc : Thread nD τ) (SH \ arrSet spec3) (W2 m WR x c) : sProp 𝕄)
        = StableHlo.held (c.tc : Thread nD τ) (SH \ arrSet spec3) (W1 m WR x c) :=
      StableHlo.held_congr _ fun b hb => by unfold W2; exact withArrays_notMem spec3 c _ _ b (Finset.mem_sdiff.mp hb).2
    unfold TS Rd Ride
    rw [held_arrays spec3 launch3.win.arr_inj SH arr3_sub c (W2 m WR x c), ha, hr,
      Pipeline.arrays_eq (Pipeline.pin (pcfgs (F := F)) adm) (pdatsB m WR x) 2 c launch3.arr_whole ((pdatsB m WR x 2 c).share_full fun _ => rfl)]
    iintro ⟨Ha, HO, HY, ⟨Hrest, %hok⟩⟩
    imodintro
    isplitl [Ha Hrest]
    · isplitl [Ha]; · iexact Ha
      iexact Hrest
    isplitr; · ipureintro; exact hok
    isplitl [HY]; · iexact HY
    iapply (Pipeline.owesWithin_mono c _ (Set.union_subset (Set.Subset.refl _) (waitPairs_sub cfg3 c 1)))
    iexact HO

theorem arr4_sub : arrSet spec4 ⊆ SH := by
  intro b hb
  obtain ⟨w, -, rfl⟩ := Finset.mem_image.mp hb
  refine Finset.mem_map_of_mem _ ?_
  revert w; decide

/-- At the region's exit each of its arrays holds what the pipeline leaves. -/
theorem W4_arr (x : Ret F) (c : Dev nD) (w : Fin cfg4.W) :
    W4 m WR x c (dv (Pipeline.arrRef spec4 w)) = (pdatsB m WR x 3 c).arrAt w cfg4.N := by
  unfold W4; exact Pipeline.withArrays_arr spec4 launch4.win.arr_inj c _ _ w

set_option backward.isDefEq.respectTransparency.types false in
/-- The pipeline of custom call 4 as a segment: entered from the held arrays at `W3`, left at `W4`. Its arrays are
    split out of the held set at the entry and put back at the exit contents; the generator register goes into the region
    invariant and comes out; the handshake debt passes through, the pipeline's own waits recorded at level 0. -/
def reg4 (x : Ret F) : Pipeline.RegionSeg (pcfgs (F := F)) adm (pdatsB m WR x) (none : HIx 1) (defs₀ (F := F)) 𝒱₀ (K (F := F)).L (K (F := F)).lev 3 where
  win := launch4.win.to₀
  block_pos := launch4.block_pos
  stage_whole := launch4.stage_whole
  K := PEmpty
  osem k := k.elim
  ho := Pipeline.OwnSemFacts.none _
  hbody c := (body_obligation4 (Vof (W3 m WR x)) ((K (F := F)).Otc c 1) (Bnd (F := F) c 1) c).loose
  hwaits c := hwaitsB m WR x 3 c (fun _ => rfl)
  pre c := TS m x (W3 m WR x) c
  post c := TS m x (W4 m WR x) c
  X c := iprop(∃ r, prngReg c r)
  Y c := iprop(∃ r, prngReg c r)
  Z c := iprop(StableHlo.held (c.tc : Thread nD τ) (SH \ arrSet spec4) (W3 m WR x c) ∗ ⌜RetOK m x c⌝)
  hentry c := by
    rw [Pipeline.ownSems0_none]
    unfold TS Rd Ride
    rw [held_arrays spec4 launch4.win.arr_inj SH arr4_sub c (W3 m WR x c),
      Pipeline.arrays_eq (Pipeline.pin (pcfgs (F := F)) adm) (pdatsB m WR x) 3 c launch4.arr_whole ((pdatsB m WR x 3 c).share_full fun _ => rfl)]
    iintro ⟨⟨⟨Ha, Hrest⟩, %hok, Hp, HO⟩, -, -⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c _ (Set.subset_union_left))
      iexact HO
    isplitl [Hp]; · iexact Hp
    isplitl [Hrest]; · iexact Hrest
    ipureintro; exact hok
  hin c := by
    rw [show (pdatsB m WR x 3 c).Φ 0 = ΦR spec4 c from rfl]; unfold ΦR
    iintro ⟨Hp, -, Hr⟩
    isplitl [Hr]; · iexact Hr
    iexact Hp
  hout c := by
    rw [Pipeline.ownSems0_none, show (pdatsB m WR x 3 c).Φ (Fin.last _) = ΦR spec4 c from rfl]; unfold ΦR
    iintro ⟨Hr, Hp⟩
    isplitl [Hp]; · iexact Hp
    isplitr; · iempintro
    iexact Hr
  hexit c := by
    have ha : (bigSep Finset.univ fun w => ((((c.tc : Thread nD τ).loc (Pipeline.arrRef spec4 w)) ↦{fullShare} W4 m WR x c (dv (Pipeline.arrRef spec4 w))) : sProp 𝕄))
        = bigSep Finset.univ fun w => ((((c.tc : Thread nD τ).loc (Pipeline.arrRef spec4 w)) ↦{fullShare} (pdatsB m WR x 3 c).arrAt w cfg4.N) : sProp 𝕄) :=
      bigSep_congr fun w _ => by rw [W4_arr]
    have hr : (StableHlo.held (c.tc : Thread nD τ) (SH \ arrSet spec4) (W4 m WR x c) : sProp 𝕄)
        = StableHlo.held (c.tc : Thread nD τ) (SH \ arrSet spec4) (W3 m WR x c) :=
      StableHlo.held_congr _ fun b hb => by unfold W4; exact withArrays_notMem spec4 c _ _ b (Finset.mem_sdiff.mp hb).2
    unfold TS Rd Ride
    rw [held_arrays spec4 launch4.win.arr_inj SH arr4_sub c (W4 m WR x c), ha, hr,
      Pipeline.arrays_eq (Pipeline.pin (pcfgs (F := F)) adm) (pdatsB m WR x) 3 c launch4.arr_whole ((pdatsB m WR x 3 c).share_full fun _ => rfl)]
    iintro ⟨Ha, HO, HY, ⟨Hrest, %hok⟩⟩
    imodintro
    isplitl [Ha Hrest]
    · isplitl [Ha]; · iexact Ha
      iexact Hrest
    isplitr; · ipureintro; exact hok
    isplitl [HY]; · iexact HY
    iapply (Pipeline.owesWithin_mono c _ (Set.union_subset (Set.Subset.refl _) (waitPairs_sub cfg4 c 1)))
    iexact HO

/-! ## The stretch as its four segments -/

/-- The segments over the exact proof data. -/
def segsE (x : Ret F) : List (Pipeline.Seg (pcfgs (F := F)) adm (pdatsB m WR x) (none : HIx 1) (defs₀ (F := F)) 𝒱₀ (K (F := F)).L (K (F := F)).lev) :=
  [.host (hostIds m WR x), .region (reg3 m WR x), .host (hostRowCol m WR x), .region (reg4 m WR x)]

/-- The same over the relational reading of that data: what the reduction of @main takes. -/
def segsB (x : Ret F) : List (SegT (Pipeline.Dat.toRs (pdatsB m WR x))) :=
  (segsE m WR x).map (Pipeline.Seg.toR (pcfgs (F := F)) adm (pdatsB m WR x) (none : HIx 1) (defs₀ (F := F)) 𝒱₀ (K (F := F)).L (K (F := F)).lev)

/-- The stretch's text is the run of the segments. -/
theorem hrunB (x : Ret F) : MainSplit.after (F := F) = Pipeline.RDat.Seg.run (segsB m WR x) := by
  unfold segsB
  rw [Pipeline.Seg.run_toR, Pipeline.Seg.run_eq_chain]
  rfl

theorem pipesB_eq (x : Ret F) : Pipeline.RDat.Seg.pipes (segsB m WR x) = [2, 3] := by
  unfold segsB
  rw [Pipeline.Seg.pipes_toR]
  rfl

/-- The thread states chain: each segment is entered from what the one before it left. -/
theorem hchB (x : Ret F) (d : Dev nD) :
    Pipeline.RDat.Seg.ChainsAt d (TS m x (W0 m WR x)) (segsB m WR x) (TS m x (W4 m WR x)) :=
  Pipeline.Seg.ChainsAt.toR (pcfgs (F := F)) adm (pdatsB m WR x) (none : HIx 1) (defs₀ (F := F)) 𝒱₀ (K (F := F)).L (K (F := F)).lev
    (show Pipeline.Seg.ChainsAt d (TS m x (W0 m WR x)) (segsE m WR x) (TS m x (W4 m WR x)) from
      ⟨.rfl, .rfl, .rfl, .rfl, .rfl⟩)

end Cert.Kernel.StretchB

end
-- ==== Proof.StretchBW.lean ====
/-
  The stretch of @main after the SparseCore call, delivered whole: its proof data and segments, that its text is their
  run, the chaining of its thread states, how the call's return makes the first of them — the arrays the call hands back
  joined to those kept aside — and how the last yields the handshake debt and what is read at the end: the six argument
  arrays as launched and the result array at the kernel's closed form.
-/
import proofs.«203700_g68710886802180_cont_9to1c4b_800_29_alg».proof.Proof.StretchBRegionsW
import proofs.«203700_g68710886802180_cont_9to1c4b_800_29_alg».proof.Proof.ScSideDefsW
import proofs.«203700_g68710886802180_cont_9to1c4b_800_29_alg».proof.Proof.SidesIdealW

set_option maxRecDepth 16384

noncomputable section

namespace Cert.Kernel.StretchB

open Cert.Kernel Cert.Kernel.Gen Cert.Kernel.Setup Cert.Kernel.Hmain Cert.Kernel.TcSide
open Idealize.ShloMosaic Idealize.ShloMosaic.TcCoe Idealize.ShloMosaic.ValueIdx
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Packed (PackedOK biasRow)

variable {F : FTy → Type} [FloatOps F] [∀ e, Nonempty (Elt F e)]

local notation "𝕄" => MT nD τ sig (HIx 1) (Elt F) ℕ UU ℕ

variable (m : (ℓ : Loc nD τ sig) → Buf (Elt F) ℓ) (WR : Dev nD → Valuation τ sig (Elt F))

/-! ## The held set, unpacked -/

/-- The arrays read at the end. -/
def finRefs : Finset (Ref sig .tc) := {main_arg0, main_arg1, main_arg2, main_arg3, main_arg4, main_arg5, main_v12}
theorem finRefs_sub : finRefs.map devEmb ⊆ SH := Finset.map_subset_map.mpr (by decide)

/-- The arrays the call hands back, one by one. -/
theorem held_back (d : Dev nD) (V : Valuation τ sig (Elt F)) :
    (StableHlo.held (d.tc : Thread nD τ) SBk V : sProp 𝕄)
      = iprop((((d.tc : Thread nD τ).1, dv main_arg0) ↦{fullShare} V (dv main_arg0)) ∗ (((d.tc : Thread nD τ).1, dv main_arg1) ↦{fullShare} V (dv main_arg1)) ∗ (((d.tc : Thread nD τ).1, dv main_v6_0) ↦{fullShare} V (dv main_v6_0)) ∗ (((d.tc : Thread nD τ).1, dv main_v6_1) ↦{fullShare} V (dv main_v6_1)) ∗ (((d.tc : Thread nD τ).1, dv main_v6_2) ↦{fullShare} V (dv main_v6_2))) := by
  unfold StableHlo.held SBk
  rw [bigSep_map]
  unfold backRefs
  rw [bigSep_insert (by decide), bigSep_insert (by decide), bigSep_insert (by decide), bigSep_insert (by decide), bigSep_singleton]
  rfl

/-- The arrays read at the end, one by one. -/
theorem held_fin (d : Dev nD) (V : Valuation τ sig (Elt F)) :
    (StableHlo.held (d.tc : Thread nD τ) (finRefs.map devEmb) V : sProp 𝕄)
      = iprop((((d.tc : Thread nD τ).1, dv main_arg0) ↦{fullShare} V (dv main_arg0)) ∗ (((d.tc : Thread nD τ).1, dv main_arg1) ↦{fullShare} V (dv main_arg1)) ∗ (((d.tc : Thread nD τ).1, dv main_arg2) ↦{fullShare} V (dv main_arg2)) ∗ (((d.tc : Thread nD τ).1, dv main_arg3) ↦{fullShare} V (dv main_arg3)) ∗ (((d.tc : Thread nD τ).1, dv main_arg4) ↦{fullShare} V (dv main_arg4)) ∗ (((d.tc : Thread nD τ).1, dv main_arg5) ↦{fullShare} V (dv main_arg5)) ∗ (((d.tc : Thread nD τ).1, dv main_v12) ↦{fullShare} V (dv main_v12))) := by
  unfold StableHlo.held
  rw [bigSep_map]
  unfold finRefs
  rw [bigSep_insert (by decide), bigSep_insert (by decide), bigSep_insert (by decide), bigSep_insert (by decide), bigSep_insert (by decide), bigSep_insert (by decide), bigSep_singleton]
  rfl

/-- The seventeen held arrays are the five handed back and the twelve kept aside. -/
theorem held_SH (d : Dev nD) (V : Valuation τ sig (Elt F)) :
    (StableHlo.held (d.tc : Thread nD τ) SH V : sProp 𝕄)
      = iprop(StableHlo.held (d.tc : Thread nD τ) SBk V ∗ StableHlo.held (d.tc : Thread nD τ) SR V) := by
  unfold StableHlo.held SH SBk SR heldRefs
  rw [Finset.map_union, bigSep_union ((Finset.disjoint_map devEmb).mpr back_aside_disjoint)]
  rfl

/-- At the call's return the arrays kept aside hold what they held. -/
theorem held_SR_W0 (x : Ret F) (d : Dev nD) :
    (StableHlo.held (d.tc : Thread nD τ) SR (W0 m WR x d) : sProp 𝕄) = StableHlo.held (d.tc : Thread nD τ) SR (WR d) :=
  StableHlo.held_congr _ fun b hb => by
    obtain ⟨r, hr, rfl⟩ := Finset.mem_map.mp hb
    have hne : ∀ s ∈ backRefs, devEmb r ≠ dv s := fun s hs e =>
      Finset.disjoint_left.mp back_aside_disjoint hs ((devEmb.injective e) ▸ hr)
    unfold W0
    rw [Function.update_of_ne (hne _ (by decide)), Function.update_of_ne (hne _ (by decide)), Function.update_of_ne (hne _ (by decide)),
      Function.update_of_ne (hne _ (by decide)), Function.update_of_ne (hne _ (by decide))]

/-! ## The call's return, and the end -/

/-- What the call hands back, as the launch's hand-over is read for this stretch. -/
def HandBack (d : Dev nD) : sProp 𝕄 :=
  iprop((tloc d main_arg0 ↦{fullShare} m (tloc d main_arg0)) ∗ (tloc d main_arg1 ↦{fullShare} m (tloc d main_arg1))
    ∗ (∃ g0 : FVec F Cert.Packed.SRows .f32, ⌜PackedOK (m (tloc d main_arg0)) (m (tloc d main_arg2)) g0⌝ ∗ tloc d main_v6_0 ↦{fullShare} g0)
    ∗ (∃ g1 : FVec F Cert.Packed.SRows .f32, ⌜PackedOK (m (tloc d main_arg1)) (m (tloc d main_arg3)) g1⌝ ∗ tloc d main_v6_1 ↦{fullShare} g1)
    ∗ (tloc d main_v6_2 ↦{fullShare} biasSums m d))

/-- The debt after the call, what the call hands back and what was kept aside make the first thread state. -/
theorem hbackB (d : Dev nD) :
    iprop(debt (F := F) d 1 ∗ HandBack m d ∗ RestA WR d) ⊢ (iprop(∃ x : Ret F, TS m x (W0 m WR x) d) : sProp 𝕄) := by
  unfold HandBack RestA
  iintro ⟨Hd, ⟨H0, H1, ⟨%g0, %hg0, Hg0⟩, ⟨%g1, %hg1, Hg1⟩, Hb⟩, ⟨Hr, Hp⟩⟩
  iexists ((g0, g1) : Ret F)
  unfold TS Rd Ride
  rw [held_SH, held_SR_W0, held_back, W0_main_arg0, W0_main_arg1, W0_main_v6_0, W0_main_v6_1, W0_main_v6_2]
  isplitl [H0 H1 Hg0 Hg1 Hb Hr]
  · isplitl [H0 H1 Hg0 Hg1 Hb]
    · isplitl [H0]; · iexact H0
      isplitl [H1]; · iexact H1
      isplitl [Hg0]; · iexact Hg0
      isplitl [Hg1]; · iexact Hg1
      iexact Hb
    iexact Hr
  isplitr; · ipureintro; exact ⟨hg0, hg1⟩
  isplitl [Hp]; · iexact Hp
  iapply (debt_to d 1)
  iexact Hd

/-- The last thread state yields the debt and what is read at the end. -/
theorem hendB (hWR2 : ∀ d, WR d (dv main_arg2) = m (tloc d main_arg2)) (hWR3 : ∀ d, WR d (dv main_arg3) = m (tloc d main_arg3))
    (hWR4 : ∀ d, WR d (dv main_arg4) = m (tloc d main_arg4)) (hWR5 : ∀ d, WR d (dv main_arg5) = m (tloc d main_arg5))
    (x : Ret F) (d : Dev nD) :
    TS m x (W4 m WR x) d ⊢ (iprop(debt (F := F) d 1 ∗ FIN m (FinOK m) d) : sProp 𝕄) := by
  unfold TS Rd Ride FIN
  rw [StableHlo.held_sub_split (d.tc : Thread nD τ) finRefs_sub (W4 m WR x d), held_fin,
    W4_main_arg0, W4_main_arg1, W4_main_arg2 m WR x d (hWR2 d), W4_main_arg3 m WR x d (hWR3 d), W4_main_arg4 m WR x d (hWR4 d),
    W4_main_arg5 m WR x d (hWR5 d)]
  iintro ⟨⟨⟨H0, H1, H2, H3, H4, H5, H12⟩, -⟩, %hok, -, HO⟩
  isplitl [HO]
  · iapply (debt_of d 1); iexact HO
  isplitl [H0]; · iexact H0
  isplitl [H1]; · iexact H1
  isplitl [H2]; · iexact H2
  isplitl [H3]; · iexact H3
  isplitl [H4]; · iexact H4
  isplitl [H5]; · iexact H5
  iexists (W4 m WR x d (dv main_v12))
  isplitr
  · ipureintro; exact ⟨x.1, x.2, hok.1, hok.2, W4_main_v12 m WR x d⟩
  iexact H12

/-! ## The record -/

/-- THE STRETCH AFTER THE CALL. `hdn`: the call's results, as the launch hands them over, are what this stretch is
    entered from (the hand-over's own reading, proved beside the SparseCore kernel); `hWR`: the four tables were kept
    aside as launched. -/
def sideB (hWR2 : ∀ d, WR d (dv main_arg2) = m (tloc d main_arg2)) (hWR3 : ∀ d, WR d (dv main_arg3) = m (tloc d main_arg3))
    (hWR4 : ∀ d, WR d (dv main_arg4) = m (tloc d main_arg4)) (hWR5 : ∀ d, WR d (dv main_arg5) = m (tloc d main_arg5))
    (hdn : ∀ d, (bigSep Finset.univ fun c : Fin ((K (F := F)).nCore 0) => (Cert.Kernel.ScSide.P m).dn 0 d c : sProp 𝕄) ⊢ HandBack m d) :
    SideB (Cert.Kernel.ScSide.P m) (RestA WR) (FIN m (FinOK m)) where
  X := Ret F
  rdats x := Pipeline.Dat.toRs (pdatsB m WR x)
  segs x := segsB m WR x
  hrun x := hrunB m WR x
  hnd x := by rw [pipesB_eq]; decide
  hS x := by rw [pipesB_eq]; decide
  T x := TS m x (W0 m WR x)
  T' x := TS m x (W4 m WR x)
  hch x d := hchB m WR x d
  hback d := by
    iintro ⟨Hd, Hdn, Hrest⟩
    ihave H := (hdn d) $$ Hdn
    iapply (hbackB m WR d)
    isplitl [Hd]; · iexact Hd
    isplitl [H]; · iexact H
    iexact Hrest
  hend x d := hendB m WR hWR2 hWR3 hWR4 hWR5 x d

end Cert.Kernel.StretchB

end
-- ==== Proof.ScSideTile.lean ====
/-
  One tile of the SparseCore call at a symbolic place: its thread and semaphore cells, the arrays and scratch buffers
  as the kernel's text addresses them, how a tile's part of an array reads through those addresses, and the tile's own
  storage (nine copy semaphores at zero, eight scratch buffers at some contents) taken out of what the launch hands it.
-/
import proofs.«203700_g68710886802180_cont_9to1c4b_800_29_alg».proof.Proof.ScSideDefs

noncomputable section

namespace Cert.KernelIdeal.ScSide

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

variable {F : FTy → Type}

local notation "𝕄" => MT nD τ sig (HIx 1) (Elt F) ℕ UU ℕ

/-! ## The thread, its cells, the memrefs -/

abbrev cV (L : grid2.Coords) : Fin τ.nSC := (L 0).castLE hcore2
abbrev sV (L : grid2.Coords) : Fin τ.nSub := (L 1).castLE hsub2
abbrev cellV (d : Dev nD) (L : grid2.Coords) (x : DmaSems sig S_) : GSem nD τ sig := (V d (cV L) (sV L), .dma x.sem)

abbrev tUW : Memref sig .scVector .hbm S253952x128 .f32 := Memref.whole main_v1_scv
abbrev tIW : Memref sig .scVector .hbm S253952x128 .f32 := Memref.whole main_v3_scv
abbrev aUW : Memref sig .scVector .hbm S4096 .i32 := Memref.whole main_arg0_scv
abbrev aIW : Memref sig .scVector .hbm S4096 .i32 := Memref.whole main_arg1_scv
abbrev bUW : Memref sig .scVector .hbm S1000000 .f32 := Memref.whole main_v4_scv
abbrev bIW : Memref sig .scVector .hbm S1000000 .f32 := Memref.whole main_v5_scv
abbrev o0W : Memref sig .scVector .hbm S4096x128 .f32 := Memref.whole main_v6_0_scv
abbrev o1W : Memref sig .scVector .hbm S4096x128 .f32 := Memref.whole main_v6_1_scv
abbrev o2W : Memref sig .scVector .hbm S4096 .f32 := Memref.whole main_v6_2_scv
abbrev sUid : Memref sig .scVector .vmem S128 .i32 := Memref.whole cc2_scratch0
abbrev sIid : Memref sig .scVector .vmem S128 .i32 := Memref.whole cc2_scratch1
abbrev sUt : Memref sig .scVector .vmem S128 .i32 := Memref.whole cc2_scratch2
abbrev sIt : Memref sig .scVector .vmem S128 .i32 := Memref.whole cc2_scratch3
abbrev sUw : Memref sig .scVector .vmem S128x128 .f32 := Memref.whole cc2_scratch4
abbrev sIw : Memref sig .scVector .vmem S128x128 .f32 := Memref.whole cc2_scratch5
abbrev sUb : Memref sig .scVector .vmem S128 .f32 := Memref.whole cc2_scratch6
abbrev sIb : Memref sig .scVector .vmem S128 .f32 := Memref.whole cc2_scratch7
abbrev uSl (L : grid2.Coords) : Memref sig .scVector .hbm S128 .i32 := (aUW).slice (idRect L) (fun _ => rfl)
abbrev iSl (L : grid2.Coords) : Memref sig .scVector .hbm S128 .i32 := (aIW).slice (idRect L) (fun _ => rfl)
abbrev o0Sl (L : grid2.Coords) : Memref sig .scVector .hbm S128x128 .f32 := (o0W).slice (rowRect L) (fun _ => rfl)
abbrev o1Sl (L : grid2.Coords) : Memref sig .scVector .hbm S128x128 .f32 := (o1W).slice (rowRect L) (fun _ => rfl)
abbrev o2Sl (L : grid2.Coords) : Memref sig .scVector .hbm S128 .f32 := (o2W).slice (idRect L) (fun _ => rfl)

variable (d : Dev nD) (L : grid2.Coords)

/-! ## A tile's part of an array, through the kernel's addresses -/

theorem set_uSl : (uSl L).view.set = (idRect L).set := by
  show ((View.whole (main_arg0_scv : Ref sig .scVector)).slice (idRect L)).set = _
  rw [View.set_slice]; exact Finset.map_refl
theorem pts_uSl (f : Buf (Elt F) (tcLoc d main_arg0)) :
    ((uSl L).view.loc (V d (cV L) (sV L)) ↦[(uSl L).view.set]{fullShare} f : sProp 𝕄) = tcLoc d main_arg0 ↦[(idRect L).set]{fullShare} f := by
  rw [set_uSl]
theorem set_iSl : (iSl L).view.set = (idRect L).set := by
  show ((View.whole (main_arg1_scv : Ref sig .scVector)).slice (idRect L)).set = _
  rw [View.set_slice]; exact Finset.map_refl
theorem pts_iSl (f : Buf (Elt F) (tcLoc d main_arg1)) :
    ((iSl L).view.loc (V d (cV L) (sV L)) ↦[(iSl L).view.set]{fullShare} f : sProp 𝕄) = tcLoc d main_arg1 ↦[(idRect L).set]{fullShare} f := by
  rw [set_iSl]
theorem set_o0Sl : (o0Sl L).view.set = (rowRect L).set := by
  show ((View.whole (main_v6_0_scv : Ref sig .scVector)).slice (rowRect L)).set = _
  rw [View.set_slice]; exact Finset.map_refl
theorem pts_o0Sl (f : Buf (Elt F) (tcLoc d main_v6_0)) :
    ((o0Sl L).view.loc (V d (cV L) (sV L)) ↦[(o0Sl L).view.set]{fullShare} f : sProp 𝕄) = tcLoc d main_v6_0 ↦[(rowRect L).set]{fullShare} f := by
  rw [set_o0Sl]
theorem set_o1Sl : (o1Sl L).view.set = (rowRect L).set := by
  show ((View.whole (main_v6_1_scv : Ref sig .scVector)).slice (rowRect L)).set = _
  rw [View.set_slice]; exact Finset.map_refl
theorem pts_o1Sl (f : Buf (Elt F) (tcLoc d main_v6_1)) :
    ((o1Sl L).view.loc (V d (cV L) (sV L)) ↦[(o1Sl L).view.set]{fullShare} f : sProp 𝕄) = tcLoc d main_v6_1 ↦[(rowRect L).set]{fullShare} f := by
  rw [set_o1Sl]
theorem set_o2Sl : (o2Sl L).view.set = (idRect L).set := by
  show ((View.whole (main_v6_2_scv : Ref sig .scVector)).slice (idRect L)).set = _
  rw [View.set_slice]; exact Finset.map_refl
theorem pts_o2Sl (f : Buf (Elt F) (tcLoc d main_v6_2)) :
    ((o2Sl L).view.loc (V d (cV L) (sV L)) ↦[(o2Sl L).view.set]{fullShare} f : sProp 𝕄) = tcLoc d main_v6_2 ↦[(idRect L).set]{fullShare} f := by
  rw [set_o2Sl]

theorem pts_tUW (q : PosShare TreeShare) (f : Buf (Elt F) (tcLoc d main_v1)) :
    ((tUW).view.loc (V d (cV L) (sV L)) ↦{q} f : sProp 𝕄) = tcLoc d main_v1 ↦{q} f := rfl
theorem pts_tIW (q : PosShare TreeShare) (f : Buf (Elt F) (tcLoc d main_v3)) :
    ((tIW).view.loc (V d (cV L) (sV L)) ↦{q} f : sProp 𝕄) = tcLoc d main_v3 ↦{q} f := rfl
theorem pts_bUW (q : PosShare TreeShare) (f : Buf (Elt F) (tcLoc d main_v4)) :
    ((bUW).view.loc (V d (cV L) (sV L)) ↦{q} f : sProp 𝕄) = tcLoc d main_v4 ↦{q} f := rfl
theorem pts_bIW (q : PosShare TreeShare) (f : Buf (Elt F) (tcLoc d main_v5)) :
    ((bIW).view.loc (V d (cV L) (sV L)) ↦{q} f : sProp 𝕄) = tcLoc d main_v5 ↦{q} f := rfl

theorem pts_sUid (f : Buf (Elt F) ((V d (cV L) (sV L)).loc cc2_scratch0)) :
    ((sUid).view.loc (V d (cV L) (sV L)) ↦{fullShare} f : sProp 𝕄) = (V d (cV L) (sV L)).loc cc2_scratch0 ↦{fullShare} f := rfl
theorem pts_sIid (f : Buf (Elt F) ((V d (cV L) (sV L)).loc cc2_scratch1)) :
    ((sIid).view.loc (V d (cV L) (sV L)) ↦{fullShare} f : sProp 𝕄) = (V d (cV L) (sV L)).loc cc2_scratch1 ↦{fullShare} f := rfl
theorem pts_sUt (f : Buf (Elt F) ((V d (cV L) (sV L)).loc cc2_scratch2)) :
    ((sUt).view.loc (V d (cV L) (sV L)) ↦{fullShare} f : sProp 𝕄) = (V d (cV L) (sV L)).loc cc2_scratch2 ↦{fullShare} f := rfl
theorem pts_sIt (f : Buf (Elt F) ((V d (cV L) (sV L)).loc cc2_scratch3)) :
    ((sIt).view.loc (V d (cV L) (sV L)) ↦{fullShare} f : sProp 𝕄) = (V d (cV L) (sV L)).loc cc2_scratch3 ↦{fullShare} f := rfl
theorem pts_sUw (f : Buf (Elt F) ((V d (cV L) (sV L)).loc cc2_scratch4)) :
    ((sUw).view.loc (V d (cV L) (sV L)) ↦{fullShare} f : sProp 𝕄) = (V d (cV L) (sV L)).loc cc2_scratch4 ↦{fullShare} f := rfl
theorem pts_sIw (f : Buf (Elt F) ((V d (cV L) (sV L)).loc cc2_scratch5)) :
    ((sIw).view.loc (V d (cV L) (sV L)) ↦{fullShare} f : sProp 𝕄) = (V d (cV L) (sV L)).loc cc2_scratch5 ↦{fullShare} f := rfl
theorem pts_sUb (f : Buf (Elt F) ((V d (cV L) (sV L)).loc cc2_scratch6)) :
    ((sUb).view.loc (V d (cV L) (sV L)) ↦{fullShare} f : sProp 𝕄) = (V d (cV L) (sV L)).loc cc2_scratch6 ↦{fullShare} f := rfl
theorem pts_sIb (f : Buf (Elt F) ((V d (cV L) (sV L)).loc cc2_scratch7)) :
    ((sIb).view.loc (V d (cV L) (sV L)) ↦{fullShare} f : sProp 𝕄) = (V d (cV L) (sV L)).loc cc2_scratch7 ↦{fullShare} f := rfl

/-! ## The tile's own storage -/

variable [FloatOps F]

omit [FloatOps F] in
theorem ownSems0_V :
    (ownSems0 (V d (cV L) (sV L)) : sProp 𝕄)
      = iprop(semVal (cellV d L cc2_scratch8) 0 ∗ semVal (cellV d L cc2_scratch9) 0 ∗ semVal (cellV d L cc2_scratch10) 0 ∗ semVal (cellV d L cc2_scratch11) 0 ∗ semVal (cellV d L cc2_scoped0) 0 ∗ semVal (cellV d L cc2_scoped1) 0 ∗ semVal (cellV d L cc2_scoped2) 0 ∗ semVal (cellV d L cc2_scoped3) 0 ∗ semVal (cellV d L cc2_scoped4) 0
          ∗ bigSep ((((((((((ownCells (V d (cV L) (sV L))).erase (cellV d L cc2_scratch8)).erase (cellV d L cc2_scratch9)).erase (cellV d L cc2_scratch10)).erase (cellV d L cc2_scratch11)).erase (cellV d L cc2_scoped0)).erase (cellV d L cc2_scoped1)).erase (cellV d L cc2_scoped2)).erase (cellV d L cc2_scoped3)).erase (cellV d L cc2_scoped4)) fun g => semVal g 0) := by
  unfold SparseCore.Cfg.ownSems0
  rw [SparseCore.bigSep_erase' ((mem_ownCells (g := (cellV d L cc2_scratch8))).mpr ⟨rfl, by show (SemLoc.dma cc2_scratch8.sem : SemLoc sig).isScoped .scVector = true; decide⟩),
    SparseCore.bigSep_erase' (Finset.mem_erase.mpr ⟨fun e => absurd (Prod.mk.inj e).2 (show (SemLoc.dma cc2_scratch9.sem : SemLoc sig) ≠ SemLoc.dma cc2_scratch8.sem by decide), (mem_ownCells (g := (cellV d L cc2_scratch9))).mpr ⟨rfl, by show (SemLoc.dma cc2_scratch9.sem : SemLoc sig).isScoped .scVector = true; decide⟩⟩),
    SparseCore.bigSep_erase' (Finset.mem_erase.mpr ⟨fun e => absurd (Prod.mk.inj e).2 (show (SemLoc.dma cc2_scratch10.sem : SemLoc sig) ≠ SemLoc.dma cc2_scratch9.sem by decide), Finset.mem_erase.mpr ⟨fun e => absurd (Prod.mk.inj e).2 (show (SemLoc.dma cc2_scratch10.sem : SemLoc sig) ≠ SemLoc.dma cc2_scratch8.sem by decide), (mem_ownCells (g := (cellV d L cc2_scratch10))).mpr ⟨rfl, by show (SemLoc.dma cc2_scratch10.sem : SemLoc sig).isScoped .scVector = true; decide⟩⟩⟩),
    SparseCore.bigSep_erase' (Finset.mem_erase.mpr ⟨fun e => absurd (Prod.mk.inj e).2 (show (SemLoc.dma cc2_scratch11.sem : SemLoc sig) ≠ SemLoc.dma cc2_scratch10.sem by decide), Finset.mem_erase.mpr ⟨fun e => absurd (Prod.mk.inj e).2 (show (SemLoc.dma cc2_scratch11.sem : SemLoc sig) ≠ SemLoc.dma cc2_scratch9.sem by decide), Finset.mem_erase.mpr ⟨fun e => absurd (Prod.mk.inj e).2 (show (SemLoc.dma cc2_scratch11.sem : SemLoc sig) ≠ SemLoc.dma cc2_scratch8.sem by decide), (mem_ownCells (g := (cellV d L cc2_scratch11))).mpr ⟨rfl, by show (SemLoc.dma cc2_scratch11.sem : SemLoc sig).isScoped .scVector = true; decide⟩⟩⟩⟩),
    SparseCore.bigSep_erase' (Finset.mem_erase.mpr ⟨fun e => absurd (Prod.mk.inj e).2 (show (SemLoc.dma cc2_scoped0.sem : SemLoc sig) ≠ SemLoc.dma cc2_scratch11.sem by decide), Finset.mem_erase.mpr ⟨fun e => absurd (Prod.mk.inj e).2 (show (SemLoc.dma cc2_scoped0.sem : SemLoc sig) ≠ SemLoc.dma cc2_scratch10.sem by decide), Finset.mem_erase.mpr ⟨fun e => absurd (Prod.mk.inj e).2 (show (SemLoc.dma cc2_scoped0.sem : SemLoc sig) ≠ SemLoc.dma cc2_scratch9.sem by decide), Finset.mem_erase.mpr ⟨fun e => absurd (Prod.mk.inj e).2 (show (SemLoc.dma cc2_scoped0.sem : SemLoc sig) ≠ SemLoc.dma cc2_scratch8.sem by decide), (mem_ownCells (g := (cellV d L cc2_scoped0))).mpr ⟨rfl, by show (SemLoc.dma cc2_scoped0.sem : SemLoc sig).isScoped .scVector = true; decide⟩⟩⟩⟩⟩),
    SparseCore.bigSep_erase' (Finset.mem_erase.mpr ⟨fun e => absurd (Prod.mk.inj e).2 (show (SemLoc.dma cc2_scoped1.sem : SemLoc sig) ≠ SemLoc.dma cc2_scoped0.sem by decide), Finset.mem_erase.mpr ⟨fun e => absurd (Prod.mk.inj e).2 (show (SemLoc.dma cc2_scoped1.sem : SemLoc sig) ≠ SemLoc.dma cc2_scratch11.sem by decide), Finset.mem_erase.mpr ⟨fun e => absurd (Prod.mk.inj e).2 (show (SemLoc.dma cc2_scoped1.sem : SemLoc sig) ≠ SemLoc.dma cc2_scratch10.sem by decide), Finset.mem_erase.mpr ⟨fun e => absurd (Prod.mk.inj e).2 (show (SemLoc.dma cc2_scoped1.sem : SemLoc sig) ≠ SemLoc.dma cc2_scratch9.sem by decide), Finset.mem_erase.mpr ⟨fun e => absurd (Prod.mk.inj e).2 (show (SemLoc.dma cc2_scoped1.sem : SemLoc sig) ≠ SemLoc.dma cc2_scratch8.sem by decide), (mem_ownCells (g := (cellV d L cc2_scoped1))).mpr ⟨rfl, by show (SemLoc.dma cc2_scoped1.sem : SemLoc sig).isScoped .scVector = true; decide⟩⟩⟩⟩⟩⟩),
    SparseCore.bigSep_erase' (Finset.mem_erase.mpr ⟨fun e => absurd (Prod.mk.inj e).2 (show (SemLoc.dma cc2_scoped2.sem : SemLoc sig) ≠ SemLoc.dma cc2_scoped1.sem by decide), Finset.mem_erase.mpr ⟨fun e => absurd (Prod.mk.inj e).2 (show (SemLoc.dma cc2_scoped2.sem : SemLoc sig) ≠ SemLoc.dma cc2_scoped0.sem by decide), Finset.mem_erase.mpr ⟨fun e => absurd (Prod.mk.inj e).2 (show (SemLoc.dma cc2_scoped2.sem : SemLoc sig) ≠ SemLoc.dma cc2_scratch11.sem by decide), Finset.mem_erase.mpr ⟨fun e => absurd (Prod.mk.inj e).2 (show (SemLoc.dma cc2_scoped2.sem : SemLoc sig) ≠ SemLoc.dma cc2_scratch10.sem by decide), Finset.mem_erase.mpr ⟨fun e => absurd (Prod.mk.inj e).2 (show (SemLoc.dma cc2_scoped2.sem : SemLoc sig) ≠ SemLoc.dma cc2_scratch9.sem by decide), Finset.mem_erase.mpr ⟨fun e => absurd (Prod.mk.inj e).2 (show (SemLoc.dma cc2_scoped2.sem : SemLoc sig) ≠ SemLoc.dma cc2_scratch8.sem by decide), (mem_ownCells (g := (cellV d L cc2_scoped2))).mpr ⟨rfl, by show (SemLoc.dma cc2_scoped2.sem : SemLoc sig).isScoped .scVector = true; decide⟩⟩⟩⟩⟩⟩⟩),
    SparseCore.bigSep_erase' (Finset.mem_erase.mpr ⟨fun e => absurd (Prod.mk.inj e).2 (show (SemLoc.dma cc2_scoped3.sem : SemLoc sig) ≠ SemLoc.dma cc2_scoped2.sem by decide), Finset.mem_erase.mpr ⟨fun e => absurd (Prod.mk.inj e).2 (show (SemLoc.dma cc2_scoped3.sem : SemLoc sig) ≠ SemLoc.dma cc2_scoped1.sem by decide), Finset.mem_erase.mpr ⟨fun e => absurd (Prod.mk.inj e).2 (show (SemLoc.dma cc2_scoped3.sem : SemLoc sig) ≠ SemLoc.dma cc2_scoped0.sem by decide), Finset.mem_erase.mpr ⟨fun e => absurd (Prod.mk.inj e).2 (show (SemLoc.dma cc2_scoped3.sem : SemLoc sig) ≠ SemLoc.dma cc2_scratch11.sem by decide), Finset.mem_erase.mpr ⟨fun e => absurd (Prod.mk.inj e).2 (show (SemLoc.dma cc2_scoped3.sem : SemLoc sig) ≠ SemLoc.dma cc2_scratch10.sem by decide), Finset.mem_erase.mpr ⟨fun e => absurd (Prod.mk.inj e).2 (show (SemLoc.dma cc2_scoped3.sem : SemLoc sig) ≠ SemLoc.dma cc2_scratch9.sem by decide), Finset.mem_erase.mpr ⟨fun e => absurd (Prod.mk.inj e).2 (show (SemLoc.dma cc2_scoped3.sem : SemLoc sig) ≠ SemLoc.dma cc2_scratch8.sem by decide), (mem_ownCells (g := (cellV d L cc2_scoped3))).mpr ⟨rfl, by show (SemLoc.dma cc2_scoped3.sem : SemLoc sig).isScoped .scVector = true; decide⟩⟩⟩⟩⟩⟩⟩⟩),
    SparseCore.bigSep_erase' (Finset.mem_erase.mpr ⟨fun e => absurd (Prod.mk.inj e).2 (show (SemLoc.dma cc2_scoped4.sem : SemLoc sig) ≠ SemLoc.dma cc2_scoped3.sem by decide), Finset.mem_erase.mpr ⟨fun e => absurd (Prod.mk.inj e).2 (show (SemLoc.dma cc2_scoped4.sem : SemLoc sig) ≠ SemLoc.dma cc2_scoped2.sem by decide), Finset.mem_erase.mpr ⟨fun e => absurd (Prod.mk.inj e).2 (show (SemLoc.dma cc2_scoped4.sem : SemLoc sig) ≠ SemLoc.dma cc2_scoped1.sem by decide), Finset.mem_erase.mpr ⟨fun e => absurd (Prod.mk.inj e).2 (show (SemLoc.dma cc2_scoped4.sem : SemLoc sig) ≠ SemLoc.dma cc2_scoped0.sem by decide), Finset.mem_erase.mpr ⟨fun e => absurd (Prod.mk.inj e).2 (show (SemLoc.dma cc2_scoped4.sem : SemLoc sig) ≠ SemLoc.dma cc2_scratch11.sem by decide), Finset.mem_erase.mpr ⟨fun e => absurd (Prod.mk.inj e).2 (show (SemLoc.dma cc2_scoped4.sem : SemLoc sig) ≠ SemLoc.dma cc2_scratch10.sem by decide), Finset.mem_erase.mpr ⟨fun e => absurd (Prod.mk.inj e).2 (show (SemLoc.dma cc2_scoped4.sem : SemLoc sig) ≠ SemLoc.dma cc2_scratch9.sem by decide), Finset.mem_erase.mpr ⟨fun e => absurd (Prod.mk.inj e).2 (show (SemLoc.dma cc2_scoped4.sem : SemLoc sig) ≠ SemLoc.dma cc2_scratch8.sem by decide), (mem_ownCells (g := (cellV d L cc2_scoped4))).mpr ⟨rfl, by show (SemLoc.dma cc2_scoped4.sem : SemLoc sig).isScoped .scVector = true; decide⟩⟩⟩⟩⟩⟩⟩⟩⟩)]

omit [FloatOps F] in
theorem ownBufs_V :
    (ownBufs (V d (cV L) (sV L)) : sProp 𝕄)
      = iprop((∃ f, (V d (cV L) (sV L)).loc cc2_scratch0 ↦{fullShare} f) ∗ (∃ f, (V d (cV L) (sV L)).loc cc2_scratch1 ↦{fullShare} f) ∗ (∃ f, (V d (cV L) (sV L)).loc cc2_scratch2 ↦{fullShare} f) ∗ (∃ f, (V d (cV L) (sV L)).loc cc2_scratch3 ↦{fullShare} f) ∗ (∃ f, (V d (cV L) (sV L)).loc cc2_scratch4 ↦{fullShare} f) ∗ (∃ f, (V d (cV L) (sV L)).loc cc2_scratch5 ↦{fullShare} f) ∗ (∃ f, (V d (cV L) (sV L)).loc cc2_scratch6 ↦{fullShare} f) ∗ (∃ f, (V d (cV L) (sV L)).loc cc2_scratch7 ↦{fullShare} f)
          ∗ bigSep (((((((((ownRefs (τ := τ) (.scVector (cV L) (sV L))).erase ((Proc.scVector (cV L) (sV L)).devRef cc2_scratch0)).erase ((Proc.scVector (cV L) (sV L)).devRef cc2_scratch1)).erase ((Proc.scVector (cV L) (sV L)).devRef cc2_scratch2)).erase ((Proc.scVector (cV L) (sV L)).devRef cc2_scratch3)).erase ((Proc.scVector (cV L) (sV L)).devRef cc2_scratch4)).erase ((Proc.scVector (cV L) (sV L)).devRef cc2_scratch5)).erase ((Proc.scVector (cV L) (sV L)).devRef cc2_scratch6)).erase ((Proc.scVector (cV L) (sV L)).devRef cc2_scratch7))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L)) (b := ((Proc.scVector (cV L) (sV L)).devRef cc2_scratch0)) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (sV L)) (b := ((Proc.scVector (cV L) (sV L)).devRef cc2_scratch1)) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (sV L)) (b := ((Proc.scVector (cV L) (sV L)).devRef cc2_scratch2)) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV L) (sV L)) (b := ((Proc.scVector (cV L) (sV L)).devRef cc2_scratch3)) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV L) (sV L)) (b := ((Proc.scVector (cV L) (sV L)).devRef cc2_scratch4)) rfl⟩⟩⟩⟩),
    SparseCore.bigSep_erase' (Finset.mem_erase.mpr ⟨fun e => absurd (Proc.devRef_injective _ e) (show (cc2_scratch5 : Ref sig .scVector) ≠ cc2_scratch4 by decide), Finset.mem_erase.mpr ⟨fun e => absurd (Proc.devRef_injective _ e) (show (cc2_scratch5 : Ref sig .scVector) ≠ cc2_scratch3 by decide), Finset.mem_erase.mpr ⟨fun e => absurd (Proc.devRef_injective _ e) (show (cc2_scratch5 : Ref sig .scVector) ≠ cc2_scratch2 by decide), Finset.mem_erase.mpr ⟨fun e => absurd (Proc.devRef_injective _ e) (show (cc2_scratch5 : Ref sig .scVector) ≠ cc2_scratch1 by decide), Finset.mem_erase.mpr ⟨fun e => absurd (Proc.devRef_injective _ e) (show (cc2_scratch5 : Ref sig .scVector) ≠ cc2_scratch0 by decide), SparseCore.Cfg.mem_ownRefs_of_owner (p := Proc.scVector (cV L) (sV L)) (b := ((Proc.scVector (cV L) (sV L)).devRef cc2_scratch5)) rfl⟩⟩⟩⟩⟩),
    SparseCore.bigSep_erase' (Finset.mem_erase.mpr ⟨fun e => absurd (Proc.devRef_injective _ e) (show (cc2_scratch6 : Ref sig .scVector) ≠ cc2_scratch5 by decide), Finset.mem_erase.mpr ⟨fun e => absurd (Proc.devRef_injective _ e) (show (cc2_scratch6 : Ref sig .scVector) ≠ cc2_scratch4 by decide), Finset.mem_erase.mpr ⟨fun e => absurd (Proc.devRef_injective _ e) (show (cc2_scratch6 : Ref sig .scVector) ≠ cc2_scratch3 by decide), Finset.mem_erase.mpr ⟨fun e => absurd (Proc.devRef_injective _ e) (show (cc2_scratch6 : Ref sig .scVector) ≠ cc2_scratch2 by decide), Finset.mem_erase.mpr ⟨fun e => absurd (Proc.devRef_injective _ e) (show (cc2_scratch6 : Ref sig .scVector) ≠ cc2_scratch1 by decide), Finset.mem_erase.mpr ⟨fun e => absurd (Proc.devRef_injective _ e) (show (cc2_scratch6 : Ref sig .scVector) ≠ cc2_scratch0 by decide), SparseCore.Cfg.mem_ownRefs_of_owner (p := Proc.scVector (cV L) (sV L)) (b := ((Proc.scVector (cV L) (sV L)).devRef cc2_scratch6)) rfl⟩⟩⟩⟩⟩⟩),
    SparseCore.bigSep_erase' (Finset.mem_erase.mpr ⟨fun e => absurd (Proc.devRef_injective _ e) (show (cc2_scratch7 : Ref sig .scVector) ≠ cc2_scratch6 by decide), Finset.mem_erase.mpr ⟨fun e => absurd (Proc.devRef_injective _ e) (show (cc2_scratch7 : Ref sig .scVector) ≠ cc2_scratch5 by decide), Finset.mem_erase.mpr ⟨fun e => absurd (Proc.devRef_injective _ e) (show (cc2_scratch7 : Ref sig .scVector) ≠ cc2_scratch4 by decide), Finset.mem_erase.mpr ⟨fun e => absurd (Proc.devRef_injective _ e) (show (cc2_scratch7 : Ref sig .scVector) ≠ cc2_scratch3 by decide), Finset.mem_erase.mpr ⟨fun e => absurd (Proc.devRef_injective _ e) (show (cc2_scratch7 : Ref sig .scVector) ≠ cc2_scratch2 by decide), Finset.mem_erase.mpr ⟨fun e => absurd (Proc.devRef_injective _ e) (show (cc2_scratch7 : Ref sig .scVector) ≠ cc2_scratch1 by decide), Finset.mem_erase.mpr ⟨fun e => absurd (Proc.devRef_injective _ e) (show (cc2_scratch7 : Ref sig .scVector) ≠ cc2_scratch0 by decide), SparseCore.Cfg.mem_ownRefs_of_owner (p := Proc.scVector (cV L) (sV L)) (b := ((Proc.scVector (cV L) (sV L)).devRef cc2_scratch7)) rfl⟩⟩⟩⟩⟩⟩⟩)]

end Cert.KernelIdeal.ScSide

end
-- ==== Proof.ScSideWords.lean ====
/-
  The word arithmetic of the SparseCore kernel, apart from any program: the packed-row index the kernel computes from an
  id word, `((u >>> 14) <<< 12) + (u &&& 4095)`, is `4096·(u / 16384) + u % 4096` for every id below a million — the
  packed row that holds table row `u` —, lane by lane for the 16-lane vectors the kernel works on; and the bias sum is
  the lanes' sums.
-/
import proofs.«203700_g68710886802180_cont_9to1c4b_800_29_alg».proof.Proof.Packed
import Idealize.ShloMosaic.Lib.Pipeline.Value

noncomputable section

namespace Cert.KernelIdeal.ScSide

open Idealize.ShloMosaic

/-- The packed-row index word of an id word, as the vector unit computes it. -/
def tidW (u : BitVec 32) : BitVec 32 :=
  IntOp.addi (IntOp.shli .vector (IntOp.shrui .vector u 14#32) 12#32) (IntOp.andi u 4095#32)

theorem tid_toNat (u : BitVec 32) (h : u.toNat ≤ 999999) :
    (((u >>> (14#32)) <<< (12#32)) + (u &&& 4095#32)).toNat = 4096 * (u.toNat / 16384) + u.toNat % 4096 := by
  have h1 : (u &&& 4095#32).toNat = u.toNat % 4096 := by
    rw [BitVec.toNat_and]
    exact Nat.and_two_pow_sub_one_eq_mod u.toNat 12
  have h2 : ((u >>> (14#32)) <<< (12#32)).toNat = 4096 * (u.toNat / 16384) := by
    rw [BitVec.shiftLeft_eq', BitVec.ushiftRight_eq', BitVec.toNat_shiftLeft, BitVec.toNat_ushiftRight]
    simp only [BitVec.toNat_ofNat, Nat.shiftLeft_eq, Nat.shiftRight_eq_div_pow, Nat.reduceMod, Nat.reducePow]
    omega
  rw [BitVec.toNat_add, h1, h2]
  omega

theorem tidW_toNat (u : BitVec 32) (h : u.toNat ≤ 999999) : (tidW u).toNat = 4096 * (u.toNat / 16384) + u.toNat % 4096 := by
  unfold tidW IntOp.addi IntOp.shli IntOp.shrui IntOp.andi
  rw [if_pos (by decide), if_pos (by decide)]
  exact tid_toNat u h

theorem tidW_lt (u : BitVec 32) (h : u.toNat ≤ 999999) : (tidW u).toNat < 253952 := by
  rw [tidW_toNat u h]; omega

theorem tidW_wideRow (u : BitVec 32) (h : u.toNat ≤ 999999) (h' : u.toNat < 1000000) :
    (tidW u).toNat = (Cert.Packed.wideRow u.toNat h').val := tidW_toNat u h

/-- The index computation on a vector of id words, as the kernel's text spells one group of lanes. -/
theorem tid_vec {s : Shape} (v : IVec s 32) (h1 h2 : s.ShapeCasts s) :
    shapeCast s (addi (shli (shrui (shapeCast s v h1) (broadcast s (14#32 : BitVec 32))) (broadcast s (12#32 : BitVec 32)))
      (andi (shapeCast s v h1) (broadcast s (4095#32 : BitVec 32)))) h2 = fun x => tidW (v x) := by
  rw [shapeCast_self, shapeCast_self]; rfl

/-- The bias sum on one group of lanes, as the kernel's text spells it. -/
theorem add_vec {F : FTy → Type} [FloatOps F] {s : Shape} (x y : FVec F s .f32) (h1 h2 h3 : s.ShapeCasts s) :
    shapeCast s (addf (shapeCast s x h1) (shapeCast s y h2)) h3 = fun j => FloatOps.addf (x j) (y j) := by
  rw [shapeCast_self, shapeCast_self, shapeCast_self]; rfl

end Cert.KernelIdeal.ScSide

end
-- ==== Proof.ScSideIdx.lean ====
/-
  Index bookkeeping for one tile: what a buffer filled by one whole write reads, which source element the indirect
  gather puts at a destination index, which entry of the index list serves a row, and where a tile's slice of an
  array sits in the array (entry `j` of the tile's slice is entry `tbase + j`).
-/
import proofs.«203700_g68710886802180_cont_9to1c4b_800_29_alg».proof.Proof.ScSideTile
import proofs.«203700_g68710886802180_cont_9to1c4b_800_29_alg».proof.Proof.ScSideWords
import Idealize.ShloMosaic.Lib.SparseCore.Stream
import Idealize.ShloMosaic.Lib.Writes

noncomputable section

namespace Cert.KernelIdeal.ScSide

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

variable {F : FTy → Type}

/-! ## One whole write -/

theorem whole_emb (s : Shape) (x : s.Idx) : (Rect.whole s).emb x = x := by
  funext a; apply Fin.ext
  show (Rect.whole s).off a + (Rect.whole s).stride a * (x a).val = (x a).val
  simp [Rect.whole]

theorem read_writes_whole {sig : RefSig} {κ : Kind} {sp : Space} {s : Shape} {e : EltTy} {Val : EltTy → Type}
    (v : View sig κ sp s e) (f : v.ty.Contents Val) (w : s.Idx → Val e) (y : s.Idx) :
    v.read Val (v.writes Val f [⟨Rect.whole s, w⟩]) y = w y := by
  have h := View.read_writes_cons_emb v f (Rect.whole s) w [] y
  rwa [whole_emb] at h

/-! ## The gather's payload at an index -/

theorem gather2_apply (hg : S253952x128.Gathers 0 S128x128) (g : S253952x128.Idx → Elt F .f32)
    (r : Fin (S128x128.size hg.axis') → Fin (S253952x128.size hg.axis)) (y : S128x128.Idx) (z : S253952x128.Idx)
    (h0 : (z 0).val = (r (y 0)).val) (h1 : (z 1).val = (y 1).val) :
    SparseCore.gatherPayload hg g r y = g z := by
  unfold SparseCore.gatherPayload
  congr 1
  funext a
  match a with
  | ⟨0, _⟩ => exact Fin.ext ((congrArg Fin.val (Shape.Gathers.idx_axis hg r y)).trans h0.symm)
  | ⟨1, _⟩ => exact Fin.ext ((Shape.Gathers.idx_of_ne hg r y ⟨1, by decide⟩ (by decide)).trans h1.symm)

theorem gather1_apply (hg : S1000000.Gathers 0 S128) (g : S1000000.Idx → Elt F .f32)
    (r : Fin (S128.size hg.axis') → Fin (S1000000.size hg.axis)) (y : S128.Idx) (z : S1000000.Idx)
    (h0 : (z 0).val = (r (y 0)).val) :
    SparseCore.gatherPayload hg g r y = g z := by
  unfold SparseCore.gatherPayload
  congr 1
  funext a
  match a with
  | ⟨0, _⟩ => exact Fin.ext ((congrArg Fin.val (Shape.Gathers.idx_axis hg r y)).trans h0.symm)

theorem rowMajor_symm_S128 (k : Fin S128.numel) : S128.rowMajor.symm k = ix1 (k.cast (by decide)) := by
  apply (Equiv.symm_apply_eq _).mpr
  apply Fin.ext
  rw [Shape.rowMajor_val_one]
  rfl

/-- Entry `k` of an index list of 128 words, as a row number. -/
theorem rows_val {o z : ℕ} (idx : S128.Idx → Elt F .i32) (hn : S128.numel = o) (h : ∀ x, (idx x).toNat < z) (k : Fin o) :
    (SparseCore.rows idx hn h k).val = (idx (ix1 (k.cast (hn.symm.trans (by decide : S128.numel = 128))))).toNat := by
  unfold SparseCore.rows
  show (idx (S128.rowMajor.symm (k.cast hn.symm))).toNat = _
  rw [rowMajor_symm_S128]
  rfl

/-! ## Where a tile's slices sit -/

variable (L : grid2.Coords)

theorem tbase_lt : tbase L + 128 ≤ 4096 := by
  have h0 : (L 0).val < 2 := (L 0).isLt
  have h1 : (L 1).val < 16 := (L 1).isLt
  unfold tbase; omega

theorem off1_eq : k2_off1 L 0 = tbase L := by rw [k2_off1_eq]; rfl
theorem off2_eq0 : k2_off2 L 0 = tbase L := by rw [k2_off2_eq]; rfl
theorem off2_eq1 : k2_off2 L 1 = 0 := by rw [k2_off2_eq]; rfl

theorem uSl_emb (y : S128.Idx) : (((uSl L).view.emb y) 0).val = tbase L + (y 0).val := by
  show k2_off1 L 0 + 1 * (y 0).val = _
  rw [off1_eq]; omega
theorem iSl_emb (y : S128.Idx) : (((iSl L).view.emb y) 0).val = tbase L + (y 0).val := by
  show k2_off1 L 0 + 1 * (y 0).val = _
  rw [off1_eq]; omega
theorem o2Sl_emb (y : S128.Idx) : (((o2Sl L).view.emb y) 0).val = tbase L + (y 0).val := by
  show k2_off1 L 0 + 1 * (y 0).val = _
  rw [off1_eq]; omega
theorem o0Sl_emb0 (y : S128x128.Idx) : (((o0Sl L).view.emb y) 0).val = tbase L + (y 0).val := by
  show k2_off2 L 0 + 1 * (y 0).val = _
  rw [off2_eq0]; omega
theorem o0Sl_emb1 (y : S128x128.Idx) : (((o0Sl L).view.emb y) 1).val = (y 1).val := by
  show k2_off2 L 1 + 1 * (y 1).val = _
  rw [off2_eq1]; omega
theorem o1Sl_emb0 (y : S128x128.Idx) : (((o1Sl L).view.emb y) 0).val = tbase L + (y 0).val := by
  show k2_off2 L 0 + 1 * (y 0).val = _
  rw [off2_eq0]; omega
theorem o1Sl_emb1 (y : S128x128.Idx) : (((o1Sl L).view.emb y) 1).val = (y 1).val := by
  show k2_off2 L 1 + 1 * (y 1).val = _
  rw [off2_eq1]; omega

end Cert.KernelIdeal.ScSide

end
-- ==== Proof.ScSideVals.lean ====
/-
  What one tile leaves in the results, as statements about values alone: a result row is the packed row its id's index
  word names (the index list holds the index word of every id of the tile, the gather copies the rows the list names,
  the copy-out puts them at the tile's rows), hence — the packed table carrying the embedding table on every real lane —
  the embedding row of the id on the quarter the id selects.
-/
import proofs.«203700_g68710886802180_cont_9to1c4b_800_29_alg».proof.Proof.ScSideIdx

noncomputable section

namespace Cert.KernelIdeal.ScSide

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

variable {F : FTy → Type} [FloatOps F]

variable (m : (ℓ : Loc nD τ sig) → Buf (Elt F) ℓ) (d : Dev nD) (L : grid2.Coords)

/-- Rows of result user: each holds, on the quarter its id selects, the embedding row the id names. -/
theorem rowsOK_user (hu : ∀ j, (m (tcLoc d main_arg0) j).toNat ≤ 999999)
    (w1 : FVec F Cert.Packed.SWide .f32) (hw1 : WideOK (m (tcLoc d main_arg2)) w1)
    (cT : Buf (Elt F) ((V d (cV L) (sV L)).loc cc2_scratch2))
    (hT : ∀ y, (sUt : Memref sig .scVector .vmem S128 .i32).view.read (Elt F) cT y = tidW (m (tcLoc d main_arg0) ((uSl L).view.emb y)))
    (hg : S253952x128.Gathers 0 S128x128) (hn : S128.numel = S128x128.size hg.axis')
    (hin : ∀ x, ((sUt : Memref sig .scVector .vmem S128 .i32).view.read (Elt F) cT x).toNat < S253952x128.size hg.axis)
    (inb : ∀ a, (![0, 0] : Fin 2 → Nat) a + S253952x128.size a ≤ S253952x128.size a)
    (s4 : Buf (Elt F) ((V d (cV L) (sV L)).loc cc2_scratch4)) (f0 : Buf (Elt F) (tcLoc d main_v6_0)) :
    RowsOK (m (tcLoc d main_arg0)) (m (tcLoc d main_arg2)) L
      ((o0Sl L).view.writes (Elt F) f0 [⟨Rect.whole S128x128,
        ReadAs.same.apply (View.read (Elt F) (sUw : Memref sig .scVector .vmem S128x128 .f32).view
          ((sUw : Memref sig .scVector .vmem S128x128 .f32).view.writes (Elt F) s4 [⟨Rect.whole S128x128,
            SparseCore.gatherPayload hg (View.read (Elt F) ((tUW : Memref sig .scVector .hbm S253952x128 .f32).slice (Rect.unit (s := S253952x128) ![0, 0] S253952x128.size inb) (fun _ => rfl)).view w1)
              (SparseCore.rows ((sUt : Memref sig .scVector .vmem S128 .i32).view.read (Elt F) cT) hn hin)⟩]))⟩]) := by
  intro b hb1 hb2 d'
  have hb : b.val - tbase L < 128 := by omega
  have hid := hu (ix1 b)
  have hlt : (m (tcLoc d main_arg0) (ix1 b)).toNat < 1000000 := by omega
  -- the tile's own row for batch entry `b`, and the lane looked at
  let y : S128x128.Idx := ix2 (⟨b.val - tbase L, hb⟩ : Fin 128) (wideLane (m (tcLoc d main_arg0) (ix1 b)).toNat d')
  have hy : (o0Sl L).view.emb y = ix2 b (wideLane (m (tcLoc d main_arg0) (ix1 b)).toNat d') := by
    funext a
    match a with
    | ⟨0, _⟩ => exact Fin.ext ((o0Sl_emb0 L y).trans (by show tbase L + (b.val - tbase L) = b.val; omega))
    | ⟨1, _⟩ => exact Fin.ext (o0Sl_emb1 L y)
  have hsl : (uSl L).view.emb (ix1 (⟨b.val - tbase L, hb⟩ : Fin 128)) = ix1 b := by
    funext a
    match a with
    | ⟨0, _⟩ => exact Fin.ext ((uSl_emb L _).trans (by show tbase L + (b.val - tbase L) = b.val; omega))
  rw [← hy]
  refine Eq.trans ((View.read_apply (v := (o0Sl L).view) _ y).trans (cast_eq _ _)).symm ?_
  rw [read_writes_whole]
  show (sUw : Memref sig .scVector .vmem S128x128 .f32).view.read (Elt F) _ y = _
  rw [read_writes_whole]
  -- the gathered row is the packed row the index word names
  rw [gather2_apply hg _ _ y (ix2 (wideRow (m (tcLoc d main_arg0) (ix1 b)).toNat hlt) (wideLane (m (tcLoc d main_arg0) (ix1 b)).toNat d'))
    (by
      show (wideRow (m (tcLoc d main_arg0) (ix1 b)).toNat hlt).val = _
      refine Eq.symm ((rows_val _ hn hin (y 0)).trans ?_)
      have hk : ∀ pf, (ix1 ((y 0).cast pf) : S128.Idx) = ix1 (⟨b.val - tbase L, hb⟩ : Fin 128) := fun _ => rfl
      rw [hk, hT, hsl]
      exact tidW_wideRow _ hid hlt)
    rfl]
  rw [show View.read (Elt F) ((tUW : Memref sig .scVector .hbm S253952x128 .f32).slice (Rect.unit (s := S253952x128) ![0, 0] S253952x128.size inb) (fun _ => rfl)).view w1
        (ix2 (wideRow (m (tcLoc d main_arg0) (ix1 b)).toNat hlt) (wideLane (m (tcLoc d main_arg0) (ix1 b)).toNat d'))
      = w1 (ix2 (wideRow (m (tcLoc d main_arg0) (ix1 b)).toNat hlt) (wideLane (m (tcLoc d main_arg0) (ix1 b)).toNat d')) from by
    refine ((View.read_apply _ _).trans (cast_eq _ _)).trans (congrArg w1 ?_)
    funext a
    match a with
    | ⟨0, _⟩ => exact Fin.ext (by show 0 + 1 * _ = _; omega)
    | ⟨1, _⟩ => exact Fin.ext (by show 0 + 1 * _ = _; omega)]
  have := hw1 ⟨(m (tcLoc d main_arg0) (ix1 b)).toNat, hlt⟩ d'
  rw [this]
  congr 1
  exact congrArg (fun r => ix2 r d') (Fin.ext (by simp only [rowOf]; omega))

/-- Rows of result item: each holds, on the quarter its id selects, the embedding row the id names. -/
theorem rowsOK_item (hu : ∀ j, (m (tcLoc d main_arg1) j).toNat ≤ 999999)
    (w1 : FVec F Cert.Packed.SWide .f32) (hw1 : WideOK (m (tcLoc d main_arg3)) w1)
    (cT : Buf (Elt F) ((V d (cV L) (sV L)).loc cc2_scratch3))
    (hT : ∀ y, (sIt : Memref sig .scVector .vmem S128 .i32).view.read (Elt F) cT y = tidW (m (tcLoc d main_arg1) ((iSl L).view.emb y)))
    (hg : S253952x128.Gathers 0 S128x128) (hn : S128.numel = S128x128.size hg.axis')
    (hin : ∀ x, ((sIt : Memref sig .scVector .vmem S128 .i32).view.read (Elt F) cT x).toNat < S253952x128.size hg.axis)
    (inb : ∀ a, (![0, 0] : Fin 2 → Nat) a + S253952x128.size a ≤ S253952x128.size a)
    (s4 : Buf (Elt F) ((V d (cV L) (sV L)).loc cc2_scratch5)) (f0 : Buf (Elt F) (tcLoc d main_v6_1)) :
    RowsOK (m (tcLoc d main_arg1)) (m (tcLoc d main_arg3)) L
      ((o1Sl L).view.writes (Elt F) f0 [⟨Rect.whole S128x128,
        ReadAs.same.apply (View.read (Elt F) (sIw : Memref sig .scVector .vmem S128x128 .f32).view
          ((sIw : Memref sig .scVector .vmem S128x128 .f32).view.writes (Elt F) s4 [⟨Rect.whole S128x128,
            SparseCore.gatherPayload hg (View.read (Elt F) ((tIW : Memref sig .scVector .hbm S253952x128 .f32).slice (Rect.unit (s := S253952x128) ![0, 0] S253952x128.size inb) (fun _ => rfl)).view w1)
              (SparseCore.rows ((sIt : Memref sig .scVector .vmem S128 .i32).view.read (Elt F) cT) hn hin)⟩]))⟩]) := by
  intro b hb1 hb2 d'
  have hb : b.val - tbase L < 128 := by omega
  have hid := hu (ix1 b)
  have hlt : (m (tcLoc d main_arg1) (ix1 b)).toNat < 1000000 := by omega
  -- the tile's own row for batch entry `b`, and the lane looked at
  let y : S128x128.Idx := ix2 (⟨b.val - tbase L, hb⟩ : Fin 128) (wideLane (m (tcLoc d main_arg1) (ix1 b)).toNat d')
  have hy : (o1Sl L).view.emb y = ix2 b (wideLane (m (tcLoc d main_arg1) (ix1 b)).toNat d') := by
    funext a
    match a with
    | ⟨0, _⟩ => exact Fin.ext ((o1Sl_emb0 L y).trans (by show tbase L + (b.val - tbase L) = b.val; omega))
    | ⟨1, _⟩ => exact Fin.ext (o1Sl_emb1 L y)
  have hsl : (iSl L).view.emb (ix1 (⟨b.val - tbase L, hb⟩ : Fin 128)) = ix1 b := by
    funext a
    match a with
    | ⟨0, _⟩ => exact Fin.ext ((iSl_emb L _).trans (by show tbase L + (b.val - tbase L) = b.val; omega))
  rw [← hy]
  refine Eq.trans ((View.read_apply (v := (o1Sl L).view) _ y).trans (cast_eq _ _)).symm ?_
  rw [read_writes_whole]
  show (sIw : Memref sig .scVector .vmem S128x128 .f32).view.read (Elt F) _ y = _
  rw [read_writes_whole]
  -- the gathered row is the packed row the index word names
  rw [gather2_apply hg _ _ y (ix2 (wideRow (m (tcLoc d main_arg1) (ix1 b)).toNat hlt) (wideLane (m (tcLoc d main_arg1) (ix1 b)).toNat d'))
    (by
      show (wideRow (m (tcLoc d main_arg1) (ix1 b)).toNat hlt).val = _
      refine Eq.symm ((rows_val _ hn hin (y 0)).trans ?_)
      have hk : ∀ pf, (ix1 ((y 0).cast pf) : S128.Idx) = ix1 (⟨b.val - tbase L, hb⟩ : Fin 128) := fun _ => rfl
      rw [hk, hT, hsl]
      exact tidW_wideRow _ hid hlt)
    rfl]
  rw [show View.read (Elt F) ((tIW : Memref sig .scVector .hbm S253952x128 .f32).slice (Rect.unit (s := S253952x128) ![0, 0] S253952x128.size inb) (fun _ => rfl)).view w1
        (ix2 (wideRow (m (tcLoc d main_arg1) (ix1 b)).toNat hlt) (wideLane (m (tcLoc d main_arg1) (ix1 b)).toNat d'))
      = w1 (ix2 (wideRow (m (tcLoc d main_arg1) (ix1 b)).toNat hlt) (wideLane (m (tcLoc d main_arg1) (ix1 b)).toNat d')) from by
    refine ((View.read_apply _ _).trans (cast_eq _ _)).trans (congrArg w1 ?_)
    funext a
    match a with
    | ⟨0, _⟩ => exact Fin.ext (by show 0 + 1 * _ = _; omega)
    | ⟨1, _⟩ => exact Fin.ext (by show 0 + 1 * _ = _; omega)]
  have := hw1 ⟨(m (tcLoc d main_arg1) (ix1 b)).toNat, hlt⟩ d'
  rw [this]
  congr 1
  exact congrArg (fun r => ix2 r d') (Fin.ext (by simp only [rowOf]; omega))

end Cert.KernelIdeal.ScSide

end
-- ==== Proof.ScSideBias.lean ====
/-
  The bias row of one tile. The kernel gathers the user biases and the item biases of its 128 entries into two
  scratch vectors and adds the second into the first in place, sixteen lanes at a time: after `k` groups the first
  `16·k` lanes hold the sums and the rest still the gathered user biases (by induction on `k`; a group's load reads
  lanes no earlier group has written). After the eighth group every lane is the sum, which the copy-out puts at the
  tile's entries of the result.
-/
import proofs.«203700_g68710886802180_cont_9to1c4b_800_29_alg».proof.Proof.ScSideIdx
import Idealize.ShloMosaic.Lib.Exec.Geometry

noncomputable section

namespace Cert.KernelIdeal.ScSide

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

variable {F : FTy → Type} [FloatOps F] [∀ e, Nonempty (Elt F e)]

/-- Lanes `[16·k, 16·k + 16)` of a 128-lane buffer. -/
abbrev grp (k : Nat) (hk : k < 8) : Rect S128 :=
  Rect.unit (s := S128) ![16 * k] S16.size (Rect.inb₁ (by show 16 * k + 16 ≤ 128; omega))

/-- One group's sum, as the kernel's text spells it. -/
def sumPay (a b : Vec F S16 .f32) (hc : S16.ShapeCasts S16) : FVec F S16 .f32 :=
  shapeCast S16 (addf (shapeCast S16 a hc) (shapeCast S16 b hc)) hc

theorem sumPay_apply (a b : Vec F S16 .f32) (hc : S16.ShapeCasts S16) (x : S16.Idx) :
    sumPay a b hc x = FloatOps.addf (a x) (b x) := congrFun (add_vec a b hc hc hc) x

/-- The writes into the first bias scratch, last first: the gathered user biases, then `k` groups' sums. -/
def biasList (U I : S128.Idx → Elt F .f32) (hc : S16.ShapeCasts S16) : (k : Nat) → k ≤ 8 → List (View.Piece (Elt F) S128 .f32)
  | 0, _ => [⟨Rect.whole S128, U⟩]
  | k + 1, h =>
      ⟨grp k (by omega), sumPay ((sUb : Memref sig .scVector .vmem S128 .f32).view.readCov (biasList U I hc k (by omega)) (grp k (by omega)).toLoadRect)
        ((sIb : Memref sig .scVector .vmem S128 .f32).view.readCov [⟨Rect.whole S128, I⟩] (grp k (by omega)).toLoadRect) hc⟩ :: biasList U I hc k (by omega)

theorem grp_idx (k : Nat) (hk : k < 8) (x : S16.Idx) : (((grp k hk).toLoadRect.idx x) 0).val = 16 * k + (x 0).val := by
  show 16 * k + 1 * (x 0).val = _; omega

theorem not_mem_grp {k : Nat} {hk : k < 8} {y : S128.Idx} (h : y ∉ (grp k hk).set) : (y 0).val < 16 * k ∨ 16 * k + 16 ≤ (y 0).val := by
  by_contra hc
  apply h
  rw [Rect.mem_set_unit]
  intro a
  match a with
  | ⟨0, _⟩ => exact ⟨by show 16 * k ≤ (y 0).val; omega, by show (y 0).val < 16 * k + 16; omega⟩

theorem biasList_read (U I : S128.Idx → Elt F .f32) (hc : S16.ShapeCasts S16) :
    ∀ (k : Nat) (hk : k ≤ 8) (f : ((sUb : Memref sig .scVector .vmem S128 .f32)).view.ty.Contents (Elt F)) (y : S128.Idx),
      (sUb : Memref sig .scVector .vmem S128 .f32).view.read (Elt F) ((sUb : Memref sig .scVector .vmem S128 .f32).view.writes (Elt F) f (biasList U I hc k hk)) y
        = if (y 0).val < 16 * k then FloatOps.addf (U y) (I y) else U y := by
  intro k
  induction k with
  | zero =>
    intro hk f y
    show (sUb : Memref sig .scVector .vmem S128 .f32).view.read (Elt F) ((sUb : Memref sig .scVector .vmem S128 .f32).view.writes (Elt F) f [⟨Rect.whole S128, U⟩]) y = _
    rw [read_writes_whole, if_neg (by omega)]
  | succ k ih =>
    intro hk f y
    have hk' : k < 8 := by omega
    show (sUb : Memref sig .scVector .vmem S128 .f32).view.read (Elt F) ((sUb : Memref sig .scVector .vmem S128 .f32).view.writes (Elt F) f
      (⟨grp k hk', sumPay ((sUb : Memref sig .scVector .vmem S128 .f32).view.readCov (biasList U I hc k (by omega)) (grp k hk').toLoadRect)
        ((sIb : Memref sig .scVector .vmem S128 .f32).view.readCov [⟨Rect.whole S128, I⟩] (grp k hk').toLoadRect) hc⟩ :: biasList U I hc k (by omega))) y = _
    by_cases hy : y ∈ (grp k hk').set
    · obtain ⟨x, rfl⟩ := (grp k hk').exists_idx_of_mem hy
      refine (View.read_writes_cons_emb _ f (grp k hk') _ _ x).trans ?_
      rw [sumPay_apply]
      have hx := grp_idx k hk' x
      have hx16 : (x 0).val < 16 := (x 0).isLt
      have hU : (sUb : Memref sig .scVector .vmem S128 .f32).view.readCov (biasList U I hc k (by omega)) (grp k hk').toLoadRect x = U ((grp k hk').toLoadRect.idx x) := by
        show (sUb : Memref sig .scVector .vmem S128 .f32).view.read (Elt F) ((sUb : Memref sig .scVector .vmem S128 .f32).view.writes (Elt F) (sUb : Memref sig .scVector .vmem S128 .f32).view.junk (biasList U I hc k (by omega))) ((grp k hk').toLoadRect.idx x) = _
        rw [ih, if_neg (by omega)]
      have hI : (sIb : Memref sig .scVector .vmem S128 .f32).view.readCov [⟨Rect.whole S128, I⟩] (grp k hk').toLoadRect x = I ((grp k hk').toLoadRect.idx x) := by
        show (sIb : Memref sig .scVector .vmem S128 .f32).view.read (Elt F) ((sIb : Memref sig .scVector .vmem S128 .f32).view.writes (Elt F) (sIb : Memref sig .scVector .vmem S128 .f32).view.junk [⟨Rect.whole S128, I⟩]) ((grp k hk').toLoadRect.idx x) = _
        rw [read_writes_whole]
      rw [hU, hI, if_pos (by omega)]
    · rw [View.writes_cons, View.read_slice_write_of_not_mem (grp k hk') _ _ _ (by rw [Rect.map_emb_univ]; exact hy), ih]
      rcases not_mem_grp hy with h | h
      · rw [if_pos h, if_pos (by omega)]
      · rw [if_neg (by omega), if_neg (by omega)]

theorem bias_final (U I : S128.Idx → Elt F .f32) (hc : S16.ShapeCasts S16)
    (f : ((sUb : Memref sig .scVector .vmem S128 .f32)).view.ty.Contents (Elt F)) (y : S128.Idx) :
    (sUb : Memref sig .scVector .vmem S128 .f32).view.read (Elt F) ((sUb : Memref sig .scVector .vmem S128 .f32).view.writes (Elt F) f (biasList U I hc 8 (Nat.le_refl 8))) y = FloatOps.addf (U y) (I y) := by
  rw [biasList_read]
  exact if_pos (show (y 0).val < 16 * 8 from (y 0).isLt)

variable (m : (ℓ : Loc nD τ sig) → Buf (Elt F) ℓ) (d : Dev nD) (L : grid2.Coords)

/-- The tile's entries of the bias result are the bias row's. -/
theorem bias_ok (hu : ∀ j, (m (tcLoc d main_arg0) j).toNat ≤ 999999) (hi : ∀ j, (m (tcLoc d main_arg1) j).toNat ≤ 999999)
    (b4 : FVec F Cert.Packed.SFlat .f32) (h4 : FlatOf (m (tcLoc d main_arg4)) b4)
    (b5 : FVec F Cert.Packed.SFlat .f32) (h5 : FlatOf (m (tcLoc d main_arg5)) b5)
    (cU : Buf (Elt F) ((V d (cV L) (sV L)).loc cc2_scratch0)) (hcU : ∀ y, cU y = m (tcLoc d main_arg0) ((uSl L).view.emb y))
    (cI : Buf (Elt F) ((V d (cV L) (sV L)).loc cc2_scratch1)) (hcI : ∀ y, cI y = m (tcLoc d main_arg1) ((iSl L).view.emb y))
    (hg : S1000000.Gathers 0 S128) (hn : S128.numel = S128.size hg.axis')
    (hin3 : ∀ x, ((sUid : Memref sig .scVector .vmem S128 .i32).view.read (Elt F) cU x).toNat < S1000000.size hg.axis)
    (hin4 : ∀ x, ((sIid : Memref sig .scVector .vmem S128 .i32).view.read (Elt F) cI x).toNat < S1000000.size hg.axis)
    (inb : ∀ a, (![0] : Fin 1 → Nat) a + S1000000.size a ≤ S1000000.size a)
    (hc : S16.ShapeCasts S16) (s6 : Buf (Elt F) ((V d (cV L) (sV L)).loc cc2_scratch6)) (f2 : Buf (Elt F) (tcLoc d main_v6_2)) :
    ∀ i ∈ (o2Sl L).view.set,
      ((o2Sl L).view.writes (Elt F) f2 [⟨Rect.whole S128, ReadAs.same.apply (View.read (Elt F) (sUb : Memref sig .scVector .vmem S128 .f32).view ((sUb : Memref sig .scVector .vmem S128 .f32).view.writes (Elt F) s6
        (biasList
          (SparseCore.gatherPayload hg (View.read (Elt F) ((bUW : Memref sig .scVector .hbm S1000000 .f32).slice (Rect.unit (s := S1000000) ![0] S1000000.size inb) (fun _ => rfl)).view b4) (SparseCore.rows ((sUid : Memref sig .scVector .vmem S128 .i32).view.read (Elt F) cU) hn hin3))
          (SparseCore.gatherPayload hg (View.read (Elt F) ((bIW : Memref sig .scVector .hbm S1000000 .f32).slice (Rect.unit (s := S1000000) ![0] S1000000.size inb) (fun _ => rfl)).view b5) (SparseCore.rows ((sIid : Memref sig .scVector .vmem S128 .i32).view.read (Elt F) cI) hn hin4))
          hc 8 (Nat.le_refl 8))))⟩]) i
      = biasRow (m (tcLoc d main_arg0)) (m (tcLoc d main_arg1)) (m (tcLoc d main_arg4)) (m (tcLoc d main_arg5)) i := by
  intro i hi'
  obtain ⟨y, -, rfl⟩ := Finset.mem_map.mp hi'
  refine Eq.trans ((View.read_apply (v := (o2Sl L).view) _ y).trans (cast_eq _ _)).symm ?_
  rw [read_writes_whole]
  show (sUb : Memref sig .scVector .vmem S128 .f32).view.read (Elt F) _ y = _
  rw [bias_final]
  -- the entry of the id arrays this lane serves
  have hju : (o2Sl L).view.emb y = (uSl L).view.emb y := by
    funext a
    match a with
    | ⟨0, _⟩ => exact Fin.ext ((o2Sl_emb L y).trans (uSl_emb L y).symm)
  have hji : (o2Sl L).view.emb y = (iSl L).view.emb y := by
    funext a
    match a with
    | ⟨0, _⟩ => exact Fin.ext ((o2Sl_emb L y).trans (iSl_emb L y).symm)
  have hidu := hu ((uSl L).view.emb y)
  have hidi := hi ((iSl L).view.emb y)
  have hk : ∀ pf, (ix1 ((y 0).cast pf) : S128.Idx) = y := fun _ => by
    funext a
    match a with
    | ⟨0, _⟩ => rfl
  have hfull : ∀ z : S1000000.Idx, (((bUW : Memref sig .scVector .hbm S1000000 .f32).slice (Rect.unit (s := S1000000) ![0] S1000000.size inb) (fun _ => rfl)).view.emb z = z) ∧ (((bIW : Memref sig .scVector .hbm S1000000 .f32).slice (Rect.unit (s := S1000000) ![0] S1000000.size inb) (fun _ => rfl)).view.emb z = z) := fun z =>
    ⟨by funext a; match a with | ⟨0, _⟩ => exact Fin.ext (by show 0 + 1 * _ = _; omega),
     by funext a; match a with | ⟨0, _⟩ => exact Fin.ext (by show 0 + 1 * _ = _; omega)⟩
  rw [gather1_apply hg _ _ y (ix1 (rowOf (m (tcLoc d main_arg0) ((uSl L).view.emb y))))
      (by
        show (rowOf (m (tcLoc d main_arg0) ((uSl L).view.emb y))).val = _
        refine Eq.symm ((rows_val _ hn hin3 (y 0)).trans ?_)
        rw [hk]
        show (cU y).toNat = _
        rw [hcU y]
        exact (Cert.Packed.rowOf_val hidu).symm),
    gather1_apply hg _ _ y (ix1 (rowOf (m (tcLoc d main_arg1) ((iSl L).view.emb y))))
      (by
        show (rowOf (m (tcLoc d main_arg1) ((iSl L).view.emb y))).val = _
        refine Eq.symm ((rows_val _ hn hin4 (y 0)).trans ?_)
        rw [hk]
        show (cI y).toNat = _
        rw [hcI y]
        exact (Cert.Packed.rowOf_val hidi).symm)]
  rw [show View.read (Elt F) ((bUW : Memref sig .scVector .hbm S1000000 .f32).slice (Rect.unit (s := S1000000) ![0] S1000000.size inb) (fun _ => rfl)).view b4 (ix1 (rowOf (m (tcLoc d main_arg0) ((uSl L).view.emb y))))
        = b4 (ix1 (rowOf (m (tcLoc d main_arg0) ((uSl L).view.emb y)))) from
      ((View.read_apply _ _).trans (cast_eq _ _)).trans (congrArg b4 (hfull _).1),
    show View.read (Elt F) ((bIW : Memref sig .scVector .hbm S1000000 .f32).slice (Rect.unit (s := S1000000) ![0] S1000000.size inb) (fun _ => rfl)).view b5 (ix1 (rowOf (m (tcLoc d main_arg1) ((iSl L).view.emb y))))
        = b5 (ix1 (rowOf (m (tcLoc d main_arg1) ((iSl L).view.emb y)))) from
      ((View.read_apply _ _).trans (cast_eq _ _)).trans (congrArg b5 (hfull _).2),
    h4, h5]
  show _ = FloatOps.addf (m (tcLoc d main_arg4) (ix2 (rowOf (m (tcLoc d main_arg0) ((o2Sl L).view.emb y))) 0))
    (m (tcLoc d main_arg5) (ix2 (rowOf (m (tcLoc d main_arg1) ((o2Sl L).view.emb y))) 0))
  rw [← hju, show (iSl L).view.emb y = (o2Sl L).view.emb y from hji.symm]

end Cert.KernelIdeal.ScSide

end
-- ==== Proof.ScSideBody.lean ====
/-
  One tile's task, proved once at a symbolic place, with the values it leaves.

  The tile copies its 128 user ids and item ids into two scratch lists (two copies, each waited for on its own
  semaphore), computes for every id the index of the packed row that holds its table row — sixteen lanes at a time, into
  two more lists —, and starts four indirect gathers, each on a semaphore of its own: the packed user rows and item rows
  its index lists name, and the user and item biases its id lists name. Every index is in range: an id is below a
  million by the precondition, and its packed-row index is then below 253952 (the word identity). Nothing touches a
  gather's source, list or destination between its start and its wait. After the first gather's wait the packed user
  rows go out to the tile's rows of the first result, after the second the item rows to the second result; after the
  last two the item biases are added into the user biases, sixteen lanes at a time, and the sums go out to the tile's
  entries of the third result. What the three results then hold at the tile's rows is read off the run: the packed row
  each id names (hence, on the quarter the id selects, the id's embedding row) and the two biases' sum.
-/
import proofs.«203700_g68710886802180_cont_9to1c4b_800_29_alg».proof.Proof.ScSideTile
import proofs.«203700_g68710886802180_cont_9to1c4b_800_29_alg».proof.Proof.Gen.KernelIdeal.Skeleton
import Idealize.ShloMosaic.Lib.SparseCore.Ops
import Idealize.ShloMosaic.Lib.SparseCore.Stream
import Idealize.ShloMosaic.Lib.Writes
import proofs.«203700_g68710886802180_cont_9to1c4b_800_29_alg».proof.Proof.ScSideWords
import proofs.«203700_g68710886802180_cont_9to1c4b_800_29_alg».proof.Proof.ScSideVals
import proofs.«203700_g68710886802180_cont_9to1c4b_800_29_alg».proof.Proof.ScSideBias

noncomputable section

namespace Cert.KernelIdeal.ScSide

open Cert.KernelIdeal Cert.KernelIdeal.Gen Cert.KernelIdeal.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid2.Coords)

set_option maxHeartbeats 3200000 in
theorem tile_body (hF : (K (F := F)).Facts)
    (hu : ∀ j, (m (tcLoc d main_arg0) j).toNat ≤ 999999) (hi : ∀ j, (m (tcLoc d main_arg1) j).toNat ≤ 999999)
    (q : PosShare TreeShare) (O : CellTallies nD τ sig (HIx 1)) (W : Waits sig (HIx 1)) (hO : ∀ g, O g none = 0) :
    iprop(levAts (K (F := F)).L (K (F := F)).lev ∗ emp ∗ tileIn m d L q
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc2__sc_gather L tUW (Memref.isWhole_whole _) tIW (Memref.isWhole_whole _) aUW (Memref.isWhole_whole _) aIW (Memref.isWhole_whole _) bUW (Memref.isWhole_whole _) bIW (Memref.isWhole_whole _) o0W (Memref.isWhole_whole _) o1W (Memref.isWhole_whole _) o2W (Memref.isWhole_whole _) sUid (Memref.isWhole_whole _) sIid (Memref.isWhole_whole _) sUt (Memref.isWhole_whole _) sIt (Memref.isWhole_whole _) sUw (Memref.isWhole_whole _) sIw (Memref.isWhole_whole _) sUb (Memref.isWhole_whole _) sIb (Memref.isWhole_whole _) cc2_scratch8 cc2_scratch9 cc2_scratch10 cc2_scratch11 cc2_scoped0 cc2_scoped1 cc2_scoped2 cc2_scoped3 cc2_scoped4)
          fun _ => iprop(tileOut m d L ∗ scopedBufs (V d (cV L) (sV L)) ∗ scopedSems0 (V d (cV L) (sV L))
            ∗ ∃ W', ⌜∀ p ∈ W', p ∈ W ∨ p.2 = none⌝ ∗ owes (V d (cV L) (sV L)) O W') := by
  simp only [cc2__sc_gather_eq_skeleton]; unfold cc2__sc_gather_skel
  rw [(K (F := F)).scopedBufs_V hF d (cV L) (sV L), SparseCore.Cfg.scopedSems0_V (Val := Elt F) d (cV L) (sV L), ownSems0_V, ownBufs_V]
  unfold tileIn
  iintro ⟨#Hlv, -, ⟨⟨%w1, %hw1, HtU⟩, ⟨%w3, %hw3, HtI⟩, HaU, HaI, ⟨%b4, %h4, HbU⟩, ⟨%b5, %h5, HbI⟩, ⟨%f0, Ho0⟩, ⟨%f1, Ho1⟩, ⟨%f2, Ho2⟩⟩,
    ⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, Hbufs⟩, ⟨Hc0, Hc1, Hc2, Hc3, Hc4, Hc5, Hc6, Hc7, Hc8, Hsems⟩, HO⟩
  ihave Hmw := ((K (F := F)).mayWaits_none (thr := (V d (cV L) (sV L))) hO) $$ Hlv
  ihave HtU := (Entails.of_eq (pts_tUW (F := F) d L _ _).symm) $$ HtU
  ihave HtI := (Entails.of_eq (pts_tIW (F := F) d L _ _).symm) $$ HtI
  ihave HbU := (Entails.of_eq (pts_bUW (F := F) d L _ _).symm) $$ HbU
  ihave HbI := (Entails.of_eq (pts_bIW (F := F) d L _ _).symm) $$ HbI
  ihave HaU := (Entails.of_eq (pts_uSl (F := F) d L _).symm) $$ HaU
  ihave HaI := (Entails.of_eq (pts_iSl (F := F) d L _).symm) $$ HaI
  ihave Ho0 := (Entails.of_eq (pts_o0Sl (F := F) d L _).symm) $$ Ho0
  ihave Ho1 := (Entails.of_eq (pts_o1Sl (F := F) d L _).symm) $$ Ho1
  ihave Ho2 := (Entails.of_eq (pts_o2Sl (F := F) d L _).symm) $$ Ho2
  ihave Hs0 := (Entails.of_eq (pts_sUid (F := F) d L _).symm) $$ Hs0
  ihave Hs1 := (Entails.of_eq (pts_sIid (F := F) d L _).symm) $$ Hs1
  ihave Hs2 := (Entails.of_eq (pts_sUt (F := F) d L _).symm) $$ Hs2
  ihave Hs3 := (Entails.of_eq (pts_sIt (F := F) d L _).symm) $$ Hs3
  ihave Hs4 := (Entails.of_eq (pts_sUw (F := F) d L _).symm) $$ Hs4
  ihave Hs5 := (Entails.of_eq (pts_sIw (F := F) d L _).symm) $$ Hs5
  ihave Hs6 := (Entails.of_eq (pts_sUb (F := F) d L _).symm) $$ Hs6
  ihave Hs7 := (Entails.of_eq (pts_sIb (F := F) d L _).symm) $$ Hs7
  sl_exec
  -- what the two id scratches hold after their copies: the tile's entries of the id arrays
  have hcU : ∀ y, (View.write (Elt F) (sUid : Memref sig .scVector .vmem S128 .i32).view s0 (tile_body.sl.dma0 m d L) Finset.univ) y = m (tcLoc d main_arg0) ((uSl L).view.emb y) := by
    intro y
    rw [show View.write (Elt F) (sUid : Memref sig .scVector .vmem S128 .i32).view s0 (tile_body.sl.dma0 m d L) Finset.univ = tile_body.sl.dma0 m d L from View.write_whole_univ _ _ _]
    exact (View.read_apply _ _).trans (cast_eq _ _)
  have hcI : ∀ y, (View.write (Elt F) (sIid : Memref sig .scVector .vmem S128 .i32).view s1 (tile_body.sl.dma0_1 m d L) Finset.univ) y = m (tcLoc d main_arg1) ((iSl L).view.emb y) := by
    intro y
    rw [show View.write (Elt F) (sIid : Memref sig .scVector .vmem S128 .i32).view s1 (tile_body.sl.dma0_1 m d L) Finset.univ = tile_body.sl.dma0_1 m d L from View.write_whole_univ _ _ _]
    exact (View.read_apply _ _).trans (cast_eq _ _)
  -- the packed-row index list of the user ids: lane by lane the index word of the id
  have hT : ∀ y, (sUt : Memref sig .scVector .vmem S128 .i32).view.read (Elt F) ((sUt : Memref sig .scVector .vmem S128 .i32).view.writes (Elt F) (sUt : Memref sig .scVector .vmem S128 .i32).view.junk (tile_body.sl.Hs2_8 m d L s0)) y
      = tidW ((View.write (Elt F) (sUid : Memref sig .scVector .vmem S128 .i32).view s0 (tile_body.sl.dma0 m d L) Finset.univ) y) := by
    intro y
    refine View.read_writes_apply_of_pieces (Val := Elt F) (sUt : Memref sig .scVector .vmem S128 .i32).view (sUt : Memref sig .scVector .vmem S128 .i32).view.junk (fun y => tidW ((View.write (Elt F) (sUid : Memref sig .scVector .vmem S128 .i32).view s0 (tile_body.sl.dma0 m d L) Finset.univ) y)) _ ?_ y (View.cover_of_tiled (s := S128) (tile_body.sl.Hs2_8 m d L s0) S16.size rfl y)
    intro p hp x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    exact absurd hp (List.not_mem_nil)
  have hin1 : ∀ x, ((sUt : Memref sig .scVector .vmem S128 .i32).view.read (Elt F) ((sUt : Memref sig .scVector .vmem S128 .i32).view.writes (Elt F) (sUt : Memref sig .scVector .vmem S128 .i32).view.junk (tile_body.sl.Hs2_8 m d L s0)) x).toNat < S253952x128.size gathers_S253952x128_S128x128.axis := by
    intro x
    rw [hT x]
    exact tidW_lt _ (by rw [hcU]; exact hu _)
  sl_exec
  generalize hcT : (sIt : Memref sig .scVector .vmem S128 .i32).view.writes (Elt F) (sIt : Memref sig .scVector .vmem S128 .i32).view.junk _ = cT
  have hTI : ∀ y, (sIt : Memref sig .scVector .vmem S128 .i32).view.read (Elt F) cT y = tidW ((View.write (Elt F) (sIid : Memref sig .scVector .vmem S128 .i32).view s1 (tile_body.sl.dma0_1 m d L) Finset.univ) y) := by
    intro y
    rw [← hcT]
    refine View.read_writes_apply_of_pieces (Val := Elt F) (sIt : Memref sig .scVector .vmem S128 .i32).view (sIt : Memref sig .scVector .vmem S128 .i32).view.junk (fun y => tidW ((View.write (Elt F) (sIid : Memref sig .scVector .vmem S128 .i32).view s1 (tile_body.sl.dma0_1 m d L) Finset.univ) y)) _ ?hG y ?hcov
    case hcov => exact View.cover_of_tiled (s := S128) _ S16.size rfl y
    intro p hp x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    exact absurd hp (List.not_mem_nil)
  have hin2 : ∀ x, ((sIt : Memref sig .scVector .vmem S128 .i32).view.read (Elt F) cT x).toNat < S253952x128.size gathers_S253952x128_S128x128.axis := by
    intro x
    rw [hTI x]
    exact tidW_lt _ (by rw [hcI]; exact hi _)
  sl_exec
  have hin3 : ∀ x, ((sUid : Memref sig .scVector .vmem S128 .i32).view.read (Elt F) (View.write (Elt F) (sUid : Memref sig .scVector .vmem S128 .i32).view s0 (tile_body.sl.dma0 m d L) Finset.univ) x).toNat < S1000000.size gathers_S1000000_S128.axis := by
    intro x
    have h := hu ((uSl L).view.emb x)
    rw [← hcU x] at h
    exact Nat.lt_of_le_of_lt h (by decide)
  sl_exec
  have hin4 : ∀ x, ((sIid : Memref sig .scVector .vmem S128 .i32).view.read (Elt F) (View.write (Elt F) (sIid : Memref sig .scVector .vmem S128 .i32).view s1 (tile_body.sl.dma0_1 m d L) Finset.univ) x).toNat < S1000000.size gathers_S1000000_S128.axis := by
    intro x
    have h := hi ((iSl L).view.emb x)
    rw [← hcI x] at h
    exact Nat.lt_of_le_of_lt h (by decide)
  sl_exec
  sl_step
  unfold tileOut
  isplitl [HaU HaI Ho0 Ho1 Ho2]
  · isplitl [HaU]
    · iapply (Entails.of_eq (pts_uSl (F := F) d L _)); iexact HaU
    isplitl [HaI]
    · iapply (Entails.of_eq (pts_iSl (F := F) d L _)); iexact HaI
    isplitl [Ho0]
    · iexists ((o0Sl L).view.writes (Elt F) f0 [⟨Rect.whole S128x128, tile_body.sl.dma0_2 m d L w1 s0 s4 hin1⟩]); isplitr
      · ipureintro; exact rowsOK_user m d L hu w1 hw1 _ (fun y => (hT y).trans (congrArg tidW (hcU y))) _ _ hin1 _ s4 f0
      · iapply (Entails.of_eq (pts_o0Sl (F := F) d L _)); iexact Ho0
    isplitl [Ho1]
    · iexists ((o1Sl L).view.writes (Elt F) f1 [⟨Rect.whole S128x128, tile_body.sl.dma0_3 d L w3 s5 cT hin2⟩]); isplitr
      · ipureintro; exact rowsOK_item m d L hi w3 hw3 cT (fun y => (hTI y).trans (congrArg tidW (hcI y))) _ _ hin2 _ s5 f1
      · iapply (Entails.of_eq (pts_o1Sl (F := F) d L _)); iexact Ho1
    · have hV2 : ∀ i ∈ (o2Sl L).view.set, ((o2Sl L).view.writes (Elt F) f2 [⟨Rect.whole S128, tile_body.sl.dma32 m d L b4 b5 s0 s1 s6 hin3 hin4⟩]) i
          = biasRow (m (tcLoc d main_arg0)) (m (tcLoc d main_arg1)) (m (tcLoc d main_arg4)) (m (tcLoc d main_arg5)) i := bias_ok m d L hu hi b4 h4 b5 h5 (View.write (Elt F) (sUid : Memref sig .scVector .vmem S128 .i32).view s0 (tile_body.sl.dma0 m d L) Finset.univ) hcU (View.write (Elt F) (sIid : Memref sig .scVector .vmem S128 .i32).view s1 (tile_body.sl.dma0_1 m d L) Finset.univ) hcI gathers_S1000000_S128 (by decide) hin3 hin4 inb_S1000000_S1000000_0 shapeCasts_S16_S16 s6 f2
      iapply (Entails.of_eq ((pointsTo_congr hV2).trans (pts_o2Sl (F := F) d L _))); iexact Ho2
  isplitl [Hs0 Hs1 Hs2 Hs3 Hs4 Hs5 Hs6 Hs7 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    iexact Hbufs
  isplitl [Hc0 Hc1 Hc2 Hc3 Hc4 Hc5 Hc6 Hc7 Hc8 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hsems
  iexists _; isplitr
  rotate_left
  · iexact HO
  · ipureintro; intro p hp
    simp only [Finset.mem_insert] at hp
    rcases hp with rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inl hp

/-! ## The launch theorem's obligation -/

theorem defs₀_vector (c : Fin τ.nSC) (s : Fin τ.nSub) :
    defs₀ (F := F) (.scVector c s) 2 ()
      = SparseCore.onTile hcore2 hsub2 (fun c s => cc2__sc_gather (coordsV c s) tUW (Memref.isWhole_whole _) tIW (Memref.isWhole_whole _) aUW (Memref.isWhole_whole _) aIW (Memref.isWhole_whole _) bUW (Memref.isWhole_whole _) bIW (Memref.isWhole_whole _) o0W (Memref.isWhole_whole _) o1W (Memref.isWhole_whole _) o2W (Memref.isWhole_whole _) sUid (Memref.isWhole_whole _) sIid (Memref.isWhole_whole _) sUt (Memref.isWhole_whole _) sIt (Memref.isWhole_whole _) sUw (Memref.isWhole_whole _) sIw (Memref.isWhole_whole _) sUb (Memref.isWhole_whole _) sIb (Memref.isWhole_whole _) cc2_scratch8 cc2_scratch9 cc2_scratch10 cc2_scratch11 cc2_scoped0 cc2_scoped1 cc2_scoped2 cc2_scoped3 cc2_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, from its operands and its own storage to its results. -/
theorem tileObl (hF : (K (F := F)).Facts)
    (hu : ∀ (d : Dev nD) j, (m (tcLoc d main_arg0) j).toNat ≤ 999999) (hi : ∀ (d : Dev nD) j, (m (tcLoc d main_arg1) j).toNat ≤ 999999) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  rw [P_go, P_td, P_x]
  exact (tile_body m d (coordsV ⟨_, hc.1⟩ ⟨_, hc.2⟩) hF (hu d) (hi d) _ O W hO).trans (wp_mono frame _ _ fun _ => obl_post)

end Cert.KernelIdeal.ScSide
end
-- ==== Proof.ScSideTileW.lean ====
/-
  One tile of the SparseCore call at a symbolic place: its thread and semaphore cells, the arrays and scratch buffers
  as the kernel's text addresses them, how a tile's part of an array reads through those addresses, and the tile's own
  storage (nine copy semaphores at zero, eight scratch buffers at some contents) taken out of what the launch hands it.
-/
import proofs.«203700_g68710886802180_cont_9to1c4b_800_29_alg».proof.Proof.ScSideDefsW

noncomputable section

namespace Cert.Kernel.ScSide

open Cert.Kernel Cert.Kernel.Gen Cert.Kernel.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

variable {F : FTy → Type}

local notation "𝕄" => MT nD τ sig (HIx 1) (Elt F) ℕ UU ℕ

/-! ## The thread, its cells, the memrefs -/

abbrev cV (L : grid2.Coords) : Fin τ.nSC := (L 0).castLE hcore2
abbrev sV (L : grid2.Coords) : Fin τ.nSub := (L 1).castLE hsub2
abbrev cellV (d : Dev nD) (L : grid2.Coords) (x : DmaSems sig S_) : GSem nD τ sig := (V d (cV L) (sV L), .dma x.sem)

abbrev tUW : Memref sig .scVector .hbm S253952x128 .f32 := Memref.whole main_v1_scv
abbrev tIW : Memref sig .scVector .hbm S253952x128 .f32 := Memref.whole main_v3_scv
abbrev aUW : Memref sig .scVector .hbm S4096 .i32 := Memref.whole main_arg0_scv
abbrev aIW : Memref sig .scVector .hbm S4096 .i32 := Memref.whole main_arg1_scv
abbrev bUW : Memref sig .scVector .hbm S1000000 .f32 := Memref.whole main_v4_scv
abbrev bIW : Memref sig .scVector .hbm S1000000 .f32 := Memref.whole main_v5_scv
abbrev o0W : Memref sig .scVector .hbm S4096x128 .f32 := Memref.whole main_v6_0_scv
abbrev o1W : Memref sig .scVector .hbm S4096x128 .f32 := Memref.whole main_v6_1_scv
abbrev o2W : Memref sig .scVector .hbm S4096 .f32 := Memref.whole main_v6_2_scv
abbrev sUid : Memref sig .scVector .vmem S128 .i32 := Memref.whole cc2_scratch0
abbrev sIid : Memref sig .scVector .vmem S128 .i32 := Memref.whole cc2_scratch1
abbrev sUt : Memref sig .scVector .vmem S128 .i32 := Memref.whole cc2_scratch2
abbrev sIt : Memref sig .scVector .vmem S128 .i32 := Memref.whole cc2_scratch3
abbrev sUw : Memref sig .scVector .vmem S128x128 .f32 := Memref.whole cc2_scratch4
abbrev sIw : Memref sig .scVector .vmem S128x128 .f32 := Memref.whole cc2_scratch5
abbrev sUb : Memref sig .scVector .vmem S128 .f32 := Memref.whole cc2_scratch6
abbrev sIb : Memref sig .scVector .vmem S128 .f32 := Memref.whole cc2_scratch7
abbrev uSl (L : grid2.Coords) : Memref sig .scVector .hbm S128 .i32 := (aUW).slice (idRect L) (fun _ => rfl)
abbrev iSl (L : grid2.Coords) : Memref sig .scVector .hbm S128 .i32 := (aIW).slice (idRect L) (fun _ => rfl)
abbrev o0Sl (L : grid2.Coords) : Memref sig .scVector .hbm S128x128 .f32 := (o0W).slice (rowRect L) (fun _ => rfl)
abbrev o1Sl (L : grid2.Coords) : Memref sig .scVector .hbm S128x128 .f32 := (o1W).slice (rowRect L) (fun _ => rfl)
abbrev o2Sl (L : grid2.Coords) : Memref sig .scVector .hbm S128 .f32 := (o2W).slice (idRect L) (fun _ => rfl)

variable (d : Dev nD) (L : grid2.Coords)

/-! ## A tile's part of an array, through the kernel's addresses -/

theorem set_uSl : (uSl L).view.set = (idRect L).set := by
  show ((View.whole (main_arg0_scv : Ref sig .scVector)).slice (idRect L)).set = _
  rw [View.set_slice]; exact Finset.map_refl
theorem pts_uSl (f : Buf (Elt F) (tcLoc d main_arg0)) :
    ((uSl L).view.loc (V d (cV L) (sV L)) ↦[(uSl L).view.set]{fullShare} f : sProp 𝕄) = tcLoc d main_arg0 ↦[(idRect L).set]{fullShare} f := by
  rw [set_uSl]
theorem set_iSl : (iSl L).view.set = (idRect L).set := by
  show ((View.whole (main_arg1_scv : Ref sig .scVector)).slice (idRect L)).set = _
  rw [View.set_slice]; exact Finset.map_refl
theorem pts_iSl (f : Buf (Elt F) (tcLoc d main_arg1)) :
    ((iSl L).view.loc (V d (cV L) (sV L)) ↦[(iSl L).view.set]{fullShare} f : sProp 𝕄) = tcLoc d main_arg1 ↦[(idRect L).set]{fullShare} f := by
  rw [set_iSl]
theorem set_o0Sl : (o0Sl L).view.set = (rowRect L).set := by
  show ((View.whole (main_v6_0_scv : Ref sig .scVector)).slice (rowRect L)).set = _
  rw [View.set_slice]; exact Finset.map_refl
theorem pts_o0Sl (f : Buf (Elt F) (tcLoc d main_v6_0)) :
    ((o0Sl L).view.loc (V d (cV L) (sV L)) ↦[(o0Sl L).view.set]{fullShare} f : sProp 𝕄) = tcLoc d main_v6_0 ↦[(rowRect L).set]{fullShare} f := by
  rw [set_o0Sl]
theorem set_o1Sl : (o1Sl L).view.set = (rowRect L).set := by
  show ((View.whole (main_v6_1_scv : Ref sig .scVector)).slice (rowRect L)).set = _
  rw [View.set_slice]; exact Finset.map_refl
theorem pts_o1Sl (f : Buf (Elt F) (tcLoc d main_v6_1)) :
    ((o1Sl L).view.loc (V d (cV L) (sV L)) ↦[(o1Sl L).view.set]{fullShare} f : sProp 𝕄) = tcLoc d main_v6_1 ↦[(rowRect L).set]{fullShare} f := by
  rw [set_o1Sl]
theorem set_o2Sl : (o2Sl L).view.set = (idRect L).set := by
  show ((View.whole (main_v6_2_scv : Ref sig .scVector)).slice (idRect L)).set = _
  rw [View.set_slice]; exact Finset.map_refl
theorem pts_o2Sl (f : Buf (Elt F) (tcLoc d main_v6_2)) :
    ((o2Sl L).view.loc (V d (cV L) (sV L)) ↦[(o2Sl L).view.set]{fullShare} f : sProp 𝕄) = tcLoc d main_v6_2 ↦[(idRect L).set]{fullShare} f := by
  rw [set_o2Sl]

theorem pts_tUW (q : PosShare TreeShare) (f : Buf (Elt F) (tcLoc d main_v1)) :
    ((tUW).view.loc (V d (cV L) (sV L)) ↦{q} f : sProp 𝕄) = tcLoc d main_v1 ↦{q} f := rfl
theorem pts_tIW (q : PosShare TreeShare) (f : Buf (Elt F) (tcLoc d main_v3)) :
    ((tIW).view.loc (V d (cV L) (sV L)) ↦{q} f : sProp 𝕄) = tcLoc d main_v3 ↦{q} f := rfl
theorem pts_bUW (q : PosShare TreeShare) (f : Buf (Elt F) (tcLoc d main_v4)) :
    ((bUW).view.loc (V d (cV L) (sV L)) ↦{q} f : sProp 𝕄) = tcLoc d main_v4 ↦{q} f := rfl
theorem pts_bIW (q : PosShare TreeShare) (f : Buf (Elt F) (tcLoc d main_v5)) :
    ((bIW).view.loc (V d (cV L) (sV L)) ↦{q} f : sProp 𝕄) = tcLoc d main_v5 ↦{q} f := rfl

theorem pts_sUid (f : Buf (Elt F) ((V d (cV L) (sV L)).loc cc2_scratch0)) :
    ((sUid).view.loc (V d (cV L) (sV L)) ↦{fullShare} f : sProp 𝕄) = (V d (cV L) (sV L)).loc cc2_scratch0 ↦{fullShare} f := rfl
theorem pts_sIid (f : Buf (Elt F) ((V d (cV L) (sV L)).loc cc2_scratch1)) :
    ((sIid).view.loc (V d (cV L) (sV L)) ↦{fullShare} f : sProp 𝕄) = (V d (cV L) (sV L)).loc cc2_scratch1 ↦{fullShare} f := rfl
theorem pts_sUt (f : Buf (Elt F) ((V d (cV L) (sV L)).loc cc2_scratch2)) :
    ((sUt).view.loc (V d (cV L) (sV L)) ↦{fullShare} f : sProp 𝕄) = (V d (cV L) (sV L)).loc cc2_scratch2 ↦{fullShare} f := rfl
theorem pts_sIt (f : Buf (Elt F) ((V d (cV L) (sV L)).loc cc2_scratch3)) :
    ((sIt).view.loc (V d (cV L) (sV L)) ↦{fullShare} f : sProp 𝕄) = (V d (cV L) (sV L)).loc cc2_scratch3 ↦{fullShare} f := rfl
theorem pts_sUw (f : Buf (Elt F) ((V d (cV L) (sV L)).loc cc2_scratch4)) :
    ((sUw).view.loc (V d (cV L) (sV L)) ↦{fullShare} f : sProp 𝕄) = (V d (cV L) (sV L)).loc cc2_scratch4 ↦{fullShare} f := rfl
theorem pts_sIw (f : Buf (Elt F) ((V d (cV L) (sV L)).loc cc2_scratch5)) :
    ((sIw).view.loc (V d (cV L) (sV L)) ↦{fullShare} f : sProp 𝕄) = (V d (cV L) (sV L)).loc cc2_scratch5 ↦{fullShare} f := rfl
theorem pts_sUb (f : Buf (Elt F) ((V d (cV L) (sV L)).loc cc2_scratch6)) :
    ((sUb).view.loc (V d (cV L) (sV L)) ↦{fullShare} f : sProp 𝕄) = (V d (cV L) (sV L)).loc cc2_scratch6 ↦{fullShare} f := rfl
theorem pts_sIb (f : Buf (Elt F) ((V d (cV L) (sV L)).loc cc2_scratch7)) :
    ((sIb).view.loc (V d (cV L) (sV L)) ↦{fullShare} f : sProp 𝕄) = (V d (cV L) (sV L)).loc cc2_scratch7 ↦{fullShare} f := rfl

/-! ## The tile's own storage -/

variable [FloatOps F]

omit [FloatOps F] in
theorem ownSems0_V :
    (ownSems0 (V d (cV L) (sV L)) : sProp 𝕄)
      = iprop(semVal (cellV d L cc2_scratch8) 0 ∗ semVal (cellV d L cc2_scratch9) 0 ∗ semVal (cellV d L cc2_scratch10) 0 ∗ semVal (cellV d L cc2_scratch11) 0 ∗ semVal (cellV d L cc2_scoped0) 0 ∗ semVal (cellV d L cc2_scoped1) 0 ∗ semVal (cellV d L cc2_scoped2) 0 ∗ semVal (cellV d L cc2_scoped3) 0 ∗ semVal (cellV d L cc2_scoped4) 0
          ∗ bigSep ((((((((((ownCells (V d (cV L) (sV L))).erase (cellV d L cc2_scratch8)).erase (cellV d L cc2_scratch9)).erase (cellV d L cc2_scratch10)).erase (cellV d L cc2_scratch11)).erase (cellV d L cc2_scoped0)).erase (cellV d L cc2_scoped1)).erase (cellV d L cc2_scoped2)).erase (cellV d L cc2_scoped3)).erase (cellV d L cc2_scoped4)) fun g => semVal g 0) := by
  unfold SparseCore.Cfg.ownSems0
  rw [SparseCore.bigSep_erase' ((mem_ownCells (g := (cellV d L cc2_scratch8))).mpr ⟨rfl, by show (SemLoc.dma cc2_scratch8.sem : SemLoc sig).isScoped .scVector = true; decide⟩),
    SparseCore.bigSep_erase' (Finset.mem_erase.mpr ⟨fun e => absurd (Prod.mk.inj e).2 (show (SemLoc.dma cc2_scratch9.sem : SemLoc sig) ≠ SemLoc.dma cc2_scratch8.sem by decide), (mem_ownCells (g := (cellV d L cc2_scratch9))).mpr ⟨rfl, by show (SemLoc.dma cc2_scratch9.sem : SemLoc sig).isScoped .scVector = true; decide⟩⟩),
    SparseCore.bigSep_erase' (Finset.mem_erase.mpr ⟨fun e => absurd (Prod.mk.inj e).2 (show (SemLoc.dma cc2_scratch10.sem : SemLoc sig) ≠ SemLoc.dma cc2_scratch9.sem by decide), Finset.mem_erase.mpr ⟨fun e => absurd (Prod.mk.inj e).2 (show (SemLoc.dma cc2_scratch10.sem : SemLoc sig) ≠ SemLoc.dma cc2_scratch8.sem by decide), (mem_ownCells (g := (cellV d L cc2_scratch10))).mpr ⟨rfl, by show (SemLoc.dma cc2_scratch10.sem : SemLoc sig).isScoped .scVector = true; decide⟩⟩⟩),
    SparseCore.bigSep_erase' (Finset.mem_erase.mpr ⟨fun e => absurd (Prod.mk.inj e).2 (show (SemLoc.dma cc2_scratch11.sem : SemLoc sig) ≠ SemLoc.dma cc2_scratch10.sem by decide), Finset.mem_erase.mpr ⟨fun e => absurd (Prod.mk.inj e).2 (show (SemLoc.dma cc2_scratch11.sem : SemLoc sig) ≠ SemLoc.dma cc2_scratch9.sem by decide), Finset.mem_erase.mpr ⟨fun e => absurd (Prod.mk.inj e).2 (show (SemLoc.dma cc2_scratch11.sem : SemLoc sig) ≠ SemLoc.dma cc2_scratch8.sem by decide), (mem_ownCells (g := (cellV d L cc2_scratch11))).mpr ⟨rfl, by show (SemLoc.dma cc2_scratch11.sem : SemLoc sig).isScoped .scVector = true; decide⟩⟩⟩⟩),
    SparseCore.bigSep_erase' (Finset.mem_erase.mpr ⟨fun e => absurd (Prod.mk.inj e).2 (show (SemLoc.dma cc2_scoped0.sem : SemLoc sig) ≠ SemLoc.dma cc2_scratch11.sem by decide), Finset.mem_erase.mpr ⟨fun e => absurd (Prod.mk.inj e).2 (show (SemLoc.dma cc2_scoped0.sem : SemLoc sig) ≠ SemLoc.dma cc2_scratch10.sem by decide), Finset.mem_erase.mpr ⟨fun e => absurd (Prod.mk.inj e).2 (show (SemLoc.dma cc2_scoped0.sem : SemLoc sig) ≠ SemLoc.dma cc2_scratch9.sem by decide), Finset.mem_erase.mpr ⟨fun e => absurd (Prod.mk.inj e).2 (show (SemLoc.dma cc2_scoped0.sem : SemLoc sig) ≠ SemLoc.dma cc2_scratch8.sem by decide), (mem_ownCells (g := (cellV d L cc2_scoped0))).mpr ⟨rfl, by show (SemLoc.dma cc2_scoped0.sem : SemLoc sig).isScoped .scVector = true; decide⟩⟩⟩⟩⟩),
    SparseCore.bigSep_erase' (Finset.mem_erase.mpr ⟨fun e => absurd (Prod.mk.inj e).2 (show (SemLoc.dma cc2_scoped1.sem : SemLoc sig) ≠ SemLoc.dma cc2_scoped0.sem by decide), Finset.mem_erase.mpr ⟨fun e => absurd (Prod.mk.inj e).2 (show (SemLoc.dma cc2_scoped1.sem : SemLoc sig) ≠ SemLoc.dma cc2_scratch11.sem by decide), Finset.mem_erase.mpr ⟨fun e => absurd (Prod.mk.inj e).2 (show (SemLoc.dma cc2_scoped1.sem : SemLoc sig) ≠ SemLoc.dma cc2_scratch10.sem by decide), Finset.mem_erase.mpr ⟨fun e => absurd (Prod.mk.inj e).2 (show (SemLoc.dma cc2_scoped1.sem : SemLoc sig) ≠ SemLoc.dma cc2_scratch9.sem by decide), Finset.mem_erase.mpr ⟨fun e => absurd (Prod.mk.inj e).2 (show (SemLoc.dma cc2_scoped1.sem : SemLoc sig) ≠ SemLoc.dma cc2_scratch8.sem by decide), (mem_ownCells (g := (cellV d L cc2_scoped1))).mpr ⟨rfl, by show (SemLoc.dma cc2_scoped1.sem : SemLoc sig).isScoped .scVector = true; decide⟩⟩⟩⟩⟩⟩),
    SparseCore.bigSep_erase' (Finset.mem_erase.mpr ⟨fun e => absurd (Prod.mk.inj e).2 (show (SemLoc.dma cc2_scoped2.sem : SemLoc sig) ≠ SemLoc.dma cc2_scoped1.sem by decide), Finset.mem_erase.mpr ⟨fun e => absurd (Prod.mk.inj e).2 (show (SemLoc.dma cc2_scoped2.sem : SemLoc sig) ≠ SemLoc.dma cc2_scoped0.sem by decide), Finset.mem_erase.mpr ⟨fun e => absurd (Prod.mk.inj e).2 (show (SemLoc.dma cc2_scoped2.sem : SemLoc sig) ≠ SemLoc.dma cc2_scratch11.sem by decide), Finset.mem_erase.mpr ⟨fun e => absurd (Prod.mk.inj e).2 (show (SemLoc.dma cc2_scoped2.sem : SemLoc sig) ≠ SemLoc.dma cc2_scratch10.sem by decide), Finset.mem_erase.mpr ⟨fun e => absurd (Prod.mk.inj e).2 (show (SemLoc.dma cc2_scoped2.sem : SemLoc sig) ≠ SemLoc.dma cc2_scratch9.sem by decide), Finset.mem_erase.mpr ⟨fun e => absurd (Prod.mk.inj e).2 (show (SemLoc.dma cc2_scoped2.sem : SemLoc sig) ≠ SemLoc.dma cc2_scratch8.sem by decide), (mem_ownCells (g := (cellV d L cc2_scoped2))).mpr ⟨rfl, by show (SemLoc.dma cc2_scoped2.sem : SemLoc sig).isScoped .scVector = true; decide⟩⟩⟩⟩⟩⟩⟩),
    SparseCore.bigSep_erase' (Finset.mem_erase.mpr ⟨fun e => absurd (Prod.mk.inj e).2 (show (SemLoc.dma cc2_scoped3.sem : SemLoc sig) ≠ SemLoc.dma cc2_scoped2.sem by decide), Finset.mem_erase.mpr ⟨fun e => absurd (Prod.mk.inj e).2 (show (SemLoc.dma cc2_scoped3.sem : SemLoc sig) ≠ SemLoc.dma cc2_scoped1.sem by decide), Finset.mem_erase.mpr ⟨fun e => absurd (Prod.mk.inj e).2 (show (SemLoc.dma cc2_scoped3.sem : SemLoc sig) ≠ SemLoc.dma cc2_scoped0.sem by decide), Finset.mem_erase.mpr ⟨fun e => absurd (Prod.mk.inj e).2 (show (SemLoc.dma cc2_scoped3.sem : SemLoc sig) ≠ SemLoc.dma cc2_scratch11.sem by decide), Finset.mem_erase.mpr ⟨fun e => absurd (Prod.mk.inj e).2 (show (SemLoc.dma cc2_scoped3.sem : SemLoc sig) ≠ SemLoc.dma cc2_scratch10.sem by decide), Finset.mem_erase.mpr ⟨fun e => absurd (Prod.mk.inj e).2 (show (SemLoc.dma cc2_scoped3.sem : SemLoc sig) ≠ SemLoc.dma cc2_scratch9.sem by decide), Finset.mem_erase.mpr ⟨fun e => absurd (Prod.mk.inj e).2 (show (SemLoc.dma cc2_scoped3.sem : SemLoc sig) ≠ SemLoc.dma cc2_scratch8.sem by decide), (mem_ownCells (g := (cellV d L cc2_scoped3))).mpr ⟨rfl, by show (SemLoc.dma cc2_scoped3.sem : SemLoc sig).isScoped .scVector = true; decide⟩⟩⟩⟩⟩⟩⟩⟩),
    SparseCore.bigSep_erase' (Finset.mem_erase.mpr ⟨fun e => absurd (Prod.mk.inj e).2 (show (SemLoc.dma cc2_scoped4.sem : SemLoc sig) ≠ SemLoc.dma cc2_scoped3.sem by decide), Finset.mem_erase.mpr ⟨fun e => absurd (Prod.mk.inj e).2 (show (SemLoc.dma cc2_scoped4.sem : SemLoc sig) ≠ SemLoc.dma cc2_scoped2.sem by decide), Finset.mem_erase.mpr ⟨fun e => absurd (Prod.mk.inj e).2 (show (SemLoc.dma cc2_scoped4.sem : SemLoc sig) ≠ SemLoc.dma cc2_scoped1.sem by decide), Finset.mem_erase.mpr ⟨fun e => absurd (Prod.mk.inj e).2 (show (SemLoc.dma cc2_scoped4.sem : SemLoc sig) ≠ SemLoc.dma cc2_scoped0.sem by decide), Finset.mem_erase.mpr ⟨fun e => absurd (Prod.mk.inj e).2 (show (SemLoc.dma cc2_scoped4.sem : SemLoc sig) ≠ SemLoc.dma cc2_scratch11.sem by decide), Finset.mem_erase.mpr ⟨fun e => absurd (Prod.mk.inj e).2 (show (SemLoc.dma cc2_scoped4.sem : SemLoc sig) ≠ SemLoc.dma cc2_scratch10.sem by decide), Finset.mem_erase.mpr ⟨fun e => absurd (Prod.mk.inj e).2 (show (SemLoc.dma cc2_scoped4.sem : SemLoc sig) ≠ SemLoc.dma cc2_scratch9.sem by decide), Finset.mem_erase.mpr ⟨fun e => absurd (Prod.mk.inj e).2 (show (SemLoc.dma cc2_scoped4.sem : SemLoc sig) ≠ SemLoc.dma cc2_scratch8.sem by decide), (mem_ownCells (g := (cellV d L cc2_scoped4))).mpr ⟨rfl, by show (SemLoc.dma cc2_scoped4.sem : SemLoc sig).isScoped .scVector = true; decide⟩⟩⟩⟩⟩⟩⟩⟩⟩)]

omit [FloatOps F] in
theorem ownBufs_V :
    (ownBufs (V d (cV L) (sV L)) : sProp 𝕄)
      = iprop((∃ f, (V d (cV L) (sV L)).loc cc2_scratch0 ↦{fullShare} f) ∗ (∃ f, (V d (cV L) (sV L)).loc cc2_scratch1 ↦{fullShare} f) ∗ (∃ f, (V d (cV L) (sV L)).loc cc2_scratch2 ↦{fullShare} f) ∗ (∃ f, (V d (cV L) (sV L)).loc cc2_scratch3 ↦{fullShare} f) ∗ (∃ f, (V d (cV L) (sV L)).loc cc2_scratch4 ↦{fullShare} f) ∗ (∃ f, (V d (cV L) (sV L)).loc cc2_scratch5 ↦{fullShare} f) ∗ (∃ f, (V d (cV L) (sV L)).loc cc2_scratch6 ↦{fullShare} f) ∗ (∃ f, (V d (cV L) (sV L)).loc cc2_scratch7 ↦{fullShare} f)
          ∗ bigSep (((((((((ownRefs (τ := τ) (.scVector (cV L) (sV L))).erase ((Proc.scVector (cV L) (sV L)).devRef cc2_scratch0)).erase ((Proc.scVector (cV L) (sV L)).devRef cc2_scratch1)).erase ((Proc.scVector (cV L) (sV L)).devRef cc2_scratch2)).erase ((Proc.scVector (cV L) (sV L)).devRef cc2_scratch3)).erase ((Proc.scVector (cV L) (sV L)).devRef cc2_scratch4)).erase ((Proc.scVector (cV L) (sV L)).devRef cc2_scratch5)).erase ((Proc.scVector (cV L) (sV L)).devRef cc2_scratch6)).erase ((Proc.scVector (cV L) (sV L)).devRef cc2_scratch7))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (sV L)) (b := ((Proc.scVector (cV L) (sV L)).devRef cc2_scratch0)) rfl)).trans ?_
  rw [SparseCore.bigSep_erase' (Finset.mem_erase.mpr ⟨fun e => absurd (Proc.devRef_injective _ e) (show (cc2_scratch1 : Ref sig .scVector) ≠ cc2_scratch0 by decide), SparseCore.Cfg.mem_ownRefs_of_owner (p := Proc.scVector (cV L) (sV L)) (b := ((Proc.scVector (cV L) (sV L)).devRef cc2_scratch1)) rfl⟩),
    SparseCore.bigSep_erase' (Finset.mem_erase.mpr ⟨fun e => absurd (Proc.devRef_injective _ e) (show (cc2_scratch2 : Ref sig .scVector) ≠ cc2_scratch1 by decide), Finset.mem_erase.mpr ⟨fun e => absurd (Proc.devRef_injective _ e) (show (cc2_scratch2 : Ref sig .scVector) ≠ cc2_scratch0 by decide), SparseCore.Cfg.mem_ownRefs_of_owner (p := Proc.scVector (cV L) (sV L)) (b := ((Proc.scVector (cV L) (sV L)).devRef cc2_scratch2)) rfl⟩⟩),
    SparseCore.bigSep_erase' (Finset.mem_erase.mpr ⟨fun e => absurd (Proc.devRef_injective _ e) (show (cc2_scratch3 : Ref sig .scVector) ≠ cc2_scratch2 by decide), Finset.mem_erase.mpr ⟨fun e => absurd (Proc.devRef_injective _ e) (show (cc2_scratch3 : Ref sig .scVector) ≠ cc2_scratch1 by decide), Finset.mem_erase.mpr ⟨fun e => absurd (Proc.devRef_injective _ e) (show (cc2_scratch3 : Ref sig .scVector) ≠ cc2_scratch0 by decide), SparseCore.Cfg.mem_ownRefs_of_owner (p := Proc.scVector (cV L) (sV L)) (b := ((Proc.scVector (cV L) (sV L)).devRef cc2_scratch3)) rfl⟩⟩⟩),
    SparseCore.bigSep_erase' (Finset.mem_erase.mpr ⟨fun e => absurd (Proc.devRef_injective _ e) (show (cc2_scratch4 : Ref sig .scVector) ≠ cc2_scratch3 by decide), Finset.mem_erase.mpr ⟨fun e => absurd (Proc.devRef_injective _ e) (show (cc2_scratch4 : Ref sig .scVector) ≠ cc2_scratch2 by decide), Finset.mem_erase.mpr ⟨fun e => absurd (Proc.devRef_injective _ e) (show (cc2_scratch4 : Ref sig .scVector) ≠ cc2_scratch1 by decide), Finset.mem_erase.mpr ⟨fun e => absurd (Proc.devRef_injective _ e) (show (cc2_scratch4 : Ref sig .scVector) ≠ cc2_scratch0 by decide), SparseCore.Cfg.mem_ownRefs_of_owner (p := Proc.scVector (cV L) (sV L)) (b := ((Proc.scVector (cV L) (sV L)).devRef cc2_scratch4)) rfl⟩⟩⟩⟩),
    SparseCore.bigSep_erase' (Finset.mem_erase.mpr ⟨fun e => absurd (Proc.devRef_injective _ e) (show (cc2_scratch5 : Ref sig .scVector) ≠ cc2_scratch4 by decide), Finset.mem_erase.mpr ⟨fun e => absurd (Proc.devRef_injective _ e) (show (cc2_scratch5 : Ref sig .scVector) ≠ cc2_scratch3 by decide), Finset.mem_erase.mpr ⟨fun e => absurd (Proc.devRef_injective _ e) (show (cc2_scratch5 : Ref sig .scVector) ≠ cc2_scratch2 by decide), Finset.mem_erase.mpr ⟨fun e => absurd (Proc.devRef_injective _ e) (show (cc2_scratch5 : Ref sig .scVector) ≠ cc2_scratch1 by decide), Finset.mem_erase.mpr ⟨fun e => absurd (Proc.devRef_injective _ e) (show (cc2_scratch5 : Ref sig .scVector) ≠ cc2_scratch0 by decide), SparseCore.Cfg.mem_ownRefs_of_owner (p := Proc.scVector (cV L) (sV L)) (b := ((Proc.scVector (cV L) (sV L)).devRef cc2_scratch5)) rfl⟩⟩⟩⟩⟩),
    SparseCore.bigSep_erase' (Finset.mem_erase.mpr ⟨fun e => absurd (Proc.devRef_injective _ e) (show (cc2_scratch6 : Ref sig .scVector) ≠ cc2_scratch5 by decide), Finset.mem_erase.mpr ⟨fun e => absurd (Proc.devRef_injective _ e) (show (cc2_scratch6 : Ref sig .scVector) ≠ cc2_scratch4 by decide), Finset.mem_erase.mpr ⟨fun e => absurd (Proc.devRef_injective _ e) (show (cc2_scratch6 : Ref sig .scVector) ≠ cc2_scratch3 by decide), Finset.mem_erase.mpr ⟨fun e => absurd (Proc.devRef_injective _ e) (show (cc2_scratch6 : Ref sig .scVector) ≠ cc2_scratch2 by decide), Finset.mem_erase.mpr ⟨fun e => absurd (Proc.devRef_injective _ e) (show (cc2_scratch6 : Ref sig .scVector) ≠ cc2_scratch1 by decide), Finset.mem_erase.mpr ⟨fun e => absurd (Proc.devRef_injective _ e) (show (cc2_scratch6 : Ref sig .scVector) ≠ cc2_scratch0 by decide), SparseCore.Cfg.mem_ownRefs_of_owner (p := Proc.scVector (cV L) (sV L)) (b := ((Proc.scVector (cV L) (sV L)).devRef cc2_scratch6)) rfl⟩⟩⟩⟩⟩⟩),
    SparseCore.bigSep_erase' (Finset.mem_erase.mpr ⟨fun e => absurd (Proc.devRef_injective _ e) (show (cc2_scratch7 : Ref sig .scVector) ≠ cc2_scratch6 by decide), Finset.mem_erase.mpr ⟨fun e => absurd (Proc.devRef_injective _ e) (show (cc2_scratch7 : Ref sig .scVector) ≠ cc2_scratch5 by decide), Finset.mem_erase.mpr ⟨fun e => absurd (Proc.devRef_injective _ e) (show (cc2_scratch7 : Ref sig .scVector) ≠ cc2_scratch4 by decide), Finset.mem_erase.mpr ⟨fun e => absurd (Proc.devRef_injective _ e) (show (cc2_scratch7 : Ref sig .scVector) ≠ cc2_scratch3 by decide), Finset.mem_erase.mpr ⟨fun e => absurd (Proc.devRef_injective _ e) (show (cc2_scratch7 : Ref sig .scVector) ≠ cc2_scratch2 by decide), Finset.mem_erase.mpr ⟨fun e => absurd (Proc.devRef_injective _ e) (show (cc2_scratch7 : Ref sig .scVector) ≠ cc2_scratch1 by decide), Finset.mem_erase.mpr ⟨fun e => absurd (Proc.devRef_injective _ e) (show (cc2_scratch7 : Ref sig .scVector) ≠ cc2_scratch0 by decide), SparseCore.Cfg.mem_ownRefs_of_owner (p := Proc.scVector (cV L) (sV L)) (b := ((Proc.scVector (cV L) (sV L)).devRef cc2_scratch7)) rfl⟩⟩⟩⟩⟩⟩⟩)]

end Cert.Kernel.ScSide

end
-- ==== Proof.ScSideWordsW.lean ====
/-
  The word arithmetic of the SparseCore kernel, apart from any program: the packed-row index the kernel computes from an
  id word, `((u >>> 14) <<< 12) + (u &&& 4095)`, is `4096·(u / 16384) + u % 4096` for every id below a million — the
  packed row that holds table row `u` —, lane by lane for the 16-lane vectors the kernel works on; and the bias sum is
  the lanes' sums.
-/
import proofs.«203700_g68710886802180_cont_9to1c4b_800_29_alg».proof.Proof.Packed
import Idealize.ShloMosaic.Lib.Pipeline.Value

noncomputable section

namespace Cert.Kernel.ScSide

open Idealize.ShloMosaic

/-- The packed-row index word of an id word, as the vector unit computes it. -/
def tidW (u : BitVec 32) : BitVec 32 :=
  IntOp.addi (IntOp.shli .vector (IntOp.shrui .vector u 14#32) 12#32) (IntOp.andi u 4095#32)

theorem tid_toNat (u : BitVec 32) (h : u.toNat ≤ 999999) :
    (((u >>> (14#32)) <<< (12#32)) + (u &&& 4095#32)).toNat = 4096 * (u.toNat / 16384) + u.toNat % 4096 := by
  have h1 : (u &&& 4095#32).toNat = u.toNat % 4096 := by
    rw [BitVec.toNat_and]
    exact Nat.and_two_pow_sub_one_eq_mod u.toNat 12
  have h2 : ((u >>> (14#32)) <<< (12#32)).toNat = 4096 * (u.toNat / 16384) := by
    rw [BitVec.shiftLeft_eq', BitVec.ushiftRight_eq', BitVec.toNat_shiftLeft, BitVec.toNat_ushiftRight]
    simp only [BitVec.toNat_ofNat, Nat.shiftLeft_eq, Nat.shiftRight_eq_div_pow, Nat.reduceMod, Nat.reducePow]
    omega
  rw [BitVec.toNat_add, h1, h2]
  omega

theorem tidW_toNat (u : BitVec 32) (h : u.toNat ≤ 999999) : (tidW u).toNat = 4096 * (u.toNat / 16384) + u.toNat % 4096 := by
  unfold tidW IntOp.addi IntOp.shli IntOp.shrui IntOp.andi
  rw [if_pos (by decide), if_pos (by decide)]
  exact tid_toNat u h

theorem tidW_lt (u : BitVec 32) (h : u.toNat ≤ 999999) : (tidW u).toNat < 253952 := by
  rw [tidW_toNat u h]; omega

theorem tidW_wideRow (u : BitVec 32) (h : u.toNat ≤ 999999) (h' : u.toNat < 1000000) :
    (tidW u).toNat = (Cert.Packed.wideRow u.toNat h').val := tidW_toNat u h

/-- The index computation on a vector of id words, as the kernel's text spells one group of lanes. -/
theorem tid_vec {s : Shape} (v : IVec s 32) (h1 h2 : s.ShapeCasts s) :
    shapeCast s (addi (shli (shrui (shapeCast s v h1) (broadcast s (14#32 : BitVec 32))) (broadcast s (12#32 : BitVec 32)))
      (andi (shapeCast s v h1) (broadcast s (4095#32 : BitVec 32)))) h2 = fun x => tidW (v x) := by
  rw [shapeCast_self, shapeCast_self]; rfl

/-- The bias sum on one group of lanes, as the kernel's text spells it. -/
theorem add_vec {F : FTy → Type} [FloatOps F] {s : Shape} (x y : FVec F s .f32) (h1 h2 h3 : s.ShapeCasts s) :
    shapeCast s (addf (shapeCast s x h1) (shapeCast s y h2)) h3 = fun j => FloatOps.addf (x j) (y j) := by
  rw [shapeCast_self, shapeCast_self, shapeCast_self]; rfl

end Cert.Kernel.ScSide

end
-- ==== Proof.ScSideIdxW.lean ====
/-
  Index bookkeeping for one tile: what a buffer filled by one whole write reads, which source element the indirect
  gather puts at a destination index, which entry of the index list serves a row, and where a tile's slice of an
  array sits in the array (entry `j` of the tile's slice is entry `tbase + j`).
-/
import proofs.«203700_g68710886802180_cont_9to1c4b_800_29_alg».proof.Proof.ScSideTileW
import proofs.«203700_g68710886802180_cont_9to1c4b_800_29_alg».proof.Proof.ScSideWordsW
import Idealize.ShloMosaic.Lib.SparseCore.Stream
import Idealize.ShloMosaic.Lib.Writes

noncomputable section

namespace Cert.Kernel.ScSide

open Cert.Kernel Cert.Kernel.Gen Cert.Kernel.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

variable {F : FTy → Type}

/-! ## One whole write -/

theorem whole_emb (s : Shape) (x : s.Idx) : (Rect.whole s).emb x = x := by
  funext a; apply Fin.ext
  show (Rect.whole s).off a + (Rect.whole s).stride a * (x a).val = (x a).val
  simp [Rect.whole]

theorem read_writes_whole {sig : RefSig} {κ : Kind} {sp : Space} {s : Shape} {e : EltTy} {Val : EltTy → Type}
    (v : View sig κ sp s e) (f : v.ty.Contents Val) (w : s.Idx → Val e) (y : s.Idx) :
    v.read Val (v.writes Val f [⟨Rect.whole s, w⟩]) y = w y := by
  have h := View.read_writes_cons_emb v f (Rect.whole s) w [] y
  rwa [whole_emb] at h

/-! ## The gather's payload at an index -/

theorem gather2_apply (hg : S253952x128.Gathers 0 S128x128) (g : S253952x128.Idx → Elt F .f32)
    (r : Fin (S128x128.size hg.axis') → Fin (S253952x128.size hg.axis)) (y : S128x128.Idx) (z : S253952x128.Idx)
    (h0 : (z 0).val = (r (y 0)).val) (h1 : (z 1).val = (y 1).val) :
    SparseCore.gatherPayload hg g r y = g z := by
  unfold SparseCore.gatherPayload
  congr 1
  funext a
  match a with
  | ⟨0, _⟩ => exact Fin.ext ((congrArg Fin.val (Shape.Gathers.idx_axis hg r y)).trans h0.symm)
  | ⟨1, _⟩ => exact Fin.ext ((Shape.Gathers.idx_of_ne hg r y ⟨1, by decide⟩ (by decide)).trans h1.symm)

theorem gather1_apply (hg : S1000000.Gathers 0 S128) (g : S1000000.Idx → Elt F .f32)
    (r : Fin (S128.size hg.axis') → Fin (S1000000.size hg.axis)) (y : S128.Idx) (z : S1000000.Idx)
    (h0 : (z 0).val = (r (y 0)).val) :
    SparseCore.gatherPayload hg g r y = g z := by
  unfold SparseCore.gatherPayload
  congr 1
  funext a
  match a with
  | ⟨0, _⟩ => exact Fin.ext ((congrArg Fin.val (Shape.Gathers.idx_axis hg r y)).trans h0.symm)

theorem rowMajor_symm_S128 (k : Fin S128.numel) : S128.rowMajor.symm k = ix1 (k.cast (by decide)) := by
  apply (Equiv.symm_apply_eq _).mpr
  apply Fin.ext
  rw [Shape.rowMajor_val_one]
  rfl

/-- Entry `k` of an index list of 128 words, as a row number. -/
theorem rows_val {o z : ℕ} (idx : S128.Idx → Elt F .i32) (hn : S128.numel = o) (h : ∀ x, (idx x).toNat < z) (k : Fin o) :
    (SparseCore.rows idx hn h k).val = (idx (ix1 (k.cast (hn.symm.trans (by decide : S128.numel = 128))))).toNat := by
  unfold SparseCore.rows
  show (idx (S128.rowMajor.symm (k.cast hn.symm))).toNat = _
  rw [rowMajor_symm_S128]
  rfl

/-! ## Where a tile's slices sit -/

variable (L : grid2.Coords)

theorem tbase_lt : tbase L + 128 ≤ 4096 := by
  have h0 : (L 0).val < 2 := (L 0).isLt
  have h1 : (L 1).val < 16 := (L 1).isLt
  unfold tbase; omega

theorem off1_eq : k2_off1 L 0 = tbase L := by rw [k2_off1_eq]; rfl
theorem off2_eq0 : k2_off2 L 0 = tbase L := by rw [k2_off2_eq]; rfl
theorem off2_eq1 : k2_off2 L 1 = 0 := by rw [k2_off2_eq]; rfl

theorem uSl_emb (y : S128.Idx) : (((uSl L).view.emb y) 0).val = tbase L + (y 0).val := by
  show k2_off1 L 0 + 1 * (y 0).val = _
  rw [off1_eq]; omega
theorem iSl_emb (y : S128.Idx) : (((iSl L).view.emb y) 0).val = tbase L + (y 0).val := by
  show k2_off1 L 0 + 1 * (y 0).val = _
  rw [off1_eq]; omega
theorem o2Sl_emb (y : S128.Idx) : (((o2Sl L).view.emb y) 0).val = tbase L + (y 0).val := by
  show k2_off1 L 0 + 1 * (y 0).val = _
  rw [off1_eq]; omega
theorem o0Sl_emb0 (y : S128x128.Idx) : (((o0Sl L).view.emb y) 0).val = tbase L + (y 0).val := by
  show k2_off2 L 0 + 1 * (y 0).val = _
  rw [off2_eq0]; omega
theorem o0Sl_emb1 (y : S128x128.Idx) : (((o0Sl L).view.emb y) 1).val = (y 1).val := by
  show k2_off2 L 1 + 1 * (y 1).val = _
  rw [off2_eq1]; omega
theorem o1Sl_emb0 (y : S128x128.Idx) : (((o1Sl L).view.emb y) 0).val = tbase L + (y 0).val := by
  show k2_off2 L 0 + 1 * (y 0).val = _
  rw [off2_eq0]; omega
theorem o1Sl_emb1 (y : S128x128.Idx) : (((o1Sl L).view.emb y) 1).val = (y 1).val := by
  show k2_off2 L 1 + 1 * (y 1).val = _
  rw [off2_eq1]; omega

end Cert.Kernel.ScSide

end
-- ==== Proof.ScSideValsW.lean ====
/-
  What one tile leaves in the results, as statements about values alone: a result row is the packed row its id's index
  word names (the index list holds the index word of every id of the tile, the gather copies the rows the list names,
  the copy-out puts them at the tile's rows), hence — the packed table carrying the embedding table on every real lane —
  the embedding row of the id on the quarter the id selects.
-/
import proofs.«203700_g68710886802180_cont_9to1c4b_800_29_alg».proof.Proof.ScSideIdxW

noncomputable section

namespace Cert.Kernel.ScSide

open Cert.Kernel Cert.Kernel.Gen Cert.Kernel.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

variable {F : FTy → Type} [FloatOps F]

variable (m : (ℓ : Loc nD τ sig) → Buf (Elt F) ℓ) (d : Dev nD) (L : grid2.Coords)

/-- Rows of result user: each holds, on the quarter its id selects, the embedding row the id names. -/
theorem rowsOK_user (hu : ∀ j, (m (tcLoc d main_arg0) j).toNat ≤ 999999)
    (w1 : FVec F Cert.Packed.SWide .f32) (hw1 : WideOK (m (tcLoc d main_arg2)) w1)
    (cT : Buf (Elt F) ((V d (cV L) (sV L)).loc cc2_scratch2))
    (hT : ∀ y, (sUt : Memref sig .scVector .vmem S128 .i32).view.read (Elt F) cT y = tidW (m (tcLoc d main_arg0) ((uSl L).view.emb y)))
    (hg : S253952x128.Gathers 0 S128x128) (hn : S128.numel = S128x128.size hg.axis')
    (hin : ∀ x, ((sUt : Memref sig .scVector .vmem S128 .i32).view.read (Elt F) cT x).toNat < S253952x128.size hg.axis)
    (inb : ∀ a, (![0, 0] : Fin 2 → Nat) a + S253952x128.size a ≤ S253952x128.size a)
    (s4 : Buf (Elt F) ((V d (cV L) (sV L)).loc cc2_scratch4)) (f0 : Buf (Elt F) (tcLoc d main_v6_0)) :
    RowsOK (m (tcLoc d main_arg0)) (m (tcLoc d main_arg2)) L
      ((o0Sl L).view.writes (Elt F) f0 [⟨Rect.whole S128x128,
        ReadAs.same.apply (View.read (Elt F) (sUw : Memref sig .scVector .vmem S128x128 .f32).view
          ((sUw : Memref sig .scVector .vmem S128x128 .f32).view.writes (Elt F) s4 [⟨Rect.whole S128x128,
            SparseCore.gatherPayload hg (View.read (Elt F) ((tUW : Memref sig .scVector .hbm S253952x128 .f32).slice (Rect.unit (s := S253952x128) ![0, 0] S253952x128.size inb) (fun _ => rfl)).view w1)
              (SparseCore.rows ((sUt : Memref sig .scVector .vmem S128 .i32).view.read (Elt F) cT) hn hin)⟩]))⟩]) := by
  intro b hb1 hb2 d'
  have hb : b.val - tbase L < 128 := by omega
  have hid := hu (ix1 b)
  have hlt : (m (tcLoc d main_arg0) (ix1 b)).toNat < 1000000 := by omega
  -- the tile's own row for batch entry `b`, and the lane looked at
  let y : S128x128.Idx := ix2 (⟨b.val - tbase L, hb⟩ : Fin 128) (wideLane (m (tcLoc d main_arg0) (ix1 b)).toNat d')
  have hy : (o0Sl L).view.emb y = ix2 b (wideLane (m (tcLoc d main_arg0) (ix1 b)).toNat d') := by
    funext a
    match a with
    | ⟨0, _⟩ => exact Fin.ext ((o0Sl_emb0 L y).trans (by show tbase L + (b.val - tbase L) = b.val; omega))
    | ⟨1, _⟩ => exact Fin.ext (o0Sl_emb1 L y)
  have hsl : (uSl L).view.emb (ix1 (⟨b.val - tbase L, hb⟩ : Fin 128)) = ix1 b := by
    funext a
    match a with
    | ⟨0, _⟩ => exact Fin.ext ((uSl_emb L _).trans (by show tbase L + (b.val - tbase L) = b.val; omega))
  rw [← hy]
  refine Eq.trans ((View.read_apply (v := (o0Sl L).view) _ y).trans (cast_eq _ _)).symm ?_
  rw [read_writes_whole]
  show (sUw : Memref sig .scVector .vmem S128x128 .f32).view.read (Elt F) _ y = _
  rw [read_writes_whole]
  -- the gathered row is the packed row the index word names
  rw [gather2_apply hg _ _ y (ix2 (wideRow (m (tcLoc d main_arg0) (ix1 b)).toNat hlt) (wideLane (m (tcLoc d main_arg0) (ix1 b)).toNat d'))
    (by
      show (wideRow (m (tcLoc d main_arg0) (ix1 b)).toNat hlt).val = _
      refine Eq.symm ((rows_val _ hn hin (y 0)).trans ?_)
      have hk : ∀ pf, (ix1 ((y 0).cast pf) : S128.Idx) = ix1 (⟨b.val - tbase L, hb⟩ : Fin 128) := fun _ => rfl
      rw [hk, hT, hsl]
      exact tidW_wideRow _ hid hlt)
    rfl]
  rw [show View.read (Elt F) ((tUW : Memref sig .scVector .hbm S253952x128 .f32).slice (Rect.unit (s := S253952x128) ![0, 0] S253952x128.size inb) (fun _ => rfl)).view w1
        (ix2 (wideRow (m (tcLoc d main_arg0) (ix1 b)).toNat hlt) (wideLane (m (tcLoc d main_arg0) (ix1 b)).toNat d'))
      = w1 (ix2 (wideRow (m (tcLoc d main_arg0) (ix1 b)).toNat hlt) (wideLane (m (tcLoc d main_arg0) (ix1 b)).toNat d')) from by
    refine ((View.read_apply _ _).trans (cast_eq _ _)).trans (congrArg w1 ?_)
    funext a
    match a with
    | ⟨0, _⟩ => exact Fin.ext (by show 0 + 1 * _ = _; omega)
    | ⟨1, _⟩ => exact Fin.ext (by show 0 + 1 * _ = _; omega)]
  have := hw1 ⟨(m (tcLoc d main_arg0) (ix1 b)).toNat, hlt⟩ d'
  rw [this]
  congr 1
  exact congrArg (fun r => ix2 r d') (Fin.ext (by simp only [rowOf]; omega))

/-- Rows of result item: each holds, on the quarter its id selects, the embedding row the id names. -/
theorem rowsOK_item (hu : ∀ j, (m (tcLoc d main_arg1) j).toNat ≤ 999999)
    (w1 : FVec F Cert.Packed.SWide .f32) (hw1 : WideOK (m (tcLoc d main_arg3)) w1)
    (cT : Buf (Elt F) ((V d (cV L) (sV L)).loc cc2_scratch3))
    (hT : ∀ y, (sIt : Memref sig .scVector .vmem S128 .i32).view.read (Elt F) cT y = tidW (m (tcLoc d main_arg1) ((iSl L).view.emb y)))
    (hg : S253952x128.Gathers 0 S128x128) (hn : S128.numel = S128x128.size hg.axis')
    (hin : ∀ x, ((sIt : Memref sig .scVector .vmem S128 .i32).view.read (Elt F) cT x).toNat < S253952x128.size hg.axis)
    (inb : ∀ a, (![0, 0] : Fin 2 → Nat) a + S253952x128.size a ≤ S253952x128.size a)
    (s4 : Buf (Elt F) ((V d (cV L) (sV L)).loc cc2_scratch5)) (f0 : Buf (Elt F) (tcLoc d main_v6_1)) :
    RowsOK (m (tcLoc d main_arg1)) (m (tcLoc d main_arg3)) L
      ((o1Sl L).view.writes (Elt F) f0 [⟨Rect.whole S128x128,
        ReadAs.same.apply (View.read (Elt F) (sIw : Memref sig .scVector .vmem S128x128 .f32).view
          ((sIw : Memref sig .scVector .vmem S128x128 .f32).view.writes (Elt F) s4 [⟨Rect.whole S128x128,
            SparseCore.gatherPayload hg (View.read (Elt F) ((tIW : Memref sig .scVector .hbm S253952x128 .f32).slice (Rect.unit (s := S253952x128) ![0, 0] S253952x128.size inb) (fun _ => rfl)).view w1)
              (SparseCore.rows ((sIt : Memref sig .scVector .vmem S128 .i32).view.read (Elt F) cT) hn hin)⟩]))⟩]) := by
  intro b hb1 hb2 d'
  have hb : b.val - tbase L < 128 := by omega
  have hid := hu (ix1 b)
  have hlt : (m (tcLoc d main_arg1) (ix1 b)).toNat < 1000000 := by omega
  -- the tile's own row for batch entry `b`, and the lane looked at
  let y : S128x128.Idx := ix2 (⟨b.val - tbase L, hb⟩ : Fin 128) (wideLane (m (tcLoc d main_arg1) (ix1 b)).toNat d')
  have hy : (o1Sl L).view.emb y = ix2 b (wideLane (m (tcLoc d main_arg1) (ix1 b)).toNat d') := by
    funext a
    match a with
    | ⟨0, _⟩ => exact Fin.ext ((o1Sl_emb0 L y).trans (by show tbase L + (b.val - tbase L) = b.val; omega))
    | ⟨1, _⟩ => exact Fin.ext (o1Sl_emb1 L y)
  have hsl : (iSl L).view.emb (ix1 (⟨b.val - tbase L, hb⟩ : Fin 128)) = ix1 b := by
    funext a
    match a with
    | ⟨0, _⟩ => exact Fin.ext ((iSl_emb L _).trans (by show tbase L + (b.val - tbase L) = b.val; omega))
  rw [← hy]
  refine Eq.trans ((View.read_apply (v := (o1Sl L).view) _ y).trans (cast_eq _ _)).symm ?_
  rw [read_writes_whole]
  show (sIw : Memref sig .scVector .vmem S128x128 .f32).view.read (Elt F) _ y = _
  rw [read_writes_whole]
  -- the gathered row is the packed row the index word names
  rw [gather2_apply hg _ _ y (ix2 (wideRow (m (tcLoc d main_arg1) (ix1 b)).toNat hlt) (wideLane (m (tcLoc d main_arg1) (ix1 b)).toNat d'))
    (by
      show (wideRow (m (tcLoc d main_arg1) (ix1 b)).toNat hlt).val = _
      refine Eq.symm ((rows_val _ hn hin (y 0)).trans ?_)
      have hk : ∀ pf, (ix1 ((y 0).cast pf) : S128.Idx) = ix1 (⟨b.val - tbase L, hb⟩ : Fin 128) := fun _ => rfl
      rw [hk, hT, hsl]
      exact tidW_wideRow _ hid hlt)
    rfl]
  rw [show View.read (Elt F) ((tIW : Memref sig .scVector .hbm S253952x128 .f32).slice (Rect.unit (s := S253952x128) ![0, 0] S253952x128.size inb) (fun _ => rfl)).view w1
        (ix2 (wideRow (m (tcLoc d main_arg1) (ix1 b)).toNat hlt) (wideLane (m (tcLoc d main_arg1) (ix1 b)).toNat d'))
      = w1 (ix2 (wideRow (m (tcLoc d main_arg1) (ix1 b)).toNat hlt) (wideLane (m (tcLoc d main_arg1) (ix1 b)).toNat d')) from by
    refine ((View.read_apply _ _).trans (cast_eq _ _)).trans (congrArg w1 ?_)
    funext a
    match a with
    | ⟨0, _⟩ => exact Fin.ext (by show 0 + 1 * _ = _; omega)
    | ⟨1, _⟩ => exact Fin.ext (by show 0 + 1 * _ = _; omega)]
  have := hw1 ⟨(m (tcLoc d main_arg1) (ix1 b)).toNat, hlt⟩ d'
  rw [this]
  congr 1
  exact congrArg (fun r => ix2 r d') (Fin.ext (by simp only [rowOf]; omega))

end Cert.Kernel.ScSide

end
-- ==== Proof.ScSideBiasW.lean ====
/-
  The bias row of one tile. The kernel gathers the user biases and the item biases of its 128 entries into two
  scratch vectors and adds the second into the first in place, sixteen lanes at a time: after `k` groups the first
  `16·k` lanes hold the sums and the rest still the gathered user biases (by induction on `k`; a group's load reads
  lanes no earlier group has written). After the eighth group every lane is the sum, which the copy-out puts at the
  tile's entries of the result.
-/
import proofs.«203700_g68710886802180_cont_9to1c4b_800_29_alg».proof.Proof.ScSideIdxW
import Idealize.ShloMosaic.Lib.Exec.Geometry

noncomputable section

namespace Cert.Kernel.ScSide

open Cert.Kernel Cert.Kernel.Gen Cert.Kernel.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

variable {F : FTy → Type} [FloatOps F] [∀ e, Nonempty (Elt F e)]

/-- Lanes `[16·k, 16·k + 16)` of a 128-lane buffer. -/
abbrev grp (k : Nat) (hk : k < 8) : Rect S128 :=
  Rect.unit (s := S128) ![16 * k] S16.size (Rect.inb₁ (by show 16 * k + 16 ≤ 128; omega))

/-- One group's sum, as the kernel's text spells it. -/
def sumPay (a b : Vec F S16 .f32) (hc : S16.ShapeCasts S16) : FVec F S16 .f32 :=
  shapeCast S16 (addf (shapeCast S16 a hc) (shapeCast S16 b hc)) hc

theorem sumPay_apply (a b : Vec F S16 .f32) (hc : S16.ShapeCasts S16) (x : S16.Idx) :
    sumPay a b hc x = FloatOps.addf (a x) (b x) := congrFun (add_vec a b hc hc hc) x

/-- The writes into the first bias scratch, last first: the gathered user biases, then `k` groups' sums. -/
def biasList (U I : S128.Idx → Elt F .f32) (hc : S16.ShapeCasts S16) : (k : Nat) → k ≤ 8 → List (View.Piece (Elt F) S128 .f32)
  | 0, _ => [⟨Rect.whole S128, U⟩]
  | k + 1, h =>
      ⟨grp k (by omega), sumPay ((sUb : Memref sig .scVector .vmem S128 .f32).view.readCov (biasList U I hc k (by omega)) (grp k (by omega)).toLoadRect)
        ((sIb : Memref sig .scVector .vmem S128 .f32).view.readCov [⟨Rect.whole S128, I⟩] (grp k (by omega)).toLoadRect) hc⟩ :: biasList U I hc k (by omega)

theorem grp_idx (k : Nat) (hk : k < 8) (x : S16.Idx) : (((grp k hk).toLoadRect.idx x) 0).val = 16 * k + (x 0).val := by
  show 16 * k + 1 * (x 0).val = _; omega

theorem not_mem_grp {k : Nat} {hk : k < 8} {y : S128.Idx} (h : y ∉ (grp k hk).set) : (y 0).val < 16 * k ∨ 16 * k + 16 ≤ (y 0).val := by
  by_contra hc
  apply h
  rw [Rect.mem_set_unit]
  intro a
  match a with
  | ⟨0, _⟩ => exact ⟨by show 16 * k ≤ (y 0).val; omega, by show (y 0).val < 16 * k + 16; omega⟩

theorem biasList_read (U I : S128.Idx → Elt F .f32) (hc : S16.ShapeCasts S16) :
    ∀ (k : Nat) (hk : k ≤ 8) (f : ((sUb : Memref sig .scVector .vmem S128 .f32)).view.ty.Contents (Elt F)) (y : S128.Idx),
      (sUb : Memref sig .scVector .vmem S128 .f32).view.read (Elt F) ((sUb : Memref sig .scVector .vmem S128 .f32).view.writes (Elt F) f (biasList U I hc k hk)) y
        = if (y 0).val < 16 * k then FloatOps.addf (U y) (I y) else U y := by
  intro k
  induction k with
  | zero =>
    intro hk f y
    show (sUb : Memref sig .scVector .vmem S128 .f32).view.read (Elt F) ((sUb : Memref sig .scVector .vmem S128 .f32).view.writes (Elt F) f [⟨Rect.whole S128, U⟩]) y = _
    rw [read_writes_whole, if_neg (by omega)]
  | succ k ih =>
    intro hk f y
    have hk' : k < 8 := by omega
    show (sUb : Memref sig .scVector .vmem S128 .f32).view.read (Elt F) ((sUb : Memref sig .scVector .vmem S128 .f32).view.writes (Elt F) f
      (⟨grp k hk', sumPay ((sUb : Memref sig .scVector .vmem S128 .f32).view.readCov (biasList U I hc k (by omega)) (grp k hk').toLoadRect)
        ((sIb : Memref sig .scVector .vmem S128 .f32).view.readCov [⟨Rect.whole S128, I⟩] (grp k hk').toLoadRect) hc⟩ :: biasList U I hc k (by omega))) y = _
    by_cases hy : y ∈ (grp k hk').set
    · obtain ⟨x, rfl⟩ := (grp k hk').exists_idx_of_mem hy
      refine (View.read_writes_cons_emb _ f (grp k hk') _ _ x).trans ?_
      rw [sumPay_apply]
      have hx := grp_idx k hk' x
      have hx16 : (x 0).val < 16 := (x 0).isLt
      have hU : (sUb : Memref sig .scVector .vmem S128 .f32).view.readCov (biasList U I hc k (by omega)) (grp k hk').toLoadRect x = U ((grp k hk').toLoadRect.idx x) := by
        show (sUb : Memref sig .scVector .vmem S128 .f32).view.read (Elt F) ((sUb : Memref sig .scVector .vmem S128 .f32).view.writes (Elt F) (sUb : Memref sig .scVector .vmem S128 .f32).view.junk (biasList U I hc k (by omega))) ((grp k hk').toLoadRect.idx x) = _
        rw [ih, if_neg (by omega)]
      have hI : (sIb : Memref sig .scVector .vmem S128 .f32).view.readCov [⟨Rect.whole S128, I⟩] (grp k hk').toLoadRect x = I ((grp k hk').toLoadRect.idx x) := by
        show (sIb : Memref sig .scVector .vmem S128 .f32).view.read (Elt F) ((sIb : Memref sig .scVector .vmem S128 .f32).view.writes (Elt F) (sIb : Memref sig .scVector .vmem S128 .f32).view.junk [⟨Rect.whole S128, I⟩]) ((grp k hk').toLoadRect.idx x) = _
        rw [read_writes_whole]
      rw [hU, hI, if_pos (by omega)]
    · rw [View.writes_cons, View.read_slice_write_of_not_mem (grp k hk') _ _ _ (by rw [Rect.map_emb_univ]; exact hy), ih]
      rcases not_mem_grp hy with h | h
      · rw [if_pos h, if_pos (by omega)]
      · rw [if_neg (by omega), if_neg (by omega)]

theorem bias_final (U I : S128.Idx → Elt F .f32) (hc : S16.ShapeCasts S16)
    (f : ((sUb : Memref sig .scVector .vmem S128 .f32)).view.ty.Contents (Elt F)) (y : S128.Idx) :
    (sUb : Memref sig .scVector .vmem S128 .f32).view.read (Elt F) ((sUb : Memref sig .scVector .vmem S128 .f32).view.writes (Elt F) f (biasList U I hc 8 (Nat.le_refl 8))) y = FloatOps.addf (U y) (I y) := by
  rw [biasList_read]
  exact if_pos (show (y 0).val < 16 * 8 from (y 0).isLt)

variable (m : (ℓ : Loc nD τ sig) → Buf (Elt F) ℓ) (d : Dev nD) (L : grid2.Coords)

/-- The tile's entries of the bias result are the bias row's. -/
theorem bias_ok (hu : ∀ j, (m (tcLoc d main_arg0) j).toNat ≤ 999999) (hi : ∀ j, (m (tcLoc d main_arg1) j).toNat ≤ 999999)
    (b4 : FVec F Cert.Packed.SFlat .f32) (h4 : FlatOf (m (tcLoc d main_arg4)) b4)
    (b5 : FVec F Cert.Packed.SFlat .f32) (h5 : FlatOf (m (tcLoc d main_arg5)) b5)
    (cU : Buf (Elt F) ((V d (cV L) (sV L)).loc cc2_scratch0)) (hcU : ∀ y, cU y = m (tcLoc d main_arg0) ((uSl L).view.emb y))
    (cI : Buf (Elt F) ((V d (cV L) (sV L)).loc cc2_scratch1)) (hcI : ∀ y, cI y = m (tcLoc d main_arg1) ((iSl L).view.emb y))
    (hg : S1000000.Gathers 0 S128) (hn : S128.numel = S128.size hg.axis')
    (hin3 : ∀ x, ((sUid : Memref sig .scVector .vmem S128 .i32).view.read (Elt F) cU x).toNat < S1000000.size hg.axis)
    (hin4 : ∀ x, ((sIid : Memref sig .scVector .vmem S128 .i32).view.read (Elt F) cI x).toNat < S1000000.size hg.axis)
    (inb : ∀ a, (![0] : Fin 1 → Nat) a + S1000000.size a ≤ S1000000.size a)
    (hc : S16.ShapeCasts S16) (s6 : Buf (Elt F) ((V d (cV L) (sV L)).loc cc2_scratch6)) (f2 : Buf (Elt F) (tcLoc d main_v6_2)) :
    ∀ i ∈ (o2Sl L).view.set,
      ((o2Sl L).view.writes (Elt F) f2 [⟨Rect.whole S128, ReadAs.same.apply (View.read (Elt F) (sUb : Memref sig .scVector .vmem S128 .f32).view ((sUb : Memref sig .scVector .vmem S128 .f32).view.writes (Elt F) s6
        (biasList
          (SparseCore.gatherPayload hg (View.read (Elt F) ((bUW : Memref sig .scVector .hbm S1000000 .f32).slice (Rect.unit (s := S1000000) ![0] S1000000.size inb) (fun _ => rfl)).view b4) (SparseCore.rows ((sUid : Memref sig .scVector .vmem S128 .i32).view.read (Elt F) cU) hn hin3))
          (SparseCore.gatherPayload hg (View.read (Elt F) ((bIW : Memref sig .scVector .hbm S1000000 .f32).slice (Rect.unit (s := S1000000) ![0] S1000000.size inb) (fun _ => rfl)).view b5) (SparseCore.rows ((sIid : Memref sig .scVector .vmem S128 .i32).view.read (Elt F) cI) hn hin4))
          hc 8 (Nat.le_refl 8))))⟩]) i
      = biasRow (m (tcLoc d main_arg0)) (m (tcLoc d main_arg1)) (m (tcLoc d main_arg4)) (m (tcLoc d main_arg5)) i := by
  intro i hi'
  obtain ⟨y, -, rfl⟩ := Finset.mem_map.mp hi'
  refine Eq.trans ((View.read_apply (v := (o2Sl L).view) _ y).trans (cast_eq _ _)).symm ?_
  rw [read_writes_whole]
  show (sUb : Memref sig .scVector .vmem S128 .f32).view.read (Elt F) _ y = _
  rw [bias_final]
  -- the entry of the id arrays this lane serves
  have hju : (o2Sl L).view.emb y = (uSl L).view.emb y := by
    funext a
    match a with
    | ⟨0, _⟩ => exact Fin.ext ((o2Sl_emb L y).trans (uSl_emb L y).symm)
  have hji : (o2Sl L).view.emb y = (iSl L).view.emb y := by
    funext a
    match a with
    | ⟨0, _⟩ => exact Fin.ext ((o2Sl_emb L y).trans (iSl_emb L y).symm)
  have hidu := hu ((uSl L).view.emb y)
  have hidi := hi ((iSl L).view.emb y)
  have hk : ∀ pf, (ix1 ((y 0).cast pf) : S128.Idx) = y := fun _ => by
    funext a
    match a with
    | ⟨0, _⟩ => rfl
  have hfull : ∀ z : S1000000.Idx, (((bUW : Memref sig .scVector .hbm S1000000 .f32).slice (Rect.unit (s := S1000000) ![0] S1000000.size inb) (fun _ => rfl)).view.emb z = z) ∧ (((bIW : Memref sig .scVector .hbm S1000000 .f32).slice (Rect.unit (s := S1000000) ![0] S1000000.size inb) (fun _ => rfl)).view.emb z = z) := fun z =>
    ⟨by funext a; match a with | ⟨0, _⟩ => exact Fin.ext (by show 0 + 1 * _ = _; omega),
     by funext a; match a with | ⟨0, _⟩ => exact Fin.ext (by show 0 + 1 * _ = _; omega)⟩
  rw [gather1_apply hg _ _ y (ix1 (rowOf (m (tcLoc d main_arg0) ((uSl L).view.emb y))))
      (by
        show (rowOf (m (tcLoc d main_arg0) ((uSl L).view.emb y))).val = _
        refine Eq.symm ((rows_val _ hn hin3 (y 0)).trans ?_)
        rw [hk]
        show (cU y).toNat = _
        rw [hcU y]
        exact (Cert.Packed.rowOf_val hidu).symm),
    gather1_apply hg _ _ y (ix1 (rowOf (m (tcLoc d main_arg1) ((iSl L).view.emb y))))
      (by
        show (rowOf (m (tcLoc d main_arg1) ((iSl L).view.emb y))).val = _
        refine Eq.symm ((rows_val _ hn hin4 (y 0)).trans ?_)
        rw [hk]
        show (cI y).toNat = _
        rw [hcI y]
        exact (Cert.Packed.rowOf_val hidi).symm)]
  rw [show View.read (Elt F) ((bUW : Memref sig .scVector .hbm S1000000 .f32).slice (Rect.unit (s := S1000000) ![0] S1000000.size inb) (fun _ => rfl)).view b4 (ix1 (rowOf (m (tcLoc d main_arg0) ((uSl L).view.emb y))))
        = b4 (ix1 (rowOf (m (tcLoc d main_arg0) ((uSl L).view.emb y)))) from
      ((View.read_apply _ _).trans (cast_eq _ _)).trans (congrArg b4 (hfull _).1),
    show View.read (Elt F) ((bIW : Memref sig .scVector .hbm S1000000 .f32).slice (Rect.unit (s := S1000000) ![0] S1000000.size inb) (fun _ => rfl)).view b5 (ix1 (rowOf (m (tcLoc d main_arg1) ((iSl L).view.emb y))))
        = b5 (ix1 (rowOf (m (tcLoc d main_arg1) ((iSl L).view.emb y)))) from
      ((View.read_apply _ _).trans (cast_eq _ _)).trans (congrArg b5 (hfull _).2),
    h4, h5]
  show _ = FloatOps.addf (m (tcLoc d main_arg4) (ix2 (rowOf (m (tcLoc d main_arg0) ((o2Sl L).view.emb y))) 0))
    (m (tcLoc d main_arg5) (ix2 (rowOf (m (tcLoc d main_arg1) ((o2Sl L).view.emb y))) 0))
  rw [← hju, show (iSl L).view.emb y = (o2Sl L).view.emb y from hji.symm]

end Cert.Kernel.ScSide

end
-- ==== Proof.ScSideBodyW.lean ====
/-
  One tile's task, proved once at a symbolic place, with the values it leaves.

  The tile copies its 128 user ids and item ids into two scratch lists (two copies, each waited for on its own
  semaphore), computes for every id the index of the packed row that holds its table row — sixteen lanes at a time, into
  two more lists —, and starts four indirect gathers, each on a semaphore of its own: the packed user rows and item rows
  its index lists name, and the user and item biases its id lists name. Every index is in range: an id is below a
  million by the precondition, and its packed-row index is then below 253952 (the word identity). Nothing touches a
  gather's source, list or destination between its start and its wait. After the first gather's wait the packed user
  rows go out to the tile's rows of the first result, after the second the item rows to the second result; after the
  last two the item biases are added into the user biases, sixteen lanes at a time, and the sums go out to the tile's
  entries of the third result. What the three results then hold at the tile's rows is read off the run: the packed row
  each id names (hence, on the quarter the id selects, the id's embedding row) and the two biases' sum.
-/
import proofs.«203700_g68710886802180_cont_9to1c4b_800_29_alg».proof.Proof.ScSideTileW
import proofs.«203700_g68710886802180_cont_9to1c4b_800_29_alg».proof.Proof.Gen.Kernel.Skeleton
import Idealize.ShloMosaic.Lib.SparseCore.Ops
import Idealize.ShloMosaic.Lib.SparseCore.Stream
import Idealize.ShloMosaic.Lib.Writes
import proofs.«203700_g68710886802180_cont_9to1c4b_800_29_alg».proof.Proof.ScSideWordsW
import proofs.«203700_g68710886802180_cont_9to1c4b_800_29_alg».proof.Proof.ScSideValsW
import proofs.«203700_g68710886802180_cont_9to1c4b_800_29_alg».proof.Proof.ScSideBiasW

noncomputable section

namespace Cert.Kernel.ScSide

open Cert.Kernel Cert.Kernel.Gen Cert.Kernel.Setup

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Packed (WideOK PackedOK FlatOf biasRow rowOf wideRow wideLane)

open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid2.Coords)

set_option maxHeartbeats 3200000 in
theorem tile_body (hF : (K (F := F)).Facts)
    (hu : ∀ j, (m (tcLoc d main_arg0) j).toNat ≤ 999999) (hi : ∀ j, (m (tcLoc d main_arg1) j).toNat ≤ 999999)
    (q : PosShare TreeShare) (O : CellTallies nD τ sig (HIx 1)) (W : Waits sig (HIx 1)) (hO : ∀ g, O g none = 0) :
    iprop(levAts (K (F := F)).L (K (F := F)).lev ∗ emp ∗ tileIn m d L q
        ∗ scopedBufs (V d (cV L) (sV L)) ∗ scopedSems0 (V d (cV L) (sV L)) ∗ owes (V d (cV L) (sV L)) O W)
      ⊢ wp frame (wpE (defs₀ (F := F)) 𝒱₀ (V d (cV L) (sV L)) none) Set.univ
          (cc2__sc_gather L tUW (Memref.isWhole_whole _) tIW (Memref.isWhole_whole _) aUW (Memref.isWhole_whole _) aIW (Memref.isWhole_whole _) bUW (Memref.isWhole_whole _) bIW (Memref.isWhole_whole _) o0W (Memref.isWhole_whole _) o1W (Memref.isWhole_whole _) o2W (Memref.isWhole_whole _) sUid (Memref.isWhole_whole _) sIid (Memref.isWhole_whole _) sUt (Memref.isWhole_whole _) sIt (Memref.isWhole_whole _) sUw (Memref.isWhole_whole _) sIw (Memref.isWhole_whole _) sUb (Memref.isWhole_whole _) sIb (Memref.isWhole_whole _) cc2_scratch8 cc2_scratch9 cc2_scratch10 cc2_scratch11 cc2_scoped0 cc2_scoped1 cc2_scoped2 cc2_scoped3 cc2_scoped4)
          fun _ => iprop(tileOut m d L ∗ scopedBufs (V d (cV L) (sV L)) ∗ scopedSems0 (V d (cV L) (sV L))
            ∗ ∃ W', ⌜∀ p ∈ W', p ∈ W ∨ p.2 = none⌝ ∗ owes (V d (cV L) (sV L)) O W') := by
  simp only [cc2__sc_gather_eq_skeleton]; unfold cc2__sc_gather_skel
  rw [(K (F := F)).scopedBufs_V hF d (cV L) (sV L), SparseCore.Cfg.scopedSems0_V (Val := Elt F) d (cV L) (sV L), ownSems0_V, ownBufs_V]
  unfold tileIn
  iintro ⟨#Hlv, -, ⟨⟨%w1, %hw1, HtU⟩, ⟨%w3, %hw3, HtI⟩, HaU, HaI, ⟨%b4, %h4, HbU⟩, ⟨%b5, %h5, HbI⟩, ⟨%f0, Ho0⟩, ⟨%f1, Ho1⟩, ⟨%f2, Ho2⟩⟩,
    ⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, Hbufs⟩, ⟨Hc0, Hc1, Hc2, Hc3, Hc4, Hc5, Hc6, Hc7, Hc8, Hsems⟩, HO⟩
  ihave Hmw := ((K (F := F)).mayWaits_none (thr := (V d (cV L) (sV L))) hO) $$ Hlv
  ihave HtU := (Entails.of_eq (pts_tUW (F := F) d L _ _).symm) $$ HtU
  ihave HtI := (Entails.of_eq (pts_tIW (F := F) d L _ _).symm) $$ HtI
  ihave HbU := (Entails.of_eq (pts_bUW (F := F) d L _ _).symm) $$ HbU
  ihave HbI := (Entails.of_eq (pts_bIW (F := F) d L _ _).symm) $$ HbI
  ihave HaU := (Entails.of_eq (pts_uSl (F := F) d L _).symm) $$ HaU
  ihave HaI := (Entails.of_eq (pts_iSl (F := F) d L _).symm) $$ HaI
  ihave Ho0 := (Entails.of_eq (pts_o0Sl (F := F) d L _).symm) $$ Ho0
  ihave Ho1 := (Entails.of_eq (pts_o1Sl (F := F) d L _).symm) $$ Ho1
  ihave Ho2 := (Entails.of_eq (pts_o2Sl (F := F) d L _).symm) $$ Ho2
  ihave Hs0 := (Entails.of_eq (pts_sUid (F := F) d L _).symm) $$ Hs0
  ihave Hs1 := (Entails.of_eq (pts_sIid (F := F) d L _).symm) $$ Hs1
  ihave Hs2 := (Entails.of_eq (pts_sUt (F := F) d L _).symm) $$ Hs2
  ihave Hs3 := (Entails.of_eq (pts_sIt (F := F) d L _).symm) $$ Hs3
  ihave Hs4 := (Entails.of_eq (pts_sUw (F := F) d L _).symm) $$ Hs4
  ihave Hs5 := (Entails.of_eq (pts_sIw (F := F) d L _).symm) $$ Hs5
  ihave Hs6 := (Entails.of_eq (pts_sUb (F := F) d L _).symm) $$ Hs6
  ihave Hs7 := (Entails.of_eq (pts_sIb (F := F) d L _).symm) $$ Hs7
  sl_exec
  -- what the two id scratches hold after their copies: the tile's entries of the id arrays
  have hcU : ∀ y, (View.write (Elt F) (sUid : Memref sig .scVector .vmem S128 .i32).view s0 (tile_body.sl.dma0 m d L) Finset.univ) y = m (tcLoc d main_arg0) ((uSl L).view.emb y) := by
    intro y
    rw [show View.write (Elt F) (sUid : Memref sig .scVector .vmem S128 .i32).view s0 (tile_body.sl.dma0 m d L) Finset.univ = tile_body.sl.dma0 m d L from View.write_whole_univ _ _ _]
    exact (View.read_apply _ _).trans (cast_eq _ _)
  have hcI : ∀ y, (View.write (Elt F) (sIid : Memref sig .scVector .vmem S128 .i32).view s1 (tile_body.sl.dma0_1 m d L) Finset.univ) y = m (tcLoc d main_arg1) ((iSl L).view.emb y) := by
    intro y
    rw [show View.write (Elt F) (sIid : Memref sig .scVector .vmem S128 .i32).view s1 (tile_body.sl.dma0_1 m d L) Finset.univ = tile_body.sl.dma0_1 m d L from View.write_whole_univ _ _ _]
    exact (View.read_apply _ _).trans (cast_eq _ _)
  -- the packed-row index list of the user ids: lane by lane the index word of the id
  have hT : ∀ y, (sUt : Memref sig .scVector .vmem S128 .i32).view.read (Elt F) ((sUt : Memref sig .scVector .vmem S128 .i32).view.writes (Elt F) (sUt : Memref sig .scVector .vmem S128 .i32).view.junk (tile_body.sl.Hs2_8 m d L s0)) y
      = tidW ((View.write (Elt F) (sUid : Memref sig .scVector .vmem S128 .i32).view s0 (tile_body.sl.dma0 m d L) Finset.univ) y) := by
    intro y
    refine View.read_writes_apply_of_pieces (Val := Elt F) (sUt : Memref sig .scVector .vmem S128 .i32).view (sUt : Memref sig .scVector .vmem S128 .i32).view.junk (fun y => tidW ((View.write (Elt F) (sUid : Memref sig .scVector .vmem S128 .i32).view s0 (tile_body.sl.dma0 m d L) Finset.univ) y)) _ ?_ y (View.cover_of_tiled (s := S128) (tile_body.sl.Hs2_8 m d L s0) S16.size rfl y)
    intro p hp x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    exact absurd hp (List.not_mem_nil)
  have hin1 : ∀ x, ((sUt : Memref sig .scVector .vmem S128 .i32).view.read (Elt F) ((sUt : Memref sig .scVector .vmem S128 .i32).view.writes (Elt F) (sUt : Memref sig .scVector .vmem S128 .i32).view.junk (tile_body.sl.Hs2_8 m d L s0)) x).toNat < S253952x128.size gathers_S253952x128_S128x128.axis := by
    intro x
    rw [hT x]
    exact tidW_lt _ (by rw [hcU]; exact hu _)
  sl_exec
  generalize hcT : (sIt : Memref sig .scVector .vmem S128 .i32).view.writes (Elt F) (sIt : Memref sig .scVector .vmem S128 .i32).view.junk _ = cT
  have hTI : ∀ y, (sIt : Memref sig .scVector .vmem S128 .i32).view.read (Elt F) cT y = tidW ((View.write (Elt F) (sIid : Memref sig .scVector .vmem S128 .i32).view s1 (tile_body.sl.dma0_1 m d L) Finset.univ) y) := by
    intro y
    rw [← hcT]
    refine View.read_writes_apply_of_pieces (Val := Elt F) (sIt : Memref sig .scVector .vmem S128 .i32).view (sIt : Memref sig .scVector .vmem S128 .i32).view.junk (fun y => tidW ((View.write (Elt F) (sIid : Memref sig .scVector .vmem S128 .i32).view s1 (tile_body.sl.dma0_1 m d L) Finset.univ) y)) _ ?hG y ?hcov
    case hcov => exact View.cover_of_tiled (s := S128) _ S16.size rfl y
    intro p hp x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    rcases List.mem_cons.mp hp with rfl | hp
    · exact congrFun (tid_vec _ _ _) x
    exact absurd hp (List.not_mem_nil)
  have hin2 : ∀ x, ((sIt : Memref sig .scVector .vmem S128 .i32).view.read (Elt F) cT x).toNat < S253952x128.size gathers_S253952x128_S128x128.axis := by
    intro x
    rw [hTI x]
    exact tidW_lt _ (by rw [hcI]; exact hi _)
  sl_exec
  have hin3 : ∀ x, ((sUid : Memref sig .scVector .vmem S128 .i32).view.read (Elt F) (View.write (Elt F) (sUid : Memref sig .scVector .vmem S128 .i32).view s0 (tile_body.sl.dma0 m d L) Finset.univ) x).toNat < S1000000.size gathers_S1000000_S128.axis := by
    intro x
    have h := hu ((uSl L).view.emb x)
    rw [← hcU x] at h
    exact Nat.lt_of_le_of_lt h (by decide)
  sl_exec
  have hin4 : ∀ x, ((sIid : Memref sig .scVector .vmem S128 .i32).view.read (Elt F) (View.write (Elt F) (sIid : Memref sig .scVector .vmem S128 .i32).view s1 (tile_body.sl.dma0_1 m d L) Finset.univ) x).toNat < S1000000.size gathers_S1000000_S128.axis := by
    intro x
    have h := hi ((iSl L).view.emb x)
    rw [← hcI x] at h
    exact Nat.lt_of_le_of_lt h (by decide)
  sl_exec
  sl_step
  unfold tileOut
  isplitl [HaU HaI Ho0 Ho1 Ho2]
  · isplitl [HaU]
    · iapply (Entails.of_eq (pts_uSl (F := F) d L _)); iexact HaU
    isplitl [HaI]
    · iapply (Entails.of_eq (pts_iSl (F := F) d L _)); iexact HaI
    isplitl [Ho0]
    · iexists ((o0Sl L).view.writes (Elt F) f0 [⟨Rect.whole S128x128, tile_body.sl.dma0_2 m d L w1 s0 s4 hin1⟩]); isplitr
      · ipureintro; exact rowsOK_user m d L hu w1 hw1 _ (fun y => (hT y).trans (congrArg tidW (hcU y))) _ _ hin1 _ s4 f0
      · iapply (Entails.of_eq (pts_o0Sl (F := F) d L _)); iexact Ho0
    isplitl [Ho1]
    · iexists ((o1Sl L).view.writes (Elt F) f1 [⟨Rect.whole S128x128, tile_body.sl.dma0_3 d L w3 s5 cT hin2⟩]); isplitr
      · ipureintro; exact rowsOK_item m d L hi w3 hw3 cT (fun y => (hTI y).trans (congrArg tidW (hcI y))) _ _ hin2 _ s5 f1
      · iapply (Entails.of_eq (pts_o1Sl (F := F) d L _)); iexact Ho1
    · have hV2 : ∀ i ∈ (o2Sl L).view.set, ((o2Sl L).view.writes (Elt F) f2 [⟨Rect.whole S128, tile_body.sl.dma32 m d L b4 b5 s0 s1 s6 hin3 hin4⟩]) i
          = biasRow (m (tcLoc d main_arg0)) (m (tcLoc d main_arg1)) (m (tcLoc d main_arg4)) (m (tcLoc d main_arg5)) i := bias_ok m d L hu hi b4 h4 b5 h5 (View.write (Elt F) (sUid : Memref sig .scVector .vmem S128 .i32).view s0 (tile_body.sl.dma0 m d L) Finset.univ) hcU (View.write (Elt F) (sIid : Memref sig .scVector .vmem S128 .i32).view s1 (tile_body.sl.dma0_1 m d L) Finset.univ) hcI gathers_S1000000_S128 (by decide) hin3 hin4 inb_S1000000_S1000000_0 shapeCasts_S16_S16 s6 f2
      iapply (Entails.of_eq ((pointsTo_congr hV2).trans (pts_o2Sl (F := F) d L _))); iexact Ho2
  isplitl [Hs0 Hs1 Hs2 Hs3 Hs4 Hs5 Hs6 Hs7 Hbufs]
  · isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    iexact Hbufs
  isplitl [Hc0 Hc1 Hc2 Hc3 Hc4 Hc5 Hc6 Hc7 Hc8 Hsems]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    iexact Hsems
  iexists _; isplitr
  rotate_left
  · iexact HO
  · ipureintro; intro p hp
    simp only [Finset.mem_insert] at hp
    rcases hp with rfl | rfl | rfl | rfl | rfl | rfl | rfl | rfl | rfl | hp
    · exact .inr rfl
    · exact .inr rfl
    · exact .inr rfl
    · exact .inr rfl
    · exact .inr rfl
    · exact .inr rfl
    · exact .inr rfl
    · exact .inr rfl
    · exact .inr rfl
    · exact .inl hp

/-! ## The launch theorem's obligation -/

theorem defs₀_vector (c : Fin τ.nSC) (s : Fin τ.nSub) :
    defs₀ (F := F) (.scVector c s) 2 ()
      = SparseCore.onTile hcore2 hsub2 (fun c s => cc2__sc_gather (coordsV c s) tUW (Memref.isWhole_whole _) tIW (Memref.isWhole_whole _) aUW (Memref.isWhole_whole _) aIW (Memref.isWhole_whole _) bUW (Memref.isWhole_whole _) bIW (Memref.isWhole_whole _) o0W (Memref.isWhole_whole _) o1W (Memref.isWhole_whole _) o2W (Memref.isWhole_whole _) sUid (Memref.isWhole_whole _) sIid (Memref.isWhole_whole _) sUt (Memref.isWhole_whole _) sIt (Memref.isWhole_whole _) sUw (Memref.isWhole_whole _) sIw (Memref.isWhole_whole _) sUb (Memref.isWhole_whole _) sIb (Memref.isWhole_whole _) cc2_scratch8 cc2_scratch9 cc2_scratch10 cc2_scratch11 cc2_scoped0 cc2_scoped1 cc2_scoped2 cc2_scoped3 cc2_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, from its operands and its own storage to its results. -/
theorem tileObl (hF : (K (F := F)).Facts)
    (hu : ∀ (d : Dev nD) j, (m (tcLoc d main_arg0) j).toNat ≤ 999999) (hi : ∀ (d : Dev nD) j, (m (tcLoc d main_arg1) j).toNat ≤ 999999) :
    (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  have hc : ((K (F := F)).core 0 c).val < grid2.bound 0 ∧ ((K (F := F)).sub 0 i).val < grid2.bound 1 := ⟨c.isLt, i.isLt⟩
  rw [defs₀_vector]; simp only [SparseCore.onTile, hc, and_self, ↓reduceDIte]
  rw [P_go, P_td, P_x]
  exact (tile_body m d (coordsV ⟨_, hc.1⟩ ⟨_, hc.2⟩) hF (hu d) (hi d) _ O W hO).trans (wp_mono frame _ _ fun _ => obl_post)

end Cert.Kernel.ScSide
end
-- ==== Proof.ClaimsFinal.lean ====
/-
  The two kernel programs' runs from their parts — one vector subcore's task and the split of a SparseCore's operands
  among its tasks, the two TensorCore stretches of @main around the SparseCore call, the hand-over of the call's operands
  and results — and, from the runs, the certificate's three kernel-side claims. The word-level program and the idealized one
  are one text, so each part exists twice, once per program.
-/
import proofs.«203700_g68710886802180_cont_9to1c4b_800_29_alg».proof.Proof.ClaimsOf
import proofs.«203700_g68710886802180_cont_9to1c4b_800_29_alg».proof.Proof.StretchA
import proofs.«203700_g68710886802180_cont_9to1c4b_800_29_alg».proof.Proof.StretchAW
import proofs.«203700_g68710886802180_cont_9to1c4b_800_29_alg».proof.Proof.StretchB
import proofs.«203700_g68710886802180_cont_9to1c4b_800_29_alg».proof.Proof.StretchBW
import proofs.«203700_g68710886802180_cont_9to1c4b_800_29_alg».proof.Proof.ScSideBody
import proofs.«203700_g68710886802180_cont_9to1c4b_800_29_alg».proof.Proof.ScSideBodyW
import proofs.«203700_g68710886802180_cont_9to1c4b_800_29_alg».proof.Proof.ScSideHand
import proofs.«203700_g68710886802180_cont_9to1c4b_800_29_alg».proof.Proof.ScSideHandW

noncomputable section

namespace Cert.Proof.Claims

open Idealize.ShloMosaic Idealize.SL.Sem
open Idealize.SL Idealize.SL.BI
open scoped Idealize.SL.BI
open Idealize.SL.BI.BIBase Idealize.SL.BI.Laws Idealize.SL.ProofMode Idealize.SL.RA

/-- What the SparseCore call brings back, in the second stretch's spelling (idealized program). -/
theorem back_ki (m : (ℓ : Loc Cert.KernelIdeal.nD Cert.KernelIdeal.τ Cert.KernelIdeal.sig) → Buf (Elt Ideal) ℓ)
    (hu : ∀ d j, (m (Cert.KernelIdeal.Hmain.tloc d Cert.KernelIdeal.main_arg0) j).toNat ≤ 999999)
    (hi : ∀ d j, (m (Cert.KernelIdeal.Hmain.tloc d Cert.KernelIdeal.main_arg1) j).toNat ≤ 999999) (d : Dev Cert.KernelIdeal.nD) :
    (bigSep Finset.univ fun c : Fin ((Cert.KernelIdeal.Setup.K (F := Ideal)).nCore 0) => (Cert.KernelIdeal.ScSide.P m).dn 0 d c)
      ⊢ Cert.KernelIdeal.StretchB.HandBack m d := by
  unfold Cert.KernelIdeal.StretchB.HandBack
  exact Cert.KernelIdeal.ScSide.dn_elim m d (hu d) (hi d)

/-- The same for the word-level program. -/
theorem back_k (m : (ℓ : Loc Cert.Kernel.nD Cert.Kernel.τ Cert.Kernel.sig) → Buf (Elt Bits) ℓ)
    (hu : ∀ d j, (m (Cert.Kernel.Hmain.tloc d Cert.Kernel.main_arg0) j).toNat ≤ 999999)
    (hi : ∀ d j, (m (Cert.Kernel.Hmain.tloc d Cert.Kernel.main_arg1) j).toNat ≤ 999999) (d : Dev Cert.Kernel.nD) :
    (bigSep Finset.univ fun c : Fin ((Cert.Kernel.Setup.K (F := Bits)).nCore 0) => (Cert.Kernel.ScSide.P m).dn 0 d c)
      ⊢ Cert.Kernel.StretchB.HandBack m d := by
  unfold Cert.Kernel.StretchB.HandBack
  exact Cert.Kernel.ScSide.dn_elim m d (hu d) (hi d)

/-- The idealized kernel program's run. -/
theorem run_ki (m : (ℓ : Loc Cert.KernelIdeal.nD Cert.KernelIdeal.τ Cert.KernelIdeal.sig) → Buf (Elt Ideal) ℓ) (g : Dev Cert.KernelIdeal.nD → PrngReg)
    (hpre : Cert.Pre_KernelIdeal m) :
    θ_run (Cert.KernelIdeal.defs (F := Ideal)) (Cert.KernelIdeal.threads (F := Ideal)) ⟨m, fun _ => 0, g⟩
      (Cert.KernelIdeal.Hmain.QC m (Cert.KernelIdeal.StretchB.FinOK m)) :=
  have hu := fun d => (ids_ok m hpre d).1
  have hi := fun d => (ids_ok m hpre d).2
  Cert.KernelIdeal.Hmain.run_main m g (Cert.KernelIdeal.ScSide.P m) (Cert.KernelIdeal.ScSide.P_x m) rfl
    (Cert.KernelIdeal.ScSide.tileObl m Cert.KernelIdeal.Setup.facts hu hi) (Cert.KernelIdeal.ScSide.vecSplit m)
    (Cert.KernelIdeal.StretchB.FinOK m) (Cert.KernelIdeal.StretchB.RestA (Cert.KernelIdeal.StretchA.W3 m))
    (Cert.KernelIdeal.StretchA.sideA m g)
    (Cert.KernelIdeal.StretchB.sideB m (Cert.KernelIdeal.StretchA.W3 m) (Cert.KernelIdeal.StretchA.W3_main_arg2 m) (Cert.KernelIdeal.StretchA.W3_main_arg3 m)
      (Cert.KernelIdeal.StretchA.W3_main_arg4 m) (Cert.KernelIdeal.StretchA.W3_main_arg5 m) (back_ki m hu hi))

/-- The word-level kernel program's run. -/
theorem run_k (m : (ℓ : Loc Cert.Kernel.nD Cert.Kernel.τ Cert.Kernel.sig) → Buf (Elt Bits) ℓ) (g : Dev Cert.Kernel.nD → PrngReg)
    (hpre : Cert.Pre_Kernel m) :
    θ_run (Cert.Kernel.defs (F := Bits)) (Cert.Kernel.threads (F := Bits)) ⟨m, fun _ => 0, g⟩
      (Cert.Kernel.Hmain.QC m (Cert.Kernel.StretchB.FinOK m)) :=
  have hu := fun d => (ids_okW m hpre d).1
  have hi := fun d => (ids_okW m hpre d).2
  Cert.Kernel.Hmain.run_main m g (Cert.Kernel.ScSide.P m) (Cert.Kernel.ScSide.P_x m) rfl
    (Cert.Kernel.ScSide.tileObl m Cert.Kernel.Setup.facts hu hi) (Cert.Kernel.ScSide.vecSplit m)
    (Cert.Kernel.StretchB.FinOK m) (Cert.Kernel.StretchB.RestA (Cert.Kernel.StretchA.W3 m))
    (Cert.Kernel.StretchA.sideA m g)
    (Cert.Kernel.StretchB.sideB m (Cert.Kernel.StretchA.W3 m) (Cert.Kernel.StretchA.W3_main_arg2 m) (Cert.Kernel.StretchA.W3_main_arg3 m)
      (Cert.Kernel.StretchA.W3_main_arg4 m) (Cert.Kernel.StretchA.W3_main_arg5 m) (back_k m hu hi))

theorem frame_ki : Cert.frame_KernelIdeal := frame_ki_of run_ki
theorem frame_k : Cert.frame_Kernel := frame_k_of (fun m => Cert.Kernel.StretchB.FinOK m) run_k
theorem algebraic : Cert.algebraic_KernelIdeal_ReferenceIdeal := algebraic_of run_ki

end Cert.Proof.Claims

end
-- ==== Proof.lean ====
/-
  The certificate: a batched matrix-factorisation score. For 4096 (user id, item id) pairs over two tables of a million
  32-wide embedding rows and two tables of a million biases, the result is the 4096 × 4096 table whose entry (r, c) is the
  inner product of pair c's two embedding rows plus pair r's two biases.

  The reference gathers the rows and biases and forms (dot c + userBias r) + itemBias r. The kernel first re-lays each
  embedding table into rows of four packed table rows (two pipelines on the TensorCore, each fed by a host transpose);
  then thirty-two vector subcores of the two SparseCores each gather, for 128 pairs, the packed rows and the biases their
  ids name and add the two biases; then the TensorCore picks, per pair, the quarter of each packed row its id selects,
  multiplies, sums over the 32 lanes, and a last pipeline adds the bias sums down the rows to the inner products along the
  columns: (userBias r + itemBias r) + dot c. On the extended reals addition is commutative and associative without side
  condition, so the two tables are one.

  The five claims: the reference's frame and run are read off its straight line of host operations; the two kernel
  programs (the word-level one and its idealization, one text) run by the SparseCore launch theorem, @main cut at the
  SparseCore call into two stretches of host lines and pipelines; no operation was rewritten by the idealization, so
  the preservation claim is trivial; the value claim joins the kernel's closed form to the score table.
-/
import proofs.«203700_g68710886802180_cont_9to1c4b_800_29_alg».proof.Defs
import proofs.«203700_g68710886802180_cont_9to1c4b_800_29_alg».proof.Proof.Gen.Kernel
import proofs.«203700_g68710886802180_cont_9to1c4b_800_29_alg».proof.Proof.Gen.KernelIdeal
import proofs.«203700_g68710886802180_cont_9to1c4b_800_29_alg».proof.Proof.Gen.ReferenceIdeal
import proofs.«203700_g68710886802180_cont_9to1c4b_800_29_alg».proof.Proof.Gen.Pre_input_domain
import proofs.«203700_g68710886802180_cont_9to1c4b_800_29_alg».proof.Proof.ClaimsFinal
import proofs.«203700_g68710886802180_cont_9to1c4b_800_29_alg».proof.Proof.RefSide

noncomputable section

namespace Cert.Proof

theorem claim : Cert.Claim :=
  ⟨Cert.Kernel.Gen.facts, Cert.KernelIdeal.Gen.facts, Cert.ReferenceIdeal.Gen.facts, Cert.Pre_input_domain.Gen.facts,
    Cert.Proof.Claims.frame_k, Cert.Proof.Claims.frame_ki, Cert.RefSide.frame, trivial, Cert.Proof.Claims.algebraic⟩

end Cert.Proof

end
